-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v266) = v0 c
          ∧ r.2.mem ((c.tc : Thread Cert.ReferenceIdeal.nD Cert.ReferenceIdeal.τ).loc Cert.ReferenceIdeal.main_v279) = v1 c
          ∧ r.2.mem ((c.tc : Thread Cert.ReferenceIdeal.nD Cert.ReferenceIdeal.τ).loc Cert.ReferenceIdeal.main_v283) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4x1024x1024 : Shape := ⟨3, ![4, 1024, 1024]⟩
abbrev S4x4096 : Shape := ⟨2, ![4, 4096]⟩
abbrev S4x1024 : Shape := ⟨2, ![4, 1024]⟩
abbrev S5x1024x1024 : Shape := ⟨3, ![5, 1024, 1024]⟩
abbrev S5x1024 : Shape := ⟨2, ![5, 1024]⟩
abbrev S4096 : Shape := ⟨1, ![4096]⟩
abbrev S4096x1024 : Shape := ⟨2, ![4096, 1024]⟩
abbrev S1024 : Shape := ⟨1, ![1024]⟩
abbrev S1024x1024 : Shape := ⟨2, ![1024, 1024]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4x1024x1024 : S_.BroadcastsInDim S4x1024x1024 (![] : Fin 0 → Fin S4x1024x1024.rank)
  reducesTo_S4x1024x1024_S_d0_1_2 : S4x1024x1024.ReducesTo [0, 1, 2] S_
  bcast_S_S4x4096 : S_.BroadcastsInDim S4x4096 (![] : Fin 0 → Fin S4x4096.rank)
  reducesTo_S4x4096_S_d0_1 : S4x4096.ReducesTo [0, 1] S_
  bcast_S_S4x1024 : S_.BroadcastsInDim S4x1024 (![] : Fin 0 → Fin S4x1024.rank)
  reducesTo_S4x1024_S_d0_1 : S4x1024.ReducesTo [0, 1] S_
  bcast_S_S5x1024x1024 : S_.BroadcastsInDim S5x1024x1024 (![] : Fin 0 → Fin S5x1024x1024.rank)
  reducesTo_S5x1024x1024_S_d0_1_2 : S5x1024x1024.ReducesTo [0, 1, 2] S_
  bcast_S_S5x1024 : S_.BroadcastsInDim S5x1024 (![] : Fin 0 → Fin S5x1024.rank)
  reducesTo_S5x1024_S_d0_1 : S5x1024.ReducesTo [0, 1] S_
  bcast_S_S4096 : S_.BroadcastsInDim S4096 (![] : Fin 0 → Fin S4096.rank)
  reducesTo_S4096_S_d0 : S4096.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_

variable [Facts]

def fn_part6 {F : FTy → Type} [FloatOps F] (main_v98 : IVec S_ 1) (main_v101 : IVec S1024x1024 1) (main_c_39 : IVec S_ 1) : IVec S_ 1 :=
  let main_v102 : IVec S_ 1 := (fun x v => Host.reduce IntOp.andi x v reducesTo_S1024x1024_S_d0_1 h_S_) main_v101 main_c_39
  let main_v103 : IVec S_ 1 := andi main_v98 main_v102
  main_v103

def fn_part5 {F : FTy → Type} [FloatOps F] (main_arg18 : FVec F S1024 .f32) (main_arg19 : FVec F S1024x1024 .f32) (main_arg20 : FVec F S1024x1024 .f32) (main_v83 : IVec S_ 1) (main_v84 : FVec F S4096x1024 .f32) (main_cst_32 : FVec F S_ .f32) : IVec S_ 1 :=
  let main_v85 : FVec F S4096x1024 .f32 := broadcastInDim S4096x1024 ![] bcast_S_S4096x1024 main_cst_32
  let main_v86 : IVec S4096x1024 1 := cmpf .olt main_v84 main_v85
  let main_c_33 : IVec S_ 1 := constantI S_ 1 1#1
  let main_v87 : IVec S_ 1 := (fun x v => Host.reduce IntOp.andi x v reducesTo_S4096x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  let main_v94 : FVec F S1024x1024 .f32 := Host.absf main_arg19
  let main_cst_36 : FVec F S_ .f32 := constant S_ .f32 0x7F800000#32
  let main_v95 : FVec F S1024x1024 .f32 := broadcastInDim S1024x1024 ![] bcast_S_S1024x1024 main_cst_36
  let main_v96 : IVec S1024x1024 1 := cmpf .olt main_v94 main_v95
  let main_c_37 : IVec S_ 1 := constantI S_ 1 1#1
  let main_v97 : IVec S_ 1 := (fun x v => Host.reduce IntOp.andi x v reducesTo_S1024x1024_S_d0_1 h_S_) main_v96 main_c_37
  let main_v98 : IVec S_ 1 := andi main_v93 main_v97
  let main_v99 : FVec F S1024x1024 .f32 := Host.absf main_arg20
  let main_cst_38 : FVec F S_ .f32 := constant S_ .f32 0x7F800000#32
  let main_v100 : FVec F S1024x1024 .f32 := broadcastInDim S1024x1024 ![] bcast_S_S1024x1024 main_cst_38
  let main_v101 : IVec S1024x1024 1 := cmpf .olt main_v99 main_v100
  let main_c_39 : IVec S_ 1 := constantI S_ 1 1#1
  fn_part6 (F := F) main_v98 main_v101 main_c_39

def fn_part4 {F : FTy → Type} [FloatOps F] (main_arg14 : FVec F S1024 .f32) (main_arg15 : FVec F S1024x4096 .f32) (main_arg16 : FVec F S4096 .f32) (main_arg17 : FVec F S4096x1024 .f32) (main_arg18 : FVec F S1024 .f32) (main_arg19 : FVec F S1024x1024 .f32) (main_arg20 : FVec F S1024x1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x4096 .f32 := Host.absf main_arg15
  let main_cst_28 : FVec F S_ .f32 := constant S_ .f32 0x7F800000#32
  let main_v75 : FVec F S1024x4096 .f32 := broadcastInDim S1024x4096 ![] bcast_S_S1024x4096 main_cst_28
  let main_v76 : IVec S1024x4096 1 := cmpf .olt main_v74 main_v75
  let main_c_29 : IVec S_ 1 := constantI S_ 1 1#1
  let main_v77 : IVec S_ 1 := (fun x v => Host.reduce IntOp.andi x v reducesTo_S1024x4096_S_d0_1 h_S_) main_v76 main_c_29
  let main_v78 : IVec S_ 1 := andi main_v73 main_v77
  let main_v79 : FVec F S4096 .f32 := Host.absf main_arg16
  let main_cst_30 : FVec F S_ .f32 := constant S_ .f32 0x7F800000#32
  let main_v80 : FVec F S4096 .f32 := broadcastInDim S4096 ![] bcast_S_S4096 main_cst_30
  let main_v81 : IVec S4096 1 := cmpf .olt main_v79 main_v80
  let main_c_31 : IVec S_ 1 := constantI S_ 1 1#1
  let main_v82 : IVec S_ 1 := (fun x v => Host.reduce IntOp.andi x v reducesTo_S4096_S_d0 h_S_) main_v81 main_c_31
  let main_v83 : IVec S_ 1 := andi main_v78 main_v82
  let main_v84 : FVec F S4096x1024 .f32 := Host.absf main_arg17
  let main_cst_32 : FVec F S_ .f32 := constant S_ .f32 0x7F800000#32
  fn_part5 (F := F) main_arg18 main_arg19 main_arg20 main_v83 main_v84 main_cst_32

def fn_part3 {F : FTy → Type} [FloatOps F] (main_arg11 : FVec F S1024x4096 .f32) (main_arg12 : FVec F S4096 .f32) (main_arg13 : FVec F S4096x1024 .f32) (main_arg14 : FVec F S1024 .f32) (main_arg15 : FVec F S1024x4096 .f32) (main_arg16 : FVec F S4096 .f32) (main_arg17 : FVec F S4096x1024 .f32) (main_arg18 : FVec F S1024 .f32) (main_arg19 : FVec F S1024x1024 .f32) (main_arg20 : FVec F S1024x1024 .f32) (main_v48 : IVec S_ 1) (main_v49 : FVec F S5x1024 .f32) (main_v50 : FVec F S5x1024 .f32) : IVec S_ 1 :=
  let main_v51 : IVec S5x1024 1 := cmpf .olt main_v49 main_v50
  let main_c_19 : IVec S_ 1 := constantI S_ 1 1#1
  let main_v52 : IVec S_ 1 := (fun x v => Host.reduce IntOp.andi x v reducesTo_S5x1024_S_d0_1 h_S_) main_v51 main_c_19
  let main_v53 : IVec S_ 1 := andi main_v48 main_v52
  let main_v54 : FVec F S1024x4096 .f32 := Host.absf main_arg11
  let main_cst_20 : FVec F S_ .f32 := constant S_ .f32 0x7F800000#32
  let main_v55 : FVec F S1024x4096 .f32 := broadcastInDim S1024x4096 ![] bcast_S_S1024x4096 main_cst_20
  let main_v56 : IVec S1024x4096 1 := cmpf .olt main_v54 main_v55
  let main_c_21 : IVec S_ 1 := constantI S_ 1 1#1
  let main_v57 : IVec S_ 1 := (fun x v => Host.reduce IntOp.andi x v reducesTo_S1024x4096_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  let main_v64 : FVec F S4096x1024 .f32 := Host.absf main_arg13
  let main_cst_24 : FVec F S_ .f32 := constant S_ .f32 0x7F800000#32
  let main_v65 : FVec F S4096x1024 .f32 := broadcastInDim S4096x1024 ![] bcast_S_S4096x1024 main_cst_24
  let main_v66 : IVec S4096x1024 1 := cmpf .olt main_v64 main_v65
  let main_c_25 : IVec S_ 1 := constantI S_ 1 1#1
  let main_v67 : IVec S_ 1 := (fun x v => Host.reduce IntOp.andi x v reducesTo_S4096x1024_S_d0_1 h_S_) main_v66 main_c_25
  fn_part4 (F := F) main_arg14 main_arg15 main_arg16 main_arg17 main_arg18 main_arg19 main_arg20 main_v63 main_v67

def fn_part2 {F : FTy → Type} [FloatOps F] (main_arg7 : FVec F S4x1024 .f32) (main_arg8 : FVec F S5x1024x1024 .f32) (main_arg9 : FVec F S5x1024x1024 .f32) (main_arg10 : FVec F S5x1024 .f32) (main_arg11 : FVec F S1024x4096 .f32) (main_arg12 : FVec F S4096 .f32) (main_arg13 : FVec F S4096x1024 .f32) (main_arg14 : FVec F S1024 .f32) (main_arg15 : FVec F S1024x4096 .f32) (main_arg16 : FVec F S4096 .f32) (main_arg17 : FVec F S4096x1024 .f32) (main_arg18 : FVec F S1024 .f32) (main_arg19 : FVec F S1024x1024 .f32) (main_arg20 : FVec F S1024x1024 .f32) (main_v33 : IVec S_ 1) : IVec S_ 1 :=
  let main_v34 : FVec F S4x1024 .f32 := Host.absf main_arg7
  let main_cst_12 : FVec F S_ .f32 := constant S_ .f32 0x7F800000#32
  let main_v35 : FVec F S4x1024 .f32 := broadcastInDim S4x1024 ![] bcast_S_S4x1024 main_cst_12
  let main_v36 : IVec S4x1024 1 := cmpf .olt main_v34 main_v35
  let main_c_13 : IVec S_ 1 := constantI S_ 1 1#1
  let main_v37 : IVec S_ 1 := (fun x v => Host.reduce IntOp.andi x v reducesTo_S4x1024_S_d0_1 h_S_) main_v36 main_c_13
  let main_v38 : IVec S_ 1 := andi main_v33 main_v37
  let main_v39 : FVec F S5x1024x1024 .f32 := Host.absf main_arg8
  let main_cst_14 : FVec F S_ .f32 := constant S_ .f32 0x7F800000#32
  let main_v40 : FVec F S5x1024x1024 .f32 := broadcastInDim S5x1024x1024 ![] bcast_S_S5x1024x1024 main_cst_14
  let main_v41 : IVec S5x1024x1024 1 := cmpf .olt main_v39 main_v40
  let main_c_15 : IVec S_ 1 := constantI S_ 1 1#1
  let main_v42 : IVec S_ 1 := (fun x v => Host.reduce IntOp.andi x v reducesTo_S5x1024x1024_S_d0_1_2 h_S_) main_v41 main_c_15
  let main_v43 : IVec S_ 1 := andi main_v38 main_v42
  let main_v44 : FVec F S5x1024x1024 .f32 := Host.absf main_arg9
  let main_cst_16 : FVec F S_ .f32 := constant S_ .f32 0x7F800000#32
  let main_v45 : FVec F S5x1024x1024 .f32 := broadcastInDim S5x1024x1024 ![] bcast_S_S5x1024x1024 main_cst_16
  let main_v46 : IVec S5x1024x1024 1 := cmpf .olt main_v44 main_v45
  let main_c_17 : IVec S_ 1 := constantI S_ 1 1#1
  let main_v47 : IVec S_ 1 := (fun x v => Host.reduce IntOp.andi x v reducesTo_S5x1024x1024_S_d0_1_2 h_S_) main_v46 main_c_17
  let main_v48 : IVec S_ 1 := andi main_v43 main_v47
  let main_v49 : FVec F S5x1024 .f32 := Host.absf main_arg10
  let main_cst_18 : FVec F S_ .f32 := constant S_ .f32 0x7F800000#32
  let main_v50 : FVec F S5x1024 .f32 := broadcastInDim S5x1024 ![] bcast_S_S5x1024 main_cst_18
  fn_part3 (F := F) main_arg11 main_arg12 main_arg13 main_arg14 main_arg15 main_arg16 main_arg17 main_arg18 main_arg19 main_arg20 main_v48 main_v49 main_v50

def fn_part1 {F : FTy → Type} [FloatOps F] (main_arg4 : FVec F S4x1024x1024 .f32) (main_arg5 : FVec F S4x1024 .f32) (main_arg6 : FVec F S4x1024x1024 .f32) (main_arg7 : FVec F S4x1024 .f32) (main_arg8 : FVec F S5x1024x1024 .f32) (main_arg9 : FVec F S5x1024x1024 .f32) (main_arg10 : FVec F S5x1024 .f32) (main_arg11 : FVec F S1024x4096 .f32) (main_arg12 : FVec F S4096 .f32) (main_arg13 : FVec F S4096x1024 .f32) (main_arg14 : FVec F S1024 .f32) (main_arg15 : FVec F S1024x4096 .f32) (main_arg16 : FVec F S4096 .f32) (main_arg17 : FVec F S4096x1024 .f32) (main_arg18 : FVec F S1024 .f32) (main_arg19 : FVec F S1024x1024 .f32) (main_arg20 : FVec F S1024x1024 .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_v19 : FVec F S4x1024x1024 .f32 := Host.absf main_arg4
  let main_cst_6 : FVec F S_ .f32 := constant S_ .f32 0x7F800000#32
  let main_v20 : FVec F S4x1024x1024 .f32 := broadcastInDim S4x1024x1024 ![] bcast_S_S4x1024x1024 main_cst_6
  let main_v21 : IVec S4x1024x1024 1 := cmpf .olt main_v19 main_v20
  let main_c_7 : IVec S_ 1 := constantI S_ 1 1#1
  let main_v22 : IVec S_ 1 := (fun x v => Host.reduce IntOp.andi x v reducesTo_S4x1024x1024_S_d0_1_2 h_S_) main_v21 main_c_7
  let main_v23 : IVec S_ 1 := andi main_v18 main_v22
  let main_v24 : FVec F S4x1024 .f32 := Host.absf main_arg5
  let main_cst_8 : FVec F S_ .f32 := constant S_ .f32 0x7F800000#32
  let main_v25 : FVec F S4x1024 .f32 := broadcastInDim S4x1024 ![] bcast_S_S4x1024 main_cst_8
  let main_v26 : IVec S4x1024 1 := cmpf .olt main_v24 main_v25
  let main_c_9 : IVec S_ 1 := constantI S_ 1 1#1
  let main_v27 : IVec S_ 1 := (fun x v => Host.reduce IntOp.andi x v reducesTo_S4x1024_S_d0_1 h_S_) main_v26 main_c_9
  let main_v28 : IVec S_ 1 := andi main_v23 main_v27
  let main_v29 : FVec F S4x1024x1024 .f32 := Host.absf main_arg6
  let main_cst_10 : FVec F S_ .f32 := constant S_ .f32 0x7F800000#32
  let main_v30 : FVec F S4x1024x1024 .f32 := broadcastInDim S4x1024x1024 ![] bcast_S_S4x1024x1024 main_cst_10
  let main_v31 : IVec S4x1024x1024 1 := cmpf .olt main_v29 main_v30
  let main_c_11 : IVec S_ 1 := constantI S_ 1 1#1
  let main_v32 : IVec S_ 1 := (fun x v => Host.reduce IntOp.andi x v reducesTo_S4x1024x1024_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S1024x4096 .f32) (main_arg1 : FVec F S4x1024x1024 .f32) (main_arg2 : FVec F S4x1024x1024 .f32) (main_arg3 : FVec F S4x4096 .f32) (main_arg4 : FVec F S4x1024x1024 .f32) (main_arg5 : FVec F S4x1024 .f32) (main_arg6 : FVec F S4x1024x1024 .f32) (main_arg7 : FVec F S4x1024 .f32) (main_arg8 : FVec F S5x1024x1024 .f32) (main_arg9 : FVec F S5x1024x1024 .f32) (main_arg10 : FVec F S5x1024 .f32) (main_arg11 : FVec F S1024x4096 .f32) (main_arg12 : FVec F S4096 .f32) (main_arg13 : FVec F S4096x1024 .f32) (main_arg14 : FVec F S1024 .f32) (main_arg15 : FVec F S1024x4096 .f32) (main_arg16 : FVec F S4096 .f32) (main_arg17 : FVec F S4096x1024 .f32) (main_arg18 : FVec F S1024 .f32) (main_arg19 : FVec F S1024x1024 .f32) (main_arg20 : FVec F S1024x1024 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4x1024x1024 .f32 := Host.absf main_arg1
  let main_cst_0 : FVec F S_ .f32 := constant S_ .f32 0x7F800000#32
  let main_v5 : FVec F S4x1024x1024 .f32 := broadcastInDim S4x1024x1024 ![] bcast_S_S4x1024x1024 main_cst_0
  let main_v6 : IVec S4x1024x1024 1 := cmpf .olt main_v4 main_v5
  let main_c_1 : IVec S_ 1 := constantI S_ 1 1#1
  let main_v7 : IVec S_ 1 := (fun x v => Host.reduce IntOp.andi x v reducesTo_S4x1024x1024_S_d0_1_2 h_S_) main_v6 main_c_1
  let main_v8 : IVec S_ 1 := andi main_v3 main_v7
  let main_v9 : FVec F S4x1024x1024 .f32 := Host.absf main_arg2
  let main_cst_2 : FVec F S_ .f32 := constant S_ .f32 0x7F800000#32
  let main_v10 : FVec F S4x1024x1024 .f32 := broadcastInDim S4x1024x1024 ![] bcast_S_S4x1024x1024 main_cst_2
  let main_v11 : IVec S4x1024x1024 1 := cmpf .olt main_v9 main_v10
  let main_c_3 : IVec S_ 1 := constantI S_ 1 1#1
  let main_v12 : IVec S_ 1 := (fun x v => Host.reduce IntOp.andi x v reducesTo_S4x1024x1024_S_d0_1_2 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S1024x4096 : Shape := ⟨2, ![1024, 4096]⟩
abbrev S4x1024x1024 : Shape := ⟨3, ![4, 1024, 1024]⟩
abbrev S4x4096 : Shape := ⟨2, ![4, 4096]⟩
abbrev S4x1024 : Shape := ⟨2, ![4, 1024]⟩
abbrev S5x1024x1024 : Shape := ⟨3, ![5, 1024, 1024]⟩
abbrev S5x1024 : Shape := ⟨2, ![5, 1024]⟩
abbrev S4096 : Shape := ⟨1, ![4096]⟩
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S1x1024x1024 : Shape := ⟨3, ![1, 1024, 1024]⟩
abbrev S1x1024 : Shape := ⟨2, ![1, 1024]⟩
abbrev S1x4096 : Shape := ⟨2, ![1, 4096]⟩
abbrev S512x1024 : Shape := ⟨2, ![512, 1024]⟩
abbrev S1024x512 : Shape := ⟨2, ![1024, 512]⟩
abbrev S1x512 : Shape := ⟨2, ![1, 512]⟩
abbrev S512x512 : Shape := ⟨2, ![512, 512]⟩
abbrev S256x4096 : Shape := ⟨2, ![256, 4096]⟩
abbrev S4096x512 : Shape := ⟨2, ![4096, 512]⟩
abbrev S256x512 : Shape := ⟨2, ![256, 512]⟩
abbrev S512x4096 : Shape := ⟨2, ![512, 4096]⟩

abbrev nBuf : Space → Nat
  | .hbm => 205
  | .vmem => 294
  | .smem => 0
  | _ => 0

abbrev hbmTy0_0 (i : Nat) : BufTy := match i % 128 with
  | 0 => ⟨S1024x4096, .f32⟩
  | 1 => ⟨S4x1024x1024, .f32⟩
  | 2 => ⟨S4x1024x1024, .f32⟩
  | 3 => ⟨S4x4096, .f32⟩
  | 4 => ⟨S4x1024x1024, .f32⟩
  | 5 => ⟨S4x1024, .f32⟩
  | 6 => ⟨S4x1024x1024, .f32⟩
  | 7 => ⟨S4x1024, .f32⟩
  | 8 => ⟨S5x1024x1024, .f32⟩
  | 9 => ⟨S5x1024x1024, .f32⟩
  | 10 => ⟨S5x1024, .f32⟩
  | 11 => ⟨S1024x4096, .f32⟩
  | 12 => ⟨S4096, .f32⟩
  | 13 => ⟨S4096x1024, .f32⟩
  | 14 => ⟨S1024, .f32⟩
  | 15 => ⟨S1024x4096, .f32⟩
  | 16 => ⟨S4096, .f32⟩
  | 17 => ⟨S4096x1024, .f32⟩
  | 18 => ⟨S1024, .f32⟩
  | 19 => ⟨S1024x1024, .f32⟩
  | 20 => ⟨S1024x1024, .f32⟩
  | 21 => ⟨S4x1024x1024, .bf16⟩
  | 22 => ⟨S4x1024x1024, .bf16⟩
  | 23 => ⟨S4x1024x1024, .bf16⟩
  | 24 => ⟨S4x1024x1024, .bf16⟩
  | 25 => ⟨S5x1024x1024, .bf16⟩
  | 26 => ⟨S5x1024x1024, .bf16⟩
  | 27 => ⟨S1024x4096, .bf16⟩
  | 28 => ⟨S4096x1024, .bf16⟩
  | 29 => ⟨S1024x4096, .bf16⟩
  | 30 => ⟨S4096x1024, .bf16⟩
  | 31 => ⟨S1024x4096, .bf16⟩
  | 32 => ⟨S1024x1024, .bf16⟩
  | 33 => ⟨S1024x1024, .bf16⟩
  | 34 => ⟨S_, .f32⟩
  | 35 => ⟨S4096, .f32⟩
  | 36 => ⟨S1x1024x1024, .bf16⟩
  | 37 => ⟨S1024x1024, .bf16⟩
  | 38 => ⟨S1x1024x1024, .bf16⟩
  | 39 => ⟨S1024x1024, .bf16⟩
  | 40 => ⟨S1x1024, .f32⟩
  | 41 => ⟨S1024, .f32⟩
  | 42 => ⟨S1x1024, .f32⟩
  | 43 => ⟨S1024x1024, .bf16⟩
  | 44 => ⟨S1x4096, .f32⟩
  | 45 => ⟨S1024x4096, .bf16⟩
  | 46 => ⟨S1x4096, .f32⟩
  | 47 => ⟨S1024x4096, .bf16⟩
  | 48 => ⟨S1x1024, .f32⟩
  | 49 => ⟨S1024x1024, .bf16⟩
  | 50 => ⟨S1x1024x1024, .bf16⟩
  | 51 => ⟨S1024x1024, .bf16⟩
  | 52 => ⟨S1x1024x1024, .bf16⟩
  | 53 => ⟨S1024x1024, .bf16⟩
  | 54 => ⟨S1x1024, .f32⟩
  | 55 => ⟨S1024, .f32⟩
  | 56 => ⟨S1x1024, .f32⟩
  | 57 => ⟨S1024x1024, .bf16⟩
  | 58 => ⟨S1x4096, .f32⟩
  | 59 => ⟨S1024x4096, .bf16⟩
  | 60 => ⟨S1x4096, .f32⟩
  | 61 => ⟨S1024x4096, .bf16⟩
  | 62 => ⟨S1024x4096, .f32⟩
  | 63 => ⟨S1024x4096, .f32⟩
  | 64 => ⟨S1024x4096, .f32⟩
  | 65 => ⟨S1024x4096, .bf16⟩
  | 66 => ⟨S1x1024x1024, .bf16⟩
  | 67 => ⟨S1024x1024, .bf16⟩
  | 68 => ⟨S1x1024x1024, .bf16⟩
  | 69 => ⟨S1024x1024, .bf16⟩
  | 70 => ⟨S1x1024, .f32⟩
  | 71 => ⟨S1024, .f32⟩
  | 72 => ⟨S1x1024, .f32⟩
  | 73 => ⟨S1024x1024, .bf16⟩
  | 74 => ⟨S1x4096, .f32⟩
  | 75 => ⟨S1024x4096, .bf16⟩
  | 76 => ⟨S1x4096, .f32⟩
  | 77 => ⟨S1024x4096, .bf16⟩
  | 78 => ⟨S1x1024, .f32⟩
  | 79 => ⟨S1024x1024, .bf16⟩
  | 80 => ⟨S1x1024x1024, .bf16⟩
  | 81 => ⟨S1024x1024, .bf16⟩
  | 82 => ⟨S1x1024x1024, .bf16⟩
  | 83 => ⟨S1024x1024, .bf16⟩
  | 84 => ⟨S1x1024, .f32⟩
  | 85 => ⟨S1024, .f32⟩
  | 86 => ⟨S1x1024, .f32⟩
  | 87 => ⟨S1024x1024, .bf16⟩
  | 88 => ⟨S1x4096, .f32⟩
  | 89 => ⟨S1024x4096, .bf16⟩
  | 90 => ⟨S1x4096, .f32⟩
  | 91 => ⟨S1024x4096, .bf16⟩
  | 92 => ⟨S1024x4096, .f32⟩
  | 93 => ⟨S1024x4096, .f32⟩
  | 94 => ⟨S1024x4096, .f32⟩
  | 95 => ⟨S1024x4096, .bf16⟩
  | 96 => ⟨S1x1024x1024, .bf16⟩
  | 97 => ⟨S1024x1024, .bf16⟩
  | 98 => ⟨S1x1024x1024, .bf16⟩
  | 99 => ⟨S1024x1024, .bf16⟩
  | 100 => ⟨S1x1024, .f32⟩
  | 101 => ⟨S1024, .f32⟩
  | 102 => ⟨S1x1024, .f32⟩
  | 103 => ⟨S1024x1024, .bf16⟩
  | 104 => ⟨S1x4096, .f32⟩
  | 105 => ⟨S1024x4096, .bf16⟩
  | 106 => ⟨S1x4096, .f32⟩
  | 107 => ⟨S1024x4096, .bf16⟩
  | 108 => ⟨S1x1024, .f32⟩
  | 109 => ⟨S1024x1024, .bf16⟩
  | 110 => ⟨S1x4096, .f32⟩
  | 111 => ⟨S1024x4096, .bf16⟩
  | 112 => ⟨S1x1024x1024, .bf16⟩
  | 113 => ⟨S1024x1024, .bf16⟩
  | 114 => ⟨S1x1024x1024, .bf16⟩
  | 115 => ⟨S1024x1024, .bf16⟩
  | 116 => ⟨S1x1024, .f32⟩
  | 117 => ⟨S1024, .f32⟩
  | 118 => ⟨S1x1024, .f32⟩
  | 119 => ⟨S1024x1024, .bf16⟩
  | 120 => ⟨S1x1024x1024, .bf16⟩
  | 121 => ⟨S1024x1024, .bf16⟩
  | 122 => ⟨S1x1024x1024, .bf16⟩
  | 123 => ⟨S1024x1024, .bf16⟩
  | 124 => ⟨S1x1024, .f32⟩
  | 125 => ⟨S1024, .f32⟩
  | 126 => ⟨S1x1024, .f32⟩
  | 127 => ⟨S1024x1024, .bf16⟩
  | _ => ⟨S1024x4096, .f32⟩

abbrev hbmTy0_1 (i : Nat) : BufTy := match i % 128 with
  | 0 => ⟨S1x4096, .f32⟩
  | 1 => ⟨S4096, .f32⟩
  | 2 => ⟨S1x4096, .f32⟩
  | 3 => ⟨S1024x4096, .f32⟩
  | 4 => ⟨S1x1024x1024, .bf16⟩
  | 5 => ⟨S1024x1024, .bf16⟩
  | 6 => ⟨S1x1024x1024, .bf16⟩
  | 7 => ⟨S1024x1024, .bf16⟩
  | 8 => ⟨S1x1024, .f32⟩
  | 9 => ⟨S1024, .f32⟩
  | 10 => ⟨S1x1024, .f32⟩
  | 11 => ⟨S1024x1024, .bf16⟩
  | 12 => ⟨S1x1024x1024, .bf16⟩
  | 13 => ⟨S1024x1024, .bf16⟩
  | 14 => ⟨S1x1024x1024, .bf16⟩
  | 15 => ⟨S1024x1024, .bf16⟩
  | 16 => ⟨S1x1024, .f32⟩
  | 17 => ⟨S1024, .f32⟩
  | 18 => ⟨S1x1024, .f32⟩
  | 19 => ⟨S1024x1024, .bf16⟩
  | 20 => ⟨S1x4096, .f32⟩
  | 21 => ⟨S4096, .f32⟩
  | 22 => ⟨S1x4096, .f32⟩
  | 23 => ⟨S1024x4096, .f32⟩
  | 24 => ⟨S1x1024x1024, .bf16⟩
  | 25 => ⟨S1024x1024, .bf16⟩
  | 26 => ⟨S1x1024x1024, .bf16⟩
  | 27 => ⟨S1024x1024, .bf16⟩
  | 28 => ⟨S1x1024, .f32⟩
  | 29 => ⟨S1024, .f32⟩
  | 30 => ⟨S1x1024, .f32⟩
  | 31 => ⟨S1024x1024, .bf16⟩
  | 32 => ⟨S1x1024x1024, .bf16⟩
  | 33 => ⟨S1024x1024, .bf16⟩
  | 34 => ⟨S1x1024x1024, .bf16⟩
  | 35 => ⟨S1024x1024, .bf16⟩
  | 36 => ⟨S1x1024, .f32⟩
  | 37 => ⟨S1024, .f32⟩
  | 38 => ⟨S1x1024, .f32⟩
  | 39 => ⟨S1024x1024, .bf16⟩
  | 40 => ⟨S1x4096, .f32⟩
  | 41 => ⟨S4096, .f32⟩
  | 42 => ⟨S1x4096, .f32⟩
  | 43 => ⟨S1024x4096, .f32⟩
  | 44 => ⟨S1x1024x1024, .bf16⟩
  | 45 => ⟨S1024x1024, .bf16⟩
  | 46 => ⟨S1x1024x1024, .bf16⟩
  | 47 => ⟨S1024x1024, .bf16⟩
  | 48 => ⟨S1x1024, .f32⟩
  | 49 => ⟨S1024, .f32⟩
  | 50 => ⟨S1x1024, .f32⟩
  | 51 => ⟨S1024x1024, .bf16⟩
  | 52 => ⟨S1x1024x1024, .bf16⟩
  | 53 => ⟨S1024x1024, .bf16⟩
  | 54 => ⟨S1x1024x1024, .bf16⟩
  | 55 => ⟨S1024x1024, .bf16⟩
  | 56 => ⟨S1x1024, .f32⟩
  | 57 => ⟨S1024, .f32⟩
  | 58 => ⟨S1x1024, .f32⟩
  | 59 => ⟨S1024x1024, .bf16⟩
  | 60 => ⟨S1x4096, .f32⟩
  | 61 => ⟨S4096, .f32⟩
  | 62 => ⟨S1x4096, .f32⟩
  | 63 => ⟨S1024x4096, .f32⟩
  | 64 => ⟨S1x4096, .f32⟩
  | 65 => ⟨S1024x4096, .f32⟩
  | 66 => ⟨S1024x4096, .f32⟩
  | 67 => ⟨S1024x4096, .f32⟩
  | 68 => ⟨S1024x4096, .f32⟩
  | 69 => ⟨S1024x4096, .f32⟩
  | 70 => ⟨S1024x4096, .f32⟩
  | 71 => ⟨S1024x4096, .bf16⟩
  | 72 => ⟨S1024x4096, .bf16⟩
  | 73 => ⟨S1x1024, .f32⟩
  | 74 => ⟨S1024x1024, .f32⟩
  | 75 => ⟨S1x1024, .f32⟩
  | 76 => ⟨S1024x1024, .f32⟩
  | _ => ⟨S1024x4096, .f32⟩

abbrev hbmTy (i : Nat) : BufTy := match i / 128 with
  | 0 => hbmTy0_0 i
  | 1 => hbmTy0_1 i
  | _ => ⟨S1024x4096, .f32⟩

abbrev vmemTy0_0 (i : Nat) : BufTy := match i % 128 with
  | 0 => ⟨S512x1024, .bf16⟩
  | 1 => ⟨S512x1024, .bf16⟩
  | 2 => ⟨S1024x512, .bf16⟩
  | 3 => ⟨S1024x512, .bf16⟩
  | 4 => ⟨S1x512, .f32⟩
  | 5 => ⟨S1x512, .f32⟩
  | 6 => ⟨S512x512, .bf16⟩
  | 7 => ⟨S512x512, .bf16⟩
  | 8 => ⟨S512x1024, .bf16⟩
  | 9 => ⟨S512x1024, .bf16⟩
  | 10 => ⟨S1024x1024, .bf16⟩
  | 11 => ⟨S1024x1024, .bf16⟩
  | 12 => ⟨S1x1024, .f32⟩
  | 13 => ⟨S1x1024, .f32⟩
  | 14 => ⟨S512x1024, .bf16⟩
  | 15 => ⟨S512x1024, .bf16⟩
  | 16 => ⟨S512x1024, .bf16⟩
  | 17 => ⟨S512x1024, .bf16⟩
  | 18 => ⟨S1024x1024, .bf16⟩
  | 19 => ⟨S1024x1024, .bf16⟩
  | 20 => ⟨S1x1024, .f32⟩
  | 21 => ⟨S1x1024, .f32⟩
  | 22 => ⟨S512x1024, .bf16⟩
  | 23 => ⟨S512x1024, .bf16⟩
  | 24 => ⟨S256x4096, .bf16⟩
  | 25 => ⟨S256x4096, .bf16⟩
  | 26 => ⟨S256x4096, .bf16⟩
  | 27 => ⟨S256x4096, .bf16⟩
  | 28 => ⟨S4096x512, .bf16⟩
  | 29 => ⟨S4096x512, .bf16⟩
  | 30 => ⟨S1x512, .f32⟩
  | 31 => ⟨S1x512, .f32⟩
  | 32 => ⟨S256x512, .bf16⟩
  | 33 => ⟨S256x512, .bf16⟩
  | 34 => ⟨S512x1024, .bf16⟩
  | 35 => ⟨S512x1024, .bf16⟩
  | 36 => ⟨S1024x512, .bf16⟩
  | 37 => ⟨S1024x512, .bf16⟩
  | 38 => ⟨S1x512, .f32⟩
  | 39 => ⟨S1x512, .f32⟩
  | 40 => ⟨S512x512, .bf16⟩
  | 41 => ⟨S512x512, .bf16⟩
  | 42 => ⟨S512x1024, .bf16⟩
  | 43 => ⟨S512x1024, .bf16⟩
  | 44 => ⟨S1024x1024, .bf16⟩
  | 45 => ⟨S1024x1024, .bf16⟩
  | 46 => ⟨S1x1024, .f32⟩
  | 47 => ⟨S1x1024, .f32⟩
  | 48 => ⟨S512x1024, .bf16⟩
  | 49 => ⟨S512x1024, .bf16⟩
  | 50 => ⟨S512x1024, .bf16⟩
  | 51 => ⟨S512x1024, .bf16⟩
  | 52 => ⟨S1024x1024, .bf16⟩
  | 53 => ⟨S1024x1024, .bf16⟩
  | 54 => ⟨S1x1024, .f32⟩
  | 55 => ⟨S1x1024, .f32⟩
  | 56 => ⟨S512x1024, .bf16⟩
  | 57 => ⟨S512x1024, .bf16⟩
  | 58 => ⟨S512x1024, .bf16⟩
  | 59 => ⟨S512x1024, .bf16⟩
  | 60 => ⟨S1024x512, .bf16⟩
  | 61 => ⟨S1024x512, .bf16⟩
  | 62 => ⟨S1x512, .f32⟩
  | 63 => ⟨S1x512, .f32⟩
  | 64 => ⟨S512x512, .bf16⟩
  | 65 => ⟨S512x512, .bf16⟩
  | 66 => ⟨S512x1024, .bf16⟩
  | 67 => ⟨S512x1024, .bf16⟩
  | 68 => ⟨S1024x1024, .bf16⟩
  | 69 => ⟨S1024x1024, .bf16⟩
  | 70 => ⟨S1x1024, .f32⟩
  | 71 => ⟨S1x1024, .f32⟩
  | 72 => ⟨S512x1024, .bf16⟩
  | 73 => ⟨S512x1024, .bf16⟩
  | 74 => ⟨S512x1024, .bf16⟩
  | 75 => ⟨S512x1024, .bf16⟩
  | 76 => ⟨S1024x1024, .bf16⟩
  | 77 => ⟨S1024x1024, .bf16⟩
  | 78 => ⟨S1x1024, .f32⟩
  | 79 => ⟨S1x1024, .f32⟩
  | 80 => ⟨S512x1024, .bf16⟩
  | 81 => ⟨S512x1024, .bf16⟩
  | 82 => ⟨S256x4096, .bf16⟩
  | 83 => ⟨S256x4096, .bf16⟩
  | 84 => ⟨S256x4096, .bf16⟩
  | 85 => ⟨S256x4096, .bf16⟩
  | 86 => ⟨S4096x512, .bf16⟩
  | 87 => ⟨S4096x512, .bf16⟩
  | 88 => ⟨S1x512, .f32⟩
  | 89 => ⟨S1x512, .f32⟩
  | 90 => ⟨S256x512, .bf16⟩
  | 91 => ⟨S256x512, .bf16⟩
  | 92 => ⟨S512x1024, .bf16⟩
  | 93 => ⟨S512x1024, .bf16⟩
  | 94 => ⟨S1024x512, .bf16⟩
  | 95 => ⟨S1024x512, .bf16⟩
  | 96 => ⟨S1x512, .f32⟩
  | 97 => ⟨S1x512, .f32⟩
  | 98 => ⟨S512x512, .bf16⟩
  | 99 => ⟨S512x512, .bf16⟩
  | 100 => ⟨S512x1024, .bf16⟩
  | 101 => ⟨S512x1024, .bf16⟩
  | 102 => ⟨S1024x1024, .bf16⟩
  | 103 => ⟨S1024x1024, .bf16⟩
  | 104 => ⟨S1x1024, .f32⟩
  | 105 => ⟨S1x1024, .f32⟩
  | 106 => ⟨S512x1024, .bf16⟩
  | 107 => ⟨S512x1024, .bf16⟩
  | 108 => ⟨S512x1024, .bf16⟩
  | 109 => ⟨S512x1024, .bf16⟩
  | 110 => ⟨S1024x1024, .bf16⟩
  | 111 => ⟨S1024x1024, .bf16⟩
  | 112 => ⟨S1x1024, .f32⟩
  | 113 => ⟨S1x1024, .f32⟩
  | 114 => ⟨S512x1024, .bf16⟩
  | 115 => ⟨S512x1024, .bf16⟩
  | 116 => ⟨S512x1024, .bf16⟩
  | 117 => ⟨S512x1024, .bf16⟩
  | 118 => ⟨S1024x512, .bf16⟩
  | 119 => ⟨S1024x512, .bf16⟩
  | 120 => ⟨S1x512, .f32⟩
  | 121 => ⟨S1x512, .f32⟩
  | 122 => ⟨S512x512, .bf16⟩
  | 123 => ⟨S512x512, .bf16⟩
  | 124 => ⟨S512x1024, .bf16⟩
  | 125 => ⟨S512x1024, .bf16⟩
  | 126 => ⟨S1024x1024, .bf16⟩
  | 127 => ⟨S1024x1024, .bf16⟩
  | _ => ⟨S1024x4096, .f32⟩

abbrev vmemTy0_1 (i : Nat) : BufTy := match i % 128 with
  | 0 => ⟨S1x1024, .f32⟩
  | 1 => ⟨S1x1024, .f32⟩
  | 2 => ⟨S512x1024, .bf16⟩
  | 3 => ⟨S512x1024, .bf16⟩
  | 4 => ⟨S512x1024, .bf16⟩
  | 5 => ⟨S512x1024, .bf16⟩
  | 6 => ⟨S1024x1024, .bf16⟩
  | 7 => ⟨S1024x1024, .bf16⟩
  | 8 => ⟨S1x1024, .f32⟩
  | 9 => ⟨S1x1024, .f32⟩
  | 10 => ⟨S512x1024, .bf16⟩
  | 11 => ⟨S512x1024, .bf16⟩
  | 12 => ⟨S256x4096, .bf16⟩
  | 13 => ⟨S256x4096, .bf16⟩
  | 14 => ⟨S256x4096, .bf16⟩
  | 15 => ⟨S256x4096, .bf16⟩
  | 16 => ⟨S4096x512, .bf16⟩
  | 17 => ⟨S4096x512, .bf16⟩
  | 18 => ⟨S1x512, .f32⟩
  | 19 => ⟨S1x512, .f32⟩
  | 20 => ⟨S256x512, .bf16⟩
  | 21 => ⟨S256x512, .bf16⟩
  | 22 => ⟨S512x1024, .bf16⟩
  | 23 => ⟨S512x1024, .bf16⟩
  | 24 => ⟨S1024x1024, .bf16⟩
  | 25 => ⟨S1024x1024, .bf16⟩
  | 26 => ⟨S1x1024, .f32⟩
  | 27 => ⟨S1x1024, .f32⟩
  | 28 => ⟨S512x1024, .bf16⟩
  | 29 => ⟨S512x1024, .bf16⟩
  | 30 => ⟨S512x1024, .bf16⟩
  | 31 => ⟨S512x1024, .bf16⟩
  | 32 => ⟨S1024x512, .bf16⟩
  | 33 => ⟨S1024x512, .bf16⟩
  | 34 => ⟨S1x512, .f32⟩
  | 35 => ⟨S1x512, .f32⟩
  | 36 => ⟨S512x512, .bf16⟩
  | 37 => ⟨S512x512, .bf16⟩
  | 38 => ⟨S512x1024, .bf16⟩
  | 39 => ⟨S512x1024, .bf16⟩
  | 40 => ⟨S1024x512, .bf16⟩
  | 41 => ⟨S1024x512, .bf16⟩
  | 42 => ⟨S1x512, .f32⟩
  | 43 => ⟨S1x512, .f32⟩
  | 44 => ⟨S512x512, .bf16⟩
  | 45 => ⟨S512x512, .bf16⟩
  | 46 => ⟨S512x1024, .bf16⟩
  | 47 => ⟨S512x1024, .bf16⟩
  | 48 => ⟨S1024x1024, .bf16⟩
  | 49 => ⟨S1024x1024, .bf16⟩
  | 50 => ⟨S512x1024, .bf16⟩
  | 51 => ⟨S512x1024, .bf16⟩
  | 52 => ⟨S1024x1024, .bf16⟩
  | 53 => ⟨S1024x1024, .bf16⟩
  | 54 => ⟨S1x1024, .f32⟩
  | 55 => ⟨S1x1024, .f32⟩
  | 56 => ⟨S512x1024, .f32⟩
  | 57 => ⟨S512x1024, .f32⟩
  | 58 => ⟨S512x1024, .bf16⟩
  | 59 => ⟨S512x1024, .bf16⟩
  | 60 => ⟨S1024x512, .bf16⟩
  | 61 => ⟨S1024x512, .bf16⟩
  | 62 => ⟨S1x512, .f32⟩
  | 63 => ⟨S1x512, .f32⟩
  | 64 => ⟨S512x512, .bf16⟩
  | 65 => ⟨S512x512, .bf16⟩
  | 66 => ⟨S512x1024, .bf16⟩
  | 67 => ⟨S512x1024, .bf16⟩
  | 68 => ⟨S1024x512, .bf16⟩
  | 69 => ⟨S1024x512, .bf16⟩
  | 70 => ⟨S1x512, .f32⟩
  | 71 => ⟨S1x512, .f32⟩
  | 72 => ⟨S512x512, .bf16⟩
  | 73 => ⟨S512x512, .bf16⟩
  | 74 => ⟨S512x1024, .bf16⟩
  | 75 => ⟨S512x1024, .bf16⟩
  | 76 => ⟨S1024x1024, .bf16⟩
  | 77 => ⟨S1024x1024, .bf16⟩
  | 78 => ⟨S512x1024, .bf16⟩
  | 79 => ⟨S512x1024, .bf16⟩
  | 80 => ⟨S1024x1024, .bf16⟩
  | 81 => ⟨S1024x1024, .bf16⟩
  | 82 => ⟨S1x1024, .f32⟩
  | 83 => ⟨S1x1024, .f32⟩
  | 84 => ⟨S512x1024, .f32⟩
  | 85 => ⟨S512x1024, .f32⟩
  | 86 => ⟨S512x1024, .bf16⟩
  | 87 => ⟨S512x1024, .bf16⟩
  | 88 => ⟨S1024x512, .bf16⟩
  | 89 => ⟨S1024x512, .bf16⟩
  | 90 => ⟨S1x512, .f32⟩
  | 91 => ⟨S1x512, .f32⟩
  | 92 => ⟨S512x512, .bf16⟩
  | 93 => ⟨S512x512, .bf16⟩
  | 94 => ⟨S512x1024, .bf16⟩
  | 95 => ⟨S512x1024, .bf16⟩
  | 96 => ⟨S1024x512, .bf16⟩
  | 97 => ⟨S1024x512, .bf16⟩
  | 98 => ⟨S1x512, .f32⟩
  | 99 => ⟨S1x512, .f32⟩
  | 100 => ⟨S512x512, .bf16⟩
  | 101 => ⟨S512x512, .bf16⟩
  | 102 => ⟨S512x1024, .bf16⟩
  | 103 => ⟨S512x1024, .bf16⟩
  | 104 => ⟨S1024x1024, .bf16⟩
  | 105 => ⟨S1024x1024, .bf16⟩
  | 106 => ⟨S512x1024, .bf16⟩
  | 107 => ⟨S512x1024, .bf16⟩
  | 108 => ⟨S1024x1024, .bf16⟩
  | 109 => ⟨S1024x1024, .bf16⟩
  | 110 => ⟨S1x1024, .f32⟩
  | 111 => ⟨S1x1024, .f32⟩
  | 112 => ⟨S512x1024, .f32⟩
  | 113 => ⟨S512x1024, .f32⟩
  | 114 => ⟨S512x1024, .bf16⟩
  | 115 => ⟨S512x1024, .bf16⟩
  | 116 => ⟨S1024x512, .bf16⟩
  | 117 => ⟨S1024x512, .bf16⟩
  | 118 => ⟨S1x512, .f32⟩
  | 119 => ⟨S1x512, .f32⟩
  | 120 => ⟨S512x512, .bf16⟩
  | 121 => ⟨S512x512, .bf16⟩
  | 122 => ⟨S512x1024, .bf16⟩
  | 123 => ⟨S512x1024, .bf16⟩
  | 124 => ⟨S1024x512, .bf16⟩
  | 125 => ⟨S1024x512, .bf16⟩
  | 126 => ⟨S1x512, .f32⟩
  | 127 => ⟨S1x512, .f32⟩
  | _ => ⟨S1024x4096, .f32⟩

abbrev vmemTy0_2 (i : Nat) : BufTy := match i % 128 with
  | 0 => ⟨S512x512, .bf16⟩
  | 1 => ⟨S512x512, .bf16⟩
  | 2 => ⟨S512x1024, .bf16⟩
  | 3 => ⟨S512x1024, .bf16⟩
  | 4 => ⟨S1024x1024, .bf16⟩
  | 5 => ⟨S1024x1024, .bf16⟩
  | 6 => ⟨S512x1024, .bf16⟩
  | 7 => ⟨S512x1024, .bf16⟩
  | 8 => ⟨S1024x1024, .bf16⟩
  | 9 => ⟨S1024x1024, .bf16⟩
  | 10 => ⟨S1x1024, .f32⟩
  | 11 => ⟨S1x1024, .f32⟩
  | 12 => ⟨S512x1024, .f32⟩
  | 13 => ⟨S512x1024, .f32⟩
  | 14 => ⟨S512x1024, .bf16⟩
  | 15 => ⟨S512x1024, .bf16⟩
  | 16 => ⟨S1024x1024, .bf16⟩
  | 17 => ⟨S1024x1024, .bf16⟩
  | 18 => ⟨S1x1024, .f32⟩
  | 19 => ⟨S1x1024, .f32⟩
  | 20 => ⟨S512x1024, .f32⟩
  | 21 => ⟨S512x1024, .f32⟩
  | 22 => ⟨S512x4096, .bf16⟩
  | 23 => ⟨S512x4096, .bf16⟩
  | 24 => ⟨S4096x512, .bf16⟩
  | 25 => ⟨S4096x512, .bf16⟩
  | 26 => ⟨S1x512, .f32⟩
  | 27 => ⟨S1x512, .f32⟩
  | 28 => ⟨S512x512, .f32⟩
  | 29 => ⟨S512x512, .f32⟩
  | 30 => ⟨S512x4096, .bf16⟩
  | 31 => ⟨S512x4096, .bf16⟩
  | 32 => ⟨S4096x512, .bf16⟩
  | 33 => ⟨S4096x512, .bf16⟩
  | 34 => ⟨S1x512, .f32⟩
  | 35 => ⟨S1x512, .f32⟩
  | 36 => ⟨S512x512, .f32⟩
  | 37 => ⟨S512x512, .f32⟩
  | _ => ⟨S1024x4096, .f32⟩

abbrev vmemTy (i : Nat) : BufTy := match i / 128 with
  | 0 => vmemTy0_0 i
  | 1 => vmemTy0_1 i
  | 2 => vmemTy0_2 i
  | _ => ⟨S1024x4096, .f32⟩

abbrev bufTy : (tb : Table) → Fin (tcTables nBuf tb) → BufTy
  | .hbm, ⟨i, _⟩ => hbmTy i
  | .local _ .vmem, ⟨i, _⟩ => vmemTy i
  | _, _ => ⟨S1024x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | _ => false

abbrev dmaSemScopedAt (i : Nat) : Bool := match i / 128 with
  | 0 => dmaSemScopedAt0_0 i
  | 1 => dmaSemScopedAt0_1 i
  | 2 => dmaSemScopedAt0_2 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_2 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | _ => false

abbrev vmemScopedAt (i : Nat) : Bool := match i / 128 with
  | 0 => vmemScopedAt0_0 i
  | 1 => vmemScopedAt0_1 i
  | 2 => vmemScopedAt0_2 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 294 → Bool
  | ⟨i, _⟩ => dmaSemScopedAt i

abbrev sig : RefSig :=
  ofTc nBuf bufTy 0 294 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_v12 : Ref sig .tc := ⟨.hbm, 33, rfl⟩
abbrev main_call0_cst : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_v19 : Ref sig .tc := ⟨.hbm, 41, rfl⟩
abbrev main_call0_v20 : Ref sig .tc := ⟨.hbm, 42, rfl⟩
abbrev main_call0_v21 : Ref sig .tc := ⟨.hbm, 43, rfl⟩
abbrev main_call0_v22 : Ref sig .tc := ⟨.hbm, 44, rfl⟩
abbrev main_call0_v23 : Ref sig .tc := ⟨.hbm, 45, rfl⟩
abbrev main_call0_v24 : Ref sig .tc := ⟨.hbm, 46, rfl⟩
abbrev main_call0_v25 : Ref sig .tc := ⟨.hbm, 47, rfl⟩
abbrev main_call0_v26 : Ref sig .tc := ⟨.hbm, 48, rfl⟩
abbrev main_call0_v27 : Ref sig .tc := ⟨.hbm, 49, rfl⟩
abbrev main_call0_v28 : Ref sig .tc := ⟨.hbm, 50, rfl⟩
abbrev main_call0_v29 : Ref sig .tc := ⟨.hbm, 51, rfl⟩
abbrev main_call0_v30 : Ref sig .tc := ⟨.hbm, 52, rfl⟩
abbrev main_call0_v31 : Ref sig .tc := ⟨.hbm, 53, rfl⟩
abbrev main_call0_v32 : Ref sig .tc := ⟨.hbm, 54, rfl⟩
abbrev main_call0_v33 : Ref sig .tc := ⟨.hbm, 55, rfl⟩
abbrev main_call0_v34 : Ref sig .tc := ⟨.hbm, 56, rfl⟩
abbrev main_call0_v35 : Ref sig .tc := ⟨.hbm, 57, rfl⟩
abbrev main_call0_v36 : Ref sig .tc := ⟨.hbm, 58, rfl⟩
abbrev main_call0_v37 : Ref sig .tc := ⟨.hbm, 59, rfl⟩
abbrev main_call0_v38 : Ref sig .tc := ⟨.hbm, 60, rfl⟩
abbrev main_call0_v39 : Ref sig .tc := ⟨.hbm, 61, rfl⟩
abbrev main_call0_v40 : Ref sig .tc := ⟨.hbm, 62, rfl⟩
abbrev main_call0_v41 : Ref sig .tc := ⟨.hbm, 63, rfl⟩
abbrev main_call0_v42 : Ref sig .tc := ⟨.hbm, 64, rfl⟩
abbrev main_call0_v43 : Ref sig .tc := ⟨.hbm, 65, rfl⟩
abbrev main_call0_v44 : Ref sig .tc := ⟨.hbm, 66, rfl⟩
abbrev main_call0_v45 : Ref sig .tc := ⟨.hbm, 67, rfl⟩
abbrev main_call0_v46 : Ref sig .tc := ⟨.hbm, 68, rfl⟩
abbrev main_call0_v47 : Ref sig .tc := ⟨.hbm, 69, rfl⟩
abbrev main_call0_v48 : Ref sig .tc := ⟨.hbm, 70, rfl⟩
abbrev main_call0_v49 : Ref sig .tc := ⟨.hbm, 71, rfl⟩
abbrev main_call0_v50 : Ref sig .tc := ⟨.hbm, 72, rfl⟩
abbrev main_call0_v51 : Ref sig .tc := ⟨.hbm, 73, rfl⟩
abbrev main_call0_v52 : Ref sig .tc := ⟨.hbm, 74, rfl⟩
abbrev main_call0_v53 : Ref sig .tc := ⟨.hbm, 75, rfl⟩
abbrev main_call0_v54 : Ref sig .tc := ⟨.hbm, 76, rfl⟩
abbrev main_call0_v55 : Ref sig .tc := ⟨.hbm, 77, rfl⟩
abbrev main_call0_v56 : Ref sig .tc := ⟨.hbm, 78, rfl⟩
abbrev main_call0_v57 : Ref sig .tc := ⟨.hbm, 79, rfl⟩
abbrev main_call0_v58 : Ref sig .tc := ⟨.hbm, 80, rfl⟩
abbrev main_call0_v59 : Ref sig .tc := ⟨.hbm, 81, rfl⟩
abbrev main_call0_v60 : Ref sig .tc := ⟨.hbm, 82, rfl⟩
abbrev main_call0_v61 : Ref sig .tc := ⟨.hbm, 83, rfl⟩
abbrev main_call0_v62 : Ref sig .tc := ⟨.hbm, 84, rfl⟩
abbrev main_call0_v63 : Ref sig .tc := ⟨.hbm, 85, rfl⟩
abbrev main_call0_v64 : Ref sig .tc := ⟨.hbm, 86, rfl⟩
abbrev main_call0_v65 : Ref sig .tc := ⟨.hbm, 87, rfl⟩
abbrev main_call0_v66 : Ref sig .tc := ⟨.hbm, 88, rfl⟩
abbrev main_call0_v67 : Ref sig .tc := ⟨.hbm, 89, rfl⟩
abbrev main_call0_v68 : Ref sig .tc := ⟨.hbm, 90, rfl⟩
abbrev main_call0_v69 : Ref sig .tc := ⟨.hbm, 91, rfl⟩
abbrev main_call0_v70 : Ref sig .tc := ⟨.hbm, 92, rfl⟩
abbrev main_call0_v71 : Ref sig .tc := ⟨.hbm, 93, rfl⟩
abbrev main_call0_v72 : Ref sig .tc := ⟨.hbm, 94, rfl⟩
abbrev main_call0_v73 : Ref sig .tc := ⟨.hbm, 95, rfl⟩
abbrev main_call0_v74 : Ref sig .tc := ⟨.hbm, 96, rfl⟩
abbrev main_call0_v75 : Ref sig .tc := ⟨.hbm, 97, rfl⟩
abbrev main_call0_v76 : Ref sig .tc := ⟨.hbm, 98, rfl⟩
abbrev main_call0_v77 : Ref sig .tc := ⟨.hbm, 99, rfl⟩
abbrev main_call0_v78 : Ref sig .tc := ⟨.hbm, 100, rfl⟩
abbrev main_call0_v79 : Ref sig .tc := ⟨.hbm, 101, rfl⟩
abbrev main_call0_v80 : Ref sig .tc := ⟨.hbm, 102, rfl⟩
abbrev main_call0_v81 : Ref sig .tc := ⟨.hbm, 103, rfl⟩
abbrev main_call0_v82 : Ref sig .tc := ⟨.hbm, 104, rfl⟩
abbrev main_call0_v83 : Ref sig .tc := ⟨.hbm, 105, rfl⟩
abbrev main_call0_v84 : Ref sig .tc := ⟨.hbm, 106, rfl⟩
abbrev main_call0_v85 : Ref sig .tc := ⟨.hbm, 107, rfl⟩
abbrev main_call0_v86 : Ref sig .tc := ⟨.hbm, 108, rfl⟩
abbrev main_call0_v87 : Ref sig .tc := ⟨.hbm, 109, rfl⟩
abbrev main_call0_v88 : Ref sig .tc := ⟨.hbm, 110, rfl⟩
abbrev main_call0_v89 : Ref sig .tc := ⟨.hbm, 111, rfl⟩
abbrev main_call0_v90 : Ref sig .tc := ⟨.hbm, 112, rfl⟩
abbrev main_call0_v91 : Ref sig .tc := ⟨.hbm, 113, rfl⟩
abbrev main_call0_v92 : Ref sig .tc := ⟨.hbm, 114, rfl⟩
abbrev main_call0_v93 : Ref sig .tc := ⟨.hbm, 115, rfl⟩
abbrev main_call0_v94 : Ref sig .tc := ⟨.hbm, 116, rfl⟩
abbrev main_call0_v95 : Ref sig .tc := ⟨.hbm, 117, rfl⟩
abbrev main_call0_v96 : Ref sig .tc := ⟨.hbm, 118, rfl⟩
abbrev main_call0_v97 : Ref sig .tc := ⟨.hbm, 119, rfl⟩
abbrev main_call0_v98 : Ref sig .tc := ⟨.hbm, 120, rfl⟩
abbrev main_call0_v99 : Ref sig .tc := ⟨.hbm, 121, rfl⟩
abbrev main_call0_v100 : Ref sig .tc := ⟨.hbm, 122, rfl⟩
abbrev main_call0_v101 : Ref sig .tc := ⟨.hbm, 123, rfl⟩
abbrev main_call0_v102 : Ref sig .tc := ⟨.hbm, 124, rfl⟩
abbrev main_call0_v103 : Ref sig .tc := ⟨.hbm, 125, rfl⟩
abbrev main_call0_v104 : Ref sig .tc := ⟨.hbm, 126, rfl⟩
abbrev main_call0_v105 : Ref sig .tc := ⟨.hbm, 127, rfl⟩
abbrev main_call0_v106 : Ref sig .tc := ⟨.hbm, 128, rfl⟩
abbrev main_call0_v107 : Ref sig .tc := ⟨.hbm, 129, rfl⟩
abbrev main_call0_v108 : Ref sig .tc := ⟨.hbm, 130, rfl⟩
abbrev main_call0_v109 : Ref sig .tc := ⟨.hbm, 131, rfl⟩
abbrev main_call0_v110 : Ref sig .tc := ⟨.hbm, 132, rfl⟩
abbrev main_call0_v111 : Ref sig .tc := ⟨.hbm, 133, rfl⟩
abbrev main_call0_v112 : Ref sig .tc := ⟨.hbm, 134, rfl⟩
abbrev main_call0_v113 : Ref sig .tc := ⟨.hbm, 135, rfl⟩
abbrev main_call0_v114 : Ref sig .tc := ⟨.hbm, 136, rfl⟩
abbrev main_call0_v115 : Ref sig .tc := ⟨.hbm, 137, rfl⟩
abbrev main_call0_v116 : Ref sig .tc := ⟨.hbm, 138, rfl⟩
abbrev main_call0_v117 : Ref sig .tc := ⟨.hbm, 139, rfl⟩
abbrev main_call0_v118 : Ref sig .tc := ⟨.hbm, 140, rfl⟩
abbrev main_call0_v119 : Ref sig .tc := ⟨.hbm, 141, rfl⟩
abbrev main_call0_v120 : Ref sig .tc := ⟨.hbm, 142, rfl⟩
abbrev main_call0_v121 : Ref sig .tc := ⟨.hbm, 143, rfl⟩
abbrev main_call0_v122 : Ref sig .tc := ⟨.hbm, 144, rfl⟩
abbrev main_call0_v123 : Ref sig .tc := ⟨.hbm, 145, rfl⟩
abbrev main_call0_v124 : Ref sig .tc := ⟨.hbm, 146, rfl⟩
abbrev main_call0_v125 : Ref sig .tc := ⟨.hbm, 147, rfl⟩
abbrev main_call0_v126 : Ref sig .tc := ⟨.hbm, 148, rfl⟩
abbrev main_call0_v127 : Ref sig .tc := ⟨.hbm, 149, rfl⟩
abbrev main_call0_v128 : Ref sig .tc := ⟨.hbm, 150, rfl⟩
abbrev main_call0_v129 : Ref sig .tc := ⟨.hbm, 151, rfl⟩
abbrev main_call0_v130 : Ref sig .tc := ⟨.hbm, 152, rfl⟩
abbrev main_call0_v131 : Ref sig .tc := ⟨.hbm, 153, rfl⟩
abbrev main_call0_v132 : Ref sig .tc := ⟨.hbm, 154, rfl⟩
abbrev main_call0_v133 : Ref sig .tc := ⟨.hbm, 155, rfl⟩
abbrev main_call0_v134 : Ref sig .tc := ⟨.hbm, 156, rfl⟩
abbrev main_call0_v135 : Ref sig .tc := ⟨.hbm, 157, rfl⟩
abbrev main_call0_v136 : Ref sig .tc := ⟨.hbm, 158, rfl⟩
abbrev main_call0_v137 : Ref sig .tc := ⟨.hbm, 159, rfl⟩
abbrev main_call0_v138 : Ref sig .tc := ⟨.hbm, 160, rfl⟩
abbrev main_call0_v139 : Ref sig .tc := ⟨.hbm, 161, rfl⟩
abbrev main_call0_v140 : Ref sig .tc := ⟨.hbm, 162, rfl⟩
abbrev main_call0_v141 : Ref sig .tc := ⟨.hbm, 163, rfl⟩
abbrev main_call0_v142 : Ref sig .tc := ⟨.hbm, 164, rfl⟩
abbrev main_call0_v143 : Ref sig .tc := ⟨.hbm, 165, rfl⟩
abbrev main_call0_v144 : Ref sig .tc := ⟨.hbm, 166, rfl⟩
abbrev main_call0_v145 : Ref sig .tc := ⟨.hbm, 167, rfl⟩
abbrev main_call0_v146 : Ref sig .tc := ⟨.hbm, 168, rfl⟩
abbrev main_call0_v147 : Ref sig .tc := ⟨.hbm, 169, rfl⟩
abbrev main_call0_v148 : Ref sig .tc := ⟨.hbm, 170, rfl⟩
abbrev main_call0_v149 : Ref sig .tc := ⟨.hbm, 171, rfl⟩
abbrev main_call0_v150 : Ref sig .tc := ⟨.hbm, 172, rfl⟩
abbrev main_call0_v151 : Ref sig .tc := ⟨.hbm, 173, rfl⟩
abbrev main_call0_v152 : Ref sig .tc := ⟨.hbm, 174, rfl⟩
abbrev main_call0_v153 : Ref sig .tc := ⟨.hbm, 175, rfl⟩
abbrev main_call0_v154 : Ref sig .tc := ⟨.hbm, 176, rfl⟩
abbrev main_call0_v155 : Ref sig .tc := ⟨.hbm, 177, rfl⟩
abbrev main_call0_v156 : Ref sig .tc := ⟨.hbm, 178, rfl⟩
abbrev main_call0_v157 : Ref sig .tc := ⟨.hbm, 179, rfl⟩
abbrev main_call0_v158 : Ref sig .tc := ⟨.hbm, 180, rfl⟩
abbrev main_call0_v159 : Ref sig .tc := ⟨.hbm, 181, rfl⟩
abbrev main_call0_v160 : Ref sig .tc := ⟨.hbm, 182, rfl⟩
abbrev main_call0_v161 : Ref sig .tc := ⟨.hbm, 183, rfl⟩
abbrev main_call0_v162 : Ref sig .tc := ⟨.hbm, 184, rfl⟩
abbrev main_call0_v163 : Ref sig .tc := ⟨.hbm, 185, rfl⟩
abbrev main_call0_v164 : Ref sig .tc := ⟨.hbm, 186, rfl⟩
abbrev main_call0_v165 : Ref sig .tc := ⟨.hbm, 187, rfl⟩
abbrev main_call0_v166 : Ref sig .tc := ⟨.hbm, 188, rfl⟩
abbrev main_call0_v167 : Ref sig .tc := ⟨.hbm, 189, rfl⟩
abbrev main_call0_v168 : Ref sig .tc := ⟨.hbm, 190, rfl⟩
abbrev main_v0_0 : Ref sig .tc := ⟨.hbm, 191, rfl⟩
abbrev main_call0_v170 : Ref sig .tc := ⟨.hbm, 192, rfl⟩
abbrev main_call0_v171 : Ref sig .tc := ⟨.hbm, 193, rfl⟩
abbrev main_call0_v172 : Ref sig .tc := ⟨.hbm, 194, rfl⟩
abbrev main_call0_v173 : Ref sig .tc := ⟨.hbm, 195, rfl⟩
abbrev main_call0_v174 : Ref sig .tc := ⟨.hbm, 196, rfl⟩
abbrev main_call0_v175 : Ref sig .tc := ⟨.hbm, 197, rfl⟩
abbrev main_call0_v176 : Ref sig .tc := ⟨.hbm, 198, rfl⟩
abbrev main_call0_v177 : Ref sig .tc := ⟨.hbm, 199, rfl⟩
abbrev main_call0_v178 : Ref sig .tc := ⟨.hbm, 200, rfl⟩
abbrev main_call0_v179 : Ref sig .tc := ⟨.hbm, 201, rfl⟩
abbrev main_v0_1 : Ref sig .tc := ⟨.hbm, 202, rfl⟩
abbrev main_call0_v181 : Ref sig .tc := ⟨.hbm, 203, rfl⟩
abbrev main_v0_2 : Ref sig .tc := ⟨.hbm, 204, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc3_stg4_0 : Ref sig .tc := ⟨.vmem, 32, rfl⟩
abbrev cc3_stg4_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg2_1 : Ref sig .tc := ⟨.vmem, 39, rfl⟩
abbrev cc4_stg3_0 : Ref sig .tc := ⟨.vmem, 40, rfl⟩
abbrev cc4_stg3_1 : Ref sig .tc := ⟨.vmem, 41, rfl⟩
abbrev cc5_stg0_0 : Ref sig .tc := ⟨.vmem, 42, rfl⟩
abbrev cc5_stg0_1 : Ref sig .tc := ⟨.vmem, 43, rfl⟩
abbrev cc5_stg1_0 : Ref sig .tc := ⟨.vmem, 44, rfl⟩
abbrev cc5_stg1_1 : Ref sig .tc := ⟨.vmem, 45, rfl⟩
abbrev cc5_stg2_0 : Ref sig .tc := ⟨.vmem, 46, rfl⟩
abbrev cc5_stg2_1 : Ref sig .tc := ⟨.vmem, 47, rfl⟩
abbrev cc5_stg3_0 : Ref sig .tc := ⟨.vmem, 48, rfl⟩
abbrev cc5_stg3_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg1_1 : Ref sig .tc := ⟨.vmem, 53, rfl⟩
abbrev cc6_stg2_0 : Ref sig .tc := ⟨.vmem, 54, rfl⟩
abbrev cc6_stg2_1 : Ref sig .tc := ⟨.vmem, 55, rfl⟩
abbrev cc6_stg3_0 : Ref sig .tc := ⟨.vmem, 56, rfl⟩
abbrev cc6_stg3_1 : Ref sig .tc := ⟨.vmem, 57, rfl⟩
abbrev cc7_stg0_0 : Ref sig .tc := ⟨.vmem, 58, rfl⟩
abbrev cc7_stg0_1 : Ref sig .tc := ⟨.vmem, 59, rfl⟩
abbrev cc7_stg1_0 : Ref sig .tc := ⟨.vmem, 60, rfl⟩
abbrev cc7_stg1_1 : Ref sig .tc := ⟨.vmem, 61, rfl⟩
abbrev cc7_stg2_0 : Ref sig .tc := ⟨.vmem, 62, rfl⟩
abbrev cc7_stg2_1 : Ref sig .tc := ⟨.vmem, 63, rfl⟩
abbrev cc7_stg3_0 : Ref sig .tc := ⟨.vmem, 64, rfl⟩
abbrev cc7_stg3_1 : Ref sig .tc := ⟨.vmem, 65, rfl⟩
abbrev cc8_stg0_0 : Ref sig .tc := ⟨.vmem, 66, rfl⟩
abbrev cc8_stg0_1 : Ref sig .tc := ⟨.vmem, 67, rfl⟩
abbrev cc8_stg1_0 : Ref sig .tc := ⟨.vmem, 68, rfl⟩
abbrev cc8_stg1_1 : Ref sig .tc := ⟨.vmem, 69, rfl⟩
abbrev cc8_stg2_0 : Ref sig .tc := ⟨.vmem, 70, rfl⟩
abbrev cc8_stg2_1 : Ref sig .tc := ⟨.vmem, 71, rfl⟩
abbrev cc8_stg3_0 : Ref sig .tc := ⟨.vmem, 72, rfl⟩
abbrev cc8_stg3_1 : Ref sig .tc := ⟨.vmem, 73, rfl⟩
abbrev cc9_stg0_0 : Ref sig .tc := ⟨.vmem, 74, rfl⟩
abbrev cc9_stg0_1 : Ref sig .tc := ⟨.vmem, 75, rfl⟩
abbrev cc9_stg1_0 : Ref sig .tc := ⟨.vmem, 76, rfl⟩
abbrev cc9_stg1_1 : Ref sig .tc := ⟨.vmem, 77, rfl⟩
abbrev cc9_stg2_0 : Ref sig .tc := ⟨.vmem, 78, rfl⟩
abbrev cc9_stg2_1 : Ref sig .tc := ⟨.vmem, 79, rfl⟩
abbrev cc9_stg3_0 : Ref sig .tc := ⟨.vmem, 80, rfl⟩
abbrev cc9_stg3_1 : Ref sig .tc := ⟨.vmem, 81, rfl⟩
abbrev cc10_stg0_0 : Ref sig .tc := ⟨.vmem, 82, rfl⟩
abbrev cc10_stg0_1 : Ref sig .tc := ⟨.vmem, 83, rfl⟩
abbrev cc10_stg1_0 : Ref sig .tc := ⟨.vmem, 84, rfl⟩
abbrev cc10_stg1_1 : Ref sig .tc := ⟨.vmem, 85, rfl⟩
abbrev cc10_stg2_0 : Ref sig .tc := ⟨.vmem, 86, rfl⟩
abbrev cc10_stg2_1 : Ref sig .tc := ⟨.vmem, 87, rfl⟩
abbrev cc10_stg3_0 : Ref sig .tc := ⟨.vmem, 88, rfl⟩
abbrev cc10_stg3_1 : Ref sig .tc := ⟨.vmem, 89, rfl⟩
abbrev cc10_stg4_0 : Ref sig .tc := ⟨.vmem, 90, rfl⟩
abbrev cc10_stg4_1 : Ref sig .tc := ⟨.vmem, 91, rfl⟩
abbrev cc11_stg0_0 : Ref sig .tc := ⟨.vmem, 92, rfl⟩
abbrev cc11_stg0_1 : Ref sig .tc := ⟨.vmem, 93, rfl⟩
abbrev cc11_stg1_0 : Ref sig .tc := ⟨.vmem, 94, rfl⟩
abbrev cc11_stg1_1 : Ref sig .tc := ⟨.vmem, 95, rfl⟩
abbrev cc11_stg2_0 : Ref sig .tc := ⟨.vmem, 96, rfl⟩
abbrev cc11_stg2_1 : Ref sig .tc := ⟨.vmem, 97, rfl⟩
abbrev cc11_stg3_0 : Ref sig .tc := ⟨.vmem, 98, rfl⟩
abbrev cc11_stg3_1 : Ref sig .tc := ⟨.vmem, 99, rfl⟩
abbrev cc12_stg0_0 : Ref sig .tc := ⟨.vmem, 100, rfl⟩
abbrev cc12_stg0_1 : Ref sig .tc := ⟨.vmem, 101, rfl⟩
abbrev cc12_stg1_0 : Ref sig .tc := ⟨.vmem, 102, rfl⟩
abbrev cc12_stg1_1 : Ref sig .tc := ⟨.vmem, 103, rfl⟩
abbrev cc12_stg2_0 : Ref sig .tc := ⟨.vmem, 104, rfl⟩
abbrev cc12_stg2_1 : Ref sig .tc := ⟨.vmem, 105, rfl⟩
abbrev cc12_stg3_0 : Ref sig .tc := ⟨.vmem, 106, rfl⟩
abbrev cc12_stg3_1 : Ref sig .tc := ⟨.vmem, 107, rfl⟩
abbrev cc13_stg0_0 : Ref sig .tc := ⟨.vmem, 108, rfl⟩
abbrev cc13_stg0_1 : Ref sig .tc := ⟨.vmem, 109, rfl⟩
abbrev cc13_stg1_0 : Ref sig .tc := ⟨.vmem, 110, rfl⟩
abbrev cc13_stg1_1 : Ref sig .tc := ⟨.vmem, 111, rfl⟩
abbrev cc13_stg2_0 : Ref sig .tc := ⟨.vmem, 112, rfl⟩
abbrev cc13_stg2_1 : Ref sig .tc := ⟨.vmem, 113, rfl⟩
abbrev cc13_stg3_0 : Ref sig .tc := ⟨.vmem, 114, rfl⟩
abbrev cc13_stg3_1 : Ref sig .tc := ⟨.vmem, 115, rfl⟩
abbrev cc14_stg0_0 : Ref sig .tc := ⟨.vmem, 116, rfl⟩
abbrev cc14_stg0_1 : Ref sig .tc := ⟨.vmem, 117, rfl⟩
abbrev cc14_stg1_0 : Ref sig .tc := ⟨.vmem, 118, rfl⟩
abbrev cc14_stg1_1 : Ref sig .tc := ⟨.vmem, 119, rfl⟩
abbrev cc14_stg2_0 : Ref sig .tc := ⟨.vmem, 120, rfl⟩
abbrev cc14_stg2_1 : Ref sig .tc := ⟨.vmem, 121, rfl⟩
abbrev cc14_stg3_0 : Ref sig .tc := ⟨.vmem, 122, rfl⟩
abbrev cc14_stg3_1 : Ref sig .tc := ⟨.vmem, 123, rfl⟩
abbrev cc15_stg0_0 : Ref sig .tc := ⟨.vmem, 124, rfl⟩
abbrev cc15_stg0_1 : Ref sig .tc := ⟨.vmem, 125, rfl⟩
abbrev cc15_stg1_0 : Ref sig .tc := ⟨.vmem, 126, rfl⟩
abbrev cc15_stg1_1 : Ref sig .tc := ⟨.vmem, 127, rfl⟩
abbrev cc15_stg2_0 : Ref sig .tc := ⟨.vmem, 128, rfl⟩
abbrev cc15_stg2_1 : Ref sig .tc := ⟨.vmem, 129, rfl⟩
abbrev cc15_stg3_0 : Ref sig .tc := ⟨.vmem, 130, rfl⟩
abbrev cc15_stg3_1 : Ref sig .tc := ⟨.vmem, 131, rfl⟩
abbrev cc16_stg0_0 : Ref sig .tc := ⟨.vmem, 132, rfl⟩
abbrev cc16_stg0_1 : Ref sig .tc := ⟨.vmem, 133, rfl⟩
abbrev cc16_stg1_0 : Ref sig .tc := ⟨.vmem, 134, rfl⟩
abbrev cc16_stg1_1 : Ref sig .tc := ⟨.vmem, 135, rfl⟩
abbrev cc16_stg2_0 : Ref sig .tc := ⟨.vmem, 136, rfl⟩
abbrev cc16_stg2_1 : Ref sig .tc := ⟨.vmem, 137, rfl⟩
abbrev cc16_stg3_0 : Ref sig .tc := ⟨.vmem, 138, rfl⟩
abbrev cc16_stg3_1 : Ref sig .tc := ⟨.vmem, 139, rfl⟩
abbrev cc17_stg0_0 : Ref sig .tc := ⟨.vmem, 140, rfl⟩
abbrev cc17_stg0_1 : Ref sig .tc := ⟨.vmem, 141, rfl⟩
abbrev cc17_stg1_0 : Ref sig .tc := ⟨.vmem, 142, rfl⟩
abbrev cc17_stg1_1 : Ref sig .tc := ⟨.vmem, 143, rfl⟩
abbrev cc17_stg2_0 : Ref sig .tc := ⟨.vmem, 144, rfl⟩
abbrev cc17_stg2_1 : Ref sig .tc := ⟨.vmem, 145, rfl⟩
abbrev cc17_stg3_0 : Ref sig .tc := ⟨.vmem, 146, rfl⟩
abbrev cc17_stg3_1 : Ref sig .tc := ⟨.vmem, 147, rfl⟩
abbrev cc17_stg4_0 : Ref sig .tc := ⟨.vmem, 148, rfl⟩
abbrev cc17_stg4_1 : Ref sig .tc := ⟨.vmem, 149, rfl⟩
abbrev cc18_stg0_0 : Ref sig .tc := ⟨.vmem, 150, rfl⟩
abbrev cc18_stg0_1 : Ref sig .tc := ⟨.vmem, 151, rfl⟩
abbrev cc18_stg1_0 : Ref sig .tc := ⟨.vmem, 152, rfl⟩
abbrev cc18_stg1_1 : Ref sig .tc := ⟨.vmem, 153, rfl⟩
abbrev cc18_stg2_0 : Ref sig .tc := ⟨.vmem, 154, rfl⟩
abbrev cc18_stg2_1 : Ref sig .tc := ⟨.vmem, 155, rfl⟩
abbrev cc18_stg3_0 : Ref sig .tc := ⟨.vmem, 156, rfl⟩
abbrev cc18_stg3_1 : Ref sig .tc := ⟨.vmem, 157, rfl⟩
abbrev cc19_stg0_0 : Ref sig .tc := ⟨.vmem, 158, rfl⟩
abbrev cc19_stg0_1 : Ref sig .tc := ⟨.vmem, 159, rfl⟩
abbrev cc19_stg1_0 : Ref sig .tc := ⟨.vmem, 160, rfl⟩
abbrev cc19_stg1_1 : Ref sig .tc := ⟨.vmem, 161, rfl⟩
abbrev cc19_stg2_0 : Ref sig .tc := ⟨.vmem, 162, rfl⟩
abbrev cc19_stg2_1 : Ref sig .tc := ⟨.vmem, 163, rfl⟩
abbrev cc19_stg3_0 : Ref sig .tc := ⟨.vmem, 164, rfl⟩
abbrev cc19_stg3_1 : Ref sig .tc := ⟨.vmem, 165, rfl⟩
abbrev cc20_stg0_0 : Ref sig .tc := ⟨.vmem, 166, rfl⟩
abbrev cc20_stg0_1 : Ref sig .tc := ⟨.vmem, 167, rfl⟩
abbrev cc20_stg1_0 : Ref sig .tc := ⟨.vmem, 168, rfl⟩
abbrev cc20_stg1_1 : Ref sig .tc := ⟨.vmem, 169, rfl⟩
abbrev cc20_stg2_0 : Ref sig .tc := ⟨.vmem, 170, rfl⟩
abbrev cc20_stg2_1 : Ref sig .tc := ⟨.vmem, 171, rfl⟩
abbrev cc20_stg3_0 : Ref sig .tc := ⟨.vmem, 172, rfl⟩
abbrev cc20_stg3_1 : Ref sig .tc := ⟨.vmem, 173, rfl⟩
abbrev cc21_stg0_0 : Ref sig .tc := ⟨.vmem, 174, rfl⟩
abbrev cc21_stg0_1 : Ref sig .tc := ⟨.vmem, 175, rfl⟩
abbrev cc21_stg1_0 : Ref sig .tc := ⟨.vmem, 176, rfl⟩
abbrev cc21_stg1_1 : Ref sig .tc := ⟨.vmem, 177, rfl⟩
abbrev cc21_stg2_0 : Ref sig .tc := ⟨.vmem, 178, rfl⟩
abbrev cc21_stg2_1 : Ref sig .tc := ⟨.vmem, 179, rfl⟩
abbrev cc21_stg3_0 : Ref sig .tc := ⟨.vmem, 180, rfl⟩
abbrev cc21_stg3_1 : Ref sig .tc := ⟨.vmem, 181, rfl⟩
abbrev cc21_stg4_0 : Ref sig .tc := ⟨.vmem, 182, rfl⟩
abbrev cc21_stg4_1 : Ref sig .tc := ⟨.vmem, 183, rfl⟩
abbrev cc21_stg5_0 : Ref sig .tc := ⟨.vmem, 184, rfl⟩
abbrev cc21_stg5_1 : Ref sig .tc := ⟨.vmem, 185, rfl⟩
abbrev cc22_stg0_0 : Ref sig .tc := ⟨.vmem, 186, rfl⟩
abbrev cc22_stg0_1 : Ref sig .tc := ⟨.vmem, 187, rfl⟩
abbrev cc22_stg1_0 : Ref sig .tc := ⟨.vmem, 188, rfl⟩
abbrev cc22_stg1_1 : Ref sig .tc := ⟨.vmem, 189, rfl⟩
abbrev cc22_stg2_0 : Ref sig .tc := ⟨.vmem, 190, rfl⟩
abbrev cc22_stg2_1 : Ref sig .tc := ⟨.vmem, 191, rfl⟩
abbrev cc22_stg3_0 : Ref sig .tc := ⟨.vmem, 192, rfl⟩
abbrev cc22_stg3_1 : Ref sig .tc := ⟨.vmem, 193, rfl⟩
abbrev cc23_stg0_0 : Ref sig .tc := ⟨.vmem, 194, rfl⟩
abbrev cc23_stg0_1 : Ref sig .tc := ⟨.vmem, 195, rfl⟩
abbrev cc23_stg1_0 : Ref sig .tc := ⟨.vmem, 196, rfl⟩
abbrev cc23_stg1_1 : Ref sig .tc := ⟨.vmem, 197, rfl⟩
abbrev cc23_stg2_0 : Ref sig .tc := ⟨.vmem, 198, rfl⟩
abbrev cc23_stg2_1 : Ref sig .tc := ⟨.vmem, 199, rfl⟩
abbrev cc23_stg3_0 : Ref sig .tc := ⟨.vmem, 200, rfl⟩
abbrev cc23_stg3_1 : Ref sig .tc := ⟨.vmem, 201, rfl⟩
abbrev cc24_stg0_0 : Ref sig .tc := ⟨.vmem, 202, rfl⟩
abbrev cc24_stg0_1 : Ref sig .tc := ⟨.vmem, 203, rfl⟩
abbrev cc24_stg1_0 : Ref sig .tc := ⟨.vmem, 204, rfl⟩
abbrev cc24_stg1_1 : Ref sig .tc := ⟨.vmem, 205, rfl⟩
abbrev cc24_stg2_0 : Ref sig .tc := ⟨.vmem, 206, rfl⟩
abbrev cc24_stg2_1 : Ref sig .tc := ⟨.vmem, 207, rfl⟩
abbrev cc24_stg3_0 : Ref sig .tc := ⟨.vmem, 208, rfl⟩
abbrev cc24_stg3_1 : Ref sig .tc := ⟨.vmem, 209, rfl⟩
abbrev cc24_stg4_0 : Ref sig .tc := ⟨.vmem, 210, rfl⟩
abbrev cc24_stg4_1 : Ref sig .tc := ⟨.vmem, 211, rfl⟩
abbrev cc24_stg5_0 : Ref sig .tc := ⟨.vmem, 212, rfl⟩
abbrev cc24_stg5_1 : Ref sig .tc := ⟨.vmem, 213, rfl⟩
abbrev cc25_stg0_0 : Ref sig .tc := ⟨.vmem, 214, rfl⟩
abbrev cc25_stg0_1 : Ref sig .tc := ⟨.vmem, 215, rfl⟩
abbrev cc25_stg1_0 : Ref sig .tc := ⟨.vmem, 216, rfl⟩
abbrev cc25_stg1_1 : Ref sig .tc := ⟨.vmem, 217, rfl⟩
abbrev cc25_stg2_0 : Ref sig .tc := ⟨.vmem, 218, rfl⟩
abbrev cc25_stg2_1 : Ref sig .tc := ⟨.vmem, 219, rfl⟩
abbrev cc25_stg3_0 : Ref sig .tc := ⟨.vmem, 220, rfl⟩
abbrev cc25_stg3_1 : Ref sig .tc := ⟨.vmem, 221, rfl⟩
abbrev cc26_stg0_0 : Ref sig .tc := ⟨.vmem, 222, rfl⟩
abbrev cc26_stg0_1 : Ref sig .tc := ⟨.vmem, 223, rfl⟩
abbrev cc26_stg1_0 : Ref sig .tc := ⟨.vmem, 224, rfl⟩
abbrev cc26_stg1_1 : Ref sig .tc := ⟨.vmem, 225, rfl⟩
abbrev cc26_stg2_0 : Ref sig .tc := ⟨.vmem, 226, rfl⟩
abbrev cc26_stg2_1 : Ref sig .tc := ⟨.vmem, 227, rfl⟩
abbrev cc26_stg3_0 : Ref sig .tc := ⟨.vmem, 228, rfl⟩
abbrev cc26_stg3_1 : Ref sig .tc := ⟨.vmem, 229, rfl⟩
abbrev cc27_stg0_0 : Ref sig .tc := ⟨.vmem, 230, rfl⟩
abbrev cc27_stg0_1 : Ref sig .tc := ⟨.vmem, 231, rfl⟩
abbrev cc27_stg1_0 : Ref sig .tc := ⟨.vmem, 232, rfl⟩
abbrev cc27_stg1_1 : Ref sig .tc := ⟨.vmem, 233, rfl⟩
abbrev cc27_stg2_0 : Ref sig .tc := ⟨.vmem, 234, rfl⟩
abbrev cc27_stg2_1 : Ref sig .tc := ⟨.vmem, 235, rfl⟩
abbrev cc27_stg3_0 : Ref sig .tc := ⟨.vmem, 236, rfl⟩
abbrev cc27_stg3_1 : Ref sig .tc := ⟨.vmem, 237, rfl⟩
abbrev cc27_stg4_0 : Ref sig .tc := ⟨.vmem, 238, rfl⟩
abbrev cc27_stg4_1 : Ref sig .tc := ⟨.vmem, 239, rfl⟩
abbrev cc27_stg5_0 : Ref sig .tc := ⟨.vmem, 240, rfl⟩
abbrev cc27_stg5_1 : Ref sig .tc := ⟨.vmem, 241, rfl⟩
abbrev cc28_stg0_0 : Ref sig .tc := ⟨.vmem, 242, rfl⟩
abbrev cc28_stg0_1 : Ref sig .tc := ⟨.vmem, 243, rfl⟩
abbrev cc28_stg1_0 : Ref sig .tc := ⟨.vmem, 244, rfl⟩
abbrev cc28_stg1_1 : Ref sig .tc := ⟨.vmem, 245, rfl⟩
abbrev cc28_stg2_0 : Ref sig .tc := ⟨.vmem, 246, rfl⟩
abbrev cc28_stg2_1 : Ref sig .tc := ⟨.vmem, 247, rfl⟩
abbrev cc28_stg3_0 : Ref sig .tc := ⟨.vmem, 248, rfl⟩
abbrev cc28_stg3_1 : Ref sig .tc := ⟨.vmem, 249, rfl⟩
abbrev cc29_stg0_0 : Ref sig .tc := ⟨.vmem, 250, rfl⟩
abbrev cc29_stg0_1 : Ref sig .tc := ⟨.vmem, 251, rfl⟩
abbrev cc29_stg1_0 : Ref sig .tc := ⟨.vmem, 252, rfl⟩
abbrev cc29_stg1_1 : Ref sig .tc := ⟨.vmem, 253, rfl⟩
abbrev cc29_stg2_0 : Ref sig .tc := ⟨.vmem, 254, rfl⟩
abbrev cc29_stg2_1 : Ref sig .tc := ⟨.vmem, 255, rfl⟩
abbrev cc29_stg3_0 : Ref sig .tc := ⟨.vmem, 256, rfl⟩
abbrev cc29_stg3_1 : Ref sig .tc := ⟨.vmem, 257, rfl⟩
abbrev cc30_stg0_0 : Ref sig .tc := ⟨.vmem, 258, rfl⟩
abbrev cc30_stg0_1 : Ref sig .tc := ⟨.vmem, 259, rfl⟩
abbrev cc30_stg1_0 : Ref sig .tc := ⟨.vmem, 260, rfl⟩
abbrev cc30_stg1_1 : Ref sig .tc := ⟨.vmem, 261, rfl⟩
abbrev cc30_stg2_0 : Ref sig .tc := ⟨.vmem, 262, rfl⟩
abbrev cc30_stg2_1 : Ref sig .tc := ⟨.vmem, 263, rfl⟩
abbrev cc30_stg3_0 : Ref sig .tc := ⟨.vmem, 264, rfl⟩
abbrev cc30_stg3_1 : Ref sig .tc := ⟨.vmem, 265, rfl⟩
abbrev cc30_stg4_0 : Ref sig .tc := ⟨.vmem, 266, rfl⟩
abbrev cc30_stg4_1 : Ref sig .tc := ⟨.vmem, 267, rfl⟩
abbrev cc30_stg5_0 : Ref sig .tc := ⟨.vmem, 268, rfl⟩
abbrev cc30_stg5_1 : Ref sig .tc := ⟨.vmem, 269, rfl⟩
abbrev cc31_stg0_0 : Ref sig .tc := ⟨.vmem, 270, rfl⟩
abbrev cc31_stg0_1 : Ref sig .tc := ⟨.vmem, 271, rfl⟩
abbrev cc31_stg1_0 : Ref sig .tc := ⟨.vmem, 272, rfl⟩
abbrev cc31_stg1_1 : Ref sig .tc := ⟨.vmem, 273, rfl⟩
abbrev cc31_stg2_0 : Ref sig .tc := ⟨.vmem, 274, rfl⟩
abbrev cc31_stg2_1 : Ref sig .tc := ⟨.vmem, 275, rfl⟩
abbrev cc31_stg3_0 : Ref sig .tc := ⟨.vmem, 276, rfl⟩
abbrev cc31_stg3_1 : Ref sig .tc := ⟨.vmem, 277, rfl⟩
abbrev cc32_stg0_0 : Ref sig .tc := ⟨.vmem, 278, rfl⟩
abbrev cc32_stg0_1 : Ref sig .tc := ⟨.vmem, 279, rfl⟩
abbrev cc32_stg1_0 : Ref sig .tc := ⟨.vmem, 280, rfl⟩
abbrev cc32_stg1_1 : Ref sig .tc := ⟨.vmem, 281, rfl⟩
abbrev cc32_stg2_0 : Ref sig .tc := ⟨.vmem, 282, rfl⟩
abbrev cc32_stg2_1 : Ref sig .tc := ⟨.vmem, 283, rfl⟩
abbrev cc32_stg3_0 : Ref sig .tc := ⟨.vmem, 284, rfl⟩
abbrev cc32_stg3_1 : Ref sig .tc := ⟨.vmem, 285, rfl⟩
abbrev cc33_stg0_0 : Ref sig .tc := ⟨.vmem, 286, rfl⟩
abbrev cc33_stg0_1 : Ref sig .tc := ⟨.vmem, 287, rfl⟩
abbrev cc33_stg1_0 : Ref sig .tc := ⟨.vmem, 288, rfl⟩
abbrev cc33_stg1_1 : Ref sig .tc := ⟨.vmem, 289, rfl⟩
abbrev cc33_stg2_0 : Ref sig .tc := ⟨.vmem, 290, rfl⟩
abbrev cc33_stg2_1 : Ref sig .tc := ⟨.vmem, 291, rfl⟩
abbrev cc33_stg3_0 : Ref sig .tc := ⟨.vmem, 292, rfl⟩
abbrev cc33_stg3_1 : Ref sig .tc := ⟨.vmem, 293, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc3_sem4_0 : DmaSem sig := 32
abbrev cc3_sem4_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem2_1 : DmaSem sig := 39
abbrev cc4_sem3_0 : DmaSem sig := 40
abbrev cc4_sem3_1 : DmaSem sig := 41
abbrev cc5_sem0_0 : DmaSem sig := 42
abbrev cc5_sem0_1 : DmaSem sig := 43
abbrev cc5_sem1_0 : DmaSem sig := 44
abbrev cc5_sem1_1 : DmaSem sig := 45
abbrev cc5_sem2_0 : DmaSem sig := 46
abbrev cc5_sem2_1 : DmaSem sig := 47
abbrev cc5_sem3_0 : DmaSem sig := 48
abbrev cc5_sem3_1 : DmaSem sig := 49
abbrev cc6_sem0_0 : DmaSem sig := 50
abbrev cc6_sem0_1 : DmaSem sig := 51
abbrev cc6_sem1_0 : DmaSem sig := 52
abbrev cc6_sem1_1 : DmaSem sig := 53
abbrev cc6_sem2_0 : DmaSem sig := 54
abbrev cc6_sem2_1 : DmaSem sig := 55
abbrev cc6_sem3_0 : DmaSem sig := 56
abbrev cc6_sem3_1 : DmaSem sig := 57
abbrev cc7_sem0_0 : DmaSem sig := 58
abbrev cc7_sem0_1 : DmaSem sig := 59
abbrev cc7_sem1_0 : DmaSem sig := 60
abbrev cc7_sem1_1 : DmaSem sig := 61
abbrev cc7_sem2_0 : DmaSem sig := 62
abbrev cc7_sem2_1 : DmaSem sig := 63
abbrev cc7_sem3_0 : DmaSem sig := 64
abbrev cc7_sem3_1 : DmaSem sig := 65
abbrev cc8_sem0_0 : DmaSem sig := 66
abbrev cc8_sem0_1 : DmaSem sig := 67
abbrev cc8_sem1_0 : DmaSem sig := 68
abbrev cc8_sem1_1 : DmaSem sig := 69
abbrev cc8_sem2_0 : DmaSem sig := 70
abbrev cc8_sem2_1 : DmaSem sig := 71
abbrev cc8_sem3_0 : DmaSem sig := 72
abbrev cc8_sem3_1 : DmaSem sig := 73
abbrev cc9_sem0_0 : DmaSem sig := 74
abbrev cc9_sem0_1 : DmaSem sig := 75
abbrev cc9_sem1_0 : DmaSem sig := 76
abbrev cc9_sem1_1 : DmaSem sig := 77
abbrev cc9_sem2_0 : DmaSem sig := 78
abbrev cc9_sem2_1 : DmaSem sig := 79
abbrev cc9_sem3_0 : DmaSem sig := 80
abbrev cc9_sem3_1 : DmaSem sig := 81
abbrev cc10_sem0_0 : DmaSem sig := 82
abbrev cc10_sem0_1 : DmaSem sig := 83
abbrev cc10_sem1_0 : DmaSem sig := 84
abbrev cc10_sem1_1 : DmaSem sig := 85
abbrev cc10_sem2_0 : DmaSem sig := 86
abbrev cc10_sem2_1 : DmaSem sig := 87
abbrev cc10_sem3_0 : DmaSem sig := 88
abbrev cc10_sem3_1 : DmaSem sig := 89
abbrev cc10_sem4_0 : DmaSem sig := 90
abbrev cc10_sem4_1 : DmaSem sig := 91
abbrev cc11_sem0_0 : DmaSem sig := 92
abbrev cc11_sem0_1 : DmaSem sig := 93
abbrev cc11_sem1_0 : DmaSem sig := 94
abbrev cc11_sem1_1 : DmaSem sig := 95
abbrev cc11_sem2_0 : DmaSem sig := 96
abbrev cc11_sem2_1 : DmaSem sig := 97
abbrev cc11_sem3_0 : DmaSem sig := 98
abbrev cc11_sem3_1 : DmaSem sig := 99
abbrev cc12_sem0_0 : DmaSem sig := 100
abbrev cc12_sem0_1 : DmaSem sig := 101
abbrev cc12_sem1_0 : DmaSem sig := 102
abbrev cc12_sem1_1 : DmaSem sig := 103
abbrev cc12_sem2_0 : DmaSem sig := 104
abbrev cc12_sem2_1 : DmaSem sig := 105
abbrev cc12_sem3_0 : DmaSem sig := 106
abbrev cc12_sem3_1 : DmaSem sig := 107
abbrev cc13_sem0_0 : DmaSem sig := 108
abbrev cc13_sem0_1 : DmaSem sig := 109
abbrev cc13_sem1_0 : DmaSem sig := 110
abbrev cc13_sem1_1 : DmaSem sig := 111
abbrev cc13_sem2_0 : DmaSem sig := 112
abbrev cc13_sem2_1 : DmaSem sig := 113
abbrev cc13_sem3_0 : DmaSem sig := 114
abbrev cc13_sem3_1 : DmaSem sig := 115
abbrev cc14_sem0_0 : DmaSem sig := 116
abbrev cc14_sem0_1 : DmaSem sig := 117
abbrev cc14_sem1_0 : DmaSem sig := 118
abbrev cc14_sem1_1 : DmaSem sig := 119
abbrev cc14_sem2_0 : DmaSem sig := 120
abbrev cc14_sem2_1 : DmaSem sig := 121
abbrev cc14_sem3_0 : DmaSem sig := 122
abbrev cc14_sem3_1 : DmaSem sig := 123
abbrev cc15_sem0_0 : DmaSem sig := 124
abbrev cc15_sem0_1 : DmaSem sig := 125
abbrev cc15_sem1_0 : DmaSem sig := 126
abbrev cc15_sem1_1 : DmaSem sig := 127
abbrev cc15_sem2_0 : DmaSem sig := 128
abbrev cc15_sem2_1 : DmaSem sig := 129
abbrev cc15_sem3_0 : DmaSem sig := 130
abbrev cc15_sem3_1 : DmaSem sig := 131
abbrev cc16_sem0_0 : DmaSem sig := 132
abbrev cc16_sem0_1 : DmaSem sig := 133
abbrev cc16_sem1_0 : DmaSem sig := 134
abbrev cc16_sem1_1 : DmaSem sig := 135
abbrev cc16_sem2_0 : DmaSem sig := 136
abbrev cc16_sem2_1 : DmaSem sig := 137
abbrev cc16_sem3_0 : DmaSem sig := 138
abbrev cc16_sem3_1 : DmaSem sig := 139
abbrev cc17_sem0_0 : DmaSem sig := 140
abbrev cc17_sem0_1 : DmaSem sig := 141
abbrev cc17_sem1_0 : DmaSem sig := 142
abbrev cc17_sem1_1 : DmaSem sig := 143
abbrev cc17_sem2_0 : DmaSem sig := 144
abbrev cc17_sem2_1 : DmaSem sig := 145
abbrev cc17_sem3_0 : DmaSem sig := 146
abbrev cc17_sem3_1 : DmaSem sig := 147
abbrev cc17_sem4_0 : DmaSem sig := 148
abbrev cc17_sem4_1 : DmaSem sig := 149
abbrev cc18_sem0_0 : DmaSem sig := 150
abbrev cc18_sem0_1 : DmaSem sig := 151
abbrev cc18_sem1_0 : DmaSem sig := 152
abbrev cc18_sem1_1 : DmaSem sig := 153
abbrev cc18_sem2_0 : DmaSem sig := 154
abbrev cc18_sem2_1 : DmaSem sig := 155
abbrev cc18_sem3_0 : DmaSem sig := 156
abbrev cc18_sem3_1 : DmaSem sig := 157
abbrev cc19_sem0_0 : DmaSem sig := 158
abbrev cc19_sem0_1 : DmaSem sig := 159
abbrev cc19_sem1_0 : DmaSem sig := 160
abbrev cc19_sem1_1 : DmaSem sig := 161
abbrev cc19_sem2_0 : DmaSem sig := 162
abbrev cc19_sem2_1 : DmaSem sig := 163
abbrev cc19_sem3_0 : DmaSem sig := 164
abbrev cc19_sem3_1 : DmaSem sig := 165
abbrev cc20_sem0_0 : DmaSem sig := 166
abbrev cc20_sem0_1 : DmaSem sig := 167
abbrev cc20_sem1_0 : DmaSem sig := 168
abbrev cc20_sem1_1 : DmaSem sig := 169
abbrev cc20_sem2_0 : DmaSem sig := 170
abbrev cc20_sem2_1 : DmaSem sig := 171
abbrev cc20_sem3_0 : DmaSem sig := 172
abbrev cc20_sem3_1 : DmaSem sig := 173
abbrev cc21_sem0_0 : DmaSem sig := 174
abbrev cc21_sem0_1 : DmaSem sig := 175
abbrev cc21_sem1_0 : DmaSem sig := 176
abbrev cc21_sem1_1 : DmaSem sig := 177
abbrev cc21_sem2_0 : DmaSem sig := 178
abbrev cc21_sem2_1 : DmaSem sig := 179
abbrev cc21_sem3_0 : DmaSem sig := 180
abbrev cc21_sem3_1 : DmaSem sig := 181
abbrev cc21_sem4_0 : DmaSem sig := 182
abbrev cc21_sem4_1 : DmaSem sig := 183
abbrev cc21_sem5_0 : DmaSem sig := 184
abbrev cc21_sem5_1 : DmaSem sig := 185
abbrev cc22_sem0_0 : DmaSem sig := 186
abbrev cc22_sem0_1 : DmaSem sig := 187
abbrev cc22_sem1_0 : DmaSem sig := 188
abbrev cc22_sem1_1 : DmaSem sig := 189
abbrev cc22_sem2_0 : DmaSem sig := 190
abbrev cc22_sem2_1 : DmaSem sig := 191
abbrev cc22_sem3_0 : DmaSem sig := 192
abbrev cc22_sem3_1 : DmaSem sig := 193
abbrev cc23_sem0_0 : DmaSem sig := 194
abbrev cc23_sem0_1 : DmaSem sig := 195
abbrev cc23_sem1_0 : DmaSem sig := 196
abbrev cc23_sem1_1 : DmaSem sig := 197
abbrev cc23_sem2_0 : DmaSem sig := 198
abbrev cc23_sem2_1 : DmaSem sig := 199
abbrev cc23_sem3_0 : DmaSem sig := 200
abbrev cc23_sem3_1 : DmaSem sig := 201
abbrev cc24_sem0_0 : DmaSem sig := 202
abbrev cc24_sem0_1 : DmaSem sig := 203
abbrev cc24_sem1_0 : DmaSem sig := 204
abbrev cc24_sem1_1 : DmaSem sig := 205
abbrev cc24_sem2_0 : DmaSem sig := 206
abbrev cc24_sem2_1 : DmaSem sig := 207
abbrev cc24_sem3_0 : DmaSem sig := 208
abbrev cc24_sem3_1 : DmaSem sig := 209
abbrev cc24_sem4_0 : DmaSem sig := 210
abbrev cc24_sem4_1 : DmaSem sig := 211
abbrev cc24_sem5_0 : DmaSem sig := 212
abbrev cc24_sem5_1 : DmaSem sig := 213
abbrev cc25_sem0_0 : DmaSem sig := 214
abbrev cc25_sem0_1 : DmaSem sig := 215
abbrev cc25_sem1_0 : DmaSem sig := 216
abbrev cc25_sem1_1 : DmaSem sig := 217
abbrev cc25_sem2_0 : DmaSem sig := 218
abbrev cc25_sem2_1 : DmaSem sig := 219
abbrev cc25_sem3_0 : DmaSem sig := 220
abbrev cc25_sem3_1 : DmaSem sig := 221
abbrev cc26_sem0_0 : DmaSem sig := 222
abbrev cc26_sem0_1 : DmaSem sig := 223
abbrev cc26_sem1_0 : DmaSem sig := 224
abbrev cc26_sem1_1 : DmaSem sig := 225
abbrev cc26_sem2_0 : DmaSem sig := 226
abbrev cc26_sem2_1 : DmaSem sig := 227
abbrev cc26_sem3_0 : DmaSem sig := 228
abbrev cc26_sem3_1 : DmaSem sig := 229
abbrev cc27_sem0_0 : DmaSem sig := 230
abbrev cc27_sem0_1 : DmaSem sig := 231
abbrev cc27_sem1_0 : DmaSem sig := 232
abbrev cc27_sem1_1 : DmaSem sig := 233
abbrev cc27_sem2_0 : DmaSem sig := 234
abbrev cc27_sem2_1 : DmaSem sig := 235
abbrev cc27_sem3_0 : DmaSem sig := 236
abbrev cc27_sem3_1 : DmaSem sig := 237
abbrev cc27_sem4_0 : DmaSem sig := 238
abbrev cc27_sem4_1 : DmaSem sig := 239
abbrev cc27_sem5_0 : DmaSem sig := 240
abbrev cc27_sem5_1 : DmaSem sig := 241
abbrev cc28_sem0_0 : DmaSem sig := 242
abbrev cc28_sem0_1 : DmaSem sig := 243
abbrev cc28_sem1_0 : DmaSem sig := 244
abbrev cc28_sem1_1 : DmaSem sig := 245
abbrev cc28_sem2_0 : DmaSem sig := 246
abbrev cc28_sem2_1 : DmaSem sig := 247
abbrev cc28_sem3_0 : DmaSem sig := 248
abbrev cc28_sem3_1 : DmaSem sig := 249
abbrev cc29_sem0_0 : DmaSem sig := 250
abbrev cc29_sem0_1 : DmaSem sig := 251
abbrev cc29_sem1_0 : DmaSem sig := 252
abbrev cc29_sem1_1 : DmaSem sig := 253
abbrev cc29_sem2_0 : DmaSem sig := 254
abbrev cc29_sem2_1 : DmaSem sig := 255
abbrev cc29_sem3_0 : DmaSem sig := 256
abbrev cc29_sem3_1 : DmaSem sig := 257
abbrev cc30_sem0_0 : DmaSem sig := 258
abbrev cc30_sem0_1 : DmaSem sig := 259
abbrev cc30_sem1_0 : DmaSem sig := 260
abbrev cc30_sem1_1 : DmaSem sig := 261
abbrev cc30_sem2_0 : DmaSem sig := 262
abbrev cc30_sem2_1 : DmaSem sig := 263
abbrev cc30_sem3_0 : DmaSem sig := 264
abbrev cc30_sem3_1 : DmaSem sig := 265
abbrev cc30_sem4_0 : DmaSem sig := 266
abbrev cc30_sem4_1 : DmaSem sig := 267
abbrev cc30_sem5_0 : DmaSem sig := 268
abbrev cc30_sem5_1 : DmaSem sig := 269
abbrev cc31_sem0_0 : DmaSem sig := 270
abbrev cc31_sem0_1 : DmaSem sig := 271
abbrev cc31_sem1_0 : DmaSem sig := 272
abbrev cc31_sem1_1 : DmaSem sig := 273
abbrev cc31_sem2_0 : DmaSem sig := 274
abbrev cc31_sem2_1 : DmaSem sig := 275
abbrev cc31_sem3_0 : DmaSem sig := 276
abbrev cc31_sem3_1 : DmaSem sig := 277
abbrev cc32_sem0_0 : DmaSem sig := 278
abbrev cc32_sem0_1 : DmaSem sig := 279
abbrev cc32_sem1_0 : DmaSem sig := 280
abbrev cc32_sem1_1 : DmaSem sig := 281
abbrev cc32_sem2_0 : DmaSem sig := 282
abbrev cc32_sem2_1 : DmaSem sig := 283
abbrev cc32_sem3_0 : DmaSem sig := 284
abbrev cc32_sem3_1 : DmaSem sig := 285
abbrev cc33_sem0_0 : DmaSem sig := 286
abbrev cc33_sem0_1 : DmaSem sig := 287
abbrev cc33_sem1_0 : DmaSem sig := 288
abbrev cc33_sem1_1 : DmaSem sig := 289
abbrev cc33_sem2_0 : DmaSem sig := 290
abbrev cc33_sem2_1 : DmaSem sig := 291
abbrev cc33_sem3_0 : DmaSem sig := 292
abbrev cc33_sem3_1 : DmaSem sig := 293

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![2, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![4, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S256x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S256x4096 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S4096x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S1x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![false, true]

abbrev stage3_4 : Fin 2 → Memref sig .tc .vmem S256x512 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![2, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S512x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1024x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S512x512 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev grid5 : Pipeline.Grid := ⟨2, ![2, 4], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x1024 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S1024x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1x1024 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true]

abbrev stage5_3 : Fin 2 → Memref sig .tc .vmem S512x1024 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true]

abbrev grid6 : Pipeline.Grid := ⟨2, ![2, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 2 → Memref sig .tc .vmem S512x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false]

abbrev stage6_1 : Fin 2 → Memref sig .tc .vmem S1024x1024 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1x1024 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true]

abbrev stage6_3 : Fin 2 → Memref sig .tc .vmem S512x1024 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true]

abbrev grid7 : Pipeline.Grid := ⟨2, ![2, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S512x1024 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S1024x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true]

abbrev stage7_3 : Fin 2 → Memref sig .tc .vmem S512x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true]

abbrev grid8 : Pipeline.Grid := ⟨2, ![2, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 2 → Memref sig .tc .vmem S512x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false]

abbrev stage8_1 : Fin 2 → Memref sig .tc .vmem S1024x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S1x1024 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 2 → Memref sig .tc .vmem S512x1024 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true]

abbrev grid9 : Pipeline.Grid := ⟨2, ![2, 4], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc9_transform_3 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S512x1024 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 2 → Memref sig .tc .vmem S1024x1024 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true]

abbrev stage9_2 : Fin 2 → Memref sig .tc .vmem S1x1024 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![false, true]

abbrev stage9_3 : Fin 2 → Memref sig .tc .vmem S512x1024 .bf16 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true, true]

abbrev grid10 : Pipeline.Grid := ⟨2, ![4, 2], ![false, false]⟩

def cc10_transform_0 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_3 (i : grid10.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc10_transform_4 (i : grid10.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage10_0 : Fin 2 → Memref sig .tc .vmem S256x4096 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true, false]

abbrev stage10_1 : Fin 2 → Memref sig .tc .vmem S256x4096 .bf16 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true, false]

abbrev stage10_2 : Fin 2 → Memref sig .tc .vmem S4096x512 .bf16 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![false, true]

abbrev stage10_3 : Fin 2 → Memref sig .tc .vmem S1x512 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![false, true]

abbrev stage10_4 : Fin 2 → Memref sig .tc .vmem S256x512 .bf16 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true, true]

abbrev grid11 : Pipeline.Grid := ⟨2, ![2, 2], ![false, false]⟩

def cc11_transform_0 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_2 (i : grid11.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc11_transform_3 (i : grid11.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage11_0 : Fin 2 → Memref sig .tc .vmem S512x1024 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true, false]

abbrev stage11_1 : Fin 2 → Memref sig .tc .vmem S1024x512 .bf16 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![false, true]

abbrev stage11_2 : Fin 2 → Memref sig .tc .vmem S1x512 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![false, true]

abbrev stage11_3 : Fin 2 → Memref sig .tc .vmem S512x512 .bf16 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true, true]

abbrev grid12 : Pipeline.Grid := ⟨2, ![2, 4], ![false, false]⟩

def cc12_transform_0 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc12_transform_2 (i : grid12.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc12_transform_3 (i : grid12.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage12_0 : Fin 2 → Memref sig .tc .vmem S512x1024 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true, false]

abbrev stage12_1 : Fin 2 → Memref sig .tc .vmem S1024x1024 .bf16 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![false, true]

abbrev stage12_2 : Fin 2 → Memref sig .tc .vmem S1x1024 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![false, true]

abbrev stage12_3 : Fin 2 → Memref sig .tc .vmem S512x1024 .bf16 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true, true]

abbrev grid13 : Pipeline.Grid := ⟨2, ![2, 4], ![false, false]⟩

def cc13_transform_0 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc13_transform_2 (i : grid13.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc13_transform_3 (i : grid13.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage13_0 : Fin 2 → Memref sig .tc .vmem S512x1024 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true, false]

abbrev stage13_1 : Fin 2 → Memref sig .tc .vmem S1024x1024 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![false, true]

abbrev stage13_2 : Fin 2 → Memref sig .tc .vmem S1x1024 .f32 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![false, true]

abbrev stage13_3 : Fin 2 → Memref sig .tc .vmem S512x1024 .bf16 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true, true]

abbrev grid14 : Pipeline.Grid := ⟨2, ![2, 2], ![false, false]⟩

def cc14_transform_0 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc14_transform_2 (i : grid14.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc14_transform_3 (i : grid14.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage14_0 : Fin 2 → Memref sig .tc .vmem S512x1024 .bf16 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true, false]

abbrev stage14_1 : Fin 2 → Memref sig .tc .vmem S1024x512 .bf16 := fun | 0 => Memref.whole cc14_stg1_0 | 1 => Memref.whole cc14_stg1_1 | ⟨_ + 2, h⟩ => absurd h (Nat.not_lt.2 (Nat.le_add_left _ _))
abbrev sem14_1 : Fin 2 → DmaSem sig := fun | 0 => cc14_sem1_0 | 1 => cc14_sem1_1 | ⟨_ + 2, h⟩ => absurd h (Nat.not_lt.2 (Nat.le_add_left _ _))
abbrev reads14_1 : Fin grid14.rank → Bool := ![false, true]

abbrev stage14_2 : Fin 2 → Memref sig .tc .vmem S1x512 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![false, true]

abbrev stage14_3 : Fin 2 → Memref sig .tc .vmem S512x512 .bf16 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true, true]

abbrev grid15 : Pipeline.Grid := ⟨2, ![2, 4], ![false, false]⟩

def cc15_transform_0 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc15_transform_2 (i : grid15.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc15_transform_3 (i : grid15.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage15_0 : Fin 2 → Memref sig .tc .vmem S512x1024 .bf16 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true, false]

abbrev stage15_1 : Fin 2 → Memref sig .tc .vmem S1024x1024 .bf16 := fun | 0 => Memref.whole cc15_stg1_0 | 1 => Memref.whole cc15_stg1_1 | ⟨_ + 2, h⟩ => absurd h (Nat.not_lt.2 (Nat.le_add_left _ _))
abbrev sem15_1 : Fin 2 → DmaSem sig := fun | 0 => cc15_sem1_0 | 1 => cc15_sem1_1 | ⟨_ + 2, h⟩ => absurd h (Nat.not_lt.2 (Nat.le_add_left _ _))
abbrev reads15_1 : Fin grid15.rank → Bool := ![false, true]

abbrev stage15_2 : Fin 2 → Memref sig .tc .vmem S1x1024 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![false, true]

abbrev stage15_3 : Fin 2 → Memref sig .tc .vmem S512x1024 .bf16 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true, true]

abbrev grid16 : Pipeline.Grid := ⟨2, ![2, 4], ![false, false]⟩

def cc16_transform_0 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc16_transform_2 (i : grid16.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc16_transform_3 (i : grid16.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage16_0 : Fin 2 → Memref sig .tc .vmem S512x1024 .bf16 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true, false]

abbrev stage16_1 : Fin 2 → Memref sig .tc .vmem S1024x1024 .bf16 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![false, true]

abbrev stage16_2 : Fin 2 → Memref sig .tc .vmem S1x1024 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![false, true]

abbrev stage16_3 : Fin 2 → Memref sig .tc .vmem S512x1024 .bf16 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true, true]

abbrev grid17 : Pipeline.Grid := ⟨2, ![4, 2], ![false, false]⟩

def cc17_transform_0 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc17_transform_2 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc17_transform_3 (i : grid17.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc17_transform_4 (i : grid17.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage17_0 : Fin 2 → Memref sig .tc .vmem S256x4096 .bf16 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true, false]

abbrev stage17_1 : Fin 2 → Memref sig .tc .vmem S256x4096 .bf16 := fun | 0 => Memref.whole cc17_stg1_0 | 1 => Memref.whole cc17_stg1_1 | ⟨_ + 2, h⟩ => absurd h (Nat.not_lt.2 (Nat.le_add_left _ _))
abbrev sem17_1 : Fin 2 → DmaSem sig := fun | 0 => cc17_sem1_0 | 1 => cc17_sem1_1 | ⟨_ + 2, h⟩ => absurd h (Nat.not_lt.2 (Nat.le_add_left _ _))
abbrev reads17_1 : Fin grid17.rank → Bool := ![true, false]

abbrev stage17_2 : Fin 2 → Memref sig .tc .vmem S4096x512 .bf16 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![false, true]

abbrev stage17_3 : Fin 2 → Memref sig .tc .vmem S1x512 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![false, true]

abbrev stage17_4 : Fin 2 → Memref sig .tc .vmem S256x512 .bf16 := fun | 0 => Memref.whole cc17_stg4_0 | 1 => Memref.whole cc17_stg4_1 | ⟨_ + 2, h⟩ => absurd h (Nat.not_lt.2 (Nat.le_add_left _ _))
abbrev sem17_4 : Fin 2 → DmaSem sig := fun | 0 => cc17_sem4_0 | 1 => cc17_sem4_1 | ⟨_ + 2, h⟩ => absurd h (Nat.not_lt.2 (Nat.le_add_left _ _))
abbrev reads17_4 : Fin grid17.rank → Bool := ![true, true]

abbrev grid18 : Pipeline.Grid := ⟨2, ![2, 4], ![false, false]⟩

def cc18_transform_0 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc18_transform_2 (i : grid18.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc18_transform_3 (i : grid18.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage18_0 : Fin 2 → Memref sig .tc .vmem S512x1024 .bf16 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true, false]

abbrev stage18_1 : Fin 2 → Memref sig .tc .vmem S1024x1024 .bf16 := fun | 0 => Memref.whole cc18_stg1_0 | 1 => Memref.whole cc18_stg1_1 | ⟨_ + 2, h⟩ => absurd h (Nat.not_lt.2 (Nat.le_add_left _ _))
abbrev sem18_1 : Fin 2 → DmaSem sig := fun | 0 => cc18_sem1_0 | 1 => cc18_sem1_1 | ⟨_ + 2, h⟩ => absurd h (Nat.not_lt.2 (Nat.le_add_left _ _))
abbrev reads18_1 : Fin grid18.rank → Bool := ![false, true]

abbrev stage18_2 : Fin 2 → Memref sig .tc .vmem S1x1024 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![false, true]

abbrev stage18_3 : Fin 2 → Memref sig .tc .vmem S512x1024 .bf16 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true, true]

abbrev grid19 : Pipeline.Grid := ⟨2, ![2, 2], ![false, false]⟩

def cc19_transform_0 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc19_transform_2 (i : grid19.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc19_transform_3 (i : grid19.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage19_0 : Fin 2 → Memref sig .tc .vmem S512x1024 .bf16 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true, false]

abbrev stage19_1 : Fin 2 → Memref sig .tc .vmem S1024x512 .bf16 := fun | 0 => Memref.whole cc19_stg1_0 | 1 => Memref.whole cc19_stg1_1 | ⟨_ + 2, h⟩ => absurd h (Nat.not_lt.2 (Nat.le_add_left _ _))
abbrev sem19_1 : Fin 2 → DmaSem sig := fun | 0 => cc19_sem1_0 | 1 => cc19_sem1_1 | ⟨_ + 2, h⟩ => absurd h (Nat.not_lt.2 (Nat.le_add_left _ _))
abbrev reads19_1 : Fin grid19.rank → Bool := ![false, true]

abbrev stage19_2 : Fin 2 → Memref sig .tc .vmem S1x512 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![false, true]

abbrev stage19_3 : Fin 2 → Memref sig .tc .vmem S512x512 .bf16 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true, true]

abbrev grid20 : Pipeline.Grid := ⟨2, ![2, 2], ![false, false]⟩

def cc20_transform_0 (i : grid20.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc20_transform_2 (i : grid20.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc20_transform_3 (i : grid20.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage20_0 : Fin 2 → Memref sig .tc .vmem S512x1024 .bf16 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true, false]

abbrev stage20_1 : Fin 2 → Memref sig .tc .vmem S1024x512 .bf16 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![false, true]

abbrev stage20_2 : Fin 2 → Memref sig .tc .vmem S1x512 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![false, true]

abbrev stage20_3 : Fin 2 → Memref sig .tc .vmem S512x512 .bf16 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![true, true]

abbrev grid21 : Pipeline.Grid := ⟨2, ![2, 4], ![false, false]⟩

def cc21_transform_0 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc21_transform_1 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc21_transform_2 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc21_transform_3 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc21_transform_4 (i : grid21.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc21_transform_5 (i : grid21.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage21_0 : Fin 2 → Memref sig .tc .vmem S512x1024 .bf16 := fun | 0 => Memref.whole cc21_stg0_0 | 1 => Memref.whole cc21_stg0_1 | ⟨_ + 2, h⟩ => absurd h (Nat.not_lt.2 (Nat.le_add_left _ _))
abbrev sem21_0 : Fin 2 → DmaSem sig := fun | 0 => cc21_sem0_0 | 1 => cc21_sem0_1 | ⟨_ + 2, h⟩ => absurd h (Nat.not_lt.2 (Nat.le_add_left _ _))
abbrev reads21_0 : Fin grid21.rank → Bool := ![true, false]

abbrev stage21_1 : Fin 2 → Memref sig .tc .vmem S1024x1024 .bf16 := fun | 0 => Memref.whole cc21_stg1_0 | 1 => Memref.whole cc21_stg1_1 | ⟨_ + 2, h⟩ => absurd h (Nat.not_lt.2 (Nat.le_add_left _ _))
abbrev sem21_1 : Fin 2 → DmaSem sig := fun | 0 => cc21_sem1_0 | 1 => cc21_sem1_1 | ⟨_ + 2, h⟩ => absurd h (Nat.not_lt.2 (Nat.le_add_left _ _))
abbrev reads21_1 : Fin grid21.rank → Bool := ![false, true]

abbrev stage21_2 : Fin 2 → Memref sig .tc .vmem S512x1024 .bf16 := fun | 0 => Memref.whole cc21_stg2_0 | 1 => Memref.whole cc21_stg2_1 | ⟨_ + 2, h⟩ => absurd h (Nat.not_lt.2 (Nat.le_add_left _ _))
abbrev sem21_2 : Fin 2 → DmaSem sig := fun | 0 => cc21_sem2_0 | 1 => cc21_sem2_1 | ⟨_ + 2, h⟩ => absurd h (Nat.not_lt.2 (Nat.le_add_left _ _))
abbrev reads21_2 : Fin grid21.rank → Bool := ![true, false]

abbrev stage21_3 : Fin 2 → Memref sig .tc .vmem S1024x1024 .bf16 := fun | 0 => Memref.whole cc21_stg3_0 | 1 => Memref.whole cc21_stg3_1 | ⟨_ + 2, h⟩ => absurd h (Nat.not_lt.2 (Nat.le_add_left _ _))
abbrev sem21_3 : Fin 2 → DmaSem sig := fun | 0 => cc21_sem3_0 | 1 => cc21_sem3_1 | ⟨_ + 2, h⟩ => absurd h (Nat.not_lt.2 (Nat.le_add_left _ _))
abbrev reads21_3 : Fin grid21.rank → Bool := ![false, true]

abbrev stage21_4 : Fin 2 → Memref sig .tc .vmem S1x1024 .f32 := fun | 0 => Memref.whole cc21_stg4_0 | 1 => Memref.whole cc21_stg4_1 | ⟨_ + 2, h⟩ => absurd h (Nat.not_lt.2 (Nat.le_add_left _ _))
abbrev sem21_4 : Fin 2 → DmaSem sig := fun | 0 => cc21_sem4_0 | 1 => cc21_sem4_1 | ⟨_ + 2, h⟩ => absurd h (Nat.not_lt.2 (Nat.le_add_left _ _))
abbrev reads21_4 : Fin grid21.rank → Bool := ![false, true]

abbrev stage21_5 : Fin 2 → Memref sig .tc .vmem S512x1024 .f32 := fun | 0 => Memref.whole cc21_stg5_0 | 1 => Memref.whole cc21_stg5_1 | ⟨_ + 2, h⟩ => absurd h (Nat.not_lt.2 (Nat.le_add_left _ _))
abbrev sem21_5 : Fin 2 → DmaSem sig := fun | 0 => cc21_sem5_0 | 1 => cc21_sem5_1 | ⟨_ + 2, h⟩ => absurd h (Nat.not_lt.2 (Nat.le_add_left _ _))
abbrev reads21_5 : Fin grid21.rank → Bool := ![true, true]

abbrev grid22 : Pipeline.Grid := ⟨2, ![2, 2], ![false, false]⟩

def cc22_transform_0 (i : grid22.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc22_transform_1 (i : grid22.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc22_transform_2 (i : grid22.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc22_transform_3 (i : grid22.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage22_0 : Fin 2 → Memref sig .tc .vmem S512x1024 .bf16 := fun | 0 => Memref.whole cc22_stg0_0 | 1 => Memref.whole cc22_stg0_1 | ⟨_ + 2, h⟩ => absurd h (Nat.not_lt.2 (Nat.le_add_left _ _))
abbrev sem22_0 : Fin 2 → DmaSem sig := fun | 0 => cc22_sem0_0 | 1 => cc22_sem0_1 | ⟨_ + 2, h⟩ => absurd h (Nat.not_lt.2 (Nat.le_add_left _ _))
abbrev reads22_0 : Fin grid22.rank → Bool := ![true, false]

abbrev stage22_1 : Fin 2 → Memref sig .tc .vmem S1024x512 .bf16 := fun | 0 => Memref.whole cc22_stg1_0 | 1 => Memref.whole cc22_stg1_1 | ⟨_ + 2, h⟩ => absurd h (Nat.not_lt.2 (Nat.le_add_left _ _))
abbrev sem22_1 : Fin 2 → DmaSem sig := fun | 0 => cc22_sem1_0 | 1 => cc22_sem1_1 | ⟨_ + 2, h⟩ => absurd h (Nat.not_lt.2 (Nat.le_add_left _ _))
abbrev reads22_1 : Fin grid22.rank → Bool := ![false, true]

abbrev stage22_2 : Fin 2 → Memref sig .tc .vmem S1x512 .f32 := fun | 0 => Memref.whole cc22_stg2_0 | 1 => Memref.whole cc22_stg2_1 | ⟨_ + 2, h⟩ => absurd h (Nat.not_lt.2 (Nat.le_add_left _ _))
abbrev sem22_2 : Fin 2 → DmaSem sig := fun | 0 => cc22_sem2_0 | 1 => cc22_sem2_1 | ⟨_ + 2, h⟩ => absurd h (Nat.not_lt.2 (Nat.le_add_left _ _))
abbrev reads22_2 : Fin grid22.rank → Bool := ![false, true]

abbrev stage22_3 : Fin 2 → Memref sig .tc .vmem S512x512 .bf16 := fun | 0 => Memref.whole cc22_stg3_0 | 1 => Memref.whole cc22_stg3_1 | ⟨_ + 2, h⟩ => absurd h (Nat.not_lt.2 (Nat.le_add_left _ _))
abbrev sem22_3 : Fin 2 → DmaSem sig := fun | 0 => cc22_sem3_0 | 1 => cc22_sem3_1 | ⟨_ + 2, h⟩ => absurd h (Nat.not_lt.2 (Nat.le_add_left _ _))
abbrev reads22_3 : Fin grid22.rank → Bool := ![true, true]

abbrev grid23 : Pipeline.Grid := ⟨2, ![2, 2], ![false, false]⟩

def cc23_transform_0 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc23_transform_1 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc23_transform_2 (i : grid23.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc23_transform_3 (i : grid23.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage23_0 : Fin 2 → Memref sig .tc .vmem S512x1024 .bf16 := fun | 0 => Memref.whole cc23_stg0_0 | 1 => Memref.whole cc23_stg0_1 | ⟨_ + 2, h⟩ => absurd h (Nat.not_lt.2 (Nat.le_add_left _ _))
abbrev sem23_0 : Fin 2 → DmaSem sig := fun | 0 => cc23_sem0_0 | 1 => cc23_sem0_1 | ⟨_ + 2, h⟩ => absurd h (Nat.not_lt.2 (Nat.le_add_left _ _))
abbrev reads23_0 : Fin grid23.rank → Bool := ![true, false]

abbrev stage23_1 : Fin 2 → Memref sig .tc .vmem S1024x512 .bf16 := fun | 0 => Memref.whole cc23_stg1_0 | 1 => Memref.whole cc23_stg1_1 | ⟨_ + 2, h⟩ => absurd h (Nat.not_lt.2 (Nat.le_add_left _ _))
abbrev sem23_1 : Fin 2 → DmaSem sig := fun | 0 => cc23_sem1_0 | 1 => cc23_sem1_1 | ⟨_ + 2, h⟩ => absurd h (Nat.not_lt.2 (Nat.le_add_left _ _))
abbrev reads23_1 : Fin grid23.rank → Bool := ![false, true]

abbrev stage23_2 : Fin 2 → Memref sig .tc .vmem S1x512 .f32 := fun | 0 => Memref.whole cc23_stg2_0 | 1 => Memref.whole cc23_stg2_1 | ⟨_ + 2, h⟩ => absurd h (Nat.not_lt.2 (Nat.le_add_left _ _))
abbrev sem23_2 : Fin 2 → DmaSem sig := fun | 0 => cc23_sem2_0 | 1 => cc23_sem2_1 | ⟨_ + 2, h⟩ => absurd h (Nat.not_lt.2 (Nat.le_add_left _ _))
abbrev reads23_2 : Fin grid23.rank → Bool := ![false, true]

abbrev stage23_3 : Fin 2 → Memref sig .tc .vmem S512x512 .bf16 := fun | 0 => Memref.whole cc23_stg3_0 | 1 => Memref.whole cc23_stg3_1 | ⟨_ + 2, h⟩ => absurd h (Nat.not_lt.2 (Nat.le_add_left _ _))
abbrev sem23_3 : Fin 2 → DmaSem sig := fun | 0 => cc23_sem3_0 | 1 => cc23_sem3_1 | ⟨_ + 2, h⟩ => absurd h (Nat.not_lt.2 (Nat.le_add_left _ _))
abbrev reads23_3 : Fin grid23.rank → Bool := ![true, true]

abbrev grid24 : Pipeline.Grid := ⟨2, ![2, 4], ![false, false]⟩

def cc24_transform_0 (i : grid24.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc24_transform_1 (i : grid24.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc24_transform_2 (i : grid24.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc24_transform_3 (i : grid24.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc24_transform_4 (i : grid24.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc24_transform_5 (i : grid24.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage24_0 : Fin 2 → Memref sig .tc .vmem S512x1024 .bf16 := fun | 0 => Memref.whole cc24_stg0_0 | 1 => Memref.whole cc24_stg0_1 | ⟨_ + 2, h⟩ => absurd h (Nat.not_lt.2 (Nat.le_add_left _ _))
abbrev sem24_0 : Fin 2 → DmaSem sig := fun | 0 => cc24_sem0_0 | 1 => cc24_sem0_1 | ⟨_ + 2, h⟩ => absurd h (Nat.not_lt.2 (Nat.le_add_left _ _))
abbrev reads24_0 : Fin grid24.rank → Bool := ![true, false]

abbrev stage24_1 : Fin 2 → Memref sig .tc .vmem S1024x1024 .bf16 := fun | 0 => Memref.whole cc24_stg1_0 | 1 => Memref.whole cc24_stg1_1 | ⟨_ + 2, h⟩ => absurd h (Nat.not_lt.2 (Nat.le_add_left _ _))
abbrev sem24_1 : Fin 2 → DmaSem sig := fun | 0 => cc24_sem1_0 | 1 => cc24_sem1_1 | ⟨_ + 2, h⟩ => absurd h (Nat.not_lt.2 (Nat.le_add_left _ _))
abbrev reads24_1 : Fin grid24.rank → Bool := ![false, true]

abbrev stage24_2 : Fin 2 → Memref sig .tc .vmem S512x1024 .bf16 := fun | 0 => Memref.whole cc24_stg2_0 | 1 => Memref.whole cc24_stg2_1 | ⟨_ + 2, h⟩ => absurd h (Nat.not_lt.2 (Nat.le_add_left _ _))
abbrev sem24_2 : Fin 2 → DmaSem sig := fun | 0 => cc24_sem2_0 | 1 => cc24_sem2_1 | ⟨_ + 2, h⟩ => absurd h (Nat.not_lt.2 (Nat.le_add_left _ _))
abbrev reads24_2 : Fin grid24.rank → Bool := ![true, false]

abbrev stage24_3 : Fin 2 → Memref sig .tc .vmem S1024x1024 .bf16 := fun | 0 => Memref.whole cc24_stg3_0 | 1 => Memref.whole cc24_stg3_1 | ⟨_ + 2, h⟩ => absurd h (Nat.not_lt.2 (Nat.le_add_left _ _))
abbrev sem24_3 : Fin 2 → DmaSem sig := fun | 0 => cc24_sem3_0 | 1 => cc24_sem3_1 | ⟨_ + 2, h⟩ => absurd h (Nat.not_lt.2 (Nat.le_add_left _ _))
abbrev reads24_3 : Fin grid24.rank → Bool := ![false, true]

abbrev stage24_4 : Fin 2 → Memref sig .tc .vmem S1x1024 .f32 := fun | 0 => Memref.whole cc24_stg4_0 | 1 => Memref.whole cc24_stg4_1 | ⟨_ + 2, h⟩ => absurd h (Nat.not_lt.2 (Nat.le_add_left _ _))
abbrev sem24_4 : Fin 2 → DmaSem sig := fun | 0 => cc24_sem4_0 | 1 => cc24_sem4_1 | ⟨_ + 2, h⟩ => absurd h (Nat.not_lt.2 (Nat.le_add_left _ _))
abbrev reads24_4 : Fin grid24.rank → Bool := ![false, true]

abbrev stage24_5 : Fin 2 → Memref sig .tc .vmem S512x1024 .f32 := fun | 0 => Memref.whole cc24_stg5_0 | 1 => Memref.whole cc24_stg5_1 | ⟨_ + 2, h⟩ => absurd h (Nat.not_lt.2 (Nat.le_add_left _ _))
abbrev sem24_5 : Fin 2 → DmaSem sig := fun | 0 => cc24_sem5_0 | 1 => cc24_sem5_1 | ⟨_ + 2, h⟩ => absurd h (Nat.not_lt.2 (Nat.le_add_left _ _))
abbrev reads24_5 : Fin grid24.rank → Bool := ![true, true]

abbrev grid25 : Pipeline.Grid := ⟨2, ![2, 2], ![false, false]⟩

def cc25_transform_0 (i : grid25.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc25_transform_1 (i : grid25.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc25_transform_2 (i : grid25.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc25_transform_3 (i : grid25.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage25_0 : Fin 2 → Memref sig .tc .vmem S512x1024 .bf16 := fun | 0 => Memref.whole cc25_stg0_0 | 1 => Memref.whole cc25_stg0_1 | ⟨_ + 2, h⟩ => absurd h (Nat.not_lt.2 (Nat.le_add_left _ _))
abbrev sem25_0 : Fin 2 → DmaSem sig := fun | 0 => cc25_sem0_0 | 1 => cc25_sem0_1 | ⟨_ + 2, h⟩ => absurd h (Nat.not_lt.2 (Nat.le_add_left _ _))
abbrev reads25_0 : Fin grid25.rank → Bool := ![true, false]

abbrev stage25_1 : Fin 2 → Memref sig .tc .vmem S1024x512 .bf16 := fun | 0 => Memref.whole cc25_stg1_0 | 1 => Memref.whole cc25_stg1_1 | ⟨_ + 2, h⟩ => absurd h (Nat.not_lt.2 (Nat.le_add_left _ _))
abbrev sem25_1 : Fin 2 → DmaSem sig := fun | 0 => cc25_sem1_0 | 1 => cc25_sem1_1 | ⟨_ + 2, h⟩ => absurd h (Nat.not_lt.2 (Nat.le_add_left _ _))
abbrev reads25_1 : Fin grid25.rank → Bool := ![false, true]

abbrev stage25_2 : Fin 2 → Memref sig .tc .vmem S1x512 .f32 := fun | 0 => Memref.whole cc25_stg2_0 | 1 => Memref.whole cc25_stg2_1 | ⟨_ + 2, h⟩ => absurd h (Nat.not_lt.2 (Nat.le_add_left _ _))
abbrev sem25_2 : Fin 2 → DmaSem sig := fun | 0 => cc25_sem2_0 | 1 => cc25_sem2_1 | ⟨_ + 2, h⟩ => absurd h (Nat.not_lt.2 (Nat.le_add_left _ _))
abbrev reads25_2 : Fin grid25.rank → Bool := ![false, true]

abbrev stage25_3 : Fin 2 → Memref sig .tc .vmem S512x512 .bf16 := fun | 0 => Memref.whole cc25_stg3_0 | 1 => Memref.whole cc25_stg3_1 | ⟨_ + 2, h⟩ => absurd h (Nat.not_lt.2 (Nat.le_add_left _ _))
abbrev sem25_3 : Fin 2 → DmaSem sig := fun | 0 => cc25_sem3_0 | 1 => cc25_sem3_1 | ⟨_ + 2, h⟩ => absurd h (Nat.not_lt.2 (Nat.le_add_left _ _))
abbrev reads25_3 : Fin grid25.rank → Bool := ![true, true]

abbrev grid26 : Pipeline.Grid := ⟨2, ![2, 2], ![false, false]⟩

def cc26_transform_0 (i : grid26.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc26_transform_1 (i : grid26.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc26_transform_2 (i : grid26.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc26_transform_3 (i : grid26.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage26_0 : Fin 2 → Memref sig .tc .vmem S512x1024 .bf16 := fun | 0 => Memref.whole cc26_stg0_0 | 1 => Memref.whole cc26_stg0_1 | ⟨_ + 2, h⟩ => absurd h (Nat.not_lt.2 (Nat.le_add_left _ _))
abbrev sem26_0 : Fin 2 → DmaSem sig := fun | 0 => cc26_sem0_0 | 1 => cc26_sem0_1 | ⟨_ + 2, h⟩ => absurd h (Nat.not_lt.2 (Nat.le_add_left _ _))
abbrev reads26_0 : Fin grid26.rank → Bool := ![true, false]

abbrev stage26_1 : Fin 2 → Memref sig .tc .vmem S1024x512 .bf16 := fun | 0 => Memref.whole cc26_stg1_0 | 1 => Memref.whole cc26_stg1_1 | ⟨_ + 2, h⟩ => absurd h (Nat.not_lt.2 (Nat.le_add_left _ _))
abbrev sem26_1 : Fin 2 → DmaSem sig := fun | 0 => cc26_sem1_0 | 1 => cc26_sem1_1 | ⟨_ + 2, h⟩ => absurd h (Nat.not_lt.2 (Nat.le_add_left _ _))
abbrev reads26_1 : Fin grid26.rank → Bool := ![false, true]

abbrev stage26_2 : Fin 2 → Memref sig .tc .vmem S1x512 .f32 := fun | 0 => Memref.whole cc26_stg2_0 | 1 => Memref.whole cc26_stg2_1 | ⟨_ + 2, h⟩ => absurd h (Nat.not_lt.2 (Nat.le_add_left _ _))
abbrev sem26_2 : Fin 2 → DmaSem sig := fun | 0 => cc26_sem2_0 | 1 => cc26_sem2_1 | ⟨_ + 2, h⟩ => absurd h (Nat.not_lt.2 (Nat.le_add_left _ _))
abbrev reads26_2 : Fin grid26.rank → Bool := ![false, true]

abbrev stage26_3 : Fin 2 → Memref sig .tc .vmem S512x512 .bf16 := fun | 0 => Memref.whole cc26_stg3_0 | 1 => Memref.whole cc26_stg3_1 | ⟨_ + 2, h⟩ => absurd h (Nat.not_lt.2 (Nat.le_add_left _ _))
abbrev sem26_3 : Fin 2 → DmaSem sig := fun | 0 => cc26_sem3_0 | 1 => cc26_sem3_1 | ⟨_ + 2, h⟩ => absurd h (Nat.not_lt.2 (Nat.le_add_left _ _))
abbrev reads26_3 : Fin grid26.rank → Bool := ![true, true]

abbrev grid27 : Pipeline.Grid := ⟨2, ![2, 4], ![false, false]⟩

def cc27_transform_0 (i : grid27.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc27_transform_1 (i : grid27.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc27_transform_2 (i : grid27.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc27_transform_3 (i : grid27.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc27_transform_4 (i : grid27.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc27_transform_5 (i : grid27.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage27_0 : Fin 2 → Memref sig .tc .vmem S512x1024 .bf16 := fun | 0 => Memref.whole cc27_stg0_0 | 1 => Memref.whole cc27_stg0_1 | ⟨_ + 2, h⟩ => absurd h (Nat.not_lt.2 (Nat.le_add_left _ _))
abbrev sem27_0 : Fin 2 → DmaSem sig := fun | 0 => cc27_sem0_0 | 1 => cc27_sem0_1 | ⟨_ + 2, h⟩ => absurd h (Nat.not_lt.2 (Nat.le_add_left _ _))
abbrev reads27_0 : Fin grid27.rank → Bool := ![true, false]

abbrev stage27_1 : Fin 2 → Memref sig .tc .vmem S1024x1024 .bf16 := fun | 0 => Memref.whole cc27_stg1_0 | 1 => Memref.whole cc27_stg1_1 | ⟨_ + 2, h⟩ => absurd h (Nat.not_lt.2 (Nat.le_add_left _ _))
abbrev sem27_1 : Fin 2 → DmaSem sig := fun | 0 => cc27_sem1_0 | 1 => cc27_sem1_1 | ⟨_ + 2, h⟩ => absurd h (Nat.not_lt.2 (Nat.le_add_left _ _))
abbrev reads27_1 : Fin grid27.rank → Bool := ![false, true]

abbrev stage27_2 : Fin 2 → Memref sig .tc .vmem S512x1024 .bf16 := fun | 0 => Memref.whole cc27_stg2_0 | 1 => Memref.whole cc27_stg2_1 | ⟨_ + 2, h⟩ => absurd h (Nat.not_lt.2 (Nat.le_add_left _ _))
abbrev sem27_2 : Fin 2 → DmaSem sig := fun | 0 => cc27_sem2_0 | 1 => cc27_sem2_1 | ⟨_ + 2, h⟩ => absurd h (Nat.not_lt.2 (Nat.le_add_left _ _))
abbrev reads27_2 : Fin grid27.rank → Bool := ![true, false]

abbrev stage27_3 : Fin 2 → Memref sig .tc .vmem S1024x1024 .bf16 := fun | 0 => Memref.whole cc27_stg3_0 | 1 => Memref.whole cc27_stg3_1 | ⟨_ + 2, h⟩ => absurd h (Nat.not_lt.2 (Nat.le_add_left _ _))
abbrev sem27_3 : Fin 2 → DmaSem sig := fun | 0 => cc27_sem3_0 | 1 => cc27_sem3_1 | ⟨_ + 2, h⟩ => absurd h (Nat.not_lt.2 (Nat.le_add_left _ _))
abbrev reads27_3 : Fin grid27.rank → Bool := ![false, true]

abbrev stage27_4 : Fin 2 → Memref sig .tc .vmem S1x1024 .f32 := fun | 0 => Memref.whole cc27_stg4_0 | 1 => Memref.whole cc27_stg4_1 | ⟨_ + 2, h⟩ => absurd h (Nat.not_lt.2 (Nat.le_add_left _ _))
abbrev sem27_4 : Fin 2 → DmaSem sig := fun | 0 => cc27_sem4_0 | 1 => cc27_sem4_1 | ⟨_ + 2, h⟩ => absurd h (Nat.not_lt.2 (Nat.le_add_left _ _))
abbrev reads27_4 : Fin grid27.rank → Bool := ![false, true]

abbrev stage27_5 : Fin 2 → Memref sig .tc .vmem S512x1024 .f32 := fun | 0 => Memref.whole cc27_stg5_0 | 1 => Memref.whole cc27_stg5_1 | ⟨_ + 2, h⟩ => absurd h (Nat.not_lt.2 (Nat.le_add_left _ _))
abbrev sem27_5 : Fin 2 → DmaSem sig := fun | 0 => cc27_sem5_0 | 1 => cc27_sem5_1 | ⟨_ + 2, h⟩ => absurd h (Nat.not_lt.2 (Nat.le_add_left _ _))
abbrev reads27_5 : Fin grid27.rank → Bool := ![true, true]

abbrev grid28 : Pipeline.Grid := ⟨2, ![2, 2], ![false, false]⟩

def cc28_transform_0 (i : grid28.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc28_transform_1 (i : grid28.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc28_transform_2 (i : grid28.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc28_transform_3 (i : grid28.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage28_0 : Fin 2 → Memref sig .tc .vmem S512x1024 .bf16 := fun | 0 => Memref.whole cc28_stg0_0 | 1 => Memref.whole cc28_stg0_1 | ⟨_ + 2, h⟩ => absurd h (Nat.not_lt.2 (Nat.le_add_left _ _))
abbrev sem28_0 : Fin 2 → DmaSem sig := fun | 0 => cc28_sem0_0 | 1 => cc28_sem0_1 | ⟨_ + 2, h⟩ => absurd h (Nat.not_lt.2 (Nat.le_add_left _ _))
abbrev reads28_0 : Fin grid28.rank → Bool := ![true, false]

abbrev stage28_1 : Fin 2 → Memref sig .tc .vmem S1024x512 .bf16 := fun | 0 => Memref.whole cc28_stg1_0 | 1 => Memref.whole cc28_stg1_1 | ⟨_ + 2, h⟩ => absurd h (Nat.not_lt.2 (Nat.le_add_left _ _))
abbrev sem28_1 : Fin 2 → DmaSem sig := fun | 0 => cc28_sem1_0 | 1 => cc28_sem1_1 | ⟨_ + 2, h⟩ => absurd h (Nat.not_lt.2 (Nat.le_add_left _ _))
abbrev reads28_1 : Fin grid28.rank → Bool := ![false, true]

abbrev stage28_2 : Fin 2 → Memref sig .tc .vmem S1x512 .f32 := fun | 0 => Memref.whole cc28_stg2_0 | 1 => Memref.whole cc28_stg2_1 | ⟨_ + 2, h⟩ => absurd h (Nat.not_lt.2 (Nat.le_add_left _ _))
abbrev sem28_2 : Fin 2 → DmaSem sig := fun | 0 => cc28_sem2_0 | 1 => cc28_sem2_1 | ⟨_ + 2, h⟩ => absurd h (Nat.not_lt.2 (Nat.le_add_left _ _))
abbrev reads28_2 : Fin grid28.rank → Bool := ![false, true]

abbrev stage28_3 : Fin 2 → Memref sig .tc .vmem S512x512 .bf16 := fun | 0 => Memref.whole cc28_stg3_0 | 1 => Memref.whole cc28_stg3_1 | ⟨_ + 2, h⟩ => absurd h (Nat.not_lt.2 (Nat.le_add_left _ _))
abbrev sem28_3 : Fin 2 → DmaSem sig := fun | 0 => cc28_sem3_0 | 1 => cc28_sem3_1 | ⟨_ + 2, h⟩ => absurd h (Nat.not_lt.2 (Nat.le_add_left _ _))
abbrev reads28_3 : Fin grid28.rank → Bool := ![true, true]

abbrev grid29 : Pipeline.Grid := ⟨2, ![2, 2], ![false, false]⟩

def cc29_transform_0 (i : grid29.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc29_transform_1 (i : grid29.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc29_transform_2 (i : grid29.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc29_transform_3 (i : grid29.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage29_0 : Fin 2 → Memref sig .tc .vmem S512x1024 .bf16 := fun | 0 => Memref.whole cc29_stg0_0 | 1 => Memref.whole cc29_stg0_1 | ⟨_ + 2, h⟩ => absurd h (Nat.not_lt.2 (Nat.le_add_left _ _))
abbrev sem29_0 : Fin 2 → DmaSem sig := fun | 0 => cc29_sem0_0 | 1 => cc29_sem0_1 | ⟨_ + 2, h⟩ => absurd h (Nat.not_lt.2 (Nat.le_add_left _ _))
abbrev reads29_0 : Fin grid29.rank → Bool := ![true, false]

abbrev stage29_1 : Fin 2 → Memref sig .tc .vmem S1024x512 .bf16 := fun | 0 => Memref.whole cc29_stg1_0 | 1 => Memref.whole cc29_stg1_1 | ⟨_ + 2, h⟩ => absurd h (Nat.not_lt.2 (Nat.le_add_left _ _))
abbrev sem29_1 : Fin 2 → DmaSem sig := fun | 0 => cc29_sem1_0 | 1 => cc29_sem1_1 | ⟨_ + 2, h⟩ => absurd h (Nat.not_lt.2 (Nat.le_add_left _ _))
abbrev reads29_1 : Fin grid29.rank → Bool := ![false, true]

abbrev stage29_2 : Fin 2 → Memref sig .tc .vmem S1x512 .f32 := fun | 0 => Memref.whole cc29_stg2_0 | 1 => Memref.whole cc29_stg2_1 | ⟨_ + 2, h⟩ => absurd h (Nat.not_lt.2 (Nat.le_add_left _ _))
abbrev sem29_2 : Fin 2 → DmaSem sig := fun | 0 => cc29_sem2_0 | 1 => cc29_sem2_1 | ⟨_ + 2, h⟩ => absurd h (Nat.not_lt.2 (Nat.le_add_left _ _))
abbrev reads29_2 : Fin grid29.rank → Bool := ![false, true]

abbrev stage29_3 : Fin 2 → Memref sig .tc .vmem S512x512 .bf16 := fun | 0 => Memref.whole cc29_stg3_0 | 1 => Memref.whole cc29_stg3_1 | ⟨_ + 2, h⟩ => absurd h (Nat.not_lt.2 (Nat.le_add_left _ _))
abbrev sem29_3 : Fin 2 → DmaSem sig := fun | 0 => cc29_sem3_0 | 1 => cc29_sem3_1 | ⟨_ + 2, h⟩ => absurd h (Nat.not_lt.2 (Nat.le_add_left _ _))
abbrev reads29_3 : Fin grid29.rank → Bool := ![true, true]

abbrev grid30 : Pipeline.Grid := ⟨2, ![2, 4], ![false, false]⟩

def cc30_transform_0 (i : grid30.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc30_transform_1 (i : grid30.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc30_transform_2 (i : grid30.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc30_transform_3 (i : grid30.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc30_transform_4 (i : grid30.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc30_transform_5 (i : grid30.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage30_0 : Fin 2 → Memref sig .tc .vmem S512x1024 .bf16 := fun | 0 => Memref.whole cc30_stg0_0 | 1 => Memref.whole cc30_stg0_1 | ⟨_ + 2, h⟩ => absurd h (Nat.not_lt.2 (Nat.le_add_left _ _))
abbrev sem30_0 : Fin 2 → DmaSem sig := fun | 0 => cc30_sem0_0 | 1 => cc30_sem0_1 | ⟨_ + 2, h⟩ => absurd h (Nat.not_lt.2 (Nat.le_add_left _ _))
abbrev reads30_0 : Fin grid30.rank → Bool := ![true, false]

abbrev stage30_1 : Fin 2 → Memref sig .tc .vmem S1024x1024 .bf16 := fun | 0 => Memref.whole cc30_stg1_0 | 1 => Memref.whole cc30_stg1_1 | ⟨_ + 2, h⟩ => absurd h (Nat.not_lt.2 (Nat.le_add_left _ _))
abbrev sem30_1 : Fin 2 → DmaSem sig := fun | 0 => cc30_sem1_0 | 1 => cc30_sem1_1 | ⟨_ + 2, h⟩ => absurd h (Nat.not_lt.2 (Nat.le_add_left _ _))
abbrev reads30_1 : Fin grid30.rank → Bool := ![false, true]

abbrev stage30_2 : Fin 2 → Memref sig .tc .vmem S512x1024 .bf16 := fun | 0 => Memref.whole cc30_stg2_0 | 1 => Memref.whole cc30_stg2_1 | ⟨_ + 2, h⟩ => absurd h (Nat.not_lt.2 (Nat.le_add_left _ _))
abbrev sem30_2 : Fin 2 → DmaSem sig := fun | 0 => cc30_sem2_0 | 1 => cc30_sem2_1 | ⟨_ + 2, h⟩ => absurd h (Nat.not_lt.2 (Nat.le_add_left _ _))
abbrev reads30_2 : Fin grid30.rank → Bool := ![true, false]

abbrev stage30_3 : Fin 2 → Memref sig .tc .vmem S1024x1024 .bf16 := fun | 0 => Memref.whole cc30_stg3_0 | 1 => Memref.whole cc30_stg3_1 | ⟨_ + 2, h⟩ => absurd h (Nat.not_lt.2 (Nat.le_add_left _ _))
abbrev sem30_3 : Fin 2 → DmaSem sig := fun | 0 => cc30_sem3_0 | 1 => cc30_sem3_1 | ⟨_ + 2, h⟩ => absurd h (Nat.not_lt.2 (Nat.le_add_left _ _))
abbrev reads30_3 : Fin grid30.rank → Bool := ![false, true]

abbrev stage30_4 : Fin 2 → Memref sig .tc .vmem S1x1024 .f32 := fun | 0 => Memref.whole cc30_stg4_0 | 1 => Memref.whole cc30_stg4_1 | ⟨_ + 2, h⟩ => absurd h (Nat.not_lt.2 (Nat.le_add_left _ _))
abbrev sem30_4 : Fin 2 → DmaSem sig := fun | 0 => cc30_sem4_0 | 1 => cc30_sem4_1 | ⟨_ + 2, h⟩ => absurd h (Nat.not_lt.2 (Nat.le_add_left _ _))
abbrev reads30_4 : Fin grid30.rank → Bool := ![false, true]

abbrev stage30_5 : Fin 2 → Memref sig .tc .vmem S512x1024 .f32 := fun | 0 => Memref.whole cc30_stg5_0 | 1 => Memref.whole cc30_stg5_1 | ⟨_ + 2, h⟩ => absurd h (Nat.not_lt.2 (Nat.le_add_left _ _))
abbrev sem30_5 : Fin 2 → DmaSem sig := fun | 0 => cc30_sem5_0 | 1 => cc30_sem5_1 | ⟨_ + 2, h⟩ => absurd h (Nat.not_lt.2 (Nat.le_add_left _ _))
abbrev reads30_5 : Fin grid30.rank → Bool := ![true, true]

abbrev grid31 : Pipeline.Grid := ⟨2, ![2, 4], ![false, false]⟩

def cc31_transform_0 (i : grid31.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc31_transform_1 (i : grid31.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc31_transform_2 (i : grid31.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc31_transform_3 (i : grid31.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage31_0 : Fin 2 → Memref sig .tc .vmem S512x1024 .bf16 := fun | 0 => Memref.whole cc31_stg0_0 | 1 => Memref.whole cc31_stg0_1 | ⟨_ + 2, h⟩ => absurd h (Nat.not_lt.2 (Nat.le_add_left _ _))
abbrev sem31_0 : Fin 2 → DmaSem sig := fun | 0 => cc31_sem0_0 | 1 => cc31_sem0_1 | ⟨_ + 2, h⟩ => absurd h (Nat.not_lt.2 (Nat.le_add_left _ _))
abbrev reads31_0 : Fin grid31.rank → Bool := ![true, false]

abbrev stage31_1 : Fin 2 → Memref sig .tc .vmem S1024x1024 .bf16 := fun | 0 => Memref.whole cc31_stg1_0 | 1 => Memref.whole cc31_stg1_1 | ⟨_ + 2, h⟩ => absurd h (Nat.not_lt.2 (Nat.le_add_left _ _))
abbrev sem31_1 : Fin 2 → DmaSem sig := fun | 0 => cc31_sem1_0 | 1 => cc31_sem1_1 | ⟨_ + 2, h⟩ => absurd h (Nat.not_lt.2 (Nat.le_add_left _ _))
abbrev reads31_1 : Fin grid31.rank → Bool := ![false, true]

abbrev stage31_2 : Fin 2 → Memref sig .tc .vmem S1x1024 .f32 := fun | 0 => Memref.whole cc31_stg2_0 | 1 => Memref.whole cc31_stg2_1 | ⟨_ + 2, h⟩ => absurd h (Nat.not_lt.2 (Nat.le_add_left _ _))
abbrev sem31_2 : Fin 2 → DmaSem sig := fun | 0 => cc31_sem2_0 | 1 => cc31_sem2_1 | ⟨_ + 2, h⟩ => absurd h (Nat.not_lt.2 (Nat.le_add_left _ _))
abbrev reads31_2 : Fin grid31.rank → Bool := ![false, true]

abbrev stage31_3 : Fin 2 → Memref sig .tc .vmem S512x1024 .f32 := fun | 0 => Memref.whole cc31_stg3_0 | 1 => Memref.whole cc31_stg3_1 | ⟨_ + 2, h⟩ => absurd h (Nat.not_lt.2 (Nat.le_add_left _ _))
abbrev sem31_3 : Fin 2 → DmaSem sig := fun | 0 => cc31_sem3_0 | 1 => cc31_sem3_1 | ⟨_ + 2, h⟩ => absurd h (Nat.not_lt.2 (Nat.le_add_left _ _))
abbrev reads31_3 : Fin grid31.rank → Bool := ![true, true]

abbrev grid32 : Pipeline.Grid := ⟨2, ![2, 2], ![false, false]⟩

def cc32_transform_0 (i : grid32.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc32_transform_1 (i : grid32.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc32_transform_2 (i : grid32.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc32_transform_3 (i : grid32.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage32_0 : Fin 2 → Memref sig .tc .vmem S512x4096 .bf16 := fun | 0 => Memref.whole cc32_stg0_0 | 1 => Memref.whole cc32_stg0_1 | ⟨_ + 2, h⟩ => absurd h (Nat.not_lt.2 (Nat.le_add_left _ _))
abbrev sem32_0 : Fin 2 → DmaSem sig := fun | 0 => cc32_sem0_0 | 1 => cc32_sem0_1 | ⟨_ + 2, h⟩ => absurd h (Nat.not_lt.2 (Nat.le_add_left _ _))
abbrev reads32_0 : Fin grid32.rank → Bool := ![true, false]

abbrev stage32_1 : Fin 2 → Memref sig .tc .vmem S4096x512 .bf16 := fun | 0 => Memref.whole cc32_stg1_0 | 1 => Memref.whole cc32_stg1_1 | ⟨_ + 2, h⟩ => absurd h (Nat.not_lt.2 (Nat.le_add_left _ _))
abbrev sem32_1 : Fin 2 → DmaSem sig := fun | 0 => cc32_sem1_0 | 1 => cc32_sem1_1 | ⟨_ + 2, h⟩ => absurd h (Nat.not_lt.2 (Nat.le_add_left _ _))
abbrev reads32_1 : Fin grid32.rank → Bool := ![false, true]

abbrev stage32_2 : Fin 2 → Memref sig .tc .vmem S1x512 .f32 := fun | 0 => Memref.whole cc32_stg2_0 | 1 => Memref.whole cc32_stg2_1 | ⟨_ + 2, h⟩ => absurd h (Nat.not_lt.2 (Nat.le_add_left _ _))
abbrev sem32_2 : Fin 2 → DmaSem sig := fun | 0 => cc32_sem2_0 | 1 => cc32_sem2_1 | ⟨_ + 2, h⟩ => absurd h (Nat.not_lt.2 (Nat.le_add_left _ _))
abbrev reads32_2 : Fin grid32.rank → Bool := ![false, true]

abbrev stage32_3 : Fin 2 → Memref sig .tc .vmem S512x512 .f32 := fun | 0 => Memref.whole cc32_stg3_0 | 1 => Memref.whole cc32_stg3_1 | ⟨_ + 2, h⟩ => absurd h (Nat.not_lt.2 (Nat.le_add_left _ _))
abbrev sem32_3 : Fin 2 → DmaSem sig := fun | 0 => cc32_sem3_0 | 1 => cc32_sem3_1 | ⟨_ + 2, h⟩ => absurd h (Nat.not_lt.2 (Nat.le_add_left _ _))
abbrev reads32_3 : Fin grid32.rank → Bool := ![true, true]

abbrev grid33 : Pipeline.Grid := ⟨2, ![2, 2], ![false, false]⟩

def cc33_transform_0 (i : grid33.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc33_transform_1 (i : grid33.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc33_transform_2 (i : grid33.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc33_transform_3 (i : grid33.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage33_0 : Fin 2 → Memref sig .tc .vmem S512x4096 .bf16 := fun | 0 => Memref.whole cc33_stg0_0 | 1 => Memref.whole cc33_stg0_1 | ⟨_ + 2, h⟩ => absurd h (Nat.not_lt.2 (Nat.le_add_left _ _))
abbrev sem33_0 : Fin 2 → DmaSem sig := fun | 0 => cc33_sem0_0 | 1 => cc33_sem0_1 | ⟨_ + 2, h⟩ => absurd h (Nat.not_lt.2 (Nat.le_add_left _ _))
abbrev reads33_0 : Fin grid33.rank → Bool := ![true, false]

abbrev stage33_1 : Fin 2 → Memref sig .tc .vmem S4096x512 .bf16 := fun | 0 => Memref.whole cc33_stg1_0 | 1 => Memref.whole cc33_stg1_1 | ⟨_ + 2, h⟩ => absurd h (Nat.not_lt.2 (Nat.le_add_left _ _))
abbrev sem33_1 : Fin 2 → DmaSem sig := fun | 0 => cc33_sem1_0 | 1 => cc33_sem1_1 | ⟨_ + 2, h⟩ => absurd h (Nat.not_lt.2 (Nat.le_add_left _ _))
abbrev reads33_1 : Fin grid33.rank → Bool := ![false, true]

abbrev stage33_2 : Fin 2 → Memref sig .tc .vmem S1x512 .f32 := fun | 0 => Memref.whole cc33_stg2_0 | 1 => Memref.whole cc33_stg2_1 | ⟨_ + 2, h⟩ => absurd h (Nat.not_lt.2 (Nat.le_add_left _ _))
abbrev sem33_2 : Fin 2 → DmaSem sig := fun | 0 => cc33_sem2_0 | 1 => cc33_sem2_1 | ⟨_ + 2, h⟩ => absurd h (Nat.not_lt.2 (Nat.le_add_left _ _))
abbrev reads33_2 : Fin grid33.rank → Bool := ![false, true]

abbrev stage33_3 : Fin 2 → Memref sig .tc .vmem S512x512 .f32 := fun | 0 => Memref.whole cc33_stg3_0 | 1 => Memref.whole cc33_stg3_1 | ⟨_ + 2, h⟩ => absurd h (Nat.not_lt.2 (Nat.le_add_left _ _))
abbrev sem33_3 : Fin 2 → DmaSem sig := fun | 0 => cc33_sem3_0 | 1 => cc33_sem3_1 | ⟨_ + 2, h⟩ => absurd h (Nat.not_lt.2 (Nat.le_add_left _ _))
abbrev reads33_3 : Fin grid33.rank → Bool := ![true, true]

class Facts₀ : Prop where
  bitsLt_bf16_f32 : FTy.bits .bf16 < FTy.bits .f32
  bcast_S_S4096 : S_.BroadcastsInDim S4096 (![] : Fin 0 → Fin S4096.rank)
  slices_S5x1024x1024_S1x1024x1024_0_0_0 : S5x1024x1024.Slices ![0, 0, 0] S1x1024x1024
  shapeCasts_S1x1024x1024_S1024x1024 : S1x1024x1024.ShapeCasts S1024x1024
  slices_S5x1024_S1x1024_0_0 : S5x1024.Slices ![0, 0] S1x1024
  shapeCasts_S1x1024_S1024 : S1x1024.ShapeCasts S1024
  shapeCasts_S1024_S1x1024 : S1024.ShapeCasts S1x1024
  shapeCasts_S4096_S1x4096 : S4096.ShapeCasts S1x4096
  slices_S5x1024x1024_S1x1024x1024_1_0_0 : S5x1024x1024.Slices ![1, 0, 0] S1x1024x1024
  slices_S5x1024_S1x1024_1_0 : S5x1024.Slices ![1, 0] S1x1024
  slices_S5x1024x1024_S1x1024x1024_2_0_0 : S5x1024x1024.Slices ![2, 0, 0] S1x1024x1024
  slices_S5x1024_S1x1024_2_0 : S5x1024.Slices ![2, 0] S1x1024
  slices_S5x1024x1024_S1x1024x1024_3_0_0 : S5x1024x1024.Slices ![3, 0, 0] S1x1024x1024
  slices_S5x1024_S1x1024_3_0 : S5x1024.Slices ![3, 0] S1x1024
  slices_S5x1024x1024_S1x1024x1024_4_0_0 : S5x1024x1024.Slices ![4, 0, 0] S1x1024x1024
  slices_S5x1024_S1x1024_4_0 : S5x1024.Slices ![4, 0] S1x1024
  slices_S4x1024x1024_S1x1024x1024_0_0_0 : S4x1024x1024.Slices ![0, 0, 0] S1x1024x1024
  slices_S4x1024_S1x1024_0_0 : S4x1024.Slices ![0, 0] S1x1024
  slices_S4x4096_S1x4096_0_0 : S4x4096.Slices ![0, 0] S1x4096
  shapeCasts_S1x4096_S4096 : S1x4096.ShapeCasts S4096
  slices_S4x1024x1024_S1x1024x1024_1_0_0 : S4x1024x1024.Slices ![1, 0, 0] S1x1024x1024
  slices_S4x1024_S1x1024_1_0 : S4x1024.Slices ![1, 0] S1x1024
  slices_S4x4096_S1x4096_1_0 : S4x4096.Slices ![1, 0] S1x4096
  slices_S4x1024x1024_S1x1024x1024_2_0_0 : S4x1024x1024.Slices ![2, 0, 0] S1x1024x1024
  slices_S4x1024_S1x1024_2_0 : S4x1024.Slices ![2, 0] S1x1024
  slices_S4x4096_S1x4096_2_0 : S4x4096.Slices ![2, 0] S1x4096
  slices_S4x1024x1024_S1x1024x1024_3_0_0 : S4x1024x1024.Slices ![3, 0, 0] S1x1024x1024
  slices_S4x1024_S1x1024_3_0 : S4x1024.Slices ![3, 0] S1x1024
  slices_S4x4096_S1x4096_3_0 : S4x4096.Slices ![3, 0] S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x512_S512x512_0_0 : ∀ a, (![0, 0] : Fin 2 → Nat) a + S512x512.size a ≤ S512x512.size a
  h_S512x512 : 0 < S512x512.numel
  packedbf16_S512x512_S512x512_0_0 : (Rect.unit (s := S512x512) ![0, 0] S512x512.size inb_S512x512_S512x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  broadcasts_S1x512_S256x512 : S1x512.Broadcasts S256x512
  inb_S256x512_S256x512_0_0 : ∀ a, (![0, 0] : Fin 2 → Nat) a + S256x512.size a ≤ S256x512.size a
  h_S256x512 : 0 < S256x512.numel
  packedbf16_S256x512_S256x512_0_0 : (Rect.unit (s := S256x512) ![0, 0] S256x512.size inb_S256x512_S256x512_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  dot_S512x1024_S1024x512_S512x512_1_0_0_1_n_n_wf : DotDims.WF S512x1024 S1024x512 S512x512 [1] [0] [0] [1] [] []
  dot_S512x1024_S1024x1024_S512x1024_1_0_0_1_n_n_wf : DotDims.WF S512x1024 S1024x1024 S512x1024 [1] [0] [0] [1] [] []
  dot_S256x4096_S4096x512_S256x512_1_0_0_1_n_n_wf : DotDims.WF S256x4096 S4096x512 S256x512 [1] [0] [0] [1] [] []
  dot_S512x4096_S4096x512_S512x512_1_0_0_1_n_n_wf : DotDims.WF S512x4096 S4096x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S1024x1024.size a
  hwx0_0 : ∀ i : grid0.Coords, EltTy.bits .bf16 = 32 ∨ (Rect.block (s := S1024x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x1024.size a
  hwx0_1 : ∀ i : grid0.Coords, EltTy.bits .bf16 = 32 ∨ (Rect.block (s := S1024x1024) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x1024.size a
  hwx0_2 : ∀ i : grid0.Coords, EltTy.bits .f32 = 32 ∨ (Rect.block (s := S1x1024) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S1024x1024.size a
  hwx0_3 : ∀ i : grid0.Coords, EltTy.bits .bf16 = 32 ∨ (Rect.block (s := S1024x1024) S512x512.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S1024x1024.size a
  hwx1_0 : ∀ i : grid1.Coords, EltTy.bits .bf16 = 32 ∨ (Rect.block (s := S1024x1024) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x4096.size a
  hwx1_1 : ∀ i : grid1.Coords, EltTy.bits .bf16 = 32 ∨ (Rect.block (s := S1024x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S1024x4096.size a
  hwx1_3 : ∀ i : grid1.Coords, EltTy.bits .bf16 = 32 ∨ (Rect.block (s := S1024x4096) S512x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S1024x1024.size a
  hwx2_0 : ∀ i : grid2.Coords, EltTy.bits .bf16 = 32 ∨ (Rect.block (s := S1024x1024) S512x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x4096.size a
  hwx2_1 : ∀ i : grid2.Coords, EltTy.bits .bf16 = 32 ∨ (Rect.block (s := S1024x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S1024x4096.size a
  hwx2_3 : ∀ i : grid2.Coords, EltTy.bits .bf16 = 32 ∨ (Rect.block (s := S1024x4096) S512x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x4096.size a ≤ S1024x4096.size a
  hwx3_0 : ∀ i : grid3.Coords, EltTy.bits .bf16 = 32 ∨ (Rect.block (s := S1024x4096) S256x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x4096.size a ≤ S1024x4096.size a
  hwx3_1 : ∀ i : grid3.Coords, EltTy.bits .bf16 = 32 ∨ (Rect.block (s := S1024x4096) S256x4096.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x512.size a ≤ S4096x1024.size a
  hwx3_2 : ∀ i : grid3.Coords, EltTy.bits .bf16 = 32 ∨ (Rect.block (s := S4096x1024) S4096x512.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x512.size a ≤ S1x1024.size a
  hwx3_3 : ∀ i : grid3.Coords, EltTy.bits .f32 = 32 ∨ (Rect.block (s := S1x1024) S1x512.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S256x512.size a ≤ S1024x1024.size a
  hwx3_4 : ∀ i : grid3.Coords, EltTy.bits .bf16 = 32 ∨ (Rect.block (s := S1024x1024) S256x512.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x1024.size a ≤ S1024x1024.size a
  hwx4_0 : ∀ i : grid4.Coords, EltTy.bits .bf16 = 32 ∨ (Rect.block (s := S1024x1024) S512x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1024x512.size a ≤ S1024x1024.size a
  hwx4_1 : ∀ i : grid4.Coords, EltTy.bits .bf16 = 32 ∨ (Rect.block (s := S1024x1024) S1024x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x1024.size a
  hwx4_2 : ∀ i : grid4.Coords, EltTy.bits .f32 = 32 ∨ (Rect.block (s := S1x1024) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S512x512.size a ≤ S1024x1024.size a
  hwx4_3 : ∀ i : grid4.Coords, EltTy.bits .bf16 = 32 ∨ (Rect.block (s := S1024x1024) S512x512.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x1024.size a ≤ S1024x1024.size a
  hwx5_0 : ∀ i : grid5.Coords, EltTy.bits .bf16 = 32 ∨ (Rect.block (s := S1024x1024) S512x1024.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S1024x1024.size a ≤ S1024x4096.size a
  hwx5_1 : ∀ i : grid5.Coords, EltTy.bits .bf16 = 32 ∨ (Rect.block (s := S1024x4096) S1024x1024.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1x1024.size a ≤ S1x4096.size a
  hwx5_2 : ∀ i : grid5.Coords, EltTy.bits .f32 = 32 ∨ (Rect.block (s := S1x4096) S1x1024.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x1024.size a ≤ S1024x4096.size a
  hwx5_3 : ∀ i : grid5.Coords, EltTy.bits .bf16 = 32 ∨ (Rect.block (s := S1024x4096) S512x1024.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x1024.size a ≤ S1024x1024.size a
  hwx6_0 : ∀ i : grid6.Coords, EltTy.bits .bf16 = 32 ∨ (Rect.block (s := S1024x1024) S512x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S1024x1024.size a ≤ S1024x4096.size a
  hwx6_1 : ∀ i : grid6.Coords, EltTy.bits .bf16 = 32 ∨ (Rect.block (s := S1024x4096) S1024x1024.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x1024.size a ≤ S1x4096.size a
  hwx6_2 : ∀ i : grid6.Coords, EltTy.bits .f32 = 32 ∨ (Rect.block (s := S1x4096) S1x1024.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S512x1024.size a ≤ S1024x4096.size a
  hwx6_3 : ∀ i : grid6.Coords, EltTy.bits .bf16 = 32 ∨ (Rect.block (s := S1024x4096) S512x1024.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x1024.size a ≤ S1024x1024.size a
  hwx7_0 : ∀ i : grid7.Coords, EltTy.bits .bf16 = 32 ∨ (Rect.block (s := S1024x1024) S512x1024.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S1024x512.size a ≤ S1024x1024.size a
  hwx7_1 : ∀ i : grid7.Coords, EltTy.bits .bf16 = 32 ∨ (Rect.block (s := S1024x1024) S1024x512.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x1024.size a
  hwx7_2 : ∀ i : grid7.Coords, EltTy.bits .f32 = 32 ∨ (Rect.block (s := S1x1024) S1x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S512x512.size a ≤ S1024x1024.size a
  hwx7_3 : ∀ i : grid7.Coords, EltTy.bits .bf16 = 32 ∨ (Rect.block (s := S1024x1024) S512x512.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S512x1024.size a ≤ S1024x1024.size a
  hwx8_0 : ∀ i : grid8.Coords, EltTy.bits .bf16 = 32 ∨ (Rect.block (s := S1024x1024) S512x1024.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S1024x1024.size a ≤ S1024x4096.size a
  hwx8_1 : ∀ i : grid8.Coords, EltTy.bits .bf16 = 32 ∨ (Rect.block (s := S1024x4096) S1024x1024.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S1x1024.size a ≤ S1x4096.size a
  hwx8_2 : ∀ i : grid8.Coords, EltTy.bits .f32 = 32 ∨ (Rect.block (s := S1x4096) S1x1024.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S512x1024.size a ≤ S1024x4096.size a
  hwx8_3 : ∀ i : grid8.Coords, EltTy.bits .bf16 = 32 ∨ (Rect.block (s := S1024x4096) S512x1024.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S512x1024.size a ≤ S1024x1024.size a
  hwx9_0 : ∀ i : grid9.Coords, EltTy.bits .bf16 = 32 ∨ (Rect.block (s := S1024x1024) S512x1024.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S1024x1024.size a ≤ S1024x4096.size a
  hwx9_1 : ∀ i : grid9.Coords, EltTy.bits .bf16 = 32 ∨ (Rect.block (s := S1024x4096) S1024x1024.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1x1024.size a ≤ S1x4096.size a
  hwx9_2 : ∀ i : grid9.Coords, EltTy.bits .f32 = 32 ∨ (Rect.block (s := S1x4096) S1x1024.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S512x1024.size a ≤ S1024x4096.size a
  hwx9_3 : ∀ i : grid9.Coords, EltTy.bits .bf16 = 32 ∨ (Rect.block (s := S1024x4096) S512x1024.size (cc9_transform_3 i) (hinb9_3 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S256x4096.size a ≤ S1024x4096.size a
  hwx10_0 : ∀ i : grid10.Coords, EltTy.bits .bf16 = 32 ∨ (Rect.block (s := S1024x4096) S256x4096.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S256x4096.size a ≤ S1024x4096.size a
  hwx10_1 : ∀ i : grid10.Coords, EltTy.bits .bf16 = 32 ∨ (Rect.block (s := S1024x4096) S256x4096.size (cc10_transform_1 i) (hinb10_1 i)).WholeWords (EltTy.packing .bf16)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S4096x512.size a ≤ S4096x1024.size a
  hwx10_2 : ∀ i : grid10.Coords, EltTy.bits .bf16 = 32 ∨ (Rect.block (s := S4096x1024) S4096x512.size (cc10_transform_2 i) (hinb10_2 i)).WholeWords (EltTy.packing .bf16)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S1x512.size a ≤ S1x1024.size a
  hwx10_3 : ∀ i : grid10.Coords, EltTy.bits .f32 = 32 ∨ (Rect.block (s := S1x1024) S1x512.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S256x512.size a ≤ S1024x1024.size a
  hwx10_4 : ∀ i : grid10.Coords, EltTy.bits .bf16 = 32 ∨ (Rect.block (s := S1024x1024) S256x512.size (cc10_transform_4 i) (hinb10_4 i)).WholeWords (EltTy.packing .bf16)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S512x1024.size a ≤ S1024x1024.size a
  hwx11_0 : ∀ i : grid11.Coords, EltTy.bits .bf16 = 32 ∨ (Rect.block (s := S1024x1024) S512x1024.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S1024x512.size a ≤ S1024x1024.size a
  hwx11_1 : ∀ i : grid11.Coords, EltTy.bits .bf16 = 32 ∨ (Rect.block (s := S1024x1024) S1024x512.size (cc11_transform_1 i) (hinb11_1 i)).WholeWords (EltTy.packing .bf16)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S1x512.size a ≤ S1x1024.size a
  hwx11_2 : ∀ i : grid11.Coords, EltTy.bits .f32 = 32 ∨ (Rect.block (s := S1x1024) S1x512.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S512x512.size a ≤ S1024x1024.size a
  hwx11_3 : ∀ i : grid11.Coords, EltTy.bits .bf16 = 32 ∨ (Rect.block (s := S1024x1024) S512x512.size (cc11_transform_3 i) (hinb11_3 i)).WholeWords (EltTy.packing .bf16)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S512x1024.size a ≤ S1024x1024.size a
  hwx12_0 : ∀ i : grid12.Coords, EltTy.bits .bf16 = 32 ∨ (Rect.block (s := S1024x1024) S512x1024.size (cc12_transform_0 i) (hinb12_0 i)).WholeWords (EltTy.packing .bf16)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S1024x1024.size a ≤ S1024x4096.size a
  hwx12_1 : ∀ i : grid12.Coords, EltTy.bits .bf16 = 32 ∨ (Rect.block (s := S1024x4096) S1024x1024.size (cc12_transform_1 i) (hinb12_1 i)).WholeWords (EltTy.packing .bf16)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S1x1024.size a ≤ S1x4096.size a
  hwx12_2 : ∀ i : grid12.Coords, EltTy.bits .f32 = 32 ∨ (Rect.block (s := S1x4096) S1x1024.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S512x1024.size a ≤ S1024x4096.size a
  hwx12_3 : ∀ i : grid12.Coords, EltTy.bits .bf16 = 32 ∨ (Rect.block (s := S1024x4096) S512x1024.size (cc12_transform_3 i) (hinb12_3 i)).WholeWords (EltTy.packing .bf16)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S512x1024.size a ≤ S1024x1024.size a
  hwx13_0 : ∀ i : grid13.Coords, EltTy.bits .bf16 = 32 ∨ (Rect.block (s := S1024x1024) S512x1024.size (cc13_transform_0 i) (hinb13_0 i)).WholeWords (EltTy.packing .bf16)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1024x1024.size a ≤ S1024x4096.size a
  hwx13_1 : ∀ i : grid13.Coords, EltTy.bits .bf16 = 32 ∨ (Rect.block (s := S1024x4096) S1024x1024.size (cc13_transform_1 i) (hinb13_1 i)).WholeWords (EltTy.packing .bf16)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S1x1024.size a ≤ S1x4096.size a
  hwx13_2 : ∀ i : grid13.Coords, EltTy.bits .f32 = 32 ∨ (Rect.block (s := S1x4096) S1x1024.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S512x1024.size a ≤ S1024x4096.size a
  hwx13_3 : ∀ i : grid13.Coords, EltTy.bits .bf16 = 32 ∨ (Rect.block (s := S1024x4096) S512x1024.size (cc13_transform_3 i) (hinb13_3 i)).WholeWords (EltTy.packing .bf16)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S512x1024.size a ≤ S1024x1024.size a
  hwx14_0 : ∀ i : grid14.Coords, EltTy.bits .bf16 = 32 ∨ (Rect.block (s := S1024x1024) S512x1024.size (cc14_transform_0 i) (hinb14_0 i)).WholeWords (EltTy.packing .bf16)
  hstage14_1 : ∀ j, (stage14_1 j).IsWhole
  nbuf14_1 : grid14.bufCount reads14_1 false = 2
  hreads14_1 : ∀ i i' : grid14.Coords, (∀ a, reads14_1 a = true → i a = i' a) → cc14_transform_1 i = cc14_transform_1 i'
  hinb14_1 : ∀ (i : grid14.Coords) a, (cc14_transform_1 i a + 1) * S1024x512.size a ≤ S1024x1024.size a
  hwx14_1 : ∀ i : grid14.Coords, EltTy.bits .bf16 = 32 ∨ (Rect.block (s := S1024x1024) S1024x512.size (cc14_transform_1 i) (hinb14_1 i)).WholeWords (EltTy.packing .bf16)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S1x512.size a ≤ S1x1024.size a
  hwx14_2 : ∀ i : grid14.Coords, EltTy.bits .f32 = 32 ∨ (Rect.block (s := S1x1024) S1x512.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S512x512.size a ≤ S1024x1024.size a
  hwx14_3 : ∀ i : grid14.Coords, EltTy.bits .bf16 = 32 ∨ (Rect.block (s := S1024x1024) S512x512.size (cc14_transform_3 i) (hinb14_3 i)).WholeWords (EltTy.packing .bf16)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S512x1024.size a ≤ S1024x1024.size a
  hwx15_0 : ∀ i : grid15.Coords, EltTy.bits .bf16 = 32 ∨ (Rect.block (s := S1024x1024) S512x1024.size (cc15_transform_0 i) (hinb15_0 i)).WholeWords (EltTy.packing .bf16)
  hstage15_1 : ∀ j, (stage15_1 j).IsWhole
  nbuf15_1 : grid15.bufCount reads15_1 false = 2
  hreads15_1 : ∀ i i' : grid15.Coords, (∀ a, reads15_1 a = true → i a = i' a) → cc15_transform_1 i = cc15_transform_1 i'
  hinb15_1 : ∀ (i : grid15.Coords) a, (cc15_transform_1 i a + 1) * S1024x1024.size a ≤ S1024x4096.size a
  hwx15_1 : ∀ i : grid15.Coords, EltTy.bits .bf16 = 32 ∨ (Rect.block (s := S1024x4096) S1024x1024.size (cc15_transform_1 i) (hinb15_1 i)).WholeWords (EltTy.packing .bf16)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S1x1024.size a ≤ S1x4096.size a
  hwx15_2 : ∀ i : grid15.Coords, EltTy.bits .f32 = 32 ∨ (Rect.block (s := S1x4096) S1x1024.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S512x1024.size a ≤ S1024x4096.size a
  hwx15_3 : ∀ i : grid15.Coords, EltTy.bits .bf16 = 32 ∨ (Rect.block (s := S1024x4096) S512x1024.size (cc15_transform_3 i) (hinb15_3 i)).WholeWords (EltTy.packing .bf16)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S512x1024.size a ≤ S1024x1024.size a
  hwx16_0 : ∀ i : grid16.Coords, EltTy.bits .bf16 = 32 ∨ (Rect.block (s := S1024x1024) S512x1024.size (cc16_transform_0 i) (hinb16_0 i)).WholeWords (EltTy.packing .bf16)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S1024x1024.size a ≤ S1024x4096.size a
  hwx16_1 : ∀ i : grid16.Coords, EltTy.bits .bf16 = 32 ∨ (Rect.block (s := S1024x4096) S1024x1024.size (cc16_transform_1 i) (hinb16_1 i)).WholeWords (EltTy.packing .bf16)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S1x1024.size a ≤ S1x4096.size a
  hwx16_2 : ∀ i : grid16.Coords, EltTy.bits .f32 = 32 ∨ (Rect.block (s := S1x4096) S1x1024.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S512x1024.size a ≤ S1024x4096.size a
  hwx16_3 : ∀ i : grid16.Coords, EltTy.bits .bf16 = 32 ∨ (Rect.block (s := S1024x4096) S512x1024.size (cc16_transform_3 i) (hinb16_3 i)).WholeWords (EltTy.packing .bf16)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S256x4096.size a ≤ S1024x4096.size a
  hwx17_0 : ∀ i : grid17.Coords, EltTy.bits .bf16 = 32 ∨ (Rect.block (s := S1024x4096) S256x4096.size (cc17_transform_0 i) (hinb17_0 i)).WholeWords (EltTy.packing .bf16)
  hstage17_1 : ∀ j, (stage17_1 j).IsWhole
  nbuf17_1 : grid17.bufCount reads17_1 false = 2
  hreads17_1 : ∀ i i' : grid17.Coords, (∀ a, reads17_1 a = true → i a = i' a) → cc17_transform_1 i = cc17_transform_1 i'
  hinb17_1 : ∀ (i : grid17.Coords) a, (cc17_transform_1 i a + 1) * S256x4096.size a ≤ S1024x4096.size a
  hwx17_1 : ∀ i : grid17.Coords, EltTy.bits .bf16 = 32 ∨ (Rect.block (s := S1024x4096) S256x4096.size (cc17_transform_1 i) (hinb17_1 i)).WholeWords (EltTy.packing .bf16)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S4096x512.size a ≤ S4096x1024.size a
  hwx17_2 : ∀ i : grid17.Coords, EltTy.bits .bf16 = 32 ∨ (Rect.block (s := S4096x1024) S4096x512.size (cc17_transform_2 i) (hinb17_2 i)).WholeWords (EltTy.packing .bf16)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S1x512.size a ≤ S1x1024.size a
  hwx17_3 : ∀ i : grid17.Coords, EltTy.bits .f32 = 32 ∨ (Rect.block (s := S1x1024) S1x512.size (cc17_transform_3 i) (hinb17_3 i)).WholeWords (EltTy.packing .f32)
  hstage17_4 : ∀ j, (stage17_4 j).IsWhole
  nbuf17_4 : grid17.bufCount reads17_4 false = 2
  hreads17_4 : ∀ i i' : grid17.Coords, (∀ a, reads17_4 a = true → i a = i' a) → cc17_transform_4 i = cc17_transform_4 i'
  hinb17_4 : ∀ (i : grid17.Coords) a, (cc17_transform_4 i a + 1) * S256x512.size a ≤ S1024x1024.size a
  hwx17_4 : ∀ i : grid17.Coords, EltTy.bits .bf16 = 32 ∨ (Rect.block (s := S1024x1024) S256x512.size (cc17_transform_4 i) (hinb17_4 i)).WholeWords (EltTy.packing .bf16)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S512x1024.size a ≤ S1024x1024.size a
  hwx18_0 : ∀ i : grid18.Coords, EltTy.bits .bf16 = 32 ∨ (Rect.block (s := S1024x1024) S512x1024.size (cc18_transform_0 i) (hinb18_0 i)).WholeWords (EltTy.packing .bf16)
  hstage18_1 : ∀ j, (stage18_1 j).IsWhole
  nbuf18_1 : grid18.bufCount reads18_1 false = 2
  hreads18_1 : ∀ i i' : grid18.Coords, (∀ a, reads18_1 a = true → i a = i' a) → cc18_transform_1 i = cc18_transform_1 i'
  hinb18_1 : ∀ (i : grid18.Coords) a, (cc18_transform_1 i a + 1) * S1024x1024.size a ≤ S1024x4096.size a
  hwx18_1 : ∀ i : grid18.Coords, EltTy.bits .bf16 = 32 ∨ (Rect.block (s := S1024x4096) S1024x1024.size (cc18_transform_1 i) (hinb18_1 i)).WholeWords (EltTy.packing .bf16)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S1x1024.size a ≤ S1x4096.size a
  hwx18_2 : ∀ i : grid18.Coords, EltTy.bits .f32 = 32 ∨ (Rect.block (s := S1x4096) S1x1024.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S512x1024.size a ≤ S1024x4096.size a
  hwx18_3 : ∀ i : grid18.Coords, EltTy.bits .bf16 = 32 ∨ (Rect.block (s := S1024x4096) S512x1024.size (cc18_transform_3 i) (hinb18_3 i)).WholeWords (EltTy.packing .bf16)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S512x1024.size a ≤ S1024x1024.size a
  hwx19_0 : ∀ i : grid19.Coords, EltTy.bits .bf16 = 32 ∨ (Rect.block (s := S1024x1024) S512x1024.size (cc19_transform_0 i) (hinb19_0 i)).WholeWords (EltTy.packing .bf16)
  hstage19_1 : ∀ j, (stage19_1 j).IsWhole
  nbuf19_1 : grid19.bufCount reads19_1 false = 2
  hreads19_1 : ∀ i i' : grid19.Coords, (∀ a, reads19_1 a = true → i a = i' a) → cc19_transform_1 i = cc19_transform_1 i'
  hinb19_1 : ∀ (i : grid19.Coords) a, (cc19_transform_1 i a + 1) * S1024x512.size a ≤ S1024x1024.size a
  hwx19_1 : ∀ i : grid19.Coords, EltTy.bits .bf16 = 32 ∨ (Rect.block (s := S1024x1024) S1024x512.size (cc19_transform_1 i) (hinb19_1 i)).WholeWords (EltTy.packing .bf16)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S1x512.size a ≤ S1x1024.size a
  hwx19_2 : ∀ i : grid19.Coords, EltTy.bits .f32 = 32 ∨ (Rect.block (s := S1x1024) S1x512.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S512x512.size a ≤ S1024x1024.size a
  hwx19_3 : ∀ i : grid19.Coords, EltTy.bits .bf16 = 32 ∨ (Rect.block (s := S1024x1024) S512x512.size (cc19_transform_3 i) (hinb19_3 i)).WholeWords (EltTy.packing .bf16)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S512x1024.size a ≤ S1024x1024.size a
  hwx20_0 : ∀ i : grid20.Coords, EltTy.bits .bf16 = 32 ∨ (Rect.block (s := S1024x1024) S512x1024.size (cc20_transform_0 i) (hinb20_0 i)).WholeWords (EltTy.packing .bf16)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S1024x512.size a ≤ S1024x1024.size a
  hwx20_1 : ∀ i : grid20.Coords, EltTy.bits .bf16 = 32 ∨ (Rect.block (s := S1024x1024) S1024x512.size (cc20_transform_1 i) (hinb20_1 i)).WholeWords (EltTy.packing .bf16)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S1x512.size a ≤ S1x1024.size a
  hwx20_2 : ∀ i : grid20.Coords, EltTy.bits .f32 = 32 ∨ (Rect.block (s := S1x1024) S1x512.size (cc20_transform_2 i) (hinb20_2 i)).WholeWords (EltTy.packing .f32)
  hstage20_3 : ∀ j, (stage20_3 j).IsWhole
  nbuf20_3 : grid20.bufCount reads20_3 false = 2
  hreads20_3 : ∀ i i' : grid20.Coords, (∀ a, reads20_3 a = true → i a = i' a) → cc20_transform_3 i = cc20_transform_3 i'
  hinb20_3 : ∀ (i : grid20.Coords) a, (cc20_transform_3 i a + 1) * S512x512.size a ≤ S1024x1024.size a
  hwx20_3 : ∀ i : grid20.Coords, EltTy.bits .bf16 = 32 ∨ (Rect.block (s := S1024x1024) S512x512.size (cc20_transform_3 i) (hinb20_3 i)).WholeWords (EltTy.packing .bf16)
  hrank21 : 0 < grid21.rank
  hstage21_0 : ∀ j, (stage21_0 j).IsWhole
  nbuf21_0 : grid21.bufCount reads21_0 false = 2
  hreads21_0 : ∀ i i' : grid21.Coords, (∀ a, reads21_0 a = true → i a = i' a) → cc21_transform_0 i = cc21_transform_0 i'
  hinb21_0 : ∀ (i : grid21.Coords) a, (cc21_transform_0 i a + 1) * S512x1024.size a ≤ S1024x1024.size a
  hwx21_0 : ∀ i : grid21.Coords, EltTy.bits .bf16 = 32 ∨ (Rect.block (s := S1024x1024) S512x1024.size (cc21_transform_0 i) (hinb21_0 i)).WholeWords (EltTy.packing .bf16)
  hstage21_1 : ∀ j, (stage21_1 j).IsWhole
  nbuf21_1 : grid21.bufCount reads21_1 false = 2
  hreads21_1 : ∀ i i' : grid21.Coords, (∀ a, reads21_1 a = true → i a = i' a) → cc21_transform_1 i = cc21_transform_1 i'
  hinb21_1 : ∀ (i : grid21.Coords) a, (cc21_transform_1 i a + 1) * S1024x1024.size a ≤ S1024x4096.size a
  hwx21_1 : ∀ i : grid21.Coords, EltTy.bits .bf16 = 32 ∨ (Rect.block (s := S1024x4096) S1024x1024.size (cc21_transform_1 i) (hinb21_1 i)).WholeWords (EltTy.packing .bf16)
  hstage21_2 : ∀ j, (stage21_2 j).IsWhole
  nbuf21_2 : grid21.bufCount reads21_2 false = 2
  hreads21_2 : ∀ i i' : grid21.Coords, (∀ a, reads21_2 a = true → i a = i' a) → cc21_transform_2 i = cc21_transform_2 i'
  hinb21_2 : ∀ (i : grid21.Coords) a, (cc21_transform_2 i a + 1) * S512x1024.size a ≤ S1024x1024.size a
  hwx21_2 : ∀ i : grid21.Coords, EltTy.bits .bf16 = 32 ∨ (Rect.block (s := S1024x1024) S512x1024.size (cc21_transform_2 i) (hinb21_2 i)).WholeWords (EltTy.packing .bf16)
  hstage21_3 : ∀ j, (stage21_3 j).IsWhole
  nbuf21_3 : grid21.bufCount reads21_3 false = 2
  hreads21_3 : ∀ i i' : grid21.Coords, (∀ a, reads21_3 a = true → i a = i' a) → cc21_transform_3 i = cc21_transform_3 i'
  hinb21_3 : ∀ (i : grid21.Coords) a, (cc21_transform_3 i a + 1) * S1024x1024.size a ≤ S1024x4096.size a
  hwx21_3 : ∀ i : grid21.Coords, EltTy.bits .bf16 = 32 ∨ (Rect.block (s := S1024x4096) S1024x1024.size (cc21_transform_3 i) (hinb21_3 i)).WholeWords (EltTy.packing .bf16)
  hstage21_4 : ∀ j, (stage21_4 j).IsWhole
  nbuf21_4 : grid21.bufCount reads21_4 false = 2
  hreads21_4 : ∀ i i' : grid21.Coords, (∀ a, reads21_4 a = true → i a = i' a) → cc21_transform_4 i = cc21_transform_4 i'
  hinb21_4 : ∀ (i : grid21.Coords) a, (cc21_transform_4 i a + 1) * S1x1024.size a ≤ S1x4096.size a
  hwx21_4 : ∀ i : grid21.Coords, EltTy.bits .f32 = 32 ∨ (Rect.block (s := S1x4096) S1x1024.size (cc21_transform_4 i) (hinb21_4 i)).WholeWords (EltTy.packing .f32)
  hstage21_5 : ∀ j, (stage21_5 j).IsWhole
  nbuf21_5 : grid21.bufCount reads21_5 false = 2
  hreads21_5 : ∀ i i' : grid21.Coords, (∀ a, reads21_5 a = true → i a = i' a) → cc21_transform_5 i = cc21_transform_5 i'
  hinb21_5 : ∀ (i : grid21.Coords) a, (cc21_transform_5 i a + 1) * S512x1024.size a ≤ S1024x4096.size a
  hwx21_5 : ∀ i : grid21.Coords, EltTy.bits .f32 = 32 ∨ (Rect.block (s := S1024x4096) S512x1024.size (cc21_transform_5 i) (hinb21_5 i)).WholeWords (EltTy.packing .f32)
  hrank22 : 0 < grid22.rank
  hstage22_0 : ∀ j, (stage22_0 j).IsWhole
  nbuf22_0 : grid22.bufCount reads22_0 false = 2
  hreads22_0 : ∀ i i' : grid22.Coords, (∀ a, reads22_0 a = true → i a = i' a) → cc22_transform_0 i = cc22_transform_0 i'
  hinb22_0 : ∀ (i : grid22.Coords) a, (cc22_transform_0 i a + 1) * S512x1024.size a ≤ S1024x1024.size a
  hwx22_0 : ∀ i : grid22.Coords, EltTy.bits .bf16 = 32 ∨ (Rect.block (s := S1024x1024) S512x1024.size (cc22_transform_0 i) (hinb22_0 i)).WholeWords (EltTy.packing .bf16)
  hstage22_1 : ∀ j, (stage22_1 j).IsWhole
  nbuf22_1 : grid22.bufCount reads22_1 false = 2
  hreads22_1 : ∀ i i' : grid22.Coords, (∀ a, reads22_1 a = true → i a = i' a) → cc22_transform_1 i = cc22_transform_1 i'
  hinb22_1 : ∀ (i : grid22.Coords) a, (cc22_transform_1 i a + 1) * S1024x512.size a ≤ S1024x1024.size a
  hwx22_1 : ∀ i : grid22.Coords, EltTy.bits .bf16 = 32 ∨ (Rect.block (s := S1024x1024) S1024x512.size (cc22_transform_1 i) (hinb22_1 i)).WholeWords (EltTy.packing .bf16)
  hstage22_2 : ∀ j, (stage22_2 j).IsWhole
  nbuf22_2 : grid22.bufCount reads22_2 false = 2
  hreads22_2 : ∀ i i' : grid22.Coords, (∀ a, reads22_2 a = true → i a = i' a) → cc22_transform_2 i = cc22_transform_2 i'
  hinb22_2 : ∀ (i : grid22.Coords) a, (cc22_transform_2 i a + 1) * S1x512.size a ≤ S1x1024.size a
  hwx22_2 : ∀ i : grid22.Coords, EltTy.bits .f32 = 32 ∨ (Rect.block (s := S1x1024) S1x512.size (cc22_transform_2 i) (hinb22_2 i)).WholeWords (EltTy.packing .f32)
  hstage22_3 : ∀ j, (stage22_3 j).IsWhole
  nbuf22_3 : grid22.bufCount reads22_3 false = 2
  hreads22_3 : ∀ i i' : grid22.Coords, (∀ a, reads22_3 a = true → i a = i' a) → cc22_transform_3 i = cc22_transform_3 i'
  hinb22_3 : ∀ (i : grid22.Coords) a, (cc22_transform_3 i a + 1) * S512x512.size a ≤ S1024x1024.size a
  hwx22_3 : ∀ i : grid22.Coords, EltTy.bits .bf16 = 32 ∨ (Rect.block (s := S1024x1024) S512x512.size (cc22_transform_3 i) (hinb22_3 i)).WholeWords (EltTy.packing .bf16)
  hrank23 : 0 < grid23.rank
  hstage23_0 : ∀ j, (stage23_0 j).IsWhole
  nbuf23_0 : grid23.bufCount reads23_0 false = 2
  hreads23_0 : ∀ i i' : grid23.Coords, (∀ a, reads23_0 a = true → i a = i' a) → cc23_transform_0 i = cc23_transform_0 i'
  hinb23_0 : ∀ (i : grid23.Coords) a, (cc23_transform_0 i a + 1) * S512x1024.size a ≤ S1024x1024.size a
  hwx23_0 : ∀ i : grid23.Coords, EltTy.bits .bf16 = 32 ∨ (Rect.block (s := S1024x1024) S512x1024.size (cc23_transform_0 i) (hinb23_0 i)).WholeWords (EltTy.packing .bf16)
  hstage23_1 : ∀ j, (stage23_1 j).IsWhole
  nbuf23_1 : grid23.bufCount reads23_1 false = 2
  hreads23_1 : ∀ i i' : grid23.Coords, (∀ a, reads23_1 a = true → i a = i' a) → cc23_transform_1 i = cc23_transform_1 i'
  hinb23_1 : ∀ (i : grid23.Coords) a, (cc23_transform_1 i a + 1) * S1024x512.size a ≤ S1024x1024.size a
  hwx23_1 : ∀ i : grid23.Coords, EltTy.bits .bf16 = 32 ∨ (Rect.block (s := S1024x1024) S1024x512.size (cc23_transform_1 i) (hinb23_1 i)).WholeWords (EltTy.packing .bf16)
  hstage23_2 : ∀ j, (stage23_2 j).IsWhole
  nbuf23_2 : grid23.bufCount reads23_2 false = 2
  hreads23_2 : ∀ i i' : grid23.Coords, (∀ a, reads23_2 a = true → i a = i' a) → cc23_transform_2 i = cc23_transform_2 i'
  hinb23_2 : ∀ (i : grid23.Coords) a, (cc23_transform_2 i a + 1) * S1x512.size a ≤ S1x1024.size a
  hwx23_2 : ∀ i : grid23.Coords, EltTy.bits .f32 = 32 ∨ (Rect.block (s := S1x1024) S1x512.size (cc23_transform_2 i) (hinb23_2 i)).WholeWords (EltTy.packing .f32)
  hstage23_3 : ∀ j, (stage23_3 j).IsWhole
  nbuf23_3 : grid23.bufCount reads23_3 false = 2
  hreads23_3 : ∀ i i' : grid23.Coords, (∀ a, reads23_3 a = true → i a = i' a) → cc23_transform_3 i = cc23_transform_3 i'
  hinb23_3 : ∀ (i : grid23.Coords) a, (cc23_transform_3 i a + 1) * S512x512.size a ≤ S1024x1024.size a
  hwx23_3 : ∀ i : grid23.Coords, EltTy.bits .bf16 = 32 ∨ (Rect.block (s := S1024x1024) S512x512.size (cc23_transform_3 i) (hinb23_3 i)).WholeWords (EltTy.packing .bf16)
  hrank24 : 0 < grid24.rank
  hstage24_0 : ∀ j, (stage24_0 j).IsWhole
  nbuf24_0 : grid24.bufCount reads24_0 false = 2
  hreads24_0 : ∀ i i' : grid24.Coords, (∀ a, reads24_0 a = true → i a = i' a) → cc24_transform_0 i = cc24_transform_0 i'
  hinb24_0 : ∀ (i : grid24.Coords) a, (cc24_transform_0 i a + 1) * S512x1024.size a ≤ S1024x1024.size a
  hwx24_0 : ∀ i : grid24.Coords, EltTy.bits .bf16 = 32 ∨ (Rect.block (s := S1024x1024) S512x1024.size (cc24_transform_0 i) (hinb24_0 i)).WholeWords (EltTy.packing .bf16)
  hstage24_1 : ∀ j, (stage24_1 j).IsWhole
  nbuf24_1 : grid24.bufCount reads24_1 false = 2
  hreads24_1 : ∀ i i' : grid24.Coords, (∀ a, reads24_1 a = true → i a = i' a) → cc24_transform_1 i = cc24_transform_1 i'
  hinb24_1 : ∀ (i : grid24.Coords) a, (cc24_transform_1 i a + 1) * S1024x1024.size a ≤ S1024x4096.size a
  hwx24_1 : ∀ i : grid24.Coords, EltTy.bits .bf16 = 32 ∨ (Rect.block (s := S1024x4096) S1024x1024.size (cc24_transform_1 i) (hinb24_1 i)).WholeWords (EltTy.packing .bf16)
  hstage24_2 : ∀ j, (stage24_2 j).IsWhole
  nbuf24_2 : grid24.bufCount reads24_2 false = 2
  hreads24_2 : ∀ i i' : grid24.Coords, (∀ a, reads24_2 a = true → i a = i' a) → cc24_transform_2 i = cc24_transform_2 i'
  hinb24_2 : ∀ (i : grid24.Coords) a, (cc24_transform_2 i a + 1) * S512x1024.size a ≤ S1024x1024.size a
  hwx24_2 : ∀ i : grid24.Coords, EltTy.bits .bf16 = 32 ∨ (Rect.block (s := S1024x1024) S512x1024.size (cc24_transform_2 i) (hinb24_2 i)).WholeWords (EltTy.packing .bf16)
  hstage24_3 : ∀ j, (stage24_3 j).IsWhole
  nbuf24_3 : grid24.bufCount reads24_3 false = 2
  hreads24_3 : ∀ i i' : grid24.Coords, (∀ a, reads24_3 a = true → i a = i' a) → cc24_transform_3 i = cc24_transform_3 i'
  hinb24_3 : ∀ (i : grid24.Coords) a, (cc24_transform_3 i a + 1) * S1024x1024.size a ≤ S1024x4096.size a
  hwx24_3 : ∀ i : grid24.Coords, EltTy.bits .bf16 = 32 ∨ (Rect.block (s := S1024x4096) S1024x1024.size (cc24_transform_3 i) (hinb24_3 i)).WholeWords (EltTy.packing .bf16)
  hstage24_4 : ∀ j, (stage24_4 j).IsWhole
  nbuf24_4 : grid24.bufCount reads24_4 false = 2
  hreads24_4 : ∀ i i' : grid24.Coords, (∀ a, reads24_4 a = true → i a = i' a) → cc24_transform_4 i = cc24_transform_4 i'
  hinb24_4 : ∀ (i : grid24.Coords) a, (cc24_transform_4 i a + 1) * S1x1024.size a ≤ S1x4096.size a
  hwx24_4 : ∀ i : grid24.Coords, EltTy.bits .f32 = 32 ∨ (Rect.block (s := S1x4096) S1x1024.size (cc24_transform_4 i) (hinb24_4 i)).WholeWords (EltTy.packing .f32)
  hstage24_5 : ∀ j, (stage24_5 j).IsWhole
  nbuf24_5 : grid24.bufCount reads24_5 false = 2
  hreads24_5 : ∀ i i' : grid24.Coords, (∀ a, reads24_5 a = true → i a = i' a) → cc24_transform_5 i = cc24_transform_5 i'
  hinb24_5 : ∀ (i : grid24.Coords) a, (cc24_transform_5 i a + 1) * S512x1024.size a ≤ S1024x4096.size a
  hwx24_5 : ∀ i : grid24.Coords, EltTy.bits .f32 = 32 ∨ (Rect.block (s := S1024x4096) S512x1024.size (cc24_transform_5 i) (hinb24_5 i)).WholeWords (EltTy.packing .f32)
  hrank25 : 0 < grid25.rank
  hstage25_0 : ∀ j, (stage25_0 j).IsWhole
  nbuf25_0 : grid25.bufCount reads25_0 false = 2
  hreads25_0 : ∀ i i' : grid25.Coords, (∀ a, reads25_0 a = true → i a = i' a) → cc25_transform_0 i = cc25_transform_0 i'
  hinb25_0 : ∀ (i : grid25.Coords) a, (cc25_transform_0 i a + 1) * S512x1024.size a ≤ S1024x1024.size a
  hwx25_0 : ∀ i : grid25.Coords, EltTy.bits .bf16 = 32 ∨ (Rect.block (s := S1024x1024) S512x1024.size (cc25_transform_0 i) (hinb25_0 i)).WholeWords (EltTy.packing .bf16)
  hstage25_1 : ∀ j, (stage25_1 j).IsWhole
  nbuf25_1 : grid25.bufCount reads25_1 false = 2
  hreads25_1 : ∀ i i' : grid25.Coords, (∀ a, reads25_1 a = true → i a = i' a) → cc25_transform_1 i = cc25_transform_1 i'
  hinb25_1 : ∀ (i : grid25.Coords) a, (cc25_transform_1 i a + 1) * S1024x512.size a ≤ S1024x1024.size a
  hwx25_1 : ∀ i : grid25.Coords, EltTy.bits .bf16 = 32 ∨ (Rect.block (s := S1024x1024) S1024x512.size (cc25_transform_1 i) (hinb25_1 i)).WholeWords (EltTy.packing .bf16)
  hstage25_2 : ∀ j, (stage25_2 j).IsWhole
  nbuf25_2 : grid25.bufCount reads25_2 false = 2
  hreads25_2 : ∀ i i' : grid25.Coords, (∀ a, reads25_2 a = true → i a = i' a) → cc25_transform_2 i = cc25_transform_2 i'
  hinb25_2 : ∀ (i : grid25.Coords) a, (cc25_transform_2 i a + 1) * S1x512.size a ≤ S1x1024.size a
  hwx25_2 : ∀ i : grid25.Coords, EltTy.bits .f32 = 32 ∨ (Rect.block (s := S1x1024) S1x512.size (cc25_transform_2 i) (hinb25_2 i)).WholeWords (EltTy.packing .f32)
  hstage25_3 : ∀ j, (stage25_3 j).IsWhole
  nbuf25_3 : grid25.bufCount reads25_3 false = 2
  hreads25_3 : ∀ i i' : grid25.Coords, (∀ a, reads25_3 a = true → i a = i' a) → cc25_transform_3 i = cc25_transform_3 i'
  hinb25_3 : ∀ (i : grid25.Coords) a, (cc25_transform_3 i a + 1) * S512x512.size a ≤ S1024x1024.size a
  hwx25_3 : ∀ i : grid25.Coords, EltTy.bits .bf16 = 32 ∨ (Rect.block (s := S1024x1024) S512x512.size (cc25_transform_3 i) (hinb25_3 i)).WholeWords (EltTy.packing .bf16)
  hrank26 : 0 < grid26.rank
  hstage26_0 : ∀ j, (stage26_0 j).IsWhole
  nbuf26_0 : grid26.bufCount reads26_0 false = 2
  hreads26_0 : ∀ i i' : grid26.Coords, (∀ a, reads26_0 a = true → i a = i' a) → cc26_transform_0 i = cc26_transform_0 i'
  hinb26_0 : ∀ (i : grid26.Coords) a, (cc26_transform_0 i a + 1) * S512x1024.size a ≤ S1024x1024.size a
  hwx26_0 : ∀ i : grid26.Coords, EltTy.bits .bf16 = 32 ∨ (Rect.block (s := S1024x1024) S512x1024.size (cc26_transform_0 i) (hinb26_0 i)).WholeWords (EltTy.packing .bf16)
  hstage26_1 : ∀ j, (stage26_1 j).IsWhole
  nbuf26_1 : grid26.bufCount reads26_1 false = 2
  hreads26_1 : ∀ i i' : grid26.Coords, (∀ a, reads26_1 a = true → i a = i' a) → cc26_transform_1 i = cc26_transform_1 i'
  hinb26_1 : ∀ (i : grid26.Coords) a, (cc26_transform_1 i a + 1) * S1024x512.size a ≤ S1024x1024.size a
  hwx26_1 : ∀ i : grid26.Coords, EltTy.bits .bf16 = 32 ∨ (Rect.block (s := S1024x1024) S1024x512.size (cc26_transform_1 i) (hinb26_1 i)).WholeWords (EltTy.packing .bf16)
  hstage26_2 : ∀ j, (stage26_2 j).IsWhole
  nbuf26_2 : grid26.bufCount reads26_2 false = 2
  hreads26_2 : ∀ i i' : grid26.Coords, (∀ a, reads26_2 a = true → i a = i' a) → cc26_transform_2 i = cc26_transform_2 i'
  hinb26_2 : ∀ (i : grid26.Coords) a, (cc26_transform_2 i a + 1) * S1x512.size a ≤ S1x1024.size a
  hwx26_2 : ∀ i : grid26.Coords, EltTy.bits .f32 = 32 ∨ (Rect.block (s := S1x1024) S1x512.size (cc26_transform_2 i) (hinb26_2 i)).WholeWords (EltTy.packing .f32)
  hstage26_3 : ∀ j, (stage26_3 j).IsWhole
  nbuf26_3 : grid26.bufCount reads26_3 false = 2
  hreads26_3 : ∀ i i' : grid26.Coords, (∀ a, reads26_3 a = true → i a = i' a) → cc26_transform_3 i = cc26_transform_3 i'
  hinb26_3 : ∀ (i : grid26.Coords) a, (cc26_transform_3 i a + 1) * S512x512.size a ≤ S1024x1024.size a
  hwx26_3 : ∀ i : grid26.Coords, EltTy.bits .bf16 = 32 ∨ (Rect.block (s := S1024x1024) S512x512.size (cc26_transform_3 i) (hinb26_3 i)).WholeWords (EltTy.packing .bf16)
  hrank27 : 0 < grid27.rank
  hstage27_0 : ∀ j, (stage27_0 j).IsWhole
  nbuf27_0 : grid27.bufCount reads27_0 false = 2
  hreads27_0 : ∀ i i' : grid27.Coords, (∀ a, reads27_0 a = true → i a = i' a) → cc27_transform_0 i = cc27_transform_0 i'
  hinb27_0 : ∀ (i : grid27.Coords) a, (cc27_transform_0 i a + 1) * S512x1024.size a ≤ S1024x1024.size a
  hwx27_0 : ∀ i : grid27.Coords, EltTy.bits .bf16 = 32 ∨ (Rect.block (s := S1024x1024) S512x1024.size (cc27_transform_0 i) (hinb27_0 i)).WholeWords (EltTy.packing .bf16)
  hstage27_1 : ∀ j, (stage27_1 j).IsWhole
  nbuf27_1 : grid27.bufCount reads27_1 false = 2
  hreads27_1 : ∀ i i' : grid27.Coords, (∀ a, reads27_1 a = true → i a = i' a) → cc27_transform_1 i = cc27_transform_1 i'
  hinb27_1 : ∀ (i : grid27.Coords) a, (cc27_transform_1 i a + 1) * S1024x1024.size a ≤ S1024x4096.size a
  hwx27_1 : ∀ i : grid27.Coords, EltTy.bits .bf16 = 32 ∨ (Rect.block (s := S1024x4096) S1024x1024.size (cc27_transform_1 i) (hinb27_1 i)).WholeWords (EltTy.packing .bf16)
  hstage27_2 : ∀ j, (stage27_2 j).IsWhole
  nbuf27_2 : grid27.bufCount reads27_2 false = 2
  hreads27_2 : ∀ i i' : grid27.Coords, (∀ a, reads27_2 a = true → i a = i' a) → cc27_transform_2 i = cc27_transform_2 i'
  hinb27_2 : ∀ (i : grid27.Coords) a, (cc27_transform_2 i a + 1) * S512x1024.size a ≤ S1024x1024.size a
  hwx27_2 : ∀ i : grid27.Coords, EltTy.bits .bf16 = 32 ∨ (Rect.block (s := S1024x1024) S512x1024.size (cc27_transform_2 i) (hinb27_2 i)).WholeWords (EltTy.packing .bf16)
  hstage27_3 : ∀ j, (stage27_3 j).IsWhole
  nbuf27_3 : grid27.bufCount reads27_3 false = 2
  hreads27_3 : ∀ i i' : grid27.Coords, (∀ a, reads27_3 a = true → i a = i' a) → cc27_transform_3 i = cc27_transform_3 i'
  hinb27_3 : ∀ (i : grid27.Coords) a, (cc27_transform_3 i a + 1) * S1024x1024.size a ≤ S1024x4096.size a
  hwx27_3 : ∀ i : grid27.Coords, EltTy.bits .bf16 = 32 ∨ (Rect.block (s := S1024x4096) S1024x1024.size (cc27_transform_3 i) (hinb27_3 i)).WholeWords (EltTy.packing .bf16)
  hstage27_4 : ∀ j, (stage27_4 j).IsWhole
  nbuf27_4 : grid27.bufCount reads27_4 false = 2
  hreads27_4 : ∀ i i' : grid27.Coords, (∀ a, reads27_4 a = true → i a = i' a) → cc27_transform_4 i = cc27_transform_4 i'
  hinb27_4 : ∀ (i : grid27.Coords) a, (cc27_transform_4 i a + 1) * S1x1024.size a ≤ S1x4096.size a
  hwx27_4 : ∀ i : grid27.Coords, EltTy.bits .f32 = 32 ∨ (Rect.block (s := S1x4096) S1x1024.size (cc27_transform_4 i) (hinb27_4 i)).WholeWords (EltTy.packing .f32)
  hstage27_5 : ∀ j, (stage27_5 j).IsWhole
  nbuf27_5 : grid27.bufCount reads27_5 false = 2
  hreads27_5 : ∀ i i' : grid27.Coords, (∀ a, reads27_5 a = true → i a = i' a) → cc27_transform_5 i = cc27_transform_5 i'
  hinb27_5 : ∀ (i : grid27.Coords) a, (cc27_transform_5 i a + 1) * S512x1024.size a ≤ S1024x4096.size a
  hwx27_5 : ∀ i : grid27.Coords, EltTy.bits .f32 = 32 ∨ (Rect.block (s := S1024x4096) S512x1024.size (cc27_transform_5 i) (hinb27_5 i)).WholeWords (EltTy.packing .f32)
  hrank28 : 0 < grid28.rank
  hstage28_0 : ∀ j, (stage28_0 j).IsWhole
  nbuf28_0 : grid28.bufCount reads28_0 false = 2
  hreads28_0 : ∀ i i' : grid28.Coords, (∀ a, reads28_0 a = true → i a = i' a) → cc28_transform_0 i = cc28_transform_0 i'
  hinb28_0 : ∀ (i : grid28.Coords) a, (cc28_transform_0 i a + 1) * S512x1024.size a ≤ S1024x1024.size a
  hwx28_0 : ∀ i : grid28.Coords, EltTy.bits .bf16 = 32 ∨ (Rect.block (s := S1024x1024) S512x1024.size (cc28_transform_0 i) (hinb28_0 i)).WholeWords (EltTy.packing .bf16)
  hstage28_1 : ∀ j, (stage28_1 j).IsWhole
  nbuf28_1 : grid28.bufCount reads28_1 false = 2
  hreads28_1 : ∀ i i' : grid28.Coords, (∀ a, reads28_1 a = true → i a = i' a) → cc28_transform_1 i = cc28_transform_1 i'
  hinb28_1 : ∀ (i : grid28.Coords) a, (cc28_transform_1 i a + 1) * S1024x512.size a ≤ S1024x1024.size a
  hwx28_1 : ∀ i : grid28.Coords, EltTy.bits .bf16 = 32 ∨ (Rect.block (s := S1024x1024) S1024x512.size (cc28_transform_1 i) (hinb28_1 i)).WholeWords (EltTy.packing .bf16)
  hstage28_2 : ∀ j, (stage28_2 j).IsWhole
  nbuf28_2 : grid28.bufCount reads28_2 false = 2
  hreads28_2 : ∀ i i' : grid28.Coords, (∀ a, reads28_2 a = true → i a = i' a) → cc28_transform_2 i = cc28_transform_2 i'
  hinb28_2 : ∀ (i : grid28.Coords) a, (cc28_transform_2 i a + 1) * S1x512.size a ≤ S1x1024.size a
  hwx28_2 : ∀ i : grid28.Coords, EltTy.bits .f32 = 32 ∨ (Rect.block (s := S1x1024) S1x512.size (cc28_transform_2 i) (hinb28_2 i)).WholeWords (EltTy.packing .f32)
  hstage28_3 : ∀ j, (stage28_3 j).IsWhole
  nbuf28_3 : grid28.bufCount reads28_3 false = 2
  hreads28_3 : ∀ i i' : grid28.Coords, (∀ a, reads28_3 a = true → i a = i' a) → cc28_transform_3 i = cc28_transform_3 i'
  hinb28_3 : ∀ (i : grid28.Coords) a, (cc28_transform_3 i a + 1) * S512x512.size a ≤ S1024x1024.size a
  hwx28_3 : ∀ i : grid28.Coords, EltTy.bits .bf16 = 32 ∨ (Rect.block (s := S1024x1024) S512x512.size (cc28_transform_3 i) (hinb28_3 i)).WholeWords (EltTy.packing .bf16)
  hrank29 : 0 < grid29.rank
  hstage29_0 : ∀ j, (stage29_0 j).IsWhole
  nbuf29_0 : grid29.bufCount reads29_0 false = 2
  hreads29_0 : ∀ i i' : grid29.Coords, (∀ a, reads29_0 a = true → i a = i' a) → cc29_transform_0 i = cc29_transform_0 i'
  hinb29_0 : ∀ (i : grid29.Coords) a, (cc29_transform_0 i a + 1) * S512x1024.size a ≤ S1024x1024.size a
  hwx29_0 : ∀ i : grid29.Coords, EltTy.bits .bf16 = 32 ∨ (Rect.block (s := S1024x1024) S512x1024.size (cc29_transform_0 i) (hinb29_0 i)).WholeWords (EltTy.packing .bf16)
  hstage29_1 : ∀ j, (stage29_1 j).IsWhole
  nbuf29_1 : grid29.bufCount reads29_1 false = 2
  hreads29_1 : ∀ i i' : grid29.Coords, (∀ a, reads29_1 a = true → i a = i' a) → cc29_transform_1 i = cc29_transform_1 i'
  hinb29_1 : ∀ (i : grid29.Coords) a, (cc29_transform_1 i a + 1) * S1024x512.size a ≤ S1024x1024.size a
  hwx29_1 : ∀ i : grid29.Coords, EltTy.bits .bf16 = 32 ∨ (Rect.block (s := S1024x1024) S1024x512.size (cc29_transform_1 i) (hinb29_1 i)).WholeWords (EltTy.packing .bf16)
  hstage29_2 : ∀ j, (stage29_2 j).IsWhole
  nbuf29_2 : grid29.bufCount reads29_2 false = 2
  hreads29_2 : ∀ i i' : grid29.Coords, (∀ a, reads29_2 a = true → i a = i' a) → cc29_transform_2 i = cc29_transform_2 i'
  hinb29_2 : ∀ (i : grid29.Coords) a, (cc29_transform_2 i a + 1) * S1x512.size a ≤ S1x1024.size a
  hwx29_2 : ∀ i : grid29.Coords, EltTy.bits .f32 = 32 ∨ (Rect.block (s := S1x1024) S1x512.size (cc29_transform_2 i) (hinb29_2 i)).WholeWords (EltTy.packing .f32)
  hstage29_3 : ∀ j, (stage29_3 j).IsWhole
  nbuf29_3 : grid29.bufCount reads29_3 false = 2
  hreads29_3 : ∀ i i' : grid29.Coords, (∀ a, reads29_3 a = true → i a = i' a) → cc29_transform_3 i = cc29_transform_3 i'
  hinb29_3 : ∀ (i : grid29.Coords) a, (cc29_transform_3 i a + 1) * S512x512.size a ≤ S1024x1024.size a
  hwx29_3 : ∀ i : grid29.Coords, EltTy.bits .bf16 = 32 ∨ (Rect.block (s := S1024x1024) S512x512.size (cc29_transform_3 i) (hinb29_3 i)).WholeWords (EltTy.packing .bf16)
  hrank30 : 0 < grid30.rank
  hstage30_0 : ∀ j, (stage30_0 j).IsWhole
  nbuf30_0 : grid30.bufCount reads30_0 false = 2
  hreads30_0 : ∀ i i' : grid30.Coords, (∀ a, reads30_0 a = true → i a = i' a) → cc30_transform_0 i = cc30_transform_0 i'
  hinb30_0 : ∀ (i : grid30.Coords) a, (cc30_transform_0 i a + 1) * S512x1024.size a ≤ S1024x1024.size a
  hwx30_0 : ∀ i : grid30.Coords, EltTy.bits .bf16 = 32 ∨ (Rect.block (s := S1024x1024) S512x1024.size (cc30_transform_0 i) (hinb30_0 i)).WholeWords (EltTy.packing .bf16)
  hstage30_1 : ∀ j, (stage30_1 j).IsWhole
  nbuf30_1 : grid30.bufCount reads30_1 false = 2
  hreads30_1 : ∀ i i' : grid30.Coords, (∀ a, reads30_1 a = true → i a = i' a) → cc30_transform_1 i = cc30_transform_1 i'
  hinb30_1 : ∀ (i : grid30.Coords) a, (cc30_transform_1 i a + 1) * S1024x1024.size a ≤ S1024x4096.size a
  hwx30_1 : ∀ i : grid30.Coords, EltTy.bits .bf16 = 32 ∨ (Rect.block (s := S1024x4096) S1024x1024.size (cc30_transform_1 i) (hinb30_1 i)).WholeWords (EltTy.packing .bf16)
  hstage30_2 : ∀ j, (stage30_2 j).IsWhole
  nbuf30_2 : grid30.bufCount reads30_2 false = 2
  hreads30_2 : ∀ i i' : grid30.Coords, (∀ a, reads30_2 a = true → i a = i' a) → cc30_transform_2 i = cc30_transform_2 i'
  hinb30_2 : ∀ (i : grid30.Coords) a, (cc30_transform_2 i a + 1) * S512x1024.size a ≤ S1024x1024.size a
  hwx30_2 : ∀ i : grid30.Coords, EltTy.bits .bf16 = 32 ∨ (Rect.block (s := S1024x1024) S512x1024.size (cc30_transform_2 i) (hinb30_2 i)).WholeWords (EltTy.packing .bf16)
  hstage30_3 : ∀ j, (stage30_3 j).IsWhole
  nbuf30_3 : grid30.bufCount reads30_3 false = 2
  hreads30_3 : ∀ i i' : grid30.Coords, (∀ a, reads30_3 a = true → i a = i' a) → cc30_transform_3 i = cc30_transform_3 i'
  hinb30_3 : ∀ (i : grid30.Coords) a, (cc30_transform_3 i a + 1) * S1024x1024.size a ≤ S1024x4096.size a
  hwx30_3 : ∀ i : grid30.Coords, EltTy.bits .bf16 = 32 ∨ (Rect.block (s := S1024x4096) S1024x1024.size (cc30_transform_3 i) (hinb30_3 i)).WholeWords (EltTy.packing .bf16)
  hstage30_4 : ∀ j, (stage30_4 j).IsWhole
  nbuf30_4 : grid30.bufCount reads30_4 false = 2
  hreads30_4 : ∀ i i' : grid30.Coords, (∀ a, reads30_4 a = true → i a = i' a) → cc30_transform_4 i = cc30_transform_4 i'
  hinb30_4 : ∀ (i : grid30.Coords) a, (cc30_transform_4 i a + 1) * S1x1024.size a ≤ S1x4096.size a
  hwx30_4 : ∀ i : grid30.Coords, EltTy.bits .f32 = 32 ∨ (Rect.block (s := S1x4096) S1x1024.size (cc30_transform_4 i) (hinb30_4 i)).WholeWords (EltTy.packing .f32)
  hstage30_5 : ∀ j, (stage30_5 j).IsWhole
  nbuf30_5 : grid30.bufCount reads30_5 false = 2
  hreads30_5 : ∀ i i' : grid30.Coords, (∀ a, reads30_5 a = true → i a = i' a) → cc30_transform_5 i = cc30_transform_5 i'
  hinb30_5 : ∀ (i : grid30.Coords) a, (cc30_transform_5 i a + 1) * S512x1024.size a ≤ S1024x4096.size a
  hwx30_5 : ∀ i : grid30.Coords, EltTy.bits .f32 = 32 ∨ (Rect.block (s := S1024x4096) S512x1024.size (cc30_transform_5 i) (hinb30_5 i)).WholeWords (EltTy.packing .f32)
  hrank31 : 0 < grid31.rank
  hstage31_0 : ∀ j, (stage31_0 j).IsWhole
  nbuf31_0 : grid31.bufCount reads31_0 false = 2
  hreads31_0 : ∀ i i' : grid31.Coords, (∀ a, reads31_0 a = true → i a = i' a) → cc31_transform_0 i = cc31_transform_0 i'
  hinb31_0 : ∀ (i : grid31.Coords) a, (cc31_transform_0 i a + 1) * S512x1024.size a ≤ S1024x1024.size a
  hwx31_0 : ∀ i : grid31.Coords, EltTy.bits .bf16 = 32 ∨ (Rect.block (s := S1024x1024) S512x1024.size (cc31_transform_0 i) (hinb31_0 i)).WholeWords (EltTy.packing .bf16)
  hstage31_1 : ∀ j, (stage31_1 j).IsWhole
  nbuf31_1 : grid31.bufCount reads31_1 false = 2
  hreads31_1 : ∀ i i' : grid31.Coords, (∀ a, reads31_1 a = true → i a = i' a) → cc31_transform_1 i = cc31_transform_1 i'
  hinb31_1 : ∀ (i : grid31.Coords) a, (cc31_transform_1 i a + 1) * S1024x1024.size a ≤ S1024x4096.size a
  hwx31_1 : ∀ i : grid31.Coords, EltTy.bits .bf16 = 32 ∨ (Rect.block (s := S1024x4096) S1024x1024.size (cc31_transform_1 i) (hinb31_1 i)).WholeWords (EltTy.packing .bf16)
  hstage31_2 : ∀ j, (stage31_2 j).IsWhole
  nbuf31_2 : grid31.bufCount reads31_2 false = 2
  hreads31_2 : ∀ i i' : grid31.Coords, (∀ a, reads31_2 a = true → i a = i' a) → cc31_transform_2 i = cc31_transform_2 i'
  hinb31_2 : ∀ (i : grid31.Coords) a, (cc31_transform_2 i a + 1) * S1x1024.size a ≤ S1x4096.size a
  hwx31_2 : ∀ i : grid31.Coords, EltTy.bits .f32 = 32 ∨ (Rect.block (s := S1x4096) S1x1024.size (cc31_transform_2 i) (hinb31_2 i)).WholeWords (EltTy.packing .f32)
  hstage31_3 : ∀ j, (stage31_3 j).IsWhole
  nbuf31_3 : grid31.bufCount reads31_3 false = 2
  hreads31_3 : ∀ i i' : grid31.Coords, (∀ a, reads31_3 a = true → i a = i' a) → cc31_transform_3 i = cc31_transform_3 i'
  hinb31_3 : ∀ (i : grid31.Coords) a, (cc31_transform_3 i a + 1) * S512x1024.size a ≤ S1024x4096.size a
  hwx31_3 : ∀ i : grid31.Coords, EltTy.bits .f32 = 32 ∨ (Rect.block (s := S1024x4096) S512x1024.size (cc31_transform_3 i) (hinb31_3 i)).WholeWords (EltTy.packing .f32)
  hrank32 : 0 < grid32.rank
  hstage32_0 : ∀ j, (stage32_0 j).IsWhole
  nbuf32_0 : grid32.bufCount reads32_0 false = 2
  hreads32_0 : ∀ i i' : grid32.Coords, (∀ a, reads32_0 a = true → i a = i' a) → cc32_transform_0 i = cc32_transform_0 i'
  hinb32_0 : ∀ (i : grid32.Coords) a, (cc32_transform_0 i a + 1) * S512x4096.size a ≤ S1024x4096.size a
  hwx32_0 : ∀ i : grid32.Coords, EltTy.bits .bf16 = 32 ∨ (Rect.block (s := S1024x4096) S512x4096.size (cc32_transform_0 i) (hinb32_0 i)).WholeWords (EltTy.packing .bf16)
  hstage32_1 : ∀ j, (stage32_1 j).IsWhole
  nbuf32_1 : grid32.bufCount reads32_1 false = 2
  hreads32_1 : ∀ i i' : grid32.Coords, (∀ a, reads32_1 a = true → i a = i' a) → cc32_transform_1 i = cc32_transform_1 i'
  hinb32_1 : ∀ (i : grid32.Coords) a, (cc32_transform_1 i a + 1) * S4096x512.size a ≤ S4096x1024.size a
  hwx32_1 : ∀ i : grid32.Coords, EltTy.bits .bf16 = 32 ∨ (Rect.block (s := S4096x1024) S4096x512.size (cc32_transform_1 i) (hinb32_1 i)).WholeWords (EltTy.packing .bf16)
  hstage32_2 : ∀ j, (stage32_2 j).IsWhole
  nbuf32_2 : grid32.bufCount reads32_2 false = 2
  hreads32_2 : ∀ i i' : grid32.Coords, (∀ a, reads32_2 a = true → i a = i' a) → cc32_transform_2 i = cc32_transform_2 i'
  hinb32_2 : ∀ (i : grid32.Coords) a, (cc32_transform_2 i a + 1) * S1x512.size a ≤ S1x1024.size a
  hwx32_2 : ∀ i : grid32.Coords, EltTy.bits .f32 = 32 ∨ (Rect.block (s := S1x1024) S1x512.size (cc32_transform_2 i) (hinb32_2 i)).WholeWords (EltTy.packing .f32)
  hstage32_3 : ∀ j, (stage32_3 j).IsWhole
  nbuf32_3 : grid32.bufCount reads32_3 false = 2
  hreads32_3 : ∀ i i' : grid32.Coords, (∀ a, reads32_3 a = true → i a = i' a) → cc32_transform_3 i = cc32_transform_3 i'
  hinb32_3 : ∀ (i : grid32.Coords) a, (cc32_transform_3 i a + 1) * S512x512.size a ≤ S1024x1024.size a
  hwx32_3 : ∀ i : grid32.Coords, EltTy.bits .f32 = 32 ∨ (Rect.block (s := S1024x1024) S512x512.size (cc32_transform_3 i) (hinb32_3 i)).WholeWords (EltTy.packing .f32)
  hrank33 : 0 < grid33.rank
  hstage33_0 : ∀ j, (stage33_0 j).IsWhole
  nbuf33_0 : grid33.bufCount reads33_0 false = 2
  hreads33_0 : ∀ i i' : grid33.Coords, (∀ a, reads33_0 a = true → i a = i' a) → cc33_transform_0 i = cc33_transform_0 i'
  hinb33_0 : ∀ (i : grid33.Coords) a, (cc33_transform_0 i a + 1) * S512x4096.size a ≤ S1024x4096.size a
  hwx33_0 : ∀ i : grid33.Coords, EltTy.bits .bf16 = 32 ∨ (Rect.block (s := S1024x4096) S512x4096.size (cc33_transform_0 i) (hinb33_0 i)).WholeWords (EltTy.packing .bf16)
  hstage33_1 : ∀ j, (stage33_1 j).IsWhole
  nbuf33_1 : grid33.bufCount reads33_1 false = 2
  hreads33_1 : ∀ i i' : grid33.Coords, (∀ a, reads33_1 a = true → i a = i' a) → cc33_transform_1 i = cc33_transform_1 i'
  hinb33_1 : ∀ (i : grid33.Coords) a, (cc33_transform_1 i a + 1) * S4096x512.size a ≤ S4096x1024.size a
  hwx33_1 : ∀ i : grid33.Coords, EltTy.bits .bf16 = 32 ∨ (Rect.block (s := S4096x1024) S4096x512.size (cc33_transform_1 i) (hinb33_1 i)).WholeWords (EltTy.packing .bf16)
  hstage33_2 : ∀ j, (stage33_2 j).IsWhole
  nbuf33_2 : grid33.bufCount reads33_2 false = 2
  hreads33_2 : ∀ i i' : grid33.Coords, (∀ a, reads33_2 a = true → i a = i' a) → cc33_transform_2 i = cc33_transform_2 i'
  hinb33_2 : ∀ (i : grid33.Coords) a, (cc33_transform_2 i a + 1) * S1x512.size a ≤ S1x1024.size a
  hwx33_2 : ∀ i : grid33.Coords, EltTy.bits .f32 = 32 ∨ (Rect.block (s := S1x1024) S1x512.size (cc33_transform_2 i) (hinb33_2 i)).WholeWords (EltTy.packing .f32)
  hstage33_3 : ∀ j, (stage33_3 j).IsWhole
  nbuf33_3 : grid33.bufCount reads33_3 false = 2
  hreads33_3 : ∀ i i' : grid33.Coords, (∀ a, reads33_3 a = true → i a = i' a) → cc33_transform_3 i = cc33_transform_3 i'
  hinb33_3 : ∀ (i : grid33.Coords) a, (cc33_transform_3 i a + 1) * S512x512.size a ≤ S1024x1024.size a
  hwx33_3 : ∀ i : grid33.Coords, EltTy.bits .f32 = 32 ∨ (Rect.block (s := S1024x1024) S512x512.size (cc33_transform_3 i) (hinb33_3 i)).WholeWords (EltTy.packing .f32)

variable [Facts₀]

def dot_S512x1024_S1024x512_S512x512_1_0_0_1_n_n : DotDims S512x1024 S1024x512 S512x512 where
  lhsContracting := [1]
  rhsContracting := [0]
  lhsNonContracting := [0]
  rhsNonContracting := [1]
  lhsBatch := []
  rhsBatch := []
  wf := dot_S512x1024_S1024x512_S512x512_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S512x4096_S4096x512_S512x512_1_0_0_1_n_n : DotDims S512x4096 S4096x512 S512x512 where
  lhsContracting := [1]
  rhsContracting := [0]
  lhsNonContracting := [0]
  rhsNonContracting := [1]
  lhsBatch := []
  rhsBatch := []
  wf := dot_S512x4096_S4096x512_S512x512_1_0_0_1_n_n_wf

abbrev win0_0 : Pipeline.Window sig grid0 :=
  Pipeline.Window.ofSpec (Memref.whole main_call0_v15) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v17) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v20) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v21) S512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v21) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v10) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v22) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_call0_v23) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_call0_v11) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v6) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v24) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_call0_v25) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_call0_v23) S256x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v25) S256x4096.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v7) S4096x512.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_call0_v26) S1x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_call0_v27) S256x512.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_call0_v29) S512x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v31) S1024x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v34) S1x512.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_call0_v35) S512x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_call0_v27) S512x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v6) S1024x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_call0_v36) S1x1024.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_call0_v37) S512x1024.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_call0_v35) S512x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v37) S1024x1024.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_call0_v38) S1x1024.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_call0_v39) S512x1024.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_call0_v45) S512x1024.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_call0_v47) S1024x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_call0_v50) S1x512.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_call0_v51) S512x512.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_call0_v51) S512x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_call0_v43) S1024x1024.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_call0_v52) S1x1024.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_call0_v53) S512x1024.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_call0_v27) S512x1024.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_call0_v6) S1024x1024.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_call0_v54) S1x1024.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_call0_v55) S512x1024.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_call0_v53) S256x4096.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_call0_v55) S256x4096.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_call0_v7) S4096x512.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_call0_v56) S1x512.size cc10_transform_3 reads10_3 false false 2 stage10_3 sem10_3
    hrank10 hreads10_3 hinb10_3 nbuf10_3 (Memref.isWhole_whole _) hwx10_3 hstage10_3

abbrev win10_4 : Pipeline.Window sig grid10 :=
  Pipeline.Window.ofSpec (Memref.whole main_call0_v57) S256x512.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_call0_v59) S512x1024.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_call0_v61) S1024x512.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_call0_v64) S1x512.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_call0_v65) S512x512.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_call0_v57) S512x1024.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_call0_v6) S1024x1024.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_call0_v66) S1x1024.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_call0_v67) S512x1024.size cc12_transform_3 reads12_3 true false 2 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

abbrev win13_0 : Pipeline.Window sig grid13 :=
  Pipeline.Window.ofSpec (Memref.whole main_call0_v65) S512x1024.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_call0_v67) S1024x1024.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_call0_v68) S1x1024.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_call0_v69) S512x1024.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_call0_v75) S512x1024.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_call0_v77) S1024x512.size cc14_transform_1 reads14_1 false false 2 stage14_1 sem14_1
    hrank14 hreads14_1 hinb14_1 nbuf14_1 (Memref.isWhole_whole _) hwx14_1 hstage14_1

abbrev win14_2 : Pipeline.Window sig grid14 :=
  Pipeline.Window.ofSpec (Memref.whole main_call0_v80) S1x512.size cc14_transform_2 reads14_2 false false 2 stage14_2 sem14_2
    hrank14 hreads14_2 hinb14_2 nbuf14_2 (Memref.isWhole_whole _) hwx14_2 hstage14_2

abbrev win14_3 : Pipeline.Window sig grid14 :=
  Pipeline.Window.ofSpec (Memref.whole main_call0_v81) S512x512.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_call0_v81) S512x1024.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_call0_v73) S1024x1024.size cc15_transform_1 reads15_1 false false 2 stage15_1 sem15_1
    hrank15 hreads15_1 hinb15_1 nbuf15_1 (Memref.isWhole_whole _) hwx15_1 hstage15_1

abbrev win15_2 : Pipeline.Window sig grid15 :=
  Pipeline.Window.ofSpec (Memref.whole main_call0_v82) S1x1024.size cc15_transform_2 reads15_2 false false 2 stage15_2 sem15_2
    hrank15 hreads15_2 hinb15_2 nbuf15_2 (Memref.isWhole_whole _) hwx15_2 hstage15_2

abbrev win15_3 : Pipeline.Window sig grid15 :=
  Pipeline.Window.ofSpec (Memref.whole main_call0_v83) S512x1024.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_call0_v57) S512x1024.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_call0_v6) S1024x1024.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_call0_v84) S1x1024.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_call0_v85) S512x1024.size cc16_transform_3 reads16_3 true false 2 stage16_3 sem16_3
    hrank16 hreads16_3 hinb16_3 nbuf16_3 (Memref.isWhole_whole _) hwx16_3 hstage16_3

abbrev win16 : Fin 4 → Pipeline.Window sig grid16 := fun | 0 => win16_0 | 1 => win16_1 | 2 => win16_2 | 3 => win16_3 | ⟨_ + 4, h⟩ => absurd h (Nat.not_lt.2 (Nat.le_add_left _ _))
abbrev spec16 : Fin 4 → Pipeline.WinSpec sig grid16.rank := fun w => (win16 w).toWinSpec

abbrev win17_0 : Pipeline.Window sig grid17 :=
  Pipeline.Window.ofSpec (Memref.whole main_call0_v83) S256x4096.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_call0_v85) S256x4096.size cc17_transform_1 reads17_1 false false 2 stage17_1 sem17_1
    hrank17 hreads17_1 hinb17_1 nbuf17_1 (Memref.isWhole_whole _) hwx17_1 hstage17_1

abbrev win17_2 : Pipeline.Window sig grid17 :=
  Pipeline.Window.ofSpec (Memref.whole main_call0_v7) S4096x512.size cc17_transform_2 reads17_2 false false 2 stage17_2 sem17_2
    hrank17 hreads17_2 hinb17_2 nbuf17_2 (Memref.isWhole_whole _) hwx17_2 hstage17_2

abbrev win17_3 : Pipeline.Window sig grid17 :=
  Pipeline.Window.ofSpec (Memref.whole main_call0_v86) S1x512.size cc17_transform_3 reads17_3 false false 2 stage17_3 sem17_3
    hrank17 hreads17_3 hinb17_3 nbuf17_3 (Memref.isWhole_whole _) hwx17_3 hstage17_3

abbrev win17_4 : Pipeline.Window sig grid17 :=
  Pipeline.Window.ofSpec (Memref.whole main_call0_v87) S256x512.size cc17_transform_4 reads17_4 true false 2 stage17_4 sem17_4
    hrank17 hreads17_4 hinb17_4 nbuf17_4 (Memref.isWhole_whole _) hwx17_4 hstage17_4

abbrev win17 : Fin 5 → Pipeline.Window sig grid17 := fun | 0 => win17_0 | 1 => win17_1 | 2 => win17_2 | 3 => win17_3 | 4 => win17_4 | ⟨_ + 5, h⟩ => absurd h (Nat.not_lt.2 (Nat.le_add_left _ _))
abbrev spec17 : Fin 5 → Pipeline.WinSpec sig grid17.rank := fun w => (win17 w).toWinSpec

abbrev win18_0 : Pipeline.Window sig grid18 :=
  Pipeline.Window.ofSpec (Memref.whole main_call0_v87) S512x1024.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_call0_v6) S1024x1024.size cc18_transform_1 reads18_1 false false 2 stage18_1 sem18_1
    hrank18 hreads18_1 hinb18_1 nbuf18_1 (Memref.isWhole_whole _) hwx18_1 hstage18_1

abbrev win18_2 : Pipeline.Window sig grid18 :=
  Pipeline.Window.ofSpec (Memref.whole main_call0_v88) S1x1024.size cc18_transform_2 reads18_2 false false 2 stage18_2 sem18_2
    hrank18 hreads18_2 hinb18_2 nbuf18_2 (Memref.isWhole_whole _) hwx18_2 hstage18_2

abbrev win18_3 : Pipeline.Window sig grid18 :=
  Pipeline.Window.ofSpec (Memref.whole main_call0_v89) S512x1024.size cc18_transform_3 reads18_3 true false 2 stage18_3 sem18_3
    hrank18 hreads18_3 hinb18_3 nbuf18_3 (Memref.isWhole_whole _) hwx18_3 hstage18_3

abbrev win18 : Fin 4 → Pipeline.Window sig grid18 := fun | 0 => win18_0 | 1 => win18_1 | 2 => win18_2 | 3 => win18_3 | ⟨_ + 4, h⟩ => absurd h (Nat.not_lt.2 (Nat.le_add_left _ _))
abbrev spec18 : Fin 4 → Pipeline.WinSpec sig grid18.rank := fun w => (win18 w).toWinSpec

abbrev win19_0 : Pipeline.Window sig grid19 :=
  Pipeline.Window.ofSpec (Memref.whole main_call0_v91) S512x1024.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_call0_v93) S1024x512.size cc19_transform_1 reads19_1 false false 2 stage19_1 sem19_1
    hrank19 hreads19_1 hinb19_1 nbuf19_1 (Memref.isWhole_whole _) hwx19_1 hstage19_1

abbrev win19_2 : Pipeline.Window sig grid19 :=
  Pipeline.Window.ofSpec (Memref.whole main_call0_v96) S1x512.size cc19_transform_2 reads19_2 false false 2 stage19_2 sem19_2
    hrank19 hreads19_2 hinb19_2 nbuf19_2 (Memref.isWhole_whole _) hwx19_2 hstage19_2

abbrev win19_3 : Pipeline.Window sig grid19 :=
  Pipeline.Window.ofSpec (Memref.whole main_call0_v97) S512x512.size cc19_transform_3 reads19_3 true false 2 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

abbrev win20_0 : Pipeline.Window sig grid20 :=
  Pipeline.Window.ofSpec (Memref.whole main_call0_v99) S512x1024.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_call0_v101) S1024x512.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_call0_v104) S1x512.size cc20_transform_2 reads20_2 false false 2 stage20_2 sem20_2
    hrank20 hreads20_2 hinb20_2 nbuf20_2 (Memref.isWhole_whole _) hwx20_2 hstage20_2

abbrev win20_3 : Pipeline.Window sig grid20 :=
  Pipeline.Window.ofSpec (Memref.whole main_call0_v105) S512x512.size cc20_transform_3 reads20_3 true false 2 stage20_3 sem20_3
    hrank20 hreads20_3 hinb20_3 nbuf20_3 (Memref.isWhole_whole _) hwx20_3 hstage20_3

abbrev win20 : Fin 4 → Pipeline.Window sig grid20 := fun | 0 => win20_0 | 1 => win20_1 | 2 => win20_2 | 3 => win20_3 | ⟨_ + 4, h⟩ => absurd h (Nat.not_lt.2 (Nat.le_add_left _ _))
abbrev spec20 : Fin 4 → Pipeline.WinSpec sig grid20.rank := fun w => (win20 w).toWinSpec

abbrev win21_0 : Pipeline.Window sig grid21 :=
  Pipeline.Window.ofSpec (Memref.whole main_call0_v97) S512x1024.size cc21_transform_0 reads21_0 false false 2 stage21_0 sem21_0
    hrank21 hreads21_0 hinb21_0 nbuf21_0 (Memref.isWhole_whole _) hwx21_0 hstage21_0

abbrev win21_1 : Pipeline.Window sig grid21 :=
  Pipeline.Window.ofSpec (Memref.whole main_call0_v73) S1024x1024.size cc21_transform_1 reads21_1 false false 2 stage21_1 sem21_1
    hrank21 hreads21_1 hinb21_1 nbuf21_1 (Memref.isWhole_whole _) hwx21_1 hstage21_1

abbrev win21_2 : Pipeline.Window sig grid21 :=
  Pipeline.Window.ofSpec (Memref.whole main_call0_v105) S512x1024.size cc21_transform_2 reads21_2 false false 2 stage21_2 sem21_2
    hrank21 hreads21_2 hinb21_2 nbuf21_2 (Memref.isWhole_whole _) hwx21_2 hstage21_2

abbrev win21_3 : Pipeline.Window sig grid21 :=
  Pipeline.Window.ofSpec (Memref.whole main_call0_v89) S1024x1024.size cc21_transform_3 reads21_3 false false 2 stage21_3 sem21_3
    hrank21 hreads21_3 hinb21_3 nbuf21_3 (Memref.isWhole_whole _) hwx21_3 hstage21_3

abbrev win21_4 : Pipeline.Window sig grid21 :=
  Pipeline.Window.ofSpec (Memref.whole main_call0_v108) S1x1024.size cc21_transform_4 reads21_4 false false 2 stage21_4 sem21_4
    hrank21 hreads21_4 hinb21_4 nbuf21_4 (Memref.isWhole_whole _) hwx21_4 hstage21_4

abbrev win21_5 : Pipeline.Window sig grid21 :=
  Pipeline.Window.ofSpec (Memref.whole main_call0_v109) S512x1024.size cc21_transform_5 reads21_5 true false 2 stage21_5 sem21_5
    hrank21 hreads21_5 hinb21_5 nbuf21_5 (Memref.isWhole_whole _) hwx21_5 hstage21_5

abbrev win21 : Fin 6 → Pipeline.Window sig grid21 := fun | 0 => win21_0 | 1 => win21_1 | 2 => win21_2 | 3 => win21_3 | 4 => win21_4 | 5 => win21_5 | ⟨_ + 6, h⟩ => absurd h (Nat.not_lt.2 (Nat.le_add_left _ _))
abbrev spec21 : Fin 6 → Pipeline.WinSpec sig grid21.rank := fun w => (win21 w).toWinSpec

abbrev win22_0 : Pipeline.Window sig grid22 :=
  Pipeline.Window.ofSpec (Memref.whole main_call0_v111) S512x1024.size cc22_transform_0 reads22_0 false false 2 stage22_0 sem22_0
    hrank22 hreads22_0 hinb22_0 nbuf22_0 (Memref.isWhole_whole _) hwx22_0 hstage22_0

abbrev win22_1 : Pipeline.Window sig grid22 :=
  Pipeline.Window.ofSpec (Memref.whole main_call0_v113) S1024x512.size cc22_transform_1 reads22_1 false false 2 stage22_1 sem22_1
    hrank22 hreads22_1 hinb22_1 nbuf22_1 (Memref.isWhole_whole _) hwx22_1 hstage22_1

abbrev win22_2 : Pipeline.Window sig grid22 :=
  Pipeline.Window.ofSpec (Memref.whole main_call0_v116) S1x512.size cc22_transform_2 reads22_2 false false 2 stage22_2 sem22_2
    hrank22 hreads22_2 hinb22_2 nbuf22_2 (Memref.isWhole_whole _) hwx22_2 hstage22_2

abbrev win22_3 : Pipeline.Window sig grid22 :=
  Pipeline.Window.ofSpec (Memref.whole main_call0_v117) S512x512.size cc22_transform_3 reads22_3 true false 2 stage22_3 sem22_3
    hrank22 hreads22_3 hinb22_3 nbuf22_3 (Memref.isWhole_whole _) hwx22_3 hstage22_3

abbrev win22 : Fin 4 → Pipeline.Window sig grid22 := fun | 0 => win22_0 | 1 => win22_1 | 2 => win22_2 | 3 => win22_3 | ⟨_ + 4, h⟩ => absurd h (Nat.not_lt.2 (Nat.le_add_left _ _))
abbrev spec22 : Fin 4 → Pipeline.WinSpec sig grid22.rank := fun w => (win22 w).toWinSpec

abbrev win23_0 : Pipeline.Window sig grid23 :=
  Pipeline.Window.ofSpec (Memref.whole main_call0_v119) S512x1024.size cc23_transform_0 reads23_0 false false 2 stage23_0 sem23_0
    hrank23 hreads23_0 hinb23_0 nbuf23_0 (Memref.isWhole_whole _) hwx23_0 hstage23_0

abbrev win23_1 : Pipeline.Window sig grid23 :=
  Pipeline.Window.ofSpec (Memref.whole main_call0_v121) S1024x512.size cc23_transform_1 reads23_1 false false 2 stage23_1 sem23_1
    hrank23 hreads23_1 hinb23_1 nbuf23_1 (Memref.isWhole_whole _) hwx23_1 hstage23_1

abbrev win23_2 : Pipeline.Window sig grid23 :=
  Pipeline.Window.ofSpec (Memref.whole main_call0_v124) S1x512.size cc23_transform_2 reads23_2 false false 2 stage23_2 sem23_2
    hrank23 hreads23_2 hinb23_2 nbuf23_2 (Memref.isWhole_whole _) hwx23_2 hstage23_2

abbrev win23_3 : Pipeline.Window sig grid23 :=
  Pipeline.Window.ofSpec (Memref.whole main_call0_v125) S512x512.size cc23_transform_3 reads23_3 true false 2 stage23_3 sem23_3
    hrank23 hreads23_3 hinb23_3 nbuf23_3 (Memref.isWhole_whole _) hwx23_3 hstage23_3

abbrev win23 : Fin 4 → Pipeline.Window sig grid23 := fun | 0 => win23_0 | 1 => win23_1 | 2 => win23_2 | 3 => win23_3 | ⟨_ + 4, h⟩ => absurd h (Nat.not_lt.2 (Nat.le_add_left _ _))
abbrev spec23 : Fin 4 → Pipeline.WinSpec sig grid23.rank := fun w => (win23 w).toWinSpec

abbrev win24_0 : Pipeline.Window sig grid24 :=
  Pipeline.Window.ofSpec (Memref.whole main_call0_v117) S512x1024.size cc24_transform_0 reads24_0 false false 2 stage24_0 sem24_0
    hrank24 hreads24_0 hinb24_0 nbuf24_0 (Memref.isWhole_whole _) hwx24_0 hstage24_0

abbrev win24_1 : Pipeline.Window sig grid24 :=
  Pipeline.Window.ofSpec (Memref.whole main_call0_v73) S1024x1024.size cc24_transform_1 reads24_1 false false 2 stage24_1 sem24_1
    hrank24 hreads24_1 hinb24_1 nbuf24_1 (Memref.isWhole_whole _) hwx24_1 hstage24_1

abbrev win24_2 : Pipeline.Window sig grid24 :=
  Pipeline.Window.ofSpec (Memref.whole main_call0_v125) S512x1024.size cc24_transform_2 reads24_2 false false 2 stage24_2 sem24_2
    hrank24 hreads24_2 hinb24_2 nbuf24_2 (Memref.isWhole_whole _) hwx24_2 hstage24_2

abbrev win24_3 : Pipeline.Window sig grid24 :=
  Pipeline.Window.ofSpec (Memref.whole main_call0_v89) S1024x1024.size cc24_transform_3 reads24_3 false false 2 stage24_3 sem24_3
    hrank24 hreads24_3 hinb24_3 nbuf24_3 (Memref.isWhole_whole _) hwx24_3 hstage24_3

abbrev win24_4 : Pipeline.Window sig grid24 :=
  Pipeline.Window.ofSpec (Memref.whole main_call0_v128) S1x1024.size cc24_transform_4 reads24_4 false false 2 stage24_4 sem24_4
    hrank24 hreads24_4 hinb24_4 nbuf24_4 (Memref.isWhole_whole _) hwx24_4 hstage24_4

abbrev win24_5 : Pipeline.Window sig grid24 :=
  Pipeline.Window.ofSpec (Memref.whole main_call0_v129) S512x1024.size cc24_transform_5 reads24_5 true false 2 stage24_5 sem24_5
    hrank24 hreads24_5 hinb24_5 nbuf24_5 (Memref.isWhole_whole _) hwx24_5 hstage24_5

abbrev win24 : Fin 6 → Pipeline.Window sig grid24 := fun | 0 => win24_0 | 1 => win24_1 | 2 => win24_2 | 3 => win24_3 | 4 => win24_4 | 5 => win24_5 | ⟨_ + 6, h⟩ => absurd h (Nat.not_lt.2 (Nat.le_add_left _ _))
abbrev spec24 : Fin 6 → Pipeline.WinSpec sig grid24.rank := fun w => (win24 w).toWinSpec

abbrev win25_0 : Pipeline.Window sig grid25 :=
  Pipeline.Window.ofSpec (Memref.whole main_call0_v131) S512x1024.size cc25_transform_0 reads25_0 false false 2 stage25_0 sem25_0
    hrank25 hreads25_0 hinb25_0 nbuf25_0 (Memref.isWhole_whole _) hwx25_0 hstage25_0

abbrev win25_1 : Pipeline.Window sig grid25 :=
  Pipeline.Window.ofSpec (Memref.whole main_call0_v133) S1024x512.size cc25_transform_1 reads25_1 false false 2 stage25_1 sem25_1
    hrank25 hreads25_1 hinb25_1 nbuf25_1 (Memref.isWhole_whole _) hwx25_1 hstage25_1

abbrev win25_2 : Pipeline.Window sig grid25 :=
  Pipeline.Window.ofSpec (Memref.whole main_call0_v136) S1x512.size cc25_transform_2 reads25_2 false false 2 stage25_2 sem25_2
    hrank25 hreads25_2 hinb25_2 nbuf25_2 (Memref.isWhole_whole _) hwx25_2 hstage25_2

abbrev win25_3 : Pipeline.Window sig grid25 :=
  Pipeline.Window.ofSpec (Memref.whole main_call0_v137) S512x512.size cc25_transform_3 reads25_3 true false 2 stage25_3 sem25_3
    hrank25 hreads25_3 hinb25_3 nbuf25_3 (Memref.isWhole_whole _) hwx25_3 hstage25_3

abbrev win25 : Fin 4 → Pipeline.Window sig grid25 := fun | 0 => win25_0 | 1 => win25_1 | 2 => win25_2 | 3 => win25_3 | ⟨_ + 4, h⟩ => absurd h (Nat.not_lt.2 (Nat.le_add_left _ _))
abbrev spec25 : Fin 4 → Pipeline.WinSpec sig grid25.rank := fun w => (win25 w).toWinSpec

abbrev win26_0 : Pipeline.Window sig grid26 :=
  Pipeline.Window.ofSpec (Memref.whole main_call0_v139) S512x1024.size cc26_transform_0 reads26_0 false false 2 stage26_0 sem26_0
    hrank26 hreads26_0 hinb26_0 nbuf26_0 (Memref.isWhole_whole _) hwx26_0 hstage26_0

abbrev win26_1 : Pipeline.Window sig grid26 :=
  Pipeline.Window.ofSpec (Memref.whole main_call0_v141) S1024x512.size cc26_transform_1 reads26_1 false false 2 stage26_1 sem26_1
    hrank26 hreads26_1 hinb26_1 nbuf26_1 (Memref.isWhole_whole _) hwx26_1 hstage26_1

abbrev win26_2 : Pipeline.Window sig grid26 :=
  Pipeline.Window.ofSpec (Memref.whole main_call0_v144) S1x512.size cc26_transform_2 reads26_2 false false 2 stage26_2 sem26_2
    hrank26 hreads26_2 hinb26_2 nbuf26_2 (Memref.isWhole_whole _) hwx26_2 hstage26_2

abbrev win26_3 : Pipeline.Window sig grid26 :=
  Pipeline.Window.ofSpec (Memref.whole main_call0_v145) S512x512.size cc26_transform_3 reads26_3 true false 2 stage26_3 sem26_3
    hrank26 hreads26_3 hinb26_3 nbuf26_3 (Memref.isWhole_whole _) hwx26_3 hstage26_3

abbrev win26 : Fin 4 → Pipeline.Window sig grid26 := fun | 0 => win26_0 | 1 => win26_1 | 2 => win26_2 | 3 => win26_3 | ⟨_ + 4, h⟩ => absurd h (Nat.not_lt.2 (Nat.le_add_left _ _))
abbrev spec26 : Fin 4 → Pipeline.WinSpec sig grid26.rank := fun w => (win26 w).toWinSpec

abbrev win27_0 : Pipeline.Window sig grid27 :=
  Pipeline.Window.ofSpec (Memref.whole main_call0_v137) S512x1024.size cc27_transform_0 reads27_0 false false 2 stage27_0 sem27_0
    hrank27 hreads27_0 hinb27_0 nbuf27_0 (Memref.isWhole_whole _) hwx27_0 hstage27_0

abbrev win27_1 : Pipeline.Window sig grid27 :=
  Pipeline.Window.ofSpec (Memref.whole main_call0_v73) S1024x1024.size cc27_transform_1 reads27_1 false false 2 stage27_1 sem27_1
    hrank27 hreads27_1 hinb27_1 nbuf27_1 (Memref.isWhole_whole _) hwx27_1 hstage27_1

abbrev win27_2 : Pipeline.Window sig grid27 :=
  Pipeline.Window.ofSpec (Memref.whole main_call0_v145) S512x1024.size cc27_transform_2 reads27_2 false false 2 stage27_2 sem27_2
    hrank27 hreads27_2 hinb27_2 nbuf27_2 (Memref.isWhole_whole _) hwx27_2 hstage27_2

abbrev win27_3 : Pipeline.Window sig grid27 :=
  Pipeline.Window.ofSpec (Memref.whole main_call0_v89) S1024x1024.size cc27_transform_3 reads27_3 false false 2 stage27_3 sem27_3
    hrank27 hreads27_3 hinb27_3 nbuf27_3 (Memref.isWhole_whole _) hwx27_3 hstage27_3

abbrev win27_4 : Pipeline.Window sig grid27 :=
  Pipeline.Window.ofSpec (Memref.whole main_call0_v148) S1x1024.size cc27_transform_4 reads27_4 false false 2 stage27_4 sem27_4
    hrank27 hreads27_4 hinb27_4 nbuf27_4 (Memref.isWhole_whole _) hwx27_4 hstage27_4

abbrev win27_5 : Pipeline.Window sig grid27 :=
  Pipeline.Window.ofSpec (Memref.whole main_call0_v149) S512x1024.size cc27_transform_5 reads27_5 true false 2 stage27_5 sem27_5
    hrank27 hreads27_5 hinb27_5 nbuf27_5 (Memref.isWhole_whole _) hwx27_5 hstage27_5

abbrev win27 : Fin 6 → Pipeline.Window sig grid27 := fun | 0 => win27_0 | 1 => win27_1 | 2 => win27_2 | 3 => win27_3 | 4 => win27_4 | 5 => win27_5 | ⟨_ + 6, h⟩ => absurd h (Nat.not_lt.2 (Nat.le_add_left _ _))
abbrev spec27 : Fin 6 → Pipeline.WinSpec sig grid27.rank := fun w => (win27 w).toWinSpec

abbrev win28_0 : Pipeline.Window sig grid28 :=
  Pipeline.Window.ofSpec (Memref.whole main_call0_v151) S512x1024.size cc28_transform_0 reads28_0 false false 2 stage28_0 sem28_0
    hrank28 hreads28_0 hinb28_0 nbuf28_0 (Memref.isWhole_whole _) hwx28_0 hstage28_0

abbrev win28_1 : Pipeline.Window sig grid28 :=
  Pipeline.Window.ofSpec (Memref.whole main_call0_v153) S1024x512.size cc28_transform_1 reads28_1 false false 2 stage28_1 sem28_1
    hrank28 hreads28_1 hinb28_1 nbuf28_1 (Memref.isWhole_whole _) hwx28_1 hstage28_1

abbrev win28_2 : Pipeline.Window sig grid28 :=
  Pipeline.Window.ofSpec (Memref.whole main_call0_v156) S1x512.size cc28_transform_2 reads28_2 false false 2 stage28_2 sem28_2
    hrank28 hreads28_2 hinb28_2 nbuf28_2 (Memref.isWhole_whole _) hwx28_2 hstage28_2

abbrev win28_3 : Pipeline.Window sig grid28 :=
  Pipeline.Window.ofSpec (Memref.whole main_call0_v157) S512x512.size cc28_transform_3 reads28_3 true false 2 stage28_3 sem28_3
    hrank28 hreads28_3 hinb28_3 nbuf28_3 (Memref.isWhole_whole _) hwx28_3 hstage28_3

abbrev win28 : Fin 4 → Pipeline.Window sig grid28 := fun | 0 => win28_0 | 1 => win28_1 | 2 => win28_2 | 3 => win28_3 | ⟨_ + 4, h⟩ => absurd h (Nat.not_lt.2 (Nat.le_add_left _ _))
abbrev spec28 : Fin 4 → Pipeline.WinSpec sig grid28.rank := fun w => (win28 w).toWinSpec

abbrev win29_0 : Pipeline.Window sig grid29 :=
  Pipeline.Window.ofSpec (Memref.whole main_call0_v159) S512x1024.size cc29_transform_0 reads29_0 false false 2 stage29_0 sem29_0
    hrank29 hreads29_0 hinb29_0 nbuf29_0 (Memref.isWhole_whole _) hwx29_0 hstage29_0

abbrev win29_1 : Pipeline.Window sig grid29 :=
  Pipeline.Window.ofSpec (Memref.whole main_call0_v161) S1024x512.size cc29_transform_1 reads29_1 false false 2 stage29_1 sem29_1
    hrank29 hreads29_1 hinb29_1 nbuf29_1 (Memref.isWhole_whole _) hwx29_1 hstage29_1

abbrev win29_2 : Pipeline.Window sig grid29 :=
  Pipeline.Window.ofSpec (Memref.whole main_call0_v164) S1x512.size cc29_transform_2 reads29_2 false false 2 stage29_2 sem29_2
    hrank29 hreads29_2 hinb29_2 nbuf29_2 (Memref.isWhole_whole _) hwx29_2 hstage29_2

abbrev win29_3 : Pipeline.Window sig grid29 :=
  Pipeline.Window.ofSpec (Memref.whole main_call0_v165) S512x512.size cc29_transform_3 reads29_3 true false 2 stage29_3 sem29_3
    hrank29 hreads29_3 hinb29_3 nbuf29_3 (Memref.isWhole_whole _) hwx29_3 hstage29_3

abbrev win29 : Fin 4 → Pipeline.Window sig grid29 := fun | 0 => win29_0 | 1 => win29_1 | 2 => win29_2 | 3 => win29_3 | ⟨_ + 4, h⟩ => absurd h (Nat.not_lt.2 (Nat.le_add_left _ _))
abbrev spec29 : Fin 4 → Pipeline.WinSpec sig grid29.rank := fun w => (win29 w).toWinSpec

abbrev win30_0 : Pipeline.Window sig grid30 :=
  Pipeline.Window.ofSpec (Memref.whole main_call0_v157) S512x1024.size cc30_transform_0 reads30_0 false false 2 stage30_0 sem30_0
    hrank30 hreads30_0 hinb30_0 nbuf30_0 (Memref.isWhole_whole _) hwx30_0 hstage30_0

abbrev win30_1 : Pipeline.Window sig grid30 :=
  Pipeline.Window.ofSpec (Memref.whole main_call0_v73) S1024x1024.size cc30_transform_1 reads30_1 false false 2 stage30_1 sem30_1
    hrank30 hreads30_1 hinb30_1 nbuf30_1 (Memref.isWhole_whole _) hwx30_1 hstage30_1

abbrev win30_2 : Pipeline.Window sig grid30 :=
  Pipeline.Window.ofSpec (Memref.whole main_call0_v165) S512x1024.size cc30_transform_2 reads30_2 false false 2 stage30_2 sem30_2
    hrank30 hreads30_2 hinb30_2 nbuf30_2 (Memref.isWhole_whole _) hwx30_2 hstage30_2

abbrev win30_3 : Pipeline.Window sig grid30 :=
  Pipeline.Window.ofSpec (Memref.whole main_call0_v89) S1024x1024.size cc30_transform_3 reads30_3 false false 2 stage30_3 sem30_3
    hrank30 hreads30_3 hinb30_3 nbuf30_3 (Memref.isWhole_whole _) hwx30_3 hstage30_3

abbrev win30_4 : Pipeline.Window sig grid30 :=
  Pipeline.Window.ofSpec (Memref.whole main_call0_v168) S1x1024.size cc30_transform_4 reads30_4 false false 2 stage30_4 sem30_4
    hrank30 hreads30_4 hinb30_4 nbuf30_4 (Memref.isWhole_whole _) hwx30_4 hstage30_4

abbrev win30_5 : Pipeline.Window sig grid30 :=
  Pipeline.Window.ofSpec (Memref.whole main_v0_0) S512x1024.size cc30_transform_5 reads30_5 true false 2 stage30_5 sem30_5
    hrank30 hreads30_5 hinb30_5 nbuf30_5 (Memref.isWhole_whole _) hwx30_5 hstage30_5

abbrev win30 : Fin 6 → Pipeline.Window sig grid30 := fun | 0 => win30_0 | 1 => win30_1 | 2 => win30_2 | 3 => win30_3 | 4 => win30_4 | 5 => win30_5 | ⟨_ + 6, h⟩ => absurd h (Nat.not_lt.2 (Nat.le_add_left _ _))
abbrev spec30 : Fin 6 → Pipeline.WinSpec sig grid30.rank := fun w => (win30 w).toWinSpec

abbrev win31_0 : Pipeline.Window sig grid31 :=
  Pipeline.Window.ofSpec (Memref.whole main_call0_v12) S512x1024.size cc31_transform_0 reads31_0 false false 2 stage31_0 sem31_0
    hrank31 hreads31_0 hinb31_0 nbuf31_0 (Memref.isWhole_whole _) hwx31_0 hstage31_0

abbrev win31_1 : Pipeline.Window sig grid31 :=
  Pipeline.Window.ofSpec (Memref.whole main_call0_v8) S1024x1024.size cc31_transform_1 reads31_1 false false 2 stage31_1 sem31_1
    hrank31 hreads31_1 hinb31_1 nbuf31_1 (Memref.isWhole_whole _) hwx31_1 hstage31_1

abbrev win31_2 : Pipeline.Window sig grid31 :=
  Pipeline.Window.ofSpec (Memref.whole main_call0_v170) S1x1024.size cc31_transform_2 reads31_2 false false 2 stage31_2 sem31_2
    hrank31 hreads31_2 hinb31_2 nbuf31_2 (Memref.isWhole_whole _) hwx31_2 hstage31_2

abbrev win31_3 : Pipeline.Window sig grid31 :=
  Pipeline.Window.ofSpec (Memref.whole main_call0_v171) S512x1024.size cc31_transform_3 reads31_3 true false 2 stage31_3 sem31_3
    hrank31 hreads31_3 hinb31_3 nbuf31_3 (Memref.isWhole_whole _) hwx31_3 hstage31_3

abbrev win31 : Fin 4 → Pipeline.Window sig grid31 := fun | 0 => win31_0 | 1 => win31_1 | 2 => win31_2 | 3 => win31_3 | ⟨_ + 4, h⟩ => absurd h (Nat.not_lt.2 (Nat.le_add_left _ _))
abbrev spec31 : Fin 4 → Pipeline.WinSpec sig grid31.rank := fun w => (win31 w).toWinSpec

abbrev win32_0 : Pipeline.Window sig grid32 :=
  Pipeline.Window.ofSpec (Memref.whole main_call0_v177) S512x4096.size cc32_transform_0 reads32_0 false false 2 stage32_0 sem32_0
    hrank32 hreads32_0 hinb32_0 nbuf32_0 (Memref.isWhole_whole _) hwx32_0 hstage32_0

abbrev win32_1 : Pipeline.Window sig grid32 :=
  Pipeline.Window.ofSpec (Memref.whole main_call0_v7) S4096x512.size cc32_transform_1 reads32_1 false false 2 stage32_1 sem32_1
    hrank32 hreads32_1 hinb32_1 nbuf32_1 (Memref.isWhole_whole _) hwx32_1 hstage32_1

abbrev win32_2 : Pipeline.Window sig grid32 :=
  Pipeline.Window.ofSpec (Memref.whole main_call0_v179) S1x512.size cc32_transform_2 reads32_2 false false 2 stage32_2 sem32_2
    hrank32 hreads32_2 hinb32_2 nbuf32_2 (Memref.isWhole_whole _) hwx32_2 hstage32_2

abbrev win32_3 : Pipeline.Window sig grid32 :=
  Pipeline.Window.ofSpec (Memref.whole main_v0_1) S512x512.size cc32_transform_3 reads32_3 true false 2 stage32_3 sem32_3
    hrank32 hreads32_3 hinb32_3 nbuf32_3 (Memref.isWhole_whole _) hwx32_3 hstage32_3

abbrev win32 : Fin 4 → Pipeline.Window sig grid32 := fun | 0 => win32_0 | 1 => win32_1 | 2 => win32_2 | 3 => win32_3 | ⟨_ + 4, h⟩ => absurd h (Nat.not_lt.2 (Nat.le_add_left _ _))
abbrev spec32 : Fin 4 → Pipeline.WinSpec sig grid32.rank := fun w => (win32 w).toWinSpec

abbrev win33_0 : Pipeline.Window sig grid33 :=
  Pipeline.Window.ofSpec (Memref.whole main_call0_v178) S512x4096.size cc33_transform_0 reads33_0 false false 2 stage33_0 sem33_0
    hrank33 hreads33_0 hinb33_0 nbuf33_0 (Memref.isWhole_whole _) hwx33_0 hstage33_0

abbrev win33_1 : Pipeline.Window sig grid33 :=
  Pipeline.Window.ofSpec (Memref.whole main_call0_v9) S4096x512.size cc33_transform_1 reads33_1 false false 2 stage33_1 sem33_1
    hrank33 hreads33_1 hinb33_1 nbuf33_1 (Memref.isWhole_whole _) hwx33_1 hstage33_1

abbrev win33_2 : Pipeline.Window sig grid33 :=
  Pipeline.Window.ofSpec (Memref.whole main_call0_v181) S1x512.size cc33_transform_2 reads33_2 false false 2 stage33_2 sem33_2
    hrank33 hreads33_2 hinb33_2 nbuf33_2 (Memref.isWhole_whole _) hwx33_2 hstage33_2

abbrev win33_3 : Pipeline.Window sig grid33 :=
  Pipeline.Window.ofSpec (Memref.whole main_v0_2) S512x512.size cc33_transform_3 reads33_3 true false 2 stage33_3 sem33_3
    hrank33 hreads33_3 hinb33_3 nbuf33_3 (Memref.isWhole_whole _) hwx33_3 hstage33_3

abbrev win33 : Fin 4 → Pipeline.Window sig grid33 := fun | 0 => win33_0 | 1 => win33_1 | 2 => win33_2 | 3 => win33_3 | ⟨_ + 4, h⟩ => absurd h (Nat.not_lt.2 (Nat.le_add_left _ _))
abbrev spec33 : Fin 4 → Pipeline.WinSpec sig grid33.rank := fun w => (win33 w).toWinSpec

class Facts : Prop extends Facts₀ where

variable [Facts]
-- ==== ReferenceIdeal.lean ====
abbrev S1024x4096 : Shape := ⟨2, ![1024, 4096]⟩
abbrev S4x1024x1024 : Shape := ⟨3, ![4, 1024, 1024]⟩
abbrev S4x4096 : Shape := ⟨2, ![4, 4096]⟩
abbrev S4x1024 : Shape := ⟨2, ![4, 1024]⟩
abbrev S5x1024x1024 : Shape := ⟨3, ![5, 1024, 1024]⟩
abbrev S5x1024 : Shape := ⟨2, ![5, 1024]⟩
abbrev S4096 : Shape := ⟨1, ![4096]⟩
abbrev S4096x1024 : Shape := ⟨2, ![4096, 1024]⟩
abbrev S1024 : Shape := ⟨1, ![1024]⟩
abbrev S1024x1024 : Shape := ⟨2, ![1024, 1024]⟩
abbrev S1x1024x1024 : Shape := ⟨3, ![1, 1024, 1024]⟩
abbrev S1x1024 : Shape := ⟨2, ![1, 1024]⟩
abbrev S_ : Shape := ⟨0, ![]⟩
abbrev S1x4096 : Shape := ⟨2, ![1, 4096]⟩

abbrev nBuf : Space → Nat
  | .hbm => 326
  | .vmem => 0
  | .smem => 0
  | _ => 0

abbrev hbmTy0_0 (i : Nat) : BufTy := match i % 128 with
  | 0 => ⟨S1024x4096, .f32⟩
  | 1 => ⟨S4x1024x1024, .f32⟩
  | 2 => ⟨S4x1024x1024, .f32⟩
  | 3 => ⟨S4x4096, .f32⟩
  | 4 => ⟨S4x1024x1024, .f32⟩
  | 5 => ⟨S4x1024, .f32⟩
  | 6 => ⟨S4x1024x1024, .f32⟩
  | 7 => ⟨S4x1024, .f32⟩
  | 8 => ⟨S5x1024x1024, .f32⟩
  | 9 => ⟨S5x1024x1024, .f32⟩
  | 10 => ⟨S5x1024, .f32⟩
  | 11 => ⟨S1024x4096, .f32⟩
  | 12 => ⟨S4096, .f32⟩
  | 13 => ⟨S4096x1024, .f32⟩
  | 14 => ⟨S1024, .f32⟩
  | 15 => ⟨S1024x4096, .f32⟩
  | 16 => ⟨S4096, .f32⟩
  | 17 => ⟨S4096x1024, .f32⟩
  | 18 => ⟨S1024, .f32⟩
  | 19 => ⟨S1024x1024, .f32⟩
  | 20 => ⟨S1024x1024, .f32⟩
  | 21 => ⟨S1x1024x1024, .f32⟩
  | 22 => ⟨S1024x1024, .f32⟩
  | 23 => ⟨S1x1024x1024, .f32⟩
  | 24 => ⟨S1024x1024, .f32⟩
  | 25 => ⟨S1x1024, .f32⟩
  | 26 => ⟨S1024, .f32⟩
  | 27 => ⟨S1024x1024, .f32⟩
  | 28 => ⟨S1x1024, .f32⟩
  | 29 => ⟨S1024x1024, .f32⟩
  | 30 => ⟨S1024x1024, .f32⟩
  | 31 => ⟨S1024x4096, .f32⟩
  | 32 => ⟨S1024x4096, .f32⟩
  | 33 => ⟨S1024x4096, .f32⟩
  | 34 => ⟨S_, .f32⟩
  | 35 => ⟨S1024x4096, .f32⟩
  | 36 => ⟨S1024x4096, .f32⟩
  | 37 => ⟨S_, .f32⟩
  | 38 => ⟨S1024x4096, .f32⟩
  | 39 => ⟨S1024x4096, .f32⟩
  | 40 => ⟨S_, .f32⟩
  | 41 => ⟨S1024x4096, .f32⟩
  | 42 => ⟨S1024x4096, .f32⟩
  | 43 => ⟨S1024x4096, .f32⟩
  | 44 => ⟨S1x4096, .f32⟩
  | 45 => ⟨S1024x4096, .f32⟩
  | 46 => ⟨S1024x4096, .f32⟩
  | 47 => ⟨S1024x4096, .f32⟩
  | 48 => ⟨S1024x1024, .f32⟩
  | 49 => ⟨S1x1024, .f32⟩
  | 50 => ⟨S1024x1024, .f32⟩
  | 51 => ⟨S1024x1024, .f32⟩
  | 52 => ⟨S1x1024x1024, .f32⟩
  | 53 => ⟨S1024x1024, .f32⟩
  | 54 => ⟨S1x1024x1024, .f32⟩
  | 55 => ⟨S1024x1024, .f32⟩
  | 56 => ⟨S1x1024, .f32⟩
  | 57 => ⟨S1024, .f32⟩
  | 58 => ⟨S1024x1024, .f32⟩
  | 59 => ⟨S1x1024, .f32⟩
  | 60 => ⟨S1024x1024, .f32⟩
  | 61 => ⟨S1024x1024, .f32⟩
  | 62 => ⟨S1024x4096, .f32⟩
  | 63 => ⟨S1x4096, .f32⟩
  | 64 => ⟨S1024x4096, .f32⟩
  | 65 => ⟨S1024x4096, .f32⟩
  | 66 => ⟨S1024x4096, .f32⟩
  | 67 => ⟨S1024x4096, .f32⟩
  | 68 => ⟨S1024x4096, .f32⟩
  | 69 => ⟨S_, .f32⟩
  | 70 => ⟨S1024x4096, .f32⟩
  | 71 => ⟨S1024x4096, .f32⟩
  | 72 => ⟨S_, .f32⟩
  | 73 => ⟨S1024x4096, .f32⟩
  | 74 => ⟨S1024x4096, .f32⟩
  | 75 => ⟨S_, .f32⟩
  | 76 => ⟨S1024x4096, .f32⟩
  | 77 => ⟨S1024x4096, .f32⟩
  | 78 => ⟨S1024x4096, .f32⟩
  | 79 => ⟨S1x1024x1024, .f32⟩
  | 80 => ⟨S1024x1024, .f32⟩
  | 81 => ⟨S1x1024x1024, .f32⟩
  | 82 => ⟨S1024x1024, .f32⟩
  | 83 => ⟨S1x1024, .f32⟩
  | 84 => ⟨S1024, .f32⟩
  | 85 => ⟨S1024x1024, .f32⟩
  | 86 => ⟨S1x1024, .f32⟩
  | 87 => ⟨S1024x1024, .f32⟩
  | 88 => ⟨S1024x1024, .f32⟩
  | 89 => ⟨S1024x4096, .f32⟩
  | 90 => ⟨S1024x4096, .f32⟩
  | 91 => ⟨S1024x4096, .f32⟩
  | 92 => ⟨S_, .f32⟩
  | 93 => ⟨S1024x4096, .f32⟩
  | 94 => ⟨S1024x4096, .f32⟩
  | 95 => ⟨S_, .f32⟩
  | 96 => ⟨S1024x4096, .f32⟩
  | 97 => ⟨S1024x4096, .f32⟩
  | 98 => ⟨S_, .f32⟩
  | 99 => ⟨S1024x4096, .f32⟩
  | 100 => ⟨S1024x4096, .f32⟩
  | 101 => ⟨S1024x4096, .f32⟩
  | 102 => ⟨S1x4096, .f32⟩
  | 103 => ⟨S1024x4096, .f32⟩
  | 104 => ⟨S1024x4096, .f32⟩
  | 105 => ⟨S1024x4096, .f32⟩
  | 106 => ⟨S1024x1024, .f32⟩
  | 107 => ⟨S1x1024, .f32⟩
  | 108 => ⟨S1024x1024, .f32⟩
  | 109 => ⟨S1024x1024, .f32⟩
  | 110 => ⟨S1x1024x1024, .f32⟩
  | 111 => ⟨S1024x1024, .f32⟩
  | 112 => ⟨S1x1024x1024, .f32⟩
  | 113 => ⟨S1024x1024, .f32⟩
  | 114 => ⟨S1x1024, .f32⟩
  | 115 => ⟨S1024, .f32⟩
  | 116 => ⟨S1024x1024, .f32⟩
  | 117 => ⟨S1x1024, .f32⟩
  | 118 => ⟨S1024x1024, .f32⟩
  | 119 => ⟨S1024x1024, .f32⟩
  | 120 => ⟨S1024x4096, .f32⟩
  | 121 => ⟨S1x4096, .f32⟩
  | 122 => ⟨S1024x4096, .f32⟩
  | 123 => ⟨S1024x4096, .f32⟩
  | 124 => ⟨S1024x4096, .f32⟩
  | 125 => ⟨S1024x4096, .f32⟩
  | 126 => ⟨S1024x4096, .f32⟩
  | 127 => ⟨S_, .f32⟩
  | _ => ⟨S1024x4096, .f32⟩

abbrev hbmTy0_1 (i : Nat) : BufTy := match i % 128 with
  | 0 => ⟨S1024x4096, .f32⟩
  | 1 => ⟨S1024x4096, .f32⟩
  | 2 => ⟨S_, .f32⟩
  | 3 => ⟨S1024x4096, .f32⟩
  | 4 => ⟨S1024x4096, .f32⟩
  | 5 => ⟨S_, .f32⟩
  | 6 => ⟨S1024x4096, .f32⟩
  | 7 => ⟨S1024x4096, .f32⟩
  | 8 => ⟨S1024x4096, .f32⟩
  | 9 => ⟨S1x1024x1024, .f32⟩
  | 10 => ⟨S1024x1024, .f32⟩
  | 11 => ⟨S1x1024x1024, .f32⟩
  | 12 => ⟨S1024x1024, .f32⟩
  | 13 => ⟨S1x1024, .f32⟩
  | 14 => ⟨S1024, .f32⟩
  | 15 => ⟨S1024x1024, .f32⟩
  | 16 => ⟨S1x1024, .f32⟩
  | 17 => ⟨S1024x1024, .f32⟩
  | 18 => ⟨S1024x1024, .f32⟩
  | 19 => ⟨S1024x4096, .f32⟩
  | 20 => ⟨S1024x4096, .f32⟩
  | 21 => ⟨S1024x4096, .f32⟩
  | 22 => ⟨S_, .f32⟩
  | 23 => ⟨S1024x4096, .f32⟩
  | 24 => ⟨S1024x4096, .f32⟩
  | 25 => ⟨S_, .f32⟩
  | 26 => ⟨S1024x4096, .f32⟩
  | 27 => ⟨S1024x4096, .f32⟩
  | 28 => ⟨S_, .f32⟩
  | 29 => ⟨S1024x4096, .f32⟩
  | 30 => ⟨S1024x4096, .f32⟩
  | 31 => ⟨S1024x4096, .f32⟩
  | 32 => ⟨S1x4096, .f32⟩
  | 33 => ⟨S1024x4096, .f32⟩
  | 34 => ⟨S1024x4096, .f32⟩
  | 35 => ⟨S1024x4096, .f32⟩
  | 36 => ⟨S1024x1024, .f32⟩
  | 37 => ⟨S1x1024, .f32⟩
  | 38 => ⟨S1024x1024, .f32⟩
  | 39 => ⟨S1024x1024, .f32⟩
  | 40 => ⟨S1024x4096, .f32⟩
  | 41 => ⟨S1x4096, .f32⟩
  | 42 => ⟨S1024x4096, .f32⟩
  | 43 => ⟨S1024x4096, .f32⟩
  | 44 => ⟨S1x1024x1024, .f32⟩
  | 45 => ⟨S1024x1024, .f32⟩
  | 46 => ⟨S1x1024x1024, .f32⟩
  | 47 => ⟨S1024x1024, .f32⟩
  | 48 => ⟨S1x1024, .f32⟩
  | 49 => ⟨S1024, .f32⟩
  | 50 => ⟨S1024x1024, .f32⟩
  | 51 => ⟨S1x1024, .f32⟩
  | 52 => ⟨S1024x1024, .f32⟩
  | 53 => ⟨S1024x1024, .f32⟩
  | 54 => ⟨S1024x4096, .f32⟩
  | 55 => ⟨S1x1024x1024, .f32⟩
  | 56 => ⟨S1024x1024, .f32⟩
  | 57 => ⟨S1x1024x1024, .f32⟩
  | 58 => ⟨S1024x1024, .f32⟩
  | 59 => ⟨S1x1024, .f32⟩
  | 60 => ⟨S1024, .f32⟩
  | 61 => ⟨S1024x1024, .f32⟩
  | 62 => ⟨S1x1024, .f32⟩
  | 63 => ⟨S1024x1024, .f32⟩
  | 64 => ⟨S1024x1024, .f32⟩
  | 65 => ⟨S1024x4096, .f32⟩
  | 66 => ⟨S1024x4096, .f32⟩
  | 67 => ⟨S1x4096, .f32⟩
  | 68 => ⟨S4096, .f32⟩
  | 69 => ⟨S1x4096, .f32⟩
  | 70 => ⟨S1024x4096, .f32⟩
  | 71 => ⟨S1024x4096, .f32⟩
  | 72 => ⟨S1024x4096, .f32⟩
  | 73 => ⟨S1024x4096, .f32⟩
  | 74 => ⟨S_, .f32⟩
  | 75 => ⟨S1024x4096, .f32⟩
  | 76 => ⟨S1024x4096, .f32⟩
  | 77 => ⟨S_, .f32⟩
  | 78 => ⟨S1024x4096, .f32⟩
  | 79 => ⟨S1024x4096, .f32⟩
  | 80 => ⟨S1x1024x1024, .f32⟩
  | 81 => ⟨S1024x1024, .f32⟩
  | 82 => ⟨S1x1024x1024, .f32⟩
  | 83 => ⟨S1024x1024, .f32⟩
  | 84 => ⟨S1x1024, .f32⟩
  | 85 => ⟨S1024, .f32⟩
  | 86 => ⟨S1024x1024, .f32⟩
  | 87 => ⟨S1x1024, .f32⟩
  | 88 => ⟨S1024x1024, .f32⟩
  | 89 => ⟨S1024x1024, .f32⟩
  | 90 => ⟨S1024x4096, .f32⟩
  | 91 => ⟨S1x1024x1024, .f32⟩
  | 92 => ⟨S1024x1024, .f32⟩
  | 93 => ⟨S1x1024x1024, .f32⟩
  | 94 => ⟨S1024x1024, .f32⟩
  | 95 => ⟨S1x1024, .f32⟩
  | 96 => ⟨S1024, .f32⟩
  | 97 => ⟨S1024x1024, .f32⟩
  | 98 => ⟨S1x1024, .f32⟩
  | 99 => ⟨S1024x1024, .f32⟩
  | 100 => ⟨S1024x1024, .f32⟩
  | 101 => ⟨S1024x4096, .f32⟩
  | 102 => ⟨S1024x4096, .f32⟩
  | 103 => ⟨S1x4096, .f32⟩
  | 104 => ⟨S4096, .f32⟩
  | 105 => ⟨S1x4096, .f32⟩
  | 106 => ⟨S1024x4096, .f32⟩
  | 107 => ⟨S1024x4096, .f32⟩
  | 108 => ⟨S1024x4096, .f32⟩
  | 109 => ⟨S1024x4096, .f32⟩
  | 110 => ⟨S_, .f32⟩
  | 111 => ⟨S1024x4096, .f32⟩
  | 112 => ⟨S1024x4096, .f32⟩
  | 113 => ⟨S_, .f32⟩
  | 114 => ⟨S1024x4096, .f32⟩
  | 115 => ⟨S1024x4096, .f32⟩
  | 116 => ⟨S1x1024x1024, .f32⟩
  | 117 => ⟨S1024x1024, .f32⟩
  | 118 => ⟨S1x1024x1024, .f32⟩
  | 119 => ⟨S1024x1024, .f32⟩
  | 120 => ⟨S1x1024, .f32⟩
  | 121 => ⟨S1024, .f32⟩
  | 122 => ⟨S1024x1024, .f32⟩
  | 123 => ⟨S1x1024, .f32⟩
  | 124 => ⟨S1024x1024, .f32⟩
  | 125 => ⟨S1024x1024, .f32⟩
  | 126 => ⟨S1024x4096, .f32⟩
  | 127 => ⟨S1x1024x1024, .f32⟩
  | _ => ⟨S1024x4096, .f32⟩

abbrev hbmTy0_2 (i : Nat) : BufTy := match i % 128 with
  | 0 => ⟨S1024x1024, .f32⟩
  | 1 => ⟨S1x1024x1024, .f32⟩
  | 2 => ⟨S1024x1024, .f32⟩
  | 3 => ⟨S1x1024, .f32⟩
  | 4 => ⟨S1024, .f32⟩
  | 5 => ⟨S1024x1024, .f32⟩
  | 6 => ⟨S1x1024, .f32⟩
  | 7 => ⟨S1024x1024, .f32⟩
  | 8 => ⟨S1024x1024, .f32⟩
  | 9 => ⟨S1024x4096, .f32⟩
  | 10 => ⟨S1024x4096, .f32⟩
  | 11 => ⟨S1x4096, .f32⟩
  | 12 => ⟨S4096, .f32⟩
  | 13 => ⟨S1x4096, .f32⟩
  | 14 => ⟨S1024x4096, .f32⟩
  | 15 => ⟨S1024x4096, .f32⟩
  | 16 => ⟨S1024x4096, .f32⟩
  | 17 => ⟨S1x1024x1024, .f32⟩
  | 18 => ⟨S1024x1024, .f32⟩
  | 19 => ⟨S1x1024x1024, .f32⟩
  | 20 => ⟨S1024x1024, .f32⟩
  | 21 => ⟨S1x1024, .f32⟩
  | 22 => ⟨S1024, .f32⟩
  | 23 => ⟨S1024x1024, .f32⟩
  | 24 => ⟨S1x1024, .f32⟩
  | 25 => ⟨S1024x1024, .f32⟩
  | 26 => ⟨S1024x1024, .f32⟩
  | 27 => ⟨S1024x4096, .f32⟩
  | 28 => ⟨S1x1024x1024, .f32⟩
  | 29 => ⟨S1024x1024, .f32⟩
  | 30 => ⟨S1x1024x1024, .f32⟩
  | 31 => ⟨S1024x1024, .f32⟩
  | 32 => ⟨S1x1024, .f32⟩
  | 33 => ⟨S1024, .f32⟩
  | 34 => ⟨S1024x1024, .f32⟩
  | 35 => ⟨S1x1024, .f32⟩
  | 36 => ⟨S1024x1024, .f32⟩
  | 37 => ⟨S1024x1024, .f32⟩
  | 38 => ⟨S1024x4096, .f32⟩
  | 39 => ⟨S1024x4096, .f32⟩
  | 40 => ⟨S1x4096, .f32⟩
  | 41 => ⟨S4096, .f32⟩
  | 42 => ⟨S1x4096, .f32⟩
  | 43 => ⟨S1024x4096, .f32⟩
  | 44 => ⟨S1024x4096, .f32⟩
  | 45 => ⟨S1024x4096, .f32⟩
  | 46 => ⟨S1024x4096, .f32⟩
  | 47 => ⟨S_, .f32⟩
  | 48 => ⟨S1024x4096, .f32⟩
  | 49 => ⟨S1024x4096, .f32⟩
  | 50 => ⟨S_, .f32⟩
  | 51 => ⟨S1024x4096, .f32⟩
  | 52 => ⟨S1024x4096, .f32⟩
  | 53 => ⟨S1024x4096, .f32⟩
  | 54 => ⟨S1x4096, .f32⟩
  | 55 => ⟨S1024x4096, .f32⟩
  | 56 => ⟨S1024x4096, .f32⟩
  | 57 => ⟨S1024x4096, .f32⟩
  | 58 => ⟨S1024x4096, .f32⟩
  | 59 => ⟨S1024x4096, .f32⟩
  | 60 => ⟨S1024x4096, .f32⟩
  | 61 => ⟨S1024x4096, .f32⟩
  | 62 => ⟨S1024x1024, .f32⟩
  | 63 => ⟨S1x1024, .f32⟩
  | 64 => ⟨S1024x1024, .f32⟩
  | 65 => ⟨S1024x1024, .f32⟩
  | 66 => ⟨S1024x1024, .f32⟩
  | 67 => ⟨S1x1024, .f32⟩
  | 68 => ⟨S1024x1024, .f32⟩
  | 69 => ⟨S1024x1024, .f32⟩
  | _ => ⟨S1024x4096, .f32⟩

abbrev hbmTy (i : Nat) : BufTy := match i / 128 with
  | 0 => hbmTy0_0 i
  | 1 => hbmTy0_1 i
  | 2 => hbmTy0_2 i
  | _ => ⟨S1024x4096, .f32⟩

abbrev bufTy : (tb : Table) → Fin (tcTables nBuf tb) → BufTy
  | .hbm, ⟨i, _⟩ => hbmTy i
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_cst_0 : Ref sig .tc := ⟨.hbm, 37, rfl⟩
abbrev main_v15 : Ref sig .tc := ⟨.hbm, 38, rfl⟩
abbrev main_v16 : Ref sig .tc := ⟨.hbm, 39, rfl⟩
abbrev main_cst_1 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_2 : Ref sig .tc := ⟨.hbm, 69, rfl⟩
abbrev main_v45 : Ref sig .tc := ⟨.hbm, 70, rfl⟩
abbrev main_v46 : Ref sig .tc := ⟨.hbm, 71, rfl⟩
abbrev main_cst_3 : Ref sig .tc := ⟨.hbm, 72, rfl⟩
abbrev main_v47 : Ref sig .tc := ⟨.hbm, 73, rfl⟩
abbrev main_v48 : Ref sig .tc := ⟨.hbm, 74, rfl⟩
abbrev main_cst_4 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_5 : Ref sig .tc := ⟨.hbm, 92, rfl⟩
abbrev main_v65 : Ref sig .tc := ⟨.hbm, 93, rfl⟩
abbrev main_v66 : Ref sig .tc := ⟨.hbm, 94, rfl⟩
abbrev main_cst_6 : Ref sig .tc := ⟨.hbm, 95, rfl⟩
abbrev main_v67 : Ref sig .tc := ⟨.hbm, 96, rfl⟩
abbrev main_v68 : Ref sig .tc := ⟨.hbm, 97, rfl⟩
abbrev main_cst_7 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_cst_8 : Ref sig .tc := ⟨.hbm, 127, rfl⟩
abbrev main_v97 : Ref sig .tc := ⟨.hbm, 128, rfl⟩
abbrev main_v98 : Ref sig .tc := ⟨.hbm, 129, rfl⟩
abbrev main_cst_9 : Ref sig .tc := ⟨.hbm, 130, rfl⟩
abbrev main_v99 : Ref sig .tc := ⟨.hbm, 131, rfl⟩
abbrev main_v100 : Ref sig .tc := ⟨.hbm, 132, rfl⟩
abbrev main_cst_10 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_cst_11 : Ref sig .tc := ⟨.hbm, 150, rfl⟩
abbrev main_v117 : Ref sig .tc := ⟨.hbm, 151, rfl⟩
abbrev main_v118 : Ref sig .tc := ⟨.hbm, 152, rfl⟩
abbrev main_cst_12 : Ref sig .tc := ⟨.hbm, 153, rfl⟩
abbrev main_v119 : Ref sig .tc := ⟨.hbm, 154, rfl⟩
abbrev main_v120 : Ref sig .tc := ⟨.hbm, 155, rfl⟩
abbrev main_cst_13 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_cst_14 : Ref sig .tc := ⟨.hbm, 202, rfl⟩
abbrev main_v166 : Ref sig .tc := ⟨.hbm, 203, rfl⟩
abbrev main_v167 : Ref sig .tc := ⟨.hbm, 204, rfl⟩
abbrev main_cst_15 : Ref sig .tc := ⟨.hbm, 205, rfl⟩
abbrev main_v168 : Ref sig .tc := ⟨.hbm, 206, rfl⟩
abbrev main_v169 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_cst_16 : Ref sig .tc := ⟨.hbm, 238, rfl⟩
abbrev main_v200 : Ref sig .tc := ⟨.hbm, 239, rfl⟩
abbrev main_v201 : Ref sig .tc := ⟨.hbm, 240, rfl⟩
abbrev main_cst_17 : Ref sig .tc := ⟨.hbm, 241, rfl⟩
abbrev main_v202 : Ref sig .tc := ⟨.hbm, 242, rfl⟩
abbrev main_v203 : Ref sig .tc := ⟨.hbm, 243, rfl⟩
abbrev main_v204 : Ref sig .tc := ⟨.hbm, 244, rfl⟩
abbrev main_v205 : Ref sig .tc := ⟨.hbm, 245, rfl⟩
abbrev main_v206 : Ref sig .tc := ⟨.hbm, 246, rfl⟩
abbrev main_v207 : Ref sig .tc := ⟨.hbm, 247, rfl⟩
abbrev main_v208 : Ref sig .tc := ⟨.hbm, 248, rfl⟩
abbrev main_v209 : Ref sig .tc := ⟨.hbm, 249, rfl⟩
abbrev main_v210 : Ref sig .tc := ⟨.hbm, 250, rfl⟩
abbrev main_v211 : Ref sig .tc := ⟨.hbm, 251, rfl⟩
abbrev main_v212 : Ref sig .tc := ⟨.hbm, 252, rfl⟩
abbrev main_v213 : Ref sig .tc := ⟨.hbm, 253, rfl⟩
abbrev main_v214 : Ref sig .tc := ⟨.hbm, 254, rfl⟩
abbrev main_v215 : Ref sig .tc := ⟨.hbm, 255, rfl⟩
abbrev main_v216 : Ref sig .tc := ⟨.hbm, 256, rfl⟩
abbrev main_v217 : Ref sig .tc := ⟨.hbm, 257, rfl⟩
abbrev main_v218 : Ref sig .tc := ⟨.hbm, 258, rfl⟩
abbrev main_v219 : Ref sig .tc := ⟨.hbm, 259, rfl⟩
abbrev main_v220 : Ref sig .tc := ⟨.hbm, 260, rfl⟩
abbrev main_v221 : Ref sig .tc := ⟨.hbm, 261, rfl⟩
abbrev main_v222 : Ref sig .tc := ⟨.hbm, 262, rfl⟩
abbrev main_v223 : Ref sig .tc := ⟨.hbm, 263, rfl⟩
abbrev main_v224 : Ref sig .tc := ⟨.hbm, 264, rfl⟩
abbrev main_v225 : Ref sig .tc := ⟨.hbm, 265, rfl⟩
abbrev main_v226 : Ref sig .tc := ⟨.hbm, 266, rfl⟩
abbrev main_v227 : Ref sig .tc := ⟨.hbm, 267, rfl⟩
abbrev main_v228 : Ref sig .tc := ⟨.hbm, 268, rfl⟩
abbrev main_v229 : Ref sig .tc := ⟨.hbm, 269, rfl⟩
abbrev main_v230 : Ref sig .tc := ⟨.hbm, 270, rfl⟩
abbrev main_v231 : Ref sig .tc := ⟨.hbm, 271, rfl⟩
abbrev main_v232 : Ref sig .tc := ⟨.hbm, 272, rfl⟩
abbrev main_v233 : Ref sig .tc := ⟨.hbm, 273, rfl⟩
abbrev main_v234 : Ref sig .tc := ⟨.hbm, 274, rfl⟩
abbrev main_v235 : Ref sig .tc := ⟨.hbm, 275, rfl⟩
abbrev main_v236 : Ref sig .tc := ⟨.hbm, 276, rfl⟩
abbrev main_v237 : Ref sig .tc := ⟨.hbm, 277, rfl⟩
abbrev main_v238 : Ref sig .tc := ⟨.hbm, 278, rfl⟩
abbrev main_v239 : Ref sig .tc := ⟨.hbm, 279, rfl⟩
abbrev main_v240 : Ref sig .tc := ⟨.hbm, 280, rfl⟩
abbrev main_v241 : Ref sig .tc := ⟨.hbm, 281, rfl⟩
abbrev main_v242 : Ref sig .tc := ⟨.hbm, 282, rfl⟩
abbrev main_v243 : Ref sig .tc := ⟨.hbm, 283, rfl⟩
abbrev main_v244 : Ref sig .tc := ⟨.hbm, 284, rfl⟩
abbrev main_v245 : Ref sig .tc := ⟨.hbm, 285, rfl⟩
abbrev main_v246 : Ref sig .tc := ⟨.hbm, 286, rfl⟩
abbrev main_v247 : Ref sig .tc := ⟨.hbm, 287, rfl⟩
abbrev main_v248 : Ref sig .tc := ⟨.hbm, 288, rfl⟩
abbrev main_v249 : Ref sig .tc := ⟨.hbm, 289, rfl⟩
abbrev main_v250 : Ref sig .tc := ⟨.hbm, 290, rfl⟩
abbrev main_v251 : Ref sig .tc := ⟨.hbm, 291, rfl⟩
abbrev main_v252 : Ref sig .tc := ⟨.hbm, 292, rfl⟩
abbrev main_v253 : Ref sig .tc := ⟨.hbm, 293, rfl⟩
abbrev main_v254 : Ref sig .tc := ⟨.hbm, 294, rfl⟩
abbrev main_v255 : Ref sig .tc := ⟨.hbm, 295, rfl⟩
abbrev main_v256 : Ref sig .tc := ⟨.hbm, 296, rfl⟩
abbrev main_v257 : Ref sig .tc := ⟨.hbm, 297, rfl⟩
abbrev main_v258 : Ref sig .tc := ⟨.hbm, 298, rfl⟩
abbrev main_v259 : Ref sig .tc := ⟨.hbm, 299, rfl⟩
abbrev main_v260 : Ref sig .tc := ⟨.hbm, 300, rfl⟩
abbrev main_v261 : Ref sig .tc := ⟨.hbm, 301, rfl⟩
abbrev main_v262 : Ref sig .tc := ⟨.hbm, 302, rfl⟩
abbrev main_cst_18 : Ref sig .tc := ⟨.hbm, 303, rfl⟩
abbrev main_v263 : Ref sig .tc := ⟨.hbm, 304, rfl⟩
abbrev main_v264 : Ref sig .tc := ⟨.hbm, 305, rfl⟩
abbrev main_cst_19 : Ref sig .tc := ⟨.hbm, 306, rfl⟩
abbrev main_v265 : Ref sig .tc := ⟨.hbm, 307, rfl⟩
abbrev main_v266 : Ref sig .tc := ⟨.hbm, 308, rfl⟩
abbrev main_v267 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_v273 : Ref sig .tc := ⟨.hbm, 315, rfl⟩
abbrev main_v274 : Ref sig .tc := ⟨.hbm, 316, rfl⟩
abbrev main_v275 : Ref sig .tc := ⟨.hbm, 317, rfl⟩
abbrev main_v276 : Ref sig .tc := ⟨.hbm, 318, rfl⟩
abbrev main_v277 : Ref sig .tc := ⟨.hbm, 319, rfl⟩
abbrev main_v278 : Ref sig .tc := ⟨.hbm, 320, rfl⟩
abbrev main_v279 : Ref sig .tc := ⟨.hbm, 321, rfl⟩
abbrev main_v280 : Ref sig .tc := ⟨.hbm, 322, rfl⟩
abbrev main_v281 : Ref sig .tc := ⟨.hbm, 323, rfl⟩
abbrev main_v282 : Ref sig .tc := ⟨.hbm, 324, rfl⟩
abbrev main_v283 : Ref sig .tc := ⟨.hbm, 325, rfl⟩

abbrev nD : Nat := 1
abbrev τ : Topo := Topo.v7x

variable {F : FTy → Type} [FloatOps F]

class Facts₀ : Prop where
  slices_S5x1024x1024_S1x1024x1024_0_0_0 : S5x1024x1024.Slices ![0, 0, 0] S1x1024x1024
  shapeCasts_S1x1024x1024_S1024x1024 : S1x1024x1024.ShapeCasts S1024x1024
  slices_S5x1024_S1x1024_0_0 : S5x1024.Slices ![0, 0] S1x1024
  shapeCasts_S1x1024_S1024 : S1x1024.ShapeCasts S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  bcast_S_S1024x4096 : S_.BroadcastsInDim S1024x4096 (![] : Fin 0 → Fin S1024x4096.rank)
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  slices_S5x1024x1024_S1x1024x1024_1_0_0 : S5x1024x1024.Slices ![1, 0, 0] S1x1024x1024
  slices_S5x1024_S1x1024_1_0 : S5x1024.Slices ![1, 0] S1x1024
  slices_S5x1024x1024_S1x1024x1024_2_0_0 : S5x1024x1024.Slices ![2, 0, 0] S1x1024x1024
  slices_S5x1024_S1x1024_2_0 : S5x1024.Slices ![2, 0] S1x1024
  slices_S5x1024x1024_S1x1024x1024_3_0_0 : S5x1024x1024.Slices ![3, 0, 0] S1x1024x1024
  slices_S5x1024_S1x1024_3_0 : S5x1024.Slices ![3, 0] S1x1024
  slices_S5x1024x1024_S1x1024x1024_4_0_0 : S5x1024x1024.Slices ![4, 0, 0] S1x1024x1024
  slices_S5x1024_S1x1024_4_0 : S5x1024.Slices ![4, 0] S1x1024
  slices_S4x1024x1024_S1x1024x1024_0_0_0 : S4x1024x1024.Slices ![0, 0, 0] S1x1024x1024
  slices_S4x1024_S1x1024_0_0 : S4x1024.Slices ![0, 0] S1x1024
  slices_S4x4096_S1x4096_0_0 : S4x4096.Slices ![0, 0] S1x4096
  shapeCasts_S1x4096_S4096 : S1x4096.ShapeCasts S4096
  slices_S4x1024x1024_S1x1024x1024_1_0_0 : S4x1024x1024.Slices ![1, 0, 0] S1x1024x1024
  slices_S4x1024_S1x1024_1_0 : S4x1024.Slices ![1, 0] S1x1024
  slices_S4x4096_S1x4096_1_0 : S4x4096.Slices ![1, 0] S1x4096
  slices_S4x1024x1024_S1x1024x1024_2_0_0 : S4x1024x1024.Slices ![2, 0, 0] S1x1024x1024
  slices_S4x1024_S1x1024_2_0 : S4x1024.Slices ![2, 0] S1x1024
  slices_S4x4096_S1x4096_2_0 : S4x4096.Slices ![2, 0] S1x4096
  slices_S4x1024x1024_S1x1024x1024_3_0_0 : S4x1024x1024.Slices ![3, 0, 0] S1x1024x1024
  slices_S4x1024_S1x1024_3_0 : S4x1024.Slices ![3, 0] S1x1024
  slices_S4x4096_S1x4096_3_0 : S4x4096.Slices ![3, 0] S1x4096
  dot_S1024x1024_S1024x1024_S1024x1024_1_0_0_1_n_n_wf : DotDims.WF S1024x1024 S1024x1024 S1024x1024 [1] [0] [0] [1] [] []
  dot_S1024x1024_S1024x4096_S1024x4096_1_0_0_1_n_n_wf : DotDims.WF S1024x1024 S1024x4096 S1024x4096 [1] [0] [0] [1] [] []
  dot_S1024x4096_S4096x1024_S1024x1024_1_0_0_1_n_n_wf : DotDims.WF S1024x4096 S4096x1024 S1024x1024 [1] [0] [0] [1] [] []

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x4096_S1024x4096_1_0_0_1_n_n : DotDims S1024x1024 S1024x4096 S1024x4096 where
  lhsContracting := [1]
  rhsContracting := [0]
  lhsNonContracting := [0]
  rhsNonContracting := [1]
  lhsBatch := []
  rhsBatch := []
  wf := dot_S1024x1024_S1024x4096_S1024x4096_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf

class Facts : Prop extends Facts₀ where

variable [Facts]
-- ==== Proof.KernelRunKit.lean ====
/-
  The idealized kernel program runs to completion, and every buffer no region scopes ends at the last boundary's
  contents.

  The program is thirty-four tiled regions among stretches of whole-array operations. The launch theorem for such a
  chain of segments takes: the program as the run of its segments; the segments' pipelines pairwise distinct; the
  launch's tokens; the thread state before the first segment (every unscoped buffer at its launch contents, the
  generator register at some state, nothing owed) and after the last; the segments chaining through those states;
  and a reading of the last thread state against the final memory. It delivers: every weakly fair execution
  terminates without a fault in a memory where each unscoped buffer holds the last boundary's contents.
-/
import proofs.«113209_j26568667693302_2_alg».proof.Proof.Gen.KernelIdeal.Frame

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and every buffer no region scopes ends at
    the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W68 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W68 m ρ c b)
    (hfin := fun c s' => by
      iintro ⟨⟨Hh, -⟩, HSI⟩
      unfold StableHlo.held
      imodintro
      iapply (pointsTo_read_all (Pipeline.ucRefs τ sig) (fun b => (((c : Thread nD τ)).1, b)) (W68 m ρ c) s')
      isplitl [Hh] <;> iassumption)
    (hQ := fun s h => h)

end Cert.KernelIdeal.Gen

end
-- ==== Proof.KernelRun.lean ====
/-
  The idealized kernel program's run with its three results read.

  The program is thirty-four tiled regions among stretches of whole-array operations. Its run ends with every buffer
  the regions do not scope at the contents the last boundary of that chain holds; the three result buffers are
  among them, so each holds what the last boundary says of it.
-/
import proofs.«113209_j26568667693302_2_alg».proof.Proof.KernelRunKit

noncomputable section

namespace Cert.KernelIdeal.Gen

open Idealize.ShloMosaic Idealize.ShloMosaic.TcCoe Idealize.SL.Sem

variable {F : FTy → Type} [FloatOps F]
variable (m : (ℓ : Loc nD τ sig) → Buf (Elt F) ℓ) (ρ : Dev nD → PrngReg)

/-- The run read at the three results: each at the last boundary's contents (and, beside them, every unscoped
    buffer at that boundary's contents, which is how the arguments are read back). -/
theorem run_results : θ_run defs (onTc (τ := τ) (main (F := F))) ⟨m, fun _ => 0, ρ⟩ (fun r => ∀ c : Dev nD,
      (r.2.mem ((c.tc : Thread nD τ).loc main_v0_0) = W68 m ρ c (Proc.devRef .tc main_v0_0)
      ∧ r.2.mem ((c.tc : Thread nD τ).loc main_v0_1) = W68 m ρ c (Proc.devRef .tc main_v0_1)
      ∧ r.2.mem ((c.tc : Thread nD τ).loc main_v0_2) = W68 m ρ c (Proc.devRef .tc main_v0_2))
      ∧ ∀ b ∈ Pipeline.ucRefs τ sig, r.2.mem (((c : Thread nD τ)).1, b) = W68 m ρ c b) :=
  (θ_run defs _ _).mono (fun r h c =>
    ⟨⟨h c _ (mem_uc main_v0_0 (by decide)), h c _ (mem_uc main_v0_1 (by decide)), h c _ (mem_uc main_v0_2 (by decide))⟩, h c⟩)
    (run_boundary m ρ)

end Cert.KernelIdeal.Gen

end
-- ==== Proof.Keeps.lean ====
/-
  Which buffers each step of the program leaves alone.

  The program alternates thirty-four stretches of whole-array operations with thirty-four tiled regions. A stretch
  changes only the buffers its operations write; a region changes only its one result array (its operand arrays are
  read and written back as found). So a buffer keeps its contents across every step that does not define it.
-/
import proofs.«113209_j26568667693302_2_alg».proof.Proof.Gen.KernelIdeal.Frame
import Idealize.ShloMosaic.Lib.StableHlo.Run
import Idealize.ShloMosaic.PureOps.Ideal

set_option maxRecDepth 16384

noncomputable section

namespace Cert.KernelIdeal.Keep

open Cert.KernelIdeal Cert.KernelIdeal.Gen Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ) (ρ : Dev nD → PrngReg)

/-- Stretch 0 writes these buffers and no others. -/
abbrev writes0 : List (Ref sig .tc) := [main_call0_v0, main_call0_v1, main_call0_v2, main_call0_v3, main_call0_v4, main_call0_v5, main_call0_v6, main_call0_v7, main_call0_v8, main_call0_v9, main_call0_v10, main_call0_v11, main_call0_v12, main_call0_cst, main_call0_v13, main_call0_v14, main_call0_v15, main_call0_v16, main_call0_v17, main_call0_v18, main_call0_v19, main_call0_v20]
theorem writes0_sub : (hostOps0 : List (HloOp τ sig (Elt Ideal))).Forall fun op => op.writes ⊆ ((writes0).map (Proc.devRef (τ := τ) .tc)).toFinset := by
  simp only [hostOps0, List.Forall]
  refine ⟨?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))
theorem host0 (c : Dev nD) (b : Ref sig .tc) (hb : b ∉ writes0) :
    W1 m ρ c (Proc.devRef .tc b) = W0 m ρ c (Proc.devRef .tc b) :=
  after_of_writes_sub hostOps0 _ (writes0_sub) hb

/-- Region 0 changes its result array only. -/
theorem region0 (c : Dev nD) (b : Ref sig .tc) (hb : b ≠ main_call0_v21) :
    W2 m ρ c (Proc.devRef .tc b) = W1 m ρ c (Proc.devRef .tc b) := by
  by_cases h : ∀ w, Pipeline.arrRef spec0 w ≠ b
  · exact W2_of_ne m ρ c b h
  · push Not at h
    obtain ⟨w, rfl⟩ := h
    have hin : (cfg0.win w).isOut = false := by
      revert hb; revert w; decide
    rw [W2_arr, Dat.arrAt_in (dat0 (V1 m ρ) c) w hin, A_eq0]

/-- Stretch 1 writes these buffers and no others. -/
abbrev writes1 : List (Ref sig .tc) := [main_call0_v22]
theorem writes1_sub : (hostOps1 : List (HloOp τ sig (Elt Ideal))).Forall fun op => op.writes ⊆ ((writes1).map (Proc.devRef (τ := τ) .tc)).toFinset := by
  simp only [hostOps1, List.Forall]
  refine ?_ <;>
    (simp only [nullary_writes, unary_writes, binary_writes, reshape_writes, Finset.singleton_subset_iff, List.mem_toFinset]; exact List.mem_map_of_mem (by decide))
theorem host1 (c : Dev nD) (b : Ref sig .tc) (hb : b ∉ writes1) :
    W3 m ρ c (Proc.devRef .tc b) = W2 m ρ c (Proc.devRef .tc b) :=
  after_of_writes_sub hostOps1 _ (writes1_sub) hb

/-- Region 1 changes its result array only. -/
theorem region1 (c : Dev nD) (b : Ref sig .tc) (hb : b ≠ main_call0_v23) :
    W4 m ρ c (Proc.devRef .tc b) = W3 m ρ c (Proc.devRef .tc b) := by
  by_cases h : ∀ w, Pipeline.arrRef spec1 w ≠ b
  · exact W4_of_ne m ρ c b h
  · push Not at h
    obtain ⟨w, rfl⟩ := h
    have hin : (cfg1.win w).isOut = false := by
      revert hb; revert w; decide
    rw [W4_arr, Dat.arrAt_in (dat1 (V3 m ρ) c) w hin, A_eq1]

/-- Stretch 2 writes these buffers and no others. -/
abbrev writes2 : List (Ref sig .tc) := [main_call0_v24]
theorem writes2_sub : (hostOps2 : List (HloOp τ sig (Elt Ideal))).Forall fun op => op.writes ⊆ ((writes2).map (Proc.devRef (τ := τ) .tc)).toFinset := by
  simp only [hostOps2, List.Forall]
  refine ?_ <;>
    (simp only [nullary_writes, unary_writes, binary_writes, reshape_writes, Finset.singleton_subset_iff, List.mem_toFinset]; exact List.mem_map_of_mem (by decide))
theorem host2 (c : Dev nD) (b : Ref sig .tc) (hb : b ∉ writes2) :
    W5 m ρ c (Proc.devRef .tc b) = W4 m ρ c (Proc.devRef .tc b) :=
  after_of_writes_sub hostOps2 _ (writes2_sub) hb

/-- Region 2 changes its result array only. -/
theorem region2 (c : Dev nD) (b : Ref sig .tc) (hb : b ≠ main_call0_v25) :
    W6 m ρ c (Proc.devRef .tc b) = W5 m ρ c (Proc.devRef .tc b) := by
  by_cases h : ∀ w, Pipeline.arrRef spec2 w ≠ b
  · exact W6_of_ne m ρ c b h
  · push Not at h
    obtain ⟨w, rfl⟩ := h
    have hin : (cfg2.win w).isOut = false := by
      revert hb; revert w; decide
    rw [W6_arr, Dat.arrAt_in (dat2 (V5 m ρ) c) w hin, A_eq2]

/-- Stretch 3 writes these buffers and no others. -/
abbrev writes3 : List (Ref sig .tc) := [main_call0_v26]
theorem writes3_sub : (hostOps3 : List (HloOp τ sig (Elt Ideal))).Forall fun op => op.writes ⊆ ((writes3).map (Proc.devRef (τ := τ) .tc)).toFinset := by
  simp only [hostOps3, List.Forall]
  refine ?_ <;>
    (simp only [nullary_writes, unary_writes, binary_writes, reshape_writes, Finset.singleton_subset_iff, List.mem_toFinset]; exact List.mem_map_of_mem (by decide))
theorem host3 (c : Dev nD) (b : Ref sig .tc) (hb : b ∉ writes3) :
    W7 m ρ c (Proc.devRef .tc b) = W6 m ρ c (Proc.devRef .tc b) :=
  after_of_writes_sub hostOps3 _ (writes3_sub) hb

/-- Region 3 changes its result array only. -/
theorem region3 (c : Dev nD) (b : Ref sig .tc) (hb : b ≠ main_call0_v27) :
    W8 m ρ c (Proc.devRef .tc b) = W7 m ρ c (Proc.devRef .tc b) := by
  by_cases h : ∀ w, Pipeline.arrRef spec3 w ≠ b
  · exact W8_of_ne m ρ c b h
  · push Not at h
    obtain ⟨w, rfl⟩ := h
    have hin : (cfg3.win w).isOut = false := by
      revert hb; revert w; decide
    rw [W8_arr, Dat.arrAt_in (dat3 (V7 m ρ) c) w hin, A_eq3]

/-- Stretch 4 writes these buffers and no others. -/
abbrev writes4 : List (Ref sig .tc) := [main_call0_v28, main_call0_v29, main_call0_v30, main_call0_v31, main_call0_v32, main_call0_v33, main_call0_v34]
theorem writes4_sub : (hostOps4 : List (HloOp τ sig (Elt Ideal))).Forall fun op => op.writes ⊆ ((writes4).map (Proc.devRef (τ := τ) .tc)).toFinset := by
  simp only [hostOps4, List.Forall]
  refine ⟨?_, ?_, ?_, ?_, ?_, ?_, ?_⟩ <;>
    (simp only [nullary_writes, unary_writes, binary_writes, reshape_writes, Finset.singleton_subset_iff, List.mem_toFinset]; exact List.mem_map_of_mem (by decide))
theorem host4 (c : Dev nD) (b : Ref sig .tc) (hb : b ∉ writes4) :
    W9 m ρ c (Proc.devRef .tc b) = W8 m ρ c (Proc.devRef .tc b) :=
  after_of_writes_sub hostOps4 _ (writes4_sub) hb

/-- Region 4 changes its result array only. -/
theorem region4 (c : Dev nD) (b : Ref sig .tc) (hb : b ≠ main_call0_v35) :
    W10 m ρ c (Proc.devRef .tc b) = W9 m ρ c (Proc.devRef .tc b) := by
  by_cases h : ∀ w, Pipeline.arrRef spec4 w ≠ b
  · exact W10_of_ne m ρ c b h
  · push Not at h
    obtain ⟨w, rfl⟩ := h
    have hin : (cfg4.win w).isOut = false := by
      revert hb; revert w; decide
    rw [W10_arr, Dat.arrAt_in (dat4 (V9 m ρ) c) w hin, A_eq4]

/-- Stretch 5 writes these buffers and no others. -/
abbrev writes5 : List (Ref sig .tc) := [main_call0_v36]
theorem writes5_sub : (hostOps5 : List (HloOp τ sig (Elt Ideal))).Forall fun op => op.writes ⊆ ((writes5).map (Proc.devRef (τ := τ) .tc)).toFinset := by
  simp only [hostOps5, List.Forall]
  refine ?_ <;>
    (simp only [nullary_writes, unary_writes, binary_writes, reshape_writes, Finset.singleton_subset_iff, List.mem_toFinset]; exact List.mem_map_of_mem (by decide))
theorem host5 (c : Dev nD) (b : Ref sig .tc) (hb : b ∉ writes5) :
    W11 m ρ c (Proc.devRef .tc b) = W10 m ρ c (Proc.devRef .tc b) :=
  after_of_writes_sub hostOps5 _ (writes5_sub) hb

/-- Region 5 changes its result array only. -/
theorem region5 (c : Dev nD) (b : Ref sig .tc) (hb : b ≠ main_call0_v37) :
    W12 m ρ c (Proc.devRef .tc b) = W11 m ρ c (Proc.devRef .tc b) := by
  by_cases h : ∀ w, Pipeline.arrRef spec5 w ≠ b
  · exact W12_of_ne m ρ c b h
  · push Not at h
    obtain ⟨w, rfl⟩ := h
    have hin : (cfg5.win w).isOut = false := by
      revert hb; revert w; decide
    rw [W12_arr, Dat.arrAt_in (dat5 (V11 m ρ) c) w hin, A_eq5]

/-- Stretch 6 writes these buffers and no others. -/
abbrev writes6 : List (Ref sig .tc) := [main_call0_v38]
theorem writes6_sub : (hostOps6 : List (HloOp τ sig (Elt Ideal))).Forall fun op => op.writes ⊆ ((writes6).map (Proc.devRef (τ := τ) .tc)).toFinset := by
  simp only [hostOps6, List.Forall]
  refine ?_ <;>
    (simp only [nullary_writes, unary_writes, binary_writes, reshape_writes, Finset.singleton_subset_iff, List.mem_toFinset]; exact List.mem_map_of_mem (by decide))
theorem host6 (c : Dev nD) (b : Ref sig .tc) (hb : b ∉ writes6) :
    W13 m ρ c (Proc.devRef .tc b) = W12 m ρ c (Proc.devRef .tc b) :=
  after_of_writes_sub hostOps6 _ (writes6_sub) hb

/-- Region 6 changes its result array only. -/
theorem region6 (c : Dev nD) (b : Ref sig .tc) (hb : b ≠ main_call0_v39) :
    W14 m ρ c (Proc.devRef .tc b) = W13 m ρ c (Proc.devRef .tc b) := by
  by_cases h : ∀ w, Pipeline.arrRef spec6 w ≠ b
  · exact W14_of_ne m ρ c b h
  · push Not at h
    obtain ⟨w, rfl⟩ := h
    have hin : (cfg6.win w).isOut = false := by
      revert hb; revert w; decide
    rw [W14_arr, Dat.arrAt_in (dat6 (V13 m ρ) c) w hin, A_eq6]

/-- Stretch 7 writes these buffers and no others. -/
abbrev writes7 : List (Ref sig .tc) := [main_call0_v40, main_call0_v41, main_call0_v42, main_call0_v43, main_call0_v44, main_call0_v45, main_call0_v46, main_call0_v47, main_call0_v48, main_call0_v49, main_call0_v50]
theorem writes7_sub : (hostOps7 : List (HloOp τ sig (Elt Ideal))).Forall fun op => op.writes ⊆ ((writes7).map (Proc.devRef (τ := τ) .tc)).toFinset := by
  simp only [hostOps7, List.Forall]
  refine ⟨?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))
theorem host7 (c : Dev nD) (b : Ref sig .tc) (hb : b ∉ writes7) :
    W15 m ρ c (Proc.devRef .tc b) = W14 m ρ c (Proc.devRef .tc b) :=
  after_of_writes_sub hostOps7 _ (writes7_sub) hb

/-- Region 7 changes its result array only. -/
theorem region7 (c : Dev nD) (b : Ref sig .tc) (hb : b ≠ main_call0_v51) :
    W16 m ρ c (Proc.devRef .tc b) = W15 m ρ c (Proc.devRef .tc b) := by
  by_cases h : ∀ w, Pipeline.arrRef spec7 w ≠ b
  · exact W16_of_ne m ρ c b h
  · push Not at h
    obtain ⟨w, rfl⟩ := h
    have hin : (cfg7.win w).isOut = false := by
      revert hb; revert w; decide
    rw [W16_arr, Dat.arrAt_in (dat7 (V15 m ρ) c) w hin, A_eq7]

/-- Stretch 8 writes these buffers and no others. -/
abbrev writes8 : List (Ref sig .tc) := [main_call0_v52]
theorem writes8_sub : (hostOps8 : List (HloOp τ sig (Elt Ideal))).Forall fun op => op.writes ⊆ ((writes8).map (Proc.devRef (τ := τ) .tc)).toFinset := by
  simp only [hostOps8, List.Forall]
  refine ?_ <;>
    (simp only [nullary_writes, unary_writes, binary_writes, reshape_writes, Finset.singleton_subset_iff, List.mem_toFinset]; exact List.mem_map_of_mem (by decide))
theorem host8 (c : Dev nD) (b : Ref sig .tc) (hb : b ∉ writes8) :
    W17 m ρ c (Proc.devRef .tc b) = W16 m ρ c (Proc.devRef .tc b) :=
  after_of_writes_sub hostOps8 _ (writes8_sub) hb

/-- Region 8 changes its result array only. -/
theorem region8 (c : Dev nD) (b : Ref sig .tc) (hb : b ≠ main_call0_v53) :
    W18 m ρ c (Proc.devRef .tc b) = W17 m ρ c (Proc.devRef .tc b) := by
  by_cases h : ∀ w, Pipeline.arrRef spec8 w ≠ b
  · exact W18_of_ne m ρ c b h
  · push Not at h
    obtain ⟨w, rfl⟩ := h
    have hin : (cfg8.win w).isOut = false := by
      revert hb; revert w; decide
    rw [W18_arr, Dat.arrAt_in (dat8 (V17 m ρ) c) w hin, A_eq8]

/-- Stretch 9 writes these buffers and no others. -/
abbrev writes9 : List (Ref sig .tc) := [main_call0_v54]
theorem writes9_sub : (hostOps9 : List (HloOp τ sig (Elt Ideal))).Forall fun op => op.writes ⊆ ((writes9).map (Proc.devRef (τ := τ) .tc)).toFinset := by
  simp only [hostOps9, List.Forall]
  refine ?_ <;>
    (simp only [nullary_writes, unary_writes, binary_writes, reshape_writes, Finset.singleton_subset_iff, List.mem_toFinset]; exact List.mem_map_of_mem (by decide))
theorem host9 (c : Dev nD) (b : Ref sig .tc) (hb : b ∉ writes9) :
    W19 m ρ c (Proc.devRef .tc b) = W18 m ρ c (Proc.devRef .tc b) :=
  after_of_writes_sub hostOps9 _ (writes9_sub) hb

/-- Region 9 changes its result array only. -/
theorem region9 (c : Dev nD) (b : Ref sig .tc) (hb : b ≠ main_call0_v55) :
    W20 m ρ c (Proc.devRef .tc b) = W19 m ρ c (Proc.devRef .tc b) := by
  by_cases h : ∀ w, Pipeline.arrRef spec9 w ≠ b
  · exact W20_of_ne m ρ c b h
  · push Not at h
    obtain ⟨w, rfl⟩ := h
    have hin : (cfg9.win w).isOut = false := by
      revert hb; revert w; decide
    rw [W20_arr, Dat.arrAt_in (dat9 (V19 m ρ) c) w hin, A_eq9]

/-- Stretch 10 writes these buffers and no others. -/
abbrev writes10 : List (Ref sig .tc) := [main_call0_v56]
theorem writes10_sub : (hostOps10 : List (HloOp τ sig (Elt Ideal))).Forall fun op => op.writes ⊆ ((writes10).map (Proc.devRef (τ := τ) .tc)).toFinset := by
  simp only [hostOps10, List.Forall]
  refine ?_ <;>
    (simp only [nullary_writes, unary_writes, binary_writes, reshape_writes, Finset.singleton_subset_iff, List.mem_toFinset]; exact List.mem_map_of_mem (by decide))
theorem host10 (c : Dev nD) (b : Ref sig .tc) (hb : b ∉ writes10) :
    W21 m ρ c (Proc.devRef .tc b) = W20 m ρ c (Proc.devRef .tc b) :=
  after_of_writes_sub hostOps10 _ (writes10_sub) hb

/-- Region 10 changes its result array only. -/
theorem region10 (c : Dev nD) (b : Ref sig .tc) (hb : b ≠ main_call0_v57) :
    W22 m ρ c (Proc.devRef .tc b) = W21 m ρ c (Proc.devRef .tc b) := by
  by_cases h : ∀ w, Pipeline.arrRef spec10 w ≠ b
  · exact W22_of_ne m ρ c b h
  · push Not at h
    obtain ⟨w, rfl⟩ := h
    have hin : (cfg10.win w).isOut = false := by
      revert hb; revert w; decide
    rw [W22_arr, Dat.arrAt_in (dat10 (V21 m ρ) c) w hin, A_eq10]

/-- Stretch 11 writes these buffers and no others. -/
abbrev writes11 : List (Ref sig .tc) := [main_call0_v58, main_call0_v59, main_call0_v60, main_call0_v61, main_call0_v62, main_call0_v63, main_call0_v64]
theorem writes11_sub : (hostOps11 : List (HloOp τ sig (Elt Ideal))).Forall fun op => op.writes ⊆ ((writes11).map (Proc.devRef (τ := τ) .tc)).toFinset := by
  simp only [hostOps11, List.Forall]
  refine ⟨?_, ?_, ?_, ?_, ?_, ?_, ?_⟩ <;>
    (simp only [nullary_writes, unary_writes, binary_writes, reshape_writes, Finset.singleton_subset_iff, List.mem_toFinset]; exact List.mem_map_of_mem (by decide))
theorem host11 (c : Dev nD) (b : Ref sig .tc) (hb : b ∉ writes11) :
    W23 m ρ c (Proc.devRef .tc b) = W22 m ρ c (Proc.devRef .tc b) :=
  after_of_writes_sub hostOps11 _ (writes11_sub) hb

/-- Region 11 changes its result array only. -/
theorem region11 (c : Dev nD) (b : Ref sig .tc) (hb : b ≠ main_call0_v65) :
    W24 m ρ c (Proc.devRef .tc b) = W23 m ρ c (Proc.devRef .tc b) := by
  by_cases h : ∀ w, Pipeline.arrRef spec11 w ≠ b
  · exact W24_of_ne m ρ c b h
  · push Not at h
    obtain ⟨w, rfl⟩ := h
    have hin : (cfg11.win w).isOut = false := by
      revert hb; revert w; decide
    rw [W24_arr, Dat.arrAt_in (dat11 (V23 m ρ) c) w hin, A_eq11]

/-- Stretch 12 writes these buffers and no others. -/
abbrev writes12 : List (Ref sig .tc) := [main_call0_v66]
theorem writes12_sub : (hostOps12 : List (HloOp τ sig (Elt Ideal))).Forall fun op => op.writes ⊆ ((writes12).map (Proc.devRef (τ := τ) .tc)).toFinset := by
  simp only [hostOps12, List.Forall]
  refine ?_ <;>
    (simp only [nullary_writes, unary_writes, binary_writes, reshape_writes, Finset.singleton_subset_iff, List.mem_toFinset]; exact List.mem_map_of_mem (by decide))
theorem host12 (c : Dev nD) (b : Ref sig .tc) (hb : b ∉ writes12) :
    W25 m ρ c (Proc.devRef .tc b) = W24 m ρ c (Proc.devRef .tc b) :=
  after_of_writes_sub hostOps12 _ (writes12_sub) hb

/-- Region 12 changes its result array only. -/
theorem region12 (c : Dev nD) (b : Ref sig .tc) (hb : b ≠ main_call0_v67) :
    W26 m ρ c (Proc.devRef .tc b) = W25 m ρ c (Proc.devRef .tc b) := by
  by_cases h : ∀ w, Pipeline.arrRef spec12 w ≠ b
  · exact W26_of_ne m ρ c b h
  · push Not at h
    obtain ⟨w, rfl⟩ := h
    have hin : (cfg12.win w).isOut = false := by
      revert hb; revert w; decide
    rw [W26_arr, Dat.arrAt_in (dat12 (V25 m ρ) c) w hin, A_eq12]

/-- Stretch 13 writes these buffers and no others. -/
abbrev writes13 : List (Ref sig .tc) := [main_call0_v68]
theorem writes13_sub : (hostOps13 : List (HloOp τ sig (Elt Ideal))).Forall fun op => op.writes ⊆ ((writes13).map (Proc.devRef (τ := τ) .tc)).toFinset := by
  simp only [hostOps13, List.Forall]
  refine ?_ <;>
    (simp only [nullary_writes, unary_writes, binary_writes, reshape_writes, Finset.singleton_subset_iff, List.mem_toFinset]; exact List.mem_map_of_mem (by decide))
theorem host13 (c : Dev nD) (b : Ref sig .tc) (hb : b ∉ writes13) :
    W27 m ρ c (Proc.devRef .tc b) = W26 m ρ c (Proc.devRef .tc b) :=
  after_of_writes_sub hostOps13 _ (writes13_sub) hb

/-- Region 13 changes its result array only. -/
theorem region13 (c : Dev nD) (b : Ref sig .tc) (hb : b ≠ main_call0_v69) :
    W28 m ρ c (Proc.devRef .tc b) = W27 m ρ c (Proc.devRef .tc b) := by
  by_cases h : ∀ w, Pipeline.arrRef spec13 w ≠ b
  · exact W28_of_ne m ρ c b h
  · push Not at h
    obtain ⟨w, rfl⟩ := h
    have hin : (cfg13.win w).isOut = false := by
      revert hb; revert w; decide
    rw [W28_arr, Dat.arrAt_in (dat13 (V27 m ρ) c) w hin, A_eq13]

/-- Stretch 14 writes these buffers and no others. -/
abbrev writes14 : List (Ref sig .tc) := [main_call0_v70, main_call0_v71, main_call0_v72, main_call0_v73, main_call0_v74, main_call0_v75, main_call0_v76, main_call0_v77, main_call0_v78, main_call0_v79, main_call0_v80]
theorem writes14_sub : (hostOps14 : List (HloOp τ sig (Elt Ideal))).Forall fun op => op.writes ⊆ ((writes14).map (Proc.devRef (τ := τ) .tc)).toFinset := by
  simp only [hostOps14, List.Forall]
  refine ⟨?_, ?_, ?_, ?_, ?_, ?_, ?_, ?_, ?_, ?_, ?_⟩ <;>
    (simp only [nullary_writes, unary_writes, binary_writes, reshape_writes, Finset.singleton_subset_iff, List.mem_toFinset]; exact List.mem_map_of_mem (by decide))
theorem host14 (c : Dev nD) (b : Ref sig .tc) (hb : b ∉ writes14) :
    W29 m ρ c (Proc.devRef .tc b) = W28 m ρ c (Proc.devRef .tc b) :=
  after_of_writes_sub hostOps14 _ (writes14_sub) hb

/-- Region 14 changes its result array only. -/
theorem region14 (c : Dev nD) (b : Ref sig .tc) (hb : b ≠ main_call0_v81) :
    W30 m ρ c (Proc.devRef .tc b) = W29 m ρ c (Proc.devRef .tc b) := by
  by_cases h : ∀ w, Pipeline.arrRef spec14 w ≠ b
  · exact W30_of_ne m ρ c b h
  · push Not at h
    obtain ⟨w, rfl⟩ := h
    have hin : (cfg14.win w).isOut = false := by
      revert hb; revert w; decide
    rw [W30_arr, Dat.arrAt_in (dat14 (V29 m ρ) c) w hin, A_eq14]

/-- Stretch 15 writes these buffers and no others. -/
abbrev writes15 : List (Ref sig .tc) := [main_call0_v82]
theorem writes15_sub : (hostOps15 : List (HloOp τ sig (Elt Ideal))).Forall fun op => op.writes ⊆ ((writes15).map (Proc.devRef (τ := τ) .tc)).toFinset := by
  simp only [hostOps15, List.Forall]
  refine ?_ <;>
    (simp only [nullary_writes, unary_writes, binary_writes, reshape_writes, Finset.singleton_subset_iff, List.mem_toFinset]; exact List.mem_map_of_mem (by decide))
theorem host15 (c : Dev nD) (b : Ref sig .tc) (hb : b ∉ writes15) :
    W31 m ρ c (Proc.devRef .tc b) = W30 m ρ c (Proc.devRef .tc b) :=
  after_of_writes_sub hostOps15 _ (writes15_sub) hb

/-- Region 15 changes its result array only. -/
theorem region15 (c : Dev nD) (b : Ref sig .tc) (hb : b ≠ main_call0_v83) :
    W32 m ρ c (Proc.devRef .tc b) = W31 m ρ c (Proc.devRef .tc b) := by
  by_cases h : ∀ w, Pipeline.arrRef spec15 w ≠ b
  · exact W32_of_ne m ρ c b h
  · push Not at h
    obtain ⟨w, rfl⟩ := h
    have hin : (cfg15.win w).isOut = false := by
      revert hb; revert w; decide
    rw [W32_arr, Dat.arrAt_in (dat15 (V31 m ρ) c) w hin, A_eq15]

/-- Stretch 16 writes these buffers and no others. -/
abbrev writes16 : List (Ref sig .tc) := [main_call0_v84]
theorem writes16_sub : (hostOps16 : List (HloOp τ sig (Elt Ideal))).Forall fun op => op.writes ⊆ ((writes16).map (Proc.devRef (τ := τ) .tc)).toFinset := by
  simp only [hostOps16, List.Forall]
  refine ?_ <;>
    (simp only [nullary_writes, unary_writes, binary_writes, reshape_writes, Finset.singleton_subset_iff, List.mem_toFinset]; exact List.mem_map_of_mem (by decide))
theorem host16 (c : Dev nD) (b : Ref sig .tc) (hb : b ∉ writes16) :
    W33 m ρ c (Proc.devRef .tc b) = W32 m ρ c (Proc.devRef .tc b) :=
  after_of_writes_sub hostOps16 _ (writes16_sub) hb

/-- Region 16 changes its result array only. -/
theorem region16 (c : Dev nD) (b : Ref sig .tc) (hb : b ≠ main_call0_v85) :
    W34 m ρ c (Proc.devRef .tc b) = W33 m ρ c (Proc.devRef .tc b) := by
  by_cases h : ∀ w, Pipeline.arrRef spec16 w ≠ b
  · exact W34_of_ne m ρ c b h
  · push Not at h
    obtain ⟨w, rfl⟩ := h
    have hin : (cfg16.win w).isOut = false := by
      revert hb; revert w; decide
    rw [W34_arr, Dat.arrAt_in (dat16 (V33 m ρ) c) w hin, A_eq16]

/-- Stretch 17 writes these buffers and no others. -/
abbrev writes17 : List (Ref sig .tc) := [main_call0_v86]
theorem writes17_sub : (hostOps17 : List (HloOp τ sig (Elt Ideal))).Forall fun op => op.writes ⊆ ((writes17).map (Proc.devRef (τ := τ) .tc)).toFinset := by
  simp only [hostOps17, List.Forall]
  refine ?_ <;>
    (simp only [nullary_writes, unary_writes, binary_writes, reshape_writes, Finset.singleton_subset_iff, List.mem_toFinset]; exact List.mem_map_of_mem (by decide))
theorem host17 (c : Dev nD) (b : Ref sig .tc) (hb : b ∉ writes17) :
    W35 m ρ c (Proc.devRef .tc b) = W34 m ρ c (Proc.devRef .tc b) :=
  after_of_writes_sub hostOps17 _ (writes17_sub) hb

/-- Region 17 changes its result array only. -/
theorem region17 (c : Dev nD) (b : Ref sig .tc) (hb : b ≠ main_call0_v87) :
    W36 m ρ c (Proc.devRef .tc b) = W35 m ρ c (Proc.devRef .tc b) := by
  by_cases h : ∀ w, Pipeline.arrRef spec17 w ≠ b
  · exact W36_of_ne m ρ c b h
  · push Not at h
    obtain ⟨w, rfl⟩ := h
    have hin : (cfg17.win w).isOut = false := by
      revert hb; revert w; decide
    rw [W36_arr, Dat.arrAt_in (dat17 (V35 m ρ) c) w hin, A_eq17]

/-- Stretch 18 writes these buffers and no others. -/
abbrev writes18 : List (Ref sig .tc) := [main_call0_v88]
theorem writes18_sub : (hostOps18 : List (HloOp τ sig (Elt Ideal))).Forall fun op => op.writes ⊆ ((writes18).map (Proc.devRef (τ := τ) .tc)).toFinset := by
  simp only [hostOps18, List.Forall]
  refine ?_ <;>
    (simp only [nullary_writes, unary_writes, binary_writes, reshape_writes, Finset.singleton_subset_iff, List.mem_toFinset]; exact List.mem_map_of_mem (by decide))
theorem host18 (c : Dev nD) (b : Ref sig .tc) (hb : b ∉ writes18) :
    W37 m ρ c (Proc.devRef .tc b) = W36 m ρ c (Proc.devRef .tc b) :=
  after_of_writes_sub hostOps18 _ (writes18_sub) hb

/-- Region 18 changes its result array only. -/
theorem region18 (c : Dev nD) (b : Ref sig .tc) (hb : b ≠ main_call0_v89) :
    W38 m ρ c (Proc.devRef .tc b) = W37 m ρ c (Proc.devRef .tc b) := by
  by_cases h : ∀ w, Pipeline.arrRef spec18 w ≠ b
  · exact W38_of_ne m ρ c b h
  · push Not at h
    obtain ⟨w, rfl⟩ := h
    have hin : (cfg18.win w).isOut = false := by
      revert hb; revert w; decide
    rw [W38_arr, Dat.arrAt_in (dat18 (V37 m ρ) c) w hin, A_eq18]

/-- Stretch 19 writes these buffers and no others. -/
abbrev writes19 : List (Ref sig .tc) := [main_call0_v90, main_call0_v91, main_call0_v92, main_call0_v93, main_call0_v94, main_call0_v95, main_call0_v96]
theorem writes19_sub : (hostOps19 : List (HloOp τ sig (Elt Ideal))).Forall fun op => op.writes ⊆ ((writes19).map (Proc.devRef (τ := τ) .tc)).toFinset := by
  simp only [hostOps19, List.Forall]
  refine ⟨?_, ?_, ?_, ?_, ?_, ?_, ?_⟩ <;>
    (simp only [nullary_writes, unary_writes, binary_writes, reshape_writes, Finset.singleton_subset_iff, List.mem_toFinset]; exact List.mem_map_of_mem (by decide))
theorem host19 (c : Dev nD) (b : Ref sig .tc) (hb : b ∉ writes19) :
    W39 m ρ c (Proc.devRef .tc b) = W38 m ρ c (Proc.devRef .tc b) :=
  after_of_writes_sub hostOps19 _ (writes19_sub) hb

/-- Region 19 changes its result array only. -/
theorem region19 (c : Dev nD) (b : Ref sig .tc) (hb : b ≠ main_call0_v97) :
    W40 m ρ c (Proc.devRef .tc b) = W39 m ρ c (Proc.devRef .tc b) := by
  by_cases h : ∀ w, Pipeline.arrRef spec19 w ≠ b
  · exact W40_of_ne m ρ c b h
  · push Not at h
    obtain ⟨w, rfl⟩ := h
    have hin : (cfg19.win w).isOut = false := by
      revert hb; revert w; decide
    rw [W40_arr, Dat.arrAt_in (dat19 (V39 m ρ) c) w hin, A_eq19]

/-- Stretch 20 writes these buffers and no others. -/
abbrev writes20 : List (Ref sig .tc) := [main_call0_v98, main_call0_v99, main_call0_v100, main_call0_v101, main_call0_v102, main_call0_v103, main_call0_v104]
theorem writes20_sub : (hostOps20 : List (HloOp τ sig (Elt Ideal))).Forall fun op => op.writes ⊆ ((writes20).map (Proc.devRef (τ := τ) .tc)).toFinset := by
  simp only [hostOps20, List.Forall]
  refine ⟨?_, ?_, ?_, ?_, ?_, ?_, ?_⟩ <;>
    (simp only [nullary_writes, unary_writes, binary_writes, reshape_writes, Finset.singleton_subset_iff, List.mem_toFinset]; exact List.mem_map_of_mem (by decide))
theorem host20 (c : Dev nD) (b : Ref sig .tc) (hb : b ∉ writes20) :
    W41 m ρ c (Proc.devRef .tc b) = W40 m ρ c (Proc.devRef .tc b) :=
  after_of_writes_sub hostOps20 _ (writes20_sub) hb

/-- Region 20 changes its result array only. -/
theorem region20 (c : Dev nD) (b : Ref sig .tc) (hb : b ≠ main_call0_v105) :
    W42 m ρ c (Proc.devRef .tc b) = W41 m ρ c (Proc.devRef .tc b) := by
  by_cases h : ∀ w, Pipeline.arrRef spec20 w ≠ b
  · exact W42_of_ne m ρ c b h
  · push Not at h
    obtain ⟨w, rfl⟩ := h
    have hin : (cfg20.win w).isOut = false := by
      revert hb; revert w; decide
    rw [W42_arr, Dat.arrAt_in (dat20 (V41 m ρ) c) w hin, A_eq20]

/-- Stretch 21 writes these buffers and no others. -/
abbrev writes21 : List (Ref sig .tc) := [main_call0_v106, main_call0_v107, main_call0_v108]
theorem writes21_sub : (hostOps21 : List (HloOp τ sig (Elt Ideal))).Forall fun op => op.writes ⊆ ((writes21).map (Proc.devRef (τ := τ) .tc)).toFinset := by
  simp only [hostOps21, List.Forall]
  refine ⟨?_, ?_, ?_⟩ <;>
    (simp only [nullary_writes, unary_writes, binary_writes, reshape_writes, Finset.singleton_subset_iff, List.mem_toFinset]; exact List.mem_map_of_mem (by decide))
theorem host21 (c : Dev nD) (b : Ref sig .tc) (hb : b ∉ writes21) :
    W43 m ρ c (Proc.devRef .tc b) = W42 m ρ c (Proc.devRef .tc b) :=
  after_of_writes_sub hostOps21 _ (writes21_sub) hb

/-- Region 21 changes its result array only. -/
theorem region21 (c : Dev nD) (b : Ref sig .tc) (hb : b ≠ main_call0_v109) :
    W44 m ρ c (Proc.devRef .tc b) = W43 m ρ c (Proc.devRef .tc b) := by
  by_cases h : ∀ w, Pipeline.arrRef spec21 w ≠ b
  · exact W44_of_ne m ρ c b h
  · push Not at h
    obtain ⟨w, rfl⟩ := h
    have hin : (cfg21.win w).isOut = false := by
      revert hb; revert w; decide
    rw [W44_arr, Dat.arrAt_in (dat21 (V43 m ρ) c) w hin, A_eq21]

/-- Stretch 22 writes these buffers and no others. -/
abbrev writes22 : List (Ref sig .tc) := [main_call0_v110, main_call0_v111, main_call0_v112, main_call0_v113, main_call0_v114, main_call0_v115, main_call0_v116]
theorem writes22_sub : (hostOps22 : List (HloOp τ sig (Elt Ideal))).Forall fun op => op.writes ⊆ ((writes22).map (Proc.devRef (τ := τ) .tc)).toFinset := by
  simp only [hostOps22, List.Forall]
  refine ⟨?_, ?_, ?_, ?_, ?_, ?_, ?_⟩ <;>
    (simp only [nullary_writes, unary_writes, binary_writes, reshape_writes, Finset.singleton_subset_iff, List.mem_toFinset]; exact List.mem_map_of_mem (by decide))
theorem host22 (c : Dev nD) (b : Ref sig .tc) (hb : b ∉ writes22) :
    W45 m ρ c (Proc.devRef .tc b) = W44 m ρ c (Proc.devRef .tc b) :=
  after_of_writes_sub hostOps22 _ (writes22_sub) hb

/-- Region 22 changes its result array only. -/
theorem region22 (c : Dev nD) (b : Ref sig .tc) (hb : b ≠ main_call0_v117) :
    W46 m ρ c (Proc.devRef .tc b) = W45 m ρ c (Proc.devRef .tc b) := by
  by_cases h : ∀ w, Pipeline.arrRef spec22 w ≠ b
  · exact W46_of_ne m ρ c b h
  · push Not at h
    obtain ⟨w, rfl⟩ := h
    have hin : (cfg22.win w).isOut = false := by
      revert hb; revert w; decide
    rw [W46_arr, Dat.arrAt_in (dat22 (V45 m ρ) c) w hin, A_eq22]

/-- Stretch 23 writes these buffers and no others. -/
abbrev writes23 : List (Ref sig .tc) := [main_call0_v118, main_call0_v119, main_call0_v120, main_call0_v121, main_call0_v122, main_call0_v123, main_call0_v124]
theorem writes23_sub : (hostOps23 : List (HloOp τ sig (Elt Ideal))).Forall fun op => op.writes ⊆ ((writes23).map (Proc.devRef (τ := τ) .tc)).toFinset := by
  simp only [hostOps23, List.Forall]
  refine ⟨?_, ?_, ?_, ?_, ?_, ?_, ?_⟩ <;>
    (simp only [nullary_writes, unary_writes, binary_writes, reshape_writes, Finset.singleton_subset_iff, List.mem_toFinset]; exact List.mem_map_of_mem (by decide))
theorem host23 (c : Dev nD) (b : Ref sig .tc) (hb : b ∉ writes23) :
    W47 m ρ c (Proc.devRef .tc b) = W46 m ρ c (Proc.devRef .tc b) :=
  after_of_writes_sub hostOps23 _ (writes23_sub) hb

/-- Region 23 changes its result array only. -/
theorem region23 (c : Dev nD) (b : Ref sig .tc) (hb : b ≠ main_call0_v125) :
    W48 m ρ c (Proc.devRef .tc b) = W47 m ρ c (Proc.devRef .tc b) := by
  by_cases h : ∀ w, Pipeline.arrRef spec23 w ≠ b
  · exact W48_of_ne m ρ c b h
  · push Not at h
    obtain ⟨w, rfl⟩ := h
    have hin : (cfg23.win w).isOut = false := by
      revert hb; revert w; decide
    rw [W48_arr, Dat.arrAt_in (dat23 (V47 m ρ) c) w hin, A_eq23]

/-- Stretch 24 writes these buffers and no others. -/
abbrev writes24 : List (Ref sig .tc) := [main_call0_v126, main_call0_v127, main_call0_v128]
theorem writes24_sub : (hostOps24 : List (HloOp τ sig (Elt Ideal))).Forall fun op => op.writes ⊆ ((writes24).map (Proc.devRef (τ := τ) .tc)).toFinset := by
  simp only [hostOps24, List.Forall]
  refine ⟨?_, ?_, ?_⟩ <;>
    (simp only [nullary_writes, unary_writes, binary_writes, reshape_writes, Finset.singleton_subset_iff, List.mem_toFinset]; exact List.mem_map_of_mem (by decide))
theorem host24 (c : Dev nD) (b : Ref sig .tc) (hb : b ∉ writes24) :
    W49 m ρ c (Proc.devRef .tc b) = W48 m ρ c (Proc.devRef .tc b) :=
  after_of_writes_sub hostOps24 _ (writes24_sub) hb

/-- Region 24 changes its result array only. -/
theorem region24 (c : Dev nD) (b : Ref sig .tc) (hb : b ≠ main_call0_v129) :
    W50 m ρ c (Proc.devRef .tc b) = W49 m ρ c (Proc.devRef .tc b) := by
  by_cases h : ∀ w, Pipeline.arrRef spec24 w ≠ b
  · exact W50_of_ne m ρ c b h
  · push Not at h
    obtain ⟨w, rfl⟩ := h
    have hin : (cfg24.win w).isOut = false := by
      revert hb; revert w; decide
    rw [W50_arr, Dat.arrAt_in (dat24 (V49 m ρ) c) w hin, A_eq24]

/-- Stretch 25 writes these buffers and no others. -/
abbrev writes25 : List (Ref sig .tc) := [main_call0_v130, main_call0_v131, main_call0_v132, main_call0_v133, main_call0_v134, main_call0_v135, main_call0_v136]
theorem writes25_sub : (hostOps25 : List (HloOp τ sig (Elt Ideal))).Forall fun op => op.writes ⊆ ((writes25).map (Proc.devRef (τ := τ) .tc)).toFinset := by
  simp only [hostOps25, List.Forall]
  refine ⟨?_, ?_, ?_, ?_, ?_, ?_, ?_⟩ <;>
    (simp only [nullary_writes, unary_writes, binary_writes, reshape_writes, Finset.singleton_subset_iff, List.mem_toFinset]; exact List.mem_map_of_mem (by decide))
theorem host25 (c : Dev nD) (b : Ref sig .tc) (hb : b ∉ writes25) :
    W51 m ρ c (Proc.devRef .tc b) = W50 m ρ c (Proc.devRef .tc b) :=
  after_of_writes_sub hostOps25 _ (writes25_sub) hb

/-- Region 25 changes its result array only. -/
theorem region25 (c : Dev nD) (b : Ref sig .tc) (hb : b ≠ main_call0_v137) :
    W52 m ρ c (Proc.devRef .tc b) = W51 m ρ c (Proc.devRef .tc b) := by
  by_cases h : ∀ w, Pipeline.arrRef spec25 w ≠ b
  · exact W52_of_ne m ρ c b h
  · push Not at h
    obtain ⟨w, rfl⟩ := h
    have hin : (cfg25.win w).isOut = false := by
      revert hb; revert w; decide
    rw [W52_arr, Dat.arrAt_in (dat25 (V51 m ρ) c) w hin, A_eq25]

/-- Stretch 26 writes these buffers and no others. -/
abbrev writes26 : List (Ref sig .tc) := [main_call0_v138, main_call0_v139, main_call0_v140, main_call0_v141, main_call0_v142, main_call0_v143, main_call0_v144]
theorem writes26_sub : (hostOps26 : List (HloOp τ sig (Elt Ideal))).Forall fun op => op.writes ⊆ ((writes26).map (Proc.devRef (τ := τ) .tc)).toFinset := by
  simp only [hostOps26, List.Forall]
  refine ⟨?_, ?_, ?_, ?_, ?_, ?_, ?_⟩ <;>
    (simp only [nullary_writes, unary_writes, binary_writes, reshape_writes, Finset.singleton_subset_iff, List.mem_toFinset]; exact List.mem_map_of_mem (by decide))
theorem host26 (c : Dev nD) (b : Ref sig .tc) (hb : b ∉ writes26) :
    W53 m ρ c (Proc.devRef .tc b) = W52 m ρ c (Proc.devRef .tc b) :=
  after_of_writes_sub hostOps26 _ (writes26_sub) hb

/-- Region 26 changes its result array only. -/
theorem region26 (c : Dev nD) (b : Ref sig .tc) (hb : b ≠ main_call0_v145) :
    W54 m ρ c (Proc.devRef .tc b) = W53 m ρ c (Proc.devRef .tc b) := by
  by_cases h : ∀ w, Pipeline.arrRef spec26 w ≠ b
  · exact W54_of_ne m ρ c b h
  · push Not at h
    obtain ⟨w, rfl⟩ := h
    have hin : (cfg26.win w).isOut = false := by
      revert hb; revert w; decide
    rw [W54_arr, Dat.arrAt_in (dat26 (V53 m ρ) c) w hin, A_eq26]

/-- Stretch 27 writes these buffers and no others. -/
abbrev writes27 : List (Ref sig .tc) := [main_call0_v146, main_call0_v147, main_call0_v148]
theorem writes27_sub : (hostOps27 : List (HloOp τ sig (Elt Ideal))).Forall fun op => op.writes ⊆ ((writes27).map (Proc.devRef (τ := τ) .tc)).toFinset := by
  simp only [hostOps27, List.Forall]
  refine ⟨?_, ?_, ?_⟩ <;>
    (simp only [nullary_writes, unary_writes, binary_writes, reshape_writes, Finset.singleton_subset_iff, List.mem_toFinset]; exact List.mem_map_of_mem (by decide))
theorem host27 (c : Dev nD) (b : Ref sig .tc) (hb : b ∉ writes27) :
    W55 m ρ c (Proc.devRef .tc b) = W54 m ρ c (Proc.devRef .tc b) :=
  after_of_writes_sub hostOps27 _ (writes27_sub) hb

/-- Region 27 changes its result array only. -/
theorem region27 (c : Dev nD) (b : Ref sig .tc) (hb : b ≠ main_call0_v149) :
    W56 m ρ c (Proc.devRef .tc b) = W55 m ρ c (Proc.devRef .tc b) := by
  by_cases h : ∀ w, Pipeline.arrRef spec27 w ≠ b
  · exact W56_of_ne m ρ c b h
  · push Not at h
    obtain ⟨w, rfl⟩ := h
    have hin : (cfg27.win w).isOut = false := by
      revert hb; revert w; decide
    rw [W56_arr, Dat.arrAt_in (dat27 (V55 m ρ) c) w hin, A_eq27]

/-- Stretch 28 writes these buffers and no others. -/
abbrev writes28 : List (Ref sig .tc) := [main_call0_v150, main_call0_v151, main_call0_v152, main_call0_v153, main_call0_v154, main_call0_v155, main_call0_v156]
theorem writes28_sub : (hostOps28 : List (HloOp τ sig (Elt Ideal))).Forall fun op => op.writes ⊆ ((writes28).map (Proc.devRef (τ := τ) .tc)).toFinset := by
  simp only [hostOps28, List.Forall]
  refine ⟨?_, ?_, ?_, ?_, ?_, ?_, ?_⟩ <;>
    (simp only [nullary_writes, unary_writes, binary_writes, reshape_writes, Finset.singleton_subset_iff, List.mem_toFinset]; exact List.mem_map_of_mem (by decide))
theorem host28 (c : Dev nD) (b : Ref sig .tc) (hb : b ∉ writes28) :
    W57 m ρ c (Proc.devRef .tc b) = W56 m ρ c (Proc.devRef .tc b) :=
  after_of_writes_sub hostOps28 _ (writes28_sub) hb

/-- Region 28 changes its result array only. -/
theorem region28 (c : Dev nD) (b : Ref sig .tc) (hb : b ≠ main_call0_v157) :
    W58 m ρ c (Proc.devRef .tc b) = W57 m ρ c (Proc.devRef .tc b) := by
  by_cases h : ∀ w, Pipeline.arrRef spec28 w ≠ b
  · exact W58_of_ne m ρ c b h
  · push Not at h
    obtain ⟨w, rfl⟩ := h
    have hin : (cfg28.win w).isOut = false := by
      revert hb; revert w; decide
    rw [W58_arr, Dat.arrAt_in (dat28 (V57 m ρ) c) w hin, A_eq28]

/-- Stretch 29 writes these buffers and no others. -/
abbrev writes29 : List (Ref sig .tc) := [main_call0_v158, main_call0_v159, main_call0_v160, main_call0_v161, main_call0_v162, main_call0_v163, main_call0_v164]
theorem writes29_sub : (hostOps29 : List (HloOp τ sig (Elt Ideal))).Forall fun op => op.writes ⊆ ((writes29).map (Proc.devRef (τ := τ) .tc)).toFinset := by
  simp only [hostOps29, List.Forall]
  refine ⟨?_, ?_, ?_, ?_, ?_, ?_, ?_⟩ <;>
    (simp only [nullary_writes, unary_writes, binary_writes, reshape_writes, Finset.singleton_subset_iff, List.mem_toFinset]; exact List.mem_map_of_mem (by decide))
theorem host29 (c : Dev nD) (b : Ref sig .tc) (hb : b ∉ writes29) :
    W59 m ρ c (Proc.devRef .tc b) = W58 m ρ c (Proc.devRef .tc b) :=
  after_of_writes_sub hostOps29 _ (writes29_sub) hb

/-- Region 29 changes its result array only. -/
theorem region29 (c : Dev nD) (b : Ref sig .tc) (hb : b ≠ main_call0_v165) :
    W60 m ρ c (Proc.devRef .tc b) = W59 m ρ c (Proc.devRef .tc b) := by
  by_cases h : ∀ w, Pipeline.arrRef spec29 w ≠ b
  · exact W60_of_ne m ρ c b h
  · push Not at h
    obtain ⟨w, rfl⟩ := h
    have hin : (cfg29.win w).isOut = false := by
      revert hb; revert w; decide
    rw [W60_arr, Dat.arrAt_in (dat29 (V59 m ρ) c) w hin, A_eq29]

/-- Stretch 30 writes these buffers and no others. -/
abbrev writes30 : List (Ref sig .tc) := [main_call0_v166, main_call0_v167, main_call0_v168]
theorem writes30_sub : (hostOps30 : List (HloOp τ sig (Elt Ideal))).Forall fun op => op.writes ⊆ ((writes30).map (Proc.devRef (τ := τ) .tc)).toFinset := by
  simp only [hostOps30, List.Forall]
  refine ⟨?_, ?_, ?_⟩ <;>
    (simp only [nullary_writes, unary_writes, binary_writes, reshape_writes, Finset.singleton_subset_iff, List.mem_toFinset]; exact List.mem_map_of_mem (by decide))
theorem host30 (c : Dev nD) (b : Ref sig .tc) (hb : b ∉ writes30) :
    W61 m ρ c (Proc.devRef .tc b) = W60 m ρ c (Proc.devRef .tc b) :=
  after_of_writes_sub hostOps30 _ (writes30_sub) hb

/-- Region 30 changes its result array only. -/
theorem region30 (c : Dev nD) (b : Ref sig .tc) (hb : b ≠ main_v0_0) :
    W62 m ρ c (Proc.devRef .tc b) = W61 m ρ c (Proc.devRef .tc b) := by
  by_cases h : ∀ w, Pipeline.arrRef spec30 w ≠ b
  · exact W62_of_ne m ρ c b h
  · push Not at h
    obtain ⟨w, rfl⟩ := h
    have hin : (cfg30.win w).isOut = false := by
      revert hb; revert w; decide
    rw [W62_arr, Dat.arrAt_in (dat30 (V61 m ρ) c) w hin, A_eq30]

/-- Stretch 31 writes these buffers and no others. -/
abbrev writes31 : List (Ref sig .tc) := [main_call0_v170]
theorem writes31_sub : (hostOps31 : List (HloOp τ sig (Elt Ideal))).Forall fun op => op.writes ⊆ ((writes31).map (Proc.devRef (τ := τ) .tc)).toFinset := by
  simp only [hostOps31, List.Forall]
  refine ?_ <;>
    (simp only [nullary_writes, unary_writes, binary_writes, reshape_writes, Finset.singleton_subset_iff, List.mem_toFinset]; exact List.mem_map_of_mem (by decide))
theorem host31 (c : Dev nD) (b : Ref sig .tc) (hb : b ∉ writes31) :
    W63 m ρ c (Proc.devRef .tc b) = W62 m ρ c (Proc.devRef .tc b) :=
  after_of_writes_sub hostOps31 _ (writes31_sub) hb

/-- Region 31 changes its result array only. -/
theorem region31 (c : Dev nD) (b : Ref sig .tc) (hb : b ≠ main_call0_v171) :
    W64 m ρ c (Proc.devRef .tc b) = W63 m ρ c (Proc.devRef .tc b) := by
  by_cases h : ∀ w, Pipeline.arrRef spec31 w ≠ b
  · exact W64_of_ne m ρ c b h
  · push Not at h
    obtain ⟨w, rfl⟩ := h
    have hin : (cfg31.win w).isOut = false := by
      revert hb; revert w; decide
    rw [W64_arr, Dat.arrAt_in (dat31 (V63 m ρ) c) w hin, A_eq31]

/-- Stretch 32 writes these buffers and no others. -/
abbrev writes32 : List (Ref sig .tc) := [main_call0_v172, main_call0_v173, main_call0_v174, main_call0_v175, main_call0_v176, main_call0_v177, main_call0_v178, main_call0_v179]
theorem writes32_sub : (hostOps32 : List (HloOp τ sig (Elt Ideal))).Forall fun op => op.writes ⊆ ((writes32).map (Proc.devRef (τ := τ) .tc)).toFinset := by
  simp only [hostOps32, List.Forall]
  refine ⟨?_, ?_, ?_, ?_, ?_, ?_, ?_, ?_⟩ <;>
    (simp only [nullary_writes, unary_writes, binary_writes, reshape_writes, Finset.singleton_subset_iff, List.mem_toFinset]; exact List.mem_map_of_mem (by decide))
theorem host32 (c : Dev nD) (b : Ref sig .tc) (hb : b ∉ writes32) :
    W65 m ρ c (Proc.devRef .tc b) = W64 m ρ c (Proc.devRef .tc b) :=
  after_of_writes_sub hostOps32 _ (writes32_sub) hb

/-- Region 32 changes its result array only. -/
theorem region32 (c : Dev nD) (b : Ref sig .tc) (hb : b ≠ main_v0_1) :
    W66 m ρ c (Proc.devRef .tc b) = W65 m ρ c (Proc.devRef .tc b) := by
  by_cases h : ∀ w, Pipeline.arrRef spec32 w ≠ b
  · exact W66_of_ne m ρ c b h
  · push Not at h
    obtain ⟨w, rfl⟩ := h
    have hin : (cfg32.win w).isOut = false := by
      revert hb; revert w; decide
    rw [W66_arr, Dat.arrAt_in (dat32 (V65 m ρ) c) w hin, A_eq32]

/-- Stretch 33 writes these buffers and no others. -/
abbrev writes33 : List (Ref sig .tc) := [main_call0_v181]
theorem writes33_sub : (hostOps33 : List (HloOp τ sig (Elt Ideal))).Forall fun op => op.writes ⊆ ((writes33).map (Proc.devRef (τ := τ) .tc)).toFinset := by
  simp only [hostOps33, List.Forall]
  refine ?_ <;>
    (simp only [nullary_writes, unary_writes, binary_writes, reshape_writes, Finset.singleton_subset_iff, List.mem_toFinset]; exact List.mem_map_of_mem (by decide))
theorem host33 (c : Dev nD) (b : Ref sig .tc) (hb : b ∉ writes33) :
    W67 m ρ c (Proc.devRef .tc b) = W66 m ρ c (Proc.devRef .tc b) :=
  after_of_writes_sub hostOps33 _ (writes33_sub) hb

/-- Region 33 changes its result array only. -/
theorem region33 (c : Dev nD) (b : Ref sig .tc) (hb : b ≠ main_v0_2) :
    W68 m ρ c (Proc.devRef .tc b) = W67 m ρ c (Proc.devRef .tc b) := by
  by_cases h : ∀ w, Pipeline.arrRef spec33 w ≠ b
  · exact W68_of_ne m ρ c b h
  · push Not at h
    obtain ⟨w, rfl⟩ := h
    have hin : (cfg33.win w).isOut = false := by
      revert hb; revert w; decide
    rw [W68_arr, Dat.arrAt_in (dat33 (V67 m ρ) c) w hin, A_eq33]

end Cert.KernelIdeal.Keep

end
-- ==== Proof.LibRowOfVector.lean ====
/-
  A bias vector as an array of one row, two ways.

  A vector of length `a` can be made an array of shape `[1, a]` by a reshape (row-major positions are kept) or by a
  broadcast that sends the vector's axis to the array's second axis. Both arrays have entry `(0, q)` equal to entry `q`
  of the vector, so they are the same array. A tiled kernel usually receives its bias in the first form, a whole-array
  reference usually builds the second.
-/
import Idealize.ShloMosaic.Lib.ValueLayout
import Idealize.ShloMosaic.Lib.ValueIdx
import Idealize.ShloMosaic.Lib.Pipeline.Value

noncomputable section

namespace Cert.LibRowOfVector

open Idealize.ShloMosaic Idealize.ShloMosaic.ValueIdx

/-- A vector reshaped to an array of one row is the vector broadcast along that row: entry `(0, q)` of either is
    entry `q` of the vector. Holds for any element type and any length (for length one the broadcast reads index
    `0`, which is the only index). -/
theorem row_of_vector {α : Type} {a : ℕ} (x : (⟨1, ![a]⟩ : Shape).Idx → α) (h : (⟨1, ![a]⟩ : Shape).ShapeCasts ⟨2, ![1, a]⟩)
    (hb : (⟨1, ![a]⟩ : Shape).BroadcastsInDim ⟨2, ![1, a]⟩ ![1]) :
    shapeCast ⟨2, ![1, a]⟩ x h = broadcastInDim ⟨2, ![1, a]⟩ ![1] hb x := by
  funext i
  obtain ⟨u, q, rfl⟩ : ∃ (u : Fin 1) (q : Fin a), i = ix2 u q := ⟨i 0, i 1, eq_ix2 i⟩
  rw [shapeCast_a_1a_apply]
  refine (broadcastInDim_apply _ hb x (ix2 u q) (ix1 q) (fun d => ?_)).symm
  match d with
  | ⟨0, _⟩ =>
    show q.val = if a = 1 then 0 else q.val
    split
    · have := q.isLt; omega
    · rfl

end Cert.LibRowOfVector

end
-- ==== Proof.LibHostBroadcast.lean ====
/-
  Two host broadcasts read at an entry.

  A one-row array [1, b] broadcast to [a, b] with both axes kept (dims = [0, 1]) reads, at (i, q), the row's entry
  (0, q): the unit axis reads index 0, the other axis its own coordinate (and when b = 1 that coordinate is 0 too).
  A scalar broadcast to any shape (dims = []) reads the scalar at every entry. These are the forms a whole-array
  reference builds a bias row and a constant array in.
-/
import Idealize.ShloMosaic.Lib.ValueIdx
import Idealize.ShloMosaic.Lib.Pipeline.Value

noncomputable section

namespace Cert.LibHostBroadcast

open Idealize.ShloMosaic Idealize.ShloMosaic.ValueIdx

/-- A one-row array broadcast down the rows (both axes kept) reads, at (i, q), the row's entry (0, q). -/
theorem bcast_rows_apply {α : Type} {a b : ℕ} (v : (⟨2, ![1, b]⟩ : Shape).Idx → α)
    (h : (⟨2, ![1, b]⟩ : Shape).BroadcastsInDim ⟨2, ![a, b]⟩ ![0, 1]) (i : Fin a) (q : Fin b) :
    broadcastInDim ⟨2, ![a, b]⟩ ![0, 1] h v (ix2 i q) = v (ix2 (0 : Fin 1) q) := by
  refine broadcastInDim_apply _ h v (ix2 i q) (ix2 (0 : Fin 1) q) fun d => ?_
  match d with
  | ⟨0, _⟩ => rfl
  | ⟨1, _⟩ =>
    show q.val = if b = 1 then 0 else q.val
    split
    · have := q.isLt; omega
    · rfl

/-- A scalar broadcast to an array reads the scalar at every entry. -/
theorem bcast_scalar_apply {α : Type} {t : Shape} (v : (⟨0, ![]⟩ : Shape).Idx → α)
    (h : (⟨0, ![]⟩ : Shape).BroadcastsInDim t ![]) (j : t.Idx) :
    broadcastInDim t ![] h v j = v ix0 :=
  broadcastInDim_apply _ h v j ix0 fun d => d.elim0

end Cert.LibHostBroadcast

end
-- ==== Proof.LibBiasRow.lean ====
/-
  A bias row added to every row of an array, with no activation, entry by entry.

  The last layer of a network adds a bias to every row of an [a, n] array and stops there. Entry (i, d) of the result is
  A(i, d) + b(d), with the bias given as an array of one row [1, n]. A whole-array program builds that row from a
  vector of length n by two broadcasts; a tiled program receives the vector reshaped to one row and adds it to a block
  of rows at a time. Entry (i, d) uses row i of A only, so a block of rows with a copy of the bias row is that block of
  the whole result. Any extents; no finiteness is used.
-/
import proofs.«113209_j26568667693302_2_alg».proof.Proof.LibRowOfVector
import proofs.«113209_j26568667693302_2_alg».proof.Proof.LibHostBroadcast
import Idealize.ShloMosaic.PureOps.Ideal
import Idealize.ShloMosaic.Lib.ValueIdx
import Idealize.ShloMosaic.Lib.ValueLayout
import Idealize.ShloMosaic.Lib.Pipeline.Value

noncomputable section

namespace Cert.BiasRow

open Idealize.ShloMosaic Idealize.ShloMosaic.ValueIdx

/-- Bias row added to every row. -/
def biasedRow {a n : Nat} (A : (⟨2, ![a, n]⟩ : Shape).Idx → EReal) (b : (⟨2, ![1, n]⟩ : Shape).Idx → EReal) :
    (⟨2, ![a, n]⟩ : Shape).Idx → EReal :=
  fun i => A i + b (ix2 (0 : Fin 1) (i 1))

theorem biasedRow_apply {a n : Nat} (A : (⟨2, ![a, n]⟩ : Shape).Idx → EReal) (b : (⟨2, ![1, n]⟩ : Shape).Idx → EReal)
    (p : Fin a) (d : Fin n) : biasedRow A b (ix2 p d) = A (ix2 p d) + b (ix2 (0 : Fin 1) d) := rfl

/-- The host's add-bias, with the bias broadcast from a vector to one row and that row down the rows, is the biased
    array with the bias vector laid out as one row. -/
theorem hostBias {a n : Nat} (A : FVec Ideal ⟨2, ![a, n]⟩ .f32) (b : FVec Ideal ⟨1, ![n]⟩ .f32)
    (h1 : (⟨2, ![1, n]⟩ : Shape).BroadcastsInDim ⟨2, ![a, n]⟩ ![0, 1])
    (h2 : (⟨1, ![n]⟩ : Shape).BroadcastsInDim ⟨2, ![1, n]⟩ ![1])
    (hs : (⟨1, ![n]⟩ : Shape).ShapeCasts ⟨2, ![1, n]⟩) :
    addf A (broadcastInDim ⟨2, ![a, n]⟩ ![0, 1] h1 (broadcastInDim ⟨2, ![1, n]⟩ ![1] h2 b))
      = biasedRow A (shapeCast ⟨2, ![1, n]⟩ b hs) := by
  funext i
  obtain ⟨p, d, rfl⟩ : ∃ (p : Fin a) (d : Fin n), i = ix2 p d := ⟨i 0, i 1, eq_ix2 i⟩
  rw [biasedRow_apply]
  show A (ix2 p d) + broadcastInDim ⟨2, ![a, n]⟩ ![0, 1] h1 (broadcastInDim ⟨2, ![1, n]⟩ ![1] h2 b) (ix2 p d) = _
  rw [Cert.LibHostBroadcast.bcast_rows_apply, ← Cert.LibRowOfVector.row_of_vector b hs h2]

/-- A row of the biased array depends on its own row only: a block of rows, with a copy of the bias row, is that block
    of the biased whole array. -/
theorem biasedRow_of_rows {B M n : Nat} (ab : (⟨2, ![B, n]⟩ : Shape).Idx → EReal) (bb : (⟨2, ![1, n]⟩ : Shape).Idx → EReal)
    (A : (⟨2, ![M, n]⟩ : Shape).Idx → EReal) (b : (⟨2, ![1, n]⟩ : Shape).Idx → EReal) (p : Fin B) (d : Fin n) (i : Fin M)
    (hA : ab (ix2 p d) = A (ix2 i d)) (hb : bb (ix2 (0 : Fin 1) d) = b (ix2 (0 : Fin 1) d)) :
    biasedRow ab bb (ix2 p d) = biasedRow A b (ix2 i d) := by
  rw [biasedRow_apply, biasedRow_apply, hA, hb]

end Cert.BiasRow

end
-- ==== Proof.LibDense.lean ====
/-
  Dense layers over the extended reals, entry by entry.

  A dense layer multiplies an [m, k] array by a [k, n] array and adds a bias row to every row of the product:
  entry (i, j) of the result is the sum over c of A(i, c) * W(c, j), plus b(j). The host spells the product as one
  dot_general and the bias as two broadcasts; its sigmoid as 1 / (1 + exp (-x)), which on the extended reals is the
  logistic function itself (with its limits 0 and 1 at the two infinities). No finiteness is used anywhere: only the
  shape of the sums.
-/
import Idealize.ShloMosaic.Lib.ValueIdx
import Idealize.ShloMosaic.PureOps.Ideal
import Idealize.ShloMosaic.PureOps.Ideal.Laws
import proofs.«113209_j26568667693302_2_alg».proof.Proof.LibBiasRow

noncomputable section

namespace Cert.LibDense

open Idealize.ShloMosaic Idealize.ShloMosaic.ValueIdx

/-- The product of an [m, k] array by a [k, n] array: entry (i, j) is the sum over c of A(i, c) * B(c, j). -/
def mm {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem mm_apply {m k n : Nat} (A : (⟨2, ![m, k]⟩ : Shape).Idx → EReal) (B : (⟨2, ![k, n]⟩ : Shape).Idx → EReal)
    (a : Fin m) (b : Fin n) : mm A B (ix2 a b) = ∑ c : Fin k, A (ix2 a c) * B (ix2 c b) := rfl

/-- The operand entries a plain product reads at output entry (a, b) and contracted coordinate c. -/
theorem plain_lhsIdx {m k n : Nat} (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx {m k n : Nat} (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's plain dot_general is the product. -/
theorem hostDot_eq_mm {m k n : Nat} {φ₁ φ₂ : FTy} (prec : Option ContractPrecision)
    (A : FVec Ideal ⟨2, ![m, k]⟩ φ₁) (B : FVec Ideal ⟨2, ![k, n]⟩ φ₂) :
    Host.dotGeneral (DotDims.plain m k n) prec A B = mm A B := by
  funext i
  obtain ⟨a, b, rfl⟩ : ∃ (a : Fin m) (b : Fin n), i = ix2 a b := ⟨i 0, i 1, eq_ix2 i⟩
  rw [mm_apply]
  show FloatOps.dotGeneral _ prec .single A B (ix2 a b) = _
  rw [Ideal.dotGeneral_apply, ← Equiv.sum_comp (contrEquiv1 (DotDims.plain m k n) k rfl rfl).symm]
  refine Finset.sum_congr rfl fun c _ => ?_
  rw [plain_lhsIdx, plain_rhsIdx]

/-- A kernel's plain matmul into the zero accumulator is the product. -/
theorem matmul_eq_mm {m k n : Nat} {φ₁ φ₂ : FTy} (prec : Option ContractPrecision)
    (A : FVec Ideal ⟨2, ![m, k]⟩ φ₁) (B : FVec Ideal ⟨2, ![k, n]⟩ φ₂) :
    matmul (DotDims.plain m k n) prec A B (constant (F := Ideal) ⟨2, ![m, n]⟩ .f32 0x00000000#32) = mm A B := by
  funext i
  obtain ⟨a, b, rfl⟩ : ∃ (a : Fin m) (b : Fin n), i = ix2 a b := ⟨i 0, i 1, eq_ix2 i⟩
  rw [mm_apply]
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

/-- A dense layer: the product with the bias row added to every row. -/
def dense {m k n : Nat} (A : (⟨2, ![m, k]⟩ : Shape).Idx → EReal) (W : (⟨2, ![k, n]⟩ : Shape).Idx → EReal)
    (b : (⟨2, ![1, n]⟩ : Shape).Idx → EReal) : (⟨2, ![m, n]⟩ : Shape).Idx → EReal :=
  Cert.BiasRow.biasedRow (mm A W) b

theorem dense_apply {m k n : Nat} (A : (⟨2, ![m, k]⟩ : Shape).Idx → EReal) (W : (⟨2, ![k, n]⟩ : Shape).Idx → EReal)
    (b : (⟨2, ![1, n]⟩ : Shape).Idx → EReal) (p : Fin m) (q : Fin n) :
    dense A W b (ix2 p q) = (∑ c : Fin k, A (ix2 p c) * W (ix2 c q)) + b (ix2 (0 : Fin 1) q) := rfl

/-- The host's dense layer (dot_general, then the bias vector broadcast to a row and down the rows) is the dense
    layer with the bias vector laid out as one row. -/
theorem hostDense {m k n : Nat} (A : FVec Ideal ⟨2, ![m, k]⟩ .f32) (W : FVec Ideal ⟨2, ![k, n]⟩ .f32)
    (b : FVec Ideal ⟨1, ![n]⟩ .f32)
    (h1 : (⟨2, ![1, n]⟩ : Shape).BroadcastsInDim ⟨2, ![m, n]⟩ ![0, 1])
    (h2 : (⟨1, ![n]⟩ : Shape).BroadcastsInDim ⟨2, ![1, n]⟩ ![1])
    (hs : (⟨1, ![n]⟩ : Shape).ShapeCasts ⟨2, ![1, n]⟩) :
    addf (Host.dotGeneral (DotDims.plain m k n) none A W)
        (broadcastInDim ⟨2, ![m, n]⟩ ![0, 1] h1 (broadcastInDim ⟨2, ![1, n]⟩ ![1] h2 b))
      = dense A W (shapeCast ⟨2, ![1, n]⟩ b hs) := by
  rw [Cert.BiasRow.hostBias _ b h1 h2 hs, hostDot_eq_mm]; rfl

/-- A one-row array broadcast to [m, n] (trailing axes aligned) reads, at (p, q), the row's entry (0, q). -/
theorem broadcastTo_rows_apply {α : Type} {m n : Nat} (v : (⟨2, ![1, n]⟩ : Shape).Idx → α)
    (h : (⟨2, ![1, n]⟩ : Shape).Broadcasts ⟨2, ![m, n]⟩) (p : Fin m) (q : Fin n) :
    broadcastTo ⟨2, ![m, n]⟩ v h (ix2 p q) = v (ix2 (0 : Fin 1) q) := by
  refine broadcastTo_apply v h (ix2 p q) (ix2 (0 : Fin 1) q) fun a => ?_
  match a with
  | ⟨0, _⟩ => rfl
  | ⟨1, _⟩ =>
    show q.val = if n = 1 then 0 else q.val
    split
    · have := q.isLt; omega
    · rfl

/-- A kernel's dense block: the plain matmul of the loaded blocks into the zero accumulator, plus the loaded bias
    row broadcast down the rows, is the dense layer of the blocks. -/
theorem kernelDense {m k n : Nat} {φ₁ φ₂ : FTy} (x0 : FVec Ideal ⟨2, ![m, k]⟩ φ₁) (x1 : FVec Ideal ⟨2, ![k, n]⟩ φ₂)
    (x2 : FVec Ideal ⟨2, ![1, n]⟩ .f32) (hb : (⟨2, ![1, n]⟩ : Shape).Broadcasts ⟨2, ![m, n]⟩) :
    addf (matmul (DotDims.plain m k n) none x0 x1 (constant (F := Ideal) ⟨2, ![m, n]⟩ .f32 0x00000000#32))
        (broadcastTo ⟨2, ![m, n]⟩ x2 hb)
      = dense x0 x1 x2 := by
  rw [matmul_eq_mm]
  funext i
  obtain ⟨p, q, rfl⟩ : ∃ (p : Fin m) (q : Fin n), i = ix2 p q := ⟨i 0, i 1, eq_ix2 i⟩
  show mm x0 x1 (ix2 p q) + broadcastTo ⟨2, ![m, n]⟩ x2 hb (ix2 p q) = _
  rw [broadcastTo_rows_apply]; rfl

/-- The sum of two products with the bias row added to every row: what a gate applies its activation to. -/
def gatePre {m k n : Nat} (A : (⟨2, ![m, k]⟩ : Shape).Idx → EReal) (X : (⟨2, ![k, n]⟩ : Shape).Idx → EReal)
    (B : (⟨2, ![m, k]⟩ : Shape).Idx → EReal) (H : (⟨2, ![k, n]⟩ : Shape).Idx → EReal)
    (b : (⟨2, ![1, n]⟩ : Shape).Idx → EReal) : (⟨2, ![m, n]⟩ : Shape).Idx → EReal :=
  Cert.BiasRow.biasedRow (fun i => mm A X i + mm B H i) b

theorem gatePre_apply {m k n : Nat} (A : (⟨2, ![m, k]⟩ : Shape).Idx → EReal) (X : (⟨2, ![k, n]⟩ : Shape).Idx → EReal)
    (B : (⟨2, ![m, k]⟩ : Shape).Idx → EReal) (H : (⟨2, ![k, n]⟩ : Shape).Idx → EReal)
    (b : (⟨2, ![1, n]⟩ : Shape).Idx → EReal) (p : Fin m) (q : Fin n) :
    gatePre A X B H b (ix2 p q)
      = ((∑ c : Fin k, A (ix2 p c) * X (ix2 c q)) + ∑ c : Fin k, B (ix2 p c) * H (ix2 c q)) + b (ix2 (0 : Fin 1) q) := rfl

/-- A kernel's gate block before the activation: two plain matmuls into zero accumulators, added, plus the bias row. -/
theorem kernelGatePre {m k n : Nat} {φ₁ φ₂ φ₃ φ₄ : FTy} (x0 : FVec Ideal ⟨2, ![m, k]⟩ φ₁) (x1 : FVec Ideal ⟨2, ![k, n]⟩ φ₂)
    (x2 : FVec Ideal ⟨2, ![m, k]⟩ φ₃) (x3 : FVec Ideal ⟨2, ![k, n]⟩ φ₄)
    (x4 : FVec Ideal ⟨2, ![1, n]⟩ .f32) (hb : (⟨2, ![1, n]⟩ : Shape).Broadcasts ⟨2, ![m, n]⟩) :
    addf (addf (matmul (DotDims.plain m k n) none x0 x1 (constant (F := Ideal) ⟨2, ![m, n]⟩ .f32 0x00000000#32))
            (matmul (DotDims.plain m k n) none x2 x3 (constant (F := Ideal) ⟨2, ![m, n]⟩ .f32 0x00000000#32)))
        (broadcastTo ⟨2, ![m, n]⟩ x4 hb)
      = gatePre x0 x1 x2 x3 x4 := by
  rw [matmul_eq_mm, matmul_eq_mm]
  funext i
  obtain ⟨p, q, rfl⟩ : ∃ (p : Fin m) (q : Fin n), i = ix2 p q := ⟨i 0, i 1, eq_ix2 i⟩
  show (mm x0 x1 (ix2 p q) + mm x2 x3 (ix2 p q)) + broadcastTo ⟨2, ![m, n]⟩ x4 hb (ix2 p q) = _
  rw [broadcastTo_rows_apply]; rfl

/-- The host's gate before the activation: two dot_generals added, plus the bias vector broadcast to a row and down
    the rows. -/
theorem hostGatePre {m k n : Nat} (A : FVec Ideal ⟨2, ![m, k]⟩ .f32) (X : FVec Ideal ⟨2, ![k, n]⟩ .f32)
    (B : FVec Ideal ⟨2, ![m, k]⟩ .f32) (H : FVec Ideal ⟨2, ![k, n]⟩ .f32) (b : FVec Ideal ⟨1, ![n]⟩ .f32)
    (h1 : (⟨2, ![1, n]⟩ : Shape).BroadcastsInDim ⟨2, ![m, n]⟩ ![0, 1])
    (h2 : (⟨1, ![n]⟩ : Shape).BroadcastsInDim ⟨2, ![1, n]⟩ ![1])
    (hs : (⟨1, ![n]⟩ : Shape).ShapeCasts ⟨2, ![1, n]⟩) :
    addf (addf (Host.dotGeneral (DotDims.plain m k n) none A X) (Host.dotGeneral (DotDims.plain m k n) none B H))
        (broadcastInDim ⟨2, ![m, n]⟩ ![0, 1] h1 (broadcastInDim ⟨2, ![1, n]⟩ ![1] h2 b))
      = gatePre A X B H (shapeCast ⟨2, ![1, n]⟩ b hs) := by
  rw [Cert.BiasRow.hostBias _ b h1 h2 hs, hostDot_eq_mm, hostDot_eq_mm]; rfl

theorem gatePre_entry_congr {tm k tn M N : Nat} (x0 : (⟨2, ![tm, k]⟩ : Shape).Idx → EReal)
    (x1 : (⟨2, ![k, tn]⟩ : Shape).Idx → EReal) (x2 : (⟨2, ![tm, k]⟩ : Shape).Idx → EReal)
    (x3 : (⟨2, ![k, tn]⟩ : Shape).Idx → EReal) (x4 : (⟨2, ![1, tn]⟩ : Shape).Idx → EReal)
    (A : (⟨2, ![M, k]⟩ : Shape).Idx → EReal) (X : (⟨2, ![k, N]⟩ : Shape).Idx → EReal)
    (B : (⟨2, ![M, k]⟩ : Shape).Idx → EReal) (H : (⟨2, ![k, N]⟩ : Shape).Idx → EReal)
    (b : (⟨2, ![1, N]⟩ : Shape).Idx → EReal) (p : Fin tm) (q : Fin tn) (i : Fin M) (j : Fin N)
    (h0 : ∀ c, x0 (ix2 p c) = A (ix2 i c)) (h1 : ∀ c, x1 (ix2 c q) = X (ix2 c j))
    (h2 : ∀ c, x2 (ix2 p c) = B (ix2 i c)) (h3 : ∀ c, x3 (ix2 c q) = H (ix2 c j))
    (h4 : x4 (ix2 (0 : Fin 1) q) = b (ix2 (0 : Fin 1) j)) :
    gatePre x0 x1 x2 x3 x4 (ix2 p q) = gatePre A X B H b (ix2 i j) := by
  rw [gatePre_apply, gatePre_apply, h4]
  refine congrArg (· + _) (congrArg₂ (· + ·) (Finset.sum_congr rfl fun c _ => by rw [h0 c, h1 c])
    (Finset.sum_congr rfl fun c _ => by rw [h2 c, h3 c]))

/-- The entrywise product of two arrays. -/
def had {s : Shape} (X Y : s.Idx → EReal) : s.Idx → EReal := fun i => X i * Y i

/-- Twice the logistic function, entry by entry (the factor kept as its bit pattern). -/
def sig2 {s : Shape} (X : s.Idx → EReal) : s.Idx → EReal :=
  fun i => Ideal.ofBits .f32 0x40000000#32 * Ideal.logistic (X i)

/-- Entry (p, q) of the dense layer of blocks is entry (i, j) of the dense layer of the whole arrays when row p of
    the first block is row i of A, column q of the second is column j of W, and the bias entries agree. -/
theorem dense_entry_congr {tm k tn M N : Nat} (x0 : (⟨2, ![tm, k]⟩ : Shape).Idx → EReal)
    (x1 : (⟨2, ![k, tn]⟩ : Shape).Idx → EReal) (x2 : (⟨2, ![1, tn]⟩ : Shape).Idx → EReal)
    (A : (⟨2, ![M, k]⟩ : Shape).Idx → EReal) (W : (⟨2, ![k, N]⟩ : Shape).Idx → EReal)
    (b : (⟨2, ![1, N]⟩ : Shape).Idx → EReal) (p : Fin tm) (q : Fin tn) (i : Fin M) (j : Fin N)
    (h0 : ∀ c, x0 (ix2 p c) = A (ix2 i c)) (h1 : ∀ c, x1 (ix2 c q) = W (ix2 c j))
    (h2 : x2 (ix2 (0 : Fin 1) q) = b (ix2 (0 : Fin 1) j)) :
    dense x0 x1 x2 (ix2 p q) = dense A W b (ix2 i j) := by
  rw [dense_apply, dense_apply, h2]
  exact congrArg (· + _) (Finset.sum_congr rfl fun c _ => by rw [h0 c, h1 c])

/-- The bit pattern of one. -/
theorem ofBits_one : Ideal.ofBits .f32 0x3F800000#32 = 1 := by
  simp [Ideal.ofBits, Ideal.ieee, -EReal.coe_mul]; norm_num

/-- The host's expansion of the sigmoid, 1 / (1 + exp (-x)) with both ones broadcast scalars, is the logistic
    function at every entry. -/
theorem hostSigmoid {s : Shape} (X : FVec Ideal s .f32) (h : (⟨0, ![]⟩ : Shape).BroadcastsInDim s ![]) :
    Host.divf (broadcastInDim s ![] h (constant (F := Ideal) ⟨0, ![]⟩ .f32 0x3F800000#32))
        (addf (broadcastInDim s ![] h (constant (F := Ideal) ⟨0, ![]⟩ .f32 0x3F800000#32)) (Host.exp (Host.negf X)))
      = logistic X := by
  funext i
  show FloatOps.hostDivf (broadcastInDim s ![] h (constant (F := Ideal) ⟨0, ![]⟩ .f32 0x3F800000#32) i)
      (FloatOps.addf (broadcastInDim s ![] h (constant (F := Ideal) ⟨0, ![]⟩ .f32 0x3F800000#32) i)
        (FloatOps.hostUnary .exp (FloatOps.hostNegf (X i)))) = FloatOps.logistic (X i)
  rw [Cert.LibHostBroadcast.bcast_scalar_apply]
  show FloatOps.hostDivf (Ideal.ofBits .f32 0x3F800000#32) (FloatOps.addf (Ideal.ofBits .f32 0x3F800000#32) _) = _
  rw [ofBits_one]; rfl

/-- The host's doubled sigmoid: the scalar two broadcast, times the expansion of the sigmoid. -/
theorem hostSig2 {s : Shape} (X : FVec Ideal s .f32) (h : (⟨0, ![]⟩ : Shape).BroadcastsInDim s ![]) :
    mulf (broadcastInDim s ![] h (constant (F := Ideal) ⟨0, ![]⟩ .f32 0x40000000#32))
        (Host.divf (broadcastInDim s ![] h (constant (F := Ideal) ⟨0, ![]⟩ .f32 0x3F800000#32))
          (addf (broadcastInDim s ![] h (constant (F := Ideal) ⟨0, ![]⟩ .f32 0x3F800000#32)) (Host.exp (Host.negf X))))
      = sig2 X := by
  rw [hostSigmoid]
  funext i
  show FloatOps.mulf (broadcastInDim s ![] h (constant (F := Ideal) ⟨0, ![]⟩ .f32 0x40000000#32) i) (FloatOps.logistic (X i)) = _
  rw [Cert.LibHostBroadcast.bcast_scalar_apply]; rfl

/-- A kernel's doubled sigmoid: the scalar two splat, times the logistic operation. -/
theorem kernelSig2 {s : Shape} (X : FVec Ideal s .f32) :
    mulf (broadcast s (Scalar.ofBits (F := Ideal) .f32 0x40000000#32)) (logistic X) = sig2 X := rfl

/-- A dense layer whose bias row is zero is the product. -/
theorem dense_zero {m k n : Nat} (A : (⟨2, ![m, k]⟩ : Shape).Idx → EReal) (W : (⟨2, ![k, n]⟩ : Shape).Idx → EReal)
    (z : (⟨2, ![1, n]⟩ : Shape).Idx → EReal) (hz : ∀ i, z i = 0) : dense A W z = mm A W := by
  funext i
  show mm A W i + z _ = _
  rw [hz, add_zero]

end Cert.LibDense

end
-- ==== Proof.Spec.lean ====
/-
  The cell the two programs compute, as one chain of array functions over the extended reals.

  Five rounds alternately update a hidden state h (even rounds) and the input x (odd rounds): round i forms a mixing
  matrix g_i by a dense layer, multiplies it into x (even) or into the contracted hidden state (odd), and gates the
  other operand with twice the sigmoid of that. Then four gates, each the sum of two products of dense-layer matrices
  with x and with the contracted hidden state plus a bias row, under a sigmoid or a hyperbolic tangent; the cell state and the
  output follow entry by entry, and two dense layers give the new hidden and cell states.
-/
import proofs.«113209_j26568667693302_2_alg».proof.Proof.LibDense

noncomputable section

namespace Cert.Spec

open Idealize.ShloMosaic Idealize.ShloMosaic.ValueIdx Cert.LibDense

/-- An [m, n] array of extended reals. -/
abbrev Arr (m n : Nat) := (⟨2, ![m, n]⟩ : Shape).Idx → EReal

/-- The cell's operands, each stack of matrices already cut into its matrices and each bias laid out as one row. -/
structure Inputs where
  x : Arr 1024 4096
  h0 : Arr 1024 1024
  c0 : Arr 1024 1024
  qk : Fin 5 → Arr 1024 1024
  qkW : Fin 5 → Arr 1024 1024
  qkb : Fin 5 → Arr 1 1024
  hcW : Arr 1024 4096
  hcb : Arr 1 4096
  heW : Arr 4096 1024
  heb : Arr 1 1024
  ccW : Arr 1024 4096
  ccb : Arr 1 4096
  ceW : Arr 4096 1024
  ceb : Arr 1 1024
  wx : Fin 4 → Arr 1024 1024
  dxW : Fin 4 → Arr 1024 1024
  dxb : Fin 4 → Arr 1 1024
  wh : Fin 4 → Arr 1024 1024
  dhW : Fin 4 → Arr 1024 1024
  dhb : Fin 4 → Arr 1 1024
  b : Fin 4 → Arr 1 4096

variable (I : Inputs)

/-- Round i's mixing matrix. -/
def g (i : Fin 5) : Arr 1024 1024 := dense (I.qk i) (I.qkW i) (I.qkb i)
/-- The hidden state contracted to the wide axis. -/
def hc (h : Arr 1024 1024) : Arr 1024 4096 := dense h I.hcW I.hcb
/-- The doubled-sigmoid gate of a round, from what the mixing matrix multiplies. -/
def gate2 (i : Fin 5) (y : Arr 1024 4096) : Arr 1024 4096 := sig2 (mm (g I i) y)
/-- An even round: the hidden state is replaced by the expansion of the gated contracted hidden state. -/
def evenStep (i : Fin 5) (x : Arr 1024 4096) (h : Arr 1024 1024) : Arr 1024 1024 :=
  dense (fun j => gate2 I i x j * hc I h j) I.heW I.heb
/-- An odd round: the input is gated entry by entry. -/
def oddStep (i : Fin 5) (x : Arr 1024 4096) (h : Arr 1024 1024) : Arr 1024 4096 :=
  fun j => gate2 I i (hc I h) j * x j

def h1 : Arr 1024 1024 := evenStep I 0 I.x I.h0
def x1 : Arr 1024 4096 := oddStep I 1 I.x (h1 I)
def h2 : Arr 1024 1024 := evenStep I 2 (x1 I) (h1 I)
def x2 : Arr 1024 4096 := oddStep I 3 (x1 I) (h2 I)
def h3 : Arr 1024 1024 := evenStep I 4 (x2 I) (h2 I)
def hcF : Arr 1024 4096 := hc I (h3 I)

/-- Gate k before its activation. -/
def pre (k : Fin 4) : Arr 1024 4096 :=
  gatePre (dense (I.wx k) (I.dxW k) (I.dxb k)) (x2 I) (dense (I.wh k) (I.dhW k) (I.dhb k)) (hcF I) (I.b k)

def fGate : Arr 1024 4096 := fun t => Ideal.logistic (pre I 0 t)
def iGate : Arr 1024 4096 := fun t => Ideal.logistic (pre I 1 t)
def jGate : Arr 1024 4096 := fun t => Ideal.tanh (pre I 2 t)
def oGate : Arr 1024 4096 := fun t => Ideal.logistic (pre I 3 t)
def c0m : Arr 1024 4096 := dense I.c0 I.ccW I.ccb
def cell : Arr 1024 4096 := fun t => fGate I t * c0m I t + iGate I t * jGate I t
def hcell : Arr 1024 4096 := fun t => oGate I t * Ideal.tanh (cell I t)
def hNew : Arr 1024 1024 := dense (hcell I) I.heW I.heb
def cNew : Arr 1024 1024 := dense (cell I) I.ceW I.ceb

end Cert.Spec

end
-- ==== Proof.KIn.lean ====
/-
  The kernel program's operands.

  The program slices each stack of matrices into its matrices, each stack of bias vectors into rows laid out as
  [1, n] arrays, and casts what feeds a product to the narrow float format, which over the extended reals changes
  nothing. This module names those operands as the cell's inputs, and the zero row the doubled-sigmoid layers take
  as their bias.
-/
import proofs.«113209_j26568667693302_2_alg».proof.Proof.Gen.KernelIdeal
import proofs.«113209_j26568667693302_2_alg».proof.Proof.Spec

set_option maxRecDepth 16384

noncomputable section

namespace Cert.KernelIdeal.KVal

open Cert.KernelIdeal Cert.KernelIdeal.Facts₀ Idealize.ShloMosaic Idealize.ShloMosaic.TcCoe Idealize.SL.Sem Cert.LibDense Cert.Spec

/-- Matrix i of a stack of five. -/
def slice5 (A : S5x1024x1024.Idx → EReal) : Fin 5 → Arr 1024 1024
  | ⟨0, _⟩ => shapeCast S1024x1024 (extractStridedSlice S1x1024x1024 ![0, 0, 0] A slices_S5x1024x1024_S1x1024x1024_0_0_0) shapeCasts_S1x1024x1024_S1024x1024
  | ⟨1, _⟩ => shapeCast S1024x1024 (extractStridedSlice S1x1024x1024 ![1, 0, 0] A slices_S5x1024x1024_S1x1024x1024_1_0_0) shapeCasts_S1x1024x1024_S1024x1024
  | ⟨2, _⟩ => shapeCast S1024x1024 (extractStridedSlice S1x1024x1024 ![2, 0, 0] A slices_S5x1024x1024_S1x1024x1024_2_0_0) shapeCasts_S1x1024x1024_S1024x1024
  | ⟨3, _⟩ => shapeCast S1024x1024 (extractStridedSlice S1x1024x1024 ![3, 0, 0] A slices_S5x1024x1024_S1x1024x1024_3_0_0) shapeCasts_S1x1024x1024_S1024x1024
  | ⟨4, _⟩ => shapeCast S1024x1024 (extractStridedSlice S1x1024x1024 ![4, 0, 0] A slices_S5x1024x1024_S1x1024x1024_4_0_0) shapeCasts_S1x1024x1024_S1024x1024
/-- Matrix k of a stack of four. -/
def slice4 (A : S4x1024x1024.Idx → EReal) : Fin 4 → Arr 1024 1024
  | ⟨0, _⟩ => shapeCast S1024x1024 (extractStridedSlice S1x1024x1024 ![0, 0, 0] A slices_S4x1024x1024_S1x1024x1024_0_0_0) shapeCasts_S1x1024x1024_S1024x1024
  | ⟨1, _⟩ => shapeCast S1024x1024 (extractStridedSlice S1x1024x1024 ![1, 0, 0] A slices_S4x1024x1024_S1x1024x1024_1_0_0) shapeCasts_S1x1024x1024_S1024x1024
  | ⟨2, _⟩ => shapeCast S1024x1024 (extractStridedSlice S1x1024x1024 ![2, 0, 0] A slices_S4x1024x1024_S1x1024x1024_2_0_0) shapeCasts_S1x1024x1024_S1024x1024
  | ⟨3, _⟩ => shapeCast S1024x1024 (extractStridedSlice S1x1024x1024 ![3, 0, 0] A slices_S4x1024x1024_S1x1024x1024_3_0_0) shapeCasts_S1x1024x1024_S1024x1024
/-- Row i of a [5, 1024] array, as one row. -/
def row5 (B : S5x1024.Idx → EReal) : Fin 5 → Arr 1 1024
  | ⟨0, _⟩ => shapeCast S1x1024 (shapeCast S1024 (extractStridedSlice S1x1024 ![0, 0] B slices_S5x1024_S1x1024_0_0) shapeCasts_S1x1024_S1024) shapeCasts_S1024_S1x1024
  | ⟨1, _⟩ => shapeCast S1x1024 (shapeCast S1024 (extractStridedSlice S1x1024 ![1, 0] B slices_S5x1024_S1x1024_1_0) shapeCasts_S1x1024_S1024) shapeCasts_S1024_S1x1024
  | ⟨2, _⟩ => shapeCast S1x1024 (shapeCast S1024 (extractStridedSlice S1x1024 ![2, 0] B slices_S5x1024_S1x1024_2_0) shapeCasts_S1x1024_S1024) shapeCasts_S1024_S1x1024
  | ⟨3, _⟩ => shapeCast S1x1024 (shapeCast S1024 (extractStridedSlice S1x1024 ![3, 0] B slices_S5x1024_S1x1024_3_0) shapeCasts_S1x1024_S1024) shapeCasts_S1024_S1x1024
  | ⟨4, _⟩ => shapeCast S1x1024 (shapeCast S1024 (extractStridedSlice S1x1024 ![4, 0] B slices_S5x1024_S1x1024_4_0) shapeCasts_S1x1024_S1024) shapeCasts_S1024_S1x1024
def row4 (B : S4x1024.Idx → EReal) : Fin 4 → Arr 1 1024
  | ⟨0, _⟩ => shapeCast S1x1024 (shapeCast S1024 (extractStridedSlice S1x1024 ![0, 0] B slices_S4x1024_S1x1024_0_0) shapeCasts_S1x1024_S1024) shapeCasts_S1024_S1x1024
  | ⟨1, _⟩ => shapeCast S1x1024 (shapeCast S1024 (extractStridedSlice S1x1024 ![1, 0] B slices_S4x1024_S1x1024_1_0) shapeCasts_S1x1024_S1024) shapeCasts_S1024_S1x1024
  | ⟨2, _⟩ => shapeCast S1x1024 (shapeCast S1024 (extractStridedSlice S1x1024 ![2, 0] B slices_S4x1024_S1x1024_2_0) shapeCasts_S1x1024_S1024) shapeCasts_S1024_S1x1024
  | ⟨3, _⟩ => shapeCast S1x1024 (shapeCast S1024 (extractStridedSlice S1x1024 ![3, 0] B slices_S4x1024_S1x1024_3_0) shapeCasts_S1x1024_S1024) shapeCasts_S1024_S1x1024
def rowb4 (B : S4x4096.Idx → EReal) : Fin 4 → Arr 1 4096
  | ⟨0, _⟩ => shapeCast S1x4096 (shapeCast S4096 (extractStridedSlice S1x4096 ![0, 0] B slices_S4x4096_S1x4096_0_0) shapeCasts_S1x4096_S4096) shapeCasts_S4096_S1x4096
  | ⟨1, _⟩ => shapeCast S1x4096 (shapeCast S4096 (extractStridedSlice S1x4096 ![1, 0] B slices_S4x4096_S1x4096_1_0) shapeCasts_S1x4096_S4096) shapeCasts_S4096_S1x4096
  | ⟨2, _⟩ => shapeCast S1x4096 (shapeCast S4096 (extractStridedSlice S1x4096 ![2, 0] B slices_S4x4096_S1x4096_2_0) shapeCasts_S1x4096_S4096) shapeCasts_S4096_S1x4096
  | ⟨3, _⟩ => shapeCast S1x4096 (shapeCast S4096 (extractStridedSlice S1x4096 ![3, 0] B slices_S4x4096_S1x4096_3_0) shapeCasts_S1x4096_S4096) shapeCasts_S4096_S1x4096

/-- The kernel program's operands, read off its argument buffers on device c. -/
def Ik (m : (ℓ : Loc nD τ sig) → Buf (Elt Ideal) ℓ) (c : Dev nD) : Inputs where
  x := (m ((c : Thread nD τ).loc main_arg0))
  h0 := (m ((c : Thread nD τ).loc main_arg19))
  c0 := (m ((c : Thread nD τ).loc main_arg20))
  qk := slice5 (m ((c : Thread nD τ).loc main_arg8))
  qkW := slice5 (m ((c : Thread nD τ).loc main_arg9))
  qkb := row5 (m ((c : Thread nD τ).loc main_arg10))
  hcW := (m ((c : Thread nD τ).loc main_arg11))
  hcb := shapeCast S1x4096 (m ((c : Thread nD τ).loc main_arg12)) shapeCasts_S4096_S1x4096
  heW := (m ((c : Thread nD τ).loc main_arg13))
  heb := shapeCast S1x1024 (m ((c : Thread nD τ).loc main_arg14)) shapeCasts_S1024_S1x1024
  ccW := (m ((c : Thread nD τ).loc main_arg15))
  ccb := shapeCast S1x4096 (m ((c : Thread nD τ).loc main_arg16)) shapeCasts_S4096_S1x4096
  ceW := (m ((c : Thread nD τ).loc main_arg17))
  ceb := shapeCast S1x1024 (m ((c : Thread nD τ).loc main_arg18)) shapeCasts_S1024_S1x1024
  wx := slice4 (m ((c : Thread nD τ).loc main_arg1))
  dxW := slice4 (m ((c : Thread nD τ).loc main_arg4))
  dxb := row4 (m ((c : Thread nD τ).loc main_arg5))
  wh := slice4 (m ((c : Thread nD τ).loc main_arg2))
  dhW := slice4 (m ((c : Thread nD τ).loc main_arg6))
  dhb := row4 (m ((c : Thread nD τ).loc main_arg7))
  b := rowb4 (m ((c : Thread nD τ).loc main_arg3))

/-- The zero vector of length 4096 the program builds once. -/
def zvec : S4096.Idx → EReal := broadcastInDim S4096 ![] bcast_S_S4096 (constant (F := Ideal) S_ .f32 0x00000000#32)
/-- That vector as one row: the bias of the doubled-sigmoid layers. -/
def zrow : Arr 1 4096 := shapeCast S1x4096 zvec shapeCasts_S4096_S1x4096

theorem zrow_zero : ∀ i, zrow i = 0 := by
  intro i
  unfold zrow zvec shapeCast
  rw [Cert.LibHostBroadcast.bcast_scalar_apply]
  exact Ideal.ofBits_zero_f32

end Cert.KernelIdeal.KVal

end
-- ==== Proof.Payloads.lean ====
/-
  What each kind of kernel body stores, as one array function of the blocks it loads.

  The program has eight kinds of body. Five are a dense layer of the loaded blocks: a product of an activation block
  by a weight block over the whole contraction axis, plus a bias row (three tile shapes; two of them also with the
  result kept in the wider format, which changes nothing over the extended reals). One doubles the sigmoid of that. One multiplies
  two activation blocks entry by entry before the product. Two add two such products and the bias row and apply a
  sigmoid or a hyperbolic tangent. Changes of float format and identity reshapes are the identity here.
-/
import proofs.«113209_j26568667693302_2_alg».proof.Proof.Gen.KernelIdeal.Skeleton
import proofs.«113209_j26568667693302_2_alg».proof.Proof.LibDense
import Idealize.ShloMosaic.Lib.Pipeline.Value

noncomputable section

namespace Cert.KernelIdeal.Pay

open Cert.KernelIdeal Cert.KernelIdeal.Gen Idealize.ShloMosaic Cert.LibDense

/-- The dense body (tile 512 by 512 over a contraction of 1024) stores the dense layer of its three loaded blocks. -/
theorem pay0 (x0 : Vec Ideal S512x1024 .bf16) (x1 : Vec Ideal S1024x512 .bf16) (x2 : Vec Ideal S1x512 .f32) :
    k0_pay1 (F := Ideal) x0 x1 x2 = dense x0 x1 x2 := by
  unfold k0_pay1
  simp only [shapeCast_self]
  exact kernelDense x0 x1 x2 _

/-- The doubled-sigmoid body stores twice the logistic function of the dense layer of its blocks. -/
theorem pay1 (x0 : Vec Ideal S512x1024 .bf16) (x1 : Vec Ideal S1024x1024 .bf16) (x2 : Vec Ideal S1x1024 .f32) :
    k1_pay1 (F := Ideal) x0 x1 x2 = sig2 (dense x0 x1 x2) := by
  unfold k1_pay1
  simp only [shapeCast_self]
  exact (kernelSig2 _).trans (congrArg sig2 (kernelDense x0 x1 x2 _))

theorem pay2 (x0 : Vec Ideal S512x1024 .bf16) (x1 : Vec Ideal S1024x1024 .bf16) (x2 : Vec Ideal S1x1024 .f32) :
    k2_pay1 (F := Ideal) x0 x1 x2 = dense x0 x1 x2 := by
  unfold k2_pay1
  simp only [shapeCast_self]
  exact kernelDense x0 x1 x2 _

/-- The even-round body stores the dense layer of the entrywise product of its first two blocks. -/
theorem pay3 (x0 : Vec Ideal S256x4096 .bf16) (x1 : Vec Ideal S256x4096 .bf16) (x2 : Vec Ideal S4096x512 .bf16) (x3 : Vec Ideal S1x512 .f32) :
    k3_pay1 (F := Ideal) x0 x1 x2 x3 = dense (had x0 x1) x2 x3 := by
  unfold k3_pay1
  simp only [shapeCast_self]
  exact kernelDense (φ₁ := .bf16) (had x0 x1) x2 x3 _

/-- The gate body stores the logistic function of the two products' sum plus the bias row. -/
theorem pay21 (x0 : Vec Ideal S512x1024 .bf16) (x1 : Vec Ideal S1024x1024 .bf16) (x2 : Vec Ideal S512x1024 .bf16) (x3 : Vec Ideal S1024x1024 .bf16) (x4 : Vec Ideal S1x1024 .f32) :
    k21_pay1 (F := Ideal) x0 x1 x2 x3 x4 = logistic (F := Ideal) (φ := .f32) (gatePre x0 x1 x2 x3 x4) := by
  unfold k21_pay1
  simp only [shapeCast_self]
  exact congrArg (logistic (F := Ideal) (φ := .f32)) (kernelGatePre x0 x1 x2 x3 x4 _)

theorem pay27 (x0 : Vec Ideal S512x1024 .bf16) (x1 : Vec Ideal S1024x1024 .bf16) (x2 : Vec Ideal S512x1024 .bf16) (x3 : Vec Ideal S1024x1024 .bf16) (x4 : Vec Ideal S1x1024 .f32) :
    k27_pay1 (F := Ideal) x0 x1 x2 x3 x4 = tanh (F := Ideal) (φ := .f32) (gatePre x0 x1 x2 x3 x4) := by
  unfold k27_pay1
  simp only [shapeCast_self]
  exact congrArg (tanh (F := Ideal) (φ := .f32)) (kernelGatePre x0 x1 x2 x3 x4 _)

theorem pay31 (x0 : Vec Ideal S512x1024 .bf16) (x1 : Vec Ideal S1024x1024 .bf16) (x2 : Vec Ideal S1x1024 .f32) :
    k31_pay1 (F := Ideal) x0 x1 x2 = dense x0 x1 x2 := by
  unfold k31_pay1
  simp only [shapeCast_self]
  exact kernelDense x0 x1 x2 _

theorem pay32 (x0 : Vec Ideal S512x4096 .bf16) (x1 : Vec Ideal S4096x512 .bf16) (x2 : Vec Ideal S1x512 .f32) :
    k32_pay1 (F := Ideal) x0 x1 x2 = dense x0 x1 x2 := by
  unfold k32_pay1
  simp only [shapeCast_self]
  exact kernelDense x0 x1 x2 _

end Cert.KernelIdeal.Pay

end
-- ==== Proof.Reg0.lean ====
/-
  Region 0: the array it leaves.

  The region tiles a [1024, 1024] result into 2 by 2 blocks of [512, 512] and computes a dense layer. The block at
  (I, J) is computed from rows I*512 .. of the row operands (all 1024 columns), columns J*512 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg0

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 1
    ∧ win0_3.index t (1 : Fin 2) ≤ 1 :=
  (by decide +kernel : ∀ t : Fin grid0.N, _)

/-- Every block of the result is some grid point's. -/
theorem idx_onto : ∀ (q0 : Fin 2) (q1 : Fin 2), ∃ t : Fin cfg0.N, win0_3.index t = ![q0.val, q1.val] :=
  (by decide +kernel : ∀ (q0 : Fin 2) (q1 : Fin 2), ∃ t : Fin grid0.N, win0_3.index t = ![q0.val, q1.val])

/-- The whole-array function the region computes, of its operand arrays as it finds them. -/
def G (c : Dev nD) : S1024x1024.Idx → EReal :=
  dense (V c main_call0_v15) (V c main_call0_v17) (V c main_call0_v20)

/-- What grid point t writes back is block t of that function. -/
theorem flushed_eq (c : Dev nD) (t : Fin cfg0.N) :
    (dat0 (F := Ideal) V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S512x1024) hz, View.ld_unit_zero (S := S1024x512) hz, View.ld_unit_zero (S := S1x512) hz]
  rw [show ∀ x0 x1 x2, k0_pay1 (F := Ideal) x0 x1 x2 = dense x0 x1 x2 from Pay.pay0]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win0_3.index t (0 : Fin 2) * 512 + p.val := ⟨⟨_, by omega⟩, rfl⟩
  obtain ⟨jJ, hjJ⟩ : ∃ jJ : Fin 1024, jJ.val = win0_3.index t (1 : Fin 2) * 512 + q.val := ⟨⟨_, by omega⟩, rfl⟩
  have hemb : ((cfg0.win 3).blk t).view.emb (ix2 p q) = ix2 iI jJ := by
    funext a; apply Fin.ext
    match a with
    | ⟨0, _⟩ => show win0_3.index t (0 : Fin 2) * 512 + 1 * p.val = iI.val; omega
    | ⟨1, _⟩ => show win0_3.index t (1 : Fin 2) * 512 + 1 * q.val = jJ.val; omega
  show (dense (iblk0 V c 0 t) (iblk0 V c 1 t) (iblk0 V c 2 t)) (ix2 p q) = G V c (((cfg0.win 3).blk t).view.emb (ix2 p q))
  rw [hemb]
  unfold G
  refine dense_entry_congr (tm := 512) (k := 1024) (tn := 512) (M := 1024) (N := 1024) (iblk0 V c 0 t) (iblk0 V c 1 t) (iblk0 V c 2 t) (V c main_call0_v15) (V c main_call0_v17) (V c main_call0_v20) p q iI jJ (fun cc => ?_) (fun cc => ?_) ?_
  · show V c main_call0_v15 (((cfg0.win 0).blk t).view.emb (ix2 p cc)) = V c main_call0_v15 (ix2 iI cc)
    refine congrArg (V c main_call0_v15) (funext fun a => Fin.ext ?_)
    match a with
    | ⟨0, _⟩ => show win0_0.index t (0 : Fin 2) * 512 + 1 * p.val = iI.val; omega
    | ⟨1, _⟩ => show win0_0.index t (1 : Fin 2) * 1024 + 1 * cc.val = cc.val; omega
  · show V c main_call0_v17 (((cfg0.win 1).blk t).view.emb (ix2 cc q)) = V c main_call0_v17 (ix2 cc jJ)
    refine congrArg (V c main_call0_v17) (funext fun a => Fin.ext ?_)
    match a with
    | ⟨0, _⟩ => show win0_1.index t (0 : Fin 2) * 1024 + 1 * cc.val = cc.val; omega
    | ⟨1, _⟩ => show win0_1.index t (1 : Fin 2) * 512 + 1 * q.val = jJ.val; omega
  · show V c main_call0_v20 (((cfg0.win 2).blk t).view.emb (ix2 (0 : Fin 1) q)) = V c main_call0_v20 (ix2 (0 : Fin 1) jJ)
    refine congrArg (V c main_call0_v20) (funext fun a => Fin.ext ?_)
    match a with
    | ⟨0, _⟩ => show win0_2.index t (0 : Fin 2) * 1 + 1 * 0 = 0; omega
    | ⟨1, _⟩ => show win0_2.index t (1 : Fin 2) * 512 + 1 * q.val = jJ.val; omega

/-- An index of the result array is in point t's block iff each coordinate is in the block's range on its axis. -/
theorem mem_blk (t : Fin cfg0.N) (i : S1024x1024.Idx) :
    i ∈ ((cfg0.win 3).blk t).view.set ↔ ∀ a : Fin 2, win0_3.index t a * S512x512.size a ≤ (i a).val ∧ (i a).val < win0_3.index t a * S512x512.size a + S512x512.size a := by
  show i ∈ ((View.whole main_call0_v21).slice (win0_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg0.N, (cfg0.win 3).flush t = true ∧ i ∈ ((cfg0.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win0_3.index t (0 : Fin 2) = (i 0).val / 512 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 512 ≤ (i 1).val ∧ (i 1).val < win0_3.index t (1 : Fin 2) * 512 + 512; omega

/-- The result array after the region. -/
theorem arr (c : Dev nD) : (dat0 (F := Ideal) V c).arrAt 3 cfg0.N = G V c :=
  (dat0 (F := Ideal) V c).arrAt_eq_of_cover 3 (G V c) (fun t _ => flushed_eq V c t) cover

end Cert.KernelIdeal.Reg0

end
-- ==== Proof.Reg1.lean ====
/-
  Region 1: the array it leaves.

  The region tiles a [1024, 4096] result into 2 by 4 blocks of [512, 1024] and computes twice the sigmoid of a dense layer. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg1

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg1.N,
    win1_0.index t (0 : Fin 2) = win1_3.index t (0 : Fin 2)
    ∧ win1_0.index t (1 : Fin 2) = 0
    ∧ win1_1.index t (0 : Fin 2) = 0
    ∧ win1_1.index t (1 : Fin 2) = win1_3.index t (1 : Fin 2)
    ∧ win1_2.index t (0 : Fin 2) = 0
    ∧ win1_2.index t (1 : Fin 2) = win1_3.index t (1 : Fin 2)
    ∧ win1_3.index t (0 : Fin 2) ≤ 1
    ∧ win1_3.index t (1 : Fin 2) ≤ 3 :=
  (by decide +kernel : ∀ t : Fin grid1.N, _)

/-- Every block of the result is some grid point's. -/
theorem idx_onto : ∀ (q0 : Fin 2) (q1 : Fin 4), ∃ t : Fin cfg1.N, win1_3.index t = ![q0.val, q1.val] :=
  (by decide +kernel : ∀ (q0 : Fin 2) (q1 : Fin 4), ∃ t : Fin grid1.N, win1_3.index t = ![q0.val, q1.val])

/-- The whole-array function the region computes, of its operand arrays as it finds them. -/
def G (c : Dev nD) : S1024x4096.Idx → EReal :=
  sig2 (dense (V c main_call0_v21) (V c main_call0_v10) (V c main_call0_v22))

/-- What grid point t writes back is block t of that function. -/
theorem flushed_eq (c : Dev nD) (t : Fin cfg1.N) :
    (dat1 (F := Ideal) V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S512x1024) hz, View.ld_unit_zero (S := S1024x1024) hz, View.ld_unit_zero (S := S1x1024) hz]
  rw [show ∀ x0 x1 x2, k1_pay1 (F := Ideal) x0 x1 x2 = sig2 (dense x0 x1 x2) from Pay.pay1]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win1_3.index t (0 : Fin 2) * 512 + p.val := ⟨⟨_, by omega⟩, rfl⟩
  obtain ⟨jJ, hjJ⟩ : ∃ jJ : Fin 4096, jJ.val = win1_3.index t (1 : Fin 2) * 1024 + q.val := ⟨⟨_, by omega⟩, rfl⟩
  have hemb : ((cfg1.win 3).blk t).view.emb (ix2 p q) = ix2 iI jJ := by
    funext a; apply Fin.ext
    match a with
    | ⟨0, _⟩ => show win1_3.index t (0 : Fin 2) * 512 + 1 * p.val = iI.val; omega
    | ⟨1, _⟩ => show win1_3.index t (1 : Fin 2) * 1024 + 1 * q.val = jJ.val; omega
  show (sig2 (dense (iblk1 V c 0 t) (iblk1 V c 1 t) (iblk1 V c 2 t))) (ix2 p q) = G V c (((cfg1.win 3).blk t).view.emb (ix2 p q))
  rw [hemb]
  unfold G
  refine congrArg (fun z => Ideal.ofBits .f32 0x40000000#32 * Ideal.logistic z) ?_
  refine dense_entry_congr (tm := 512) (k := 1024) (tn := 1024) (M := 1024) (N := 4096) (iblk1 V c 0 t) (iblk1 V c 1 t) (iblk1 V c 2 t) (V c main_call0_v21) (V c main_call0_v10) (V c main_call0_v22) p q iI jJ (fun cc => ?_) (fun cc => ?_) ?_
  · show V c main_call0_v21 (((cfg1.win 0).blk t).view.emb (ix2 p cc)) = V c main_call0_v21 (ix2 iI cc)
    refine congrArg (V c main_call0_v21) (funext fun a => Fin.ext ?_)
    match a with
    | ⟨0, _⟩ => show win1_0.index t (0 : Fin 2) * 512 + 1 * p.val = iI.val; omega
    | ⟨1, _⟩ => show win1_0.index t (1 : Fin 2) * 1024 + 1 * cc.val = cc.val; omega
  · show V c main_call0_v10 (((cfg1.win 1).blk t).view.emb (ix2 cc q)) = V c main_call0_v10 (ix2 cc jJ)
    refine congrArg (V c main_call0_v10) (funext fun a => Fin.ext ?_)
    match a with
    | ⟨0, _⟩ => show win1_1.index t (0 : Fin 2) * 1024 + 1 * cc.val = cc.val; omega
    | ⟨1, _⟩ => show win1_1.index t (1 : Fin 2) * 1024 + 1 * q.val = jJ.val; omega
  · show V c main_call0_v22 (((cfg1.win 2).blk t).view.emb (ix2 (0 : Fin 1) q)) = V c main_call0_v22 (ix2 (0 : Fin 1) jJ)
    refine congrArg (V c main_call0_v22) (funext fun a => Fin.ext ?_)
    match a with
    | ⟨0, _⟩ => show win1_2.index t (0 : Fin 2) * 1 + 1 * 0 = 0; omega
    | ⟨1, _⟩ => show win1_2.index t (1 : Fin 2) * 1024 + 1 * q.val = jJ.val; omega

/-- An index of the result array is in point t's block iff each coordinate is in the block's range on its axis. -/
theorem mem_blk (t : Fin cfg1.N) (i : S1024x4096.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_call0_v23).slice (win1_3.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg1.N, (cfg1.win 3).flush t = true ∧ i ∈ ((cfg1.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win1_3.index t (0 : Fin 2) = (i 0).val / 512 := congrFun ht 0
  have q1 : win1_3.index t (1 : Fin 2) = (i 1).val / 1024 := congrFun ht 1
  refine ⟨t, flush1_3 t, ?_⟩
  rw [mem_blk]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1024 ≤ (i 1).val ∧ (i 1).val < win1_3.index t (1 : Fin 2) * 1024 + 1024; omega

/-- The result array after the region. -/
theorem arr (c : Dev nD) : (dat1 (F := Ideal) V c).arrAt 3 cfg1.N = G V c :=
  (dat1 (F := Ideal) V c).arrAt_eq_of_cover 3 (G V c) (fun t _ => flushed_eq V c t) cover

end Cert.KernelIdeal.Reg1

end
-- ==== Proof.Reg2.lean ====
/-
  Region 2: the array it leaves.

  The region tiles a [1024, 4096] result into 2 by 4 blocks of [512, 1024] and computes a dense layer. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg2

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg2.N,
    win2_0.index t (0 : Fin 2) = win2_3.index t (0 : Fin 2)
    ∧ win2_0.index t (1 : Fin 2) = 0
    ∧ win2_1.index t (0 : Fin 2) = 0
    ∧ win2_1.index t (1 : Fin 2) = win2_3.index t (1 : Fin 2)
    ∧ win2_2.index t (0 : Fin 2) = 0
    ∧ win2_2.index t (1 : Fin 2) = win2_3.index t (1 : Fin 2)
    ∧ win2_3.index t (0 : Fin 2) ≤ 1
    ∧ win2_3.index t (1 : Fin 2) ≤ 3 :=
  (by decide +kernel : ∀ t : Fin grid2.N, _)

/-- Every block of the result is some grid point's. -/
theorem idx_onto : ∀ (q0 : Fin 2) (q1 : Fin 4), ∃ t : Fin cfg2.N, win2_3.index t = ![q0.val, q1.val] :=
  (by decide +kernel : ∀ (q0 : Fin 2) (q1 : Fin 4), ∃ t : Fin grid2.N, win2_3.index t = ![q0.val, q1.val])

/-- The whole-array function the region computes, of its operand arrays as it finds them. -/
def G (c : Dev nD) : S1024x4096.Idx → EReal :=
  dense (V c main_call0_v11) (V c main_call0_v6) (V c main_call0_v24)

/-- What grid point t writes back is block t of that function. -/
theorem flushed_eq (c : Dev nD) (t : Fin cfg2.N) :
    (dat2 (F := Ideal) V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S512x1024) hz, View.ld_unit_zero (S := S1024x1024) hz, View.ld_unit_zero (S := S1x1024) hz]
  rw [show ∀ x0 x1 x2, k2_pay1 (F := Ideal) x0 x1 x2 = dense x0 x1 x2 from Pay.pay2]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win2_3.index t (0 : Fin 2) * 512 + p.val := ⟨⟨_, by omega⟩, rfl⟩
  obtain ⟨jJ, hjJ⟩ : ∃ jJ : Fin 4096, jJ.val = win2_3.index t (1 : Fin 2) * 1024 + q.val := ⟨⟨_, by omega⟩, rfl⟩
  have hemb : ((cfg2.win 3).blk t).view.emb (ix2 p q) = ix2 iI jJ := by
    funext a; apply Fin.ext
    match a with
    | ⟨0, _⟩ => show win2_3.index t (0 : Fin 2) * 512 + 1 * p.val = iI.val; omega
    | ⟨1, _⟩ => show win2_3.index t (1 : Fin 2) * 1024 + 1 * q.val = jJ.val; omega
  show (dense (iblk2 V c 0 t) (iblk2 V c 1 t) (iblk2 V c 2 t)) (ix2 p q) = G V c (((cfg2.win 3).blk t).view.emb (ix2 p q))
  rw [hemb]
  unfold G
  refine dense_entry_congr (tm := 512) (k := 1024) (tn := 1024) (M := 1024) (N := 4096) (iblk2 V c 0 t) (iblk2 V c 1 t) (iblk2 V c 2 t) (V c main_call0_v11) (V c main_call0_v6) (V c main_call0_v24) p q iI jJ (fun cc => ?_) (fun cc => ?_) ?_
  · show V c main_call0_v11 (((cfg2.win 0).blk t).view.emb (ix2 p cc)) = V c main_call0_v11 (ix2 iI cc)
    refine congrArg (V c main_call0_v11) (funext fun a => Fin.ext ?_)
    match a with
    | ⟨0, _⟩ => show win2_0.index t (0 : Fin 2) * 512 + 1 * p.val = iI.val; omega
    | ⟨1, _⟩ => show win2_0.index t (1 : Fin 2) * 1024 + 1 * cc.val = cc.val; omega
  · show V c main_call0_v6 (((cfg2.win 1).blk t).view.emb (ix2 cc q)) = V c main_call0_v6 (ix2 cc jJ)
    refine congrArg (V c main_call0_v6) (funext fun a => Fin.ext ?_)
    match a with
    | ⟨0, _⟩ => show win2_1.index t (0 : Fin 2) * 1024 + 1 * cc.val = cc.val; omega
    | ⟨1, _⟩ => show win2_1.index t (1 : Fin 2) * 1024 + 1 * q.val = jJ.val; omega
  · show V c main_call0_v24 (((cfg2.win 2).blk t).view.emb (ix2 (0 : Fin 1) q)) = V c main_call0_v24 (ix2 (0 : Fin 1) jJ)
    refine congrArg (V c main_call0_v24) (funext fun a => Fin.ext ?_)
    match a with
    | ⟨0, _⟩ => show win2_2.index t (0 : Fin 2) * 1 + 1 * 0 = 0; omega
    | ⟨1, _⟩ => show win2_2.index t (1 : Fin 2) * 1024 + 1 * q.val = jJ.val; omega

/-- An index of the result array is in point t's block iff each coordinate is in the block's range on its axis. -/
theorem mem_blk (t : Fin cfg2.N) (i : S1024x4096.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_call0_v25).slice (win2_3.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg2.N, (cfg2.win 3).flush t = true ∧ i ∈ ((cfg2.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win2_3.index t (0 : Fin 2) = (i 0).val / 512 := congrFun ht 0
  have q1 : win2_3.index t (1 : Fin 2) = (i 1).val / 1024 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The result array after the region. -/
theorem arr (c : Dev nD) : (dat2 (F := Ideal) V c).arrAt 3 cfg2.N = G V c :=
  (dat2 (F := Ideal) V c).arrAt_eq_of_cover 3 (G V c) (fun t _ => flushed_eq V c t) cover

end Cert.KernelIdeal.Reg2

end
-- ==== Proof.Reg3.lean ====
/-
  Region 3: the array it leaves.

  The region tiles a [1024, 1024] result into 4 by 2 blocks of [256, 512] and computes a dense layer of the entrywise product of two operands. The block at
  (I, J) is computed from rows I*256 .. of the row operands (all 4096 columns), columns J*512 .. of the column operands
  (all 4096 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg3

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 4 by 2 box. -/
theorem idx_facts : ∀ t : Fin cfg3.N,
    win3_0.index t (0 : Fin 2) = win3_4.index t (0 : Fin 2)
    ∧ win3_0.index t (1 : Fin 2) = 0
    ∧ win3_1.index t (0 : Fin 2) = win3_4.index t (0 : Fin 2)
    ∧ win3_1.index t (1 : Fin 2) = 0
    ∧ win3_2.index t (0 : Fin 2) = 0
    ∧ win3_2.index t (1 : Fin 2) = win3_4.index t (1 : Fin 2)
    ∧ win3_3.index t (0 : Fin 2) = 0
    ∧ win3_3.index t (1 : Fin 2) = win3_4.index t (1 : Fin 2)
    ∧ win3_4.index t (0 : Fin 2) ≤ 3
    ∧ win3_4.index t (1 : Fin 2) ≤ 1 :=
  (by decide +kernel : ∀ t : Fin grid3.N, _)

/-- Every block of the result is some grid point's. -/
theorem idx_onto : ∀ (q0 : Fin 4) (q1 : Fin 2), ∃ t : Fin cfg3.N, win3_4.index t = ![q0.val, q1.val] :=
  (by decide +kernel : ∀ (q0 : Fin 4) (q1 : Fin 2), ∃ t : Fin grid3.N, win3_4.index t = ![q0.val, q1.val])

/-- The whole-array function the region computes, of its operand arrays as it finds them. -/
def G (c : Dev nD) : S1024x1024.Idx → EReal :=
  dense (had (V c main_call0_v23) (V c main_call0_v25)) (V c main_call0_v7) (V c main_call0_v26)

/-- What grid point t writes back is block t of that function. -/
theorem flushed_eq (c : Dev nD) (t : Fin cfg3.N) :
    (dat3 (F := Ideal) V c).flushed 4 t = ((cfg3.win 4).blk t).view.read (Elt Ideal) (G V c) := by
  show (cfg3.win 4).cut (grid3.coords t) ((dat3 V c).after 4 t) = _
  rw [after3_4]
  unfold out3_4
  rw [View.canon_unit_zero hz]
  simp only [View.ld_unit_zero (S := S256x4096) hz, View.ld_unit_zero (S := S4096x512) hz, View.ld_unit_zero (S := S1x512) hz]
  rw [show ∀ x0 x1 x2 x3, k3_pay1 (F := Ideal) x0 x1 x2 x3 = dense (had x0 x1) x2 x3 from Pay.pay3]
  obtain ⟨e0, e1, e2, e3, e4, e5, e6, e7, e8, e9⟩ := idx_facts t
  funext j
  obtain ⟨p, q, rfl⟩ : ∃ (p : Fin 256) (q : Fin 512), j = ix2 p q := ⟨j 0, j 1, eq_ix2 j⟩
  have hp := p.isLt
  have hq := q.isLt
  obtain ⟨iI, hiI⟩ : ∃ iI : Fin 1024, iI.val = win3_4.index t (0 : Fin 2) * 256 + p.val := ⟨⟨_, by omega⟩, rfl⟩
  obtain ⟨jJ, hjJ⟩ : ∃ jJ : Fin 1024, jJ.val = win3_4.index t (1 : Fin 2) * 512 + q.val := ⟨⟨_, by omega⟩, rfl⟩
  have hemb : ((cfg3.win 4).blk t).view.emb (ix2 p q) = ix2 iI jJ := by
    funext a; apply Fin.ext
    match a with
    | ⟨0, _⟩ => show win3_4.index t (0 : Fin 2) * 256 + 1 * p.val = iI.val; omega
    | ⟨1, _⟩ => show win3_4.index t (1 : Fin 2) * 512 + 1 * q.val = jJ.val; omega
  show (dense (had (iblk3 V c 0 t) (iblk3 V c 1 t)) (iblk3 V c 2 t) (iblk3 V c 3 t)) (ix2 p q) = G V c (((cfg3.win 4).blk t).view.emb (ix2 p q))
  rw [hemb]
  unfold G
  refine dense_entry_congr (tm := 256) (k := 4096) (tn := 512) (M := 1024) (N := 1024) (had (iblk3 V c 0 t) (iblk3 V c 1 t)) (iblk3 V c 2 t) (iblk3 V c 3 t) (had (V c main_call0_v23) (V c main_call0_v25)) (V c main_call0_v7) (V c main_call0_v26) p q iI jJ (fun cc => ?_) (fun cc => ?_) ?_
  · have r0 : V c main_call0_v23 (((cfg3.win 0).blk t).view.emb (ix2 p cc)) = V c main_call0_v23 (ix2 iI cc) := by
      refine congrArg (V c main_call0_v23) (funext fun a => Fin.ext ?_)
      match a with
      | ⟨0, _⟩ => show win3_0.index t (0 : Fin 2) * 256 + 1 * p.val = iI.val; omega
      | ⟨1, _⟩ => show win3_0.index t (1 : Fin 2) * 4096 + 1 * cc.val = cc.val; omega
    have r1 : V c main_call0_v25 (((cfg3.win 1).blk t).view.emb (ix2 p cc)) = V c main_call0_v25 (ix2 iI cc) := by
      refine congrArg (V c main_call0_v25) (funext fun a => Fin.ext ?_)
      match a with
      | ⟨0, _⟩ => show win3_1.index t (0 : Fin 2) * 256 + 1 * p.val = iI.val; omega
      | ⟨1, _⟩ => show win3_1.index t (1 : Fin 2) * 4096 + 1 * cc.val = cc.val; omega
    exact congrArg₂ (fun (a b : EReal) => a * b) r0 r1
  · show V c main_call0_v7 (((cfg3.win 2).blk t).view.emb (ix2 cc q)) = V c main_call0_v7 (ix2 cc jJ)
    refine congrArg (V c main_call0_v7) (funext fun a => Fin.ext ?_)
    match a with
    | ⟨0, _⟩ => show win3_2.index t (0 : Fin 2) * 4096 + 1 * cc.val = cc.val; omega
    | ⟨1, _⟩ => show win3_2.index t (1 : Fin 2) * 512 + 1 * q.val = jJ.val; omega
  · show V c main_call0_v26 (((cfg3.win 3).blk t).view.emb (ix2 (0 : Fin 1) q)) = V c main_call0_v26 (ix2 (0 : Fin 1) jJ)
    refine congrArg (V c main_call0_v26) (funext fun a => Fin.ext ?_)
    match a with
    | ⟨0, _⟩ => show win3_3.index t (0 : Fin 2) * 1 + 1 * 0 = 0; omega
    | ⟨1, _⟩ => show win3_3.index t (1 : Fin 2) * 512 + 1 * q.val = jJ.val; omega

/-- An index of the result array is in point t's block iff each coordinate is in the block's range on its axis. -/
theorem mem_blk (t : Fin cfg3.N) (i : S1024x1024.Idx) :
    i ∈ ((cfg3.win 4).blk t).view.set ↔ ∀ a : Fin 2, win3_4.index t a * S256x512.size a ≤ (i a).val ∧ (i a).val < win3_4.index t a * S256x512.size a + S256x512.size a := by
  show i ∈ ((View.whole main_call0_v27).slice (win3_4.rect t)).set ↔ _
  rw [View.set_slice_whole, Rect.mem_set_unit]
  exact Iff.rfl

/-- The blocks tile the result: the point that covers (i, j) is the one at block (i / 256, j / 512). -/
theorem cover (i : S1024x1024.Idx) : ∃ t : Fin cfg3.N, (cfg3.win 4).flush t = true ∧ i ∈ ((cfg3.win 4).blk t).view.set := by
  have hi0 : (i 0).val < 1024 := (i 0).isLt
  have hi1 : (i 1).val < 1024 := (i 1).isLt
  obtain ⟨t, ht⟩ := idx_onto ⟨(i 0).val / 256, by omega⟩ ⟨(i 1).val / 512, by omega⟩
  have q0 : win3_4.index t (0 : Fin 2) = (i 0).val / 256 := congrFun ht 0
  have q1 : win3_4.index t (1 : Fin 2) = (i 1).val / 512 := congrFun ht 1
  refine ⟨t, flush3_4 t, ?_⟩
  rw [mem_blk]
  intro a
  match a with
  | ⟨0, _⟩ => show win3_4.index t (0 : Fin 2) * 256 ≤ (i 0).val ∧ (i 0).val < win3_4.index t (0 : Fin 2) * 256 + 256; omega
  | ⟨1, _⟩ => show win3_4.index t (1 : Fin 2) * 512 ≤ (i 1).val ∧ (i 1).val < win3_4.index t (1 : Fin 2) * 512 + 512; omega

/-- The result array after the region. -/
theorem arr (c : Dev nD) : (dat3 (F := Ideal) V c).arrAt 4 cfg3.N = G V c :=
  (dat3 (F := Ideal) V c).arrAt_eq_of_cover 4 (G V c) (fun t _ => flushed_eq V c t) cover

end Cert.KernelIdeal.Reg3

end
-- ==== Proof.Reg4.lean ====
/-
  Region 4: the array it leaves.

  The region tiles a [1024, 1024] result into 2 by 2 blocks of [512, 512] and computes a dense layer. The block at
  (I, J) is computed from rows I*512 .. of the row operands (all 1024 columns), columns J*512 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg4

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg4.N,
    win4_0.index t (0 : Fin 2) = win4_3.index t (0 : Fin 2)
    ∧ win4_0.index t (1 : Fin 2) = 0
    ∧ win4_1.index t (0 : Fin 2) = 0
    ∧ win4_1.index t (1 : Fin 2) = win4_3.index t (1 : Fin 2)
    ∧ win4_2.index t (0 : Fin 2) = 0
    ∧ win4_2.index t (1 : Fin 2) = win4_3.index t (1 : Fin 2)
    ∧ win4_3.index t (0 : Fin 2) ≤ 1
    ∧ win4_3.index t (1 : Fin 2) ≤ 1 :=
  (by decide +kernel : ∀ t : Fin grid4.N, _)

/-- Every block of the result is some grid point's. -/
theorem idx_onto : ∀ (q0 : Fin 2) (q1 : Fin 2), ∃ t : Fin cfg4.N, win4_3.index t = ![q0.val, q1.val] :=
  (by decide +kernel : ∀ (q0 : Fin 2) (q1 : Fin 2), ∃ t : Fin grid4.N, win4_3.index t = ![q0.val, q1.val])

/-- The whole-array function the region computes, of its operand arrays as it finds them. -/
def G (c : Dev nD) : S1024x1024.Idx → EReal :=
  dense (V c main_call0_v29) (V c main_call0_v31) (V c main_call0_v34)

/-- What grid point t writes back is block t of that function. -/
theorem flushed_eq (c : Dev nD) (t : Fin cfg4.N) :
    (dat4 (F := Ideal) V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S512x1024) hz, View.ld_unit_zero (S := S1024x512) hz, View.ld_unit_zero (S := S1x512) hz]
  rw [show ∀ x0 x1 x2, k4_pay1 (F := Ideal) x0 x1 x2 = dense x0 x1 x2 from Pay.pay0]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win4_3.index t (0 : Fin 2) * 512 + p.val := ⟨⟨_, by omega⟩, rfl⟩
  obtain ⟨jJ, hjJ⟩ : ∃ jJ : Fin 1024, jJ.val = win4_3.index t (1 : Fin 2) * 512 + q.val := ⟨⟨_, by omega⟩, rfl⟩
  have hemb : ((cfg4.win 3).blk t).view.emb (ix2 p q) = ix2 iI jJ := by
    funext a; apply Fin.ext
    match a with
    | ⟨0, _⟩ => show win4_3.index t (0 : Fin 2) * 512 + 1 * p.val = iI.val; omega
    | ⟨1, _⟩ => show win4_3.index t (1 : Fin 2) * 512 + 1 * q.val = jJ.val; omega
  show (dense (iblk4 V c 0 t) (iblk4 V c 1 t) (iblk4 V c 2 t)) (ix2 p q) = G V c (((cfg4.win 3).blk t).view.emb (ix2 p q))
  rw [hemb]
  unfold G
  refine dense_entry_congr (tm := 512) (k := 1024) (tn := 512) (M := 1024) (N := 1024) (iblk4 V c 0 t) (iblk4 V c 1 t) (iblk4 V c 2 t) (V c main_call0_v29) (V c main_call0_v31) (V c main_call0_v34) p q iI jJ (fun cc => ?_) (fun cc => ?_) ?_
  · show V c main_call0_v29 (((cfg4.win 0).blk t).view.emb (ix2 p cc)) = V c main_call0_v29 (ix2 iI cc)
    refine congrArg (V c main_call0_v29) (funext fun a => Fin.ext ?_)
    match a with
    | ⟨0, _⟩ => show win4_0.index t (0 : Fin 2) * 512 + 1 * p.val = iI.val; omega
    | ⟨1, _⟩ => show win4_0.index t (1 : Fin 2) * 1024 + 1 * cc.val = cc.val; omega
  · show V c main_call0_v31 (((cfg4.win 1).blk t).view.emb (ix2 cc q)) = V c main_call0_v31 (ix2 cc jJ)
    refine congrArg (V c main_call0_v31) (funext fun a => Fin.ext ?_)
    match a with
    | ⟨0, _⟩ => show win4_1.index t (0 : Fin 2) * 1024 + 1 * cc.val = cc.val; omega
    | ⟨1, _⟩ => show win4_1.index t (1 : Fin 2) * 512 + 1 * q.val = jJ.val; omega
  · show V c main_call0_v34 (((cfg4.win 2).blk t).view.emb (ix2 (0 : Fin 1) q)) = V c main_call0_v34 (ix2 (0 : Fin 1) jJ)
    refine congrArg (V c main_call0_v34) (funext fun a => Fin.ext ?_)
    match a with
    | ⟨0, _⟩ => show win4_2.index t (0 : Fin 2) * 1 + 1 * 0 = 0; omega
    | ⟨1, _⟩ => show win4_2.index t (1 : Fin 2) * 512 + 1 * q.val = jJ.val; omega

/-- An index of the result array is in point t's block iff each coordinate is in the block's range on its axis. -/
theorem mem_blk (t : Fin cfg4.N) (i : S1024x1024.Idx) :
    i ∈ ((cfg4.win 3).blk t).view.set ↔ ∀ a : Fin 2, win4_3.index t a * S512x512.size a ≤ (i a).val ∧ (i a).val < win4_3.index t a * S512x512.size a + S512x512.size a := by
  show i ∈ ((View.whole main_call0_v35).slice (win4_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg4.N, (cfg4.win 3).flush t = true ∧ i ∈ ((cfg4.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win4_3.index t (0 : Fin 2) = (i 0).val / 512 := congrFun ht 0
  have q1 : win4_3.index t (1 : Fin 2) = (i 1).val / 512 := congrFun ht 1
  refine ⟨t, flush4_3 t, ?_⟩
  rw [mem_blk]
  intro a
  match a with
  | ⟨0, _⟩ => show win4_3.index t (0 : Fin 2) * 512 ≤ (i 0).val ∧ (i 0).val < win4_3.index t (0 : Fin 2) * 512 + 512; omega
  | ⟨1, _⟩ => show win4_3.index t (1 : Fin 2) * 512 ≤ (i 1).val ∧ (i 1).val < win4_3.index t (1 : Fin 2) * 512 + 512; omega

/-- The result array after the region. -/
theorem arr (c : Dev nD) : (dat4 (F := Ideal) V c).arrAt 3 cfg4.N = G V c :=
  (dat4 (F := Ideal) V c).arrAt_eq_of_cover 3 (G V c) (fun t _ => flushed_eq V c t) cover

end Cert.KernelIdeal.Reg4

end
-- ==== Proof.Reg5.lean ====
/-
  Region 5: the array it leaves.

  The region tiles a [1024, 4096] result into 2 by 4 blocks of [512, 1024] and computes a dense layer. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg5

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg5.N,
    win5_0.index t (0 : Fin 2) = win5_3.index t (0 : Fin 2)
    ∧ win5_0.index t (1 : Fin 2) = 0
    ∧ win5_1.index t (0 : Fin 2) = 0
    ∧ win5_1.index t (1 : Fin 2) = win5_3.index t (1 : Fin 2)
    ∧ win5_2.index t (0 : Fin 2) = 0
    ∧ win5_2.index t (1 : Fin 2) = win5_3.index t (1 : Fin 2)
    ∧ win5_3.index t (0 : Fin 2) ≤ 1
    ∧ win5_3.index t (1 : Fin 2) ≤ 3 :=
  (by decide +kernel : ∀ t : Fin grid5.N, _)

/-- Every block of the result is some grid point's. -/
theorem idx_onto : ∀ (q0 : Fin 2) (q1 : Fin 4), ∃ t : Fin cfg5.N, win5_3.index t = ![q0.val, q1.val] :=
  (by decide +kernel : ∀ (q0 : Fin 2) (q1 : Fin 4), ∃ t : Fin grid5.N, win5_3.index t = ![q0.val, q1.val])

/-- The whole-array function the region computes, of its operand arrays as it finds them. -/
def G (c : Dev nD) : S1024x4096.Idx → EReal :=
  dense (V c main_call0_v27) (V c main_call0_v6) (V c main_call0_v36)

/-- What grid point t writes back is block t of that function. -/
theorem flushed_eq (c : Dev nD) (t : Fin cfg5.N) :
    (dat5 (F := Ideal) V c).flushed 3 t = ((cfg5.win 3).blk t).view.read (Elt Ideal) (G V c) := by
  show (cfg5.win 3).cut (grid5.coords t) ((dat5 V c).after 3 t) = _
  rw [after5_3]
  unfold out5_3
  rw [View.canon_unit_zero hz]
  simp only [View.ld_unit_zero (S := S512x1024) hz, View.ld_unit_zero (S := S1024x1024) hz, View.ld_unit_zero (S := S1x1024) hz]
  rw [show ∀ x0 x1 x2, k5_pay1 (F := Ideal) x0 x1 x2 = dense x0 x1 x2 from Pay.pay2]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win5_3.index t (0 : Fin 2) * 512 + p.val := ⟨⟨_, by omega⟩, rfl⟩
  obtain ⟨jJ, hjJ⟩ : ∃ jJ : Fin 4096, jJ.val = win5_3.index t (1 : Fin 2) * 1024 + q.val := ⟨⟨_, by omega⟩, rfl⟩
  have hemb : ((cfg5.win 3).blk t).view.emb (ix2 p q) = ix2 iI jJ := by
    funext a; apply Fin.ext
    match a with
    | ⟨0, _⟩ => show win5_3.index t (0 : Fin 2) * 512 + 1 * p.val = iI.val; omega
    | ⟨1, _⟩ => show win5_3.index t (1 : Fin 2) * 1024 + 1 * q.val = jJ.val; omega
  show (dense (iblk5 V c 0 t) (iblk5 V c 1 t) (iblk5 V c 2 t)) (ix2 p q) = G V c (((cfg5.win 3).blk t).view.emb (ix2 p q))
  rw [hemb]
  unfold G
  refine dense_entry_congr (tm := 512) (k := 1024) (tn := 1024) (M := 1024) (N := 4096) (iblk5 V c 0 t) (iblk5 V c 1 t) (iblk5 V c 2 t) (V c main_call0_v27) (V c main_call0_v6) (V c main_call0_v36) p q iI jJ (fun cc => ?_) (fun cc => ?_) ?_
  · show V c main_call0_v27 (((cfg5.win 0).blk t).view.emb (ix2 p cc)) = V c main_call0_v27 (ix2 iI cc)
    refine congrArg (V c main_call0_v27) (funext fun a => Fin.ext ?_)
    match a with
    | ⟨0, _⟩ => show win5_0.index t (0 : Fin 2) * 512 + 1 * p.val = iI.val; omega
    | ⟨1, _⟩ => show win5_0.index t (1 : Fin 2) * 1024 + 1 * cc.val = cc.val; omega
  · show V c main_call0_v6 (((cfg5.win 1).blk t).view.emb (ix2 cc q)) = V c main_call0_v6 (ix2 cc jJ)
    refine congrArg (V c main_call0_v6) (funext fun a => Fin.ext ?_)
    match a with
    | ⟨0, _⟩ => show win5_1.index t (0 : Fin 2) * 1024 + 1 * cc.val = cc.val; omega
    | ⟨1, _⟩ => show win5_1.index t (1 : Fin 2) * 1024 + 1 * q.val = jJ.val; omega
  · show V c main_call0_v36 (((cfg5.win 2).blk t).view.emb (ix2 (0 : Fin 1) q)) = V c main_call0_v36 (ix2 (0 : Fin 1) jJ)
    refine congrArg (V c main_call0_v36) (funext fun a => Fin.ext ?_)
    match a with
    | ⟨0, _⟩ => show win5_2.index t (0 : Fin 2) * 1 + 1 * 0 = 0; omega
    | ⟨1, _⟩ => show win5_2.index t (1 : Fin 2) * 1024 + 1 * q.val = jJ.val; omega

/-- An index of the result array is in point t's block iff each coordinate is in the block's range on its axis. -/
theorem mem_blk (t : Fin cfg5.N) (i : S1024x4096.Idx) :
    i ∈ ((cfg5.win 3).blk t).view.set ↔ ∀ a : Fin 2, win5_3.index t a * S512x1024.size a ≤ (i a).val ∧ (i a).val < win5_3.index t a * S512x1024.size a + S512x1024.size a := by
  show i ∈ ((View.whole main_call0_v37).slice (win5_3.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg5.N, (cfg5.win 3).flush t = true ∧ i ∈ ((cfg5.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win5_3.index t (0 : Fin 2) = (i 0).val / 512 := congrFun ht 0
  have q1 : win5_3.index t (1 : Fin 2) = (i 1).val / 1024 := congrFun ht 1
  refine ⟨t, flush5_3 t, ?_⟩
  rw [mem_blk]
  intro a
  match a with
  | ⟨0, _⟩ => show win5_3.index t (0 : Fin 2) * 512 ≤ (i 0).val ∧ (i 0).val < win5_3.index t (0 : Fin 2) * 512 + 512; omega
  | ⟨1, _⟩ => show win5_3.index t (1 : Fin 2) * 1024 ≤ (i 1).val ∧ (i 1).val < win5_3.index t (1 : Fin 2) * 1024 + 1024; omega

/-- The result array after the region. -/
theorem arr (c : Dev nD) : (dat5 (F := Ideal) V c).arrAt 3 cfg5.N = G V c :=
  (dat5 (F := Ideal) V c).arrAt_eq_of_cover 3 (G V c) (fun t _ => flushed_eq V c t) cover

end Cert.KernelIdeal.Reg5

end
-- ==== Proof.Reg6.lean ====
/-
  Region 6: the array it leaves.

  The region tiles a [1024, 4096] result into 2 by 4 blocks of [512, 1024] and computes twice the sigmoid of a dense layer. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg6

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg6.N,
    win6_0.index t (0 : Fin 2) = win6_3.index t (0 : Fin 2)
    ∧ win6_0.index t (1 : Fin 2) = 0
    ∧ win6_1.index t (0 : Fin 2) = 0
    ∧ win6_1.index t (1 : Fin 2) = win6_3.index t (1 : Fin 2)
    ∧ win6_2.index t (0 : Fin 2) = 0
    ∧ win6_2.index t (1 : Fin 2) = win6_3.index t (1 : Fin 2)
    ∧ win6_3.index t (0 : Fin 2) ≤ 1
    ∧ win6_3.index t (1 : Fin 2) ≤ 3 :=
  (by decide +kernel : ∀ t : Fin grid6.N, _)

/-- Every block of the result is some grid point's. -/
theorem idx_onto : ∀ (q0 : Fin 2) (q1 : Fin 4), ∃ t : Fin cfg6.N, win6_3.index t = ![q0.val, q1.val] :=
  (by decide +kernel : ∀ (q0 : Fin 2) (q1 : Fin 4), ∃ t : Fin grid6.N, win6_3.index t = ![q0.val, q1.val])

/-- The whole-array function the region computes, of its operand arrays as it finds them. -/
def G (c : Dev nD) : S1024x4096.Idx → EReal :=
  sig2 (dense (V c main_call0_v35) (V c main_call0_v37) (V c main_call0_v38))

/-- What grid point t writes back is block t of that function. -/
theorem flushed_eq (c : Dev nD) (t : Fin cfg6.N) :
    (dat6 (F := Ideal) V c).flushed 3 t = ((cfg6.win 3).blk t).view.read (Elt Ideal) (G V c) := by
  show (cfg6.win 3).cut (grid6.coords t) ((dat6 V c).after 3 t) = _
  rw [after6_3]
  unfold out6_3
  rw [View.canon_unit_zero hz]
  simp only [View.ld_unit_zero (S := S512x1024) hz, View.ld_unit_zero (S := S1024x1024) hz, View.ld_unit_zero (S := S1x1024) hz]
  rw [show ∀ x0 x1 x2, k6_pay1 (F := Ideal) x0 x1 x2 = sig2 (dense x0 x1 x2) from Pay.pay1]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win6_3.index t (0 : Fin 2) * 512 + p.val := ⟨⟨_, by omega⟩, rfl⟩
  obtain ⟨jJ, hjJ⟩ : ∃ jJ : Fin 4096, jJ.val = win6_3.index t (1 : Fin 2) * 1024 + q.val := ⟨⟨_, by omega⟩, rfl⟩
  have hemb : ((cfg6.win 3).blk t).view.emb (ix2 p q) = ix2 iI jJ := by
    funext a; apply Fin.ext
    match a with
    | ⟨0, _⟩ => show win6_3.index t (0 : Fin 2) * 512 + 1 * p.val = iI.val; omega
    | ⟨1, _⟩ => show win6_3.index t (1 : Fin 2) * 1024 + 1 * q.val = jJ.val; omega
  show (sig2 (dense (iblk6 V c 0 t) (iblk6 V c 1 t) (iblk6 V c 2 t))) (ix2 p q) = G V c (((cfg6.win 3).blk t).view.emb (ix2 p q))
  rw [hemb]
  unfold G
  refine congrArg (fun z => Ideal.ofBits .f32 0x40000000#32 * Ideal.logistic z) ?_
  refine dense_entry_congr (tm := 512) (k := 1024) (tn := 1024) (M := 1024) (N := 4096) (iblk6 V c 0 t) (iblk6 V c 1 t) (iblk6 V c 2 t) (V c main_call0_v35) (V c main_call0_v37) (V c main_call0_v38) p q iI jJ (fun cc => ?_) (fun cc => ?_) ?_
  · show V c main_call0_v35 (((cfg6.win 0).blk t).view.emb (ix2 p cc)) = V c main_call0_v35 (ix2 iI cc)
    refine congrArg (V c main_call0_v35) (funext fun a => Fin.ext ?_)
    match a with
    | ⟨0, _⟩ => show win6_0.index t (0 : Fin 2) * 512 + 1 * p.val = iI.val; omega
    | ⟨1, _⟩ => show win6_0.index t (1 : Fin 2) * 1024 + 1 * cc.val = cc.val; omega
  · show V c main_call0_v37 (((cfg6.win 1).blk t).view.emb (ix2 cc q)) = V c main_call0_v37 (ix2 cc jJ)
    refine congrArg (V c main_call0_v37) (funext fun a => Fin.ext ?_)
    match a with
    | ⟨0, _⟩ => show win6_1.index t (0 : Fin 2) * 1024 + 1 * cc.val = cc.val; omega
    | ⟨1, _⟩ => show win6_1.index t (1 : Fin 2) * 1024 + 1 * q.val = jJ.val; omega
  · show V c main_call0_v38 (((cfg6.win 2).blk t).view.emb (ix2 (0 : Fin 1) q)) = V c main_call0_v38 (ix2 (0 : Fin 1) jJ)
    refine congrArg (V c main_call0_v38) (funext fun a => Fin.ext ?_)
    match a with
    | ⟨0, _⟩ => show win6_2.index t (0 : Fin 2) * 1 + 1 * 0 = 0; omega
    | ⟨1, _⟩ => show win6_2.index t (1 : Fin 2) * 1024 + 1 * q.val = jJ.val; omega

/-- An index of the result array is in point t's block iff each coordinate is in the block's range on its axis. -/
theorem mem_blk (t : Fin cfg6.N) (i : S1024x4096.Idx) :
    i ∈ ((cfg6.win 3).blk t).view.set ↔ ∀ a : Fin 2, win6_3.index t a * S512x1024.size a ≤ (i a).val ∧ (i a).val < win6_3.index t a * S512x1024.size a + S512x1024.size a := by
  show i ∈ ((View.whole main_call0_v39).slice (win6_3.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg6.N, (cfg6.win 3).flush t = true ∧ i ∈ ((cfg6.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win6_3.index t (0 : Fin 2) = (i 0).val / 512 := congrFun ht 0
  have q1 : win6_3.index t (1 : Fin 2) = (i 1).val / 1024 := congrFun ht 1
  refine ⟨t, flush6_3 t, ?_⟩
  rw [mem_blk]
  intro a
  match a with
  | ⟨0, _⟩ => show win6_3.index t (0 : Fin 2) * 512 ≤ (i 0).val ∧ (i 0).val < win6_3.index t (0 : Fin 2) * 512 + 512; omega
  | ⟨1, _⟩ => show win6_3.index t (1 : Fin 2) * 1024 ≤ (i 1).val ∧ (i 1).val < win6_3.index t (1 : Fin 2) * 1024 + 1024; omega

/-- The result array after the region. -/
theorem arr (c : Dev nD) : (dat6 (F := Ideal) V c).arrAt 3 cfg6.N = G V c :=
  (dat6 (F := Ideal) V c).arrAt_eq_of_cover 3 (G V c) (fun t _ => flushed_eq V c t) cover

end Cert.KernelIdeal.Reg6

end
-- ==== Proof.Reg7.lean ====
/-
  Region 7: the array it leaves.

  The region tiles a [1024, 1024] result into 2 by 2 blocks of [512, 512] and computes a dense layer. The block at
  (I, J) is computed from rows I*512 .. of the row operands (all 1024 columns), columns J*512 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg7

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg7.N,
    win7_0.index t (0 : Fin 2) = win7_3.index t (0 : Fin 2)
    ∧ win7_0.index t (1 : Fin 2) = 0
    ∧ win7_1.index t (0 : Fin 2) = 0
    ∧ win7_1.index t (1 : Fin 2) = win7_3.index t (1 : Fin 2)
    ∧ win7_2.index t (0 : Fin 2) = 0
    ∧ win7_2.index t (1 : Fin 2) = win7_3.index t (1 : Fin 2)
    ∧ win7_3.index t (0 : Fin 2) ≤ 1
    ∧ win7_3.index t (1 : Fin 2) ≤ 1 :=
  (by decide +kernel : ∀ t : Fin grid7.N, _)

/-- Every block of the result is some grid point's. -/
theorem idx_onto : ∀ (q0 : Fin 2) (q1 : Fin 2), ∃ t : Fin cfg7.N, win7_3.index t = ![q0.val, q1.val] :=
  (by decide +kernel : ∀ (q0 : Fin 2) (q1 : Fin 2), ∃ t : Fin grid7.N, win7_3.index t = ![q0.val, q1.val])

/-- The whole-array function the region computes, of its operand arrays as it finds them. -/
def G (c : Dev nD) : S1024x1024.Idx → EReal :=
  dense (V c main_call0_v45) (V c main_call0_v47) (V c main_call0_v50)

/-- What grid point t writes back is block t of that function. -/
theorem flushed_eq (c : Dev nD) (t : Fin cfg7.N) :
    (dat7 (F := Ideal) V c).flushed 3 t = ((cfg7.win 3).blk t).view.read (Elt Ideal) (G V c) := by
  show (cfg7.win 3).cut (grid7.coords t) ((dat7 V c).after 3 t) = _
  rw [after7_3]
  unfold out7_3
  rw [View.canon_unit_zero hz]
  simp only [View.ld_unit_zero (S := S512x1024) hz, View.ld_unit_zero (S := S1024x512) hz, View.ld_unit_zero (S := S1x512) hz]
  rw [show ∀ x0 x1 x2, k7_pay1 (F := Ideal) x0 x1 x2 = dense x0 x1 x2 from Pay.pay0]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win7_3.index t (0 : Fin 2) * 512 + p.val := ⟨⟨_, by omega⟩, rfl⟩
  obtain ⟨jJ, hjJ⟩ : ∃ jJ : Fin 1024, jJ.val = win7_3.index t (1 : Fin 2) * 512 + q.val := ⟨⟨_, by omega⟩, rfl⟩
  have hemb : ((cfg7.win 3).blk t).view.emb (ix2 p q) = ix2 iI jJ := by
    funext a; apply Fin.ext
    match a with
    | ⟨0, _⟩ => show win7_3.index t (0 : Fin 2) * 512 + 1 * p.val = iI.val; omega
    | ⟨1, _⟩ => show win7_3.index t (1 : Fin 2) * 512 + 1 * q.val = jJ.val; omega
  show (dense (iblk7 V c 0 t) (iblk7 V c 1 t) (iblk7 V c 2 t)) (ix2 p q) = G V c (((cfg7.win 3).blk t).view.emb (ix2 p q))
  rw [hemb]
  unfold G
  refine dense_entry_congr (tm := 512) (k := 1024) (tn := 512) (M := 1024) (N := 1024) (iblk7 V c 0 t) (iblk7 V c 1 t) (iblk7 V c 2 t) (V c main_call0_v45) (V c main_call0_v47) (V c main_call0_v50) p q iI jJ (fun cc => ?_) (fun cc => ?_) ?_
  · show V c main_call0_v45 (((cfg7.win 0).blk t).view.emb (ix2 p cc)) = V c main_call0_v45 (ix2 iI cc)
    refine congrArg (V c main_call0_v45) (funext fun a => Fin.ext ?_)
    match a with
    | ⟨0, _⟩ => show win7_0.index t (0 : Fin 2) * 512 + 1 * p.val = iI.val; omega
    | ⟨1, _⟩ => show win7_0.index t (1 : Fin 2) * 1024 + 1 * cc.val = cc.val; omega
  · show V c main_call0_v47 (((cfg7.win 1).blk t).view.emb (ix2 cc q)) = V c main_call0_v47 (ix2 cc jJ)
    refine congrArg (V c main_call0_v47) (funext fun a => Fin.ext ?_)
    match a with
    | ⟨0, _⟩ => show win7_1.index t (0 : Fin 2) * 1024 + 1 * cc.val = cc.val; omega
    | ⟨1, _⟩ => show win7_1.index t (1 : Fin 2) * 512 + 1 * q.val = jJ.val; omega
  · show V c main_call0_v50 (((cfg7.win 2).blk t).view.emb (ix2 (0 : Fin 1) q)) = V c main_call0_v50 (ix2 (0 : Fin 1) jJ)
    refine congrArg (V c main_call0_v50) (funext fun a => Fin.ext ?_)
    match a with
    | ⟨0, _⟩ => show win7_2.index t (0 : Fin 2) * 1 + 1 * 0 = 0; omega
    | ⟨1, _⟩ => show win7_2.index t (1 : Fin 2) * 512 + 1 * q.val = jJ.val; omega

/-- An index of the result array is in point t's block iff each coordinate is in the block's range on its axis. -/
theorem mem_blk (t : Fin cfg7.N) (i : S1024x1024.Idx) :
    i ∈ ((cfg7.win 3).blk t).view.set ↔ ∀ a : Fin 2, win7_3.index t a * S512x512.size a ≤ (i a).val ∧ (i a).val < win7_3.index t a * S512x512.size a + S512x512.size a := by
  show i ∈ ((View.whole main_call0_v51).slice (win7_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg7.N, (cfg7.win 3).flush t = true ∧ i ∈ ((cfg7.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win7_3.index t (0 : Fin 2) = (i 0).val / 512 := congrFun ht 0
  have q1 : win7_3.index t (1 : Fin 2) = (i 1).val / 512 := congrFun ht 1
  refine ⟨t, flush7_3 t, ?_⟩
  rw [mem_blk]
  intro a
  match a with
  | ⟨0, _⟩ => show win7_3.index t (0 : Fin 2) * 512 ≤ (i 0).val ∧ (i 0).val < win7_3.index t (0 : Fin 2) * 512 + 512; omega
  | ⟨1, _⟩ => show win7_3.index t (1 : Fin 2) * 512 ≤ (i 1).val ∧ (i 1).val < win7_3.index t (1 : Fin 2) * 512 + 512; omega

/-- The result array after the region. -/
theorem arr (c : Dev nD) : (dat7 (F := Ideal) V c).arrAt 3 cfg7.N = G V c :=
  (dat7 (F := Ideal) V c).arrAt_eq_of_cover 3 (G V c) (fun t _ => flushed_eq V c t) cover

end Cert.KernelIdeal.Reg7

end
-- ==== Proof.Reg8.lean ====
/-
  Region 8: the array it leaves.

  The region tiles a [1024, 4096] result into 2 by 4 blocks of [512, 1024] and computes twice the sigmoid of a dense layer. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg8

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg8.N,
    win8_0.index t (0 : Fin 2) = win8_3.index t (0 : Fin 2)
    ∧ win8_0.index t (1 : Fin 2) = 0
    ∧ win8_1.index t (0 : Fin 2) = 0
    ∧ win8_1.index t (1 : Fin 2) = win8_3.index t (1 : Fin 2)
    ∧ win8_2.index t (0 : Fin 2) = 0
    ∧ win8_2.index t (1 : Fin 2) = win8_3.index t (1 : Fin 2)
    ∧ win8_3.index t (0 : Fin 2) ≤ 1
    ∧ win8_3.index t (1 : Fin 2) ≤ 3 :=
  (by decide +kernel : ∀ t : Fin grid8.N, _)

/-- Every block of the result is some grid point's. -/
theorem idx_onto : ∀ (q0 : Fin 2) (q1 : Fin 4), ∃ t : Fin cfg8.N, win8_3.index t = ![q0.val, q1.val] :=
  (by decide +kernel : ∀ (q0 : Fin 2) (q1 : Fin 4), ∃ t : Fin grid8.N, win8_3.index t = ![q0.val, q1.val])

/-- The whole-array function the region computes, of its operand arrays as it finds them. -/
def G (c : Dev nD) : S1024x4096.Idx → EReal :=
  sig2 (dense (V c main_call0_v51) (V c main_call0_v43) (V c main_call0_v52))

/-- What grid point t writes back is block t of that function. -/
theorem flushed_eq (c : Dev nD) (t : Fin cfg8.N) :
    (dat8 (F := Ideal) V c).flushed 3 t = ((cfg8.win 3).blk t).view.read (Elt Ideal) (G V c) := by
  show (cfg8.win 3).cut (grid8.coords t) ((dat8 V c).after 3 t) = _
  rw [after8_3]
  unfold out8_3
  rw [View.canon_unit_zero hz]
  simp only [View.ld_unit_zero (S := S512x1024) hz, View.ld_unit_zero (S := S1024x1024) hz, View.ld_unit_zero (S := S1x1024) hz]
  rw [show ∀ x0 x1 x2, k8_pay1 (F := Ideal) x0 x1 x2 = sig2 (dense x0 x1 x2) from Pay.pay1]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win8_3.index t (0 : Fin 2) * 512 + p.val := ⟨⟨_, by omega⟩, rfl⟩
  obtain ⟨jJ, hjJ⟩ : ∃ jJ : Fin 4096, jJ.val = win8_3.index t (1 : Fin 2) * 1024 + q.val := ⟨⟨_, by omega⟩, rfl⟩
  have hemb : ((cfg8.win 3).blk t).view.emb (ix2 p q) = ix2 iI jJ := by
    funext a; apply Fin.ext
    match a with
    | ⟨0, _⟩ => show win8_3.index t (0 : Fin 2) * 512 + 1 * p.val = iI.val; omega
    | ⟨1, _⟩ => show win8_3.index t (1 : Fin 2) * 1024 + 1 * q.val = jJ.val; omega
  show (sig2 (dense (iblk8 V c 0 t) (iblk8 V c 1 t) (iblk8 V c 2 t))) (ix2 p q) = G V c (((cfg8.win 3).blk t).view.emb (ix2 p q))
  rw [hemb]
  unfold G
  refine congrArg (fun z => Ideal.ofBits .f32 0x40000000#32 * Ideal.logistic z) ?_
  refine dense_entry_congr (tm := 512) (k := 1024) (tn := 1024) (M := 1024) (N := 4096) (iblk8 V c 0 t) (iblk8 V c 1 t) (iblk8 V c 2 t) (V c main_call0_v51) (V c main_call0_v43) (V c main_call0_v52) p q iI jJ (fun cc => ?_) (fun cc => ?_) ?_
  · show V c main_call0_v51 (((cfg8.win 0).blk t).view.emb (ix2 p cc)) = V c main_call0_v51 (ix2 iI cc)
    refine congrArg (V c main_call0_v51) (funext fun a => Fin.ext ?_)
    match a with
    | ⟨0, _⟩ => show win8_0.index t (0 : Fin 2) * 512 + 1 * p.val = iI.val; omega
    | ⟨1, _⟩ => show win8_0.index t (1 : Fin 2) * 1024 + 1 * cc.val = cc.val; omega
  · show V c main_call0_v43 (((cfg8.win 1).blk t).view.emb (ix2 cc q)) = V c main_call0_v43 (ix2 cc jJ)
    refine congrArg (V c main_call0_v43) (funext fun a => Fin.ext ?_)
    match a with
    | ⟨0, _⟩ => show win8_1.index t (0 : Fin 2) * 1024 + 1 * cc.val = cc.val; omega
    | ⟨1, _⟩ => show win8_1.index t (1 : Fin 2) * 1024 + 1 * q.val = jJ.val; omega
  · show V c main_call0_v52 (((cfg8.win 2).blk t).view.emb (ix2 (0 : Fin 1) q)) = V c main_call0_v52 (ix2 (0 : Fin 1) jJ)
    refine congrArg (V c main_call0_v52) (funext fun a => Fin.ext ?_)
    match a with
    | ⟨0, _⟩ => show win8_2.index t (0 : Fin 2) * 1 + 1 * 0 = 0; omega
    | ⟨1, _⟩ => show win8_2.index t (1 : Fin 2) * 1024 + 1 * q.val = jJ.val; omega

/-- An index of the result array is in point t's block iff each coordinate is in the block's range on its axis. -/
theorem mem_blk (t : Fin cfg8.N) (i : S1024x4096.Idx) :
    i ∈ ((cfg8.win 3).blk t).view.set ↔ ∀ a : Fin 2, win8_3.index t a * S512x1024.size a ≤ (i a).val ∧ (i a).val < win8_3.index t a * S512x1024.size a + S512x1024.size a := by
  show i ∈ ((View.whole main_call0_v53).slice (win8_3.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg8.N, (cfg8.win 3).flush t = true ∧ i ∈ ((cfg8.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win8_3.index t (0 : Fin 2) = (i 0).val / 512 := congrFun ht 0
  have q1 : win8_3.index t (1 : Fin 2) = (i 1).val / 1024 := congrFun ht 1
  refine ⟨t, flush8_3 t, ?_⟩
  rw [mem_blk]
  intro a
  match a with
  | ⟨0, _⟩ => show win8_3.index t (0 : Fin 2) * 512 ≤ (i 0).val ∧ (i 0).val < win8_3.index t (0 : Fin 2) * 512 + 512; omega
  | ⟨1, _⟩ => show win8_3.index t (1 : Fin 2) * 1024 ≤ (i 1).val ∧ (i 1).val < win8_3.index t (1 : Fin 2) * 1024 + 1024; omega

/-- The result array after the region. -/
theorem arr (c : Dev nD) : (dat8 (F := Ideal) V c).arrAt 3 cfg8.N = G V c :=
  (dat8 (F := Ideal) V c).arrAt_eq_of_cover 3 (G V c) (fun t _ => flushed_eq V c t) cover

end Cert.KernelIdeal.Reg8

end
-- ==== Proof.Reg9.lean ====
/-
  Region 9: the array it leaves.

  The region tiles a [1024, 4096] result into 2 by 4 blocks of [512, 1024] and computes a dense layer. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg9

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg9.N,
    win9_0.index t (0 : Fin 2) = win9_3.index t (0 : Fin 2)
    ∧ win9_0.index t (1 : Fin 2) = 0
    ∧ win9_1.index t (0 : Fin 2) = 0
    ∧ win9_1.index t (1 : Fin 2) = win9_3.index t (1 : Fin 2)
    ∧ win9_2.index t (0 : Fin 2) = 0
    ∧ win9_2.index t (1 : Fin 2) = win9_3.index t (1 : Fin 2)
    ∧ win9_3.index t (0 : Fin 2) ≤ 1
    ∧ win9_3.index t (1 : Fin 2) ≤ 3 :=
  (by decide +kernel : ∀ t : Fin grid9.N, _)

/-- Every block of the result is some grid point's. -/
theorem idx_onto : ∀ (q0 : Fin 2) (q1 : Fin 4), ∃ t : Fin cfg9.N, win9_3.index t = ![q0.val, q1.val] :=
  (by decide +kernel : ∀ (q0 : Fin 2) (q1 : Fin 4), ∃ t : Fin grid9.N, win9_3.index t = ![q0.val, q1.val])

/-- The whole-array function the region computes, of its operand arrays as it finds them. -/
def G (c : Dev nD) : S1024x4096.Idx → EReal :=
  dense (V c main_call0_v27) (V c main_call0_v6) (V c main_call0_v54)

/-- What grid point t writes back is block t of that function. -/
theorem flushed_eq (c : Dev nD) (t : Fin cfg9.N) :
    (dat9 (F := Ideal) V c).flushed 3 t = ((cfg9.win 3).blk t).view.read (Elt Ideal) (G V c) := by
  show (cfg9.win 3).cut (grid9.coords t) ((dat9 V c).after 3 t) = _
  rw [after9_3]
  unfold out9_3
  rw [View.canon_unit_zero hz]
  simp only [View.ld_unit_zero (S := S512x1024) hz, View.ld_unit_zero (S := S1024x1024) hz, View.ld_unit_zero (S := S1x1024) hz]
  rw [show ∀ x0 x1 x2, k9_pay1 (F := Ideal) x0 x1 x2 = dense x0 x1 x2 from Pay.pay2]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win9_3.index t (0 : Fin 2) * 512 + p.val := ⟨⟨_, by omega⟩, rfl⟩
  obtain ⟨jJ, hjJ⟩ : ∃ jJ : Fin 4096, jJ.val = win9_3.index t (1 : Fin 2) * 1024 + q.val := ⟨⟨_, by omega⟩, rfl⟩
  have hemb : ((cfg9.win 3).blk t).view.emb (ix2 p q) = ix2 iI jJ := by
    funext a; apply Fin.ext
    match a with
    | ⟨0, _⟩ => show win9_3.index t (0 : Fin 2) * 512 + 1 * p.val = iI.val; omega
    | ⟨1, _⟩ => show win9_3.index t (1 : Fin 2) * 1024 + 1 * q.val = jJ.val; omega
  show (dense (iblk9 V c 0 t) (iblk9 V c 1 t) (iblk9 V c 2 t)) (ix2 p q) = G V c (((cfg9.win 3).blk t).view.emb (ix2 p q))
  rw [hemb]
  unfold G
  refine dense_entry_congr (tm := 512) (k := 1024) (tn := 1024) (M := 1024) (N := 4096) (iblk9 V c 0 t) (iblk9 V c 1 t) (iblk9 V c 2 t) (V c main_call0_v27) (V c main_call0_v6) (V c main_call0_v54) p q iI jJ (fun cc => ?_) (fun cc => ?_) ?_
  · show V c main_call0_v27 (((cfg9.win 0).blk t).view.emb (ix2 p cc)) = V c main_call0_v27 (ix2 iI cc)
    refine congrArg (V c main_call0_v27) (funext fun a => Fin.ext ?_)
    match a with
    | ⟨0, _⟩ => show win9_0.index t (0 : Fin 2) * 512 + 1 * p.val = iI.val; omega
    | ⟨1, _⟩ => show win9_0.index t (1 : Fin 2) * 1024 + 1 * cc.val = cc.val; omega
  · show V c main_call0_v6 (((cfg9.win 1).blk t).view.emb (ix2 cc q)) = V c main_call0_v6 (ix2 cc jJ)
    refine congrArg (V c main_call0_v6) (funext fun a => Fin.ext ?_)
    match a with
    | ⟨0, _⟩ => show win9_1.index t (0 : Fin 2) * 1024 + 1 * cc.val = cc.val; omega
    | ⟨1, _⟩ => show win9_1.index t (1 : Fin 2) * 1024 + 1 * q.val = jJ.val; omega
  · show V c main_call0_v54 (((cfg9.win 2).blk t).view.emb (ix2 (0 : Fin 1) q)) = V c main_call0_v54 (ix2 (0 : Fin 1) jJ)
    refine congrArg (V c main_call0_v54) (funext fun a => Fin.ext ?_)
    match a with
    | ⟨0, _⟩ => show win9_2.index t (0 : Fin 2) * 1 + 1 * 0 = 0; omega
    | ⟨1, _⟩ => show win9_2.index t (1 : Fin 2) * 1024 + 1 * q.val = jJ.val; omega

/-- An index of the result array is in point t's block iff each coordinate is in the block's range on its axis. -/
theorem mem_blk (t : Fin cfg9.N) (i : S1024x4096.Idx) :
    i ∈ ((cfg9.win 3).blk t).view.set ↔ ∀ a : Fin 2, win9_3.index t a * S512x1024.size a ≤ (i a).val ∧ (i a).val < win9_3.index t a * S512x1024.size a + S512x1024.size a := by
  show i ∈ ((View.whole main_call0_v55).slice (win9_3.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg9.N, (cfg9.win 3).flush t = true ∧ i ∈ ((cfg9.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win9_3.index t (0 : Fin 2) = (i 0).val / 512 := congrFun ht 0
  have q1 : win9_3.index t (1 : Fin 2) = (i 1).val / 1024 := congrFun ht 1
  refine ⟨t, flush9_3 t, ?_⟩
  rw [mem_blk]
  intro a
  match a with
  | ⟨0, _⟩ => show win9_3.index t (0 : Fin 2) * 512 ≤ (i 0).val ∧ (i 0).val < win9_3.index t (0 : Fin 2) * 512 + 512; omega
  | ⟨1, _⟩ => show win9_3.index t (1 : Fin 2) * 1024 ≤ (i 1).val ∧ (i 1).val < win9_3.index t (1 : Fin 2) * 1024 + 1024; omega

/-- The result array after the region. -/
theorem arr (c : Dev nD) : (dat9 (F := Ideal) V c).arrAt 3 cfg9.N = G V c :=
  (dat9 (F := Ideal) V c).arrAt_eq_of_cover 3 (G V c) (fun t _ => flushed_eq V c t) cover

end Cert.KernelIdeal.Reg9

end
-- ==== Proof.Reg10.lean ====
/-
  Region 10: the array it leaves.

  The region tiles a [1024, 1024] result into 4 by 2 blocks of [256, 512] and computes a dense layer of the entrywise product of two operands. The block at
  (I, J) is computed from rows I*256 .. of the row operands (all 4096 columns), columns J*512 .. of the column operands
  (all 4096 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg10

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 4 by 2 box. -/
theorem idx_facts : ∀ t : Fin cfg10.N,
    win10_0.index t (0 : Fin 2) = win10_4.index t (0 : Fin 2)
    ∧ win10_0.index t (1 : Fin 2) = 0
    ∧ win10_1.index t (0 : Fin 2) = win10_4.index t (0 : Fin 2)
    ∧ win10_1.index t (1 : Fin 2) = 0
    ∧ win10_2.index t (0 : Fin 2) = 0
    ∧ win10_2.index t (1 : Fin 2) = win10_4.index t (1 : Fin 2)
    ∧ win10_3.index t (0 : Fin 2) = 0
    ∧ win10_3.index t (1 : Fin 2) = win10_4.index t (1 : Fin 2)
    ∧ win10_4.index t (0 : Fin 2) ≤ 3
    ∧ win10_4.index t (1 : Fin 2) ≤ 1 :=
  (by decide +kernel : ∀ t : Fin grid10.N, _)

/-- Every block of the result is some grid point's. -/
theorem idx_onto : ∀ (q0 : Fin 4) (q1 : Fin 2), ∃ t : Fin cfg10.N, win10_4.index t = ![q0.val, q1.val] :=
  (by decide +kernel : ∀ (q0 : Fin 4) (q1 : Fin 2), ∃ t : Fin grid10.N, win10_4.index t = ![q0.val, q1.val])

/-- The whole-array function the region computes, of its operand arrays as it finds them. -/
def G (c : Dev nD) : S1024x1024.Idx → EReal :=
  dense (had (V c main_call0_v53) (V c main_call0_v55)) (V c main_call0_v7) (V c main_call0_v56)

/-- What grid point t writes back is block t of that function. -/
theorem flushed_eq (c : Dev nD) (t : Fin cfg10.N) :
    (dat10 (F := Ideal) V c).flushed 4 t = ((cfg10.win 4).blk t).view.read (Elt Ideal) (G V c) := by
  show (cfg10.win 4).cut (grid10.coords t) ((dat10 V c).after 4 t) = _
  rw [after10_4]
  unfold out10_4
  rw [View.canon_unit_zero hz]
  simp only [View.ld_unit_zero (S := S256x4096) hz, View.ld_unit_zero (S := S4096x512) hz, View.ld_unit_zero (S := S1x512) hz]
  rw [show ∀ x0 x1 x2 x3, k10_pay1 (F := Ideal) x0 x1 x2 x3 = dense (had x0 x1) x2 x3 from Pay.pay3]
  obtain ⟨e0, e1, e2, e3, e4, e5, e6, e7, e8, e9⟩ := idx_facts t
  funext j
  obtain ⟨p, q, rfl⟩ : ∃ (p : Fin 256) (q : Fin 512), j = ix2 p q := ⟨j 0, j 1, eq_ix2 j⟩
  have hp := p.isLt
  have hq := q.isLt
  obtain ⟨iI, hiI⟩ : ∃ iI : Fin 1024, iI.val = win10_4.index t (0 : Fin 2) * 256 + p.val := ⟨⟨_, by omega⟩, rfl⟩
  obtain ⟨jJ, hjJ⟩ : ∃ jJ : Fin 1024, jJ.val = win10_4.index t (1 : Fin 2) * 512 + q.val := ⟨⟨_, by omega⟩, rfl⟩
  have hemb : ((cfg10.win 4).blk t).view.emb (ix2 p q) = ix2 iI jJ := by
    funext a; apply Fin.ext
    match a with
    | ⟨0, _⟩ => show win10_4.index t (0 : Fin 2) * 256 + 1 * p.val = iI.val; omega
    | ⟨1, _⟩ => show win10_4.index t (1 : Fin 2) * 512 + 1 * q.val = jJ.val; omega
  show (dense (had (iblk10 V c 0 t) (iblk10 V c 1 t)) (iblk10 V c 2 t) (iblk10 V c 3 t)) (ix2 p q) = G V c (((cfg10.win 4).blk t).view.emb (ix2 p q))
  rw [hemb]
  unfold G
  refine dense_entry_congr (tm := 256) (k := 4096) (tn := 512) (M := 1024) (N := 1024) (had (iblk10 V c 0 t) (iblk10 V c 1 t)) (iblk10 V c 2 t) (iblk10 V c 3 t) (had (V c main_call0_v53) (V c main_call0_v55)) (V c main_call0_v7) (V c main_call0_v56) p q iI jJ (fun cc => ?_) (fun cc => ?_) ?_
  · have r0 : V c main_call0_v53 (((cfg10.win 0).blk t).view.emb (ix2 p cc)) = V c main_call0_v53 (ix2 iI cc) := by
      refine congrArg (V c main_call0_v53) (funext fun a => Fin.ext ?_)
      match a with
      | ⟨0, _⟩ => show win10_0.index t (0 : Fin 2) * 256 + 1 * p.val = iI.val; omega
      | ⟨1, _⟩ => show win10_0.index t (1 : Fin 2) * 4096 + 1 * cc.val = cc.val; omega
    have r1 : V c main_call0_v55 (((cfg10.win 1).blk t).view.emb (ix2 p cc)) = V c main_call0_v55 (ix2 iI cc) := by
      refine congrArg (V c main_call0_v55) (funext fun a => Fin.ext ?_)
      match a with
      | ⟨0, _⟩ => show win10_1.index t (0 : Fin 2) * 256 + 1 * p.val = iI.val; omega
      | ⟨1, _⟩ => show win10_1.index t (1 : Fin 2) * 4096 + 1 * cc.val = cc.val; omega
    exact congrArg₂ (fun (a b : EReal) => a * b) r0 r1
  · show V c main_call0_v7 (((cfg10.win 2).blk t).view.emb (ix2 cc q)) = V c main_call0_v7 (ix2 cc jJ)
    refine congrArg (V c main_call0_v7) (funext fun a => Fin.ext ?_)
    match a with
    | ⟨0, _⟩ => show win10_2.index t (0 : Fin 2) * 4096 + 1 * cc.val = cc.val; omega
    | ⟨1, _⟩ => show win10_2.index t (1 : Fin 2) * 512 + 1 * q.val = jJ.val; omega
  · show V c main_call0_v56 (((cfg10.win 3).blk t).view.emb (ix2 (0 : Fin 1) q)) = V c main_call0_v56 (ix2 (0 : Fin 1) jJ)
    refine congrArg (V c main_call0_v56) (funext fun a => Fin.ext ?_)
    match a with
    | ⟨0, _⟩ => show win10_3.index t (0 : Fin 2) * 1 + 1 * 0 = 0; omega
    | ⟨1, _⟩ => show win10_3.index t (1 : Fin 2) * 512 + 1 * q.val = jJ.val; omega

/-- An index of the result array is in point t's block iff each coordinate is in the block's range on its axis. -/
theorem mem_blk (t : Fin cfg10.N) (i : S1024x1024.Idx) :
    i ∈ ((cfg10.win 4).blk t).view.set ↔ ∀ a : Fin 2, win10_4.index t a * S256x512.size a ≤ (i a).val ∧ (i a).val < win10_4.index t a * S256x512.size a + S256x512.size a := by
  show i ∈ ((View.whole main_call0_v57).slice (win10_4.rect t)).set ↔ _
  rw [View.set_slice_whole, Rect.mem_set_unit]
  exact Iff.rfl

/-- The blocks tile the result: the point that covers (i, j) is the one at block (i / 256, j / 512). -/
theorem cover (i : S1024x1024.Idx) : ∃ t : Fin cfg10.N, (cfg10.win 4).flush t = true ∧ i ∈ ((cfg10.win 4).blk t).view.set := by
  have hi0 : (i 0).val < 1024 := (i 0).isLt
  have hi1 : (i 1).val < 1024 := (i 1).isLt
  obtain ⟨t, ht⟩ := idx_onto ⟨(i 0).val / 256, by omega⟩ ⟨(i 1).val / 512, by omega⟩
  have q0 : win10_4.index t (0 : Fin 2) = (i 0).val / 256 := congrFun ht 0
  have q1 : win10_4.index t (1 : Fin 2) = (i 1).val / 512 := congrFun ht 1
  refine ⟨t, flush10_4 t, ?_⟩
  rw [mem_blk]
  intro a
  match a with
  | ⟨0, _⟩ => show win10_4.index t (0 : Fin 2) * 256 ≤ (i 0).val ∧ (i 0).val < win10_4.index t (0 : Fin 2) * 256 + 256; omega
  | ⟨1, _⟩ => show win10_4.index t (1 : Fin 2) * 512 ≤ (i 1).val ∧ (i 1).val < win10_4.index t (1 : Fin 2) * 512 + 512; omega

/-- The result array after the region. -/
theorem arr (c : Dev nD) : (dat10 (F := Ideal) V c).arrAt 4 cfg10.N = G V c :=
  (dat10 (F := Ideal) V c).arrAt_eq_of_cover 4 (G V c) (fun t _ => flushed_eq V c t) cover

end Cert.KernelIdeal.Reg10

end
-- ==== Proof.Reg11.lean ====
/-
  Region 11: the array it leaves.

  The region tiles a [1024, 1024] result into 2 by 2 blocks of [512, 512] and computes a dense layer. The block at
  (I, J) is computed from rows I*512 .. of the row operands (all 1024 columns), columns J*512 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg11

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg11.N,
    win11_0.index t (0 : Fin 2) = win11_3.index t (0 : Fin 2)
    ∧ win11_0.index t (1 : Fin 2) = 0
    ∧ win11_1.index t (0 : Fin 2) = 0
    ∧ win11_1.index t (1 : Fin 2) = win11_3.index t (1 : Fin 2)
    ∧ win11_2.index t (0 : Fin 2) = 0
    ∧ win11_2.index t (1 : Fin 2) = win11_3.index t (1 : Fin 2)
    ∧ win11_3.index t (0 : Fin 2) ≤ 1
    ∧ win11_3.index t (1 : Fin 2) ≤ 1 :=
  (by decide +kernel : ∀ t : Fin grid11.N, _)

/-- Every block of the result is some grid point's. -/
theorem idx_onto : ∀ (q0 : Fin 2) (q1 : Fin 2), ∃ t : Fin cfg11.N, win11_3.index t = ![q0.val, q1.val] :=
  (by decide +kernel : ∀ (q0 : Fin 2) (q1 : Fin 2), ∃ t : Fin grid11.N, win11_3.index t = ![q0.val, q1.val])

/-- The whole-array function the region computes, of its operand arrays as it finds them. -/
def G (c : Dev nD) : S1024x1024.Idx → EReal :=
  dense (V c main_call0_v59) (V c main_call0_v61) (V c main_call0_v64)

/-- What grid point t writes back is block t of that function. -/
theorem flushed_eq (c : Dev nD) (t : Fin cfg11.N) :
    (dat11 (F := Ideal) V c).flushed 3 t = ((cfg11.win 3).blk t).view.read (Elt Ideal) (G V c) := by
  show (cfg11.win 3).cut (grid11.coords t) ((dat11 V c).after 3 t) = _
  rw [after11_3]
  unfold out11_3
  rw [View.canon_unit_zero hz]
  simp only [View.ld_unit_zero (S := S512x1024) hz, View.ld_unit_zero (S := S1024x512) hz, View.ld_unit_zero (S := S1x512) hz]
  rw [show ∀ x0 x1 x2, k11_pay1 (F := Ideal) x0 x1 x2 = dense x0 x1 x2 from Pay.pay0]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win11_3.index t (0 : Fin 2) * 512 + p.val := ⟨⟨_, by omega⟩, rfl⟩
  obtain ⟨jJ, hjJ⟩ : ∃ jJ : Fin 1024, jJ.val = win11_3.index t (1 : Fin 2) * 512 + q.val := ⟨⟨_, by omega⟩, rfl⟩
  have hemb : ((cfg11.win 3).blk t).view.emb (ix2 p q) = ix2 iI jJ := by
    funext a; apply Fin.ext
    match a with
    | ⟨0, _⟩ => show win11_3.index t (0 : Fin 2) * 512 + 1 * p.val = iI.val; omega
    | ⟨1, _⟩ => show win11_3.index t (1 : Fin 2) * 512 + 1 * q.val = jJ.val; omega
  show (dense (iblk11 V c 0 t) (iblk11 V c 1 t) (iblk11 V c 2 t)) (ix2 p q) = G V c (((cfg11.win 3).blk t).view.emb (ix2 p q))
  rw [hemb]
  unfold G
  refine dense_entry_congr (tm := 512) (k := 1024) (tn := 512) (M := 1024) (N := 1024) (iblk11 V c 0 t) (iblk11 V c 1 t) (iblk11 V c 2 t) (V c main_call0_v59) (V c main_call0_v61) (V c main_call0_v64) p q iI jJ (fun cc => ?_) (fun cc => ?_) ?_
  · show V c main_call0_v59 (((cfg11.win 0).blk t).view.emb (ix2 p cc)) = V c main_call0_v59 (ix2 iI cc)
    refine congrArg (V c main_call0_v59) (funext fun a => Fin.ext ?_)
    match a with
    | ⟨0, _⟩ => show win11_0.index t (0 : Fin 2) * 512 + 1 * p.val = iI.val; omega
    | ⟨1, _⟩ => show win11_0.index t (1 : Fin 2) * 1024 + 1 * cc.val = cc.val; omega
  · show V c main_call0_v61 (((cfg11.win 1).blk t).view.emb (ix2 cc q)) = V c main_call0_v61 (ix2 cc jJ)
    refine congrArg (V c main_call0_v61) (funext fun a => Fin.ext ?_)
    match a with
    | ⟨0, _⟩ => show win11_1.index t (0 : Fin 2) * 1024 + 1 * cc.val = cc.val; omega
    | ⟨1, _⟩ => show win11_1.index t (1 : Fin 2) * 512 + 1 * q.val = jJ.val; omega
  · show V c main_call0_v64 (((cfg11.win 2).blk t).view.emb (ix2 (0 : Fin 1) q)) = V c main_call0_v64 (ix2 (0 : Fin 1) jJ)
    refine congrArg (V c main_call0_v64) (funext fun a => Fin.ext ?_)
    match a with
    | ⟨0, _⟩ => show win11_2.index t (0 : Fin 2) * 1 + 1 * 0 = 0; omega
    | ⟨1, _⟩ => show win11_2.index t (1 : Fin 2) * 512 + 1 * q.val = jJ.val; omega

/-- An index of the result array is in point t's block iff each coordinate is in the block's range on its axis. -/
theorem mem_blk (t : Fin cfg11.N) (i : S1024x1024.Idx) :
    i ∈ ((cfg11.win 3).blk t).view.set ↔ ∀ a : Fin 2, win11_3.index t a * S512x512.size a ≤ (i a).val ∧ (i a).val < win11_3.index t a * S512x512.size a + S512x512.size a := by
  show i ∈ ((View.whole main_call0_v65).slice (win11_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg11.N, (cfg11.win 3).flush t = true ∧ i ∈ ((cfg11.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win11_3.index t (0 : Fin 2) = (i 0).val / 512 := congrFun ht 0
  have q1 : win11_3.index t (1 : Fin 2) = (i 1).val / 512 := congrFun ht 1
  refine ⟨t, flush11_3 t, ?_⟩
  rw [mem_blk]
  intro a
  match a with
  | ⟨0, _⟩ => show win11_3.index t (0 : Fin 2) * 512 ≤ (i 0).val ∧ (i 0).val < win11_3.index t (0 : Fin 2) * 512 + 512; omega
  | ⟨1, _⟩ => show win11_3.index t (1 : Fin 2) * 512 ≤ (i 1).val ∧ (i 1).val < win11_3.index t (1 : Fin 2) * 512 + 512; omega

/-- The result array after the region. -/
theorem arr (c : Dev nD) : (dat11 (F := Ideal) V c).arrAt 3 cfg11.N = G V c :=
  (dat11 (F := Ideal) V c).arrAt_eq_of_cover 3 (G V c) (fun t _ => flushed_eq V c t) cover

end Cert.KernelIdeal.Reg11

end
-- ==== Proof.Reg12.lean ====
/-
  Region 12: the array it leaves.

  The region tiles a [1024, 4096] result into 2 by 4 blocks of [512, 1024] and computes a dense layer. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg12

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg12.N,
    win12_0.index t (0 : Fin 2) = win12_3.index t (0 : Fin 2)
    ∧ win12_0.index t (1 : Fin 2) = 0
    ∧ win12_1.index t (0 : Fin 2) = 0
    ∧ win12_1.index t (1 : Fin 2) = win12_3.index t (1 : Fin 2)
    ∧ win12_2.index t (0 : Fin 2) = 0
    ∧ win12_2.index t (1 : Fin 2) = win12_3.index t (1 : Fin 2)
    ∧ win12_3.index t (0 : Fin 2) ≤ 1
    ∧ win12_3.index t (1 : Fin 2) ≤ 3 :=
  (by decide +kernel : ∀ t : Fin grid12.N, _)

/-- Every block of the result is some grid point's. -/
theorem idx_onto : ∀ (q0 : Fin 2) (q1 : Fin 4), ∃ t : Fin cfg12.N, win12_3.index t = ![q0.val, q1.val] :=
  (by decide +kernel : ∀ (q0 : Fin 2) (q1 : Fin 4), ∃ t : Fin grid12.N, win12_3.index t = ![q0.val, q1.val])

/-- The whole-array function the region computes, of its operand arrays as it finds them. -/
def G (c : Dev nD) : S1024x4096.Idx → EReal :=
  dense (V c main_call0_v57) (V c main_call0_v6) (V c main_call0_v66)

/-- What grid point t writes back is block t of that function. -/
theorem flushed_eq (c : Dev nD) (t : Fin cfg12.N) :
    (dat12 (F := Ideal) V c).flushed 3 t = ((cfg12.win 3).blk t).view.read (Elt Ideal) (G V c) := by
  show (cfg12.win 3).cut (grid12.coords t) ((dat12 V c).after 3 t) = _
  rw [after12_3]
  unfold out12_3
  rw [View.canon_unit_zero hz]
  simp only [View.ld_unit_zero (S := S512x1024) hz, View.ld_unit_zero (S := S1024x1024) hz, View.ld_unit_zero (S := S1x1024) hz]
  rw [show ∀ x0 x1 x2, k12_pay1 (F := Ideal) x0 x1 x2 = dense x0 x1 x2 from Pay.pay2]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win12_3.index t (0 : Fin 2) * 512 + p.val := ⟨⟨_, by omega⟩, rfl⟩
  obtain ⟨jJ, hjJ⟩ : ∃ jJ : Fin 4096, jJ.val = win12_3.index t (1 : Fin 2) * 1024 + q.val := ⟨⟨_, by omega⟩, rfl⟩
  have hemb : ((cfg12.win 3).blk t).view.emb (ix2 p q) = ix2 iI jJ := by
    funext a; apply Fin.ext
    match a with
    | ⟨0, _⟩ => show win12_3.index t (0 : Fin 2) * 512 + 1 * p.val = iI.val; omega
    | ⟨1, _⟩ => show win12_3.index t (1 : Fin 2) * 1024 + 1 * q.val = jJ.val; omega
  show (dense (iblk12 V c 0 t) (iblk12 V c 1 t) (iblk12 V c 2 t)) (ix2 p q) = G V c (((cfg12.win 3).blk t).view.emb (ix2 p q))
  rw [hemb]
  unfold G
  refine dense_entry_congr (tm := 512) (k := 1024) (tn := 1024) (M := 1024) (N := 4096) (iblk12 V c 0 t) (iblk12 V c 1 t) (iblk12 V c 2 t) (V c main_call0_v57) (V c main_call0_v6) (V c main_call0_v66) p q iI jJ (fun cc => ?_) (fun cc => ?_) ?_
  · show V c main_call0_v57 (((cfg12.win 0).blk t).view.emb (ix2 p cc)) = V c main_call0_v57 (ix2 iI cc)
    refine congrArg (V c main_call0_v57) (funext fun a => Fin.ext ?_)
    match a with
    | ⟨0, _⟩ => show win12_0.index t (0 : Fin 2) * 512 + 1 * p.val = iI.val; omega
    | ⟨1, _⟩ => show win12_0.index t (1 : Fin 2) * 1024 + 1 * cc.val = cc.val; omega
  · show V c main_call0_v6 (((cfg12.win 1).blk t).view.emb (ix2 cc q)) = V c main_call0_v6 (ix2 cc jJ)
    refine congrArg (V c main_call0_v6) (funext fun a => Fin.ext ?_)
    match a with
    | ⟨0, _⟩ => show win12_1.index t (0 : Fin 2) * 1024 + 1 * cc.val = cc.val; omega
    | ⟨1, _⟩ => show win12_1.index t (1 : Fin 2) * 1024 + 1 * q.val = jJ.val; omega
  · show V c main_call0_v66 (((cfg12.win 2).blk t).view.emb (ix2 (0 : Fin 1) q)) = V c main_call0_v66 (ix2 (0 : Fin 1) jJ)
    refine congrArg (V c main_call0_v66) (funext fun a => Fin.ext ?_)
    match a with
    | ⟨0, _⟩ => show win12_2.index t (0 : Fin 2) * 1 + 1 * 0 = 0; omega
    | ⟨1, _⟩ => show win12_2.index t (1 : Fin 2) * 1024 + 1 * q.val = jJ.val; omega

/-- An index of the result array is in point t's block iff each coordinate is in the block's range on its axis. -/
theorem mem_blk (t : Fin cfg12.N) (i : S1024x4096.Idx) :
    i ∈ ((cfg12.win 3).blk t).view.set ↔ ∀ a : Fin 2, win12_3.index t a * S512x1024.size a ≤ (i a).val ∧ (i a).val < win12_3.index t a * S512x1024.size a + S512x1024.size a := by
  show i ∈ ((View.whole main_call0_v67).slice (win12_3.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg12.N, (cfg12.win 3).flush t = true ∧ i ∈ ((cfg12.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win12_3.index t (0 : Fin 2) = (i 0).val / 512 := congrFun ht 0
  have q1 : win12_3.index t (1 : Fin 2) = (i 1).val / 1024 := congrFun ht 1
  refine ⟨t, flush12_3 t, ?_⟩
  rw [mem_blk]
  intro a
  match a with
  | ⟨0, _⟩ => show win12_3.index t (0 : Fin 2) * 512 ≤ (i 0).val ∧ (i 0).val < win12_3.index t (0 : Fin 2) * 512 + 512; omega
  | ⟨1, _⟩ => show win12_3.index t (1 : Fin 2) * 1024 ≤ (i 1).val ∧ (i 1).val < win12_3.index t (1 : Fin 2) * 1024 + 1024; omega

/-- The result array after the region. -/
theorem arr (c : Dev nD) : (dat12 (F := Ideal) V c).arrAt 3 cfg12.N = G V c :=
  (dat12 (F := Ideal) V c).arrAt_eq_of_cover 3 (G V c) (fun t _ => flushed_eq V c t) cover

end Cert.KernelIdeal.Reg12

end
-- ==== Proof.Reg13.lean ====
/-
  Region 13: the array it leaves.

  The region tiles a [1024, 4096] result into 2 by 4 blocks of [512, 1024] and computes twice the sigmoid of a dense layer. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg13

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg13.N,
    win13_0.index t (0 : Fin 2) = win13_3.index t (0 : Fin 2)
    ∧ win13_0.index t (1 : Fin 2) = 0
    ∧ win13_1.index t (0 : Fin 2) = 0
    ∧ win13_1.index t (1 : Fin 2) = win13_3.index t (1 : Fin 2)
    ∧ win13_2.index t (0 : Fin 2) = 0
    ∧ win13_2.index t (1 : Fin 2) = win13_3.index t (1 : Fin 2)
    ∧ win13_3.index t (0 : Fin 2) ≤ 1
    ∧ win13_3.index t (1 : Fin 2) ≤ 3 :=
  (by decide +kernel : ∀ t : Fin grid13.N, _)

/-- Every block of the result is some grid point's. -/
theorem idx_onto : ∀ (q0 : Fin 2) (q1 : Fin 4), ∃ t : Fin cfg13.N, win13_3.index t = ![q0.val, q1.val] :=
  (by decide +kernel : ∀ (q0 : Fin 2) (q1 : Fin 4), ∃ t : Fin grid13.N, win13_3.index t = ![q0.val, q1.val])

/-- The whole-array function the region computes, of its operand arrays as it finds them. -/
def G (c : Dev nD) : S1024x4096.Idx → EReal :=
  sig2 (dense (V c main_call0_v65) (V c main_call0_v67) (V c main_call0_v68))

/-- What grid point t writes back is block t of that function. -/
theorem flushed_eq (c : Dev nD) (t : Fin cfg13.N) :
    (dat13 (F := Ideal) V c).flushed 3 t = ((cfg13.win 3).blk t).view.read (Elt Ideal) (G V c) := by
  show (cfg13.win 3).cut (grid13.coords t) ((dat13 V c).after 3 t) = _
  rw [after13_3]
  unfold out13_3
  rw [View.canon_unit_zero hz]
  simp only [View.ld_unit_zero (S := S512x1024) hz, View.ld_unit_zero (S := S1024x1024) hz, View.ld_unit_zero (S := S1x1024) hz]
  rw [show ∀ x0 x1 x2, k13_pay1 (F := Ideal) x0 x1 x2 = sig2 (dense x0 x1 x2) from Pay.pay1]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win13_3.index t (0 : Fin 2) * 512 + p.val := ⟨⟨_, by omega⟩, rfl⟩
  obtain ⟨jJ, hjJ⟩ : ∃ jJ : Fin 4096, jJ.val = win13_3.index t (1 : Fin 2) * 1024 + q.val := ⟨⟨_, by omega⟩, rfl⟩
  have hemb : ((cfg13.win 3).blk t).view.emb (ix2 p q) = ix2 iI jJ := by
    funext a; apply Fin.ext
    match a with
    | ⟨0, _⟩ => show win13_3.index t (0 : Fin 2) * 512 + 1 * p.val = iI.val; omega
    | ⟨1, _⟩ => show win13_3.index t (1 : Fin 2) * 1024 + 1 * q.val = jJ.val; omega
  show (sig2 (dense (iblk13 V c 0 t) (iblk13 V c 1 t) (iblk13 V c 2 t))) (ix2 p q) = G V c (((cfg13.win 3).blk t).view.emb (ix2 p q))
  rw [hemb]
  unfold G
  refine congrArg (fun z => Ideal.ofBits .f32 0x40000000#32 * Ideal.logistic z) ?_
  refine dense_entry_congr (tm := 512) (k := 1024) (tn := 1024) (M := 1024) (N := 4096) (iblk13 V c 0 t) (iblk13 V c 1 t) (iblk13 V c 2 t) (V c main_call0_v65) (V c main_call0_v67) (V c main_call0_v68) p q iI jJ (fun cc => ?_) (fun cc => ?_) ?_
  · show V c main_call0_v65 (((cfg13.win 0).blk t).view.emb (ix2 p cc)) = V c main_call0_v65 (ix2 iI cc)
    refine congrArg (V c main_call0_v65) (funext fun a => Fin.ext ?_)
    match a with
    | ⟨0, _⟩ => show win13_0.index t (0 : Fin 2) * 512 + 1 * p.val = iI.val; omega
    | ⟨1, _⟩ => show win13_0.index t (1 : Fin 2) * 1024 + 1 * cc.val = cc.val; omega
  · show V c main_call0_v67 (((cfg13.win 1).blk t).view.emb (ix2 cc q)) = V c main_call0_v67 (ix2 cc jJ)
    refine congrArg (V c main_call0_v67) (funext fun a => Fin.ext ?_)
    match a with
    | ⟨0, _⟩ => show win13_1.index t (0 : Fin 2) * 1024 + 1 * cc.val = cc.val; omega
    | ⟨1, _⟩ => show win13_1.index t (1 : Fin 2) * 1024 + 1 * q.val = jJ.val; omega
  · show V c main_call0_v68 (((cfg13.win 2).blk t).view.emb (ix2 (0 : Fin 1) q)) = V c main_call0_v68 (ix2 (0 : Fin 1) jJ)
    refine congrArg (V c main_call0_v68) (funext fun a => Fin.ext ?_)
    match a with
    | ⟨0, _⟩ => show win13_2.index t (0 : Fin 2) * 1 + 1 * 0 = 0; omega
    | ⟨1, _⟩ => show win13_2.index t (1 : Fin 2) * 1024 + 1 * q.val = jJ.val; omega

/-- An index of the result array is in point t's block iff each coordinate is in the block's range on its axis. -/
theorem mem_blk (t : Fin cfg13.N) (i : S1024x4096.Idx) :
    i ∈ ((cfg13.win 3).blk t).view.set ↔ ∀ a : Fin 2, win13_3.index t a * S512x1024.size a ≤ (i a).val ∧ (i a).val < win13_3.index t a * S512x1024.size a + S512x1024.size a := by
  show i ∈ ((View.whole main_call0_v69).slice (win13_3.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg13.N, (cfg13.win 3).flush t = true ∧ i ∈ ((cfg13.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win13_3.index t (0 : Fin 2) = (i 0).val / 512 := congrFun ht 0
  have q1 : win13_3.index t (1 : Fin 2) = (i 1).val / 1024 := congrFun ht 1
  refine ⟨t, flush13_3 t, ?_⟩
  rw [mem_blk]
  intro a
  match a with
  | ⟨0, _⟩ => show win13_3.index t (0 : Fin 2) * 512 ≤ (i 0).val ∧ (i 0).val < win13_3.index t (0 : Fin 2) * 512 + 512; omega
  | ⟨1, _⟩ => show win13_3.index t (1 : Fin 2) * 1024 ≤ (i 1).val ∧ (i 1).val < win13_3.index t (1 : Fin 2) * 1024 + 1024; omega

/-- The result array after the region. -/
theorem arr (c : Dev nD) : (dat13 (F := Ideal) V c).arrAt 3 cfg13.N = G V c :=
  (dat13 (F := Ideal) V c).arrAt_eq_of_cover 3 (G V c) (fun t _ => flushed_eq V c t) cover

end Cert.KernelIdeal.Reg13

end
-- ==== Proof.Reg14.lean ====
/-
  Region 14: the array it leaves.

  The region tiles a [1024, 1024] result into 2 by 2 blocks of [512, 512] and computes a dense layer. The block at
  (I, J) is computed from rows I*512 .. of the row operands (all 1024 columns), columns J*512 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg14

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg14.N,
    win14_0.index t (0 : Fin 2) = win14_3.index t (0 : Fin 2)
    ∧ win14_0.index t (1 : Fin 2) = 0
    ∧ win14_1.index t (0 : Fin 2) = 0
    ∧ win14_1.index t (1 : Fin 2) = win14_3.index t (1 : Fin 2)
    ∧ win14_2.index t (0 : Fin 2) = 0
    ∧ win14_2.index t (1 : Fin 2) = win14_3.index t (1 : Fin 2)
    ∧ win14_3.index t (0 : Fin 2) ≤ 1
    ∧ win14_3.index t (1 : Fin 2) ≤ 1 :=
  (by decide +kernel : ∀ t : Fin grid14.N, _)

/-- Every block of the result is some grid point's. -/
theorem idx_onto : ∀ (q0 : Fin 2) (q1 : Fin 2), ∃ t : Fin cfg14.N, win14_3.index t = ![q0.val, q1.val] :=
  (by decide +kernel : ∀ (q0 : Fin 2) (q1 : Fin 2), ∃ t : Fin grid14.N, win14_3.index t = ![q0.val, q1.val])

/-- The whole-array function the region computes, of its operand arrays as it finds them. -/
def G (c : Dev nD) : S1024x1024.Idx → EReal :=
  dense (V c main_call0_v75) (V c main_call0_v77) (V c main_call0_v80)

/-- What grid point t writes back is block t of that function. -/
theorem flushed_eq (c : Dev nD) (t : Fin cfg14.N) :
    (dat14 (F := Ideal) V c).flushed 3 t = ((cfg14.win 3).blk t).view.read (Elt Ideal) (G V c) := by
  show (cfg14.win 3).cut (grid14.coords t) ((dat14 V c).after 3 t) = _
  rw [after14_3]
  unfold out14_3
  rw [View.canon_unit_zero hz]
  simp only [View.ld_unit_zero (S := S512x1024) hz, View.ld_unit_zero (S := S1024x512) hz, View.ld_unit_zero (S := S1x512) hz]
  rw [show ∀ x0 x1 x2, k14_pay1 (F := Ideal) x0 x1 x2 = dense x0 x1 x2 from Pay.pay0]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win14_3.index t (0 : Fin 2) * 512 + p.val := ⟨⟨_, by omega⟩, rfl⟩
  obtain ⟨jJ, hjJ⟩ : ∃ jJ : Fin 1024, jJ.val = win14_3.index t (1 : Fin 2) * 512 + q.val := ⟨⟨_, by omega⟩, rfl⟩
  have hemb : ((cfg14.win 3).blk t).view.emb (ix2 p q) = ix2 iI jJ := by
    funext a; apply Fin.ext
    match a with
    | ⟨0, _⟩ => show win14_3.index t (0 : Fin 2) * 512 + 1 * p.val = iI.val; omega
    | ⟨1, _⟩ => show win14_3.index t (1 : Fin 2) * 512 + 1 * q.val = jJ.val; omega
  show (dense (iblk14 V c 0 t) (iblk14 V c 1 t) (iblk14 V c 2 t)) (ix2 p q) = G V c (((cfg14.win 3).blk t).view.emb (ix2 p q))
  rw [hemb]
  unfold G
  refine dense_entry_congr (tm := 512) (k := 1024) (tn := 512) (M := 1024) (N := 1024) (iblk14 V c 0 t) (iblk14 V c 1 t) (iblk14 V c 2 t) (V c main_call0_v75) (V c main_call0_v77) (V c main_call0_v80) p q iI jJ (fun cc => ?_) (fun cc => ?_) ?_
  · show V c main_call0_v75 (((cfg14.win 0).blk t).view.emb (ix2 p cc)) = V c main_call0_v75 (ix2 iI cc)
    refine congrArg (V c main_call0_v75) (funext fun a => Fin.ext ?_)
    match a with
    | ⟨0, _⟩ => show win14_0.index t (0 : Fin 2) * 512 + 1 * p.val = iI.val; omega
    | ⟨1, _⟩ => show win14_0.index t (1 : Fin 2) * 1024 + 1 * cc.val = cc.val; omega
  · show V c main_call0_v77 (((cfg14.win 1).blk t).view.emb (ix2 cc q)) = V c main_call0_v77 (ix2 cc jJ)
    refine congrArg (V c main_call0_v77) (funext fun a => Fin.ext ?_)
    match a with
    | ⟨0, _⟩ => show win14_1.index t (0 : Fin 2) * 1024 + 1 * cc.val = cc.val; omega
    | ⟨1, _⟩ => show win14_1.index t (1 : Fin 2) * 512 + 1 * q.val = jJ.val; omega
  · show V c main_call0_v80 (((cfg14.win 2).blk t).view.emb (ix2 (0 : Fin 1) q)) = V c main_call0_v80 (ix2 (0 : Fin 1) jJ)
    refine congrArg (V c main_call0_v80) (funext fun a => Fin.ext ?_)
    match a with
    | ⟨0, _⟩ => show win14_2.index t (0 : Fin 2) * 1 + 1 * 0 = 0; omega
    | ⟨1, _⟩ => show win14_2.index t (1 : Fin 2) * 512 + 1 * q.val = jJ.val; omega

/-- An index of the result array is in point t's block iff each coordinate is in the block's range on its axis. -/
theorem mem_blk (t : Fin cfg14.N) (i : S1024x1024.Idx) :
    i ∈ ((cfg14.win 3).blk t).view.set ↔ ∀ a : Fin 2, win14_3.index t a * S512x512.size a ≤ (i a).val ∧ (i a).val < win14_3.index t a * S512x512.size a + S512x512.size a := by
  show i ∈ ((View.whole main_call0_v81).slice (win14_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg14.N, (cfg14.win 3).flush t = true ∧ i ∈ ((cfg14.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win14_3.index t (0 : Fin 2) = (i 0).val / 512 := congrFun ht 0
  have q1 : win14_3.index t (1 : Fin 2) = (i 1).val / 512 := congrFun ht 1
  refine ⟨t, flush14_3 t, ?_⟩
  rw [mem_blk]
  intro a
  match a with
  | ⟨0, _⟩ => show win14_3.index t (0 : Fin 2) * 512 ≤ (i 0).val ∧ (i 0).val < win14_3.index t (0 : Fin 2) * 512 + 512; omega
  | ⟨1, _⟩ => show win14_3.index t (1 : Fin 2) * 512 ≤ (i 1).val ∧ (i 1).val < win14_3.index t (1 : Fin 2) * 512 + 512; omega

/-- The result array after the region. -/
theorem arr (c : Dev nD) : (dat14 (F := Ideal) V c).arrAt 3 cfg14.N = G V c :=
  (dat14 (F := Ideal) V c).arrAt_eq_of_cover 3 (G V c) (fun t _ => flushed_eq V c t) cover

end Cert.KernelIdeal.Reg14

end
-- ==== Proof.Reg15.lean ====
/-
  Region 15: the array it leaves.

  The region tiles a [1024, 4096] result into 2 by 4 blocks of [512, 1024] and computes twice the sigmoid of a dense layer. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg15

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg15.N,
    win15_0.index t (0 : Fin 2) = win15_3.index t (0 : Fin 2)
    ∧ win15_0.index t (1 : Fin 2) = 0
    ∧ win15_1.index t (0 : Fin 2) = 0
    ∧ win15_1.index t (1 : Fin 2) = win15_3.index t (1 : Fin 2)
    ∧ win15_2.index t (0 : Fin 2) = 0
    ∧ win15_2.index t (1 : Fin 2) = win15_3.index t (1 : Fin 2)
    ∧ win15_3.index t (0 : Fin 2) ≤ 1
    ∧ win15_3.index t (1 : Fin 2) ≤ 3 :=
  (by decide +kernel : ∀ t : Fin grid15.N, _)

/-- Every block of the result is some grid point's. -/
theorem idx_onto : ∀ (q0 : Fin 2) (q1 : Fin 4), ∃ t : Fin cfg15.N, win15_3.index t = ![q0.val, q1.val] :=
  (by decide +kernel : ∀ (q0 : Fin 2) (q1 : Fin 4), ∃ t : Fin grid15.N, win15_3.index t = ![q0.val, q1.val])

/-- The whole-array function the region computes, of its operand arrays as it finds them. -/
def G (c : Dev nD) : S1024x4096.Idx → EReal :=
  sig2 (dense (V c main_call0_v81) (V c main_call0_v73) (V c main_call0_v82))

/-- What grid point t writes back is block t of that function. -/
theorem flushed_eq (c : Dev nD) (t : Fin cfg15.N) :
    (dat15 (F := Ideal) V c).flushed 3 t = ((cfg15.win 3).blk t).view.read (Elt Ideal) (G V c) := by
  show (cfg15.win 3).cut (grid15.coords t) ((dat15 V c).after 3 t) = _
  rw [after15_3]
  unfold out15_3
  rw [View.canon_unit_zero hz]
  simp only [View.ld_unit_zero (S := S512x1024) hz, View.ld_unit_zero (S := S1024x1024) hz, View.ld_unit_zero (S := S1x1024) hz]
  rw [show ∀ x0 x1 x2, k15_pay1 (F := Ideal) x0 x1 x2 = sig2 (dense x0 x1 x2) from Pay.pay1]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win15_3.index t (0 : Fin 2) * 512 + p.val := ⟨⟨_, by omega⟩, rfl⟩
  obtain ⟨jJ, hjJ⟩ : ∃ jJ : Fin 4096, jJ.val = win15_3.index t (1 : Fin 2) * 1024 + q.val := ⟨⟨_, by omega⟩, rfl⟩
  have hemb : ((cfg15.win 3).blk t).view.emb (ix2 p q) = ix2 iI jJ := by
    funext a; apply Fin.ext
    match a with
    | ⟨0, _⟩ => show win15_3.index t (0 : Fin 2) * 512 + 1 * p.val = iI.val; omega
    | ⟨1, _⟩ => show win15_3.index t (1 : Fin 2) * 1024 + 1 * q.val = jJ.val; omega
  show (sig2 (dense (iblk15 V c 0 t) (iblk15 V c 1 t) (iblk15 V c 2 t))) (ix2 p q) = G V c (((cfg15.win 3).blk t).view.emb (ix2 p q))
  rw [hemb]
  unfold G
  refine congrArg (fun z => Ideal.ofBits .f32 0x40000000#32 * Ideal.logistic z) ?_
  refine dense_entry_congr (tm := 512) (k := 1024) (tn := 1024) (M := 1024) (N := 4096) (iblk15 V c 0 t) (iblk15 V c 1 t) (iblk15 V c 2 t) (V c main_call0_v81) (V c main_call0_v73) (V c main_call0_v82) p q iI jJ (fun cc => ?_) (fun cc => ?_) ?_
  · show V c main_call0_v81 (((cfg15.win 0).blk t).view.emb (ix2 p cc)) = V c main_call0_v81 (ix2 iI cc)
    refine congrArg (V c main_call0_v81) (funext fun a => Fin.ext ?_)
    match a with
    | ⟨0, _⟩ => show win15_0.index t (0 : Fin 2) * 512 + 1 * p.val = iI.val; omega
    | ⟨1, _⟩ => show win15_0.index t (1 : Fin 2) * 1024 + 1 * cc.val = cc.val; omega
  · show V c main_call0_v73 (((cfg15.win 1).blk t).view.emb (ix2 cc q)) = V c main_call0_v73 (ix2 cc jJ)
    refine congrArg (V c main_call0_v73) (funext fun a => Fin.ext ?_)
    match a with
    | ⟨0, _⟩ => show win15_1.index t (0 : Fin 2) * 1024 + 1 * cc.val = cc.val; omega
    | ⟨1, _⟩ => show win15_1.index t (1 : Fin 2) * 1024 + 1 * q.val = jJ.val; omega
  · show V c main_call0_v82 (((cfg15.win 2).blk t).view.emb (ix2 (0 : Fin 1) q)) = V c main_call0_v82 (ix2 (0 : Fin 1) jJ)
    refine congrArg (V c main_call0_v82) (funext fun a => Fin.ext ?_)
    match a with
    | ⟨0, _⟩ => show win15_2.index t (0 : Fin 2) * 1 + 1 * 0 = 0; omega
    | ⟨1, _⟩ => show win15_2.index t (1 : Fin 2) * 1024 + 1 * q.val = jJ.val; omega

/-- An index of the result array is in point t's block iff each coordinate is in the block's range on its axis. -/
theorem mem_blk (t : Fin cfg15.N) (i : S1024x4096.Idx) :
    i ∈ ((cfg15.win 3).blk t).view.set ↔ ∀ a : Fin 2, win15_3.index t a * S512x1024.size a ≤ (i a).val ∧ (i a).val < win15_3.index t a * S512x1024.size a + S512x1024.size a := by
  show i ∈ ((View.whole main_call0_v83).slice (win15_3.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg15.N, (cfg15.win 3).flush t = true ∧ i ∈ ((cfg15.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win15_3.index t (0 : Fin 2) = (i 0).val / 512 := congrFun ht 0
  have q1 : win15_3.index t (1 : Fin 2) = (i 1).val / 1024 := congrFun ht 1
  refine ⟨t, flush15_3 t, ?_⟩
  rw [mem_blk]
  intro a
  match a with
  | ⟨0, _⟩ => show win15_3.index t (0 : Fin 2) * 512 ≤ (i 0).val ∧ (i 0).val < win15_3.index t (0 : Fin 2) * 512 + 512; omega
  | ⟨1, _⟩ => show win15_3.index t (1 : Fin 2) * 1024 ≤ (i 1).val ∧ (i 1).val < win15_3.index t (1 : Fin 2) * 1024 + 1024; omega

/-- The result array after the region. -/
theorem arr (c : Dev nD) : (dat15 (F := Ideal) V c).arrAt 3 cfg15.N = G V c :=
  (dat15 (F := Ideal) V c).arrAt_eq_of_cover 3 (G V c) (fun t _ => flushed_eq V c t) cover

end Cert.KernelIdeal.Reg15

end
-- ==== Proof.Reg16.lean ====
/-
  Region 16: the array it leaves.

  The region tiles a [1024, 4096] result into 2 by 4 blocks of [512, 1024] and computes a dense layer. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg16

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg16.N,
    win16_0.index t (0 : Fin 2) = win16_3.index t (0 : Fin 2)
    ∧ win16_0.index t (1 : Fin 2) = 0
    ∧ win16_1.index t (0 : Fin 2) = 0
    ∧ win16_1.index t (1 : Fin 2) = win16_3.index t (1 : Fin 2)
    ∧ win16_2.index t (0 : Fin 2) = 0
    ∧ win16_2.index t (1 : Fin 2) = win16_3.index t (1 : Fin 2)
    ∧ win16_3.index t (0 : Fin 2) ≤ 1
    ∧ win16_3.index t (1 : Fin 2) ≤ 3 :=
  (by decide +kernel : ∀ t : Fin grid16.N, _)

/-- Every block of the result is some grid point's. -/
theorem idx_onto : ∀ (q0 : Fin 2) (q1 : Fin 4), ∃ t : Fin cfg16.N, win16_3.index t = ![q0.val, q1.val] :=
  (by decide +kernel : ∀ (q0 : Fin 2) (q1 : Fin 4), ∃ t : Fin grid16.N, win16_3.index t = ![q0.val, q1.val])

/-- The whole-array function the region computes, of its operand arrays as it finds them. -/
def G (c : Dev nD) : S1024x4096.Idx → EReal :=
  dense (V c main_call0_v57) (V c main_call0_v6) (V c main_call0_v84)

/-- What grid point t writes back is block t of that function. -/
theorem flushed_eq (c : Dev nD) (t : Fin cfg16.N) :
    (dat16 (F := Ideal) V c).flushed 3 t = ((cfg16.win 3).blk t).view.read (Elt Ideal) (G V c) := by
  show (cfg16.win 3).cut (grid16.coords t) ((dat16 V c).after 3 t) = _
  rw [after16_3]
  unfold out16_3
  rw [View.canon_unit_zero hz]
  simp only [View.ld_unit_zero (S := S512x1024) hz, View.ld_unit_zero (S := S1024x1024) hz, View.ld_unit_zero (S := S1x1024) hz]
  rw [show ∀ x0 x1 x2, k16_pay1 (F := Ideal) x0 x1 x2 = dense x0 x1 x2 from Pay.pay2]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win16_3.index t (0 : Fin 2) * 512 + p.val := ⟨⟨_, by omega⟩, rfl⟩
  obtain ⟨jJ, hjJ⟩ : ∃ jJ : Fin 4096, jJ.val = win16_3.index t (1 : Fin 2) * 1024 + q.val := ⟨⟨_, by omega⟩, rfl⟩
  have hemb : ((cfg16.win 3).blk t).view.emb (ix2 p q) = ix2 iI jJ := by
    funext a; apply Fin.ext
    match a with
    | ⟨0, _⟩ => show win16_3.index t (0 : Fin 2) * 512 + 1 * p.val = iI.val; omega
    | ⟨1, _⟩ => show win16_3.index t (1 : Fin 2) * 1024 + 1 * q.val = jJ.val; omega
  show (dense (iblk16 V c 0 t) (iblk16 V c 1 t) (iblk16 V c 2 t)) (ix2 p q) = G V c (((cfg16.win 3).blk t).view.emb (ix2 p q))
  rw [hemb]
  unfold G
  refine dense_entry_congr (tm := 512) (k := 1024) (tn := 1024) (M := 1024) (N := 4096) (iblk16 V c 0 t) (iblk16 V c 1 t) (iblk16 V c 2 t) (V c main_call0_v57) (V c main_call0_v6) (V c main_call0_v84) p q iI jJ (fun cc => ?_) (fun cc => ?_) ?_
  · show V c main_call0_v57 (((cfg16.win 0).blk t).view.emb (ix2 p cc)) = V c main_call0_v57 (ix2 iI cc)
    refine congrArg (V c main_call0_v57) (funext fun a => Fin.ext ?_)
    match a with
    | ⟨0, _⟩ => show win16_0.index t (0 : Fin 2) * 512 + 1 * p.val = iI.val; omega
    | ⟨1, _⟩ => show win16_0.index t (1 : Fin 2) * 1024 + 1 * cc.val = cc.val; omega
  · show V c main_call0_v6 (((cfg16.win 1).blk t).view.emb (ix2 cc q)) = V c main_call0_v6 (ix2 cc jJ)
    refine congrArg (V c main_call0_v6) (funext fun a => Fin.ext ?_)
    match a with
    | ⟨0, _⟩ => show win16_1.index t (0 : Fin 2) * 1024 + 1 * cc.val = cc.val; omega
    | ⟨1, _⟩ => show win16_1.index t (1 : Fin 2) * 1024 + 1 * q.val = jJ.val; omega
  · show V c main_call0_v84 (((cfg16.win 2).blk t).view.emb (ix2 (0 : Fin 1) q)) = V c main_call0_v84 (ix2 (0 : Fin 1) jJ)
    refine congrArg (V c main_call0_v84) (funext fun a => Fin.ext ?_)
    match a with
    | ⟨0, _⟩ => show win16_2.index t (0 : Fin 2) * 1 + 1 * 0 = 0; omega
    | ⟨1, _⟩ => show win16_2.index t (1 : Fin 2) * 1024 + 1 * q.val = jJ.val; omega

/-- An index of the result array is in point t's block iff each coordinate is in the block's range on its axis. -/
theorem mem_blk (t : Fin cfg16.N) (i : S1024x4096.Idx) :
    i ∈ ((cfg16.win 3).blk t).view.set ↔ ∀ a : Fin 2, win16_3.index t a * S512x1024.size a ≤ (i a).val ∧ (i a).val < win16_3.index t a * S512x1024.size a + S512x1024.size a := by
  show i ∈ ((View.whole main_call0_v85).slice (win16_3.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg16.N, (cfg16.win 3).flush t = true ∧ i ∈ ((cfg16.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win16_3.index t (0 : Fin 2) = (i 0).val / 512 := congrFun ht 0
  have q1 : win16_3.index t (1 : Fin 2) = (i 1).val / 1024 := congrFun ht 1
  refine ⟨t, flush16_3 t, ?_⟩
  rw [mem_blk]
  intro a
  match a with
  | ⟨0, _⟩ => show win16_3.index t (0 : Fin 2) * 512 ≤ (i 0).val ∧ (i 0).val < win16_3.index t (0 : Fin 2) * 512 + 512; omega
  | ⟨1, _⟩ => show win16_3.index t (1 : Fin 2) * 1024 ≤ (i 1).val ∧ (i 1).val < win16_3.index t (1 : Fin 2) * 1024 + 1024; omega

/-- The result array after the region. -/
theorem arr (c : Dev nD) : (dat16 (F := Ideal) V c).arrAt 3 cfg16.N = G V c :=
  (dat16 (F := Ideal) V c).arrAt_eq_of_cover 3 (G V c) (fun t _ => flushed_eq V c t) cover

end Cert.KernelIdeal.Reg16

end
-- ==== Proof.Reg17.lean ====
/-
  Region 17: the array it leaves.

  The region tiles a [1024, 1024] result into 4 by 2 blocks of [256, 512] and computes a dense layer of the entrywise product of two operands. The block at
  (I, J) is computed from rows I*256 .. of the row operands (all 4096 columns), columns J*512 .. of the column operands
  (all 4096 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg17

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 4 by 2 box. -/
theorem idx_facts : ∀ t : Fin cfg17.N,
    win17_0.index t (0 : Fin 2) = win17_4.index t (0 : Fin 2)
    ∧ win17_0.index t (1 : Fin 2) = 0
    ∧ win17_1.index t (0 : Fin 2) = win17_4.index t (0 : Fin 2)
    ∧ win17_1.index t (1 : Fin 2) = 0
    ∧ win17_2.index t (0 : Fin 2) = 0
    ∧ win17_2.index t (1 : Fin 2) = win17_4.index t (1 : Fin 2)
    ∧ win17_3.index t (0 : Fin 2) = 0
    ∧ win17_3.index t (1 : Fin 2) = win17_4.index t (1 : Fin 2)
    ∧ win17_4.index t (0 : Fin 2) ≤ 3
    ∧ win17_4.index t (1 : Fin 2) ≤ 1 :=
  (by decide +kernel : ∀ t : Fin grid17.N, _)

/-- Every block of the result is some grid point's. -/
theorem idx_onto : ∀ (q0 : Fin 4) (q1 : Fin 2), ∃ t : Fin cfg17.N, win17_4.index t = ![q0.val, q1.val] :=
  (by decide +kernel : ∀ (q0 : Fin 4) (q1 : Fin 2), ∃ t : Fin grid17.N, win17_4.index t = ![q0.val, q1.val])

/-- The whole-array function the region computes, of its operand arrays as it finds them. -/
def G (c : Dev nD) : S1024x1024.Idx → EReal :=
  dense (had (V c main_call0_v83) (V c main_call0_v85)) (V c main_call0_v7) (V c main_call0_v86)

/-- What grid point t writes back is block t of that function. -/
theorem flushed_eq (c : Dev nD) (t : Fin cfg17.N) :
    (dat17 (F := Ideal) V c).flushed 4 t = ((cfg17.win 4).blk t).view.read (Elt Ideal) (G V c) := by
  show (cfg17.win 4).cut (grid17.coords t) ((dat17 V c).after 4 t) = _
  rw [after17_4]
  unfold out17_4
  rw [View.canon_unit_zero hz]
  simp only [View.ld_unit_zero (S := S256x4096) hz, View.ld_unit_zero (S := S4096x512) hz, View.ld_unit_zero (S := S1x512) hz]
  rw [show ∀ x0 x1 x2 x3, k17_pay1 (F := Ideal) x0 x1 x2 x3 = dense (had x0 x1) x2 x3 from Pay.pay3]
  obtain ⟨e0, e1, e2, e3, e4, e5, e6, e7, e8, e9⟩ := idx_facts t
  funext j
  obtain ⟨p, q, rfl⟩ : ∃ (p : Fin 256) (q : Fin 512), j = ix2 p q := ⟨j 0, j 1, eq_ix2 j⟩
  have hp := p.isLt
  have hq := q.isLt
  obtain ⟨iI, hiI⟩ : ∃ iI : Fin 1024, iI.val = win17_4.index t (0 : Fin 2) * 256 + p.val := ⟨⟨_, by omega⟩, rfl⟩
  obtain ⟨jJ, hjJ⟩ : ∃ jJ : Fin 1024, jJ.val = win17_4.index t (1 : Fin 2) * 512 + q.val := ⟨⟨_, by omega⟩, rfl⟩
  have hemb : ((cfg17.win 4).blk t).view.emb (ix2 p q) = ix2 iI jJ := by
    funext a; apply Fin.ext
    match a with
    | ⟨0, _⟩ => show win17_4.index t (0 : Fin 2) * 256 + 1 * p.val = iI.val; omega
    | ⟨1, _⟩ => show win17_4.index t (1 : Fin 2) * 512 + 1 * q.val = jJ.val; omega
  show (dense (had (iblk17 V c 0 t) (iblk17 V c 1 t)) (iblk17 V c 2 t) (iblk17 V c 3 t)) (ix2 p q) = G V c (((cfg17.win 4).blk t).view.emb (ix2 p q))
  rw [hemb]
  unfold G
  refine dense_entry_congr (tm := 256) (k := 4096) (tn := 512) (M := 1024) (N := 1024) (had (iblk17 V c 0 t) (iblk17 V c 1 t)) (iblk17 V c 2 t) (iblk17 V c 3 t) (had (V c main_call0_v83) (V c main_call0_v85)) (V c main_call0_v7) (V c main_call0_v86) p q iI jJ (fun cc => ?_) (fun cc => ?_) ?_
  · have r0 : V c main_call0_v83 (((cfg17.win 0).blk t).view.emb (ix2 p cc)) = V c main_call0_v83 (ix2 iI cc) := by
      refine congrArg (V c main_call0_v83) (funext fun a => Fin.ext ?_)
      match a with
      | ⟨0, _⟩ => show win17_0.index t (0 : Fin 2) * 256 + 1 * p.val = iI.val; omega
      | ⟨1, _⟩ => show win17_0.index t (1 : Fin 2) * 4096 + 1 * cc.val = cc.val; omega
    have r1 : V c main_call0_v85 (((cfg17.win 1).blk t).view.emb (ix2 p cc)) = V c main_call0_v85 (ix2 iI cc) := by
      refine congrArg (V c main_call0_v85) (funext fun a => Fin.ext ?_)
      match a with
      | ⟨0, _⟩ => show win17_1.index t (0 : Fin 2) * 256 + 1 * p.val = iI.val; omega
      | ⟨1, _⟩ => show win17_1.index t (1 : Fin 2) * 4096 + 1 * cc.val = cc.val; omega
    exact congrArg₂ (fun (a b : EReal) => a * b) r0 r1
  · show V c main_call0_v7 (((cfg17.win 2).blk t).view.emb (ix2 cc q)) = V c main_call0_v7 (ix2 cc jJ)
    refine congrArg (V c main_call0_v7) (funext fun a => Fin.ext ?_)
    match a with
    | ⟨0, _⟩ => show win17_2.index t (0 : Fin 2) * 4096 + 1 * cc.val = cc.val; omega
    | ⟨1, _⟩ => show win17_2.index t (1 : Fin 2) * 512 + 1 * q.val = jJ.val; omega
  · show V c main_call0_v86 (((cfg17.win 3).blk t).view.emb (ix2 (0 : Fin 1) q)) = V c main_call0_v86 (ix2 (0 : Fin 1) jJ)
    refine congrArg (V c main_call0_v86) (funext fun a => Fin.ext ?_)
    match a with
    | ⟨0, _⟩ => show win17_3.index t (0 : Fin 2) * 1 + 1 * 0 = 0; omega
    | ⟨1, _⟩ => show win17_3.index t (1 : Fin 2) * 512 + 1 * q.val = jJ.val; omega

/-- An index of the result array is in point t's block iff each coordinate is in the block's range on its axis. -/
theorem mem_blk (t : Fin cfg17.N) (i : S1024x1024.Idx) :
    i ∈ ((cfg17.win 4).blk t).view.set ↔ ∀ a : Fin 2, win17_4.index t a * S256x512.size a ≤ (i a).val ∧ (i a).val < win17_4.index t a * S256x512.size a + S256x512.size a := by
  show i ∈ ((View.whole main_call0_v87).slice (win17_4.rect t)).set ↔ _
  rw [View.set_slice_whole, Rect.mem_set_unit]
  exact Iff.rfl

/-- The blocks tile the result: the point that covers (i, j) is the one at block (i / 256, j / 512). -/
theorem cover (i : S1024x1024.Idx) : ∃ t : Fin cfg17.N, (cfg17.win 4).flush t = true ∧ i ∈ ((cfg17.win 4).blk t).view.set := by
  have hi0 : (i 0).val < 1024 := (i 0).isLt
  have hi1 : (i 1).val < 1024 := (i 1).isLt
  obtain ⟨t, ht⟩ := idx_onto ⟨(i 0).val / 256, by omega⟩ ⟨(i 1).val / 512, by omega⟩
  have q0 : win17_4.index t (0 : Fin 2) = (i 0).val / 256 := congrFun ht 0
  have q1 : win17_4.index t (1 : Fin 2) = (i 1).val / 512 := congrFun ht 1
  refine ⟨t, flush17_4 t, ?_⟩
  rw [mem_blk]
  intro a
  match a with
  | ⟨0, _⟩ => show win17_4.index t (0 : Fin 2) * 256 ≤ (i 0).val ∧ (i 0).val < win17_4.index t (0 : Fin 2) * 256 + 256; omega
  | ⟨1, _⟩ => show win17_4.index t (1 : Fin 2) * 512 ≤ (i 1).val ∧ (i 1).val < win17_4.index t (1 : Fin 2) * 512 + 512; omega

/-- The result array after the region. -/
theorem arr (c : Dev nD) : (dat17 (F := Ideal) V c).arrAt 4 cfg17.N = G V c :=
  (dat17 (F := Ideal) V c).arrAt_eq_of_cover 4 (G V c) (fun t _ => flushed_eq V c t) cover

end Cert.KernelIdeal.Reg17

end
-- ==== Proof.Reg18.lean ====
/-
  Region 18: the array it leaves.

  The region tiles a [1024, 4096] result into 2 by 4 blocks of [512, 1024] and computes a dense layer. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg18

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg18.N,
    win18_0.index t (0 : Fin 2) = win18_3.index t (0 : Fin 2)
    ∧ win18_0.index t (1 : Fin 2) = 0
    ∧ win18_1.index t (0 : Fin 2) = 0
    ∧ win18_1.index t (1 : Fin 2) = win18_3.index t (1 : Fin 2)
    ∧ win18_2.index t (0 : Fin 2) = 0
    ∧ win18_2.index t (1 : Fin 2) = win18_3.index t (1 : Fin 2)
    ∧ win18_3.index t (0 : Fin 2) ≤ 1
    ∧ win18_3.index t (1 : Fin 2) ≤ 3 :=
  (by decide +kernel : ∀ t : Fin grid18.N, _)

/-- Every block of the result is some grid point's. -/
theorem idx_onto : ∀ (q0 : Fin 2) (q1 : Fin 4), ∃ t : Fin cfg18.N, win18_3.index t = ![q0.val, q1.val] :=
  (by decide +kernel : ∀ (q0 : Fin 2) (q1 : Fin 4), ∃ t : Fin grid18.N, win18_3.index t = ![q0.val, q1.val])

/-- The whole-array function the region computes, of its operand arrays as it finds them. -/
def G (c : Dev nD) : S1024x4096.Idx → EReal :=
  dense (V c main_call0_v87) (V c main_call0_v6) (V c main_call0_v88)

/-- What grid point t writes back is block t of that function. -/
theorem flushed_eq (c : Dev nD) (t : Fin cfg18.N) :
    (dat18 (F := Ideal) V c).flushed 3 t = ((cfg18.win 3).blk t).view.read (Elt Ideal) (G V c) := by
  show (cfg18.win 3).cut (grid18.coords t) ((dat18 V c).after 3 t) = _
  rw [after18_3]
  unfold out18_3
  rw [View.canon_unit_zero hz]
  simp only [View.ld_unit_zero (S := S512x1024) hz, View.ld_unit_zero (S := S1024x1024) hz, View.ld_unit_zero (S := S1x1024) hz]
  rw [show ∀ x0 x1 x2, k18_pay1 (F := Ideal) x0 x1 x2 = dense x0 x1 x2 from Pay.pay2]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win18_3.index t (0 : Fin 2) * 512 + p.val := ⟨⟨_, by omega⟩, rfl⟩
  obtain ⟨jJ, hjJ⟩ : ∃ jJ : Fin 4096, jJ.val = win18_3.index t (1 : Fin 2) * 1024 + q.val := ⟨⟨_, by omega⟩, rfl⟩
  have hemb : ((cfg18.win 3).blk t).view.emb (ix2 p q) = ix2 iI jJ := by
    funext a; apply Fin.ext
    match a with
    | ⟨0, _⟩ => show win18_3.index t (0 : Fin 2) * 512 + 1 * p.val = iI.val; omega
    | ⟨1, _⟩ => show win18_3.index t (1 : Fin 2) * 1024 + 1 * q.val = jJ.val; omega
  show (dense (iblk18 V c 0 t) (iblk18 V c 1 t) (iblk18 V c 2 t)) (ix2 p q) = G V c (((cfg18.win 3).blk t).view.emb (ix2 p q))
  rw [hemb]
  unfold G
  refine dense_entry_congr (tm := 512) (k := 1024) (tn := 1024) (M := 1024) (N := 4096) (iblk18 V c 0 t) (iblk18 V c 1 t) (iblk18 V c 2 t) (V c main_call0_v87) (V c main_call0_v6) (V c main_call0_v88) p q iI jJ (fun cc => ?_) (fun cc => ?_) ?_
  · show V c main_call0_v87 (((cfg18.win 0).blk t).view.emb (ix2 p cc)) = V c main_call0_v87 (ix2 iI cc)
    refine congrArg (V c main_call0_v87) (funext fun a => Fin.ext ?_)
    match a with
    | ⟨0, _⟩ => show win18_0.index t (0 : Fin 2) * 512 + 1 * p.val = iI.val; omega
    | ⟨1, _⟩ => show win18_0.index t (1 : Fin 2) * 1024 + 1 * cc.val = cc.val; omega
  · show V c main_call0_v6 (((cfg18.win 1).blk t).view.emb (ix2 cc q)) = V c main_call0_v6 (ix2 cc jJ)
    refine congrArg (V c main_call0_v6) (funext fun a => Fin.ext ?_)
    match a with
    | ⟨0, _⟩ => show win18_1.index t (0 : Fin 2) * 1024 + 1 * cc.val = cc.val; omega
    | ⟨1, _⟩ => show win18_1.index t (1 : Fin 2) * 1024 + 1 * q.val = jJ.val; omega
  · show V c main_call0_v88 (((cfg18.win 2).blk t).view.emb (ix2 (0 : Fin 1) q)) = V c main_call0_v88 (ix2 (0 : Fin 1) jJ)
    refine congrArg (V c main_call0_v88) (funext fun a => Fin.ext ?_)
    match a with
    | ⟨0, _⟩ => show win18_2.index t (0 : Fin 2) * 1 + 1 * 0 = 0; omega
    | ⟨1, _⟩ => show win18_2.index t (1 : Fin 2) * 1024 + 1 * q.val = jJ.val; omega

/-- An index of the result array is in point t's block iff each coordinate is in the block's range on its axis. -/
theorem mem_blk (t : Fin cfg18.N) (i : S1024x4096.Idx) :
    i ∈ ((cfg18.win 3).blk t).view.set ↔ ∀ a : Fin 2, win18_3.index t a * S512x1024.size a ≤ (i a).val ∧ (i a).val < win18_3.index t a * S512x1024.size a + S512x1024.size a := by
  show i ∈ ((View.whole main_call0_v89).slice (win18_3.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg18.N, (cfg18.win 3).flush t = true ∧ i ∈ ((cfg18.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win18_3.index t (0 : Fin 2) = (i 0).val / 512 := congrFun ht 0
  have q1 : win18_3.index t (1 : Fin 2) = (i 1).val / 1024 := congrFun ht 1
  refine ⟨t, flush18_3 t, ?_⟩
  rw [mem_blk]
  intro a
  match a with
  | ⟨0, _⟩ => show win18_3.index t (0 : Fin 2) * 512 ≤ (i 0).val ∧ (i 0).val < win18_3.index t (0 : Fin 2) * 512 + 512; omega
  | ⟨1, _⟩ => show win18_3.index t (1 : Fin 2) * 1024 ≤ (i 1).val ∧ (i 1).val < win18_3.index t (1 : Fin 2) * 1024 + 1024; omega

/-- The result array after the region. -/
theorem arr (c : Dev nD) : (dat18 (F := Ideal) V c).arrAt 3 cfg18.N = G V c :=
  (dat18 (F := Ideal) V c).arrAt_eq_of_cover 3 (G V c) (fun t _ => flushed_eq V c t) cover

end Cert.KernelIdeal.Reg18

end
-- ==== Proof.Reg19.lean ====
/-
  Region 19: the array it leaves.

  The region tiles a [1024, 1024] result into 2 by 2 blocks of [512, 512] and computes a dense layer. The block at
  (I, J) is computed from rows I*512 .. of the row operands (all 1024 columns), columns J*512 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg19

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg19.N,
    win19_0.index t (0 : Fin 2) = win19_3.index t (0 : Fin 2)
    ∧ win19_0.index t (1 : Fin 2) = 0
    ∧ win19_1.index t (0 : Fin 2) = 0
    ∧ win19_1.index t (1 : Fin 2) = win19_3.index t (1 : Fin 2)
    ∧ win19_2.index t (0 : Fin 2) = 0
    ∧ win19_2.index t (1 : Fin 2) = win19_3.index t (1 : Fin 2)
    ∧ win19_3.index t (0 : Fin 2) ≤ 1
    ∧ win19_3.index t (1 : Fin 2) ≤ 1 :=
  (by decide +kernel : ∀ t : Fin grid19.N, _)

/-- Every block of the result is some grid point's. -/
theorem idx_onto : ∀ (q0 : Fin 2) (q1 : Fin 2), ∃ t : Fin cfg19.N, win19_3.index t = ![q0.val, q1.val] :=
  (by decide +kernel : ∀ (q0 : Fin 2) (q1 : Fin 2), ∃ t : Fin grid19.N, win19_3.index t = ![q0.val, q1.val])

/-- The whole-array function the region computes, of its operand arrays as it finds them. -/
def G (c : Dev nD) : S1024x1024.Idx → EReal :=
  dense (V c main_call0_v91) (V c main_call0_v93) (V c main_call0_v96)

/-- What grid point t writes back is block t of that function. -/
theorem flushed_eq (c : Dev nD) (t : Fin cfg19.N) :
    (dat19 (F := Ideal) V c).flushed 3 t = ((cfg19.win 3).blk t).view.read (Elt Ideal) (G V c) := by
  show (cfg19.win 3).cut (grid19.coords t) ((dat19 V c).after 3 t) = _
  rw [after19_3]
  unfold out19_3
  rw [View.canon_unit_zero hz]
  simp only [View.ld_unit_zero (S := S512x1024) hz, View.ld_unit_zero (S := S1024x512) hz, View.ld_unit_zero (S := S1x512) hz]
  rw [show ∀ x0 x1 x2, k19_pay1 (F := Ideal) x0 x1 x2 = dense x0 x1 x2 from Pay.pay0]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win19_3.index t (0 : Fin 2) * 512 + p.val := ⟨⟨_, by omega⟩, rfl⟩
  obtain ⟨jJ, hjJ⟩ : ∃ jJ : Fin 1024, jJ.val = win19_3.index t (1 : Fin 2) * 512 + q.val := ⟨⟨_, by omega⟩, rfl⟩
  have hemb : ((cfg19.win 3).blk t).view.emb (ix2 p q) = ix2 iI jJ := by
    funext a; apply Fin.ext
    match a with
    | ⟨0, _⟩ => show win19_3.index t (0 : Fin 2) * 512 + 1 * p.val = iI.val; omega
    | ⟨1, _⟩ => show win19_3.index t (1 : Fin 2) * 512 + 1 * q.val = jJ.val; omega
  show (dense (iblk19 V c 0 t) (iblk19 V c 1 t) (iblk19 V c 2 t)) (ix2 p q) = G V c (((cfg19.win 3).blk t).view.emb (ix2 p q))
  rw [hemb]
  unfold G
  refine dense_entry_congr (tm := 512) (k := 1024) (tn := 512) (M := 1024) (N := 1024) (iblk19 V c 0 t) (iblk19 V c 1 t) (iblk19 V c 2 t) (V c main_call0_v91) (V c main_call0_v93) (V c main_call0_v96) p q iI jJ (fun cc => ?_) (fun cc => ?_) ?_
  · show V c main_call0_v91 (((cfg19.win 0).blk t).view.emb (ix2 p cc)) = V c main_call0_v91 (ix2 iI cc)
    refine congrArg (V c main_call0_v91) (funext fun a => Fin.ext ?_)
    match a with
    | ⟨0, _⟩ => show win19_0.index t (0 : Fin 2) * 512 + 1 * p.val = iI.val; omega
    | ⟨1, _⟩ => show win19_0.index t (1 : Fin 2) * 1024 + 1 * cc.val = cc.val; omega
  · show V c main_call0_v93 (((cfg19.win 1).blk t).view.emb (ix2 cc q)) = V c main_call0_v93 (ix2 cc jJ)
    refine congrArg (V c main_call0_v93) (funext fun a => Fin.ext ?_)
    match a with
    | ⟨0, _⟩ => show win19_1.index t (0 : Fin 2) * 1024 + 1 * cc.val = cc.val; omega
    | ⟨1, _⟩ => show win19_1.index t (1 : Fin 2) * 512 + 1 * q.val = jJ.val; omega
  · show V c main_call0_v96 (((cfg19.win 2).blk t).view.emb (ix2 (0 : Fin 1) q)) = V c main_call0_v96 (ix2 (0 : Fin 1) jJ)
    refine congrArg (V c main_call0_v96) (funext fun a => Fin.ext ?_)
    match a with
    | ⟨0, _⟩ => show win19_2.index t (0 : Fin 2) * 1 + 1 * 0 = 0; omega
    | ⟨1, _⟩ => show win19_2.index t (1 : Fin 2) * 512 + 1 * q.val = jJ.val; omega

/-- An index of the result array is in point t's block iff each coordinate is in the block's range on its axis. -/
theorem mem_blk (t : Fin cfg19.N) (i : S1024x1024.Idx) :
    i ∈ ((cfg19.win 3).blk t).view.set ↔ ∀ a : Fin 2, win19_3.index t a * S512x512.size a ≤ (i a).val ∧ (i a).val < win19_3.index t a * S512x512.size a + S512x512.size a := by
  show i ∈ ((View.whole main_call0_v97).slice (win19_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg19.N, (cfg19.win 3).flush t = true ∧ i ∈ ((cfg19.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win19_3.index t (0 : Fin 2) = (i 0).val / 512 := congrFun ht 0
  have q1 : win19_3.index t (1 : Fin 2) = (i 1).val / 512 := congrFun ht 1
  refine ⟨t, flush19_3 t, ?_⟩
  rw [mem_blk]
  intro a
  match a with
  | ⟨0, _⟩ => show win19_3.index t (0 : Fin 2) * 512 ≤ (i 0).val ∧ (i 0).val < win19_3.index t (0 : Fin 2) * 512 + 512; omega
  | ⟨1, _⟩ => show win19_3.index t (1 : Fin 2) * 512 ≤ (i 1).val ∧ (i 1).val < win19_3.index t (1 : Fin 2) * 512 + 512; omega

/-- The result array after the region. -/
theorem arr (c : Dev nD) : (dat19 (F := Ideal) V c).arrAt 3 cfg19.N = G V c :=
  (dat19 (F := Ideal) V c).arrAt_eq_of_cover 3 (G V c) (fun t _ => flushed_eq V c t) cover

end Cert.KernelIdeal.Reg19

end
-- ==== Proof.Reg20.lean ====
/-
  Region 20: the array it leaves.

  The region tiles a [1024, 1024] result into 2 by 2 blocks of [512, 512] and computes a dense layer. The block at
  (I, J) is computed from rows I*512 .. of the row operands (all 1024 columns), columns J*512 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg20

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg20.N,
    win20_0.index t (0 : Fin 2) = win20_3.index t (0 : Fin 2)
    ∧ win20_0.index t (1 : Fin 2) = 0
    ∧ win20_1.index t (0 : Fin 2) = 0
    ∧ win20_1.index t (1 : Fin 2) = win20_3.index t (1 : Fin 2)
    ∧ win20_2.index t (0 : Fin 2) = 0
    ∧ win20_2.index t (1 : Fin 2) = win20_3.index t (1 : Fin 2)
    ∧ win20_3.index t (0 : Fin 2) ≤ 1
    ∧ win20_3.index t (1 : Fin 2) ≤ 1 :=
  (by decide +kernel : ∀ t : Fin grid20.N, _)

/-- Every block of the result is some grid point's. -/
theorem idx_onto : ∀ (q0 : Fin 2) (q1 : Fin 2), ∃ t : Fin cfg20.N, win20_3.index t = ![q0.val, q1.val] :=
  (by decide +kernel : ∀ (q0 : Fin 2) (q1 : Fin 2), ∃ t : Fin grid20.N, win20_3.index t = ![q0.val, q1.val])

/-- The whole-array function the region computes, of its operand arrays as it finds them. -/
def G (c : Dev nD) : S1024x1024.Idx → EReal :=
  dense (V c main_call0_v99) (V c main_call0_v101) (V c main_call0_v104)

/-- What grid point t writes back is block t of that function. -/
theorem flushed_eq (c : Dev nD) (t : Fin cfg20.N) :
    (dat20 (F := Ideal) V c).flushed 3 t = ((cfg20.win 3).blk t).view.read (Elt Ideal) (G V c) := by
  show (cfg20.win 3).cut (grid20.coords t) ((dat20 V c).after 3 t) = _
  rw [after20_3]
  unfold out20_3
  rw [View.canon_unit_zero hz]
  simp only [View.ld_unit_zero (S := S512x1024) hz, View.ld_unit_zero (S := S1024x512) hz, View.ld_unit_zero (S := S1x512) hz]
  rw [show ∀ x0 x1 x2, k20_pay1 (F := Ideal) x0 x1 x2 = dense x0 x1 x2 from Pay.pay0]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win20_3.index t (0 : Fin 2) * 512 + p.val := ⟨⟨_, by omega⟩, rfl⟩
  obtain ⟨jJ, hjJ⟩ : ∃ jJ : Fin 1024, jJ.val = win20_3.index t (1 : Fin 2) * 512 + q.val := ⟨⟨_, by omega⟩, rfl⟩
  have hemb : ((cfg20.win 3).blk t).view.emb (ix2 p q) = ix2 iI jJ := by
    funext a; apply Fin.ext
    match a with
    | ⟨0, _⟩ => show win20_3.index t (0 : Fin 2) * 512 + 1 * p.val = iI.val; omega
    | ⟨1, _⟩ => show win20_3.index t (1 : Fin 2) * 512 + 1 * q.val = jJ.val; omega
  show (dense (iblk20 V c 0 t) (iblk20 V c 1 t) (iblk20 V c 2 t)) (ix2 p q) = G V c (((cfg20.win 3).blk t).view.emb (ix2 p q))
  rw [hemb]
  unfold G
  refine dense_entry_congr (tm := 512) (k := 1024) (tn := 512) (M := 1024) (N := 1024) (iblk20 V c 0 t) (iblk20 V c 1 t) (iblk20 V c 2 t) (V c main_call0_v99) (V c main_call0_v101) (V c main_call0_v104) p q iI jJ (fun cc => ?_) (fun cc => ?_) ?_
  · show V c main_call0_v99 (((cfg20.win 0).blk t).view.emb (ix2 p cc)) = V c main_call0_v99 (ix2 iI cc)
    refine congrArg (V c main_call0_v99) (funext fun a => Fin.ext ?_)
    match a with
    | ⟨0, _⟩ => show win20_0.index t (0 : Fin 2) * 512 + 1 * p.val = iI.val; omega
    | ⟨1, _⟩ => show win20_0.index t (1 : Fin 2) * 1024 + 1 * cc.val = cc.val; omega
  · show V c main_call0_v101 (((cfg20.win 1).blk t).view.emb (ix2 cc q)) = V c main_call0_v101 (ix2 cc jJ)
    refine congrArg (V c main_call0_v101) (funext fun a => Fin.ext ?_)
    match a with
    | ⟨0, _⟩ => show win20_1.index t (0 : Fin 2) * 1024 + 1 * cc.val = cc.val; omega
    | ⟨1, _⟩ => show win20_1.index t (1 : Fin 2) * 512 + 1 * q.val = jJ.val; omega
  · show V c main_call0_v104 (((cfg20.win 2).blk t).view.emb (ix2 (0 : Fin 1) q)) = V c main_call0_v104 (ix2 (0 : Fin 1) jJ)
    refine congrArg (V c main_call0_v104) (funext fun a => Fin.ext ?_)
    match a with
    | ⟨0, _⟩ => show win20_2.index t (0 : Fin 2) * 1 + 1 * 0 = 0; omega
    | ⟨1, _⟩ => show win20_2.index t (1 : Fin 2) * 512 + 1 * q.val = jJ.val; omega

/-- An index of the result array is in point t's block iff each coordinate is in the block's range on its axis. -/
theorem mem_blk (t : Fin cfg20.N) (i : S1024x1024.Idx) :
    i ∈ ((cfg20.win 3).blk t).view.set ↔ ∀ a : Fin 2, win20_3.index t a * S512x512.size a ≤ (i a).val ∧ (i a).val < win20_3.index t a * S512x512.size a + S512x512.size a := by
  show i ∈ ((View.whole main_call0_v105).slice (win20_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg20.N, (cfg20.win 3).flush t = true ∧ i ∈ ((cfg20.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win20_3.index t (0 : Fin 2) = (i 0).val / 512 := congrFun ht 0
  have q1 : win20_3.index t (1 : Fin 2) = (i 1).val / 512 := congrFun ht 1
  refine ⟨t, flush20_3 t, ?_⟩
  rw [mem_blk]
  intro a
  match a with
  | ⟨0, _⟩ => show win20_3.index t (0 : Fin 2) * 512 ≤ (i 0).val ∧ (i 0).val < win20_3.index t (0 : Fin 2) * 512 + 512; omega
  | ⟨1, _⟩ => show win20_3.index t (1 : Fin 2) * 512 ≤ (i 1).val ∧ (i 1).val < win20_3.index t (1 : Fin 2) * 512 + 512; omega

/-- The result array after the region. -/
theorem arr (c : Dev nD) : (dat20 (F := Ideal) V c).arrAt 3 cfg20.N = G V c :=
  (dat20 (F := Ideal) V c).arrAt_eq_of_cover 3 (G V c) (fun t _ => flushed_eq V c t) cover

end Cert.KernelIdeal.Reg20

end
-- ==== Proof.Reg21.lean ====
/-
  Region 21: the array it leaves.

  The region tiles a [1024, 4096] result into 2 by 4 blocks of [512, 1024] and computes the sigmoid of two products' sum plus a bias row. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg21

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg21.N,
    win21_0.index t (0 : Fin 2) = win21_5.index t (0 : Fin 2)
    ∧ win21_0.index t (1 : Fin 2) = 0
    ∧ win21_1.index t (0 : Fin 2) = 0
    ∧ win21_1.index t (1 : Fin 2) = win21_5.index t (1 : Fin 2)
    ∧ win21_2.index t (0 : Fin 2) = win21_5.index t (0 : Fin 2)
    ∧ win21_2.index t (1 : Fin 2) = 0
    ∧ win21_3.index t (0 : Fin 2) = 0
    ∧ win21_3.index t (1 : Fin 2) = win21_5.index t (1 : Fin 2)
    ∧ win21_4.index t (0 : Fin 2) = 0
    ∧ win21_4.index t (1 : Fin 2) = win21_5.index t (1 : Fin 2)
    ∧ win21_5.index t (0 : Fin 2) ≤ 1
    ∧ win21_5.index t (1 : Fin 2) ≤ 3 :=
  (by decide +kernel : ∀ t : Fin grid21.N, _)

/-- Every block of the result is some grid point's. -/
theorem idx_onto : ∀ (q0 : Fin 2) (q1 : Fin 4), ∃ t : Fin cfg21.N, win21_5.index t = ![q0.val, q1.val] :=
  (by decide +kernel : ∀ (q0 : Fin 2) (q1 : Fin 4), ∃ t : Fin grid21.N, win21_5.index t = ![q0.val, q1.val])

/-- The whole-array function the region computes, of its operand arrays as it finds them. -/
def G (c : Dev nD) : S1024x4096.Idx → EReal :=
  logistic (F := Ideal) (φ := .f32) (gatePre (V c main_call0_v97) (V c main_call0_v73) (V c main_call0_v105) (V c main_call0_v89) (V c main_call0_v108))

/-- What grid point t writes back is block t of that function. -/
theorem flushed_eq (c : Dev nD) (t : Fin cfg21.N) :
    (dat21 (F := Ideal) V c).flushed 5 t = ((cfg21.win 5).blk t).view.read (Elt Ideal) (G V c) := by
  show (cfg21.win 5).cut (grid21.coords t) ((dat21 V c).after 5 t) = _
  rw [after21_5]
  unfold out21_5
  rw [View.canon_unit_zero hz]
  simp only [View.ld_unit_zero (S := S512x1024) hz, View.ld_unit_zero (S := S1024x1024) hz, View.ld_unit_zero (S := S1x1024) hz]
  rw [show ∀ x0 x1 x2 x3 x4, k21_pay1 (F := Ideal) x0 x1 x2 x3 x4 = logistic (F := Ideal) (φ := .f32) (gatePre x0 x1 x2 x3 x4) from Pay.pay21]
  obtain ⟨e0, e1, e2, e3, e4, e5, e6, e7, e8, e9, e10, e11⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win21_5.index t (0 : Fin 2) * 512 + p.val := ⟨⟨_, by omega⟩, rfl⟩
  obtain ⟨jJ, hjJ⟩ : ∃ jJ : Fin 4096, jJ.val = win21_5.index t (1 : Fin 2) * 1024 + q.val := ⟨⟨_, by omega⟩, rfl⟩
  have hemb : ((cfg21.win 5).blk t).view.emb (ix2 p q) = ix2 iI jJ := by
    funext a; apply Fin.ext
    match a with
    | ⟨0, _⟩ => show win21_5.index t (0 : Fin 2) * 512 + 1 * p.val = iI.val; omega
    | ⟨1, _⟩ => show win21_5.index t (1 : Fin 2) * 1024 + 1 * q.val = jJ.val; omega
  show (logistic (F := Ideal) (φ := .f32) (gatePre (iblk21 V c 0 t) (iblk21 V c 1 t) (iblk21 V c 2 t) (iblk21 V c 3 t) (iblk21 V c 4 t))) (ix2 p q) = G V c (((cfg21.win 5).blk t).view.emb (ix2 p q))
  rw [hemb]
  unfold G
  refine congrArg Ideal.logistic ?_
  refine gatePre_entry_congr (tm := 512) (k := 1024) (tn := 1024) (M := 1024) (N := 4096) (iblk21 V c 0 t) (iblk21 V c 1 t) (iblk21 V c 2 t) (iblk21 V c 3 t) (iblk21 V c 4 t) (V c main_call0_v97) (V c main_call0_v73) (V c main_call0_v105) (V c main_call0_v89) (V c main_call0_v108) p q iI jJ (fun cc => ?_) (fun cc => ?_) (fun cc => ?_) (fun cc => ?_) ?_
  · show V c main_call0_v97 (((cfg21.win 0).blk t).view.emb (ix2 p cc)) = V c main_call0_v97 (ix2 iI cc)
    refine congrArg (V c main_call0_v97) (funext fun a => Fin.ext ?_)
    match a with
    | ⟨0, _⟩ => show win21_0.index t (0 : Fin 2) * 512 + 1 * p.val = iI.val; omega
    | ⟨1, _⟩ => show win21_0.index t (1 : Fin 2) * 1024 + 1 * cc.val = cc.val; omega
  · show V c main_call0_v73 (((cfg21.win 1).blk t).view.emb (ix2 cc q)) = V c main_call0_v73 (ix2 cc jJ)
    refine congrArg (V c main_call0_v73) (funext fun a => Fin.ext ?_)
    match a with
    | ⟨0, _⟩ => show win21_1.index t (0 : Fin 2) * 1024 + 1 * cc.val = cc.val; omega
    | ⟨1, _⟩ => show win21_1.index t (1 : Fin 2) * 1024 + 1 * q.val = jJ.val; omega
  · show V c main_call0_v105 (((cfg21.win 2).blk t).view.emb (ix2 p cc)) = V c main_call0_v105 (ix2 iI cc)
    refine congrArg (V c main_call0_v105) (funext fun a => Fin.ext ?_)
    match a with
    | ⟨0, _⟩ => show win21_2.index t (0 : Fin 2) * 512 + 1 * p.val = iI.val; omega
    | ⟨1, _⟩ => show win21_2.index t (1 : Fin 2) * 1024 + 1 * cc.val = cc.val; omega
  · show V c main_call0_v89 (((cfg21.win 3).blk t).view.emb (ix2 cc q)) = V c main_call0_v89 (ix2 cc jJ)
    refine congrArg (V c main_call0_v89) (funext fun a => Fin.ext ?_)
    match a with
    | ⟨0, _⟩ => show win21_3.index t (0 : Fin 2) * 1024 + 1 * cc.val = cc.val; omega
    | ⟨1, _⟩ => show win21_3.index t (1 : Fin 2) * 1024 + 1 * q.val = jJ.val; omega
  · show V c main_call0_v108 (((cfg21.win 4).blk t).view.emb (ix2 (0 : Fin 1) q)) = V c main_call0_v108 (ix2 (0 : Fin 1) jJ)
    refine congrArg (V c main_call0_v108) (funext fun a => Fin.ext ?_)
    match a with
    | ⟨0, _⟩ => show win21_4.index t (0 : Fin 2) * 1 + 1 * 0 = 0; omega
    | ⟨1, _⟩ => show win21_4.index t (1 : Fin 2) * 1024 + 1 * q.val = jJ.val; omega

/-- An index of the result array is in point t's block iff each coordinate is in the block's range on its axis. -/
theorem mem_blk (t : Fin cfg21.N) (i : S1024x4096.Idx) :
    i ∈ ((cfg21.win 5).blk t).view.set ↔ ∀ a : Fin 2, win21_5.index t a * S512x1024.size a ≤ (i a).val ∧ (i a).val < win21_5.index t a * S512x1024.size a + S512x1024.size a := by
  show i ∈ ((View.whole main_call0_v109).slice (win21_5.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg21.N, (cfg21.win 5).flush t = true ∧ i ∈ ((cfg21.win 5).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win21_5.index t (0 : Fin 2) = (i 0).val / 512 := congrFun ht 0
  have q1 : win21_5.index t (1 : Fin 2) = (i 1).val / 1024 := congrFun ht 1
  refine ⟨t, flush21_5 t, ?_⟩
  rw [mem_blk]
  intro a
  match a with
  | ⟨0, _⟩ => show win21_5.index t (0 : Fin 2) * 512 ≤ (i 0).val ∧ (i 0).val < win21_5.index t (0 : Fin 2) * 512 + 512; omega
  | ⟨1, _⟩ => show win21_5.index t (1 : Fin 2) * 1024 ≤ (i 1).val ∧ (i 1).val < win21_5.index t (1 : Fin 2) * 1024 + 1024; omega

/-- The result array after the region. -/
theorem arr (c : Dev nD) : (dat21 (F := Ideal) V c).arrAt 5 cfg21.N = G V c :=
  (dat21 (F := Ideal) V c).arrAt_eq_of_cover 5 (G V c) (fun t _ => flushed_eq V c t) cover

end Cert.KernelIdeal.Reg21

end
-- ==== Proof.Reg22.lean ====
/-
  Region 22: the array it leaves.

  The region tiles a [1024, 1024] result into 2 by 2 blocks of [512, 512] and computes a dense layer. The block at
  (I, J) is computed from rows I*512 .. of the row operands (all 1024 columns), columns J*512 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg22

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg22.N,
    win22_0.index t (0 : Fin 2) = win22_3.index t (0 : Fin 2)
    ∧ win22_0.index t (1 : Fin 2) = 0
    ∧ win22_1.index t (0 : Fin 2) = 0
    ∧ win22_1.index t (1 : Fin 2) = win22_3.index t (1 : Fin 2)
    ∧ win22_2.index t (0 : Fin 2) = 0
    ∧ win22_2.index t (1 : Fin 2) = win22_3.index t (1 : Fin 2)
    ∧ win22_3.index t (0 : Fin 2) ≤ 1
    ∧ win22_3.index t (1 : Fin 2) ≤ 1 :=
  (by decide +kernel : ∀ t : Fin grid22.N, _)

/-- Every block of the result is some grid point's. -/
theorem idx_onto : ∀ (q0 : Fin 2) (q1 : Fin 2), ∃ t : Fin cfg22.N, win22_3.index t = ![q0.val, q1.val] :=
  (by decide +kernel : ∀ (q0 : Fin 2) (q1 : Fin 2), ∃ t : Fin grid22.N, win22_3.index t = ![q0.val, q1.val])

/-- The whole-array function the region computes, of its operand arrays as it finds them. -/
def G (c : Dev nD) : S1024x1024.Idx → EReal :=
  dense (V c main_call0_v111) (V c main_call0_v113) (V c main_call0_v116)

/-- What grid point t writes back is block t of that function. -/
theorem flushed_eq (c : Dev nD) (t : Fin cfg22.N) :
    (dat22 (F := Ideal) V c).flushed 3 t = ((cfg22.win 3).blk t).view.read (Elt Ideal) (G V c) := by
  show (cfg22.win 3).cut (grid22.coords t) ((dat22 V c).after 3 t) = _
  rw [after22_3]
  unfold out22_3
  rw [View.canon_unit_zero hz]
  simp only [View.ld_unit_zero (S := S512x1024) hz, View.ld_unit_zero (S := S1024x512) hz, View.ld_unit_zero (S := S1x512) hz]
  rw [show ∀ x0 x1 x2, k22_pay1 (F := Ideal) x0 x1 x2 = dense x0 x1 x2 from Pay.pay0]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win22_3.index t (0 : Fin 2) * 512 + p.val := ⟨⟨_, by omega⟩, rfl⟩
  obtain ⟨jJ, hjJ⟩ : ∃ jJ : Fin 1024, jJ.val = win22_3.index t (1 : Fin 2) * 512 + q.val := ⟨⟨_, by omega⟩, rfl⟩
  have hemb : ((cfg22.win 3).blk t).view.emb (ix2 p q) = ix2 iI jJ := by
    funext a; apply Fin.ext
    match a with
    | ⟨0, _⟩ => show win22_3.index t (0 : Fin 2) * 512 + 1 * p.val = iI.val; omega
    | ⟨1, _⟩ => show win22_3.index t (1 : Fin 2) * 512 + 1 * q.val = jJ.val; omega
  show (dense (iblk22 V c 0 t) (iblk22 V c 1 t) (iblk22 V c 2 t)) (ix2 p q) = G V c (((cfg22.win 3).blk t).view.emb (ix2 p q))
  rw [hemb]
  unfold G
  refine dense_entry_congr (tm := 512) (k := 1024) (tn := 512) (M := 1024) (N := 1024) (iblk22 V c 0 t) (iblk22 V c 1 t) (iblk22 V c 2 t) (V c main_call0_v111) (V c main_call0_v113) (V c main_call0_v116) p q iI jJ (fun cc => ?_) (fun cc => ?_) ?_
  · show V c main_call0_v111 (((cfg22.win 0).blk t).view.emb (ix2 p cc)) = V c main_call0_v111 (ix2 iI cc)
    refine congrArg (V c main_call0_v111) (funext fun a => Fin.ext ?_)
    match a with
    | ⟨0, _⟩ => show win22_0.index t (0 : Fin 2) * 512 + 1 * p.val = iI.val; omega
    | ⟨1, _⟩ => show win22_0.index t (1 : Fin 2) * 1024 + 1 * cc.val = cc.val; omega
  · show V c main_call0_v113 (((cfg22.win 1).blk t).view.emb (ix2 cc q)) = V c main_call0_v113 (ix2 cc jJ)
    refine congrArg (V c main_call0_v113) (funext fun a => Fin.ext ?_)
    match a with
    | ⟨0, _⟩ => show win22_1.index t (0 : Fin 2) * 1024 + 1 * cc.val = cc.val; omega
    | ⟨1, _⟩ => show win22_1.index t (1 : Fin 2) * 512 + 1 * q.val = jJ.val; omega
  · show V c main_call0_v116 (((cfg22.win 2).blk t).view.emb (ix2 (0 : Fin 1) q)) = V c main_call0_v116 (ix2 (0 : Fin 1) jJ)
    refine congrArg (V c main_call0_v116) (funext fun a => Fin.ext ?_)
    match a with
    | ⟨0, _⟩ => show win22_2.index t (0 : Fin 2) * 1 + 1 * 0 = 0; omega
    | ⟨1, _⟩ => show win22_2.index t (1 : Fin 2) * 512 + 1 * q.val = jJ.val; omega

/-- An index of the result array is in point t's block iff each coordinate is in the block's range on its axis. -/
theorem mem_blk (t : Fin cfg22.N) (i : S1024x1024.Idx) :
    i ∈ ((cfg22.win 3).blk t).view.set ↔ ∀ a : Fin 2, win22_3.index t a * S512x512.size a ≤ (i a).val ∧ (i a).val < win22_3.index t a * S512x512.size a + S512x512.size a := by
  show i ∈ ((View.whole main_call0_v117).slice (win22_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg22.N, (cfg22.win 3).flush t = true ∧ i ∈ ((cfg22.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win22_3.index t (0 : Fin 2) = (i 0).val / 512 := congrFun ht 0
  have q1 : win22_3.index t (1 : Fin 2) = (i 1).val / 512 := congrFun ht 1
  refine ⟨t, flush22_3 t, ?_⟩
  rw [mem_blk]
  intro a
  match a with
  | ⟨0, _⟩ => show win22_3.index t (0 : Fin 2) * 512 ≤ (i 0).val ∧ (i 0).val < win22_3.index t (0 : Fin 2) * 512 + 512; omega
  | ⟨1, _⟩ => show win22_3.index t (1 : Fin 2) * 512 ≤ (i 1).val ∧ (i 1).val < win22_3.index t (1 : Fin 2) * 512 + 512; omega

/-- The result array after the region. -/
theorem arr (c : Dev nD) : (dat22 (F := Ideal) V c).arrAt 3 cfg22.N = G V c :=
  (dat22 (F := Ideal) V c).arrAt_eq_of_cover 3 (G V c) (fun t _ => flushed_eq V c t) cover

end Cert.KernelIdeal.Reg22

end
-- ==== Proof.Reg23.lean ====
/-
  Region 23: the array it leaves.

  The region tiles a [1024, 1024] result into 2 by 2 blocks of [512, 512] and computes a dense layer. The block at
  (I, J) is computed from rows I*512 .. of the row operands (all 1024 columns), columns J*512 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg23

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg23.N,
    win23_0.index t (0 : Fin 2) = win23_3.index t (0 : Fin 2)
    ∧ win23_0.index t (1 : Fin 2) = 0
    ∧ win23_1.index t (0 : Fin 2) = 0
    ∧ win23_1.index t (1 : Fin 2) = win23_3.index t (1 : Fin 2)
    ∧ win23_2.index t (0 : Fin 2) = 0
    ∧ win23_2.index t (1 : Fin 2) = win23_3.index t (1 : Fin 2)
    ∧ win23_3.index t (0 : Fin 2) ≤ 1
    ∧ win23_3.index t (1 : Fin 2) ≤ 1 :=
  (by decide +kernel : ∀ t : Fin grid23.N, _)

/-- Every block of the result is some grid point's. -/
theorem idx_onto : ∀ (q0 : Fin 2) (q1 : Fin 2), ∃ t : Fin cfg23.N, win23_3.index t = ![q0.val, q1.val] :=
  (by decide +kernel : ∀ (q0 : Fin 2) (q1 : Fin 2), ∃ t : Fin grid23.N, win23_3.index t = ![q0.val, q1.val])

/-- The whole-array function the region computes, of its operand arrays as it finds them. -/
def G (c : Dev nD) : S1024x1024.Idx → EReal :=
  dense (V c main_call0_v119) (V c main_call0_v121) (V c main_call0_v124)

/-- What grid point t writes back is block t of that function. -/
theorem flushed_eq (c : Dev nD) (t : Fin cfg23.N) :
    (dat23 (F := Ideal) V c).flushed 3 t = ((cfg23.win 3).blk t).view.read (Elt Ideal) (G V c) := by
  show (cfg23.win 3).cut (grid23.coords t) ((dat23 V c).after 3 t) = _
  rw [after23_3]
  unfold out23_3
  rw [View.canon_unit_zero hz]
  simp only [View.ld_unit_zero (S := S512x1024) hz, View.ld_unit_zero (S := S1024x512) hz, View.ld_unit_zero (S := S1x512) hz]
  rw [show ∀ x0 x1 x2, k23_pay1 (F := Ideal) x0 x1 x2 = dense x0 x1 x2 from Pay.pay0]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win23_3.index t (0 : Fin 2) * 512 + p.val := ⟨⟨_, by omega⟩, rfl⟩
  obtain ⟨jJ, hjJ⟩ : ∃ jJ : Fin 1024, jJ.val = win23_3.index t (1 : Fin 2) * 512 + q.val := ⟨⟨_, by omega⟩, rfl⟩
  have hemb : ((cfg23.win 3).blk t).view.emb (ix2 p q) = ix2 iI jJ := by
    funext a; apply Fin.ext
    match a with
    | ⟨0, _⟩ => show win23_3.index t (0 : Fin 2) * 512 + 1 * p.val = iI.val; omega
    | ⟨1, _⟩ => show win23_3.index t (1 : Fin 2) * 512 + 1 * q.val = jJ.val; omega
  show (dense (iblk23 V c 0 t) (iblk23 V c 1 t) (iblk23 V c 2 t)) (ix2 p q) = G V c (((cfg23.win 3).blk t).view.emb (ix2 p q))
  rw [hemb]
  unfold G
  refine dense_entry_congr (tm := 512) (k := 1024) (tn := 512) (M := 1024) (N := 1024) (iblk23 V c 0 t) (iblk23 V c 1 t) (iblk23 V c 2 t) (V c main_call0_v119) (V c main_call0_v121) (V c main_call0_v124) p q iI jJ (fun cc => ?_) (fun cc => ?_) ?_
  · show V c main_call0_v119 (((cfg23.win 0).blk t).view.emb (ix2 p cc)) = V c main_call0_v119 (ix2 iI cc)
    refine congrArg (V c main_call0_v119) (funext fun a => Fin.ext ?_)
    match a with
    | ⟨0, _⟩ => show win23_0.index t (0 : Fin 2) * 512 + 1 * p.val = iI.val; omega
    | ⟨1, _⟩ => show win23_0.index t (1 : Fin 2) * 1024 + 1 * cc.val = cc.val; omega
  · show V c main_call0_v121 (((cfg23.win 1).blk t).view.emb (ix2 cc q)) = V c main_call0_v121 (ix2 cc jJ)
    refine congrArg (V c main_call0_v121) (funext fun a => Fin.ext ?_)
    match a with
    | ⟨0, _⟩ => show win23_1.index t (0 : Fin 2) * 1024 + 1 * cc.val = cc.val; omega
    | ⟨1, _⟩ => show win23_1.index t (1 : Fin 2) * 512 + 1 * q.val = jJ.val; omega
  · show V c main_call0_v124 (((cfg23.win 2).blk t).view.emb (ix2 (0 : Fin 1) q)) = V c main_call0_v124 (ix2 (0 : Fin 1) jJ)
    refine congrArg (V c main_call0_v124) (funext fun a => Fin.ext ?_)
    match a with
    | ⟨0, _⟩ => show win23_2.index t (0 : Fin 2) * 1 + 1 * 0 = 0; omega
    | ⟨1, _⟩ => show win23_2.index t (1 : Fin 2) * 512 + 1 * q.val = jJ.val; omega

/-- An index of the result array is in point t's block iff each coordinate is in the block's range on its axis. -/
theorem mem_blk (t : Fin cfg23.N) (i : S1024x1024.Idx) :
    i ∈ ((cfg23.win 3).blk t).view.set ↔ ∀ a : Fin 2, win23_3.index t a * S512x512.size a ≤ (i a).val ∧ (i a).val < win23_3.index t a * S512x512.size a + S512x512.size a := by
  show i ∈ ((View.whole main_call0_v125).slice (win23_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg23.N, (cfg23.win 3).flush t = true ∧ i ∈ ((cfg23.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win23_3.index t (0 : Fin 2) = (i 0).val / 512 := congrFun ht 0
  have q1 : win23_3.index t (1 : Fin 2) = (i 1).val / 512 := congrFun ht 1
  refine ⟨t, flush23_3 t, ?_⟩
  rw [mem_blk]
  intro a
  match a with
  | ⟨0, _⟩ => show win23_3.index t (0 : Fin 2) * 512 ≤ (i 0).val ∧ (i 0).val < win23_3.index t (0 : Fin 2) * 512 + 512; omega
  | ⟨1, _⟩ => show win23_3.index t (1 : Fin 2) * 512 ≤ (i 1).val ∧ (i 1).val < win23_3.index t (1 : Fin 2) * 512 + 512; omega

/-- The result array after the region. -/
theorem arr (c : Dev nD) : (dat23 (F := Ideal) V c).arrAt 3 cfg23.N = G V c :=
  (dat23 (F := Ideal) V c).arrAt_eq_of_cover 3 (G V c) (fun t _ => flushed_eq V c t) cover

end Cert.KernelIdeal.Reg23

end
-- ==== Proof.Reg24.lean ====
/-
  Region 24: the array it leaves.

  The region tiles a [1024, 4096] result into 2 by 4 blocks of [512, 1024] and computes the sigmoid of two products' sum plus a bias row. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg24

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg24.N,
    win24_0.index t (0 : Fin 2) = win24_5.index t (0 : Fin 2)
    ∧ win24_0.index t (1 : Fin 2) = 0
    ∧ win24_1.index t (0 : Fin 2) = 0
    ∧ win24_1.index t (1 : Fin 2) = win24_5.index t (1 : Fin 2)
    ∧ win24_2.index t (0 : Fin 2) = win24_5.index t (0 : Fin 2)
    ∧ win24_2.index t (1 : Fin 2) = 0
    ∧ win24_3.index t (0 : Fin 2) = 0
    ∧ win24_3.index t (1 : Fin 2) = win24_5.index t (1 : Fin 2)
    ∧ win24_4.index t (0 : Fin 2) = 0
    ∧ win24_4.index t (1 : Fin 2) = win24_5.index t (1 : Fin 2)
    ∧ win24_5.index t (0 : Fin 2) ≤ 1
    ∧ win24_5.index t (1 : Fin 2) ≤ 3 :=
  (by decide +kernel : ∀ t : Fin grid24.N, _)

/-- Every block of the result is some grid point's. -/
theorem idx_onto : ∀ (q0 : Fin 2) (q1 : Fin 4), ∃ t : Fin cfg24.N, win24_5.index t = ![q0.val, q1.val] :=
  (by decide +kernel : ∀ (q0 : Fin 2) (q1 : Fin 4), ∃ t : Fin grid24.N, win24_5.index t = ![q0.val, q1.val])

/-- The whole-array function the region computes, of its operand arrays as it finds them. -/
def G (c : Dev nD) : S1024x4096.Idx → EReal :=
  logistic (F := Ideal) (φ := .f32) (gatePre (V c main_call0_v117) (V c main_call0_v73) (V c main_call0_v125) (V c main_call0_v89) (V c main_call0_v128))

/-- What grid point t writes back is block t of that function. -/
theorem flushed_eq (c : Dev nD) (t : Fin cfg24.N) :
    (dat24 (F := Ideal) V c).flushed 5 t = ((cfg24.win 5).blk t).view.read (Elt Ideal) (G V c) := by
  show (cfg24.win 5).cut (grid24.coords t) ((dat24 V c).after 5 t) = _
  rw [after24_5]
  unfold out24_5
  rw [View.canon_unit_zero hz]
  simp only [View.ld_unit_zero (S := S512x1024) hz, View.ld_unit_zero (S := S1024x1024) hz, View.ld_unit_zero (S := S1x1024) hz]
  rw [show ∀ x0 x1 x2 x3 x4, k24_pay1 (F := Ideal) x0 x1 x2 x3 x4 = logistic (F := Ideal) (φ := .f32) (gatePre x0 x1 x2 x3 x4) from Pay.pay21]
  obtain ⟨e0, e1, e2, e3, e4, e5, e6, e7, e8, e9, e10, e11⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win24_5.index t (0 : Fin 2) * 512 + p.val := ⟨⟨_, by omega⟩, rfl⟩
  obtain ⟨jJ, hjJ⟩ : ∃ jJ : Fin 4096, jJ.val = win24_5.index t (1 : Fin 2) * 1024 + q.val := ⟨⟨_, by omega⟩, rfl⟩
  have hemb : ((cfg24.win 5).blk t).view.emb (ix2 p q) = ix2 iI jJ := by
    funext a; apply Fin.ext
    match a with
    | ⟨0, _⟩ => show win24_5.index t (0 : Fin 2) * 512 + 1 * p.val = iI.val; omega
    | ⟨1, _⟩ => show win24_5.index t (1 : Fin 2) * 1024 + 1 * q.val = jJ.val; omega
  show (logistic (F := Ideal) (φ := .f32) (gatePre (iblk24 V c 0 t) (iblk24 V c 1 t) (iblk24 V c 2 t) (iblk24 V c 3 t) (iblk24 V c 4 t))) (ix2 p q) = G V c (((cfg24.win 5).blk t).view.emb (ix2 p q))
  rw [hemb]
  unfold G
  refine congrArg Ideal.logistic ?_
  refine gatePre_entry_congr (tm := 512) (k := 1024) (tn := 1024) (M := 1024) (N := 4096) (iblk24 V c 0 t) (iblk24 V c 1 t) (iblk24 V c 2 t) (iblk24 V c 3 t) (iblk24 V c 4 t) (V c main_call0_v117) (V c main_call0_v73) (V c main_call0_v125) (V c main_call0_v89) (V c main_call0_v128) p q iI jJ (fun cc => ?_) (fun cc => ?_) (fun cc => ?_) (fun cc => ?_) ?_
  · show V c main_call0_v117 (((cfg24.win 0).blk t).view.emb (ix2 p cc)) = V c main_call0_v117 (ix2 iI cc)
    refine congrArg (V c main_call0_v117) (funext fun a => Fin.ext ?_)
    match a with
    | ⟨0, _⟩ => show win24_0.index t (0 : Fin 2) * 512 + 1 * p.val = iI.val; omega
    | ⟨1, _⟩ => show win24_0.index t (1 : Fin 2) * 1024 + 1 * cc.val = cc.val; omega
  · show V c main_call0_v73 (((cfg24.win 1).blk t).view.emb (ix2 cc q)) = V c main_call0_v73 (ix2 cc jJ)
    refine congrArg (V c main_call0_v73) (funext fun a => Fin.ext ?_)
    match a with
    | ⟨0, _⟩ => show win24_1.index t (0 : Fin 2) * 1024 + 1 * cc.val = cc.val; omega
    | ⟨1, _⟩ => show win24_1.index t (1 : Fin 2) * 1024 + 1 * q.val = jJ.val; omega
  · show V c main_call0_v125 (((cfg24.win 2).blk t).view.emb (ix2 p cc)) = V c main_call0_v125 (ix2 iI cc)
    refine congrArg (V c main_call0_v125) (funext fun a => Fin.ext ?_)
    match a with
    | ⟨0, _⟩ => show win24_2.index t (0 : Fin 2) * 512 + 1 * p.val = iI.val; omega
    | ⟨1, _⟩ => show win24_2.index t (1 : Fin 2) * 1024 + 1 * cc.val = cc.val; omega
  · show V c main_call0_v89 (((cfg24.win 3).blk t).view.emb (ix2 cc q)) = V c main_call0_v89 (ix2 cc jJ)
    refine congrArg (V c main_call0_v89) (funext fun a => Fin.ext ?_)
    match a with
    | ⟨0, _⟩ => show win24_3.index t (0 : Fin 2) * 1024 + 1 * cc.val = cc.val; omega
    | ⟨1, _⟩ => show win24_3.index t (1 : Fin 2) * 1024 + 1 * q.val = jJ.val; omega
  · show V c main_call0_v128 (((cfg24.win 4).blk t).view.emb (ix2 (0 : Fin 1) q)) = V c main_call0_v128 (ix2 (0 : Fin 1) jJ)
    refine congrArg (V c main_call0_v128) (funext fun a => Fin.ext ?_)
    match a with
    | ⟨0, _⟩ => show win24_4.index t (0 : Fin 2) * 1 + 1 * 0 = 0; omega
    | ⟨1, _⟩ => show win24_4.index t (1 : Fin 2) * 1024 + 1 * q.val = jJ.val; omega

/-- An index of the result array is in point t's block iff each coordinate is in the block's range on its axis. -/
theorem mem_blk (t : Fin cfg24.N) (i : S1024x4096.Idx) :
    i ∈ ((cfg24.win 5).blk t).view.set ↔ ∀ a : Fin 2, win24_5.index t a * S512x1024.size a ≤ (i a).val ∧ (i a).val < win24_5.index t a * S512x1024.size a + S512x1024.size a := by
  show i ∈ ((View.whole main_call0_v129).slice (win24_5.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg24.N, (cfg24.win 5).flush t = true ∧ i ∈ ((cfg24.win 5).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win24_5.index t (0 : Fin 2) = (i 0).val / 512 := congrFun ht 0
  have q1 : win24_5.index t (1 : Fin 2) = (i 1).val / 1024 := congrFun ht 1
  refine ⟨t, flush24_5 t, ?_⟩
  rw [mem_blk]
  intro a
  match a with
  | ⟨0, _⟩ => show win24_5.index t (0 : Fin 2) * 512 ≤ (i 0).val ∧ (i 0).val < win24_5.index t (0 : Fin 2) * 512 + 512; omega
  | ⟨1, _⟩ => show win24_5.index t (1 : Fin 2) * 1024 ≤ (i 1).val ∧ (i 1).val < win24_5.index t (1 : Fin 2) * 1024 + 1024; omega

/-- The result array after the region. -/
theorem arr (c : Dev nD) : (dat24 (F := Ideal) V c).arrAt 5 cfg24.N = G V c :=
  (dat24 (F := Ideal) V c).arrAt_eq_of_cover 5 (G V c) (fun t _ => flushed_eq V c t) cover

end Cert.KernelIdeal.Reg24

end
-- ==== Proof.Reg25.lean ====
/-
  Region 25: the array it leaves.

  The region tiles a [1024, 1024] result into 2 by 2 blocks of [512, 512] and computes a dense layer. The block at
  (I, J) is computed from rows I*512 .. of the row operands (all 1024 columns), columns J*512 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg25

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg25.N,
    win25_0.index t (0 : Fin 2) = win25_3.index t (0 : Fin 2)
    ∧ win25_0.index t (1 : Fin 2) = 0
    ∧ win25_1.index t (0 : Fin 2) = 0
    ∧ win25_1.index t (1 : Fin 2) = win25_3.index t (1 : Fin 2)
    ∧ win25_2.index t (0 : Fin 2) = 0
    ∧ win25_2.index t (1 : Fin 2) = win25_3.index t (1 : Fin 2)
    ∧ win25_3.index t (0 : Fin 2) ≤ 1
    ∧ win25_3.index t (1 : Fin 2) ≤ 1 :=
  (by decide +kernel : ∀ t : Fin grid25.N, _)

/-- Every block of the result is some grid point's. -/
theorem idx_onto : ∀ (q0 : Fin 2) (q1 : Fin 2), ∃ t : Fin cfg25.N, win25_3.index t = ![q0.val, q1.val] :=
  (by decide +kernel : ∀ (q0 : Fin 2) (q1 : Fin 2), ∃ t : Fin grid25.N, win25_3.index t = ![q0.val, q1.val])

/-- The whole-array function the region computes, of its operand arrays as it finds them. -/
def G (c : Dev nD) : S1024x1024.Idx → EReal :=
  dense (V c main_call0_v131) (V c main_call0_v133) (V c main_call0_v136)

/-- What grid point t writes back is block t of that function. -/
theorem flushed_eq (c : Dev nD) (t : Fin cfg25.N) :
    (dat25 (F := Ideal) V c).flushed 3 t = ((cfg25.win 3).blk t).view.read (Elt Ideal) (G V c) := by
  show (cfg25.win 3).cut (grid25.coords t) ((dat25 V c).after 3 t) = _
  rw [after25_3]
  unfold out25_3
  rw [View.canon_unit_zero hz]
  simp only [View.ld_unit_zero (S := S512x1024) hz, View.ld_unit_zero (S := S1024x512) hz, View.ld_unit_zero (S := S1x512) hz]
  rw [show ∀ x0 x1 x2, k25_pay1 (F := Ideal) x0 x1 x2 = dense x0 x1 x2 from Pay.pay0]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win25_3.index t (0 : Fin 2) * 512 + p.val := ⟨⟨_, by omega⟩, rfl⟩
  obtain ⟨jJ, hjJ⟩ : ∃ jJ : Fin 1024, jJ.val = win25_3.index t (1 : Fin 2) * 512 + q.val := ⟨⟨_, by omega⟩, rfl⟩
  have hemb : ((cfg25.win 3).blk t).view.emb (ix2 p q) = ix2 iI jJ := by
    funext a; apply Fin.ext
    match a with
    | ⟨0, _⟩ => show win25_3.index t (0 : Fin 2) * 512 + 1 * p.val = iI.val; omega
    | ⟨1, _⟩ => show win25_3.index t (1 : Fin 2) * 512 + 1 * q.val = jJ.val; omega
  show (dense (iblk25 V c 0 t) (iblk25 V c 1 t) (iblk25 V c 2 t)) (ix2 p q) = G V c (((cfg25.win 3).blk t).view.emb (ix2 p q))
  rw [hemb]
  unfold G
  refine dense_entry_congr (tm := 512) (k := 1024) (tn := 512) (M := 1024) (N := 1024) (iblk25 V c 0 t) (iblk25 V c 1 t) (iblk25 V c 2 t) (V c main_call0_v131) (V c main_call0_v133) (V c main_call0_v136) p q iI jJ (fun cc => ?_) (fun cc => ?_) ?_
  · show V c main_call0_v131 (((cfg25.win 0).blk t).view.emb (ix2 p cc)) = V c main_call0_v131 (ix2 iI cc)
    refine congrArg (V c main_call0_v131) (funext fun a => Fin.ext ?_)
    match a with
    | ⟨0, _⟩ => show win25_0.index t (0 : Fin 2) * 512 + 1 * p.val = iI.val; omega
    | ⟨1, _⟩ => show win25_0.index t (1 : Fin 2) * 1024 + 1 * cc.val = cc.val; omega
  · show V c main_call0_v133 (((cfg25.win 1).blk t).view.emb (ix2 cc q)) = V c main_call0_v133 (ix2 cc jJ)
    refine congrArg (V c main_call0_v133) (funext fun a => Fin.ext ?_)
    match a with
    | ⟨0, _⟩ => show win25_1.index t (0 : Fin 2) * 1024 + 1 * cc.val = cc.val; omega
    | ⟨1, _⟩ => show win25_1.index t (1 : Fin 2) * 512 + 1 * q.val = jJ.val; omega
  · show V c main_call0_v136 (((cfg25.win 2).blk t).view.emb (ix2 (0 : Fin 1) q)) = V c main_call0_v136 (ix2 (0 : Fin 1) jJ)
    refine congrArg (V c main_call0_v136) (funext fun a => Fin.ext ?_)
    match a with
    | ⟨0, _⟩ => show win25_2.index t (0 : Fin 2) * 1 + 1 * 0 = 0; omega
    | ⟨1, _⟩ => show win25_2.index t (1 : Fin 2) * 512 + 1 * q.val = jJ.val; omega

/-- An index of the result array is in point t's block iff each coordinate is in the block's range on its axis. -/
theorem mem_blk (t : Fin cfg25.N) (i : S1024x1024.Idx) :
    i ∈ ((cfg25.win 3).blk t).view.set ↔ ∀ a : Fin 2, win25_3.index t a * S512x512.size a ≤ (i a).val ∧ (i a).val < win25_3.index t a * S512x512.size a + S512x512.size a := by
  show i ∈ ((View.whole main_call0_v137).slice (win25_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg25.N, (cfg25.win 3).flush t = true ∧ i ∈ ((cfg25.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win25_3.index t (0 : Fin 2) = (i 0).val / 512 := congrFun ht 0
  have q1 : win25_3.index t (1 : Fin 2) = (i 1).val / 512 := congrFun ht 1
  refine ⟨t, flush25_3 t, ?_⟩
  rw [mem_blk]
  intro a
  match a with
  | ⟨0, _⟩ => show win25_3.index t (0 : Fin 2) * 512 ≤ (i 0).val ∧ (i 0).val < win25_3.index t (0 : Fin 2) * 512 + 512; omega
  | ⟨1, _⟩ => show win25_3.index t (1 : Fin 2) * 512 ≤ (i 1).val ∧ (i 1).val < win25_3.index t (1 : Fin 2) * 512 + 512; omega

/-- The result array after the region. -/
theorem arr (c : Dev nD) : (dat25 (F := Ideal) V c).arrAt 3 cfg25.N = G V c :=
  (dat25 (F := Ideal) V c).arrAt_eq_of_cover 3 (G V c) (fun t _ => flushed_eq V c t) cover

end Cert.KernelIdeal.Reg25

end
-- ==== Proof.Reg26.lean ====
/-
  Region 26: the array it leaves.

  The region tiles a [1024, 1024] result into 2 by 2 blocks of [512, 512] and computes a dense layer. The block at
  (I, J) is computed from rows I*512 .. of the row operands (all 1024 columns), columns J*512 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg26

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg26.N,
    win26_0.index t (0 : Fin 2) = win26_3.index t (0 : Fin 2)
    ∧ win26_0.index t (1 : Fin 2) = 0
    ∧ win26_1.index t (0 : Fin 2) = 0
    ∧ win26_1.index t (1 : Fin 2) = win26_3.index t (1 : Fin 2)
    ∧ win26_2.index t (0 : Fin 2) = 0
    ∧ win26_2.index t (1 : Fin 2) = win26_3.index t (1 : Fin 2)
    ∧ win26_3.index t (0 : Fin 2) ≤ 1
    ∧ win26_3.index t (1 : Fin 2) ≤ 1 :=
  (by decide +kernel : ∀ t : Fin grid26.N, _)

/-- Every block of the result is some grid point's. -/
theorem idx_onto : ∀ (q0 : Fin 2) (q1 : Fin 2), ∃ t : Fin cfg26.N, win26_3.index t = ![q0.val, q1.val] :=
  (by decide +kernel : ∀ (q0 : Fin 2) (q1 : Fin 2), ∃ t : Fin grid26.N, win26_3.index t = ![q0.val, q1.val])

/-- The whole-array function the region computes, of its operand arrays as it finds them. -/
def G (c : Dev nD) : S1024x1024.Idx → EReal :=
  dense (V c main_call0_v139) (V c main_call0_v141) (V c main_call0_v144)

/-- What grid point t writes back is block t of that function. -/
theorem flushed_eq (c : Dev nD) (t : Fin cfg26.N) :
    (dat26 (F := Ideal) V c).flushed 3 t = ((cfg26.win 3).blk t).view.read (Elt Ideal) (G V c) := by
  show (cfg26.win 3).cut (grid26.coords t) ((dat26 V c).after 3 t) = _
  rw [after26_3]
  unfold out26_3
  rw [View.canon_unit_zero hz]
  simp only [View.ld_unit_zero (S := S512x1024) hz, View.ld_unit_zero (S := S1024x512) hz, View.ld_unit_zero (S := S1x512) hz]
  rw [show ∀ x0 x1 x2, k26_pay1 (F := Ideal) x0 x1 x2 = dense x0 x1 x2 from Pay.pay0]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win26_3.index t (0 : Fin 2) * 512 + p.val := ⟨⟨_, by omega⟩, rfl⟩
  obtain ⟨jJ, hjJ⟩ : ∃ jJ : Fin 1024, jJ.val = win26_3.index t (1 : Fin 2) * 512 + q.val := ⟨⟨_, by omega⟩, rfl⟩
  have hemb : ((cfg26.win 3).blk t).view.emb (ix2 p q) = ix2 iI jJ := by
    funext a; apply Fin.ext
    match a with
    | ⟨0, _⟩ => show win26_3.index t (0 : Fin 2) * 512 + 1 * p.val = iI.val; omega
    | ⟨1, _⟩ => show win26_3.index t (1 : Fin 2) * 512 + 1 * q.val = jJ.val; omega
  show (dense (iblk26 V c 0 t) (iblk26 V c 1 t) (iblk26 V c 2 t)) (ix2 p q) = G V c (((cfg26.win 3).blk t).view.emb (ix2 p q))
  rw [hemb]
  unfold G
  refine dense_entry_congr (tm := 512) (k := 1024) (tn := 512) (M := 1024) (N := 1024) (iblk26 V c 0 t) (iblk26 V c 1 t) (iblk26 V c 2 t) (V c main_call0_v139) (V c main_call0_v141) (V c main_call0_v144) p q iI jJ (fun cc => ?_) (fun cc => ?_) ?_
  · show V c main_call0_v139 (((cfg26.win 0).blk t).view.emb (ix2 p cc)) = V c main_call0_v139 (ix2 iI cc)
    refine congrArg (V c main_call0_v139) (funext fun a => Fin.ext ?_)
    match a with
    | ⟨0, _⟩ => show win26_0.index t (0 : Fin 2) * 512 + 1 * p.val = iI.val; omega
    | ⟨1, _⟩ => show win26_0.index t (1 : Fin 2) * 1024 + 1 * cc.val = cc.val; omega
  · show V c main_call0_v141 (((cfg26.win 1).blk t).view.emb (ix2 cc q)) = V c main_call0_v141 (ix2 cc jJ)
    refine congrArg (V c main_call0_v141) (funext fun a => Fin.ext ?_)
    match a with
    | ⟨0, _⟩ => show win26_1.index t (0 : Fin 2) * 1024 + 1 * cc.val = cc.val; omega
    | ⟨1, _⟩ => show win26_1.index t (1 : Fin 2) * 512 + 1 * q.val = jJ.val; omega
  · show V c main_call0_v144 (((cfg26.win 2).blk t).view.emb (ix2 (0 : Fin 1) q)) = V c main_call0_v144 (ix2 (0 : Fin 1) jJ)
    refine congrArg (V c main_call0_v144) (funext fun a => Fin.ext ?_)
    match a with
    | ⟨0, _⟩ => show win26_2.index t (0 : Fin 2) * 1 + 1 * 0 = 0; omega
    | ⟨1, _⟩ => show win26_2.index t (1 : Fin 2) * 512 + 1 * q.val = jJ.val; omega

/-- An index of the result array is in point t's block iff each coordinate is in the block's range on its axis. -/
theorem mem_blk (t : Fin cfg26.N) (i : S1024x1024.Idx) :
    i ∈ ((cfg26.win 3).blk t).view.set ↔ ∀ a : Fin 2, win26_3.index t a * S512x512.size a ≤ (i a).val ∧ (i a).val < win26_3.index t a * S512x512.size a + S512x512.size a := by
  show i ∈ ((View.whole main_call0_v145).slice (win26_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg26.N, (cfg26.win 3).flush t = true ∧ i ∈ ((cfg26.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win26_3.index t (0 : Fin 2) = (i 0).val / 512 := congrFun ht 0
  have q1 : win26_3.index t (1 : Fin 2) = (i 1).val / 512 := congrFun ht 1
  refine ⟨t, flush26_3 t, ?_⟩
  rw [mem_blk]
  intro a
  match a with
  | ⟨0, _⟩ => show win26_3.index t (0 : Fin 2) * 512 ≤ (i 0).val ∧ (i 0).val < win26_3.index t (0 : Fin 2) * 512 + 512; omega
  | ⟨1, _⟩ => show win26_3.index t (1 : Fin 2) * 512 ≤ (i 1).val ∧ (i 1).val < win26_3.index t (1 : Fin 2) * 512 + 512; omega

/-- The result array after the region. -/
theorem arr (c : Dev nD) : (dat26 (F := Ideal) V c).arrAt 3 cfg26.N = G V c :=
  (dat26 (F := Ideal) V c).arrAt_eq_of_cover 3 (G V c) (fun t _ => flushed_eq V c t) cover

end Cert.KernelIdeal.Reg26

end
-- ==== Proof.Reg27.lean ====
/-
  Region 27: the array it leaves.

  The region tiles a [1024, 4096] result into 2 by 4 blocks of [512, 1024] and computes the hyperbolic tangent of two products' sum plus a bias row. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg27

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg27.N,
    win27_0.index t (0 : Fin 2) = win27_5.index t (0 : Fin 2)
    ∧ win27_0.index t (1 : Fin 2) = 0
    ∧ win27_1.index t (0 : Fin 2) = 0
    ∧ win27_1.index t (1 : Fin 2) = win27_5.index t (1 : Fin 2)
    ∧ win27_2.index t (0 : Fin 2) = win27_5.index t (0 : Fin 2)
    ∧ win27_2.index t (1 : Fin 2) = 0
    ∧ win27_3.index t (0 : Fin 2) = 0
    ∧ win27_3.index t (1 : Fin 2) = win27_5.index t (1 : Fin 2)
    ∧ win27_4.index t (0 : Fin 2) = 0
    ∧ win27_4.index t (1 : Fin 2) = win27_5.index t (1 : Fin 2)
    ∧ win27_5.index t (0 : Fin 2) ≤ 1
    ∧ win27_5.index t (1 : Fin 2) ≤ 3 :=
  (by decide +kernel : ∀ t : Fin grid27.N, _)

/-- Every block of the result is some grid point's. -/
theorem idx_onto : ∀ (q0 : Fin 2) (q1 : Fin 4), ∃ t : Fin cfg27.N, win27_5.index t = ![q0.val, q1.val] :=
  (by decide +kernel : ∀ (q0 : Fin 2) (q1 : Fin 4), ∃ t : Fin grid27.N, win27_5.index t = ![q0.val, q1.val])

/-- The whole-array function the region computes, of its operand arrays as it finds them. -/
def G (c : Dev nD) : S1024x4096.Idx → EReal :=
  tanh (F := Ideal) (φ := .f32) (gatePre (V c main_call0_v137) (V c main_call0_v73) (V c main_call0_v145) (V c main_call0_v89) (V c main_call0_v148))

/-- What grid point t writes back is block t of that function. -/
theorem flushed_eq (c : Dev nD) (t : Fin cfg27.N) :
    (dat27 (F := Ideal) V c).flushed 5 t = ((cfg27.win 5).blk t).view.read (Elt Ideal) (G V c) := by
  show (cfg27.win 5).cut (grid27.coords t) ((dat27 V c).after 5 t) = _
  rw [after27_5]
  unfold out27_5
  rw [View.canon_unit_zero hz]
  simp only [View.ld_unit_zero (S := S512x1024) hz, View.ld_unit_zero (S := S1024x1024) hz, View.ld_unit_zero (S := S1x1024) hz]
  rw [show ∀ x0 x1 x2 x3 x4, k27_pay1 (F := Ideal) x0 x1 x2 x3 x4 = tanh (F := Ideal) (φ := .f32) (gatePre x0 x1 x2 x3 x4) from Pay.pay27]
  obtain ⟨e0, e1, e2, e3, e4, e5, e6, e7, e8, e9, e10, e11⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win27_5.index t (0 : Fin 2) * 512 + p.val := ⟨⟨_, by omega⟩, rfl⟩
  obtain ⟨jJ, hjJ⟩ : ∃ jJ : Fin 4096, jJ.val = win27_5.index t (1 : Fin 2) * 1024 + q.val := ⟨⟨_, by omega⟩, rfl⟩
  have hemb : ((cfg27.win 5).blk t).view.emb (ix2 p q) = ix2 iI jJ := by
    funext a; apply Fin.ext
    match a with
    | ⟨0, _⟩ => show win27_5.index t (0 : Fin 2) * 512 + 1 * p.val = iI.val; omega
    | ⟨1, _⟩ => show win27_5.index t (1 : Fin 2) * 1024 + 1 * q.val = jJ.val; omega
  show (tanh (F := Ideal) (φ := .f32) (gatePre (iblk27 V c 0 t) (iblk27 V c 1 t) (iblk27 V c 2 t) (iblk27 V c 3 t) (iblk27 V c 4 t))) (ix2 p q) = G V c (((cfg27.win 5).blk t).view.emb (ix2 p q))
  rw [hemb]
  unfold G
  refine congrArg Ideal.tanh ?_
  refine gatePre_entry_congr (tm := 512) (k := 1024) (tn := 1024) (M := 1024) (N := 4096) (iblk27 V c 0 t) (iblk27 V c 1 t) (iblk27 V c 2 t) (iblk27 V c 3 t) (iblk27 V c 4 t) (V c main_call0_v137) (V c main_call0_v73) (V c main_call0_v145) (V c main_call0_v89) (V c main_call0_v148) p q iI jJ (fun cc => ?_) (fun cc => ?_) (fun cc => ?_) (fun cc => ?_) ?_
  · show V c main_call0_v137 (((cfg27.win 0).blk t).view.emb (ix2 p cc)) = V c main_call0_v137 (ix2 iI cc)
    refine congrArg (V c main_call0_v137) (funext fun a => Fin.ext ?_)
    match a with
    | ⟨0, _⟩ => show win27_0.index t (0 : Fin 2) * 512 + 1 * p.val = iI.val; omega
    | ⟨1, _⟩ => show win27_0.index t (1 : Fin 2) * 1024 + 1 * cc.val = cc.val; omega
  · show V c main_call0_v73 (((cfg27.win 1).blk t).view.emb (ix2 cc q)) = V c main_call0_v73 (ix2 cc jJ)
    refine congrArg (V c main_call0_v73) (funext fun a => Fin.ext ?_)
    match a with
    | ⟨0, _⟩ => show win27_1.index t (0 : Fin 2) * 1024 + 1 * cc.val = cc.val; omega
    | ⟨1, _⟩ => show win27_1.index t (1 : Fin 2) * 1024 + 1 * q.val = jJ.val; omega
  · show V c main_call0_v145 (((cfg27.win 2).blk t).view.emb (ix2 p cc)) = V c main_call0_v145 (ix2 iI cc)
    refine congrArg (V c main_call0_v145) (funext fun a => Fin.ext ?_)
    match a with
    | ⟨0, _⟩ => show win27_2.index t (0 : Fin 2) * 512 + 1 * p.val = iI.val; omega
    | ⟨1, _⟩ => show win27_2.index t (1 : Fin 2) * 1024 + 1 * cc.val = cc.val; omega
  · show V c main_call0_v89 (((cfg27.win 3).blk t).view.emb (ix2 cc q)) = V c main_call0_v89 (ix2 cc jJ)
    refine congrArg (V c main_call0_v89) (funext fun a => Fin.ext ?_)
    match a with
    | ⟨0, _⟩ => show win27_3.index t (0 : Fin 2) * 1024 + 1 * cc.val = cc.val; omega
    | ⟨1, _⟩ => show win27_3.index t (1 : Fin 2) * 1024 + 1 * q.val = jJ.val; omega
  · show V c main_call0_v148 (((cfg27.win 4).blk t).view.emb (ix2 (0 : Fin 1) q)) = V c main_call0_v148 (ix2 (0 : Fin 1) jJ)
    refine congrArg (V c main_call0_v148) (funext fun a => Fin.ext ?_)
    match a with
    | ⟨0, _⟩ => show win27_4.index t (0 : Fin 2) * 1 + 1 * 0 = 0; omega
    | ⟨1, _⟩ => show win27_4.index t (1 : Fin 2) * 1024 + 1 * q.val = jJ.val; omega

/-- An index of the result array is in point t's block iff each coordinate is in the block's range on its axis. -/
theorem mem_blk (t : Fin cfg27.N) (i : S1024x4096.Idx) :
    i ∈ ((cfg27.win 5).blk t).view.set ↔ ∀ a : Fin 2, win27_5.index t a * S512x1024.size a ≤ (i a).val ∧ (i a).val < win27_5.index t a * S512x1024.size a + S512x1024.size a := by
  show i ∈ ((View.whole main_call0_v149).slice (win27_5.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg27.N, (cfg27.win 5).flush t = true ∧ i ∈ ((cfg27.win 5).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win27_5.index t (0 : Fin 2) = (i 0).val / 512 := congrFun ht 0
  have q1 : win27_5.index t (1 : Fin 2) = (i 1).val / 1024 := congrFun ht 1
  refine ⟨t, flush27_5 t, ?_⟩
  rw [mem_blk]
  intro a
  match a with
  | ⟨0, _⟩ => show win27_5.index t (0 : Fin 2) * 512 ≤ (i 0).val ∧ (i 0).val < win27_5.index t (0 : Fin 2) * 512 + 512; omega
  | ⟨1, _⟩ => show win27_5.index t (1 : Fin 2) * 1024 ≤ (i 1).val ∧ (i 1).val < win27_5.index t (1 : Fin 2) * 1024 + 1024; omega

/-- The result array after the region. -/
theorem arr (c : Dev nD) : (dat27 (F := Ideal) V c).arrAt 5 cfg27.N = G V c :=
  (dat27 (F := Ideal) V c).arrAt_eq_of_cover 5 (G V c) (fun t _ => flushed_eq V c t) cover

end Cert.KernelIdeal.Reg27

end
-- ==== Proof.Reg28.lean ====
/-
  Region 28: the array it leaves.

  The region tiles a [1024, 1024] result into 2 by 2 blocks of [512, 512] and computes a dense layer. The block at
  (I, J) is computed from rows I*512 .. of the row operands (all 1024 columns), columns J*512 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg28

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg28.N,
    win28_0.index t (0 : Fin 2) = win28_3.index t (0 : Fin 2)
    ∧ win28_0.index t (1 : Fin 2) = 0
    ∧ win28_1.index t (0 : Fin 2) = 0
    ∧ win28_1.index t (1 : Fin 2) = win28_3.index t (1 : Fin 2)
    ∧ win28_2.index t (0 : Fin 2) = 0
    ∧ win28_2.index t (1 : Fin 2) = win28_3.index t (1 : Fin 2)
    ∧ win28_3.index t (0 : Fin 2) ≤ 1
    ∧ win28_3.index t (1 : Fin 2) ≤ 1 :=
  (by decide +kernel : ∀ t : Fin grid28.N, _)

/-- Every block of the result is some grid point's. -/
theorem idx_onto : ∀ (q0 : Fin 2) (q1 : Fin 2), ∃ t : Fin cfg28.N, win28_3.index t = ![q0.val, q1.val] :=
  (by decide +kernel : ∀ (q0 : Fin 2) (q1 : Fin 2), ∃ t : Fin grid28.N, win28_3.index t = ![q0.val, q1.val])

/-- The whole-array function the region computes, of its operand arrays as it finds them. -/
def G (c : Dev nD) : S1024x1024.Idx → EReal :=
  dense (V c main_call0_v151) (V c main_call0_v153) (V c main_call0_v156)

/-- What grid point t writes back is block t of that function. -/
theorem flushed_eq (c : Dev nD) (t : Fin cfg28.N) :
    (dat28 (F := Ideal) V c).flushed 3 t = ((cfg28.win 3).blk t).view.read (Elt Ideal) (G V c) := by
  show (cfg28.win 3).cut (grid28.coords t) ((dat28 V c).after 3 t) = _
  rw [after28_3]
  unfold out28_3
  rw [View.canon_unit_zero hz]
  simp only [View.ld_unit_zero (S := S512x1024) hz, View.ld_unit_zero (S := S1024x512) hz, View.ld_unit_zero (S := S1x512) hz]
  rw [show ∀ x0 x1 x2, k28_pay1 (F := Ideal) x0 x1 x2 = dense x0 x1 x2 from Pay.pay0]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win28_3.index t (0 : Fin 2) * 512 + p.val := ⟨⟨_, by omega⟩, rfl⟩
  obtain ⟨jJ, hjJ⟩ : ∃ jJ : Fin 1024, jJ.val = win28_3.index t (1 : Fin 2) * 512 + q.val := ⟨⟨_, by omega⟩, rfl⟩
  have hemb : ((cfg28.win 3).blk t).view.emb (ix2 p q) = ix2 iI jJ := by
    funext a; apply Fin.ext
    match a with
    | ⟨0, _⟩ => show win28_3.index t (0 : Fin 2) * 512 + 1 * p.val = iI.val; omega
    | ⟨1, _⟩ => show win28_3.index t (1 : Fin 2) * 512 + 1 * q.val = jJ.val; omega
  show (dense (iblk28 V c 0 t) (iblk28 V c 1 t) (iblk28 V c 2 t)) (ix2 p q) = G V c (((cfg28.win 3).blk t).view.emb (ix2 p q))
  rw [hemb]
  unfold G
  refine dense_entry_congr (tm := 512) (k := 1024) (tn := 512) (M := 1024) (N := 1024) (iblk28 V c 0 t) (iblk28 V c 1 t) (iblk28 V c 2 t) (V c main_call0_v151) (V c main_call0_v153) (V c main_call0_v156) p q iI jJ (fun cc => ?_) (fun cc => ?_) ?_
  · show V c main_call0_v151 (((cfg28.win 0).blk t).view.emb (ix2 p cc)) = V c main_call0_v151 (ix2 iI cc)
    refine congrArg (V c main_call0_v151) (funext fun a => Fin.ext ?_)
    match a with
    | ⟨0, _⟩ => show win28_0.index t (0 : Fin 2) * 512 + 1 * p.val = iI.val; omega
    | ⟨1, _⟩ => show win28_0.index t (1 : Fin 2) * 1024 + 1 * cc.val = cc.val; omega
  · show V c main_call0_v153 (((cfg28.win 1).blk t).view.emb (ix2 cc q)) = V c main_call0_v153 (ix2 cc jJ)
    refine congrArg (V c main_call0_v153) (funext fun a => Fin.ext ?_)
    match a with
    | ⟨0, _⟩ => show win28_1.index t (0 : Fin 2) * 1024 + 1 * cc.val = cc.val; omega
    | ⟨1, _⟩ => show win28_1.index t (1 : Fin 2) * 512 + 1 * q.val = jJ.val; omega
  · show V c main_call0_v156 (((cfg28.win 2).blk t).view.emb (ix2 (0 : Fin 1) q)) = V c main_call0_v156 (ix2 (0 : Fin 1) jJ)
    refine congrArg (V c main_call0_v156) (funext fun a => Fin.ext ?_)
    match a with
    | ⟨0, _⟩ => show win28_2.index t (0 : Fin 2) * 1 + 1 * 0 = 0; omega
    | ⟨1, _⟩ => show win28_2.index t (1 : Fin 2) * 512 + 1 * q.val = jJ.val; omega

/-- An index of the result array is in point t's block iff each coordinate is in the block's range on its axis. -/
theorem mem_blk (t : Fin cfg28.N) (i : S1024x1024.Idx) :
    i ∈ ((cfg28.win 3).blk t).view.set ↔ ∀ a : Fin 2, win28_3.index t a * S512x512.size a ≤ (i a).val ∧ (i a).val < win28_3.index t a * S512x512.size a + S512x512.size a := by
  show i ∈ ((View.whole main_call0_v157).slice (win28_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg28.N, (cfg28.win 3).flush t = true ∧ i ∈ ((cfg28.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win28_3.index t (0 : Fin 2) = (i 0).val / 512 := congrFun ht 0
  have q1 : win28_3.index t (1 : Fin 2) = (i 1).val / 512 := congrFun ht 1
  refine ⟨t, flush28_3 t, ?_⟩
  rw [mem_blk]
  intro a
  match a with
  | ⟨0, _⟩ => show win28_3.index t (0 : Fin 2) * 512 ≤ (i 0).val ∧ (i 0).val < win28_3.index t (0 : Fin 2) * 512 + 512; omega
  | ⟨1, _⟩ => show win28_3.index t (1 : Fin 2) * 512 ≤ (i 1).val ∧ (i 1).val < win28_3.index t (1 : Fin 2) * 512 + 512; omega

/-- The result array after the region. -/
theorem arr (c : Dev nD) : (dat28 (F := Ideal) V c).arrAt 3 cfg28.N = G V c :=
  (dat28 (F := Ideal) V c).arrAt_eq_of_cover 3 (G V c) (fun t _ => flushed_eq V c t) cover

end Cert.KernelIdeal.Reg28

end
-- ==== Proof.Reg29.lean ====
/-
  Region 29: the array it leaves.

  The region tiles a [1024, 1024] result into 2 by 2 blocks of [512, 512] and computes a dense layer. The block at
  (I, J) is computed from rows I*512 .. of the row operands (all 1024 columns), columns J*512 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg29

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg29.N,
    win29_0.index t (0 : Fin 2) = win29_3.index t (0 : Fin 2)
    ∧ win29_0.index t (1 : Fin 2) = 0
    ∧ win29_1.index t (0 : Fin 2) = 0
    ∧ win29_1.index t (1 : Fin 2) = win29_3.index t (1 : Fin 2)
    ∧ win29_2.index t (0 : Fin 2) = 0
    ∧ win29_2.index t (1 : Fin 2) = win29_3.index t (1 : Fin 2)
    ∧ win29_3.index t (0 : Fin 2) ≤ 1
    ∧ win29_3.index t (1 : Fin 2) ≤ 1 :=
  (by decide +kernel : ∀ t : Fin grid29.N, _)

/-- Every block of the result is some grid point's. -/
theorem idx_onto : ∀ (q0 : Fin 2) (q1 : Fin 2), ∃ t : Fin cfg29.N, win29_3.index t = ![q0.val, q1.val] :=
  (by decide +kernel : ∀ (q0 : Fin 2) (q1 : Fin 2), ∃ t : Fin grid29.N, win29_3.index t = ![q0.val, q1.val])

/-- The whole-array function the region computes, of its operand arrays as it finds them. -/
def G (c : Dev nD) : S1024x1024.Idx → EReal :=
  dense (V c main_call0_v159) (V c main_call0_v161) (V c main_call0_v164)

/-- What grid point t writes back is block t of that function. -/
theorem flushed_eq (c : Dev nD) (t : Fin cfg29.N) :
    (dat29 (F := Ideal) V c).flushed 3 t = ((cfg29.win 3).blk t).view.read (Elt Ideal) (G V c) := by
  show (cfg29.win 3).cut (grid29.coords t) ((dat29 V c).after 3 t) = _
  rw [after29_3]
  unfold out29_3
  rw [View.canon_unit_zero hz]
  simp only [View.ld_unit_zero (S := S512x1024) hz, View.ld_unit_zero (S := S1024x512) hz, View.ld_unit_zero (S := S1x512) hz]
  rw [show ∀ x0 x1 x2, k29_pay1 (F := Ideal) x0 x1 x2 = dense x0 x1 x2 from Pay.pay0]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win29_3.index t (0 : Fin 2) * 512 + p.val := ⟨⟨_, by omega⟩, rfl⟩
  obtain ⟨jJ, hjJ⟩ : ∃ jJ : Fin 1024, jJ.val = win29_3.index t (1 : Fin 2) * 512 + q.val := ⟨⟨_, by omega⟩, rfl⟩
  have hemb : ((cfg29.win 3).blk t).view.emb (ix2 p q) = ix2 iI jJ := by
    funext a; apply Fin.ext
    match a with
    | ⟨0, _⟩ => show win29_3.index t (0 : Fin 2) * 512 + 1 * p.val = iI.val; omega
    | ⟨1, _⟩ => show win29_3.index t (1 : Fin 2) * 512 + 1 * q.val = jJ.val; omega
  show (dense (iblk29 V c 0 t) (iblk29 V c 1 t) (iblk29 V c 2 t)) (ix2 p q) = G V c (((cfg29.win 3).blk t).view.emb (ix2 p q))
  rw [hemb]
  unfold G
  refine dense_entry_congr (tm := 512) (k := 1024) (tn := 512) (M := 1024) (N := 1024) (iblk29 V c 0 t) (iblk29 V c 1 t) (iblk29 V c 2 t) (V c main_call0_v159) (V c main_call0_v161) (V c main_call0_v164) p q iI jJ (fun cc => ?_) (fun cc => ?_) ?_
  · show V c main_call0_v159 (((cfg29.win 0).blk t).view.emb (ix2 p cc)) = V c main_call0_v159 (ix2 iI cc)
    refine congrArg (V c main_call0_v159) (funext fun a => Fin.ext ?_)
    match a with
    | ⟨0, _⟩ => show win29_0.index t (0 : Fin 2) * 512 + 1 * p.val = iI.val; omega
    | ⟨1, _⟩ => show win29_0.index t (1 : Fin 2) * 1024 + 1 * cc.val = cc.val; omega
  · show V c main_call0_v161 (((cfg29.win 1).blk t).view.emb (ix2 cc q)) = V c main_call0_v161 (ix2 cc jJ)
    refine congrArg (V c main_call0_v161) (funext fun a => Fin.ext ?_)
    match a with
    | ⟨0, _⟩ => show win29_1.index t (0 : Fin 2) * 1024 + 1 * cc.val = cc.val; omega
    | ⟨1, _⟩ => show win29_1.index t (1 : Fin 2) * 512 + 1 * q.val = jJ.val; omega
  · show V c main_call0_v164 (((cfg29.win 2).blk t).view.emb (ix2 (0 : Fin 1) q)) = V c main_call0_v164 (ix2 (0 : Fin 1) jJ)
    refine congrArg (V c main_call0_v164) (funext fun a => Fin.ext ?_)
    match a with
    | ⟨0, _⟩ => show win29_2.index t (0 : Fin 2) * 1 + 1 * 0 = 0; omega
    | ⟨1, _⟩ => show win29_2.index t (1 : Fin 2) * 512 + 1 * q.val = jJ.val; omega

/-- An index of the result array is in point t's block iff each coordinate is in the block's range on its axis. -/
theorem mem_blk (t : Fin cfg29.N) (i : S1024x1024.Idx) :
    i ∈ ((cfg29.win 3).blk t).view.set ↔ ∀ a : Fin 2, win29_3.index t a * S512x512.size a ≤ (i a).val ∧ (i a).val < win29_3.index t a * S512x512.size a + S512x512.size a := by
  show i ∈ ((View.whole main_call0_v165).slice (win29_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg29.N, (cfg29.win 3).flush t = true ∧ i ∈ ((cfg29.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win29_3.index t (0 : Fin 2) = (i 0).val / 512 := congrFun ht 0
  have q1 : win29_3.index t (1 : Fin 2) = (i 1).val / 512 := congrFun ht 1
  refine ⟨t, flush29_3 t, ?_⟩
  rw [mem_blk]
  intro a
  match a with
  | ⟨0, _⟩ => show win29_3.index t (0 : Fin 2) * 512 ≤ (i 0).val ∧ (i 0).val < win29_3.index t (0 : Fin 2) * 512 + 512; omega
  | ⟨1, _⟩ => show win29_3.index t (1 : Fin 2) * 512 ≤ (i 1).val ∧ (i 1).val < win29_3.index t (1 : Fin 2) * 512 + 512; omega

/-- The result array after the region. -/
theorem arr (c : Dev nD) : (dat29 (F := Ideal) V c).arrAt 3 cfg29.N = G V c :=
  (dat29 (F := Ideal) V c).arrAt_eq_of_cover 3 (G V c) (fun t _ => flushed_eq V c t) cover

end Cert.KernelIdeal.Reg29

end
-- ==== Proof.Reg30.lean ====
/-
  Region 30: the array it leaves.

  The region tiles a [1024, 4096] result into 2 by 4 blocks of [512, 1024] and computes the sigmoid of two products' sum plus a bias row. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg30

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg30.N,
    win30_0.index t (0 : Fin 2) = win30_5.index t (0 : Fin 2)
    ∧ win30_0.index t (1 : Fin 2) = 0
    ∧ win30_1.index t (0 : Fin 2) = 0
    ∧ win30_1.index t (1 : Fin 2) = win30_5.index t (1 : Fin 2)
    ∧ win30_2.index t (0 : Fin 2) = win30_5.index t (0 : Fin 2)
    ∧ win30_2.index t (1 : Fin 2) = 0
    ∧ win30_3.index t (0 : Fin 2) = 0
    ∧ win30_3.index t (1 : Fin 2) = win30_5.index t (1 : Fin 2)
    ∧ win30_4.index t (0 : Fin 2) = 0
    ∧ win30_4.index t (1 : Fin 2) = win30_5.index t (1 : Fin 2)
    ∧ win30_5.index t (0 : Fin 2) ≤ 1
    ∧ win30_5.index t (1 : Fin 2) ≤ 3 :=
  (by decide +kernel : ∀ t : Fin grid30.N, _)

/-- Every block of the result is some grid point's. -/
theorem idx_onto : ∀ (q0 : Fin 2) (q1 : Fin 4), ∃ t : Fin cfg30.N, win30_5.index t = ![q0.val, q1.val] :=
  (by decide +kernel : ∀ (q0 : Fin 2) (q1 : Fin 4), ∃ t : Fin grid30.N, win30_5.index t = ![q0.val, q1.val])

/-- The whole-array function the region computes, of its operand arrays as it finds them. -/
def G (c : Dev nD) : S1024x4096.Idx → EReal :=
  logistic (F := Ideal) (φ := .f32) (gatePre (V c main_call0_v157) (V c main_call0_v73) (V c main_call0_v165) (V c main_call0_v89) (V c main_call0_v168))

/-- What grid point t writes back is block t of that function. -/
theorem flushed_eq (c : Dev nD) (t : Fin cfg30.N) :
    (dat30 (F := Ideal) V c).flushed 5 t = ((cfg30.win 5).blk t).view.read (Elt Ideal) (G V c) := by
  show (cfg30.win 5).cut (grid30.coords t) ((dat30 V c).after 5 t) = _
  rw [after30_5]
  unfold out30_5
  rw [View.canon_unit_zero hz]
  simp only [View.ld_unit_zero (S := S512x1024) hz, View.ld_unit_zero (S := S1024x1024) hz, View.ld_unit_zero (S := S1x1024) hz]
  rw [show ∀ x0 x1 x2 x3 x4, k30_pay1 (F := Ideal) x0 x1 x2 x3 x4 = logistic (F := Ideal) (φ := .f32) (gatePre x0 x1 x2 x3 x4) from Pay.pay21]
  obtain ⟨e0, e1, e2, e3, e4, e5, e6, e7, e8, e9, e10, e11⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win30_5.index t (0 : Fin 2) * 512 + p.val := ⟨⟨_, by omega⟩, rfl⟩
  obtain ⟨jJ, hjJ⟩ : ∃ jJ : Fin 4096, jJ.val = win30_5.index t (1 : Fin 2) * 1024 + q.val := ⟨⟨_, by omega⟩, rfl⟩
  have hemb : ((cfg30.win 5).blk t).view.emb (ix2 p q) = ix2 iI jJ := by
    funext a; apply Fin.ext
    match a with
    | ⟨0, _⟩ => show win30_5.index t (0 : Fin 2) * 512 + 1 * p.val = iI.val; omega
    | ⟨1, _⟩ => show win30_5.index t (1 : Fin 2) * 1024 + 1 * q.val = jJ.val; omega
  show (logistic (F := Ideal) (φ := .f32) (gatePre (iblk30 V c 0 t) (iblk30 V c 1 t) (iblk30 V c 2 t) (iblk30 V c 3 t) (iblk30 V c 4 t))) (ix2 p q) = G V c (((cfg30.win 5).blk t).view.emb (ix2 p q))
  rw [hemb]
  unfold G
  refine congrArg Ideal.logistic ?_
  refine gatePre_entry_congr (tm := 512) (k := 1024) (tn := 1024) (M := 1024) (N := 4096) (iblk30 V c 0 t) (iblk30 V c 1 t) (iblk30 V c 2 t) (iblk30 V c 3 t) (iblk30 V c 4 t) (V c main_call0_v157) (V c main_call0_v73) (V c main_call0_v165) (V c main_call0_v89) (V c main_call0_v168) p q iI jJ (fun cc => ?_) (fun cc => ?_) (fun cc => ?_) (fun cc => ?_) ?_
  · show V c main_call0_v157 (((cfg30.win 0).blk t).view.emb (ix2 p cc)) = V c main_call0_v157 (ix2 iI cc)
    refine congrArg (V c main_call0_v157) (funext fun a => Fin.ext ?_)
    match a with
    | ⟨0, _⟩ => show win30_0.index t (0 : Fin 2) * 512 + 1 * p.val = iI.val; omega
    | ⟨1, _⟩ => show win30_0.index t (1 : Fin 2) * 1024 + 1 * cc.val = cc.val; omega
  · show V c main_call0_v73 (((cfg30.win 1).blk t).view.emb (ix2 cc q)) = V c main_call0_v73 (ix2 cc jJ)
    refine congrArg (V c main_call0_v73) (funext fun a => Fin.ext ?_)
    match a with
    | ⟨0, _⟩ => show win30_1.index t (0 : Fin 2) * 1024 + 1 * cc.val = cc.val; omega
    | ⟨1, _⟩ => show win30_1.index t (1 : Fin 2) * 1024 + 1 * q.val = jJ.val; omega
  · show V c main_call0_v165 (((cfg30.win 2).blk t).view.emb (ix2 p cc)) = V c main_call0_v165 (ix2 iI cc)
    refine congrArg (V c main_call0_v165) (funext fun a => Fin.ext ?_)
    match a with
    | ⟨0, _⟩ => show win30_2.index t (0 : Fin 2) * 512 + 1 * p.val = iI.val; omega
    | ⟨1, _⟩ => show win30_2.index t (1 : Fin 2) * 1024 + 1 * cc.val = cc.val; omega
  · show V c main_call0_v89 (((cfg30.win 3).blk t).view.emb (ix2 cc q)) = V c main_call0_v89 (ix2 cc jJ)
    refine congrArg (V c main_call0_v89) (funext fun a => Fin.ext ?_)
    match a with
    | ⟨0, _⟩ => show win30_3.index t (0 : Fin 2) * 1024 + 1 * cc.val = cc.val; omega
    | ⟨1, _⟩ => show win30_3.index t (1 : Fin 2) * 1024 + 1 * q.val = jJ.val; omega
  · show V c main_call0_v168 (((cfg30.win 4).blk t).view.emb (ix2 (0 : Fin 1) q)) = V c main_call0_v168 (ix2 (0 : Fin 1) jJ)
    refine congrArg (V c main_call0_v168) (funext fun a => Fin.ext ?_)
    match a with
    | ⟨0, _⟩ => show win30_4.index t (0 : Fin 2) * 1 + 1 * 0 = 0; omega
    | ⟨1, _⟩ => show win30_4.index t (1 : Fin 2) * 1024 + 1 * q.val = jJ.val; omega

/-- An index of the result array is in point t's block iff each coordinate is in the block's range on its axis. -/
theorem mem_blk (t : Fin cfg30.N) (i : S1024x4096.Idx) :
    i ∈ ((cfg30.win 5).blk t).view.set ↔ ∀ a : Fin 2, win30_5.index t a * S512x1024.size a ≤ (i a).val ∧ (i a).val < win30_5.index t a * S512x1024.size a + S512x1024.size a := by
  show i ∈ ((View.whole main_v0_0).slice (win30_5.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg30.N, (cfg30.win 5).flush t = true ∧ i ∈ ((cfg30.win 5).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win30_5.index t (0 : Fin 2) = (i 0).val / 512 := congrFun ht 0
  have q1 : win30_5.index t (1 : Fin 2) = (i 1).val / 1024 := congrFun ht 1
  refine ⟨t, flush30_5 t, ?_⟩
  rw [mem_blk]
  intro a
  match a with
  | ⟨0, _⟩ => show win30_5.index t (0 : Fin 2) * 512 ≤ (i 0).val ∧ (i 0).val < win30_5.index t (0 : Fin 2) * 512 + 512; omega
  | ⟨1, _⟩ => show win30_5.index t (1 : Fin 2) * 1024 ≤ (i 1).val ∧ (i 1).val < win30_5.index t (1 : Fin 2) * 1024 + 1024; omega

/-- The result array after the region. -/
theorem arr (c : Dev nD) : (dat30 (F := Ideal) V c).arrAt 5 cfg30.N = G V c :=
  (dat30 (F := Ideal) V c).arrAt_eq_of_cover 5 (G V c) (fun t _ => flushed_eq V c t) cover

end Cert.KernelIdeal.Reg30

end
-- ==== Proof.Reg31.lean ====
/-
  Region 31: the array it leaves.

  The region tiles a [1024, 4096] result into 2 by 4 blocks of [512, 1024] and computes a dense layer. The block at
  (I, J) is computed from rows I*512 .. of the row operands (all 1024 columns), columns J*1024 .. of the column operands
  (all 1024 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg31

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 4 box. -/
theorem idx_facts : ∀ t : Fin cfg31.N,
    win31_0.index t (0 : Fin 2) = win31_3.index t (0 : Fin 2)
    ∧ win31_0.index t (1 : Fin 2) = 0
    ∧ win31_1.index t (0 : Fin 2) = 0
    ∧ win31_1.index t (1 : Fin 2) = win31_3.index t (1 : Fin 2)
    ∧ win31_2.index t (0 : Fin 2) = 0
    ∧ win31_2.index t (1 : Fin 2) = win31_3.index t (1 : Fin 2)
    ∧ win31_3.index t (0 : Fin 2) ≤ 1
    ∧ win31_3.index t (1 : Fin 2) ≤ 3 :=
  (by decide +kernel : ∀ t : Fin grid31.N, _)

/-- Every block of the result is some grid point's. -/
theorem idx_onto : ∀ (q0 : Fin 2) (q1 : Fin 4), ∃ t : Fin cfg31.N, win31_3.index t = ![q0.val, q1.val] :=
  (by decide +kernel : ∀ (q0 : Fin 2) (q1 : Fin 4), ∃ t : Fin grid31.N, win31_3.index t = ![q0.val, q1.val])

/-- The whole-array function the region computes, of its operand arrays as it finds them. -/
def G (c : Dev nD) : S1024x4096.Idx → EReal :=
  dense (V c main_call0_v12) (V c main_call0_v8) (V c main_call0_v170)

/-- What grid point t writes back is block t of that function. -/
theorem flushed_eq (c : Dev nD) (t : Fin cfg31.N) :
    (dat31 (F := Ideal) V c).flushed 3 t = ((cfg31.win 3).blk t).view.read (Elt Ideal) (G V c) := by
  show (cfg31.win 3).cut (grid31.coords t) ((dat31 V c).after 3 t) = _
  rw [after31_3]
  unfold out31_3
  rw [View.canon_unit_zero hz]
  simp only [View.ld_unit_zero (S := S512x1024) hz, View.ld_unit_zero (S := S1024x1024) hz, View.ld_unit_zero (S := S1x1024) hz]
  rw [show ∀ x0 x1 x2, k31_pay1 (F := Ideal) x0 x1 x2 = dense x0 x1 x2 from Pay.pay31]
  obtain ⟨e0, e1, e2, e3, e4, e5, e6, e7⟩ := idx_facts t
  funext j
  obtain ⟨p, q, rfl⟩ : ∃ (p : Fin 512) (q : Fin 1024), j = ix2 p q := ⟨j 0, j 1, eq_ix2 j⟩
  have hp := p.isLt
  have hq := q.isLt
  obtain ⟨iI, hiI⟩ : ∃ iI : Fin 1024, iI.val = win31_3.index t (0 : Fin 2) * 512 + p.val := ⟨⟨_, by omega⟩, rfl⟩
  obtain ⟨jJ, hjJ⟩ : ∃ jJ : Fin 4096, jJ.val = win31_3.index t (1 : Fin 2) * 1024 + q.val := ⟨⟨_, by omega⟩, rfl⟩
  have hemb : ((cfg31.win 3).blk t).view.emb (ix2 p q) = ix2 iI jJ := by
    funext a; apply Fin.ext
    match a with
    | ⟨0, _⟩ => show win31_3.index t (0 : Fin 2) * 512 + 1 * p.val = iI.val; omega
    | ⟨1, _⟩ => show win31_3.index t (1 : Fin 2) * 1024 + 1 * q.val = jJ.val; omega
  show (dense (iblk31 V c 0 t) (iblk31 V c 1 t) (iblk31 V c 2 t)) (ix2 p q) = G V c (((cfg31.win 3).blk t).view.emb (ix2 p q))
  rw [hemb]
  unfold G
  refine dense_entry_congr (tm := 512) (k := 1024) (tn := 1024) (M := 1024) (N := 4096) (iblk31 V c 0 t) (iblk31 V c 1 t) (iblk31 V c 2 t) (V c main_call0_v12) (V c main_call0_v8) (V c main_call0_v170) p q iI jJ (fun cc => ?_) (fun cc => ?_) ?_
  · show V c main_call0_v12 (((cfg31.win 0).blk t).view.emb (ix2 p cc)) = V c main_call0_v12 (ix2 iI cc)
    refine congrArg (V c main_call0_v12) (funext fun a => Fin.ext ?_)
    match a with
    | ⟨0, _⟩ => show win31_0.index t (0 : Fin 2) * 512 + 1 * p.val = iI.val; omega
    | ⟨1, _⟩ => show win31_0.index t (1 : Fin 2) * 1024 + 1 * cc.val = cc.val; omega
  · show V c main_call0_v8 (((cfg31.win 1).blk t).view.emb (ix2 cc q)) = V c main_call0_v8 (ix2 cc jJ)
    refine congrArg (V c main_call0_v8) (funext fun a => Fin.ext ?_)
    match a with
    | ⟨0, _⟩ => show win31_1.index t (0 : Fin 2) * 1024 + 1 * cc.val = cc.val; omega
    | ⟨1, _⟩ => show win31_1.index t (1 : Fin 2) * 1024 + 1 * q.val = jJ.val; omega
  · show V c main_call0_v170 (((cfg31.win 2).blk t).view.emb (ix2 (0 : Fin 1) q)) = V c main_call0_v170 (ix2 (0 : Fin 1) jJ)
    refine congrArg (V c main_call0_v170) (funext fun a => Fin.ext ?_)
    match a with
    | ⟨0, _⟩ => show win31_2.index t (0 : Fin 2) * 1 + 1 * 0 = 0; omega
    | ⟨1, _⟩ => show win31_2.index t (1 : Fin 2) * 1024 + 1 * q.val = jJ.val; omega

/-- An index of the result array is in point t's block iff each coordinate is in the block's range on its axis. -/
theorem mem_blk (t : Fin cfg31.N) (i : S1024x4096.Idx) :
    i ∈ ((cfg31.win 3).blk t).view.set ↔ ∀ a : Fin 2, win31_3.index t a * S512x1024.size a ≤ (i a).val ∧ (i a).val < win31_3.index t a * S512x1024.size a + S512x1024.size a := by
  show i ∈ ((View.whole main_call0_v171).slice (win31_3.rect t)).set ↔ _
  rw [View.set_slice_whole, Rect.mem_set_unit]
  exact Iff.rfl

/-- The blocks tile the result: the point that covers (i, j) is the one at block (i / 512, j / 1024). -/
theorem cover (i : S1024x4096.Idx) : ∃ t : Fin cfg31.N, (cfg31.win 3).flush t = true ∧ i ∈ ((cfg31.win 3).blk t).view.set := by
  have hi0 : (i 0).val < 1024 := (i 0).isLt
  have hi1 : (i 1).val < 4096 := (i 1).isLt
  obtain ⟨t, ht⟩ := idx_onto ⟨(i 0).val / 512, by omega⟩ ⟨(i 1).val / 1024, by omega⟩
  have q0 : win31_3.index t (0 : Fin 2) = (i 0).val / 512 := congrFun ht 0
  have q1 : win31_3.index t (1 : Fin 2) = (i 1).val / 1024 := congrFun ht 1
  refine ⟨t, flush31_3 t, ?_⟩
  rw [mem_blk]
  intro a
  match a with
  | ⟨0, _⟩ => show win31_3.index t (0 : Fin 2) * 512 ≤ (i 0).val ∧ (i 0).val < win31_3.index t (0 : Fin 2) * 512 + 512; omega
  | ⟨1, _⟩ => show win31_3.index t (1 : Fin 2) * 1024 ≤ (i 1).val ∧ (i 1).val < win31_3.index t (1 : Fin 2) * 1024 + 1024; omega

/-- The result array after the region. -/
theorem arr (c : Dev nD) : (dat31 (F := Ideal) V c).arrAt 3 cfg31.N = G V c :=
  (dat31 (F := Ideal) V c).arrAt_eq_of_cover 3 (G V c) (fun t _ => flushed_eq V c t) cover

end Cert.KernelIdeal.Reg31

end
-- ==== Proof.Reg32.lean ====
/-
  Region 32: the array it leaves.

  The region tiles a [1024, 1024] result into 2 by 2 blocks of [512, 512] and computes a dense layer. The block at
  (I, J) is computed from rows I*512 .. of the row operands (all 4096 columns), columns J*512 .. of the column operands
  (all 4096 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg32

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg32.N,
    win32_0.index t (0 : Fin 2) = win32_3.index t (0 : Fin 2)
    ∧ win32_0.index t (1 : Fin 2) = 0
    ∧ win32_1.index t (0 : Fin 2) = 0
    ∧ win32_1.index t (1 : Fin 2) = win32_3.index t (1 : Fin 2)
    ∧ win32_2.index t (0 : Fin 2) = 0
    ∧ win32_2.index t (1 : Fin 2) = win32_3.index t (1 : Fin 2)
    ∧ win32_3.index t (0 : Fin 2) ≤ 1
    ∧ win32_3.index t (1 : Fin 2) ≤ 1 :=
  (by decide +kernel : ∀ t : Fin grid32.N, _)

/-- Every block of the result is some grid point's. -/
theorem idx_onto : ∀ (q0 : Fin 2) (q1 : Fin 2), ∃ t : Fin cfg32.N, win32_3.index t = ![q0.val, q1.val] :=
  (by decide +kernel : ∀ (q0 : Fin 2) (q1 : Fin 2), ∃ t : Fin grid32.N, win32_3.index t = ![q0.val, q1.val])

/-- The whole-array function the region computes, of its operand arrays as it finds them. -/
def G (c : Dev nD) : S1024x1024.Idx → EReal :=
  dense (V c main_call0_v177) (V c main_call0_v7) (V c main_call0_v179)

/-- What grid point t writes back is block t of that function. -/
theorem flushed_eq (c : Dev nD) (t : Fin cfg32.N) :
    (dat32 (F := Ideal) V c).flushed 3 t = ((cfg32.win 3).blk t).view.read (Elt Ideal) (G V c) := by
  show (cfg32.win 3).cut (grid32.coords t) ((dat32 V c).after 3 t) = _
  rw [after32_3]
  unfold out32_3
  rw [View.canon_unit_zero hz]
  simp only [View.ld_unit_zero (S := S512x4096) hz, View.ld_unit_zero (S := S4096x512) hz, View.ld_unit_zero (S := S1x512) hz]
  rw [show ∀ x0 x1 x2, k32_pay1 (F := Ideal) x0 x1 x2 = dense x0 x1 x2 from Pay.pay32]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win32_3.index t (0 : Fin 2) * 512 + p.val := ⟨⟨_, by omega⟩, rfl⟩
  obtain ⟨jJ, hjJ⟩ : ∃ jJ : Fin 1024, jJ.val = win32_3.index t (1 : Fin 2) * 512 + q.val := ⟨⟨_, by omega⟩, rfl⟩
  have hemb : ((cfg32.win 3).blk t).view.emb (ix2 p q) = ix2 iI jJ := by
    funext a; apply Fin.ext
    match a with
    | ⟨0, _⟩ => show win32_3.index t (0 : Fin 2) * 512 + 1 * p.val = iI.val; omega
    | ⟨1, _⟩ => show win32_3.index t (1 : Fin 2) * 512 + 1 * q.val = jJ.val; omega
  show (dense (iblk32 V c 0 t) (iblk32 V c 1 t) (iblk32 V c 2 t)) (ix2 p q) = G V c (((cfg32.win 3).blk t).view.emb (ix2 p q))
  rw [hemb]
  unfold G
  refine dense_entry_congr (tm := 512) (k := 4096) (tn := 512) (M := 1024) (N := 1024) (iblk32 V c 0 t) (iblk32 V c 1 t) (iblk32 V c 2 t) (V c main_call0_v177) (V c main_call0_v7) (V c main_call0_v179) p q iI jJ (fun cc => ?_) (fun cc => ?_) ?_
  · show V c main_call0_v177 (((cfg32.win 0).blk t).view.emb (ix2 p cc)) = V c main_call0_v177 (ix2 iI cc)
    refine congrArg (V c main_call0_v177) (funext fun a => Fin.ext ?_)
    match a with
    | ⟨0, _⟩ => show win32_0.index t (0 : Fin 2) * 512 + 1 * p.val = iI.val; omega
    | ⟨1, _⟩ => show win32_0.index t (1 : Fin 2) * 4096 + 1 * cc.val = cc.val; omega
  · show V c main_call0_v7 (((cfg32.win 1).blk t).view.emb (ix2 cc q)) = V c main_call0_v7 (ix2 cc jJ)
    refine congrArg (V c main_call0_v7) (funext fun a => Fin.ext ?_)
    match a with
    | ⟨0, _⟩ => show win32_1.index t (0 : Fin 2) * 4096 + 1 * cc.val = cc.val; omega
    | ⟨1, _⟩ => show win32_1.index t (1 : Fin 2) * 512 + 1 * q.val = jJ.val; omega
  · show V c main_call0_v179 (((cfg32.win 2).blk t).view.emb (ix2 (0 : Fin 1) q)) = V c main_call0_v179 (ix2 (0 : Fin 1) jJ)
    refine congrArg (V c main_call0_v179) (funext fun a => Fin.ext ?_)
    match a with
    | ⟨0, _⟩ => show win32_2.index t (0 : Fin 2) * 1 + 1 * 0 = 0; omega
    | ⟨1, _⟩ => show win32_2.index t (1 : Fin 2) * 512 + 1 * q.val = jJ.val; omega

/-- An index of the result array is in point t's block iff each coordinate is in the block's range on its axis. -/
theorem mem_blk (t : Fin cfg32.N) (i : S1024x1024.Idx) :
    i ∈ ((cfg32.win 3).blk t).view.set ↔ ∀ a : Fin 2, win32_3.index t a * S512x512.size a ≤ (i a).val ∧ (i a).val < win32_3.index t a * S512x512.size a + S512x512.size a := by
  show i ∈ ((View.whole main_v0_1).slice (win32_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg32.N, (cfg32.win 3).flush t = true ∧ i ∈ ((cfg32.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win32_3.index t (0 : Fin 2) = (i 0).val / 512 := congrFun ht 0
  have q1 : win32_3.index t (1 : Fin 2) = (i 1).val / 512 := congrFun ht 1
  refine ⟨t, flush32_3 t, ?_⟩
  rw [mem_blk]
  intro a
  match a with
  | ⟨0, _⟩ => show win32_3.index t (0 : Fin 2) * 512 ≤ (i 0).val ∧ (i 0).val < win32_3.index t (0 : Fin 2) * 512 + 512; omega
  | ⟨1, _⟩ => show win32_3.index t (1 : Fin 2) * 512 ≤ (i 1).val ∧ (i 1).val < win32_3.index t (1 : Fin 2) * 512 + 512; omega

/-- The result array after the region. -/
theorem arr (c : Dev nD) : (dat32 (F := Ideal) V c).arrAt 3 cfg32.N = G V c :=
  (dat32 (F := Ideal) V c).arrAt_eq_of_cover 3 (G V c) (fun t _ => flushed_eq V c t) cover

end Cert.KernelIdeal.Reg32

end
-- ==== Proof.Reg33.lean ====
/-
  Region 33: the array it leaves.

  The region tiles a [1024, 1024] result into 2 by 2 blocks of [512, 512] and computes a dense layer. The block at
  (I, J) is computed from rows I*512 .. of the row operands (all 4096 columns), columns J*512 .. of the column operands
  (all 4096 rows) and the same columns of the bias row; entry (i, j) of the whole-array result depends on row i, column j
  and bias entry j only. So every block is the block of one whole-array function of the operands, and since the blocks
  tile the result, the result array ends as that function.
-/
import proofs.«113209_j26568667693302_2_alg».proof.Proof.Gen.KernelIdeal.Frame
import proofs.«113209_j26568667693302_2_alg».proof.Proof.Payloads
import Idealize.ShloMosaic.Lib.Pipeline.Value
import Idealize.ShloMosaic.Lib.ValueIdx

set_option maxRecDepth 16384

noncomputable section

namespace Cert.KernelIdeal.Reg33

open Cert.KernelIdeal Cert.KernelIdeal.Gen Idealize.ShloMosaic Idealize.ShloMosaic.TcCoe Idealize.ShloMosaic.ValueIdx
open Idealize.SL.Sem Cert.LibDense
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: a row operand's block moves with the result's row block at column block 0, a
    column operand's and the bias row's with the result's column block at row block 0, and the result's block
    indices stay inside the 2 by 2 box. -/
theorem idx_facts : ∀ t : Fin cfg33.N,
    win33_0.index t (0 : Fin 2) = win33_3.index t (0 : Fin 2)
    ∧ win33_0.index t (1 : Fin 2) = 0
    ∧ win33_1.index t (0 : Fin 2) = 0
    ∧ win33_1.index t (1 : Fin 2) = win33_3.index t (1 : Fin 2)
    ∧ win33_2.index t (0 : Fin 2) = 0
    ∧ win33_2.index t (1 : Fin 2) = win33_3.index t (1 : Fin 2)
    ∧ win33_3.index t (0 : Fin 2) ≤ 1
    ∧ win33_3.index t (1 : Fin 2) ≤ 1 :=
  (by decide +kernel : ∀ t : Fin grid33.N, _)

/-- Every block of the result is some grid point's. -/
theorem idx_onto : ∀ (q0 : Fin 2) (q1 : Fin 2), ∃ t : Fin cfg33.N, win33_3.index t = ![q0.val, q1.val] :=
  (by decide +kernel : ∀ (q0 : Fin 2) (q1 : Fin 2), ∃ t : Fin grid33.N, win33_3.index t = ![q0.val, q1.val])

/-- The whole-array function the region computes, of its operand arrays as it finds them. -/
def G (c : Dev nD) : S1024x1024.Idx → EReal :=
  dense (V c main_call0_v178) (V c main_call0_v9) (V c main_call0_v181)

/-- What grid point t writes back is block t of that function. -/
theorem flushed_eq (c : Dev nD) (t : Fin cfg33.N) :
    (dat33 (F := Ideal) V c).flushed 3 t = ((cfg33.win 3).blk t).view.read (Elt Ideal) (G V c) := by
  show (cfg33.win 3).cut (grid33.coords t) ((dat33 V c).after 3 t) = _
  rw [after33_3]
  unfold out33_3
  rw [View.canon_unit_zero hz]
  simp only [View.ld_unit_zero (S := S512x4096) hz, View.ld_unit_zero (S := S4096x512) hz, View.ld_unit_zero (S := S1x512) hz]
  rw [show ∀ x0 x1 x2, k33_pay1 (F := Ideal) x0 x1 x2 = dense x0 x1 x2 from Pay.pay32]
  obtain ⟨e0, e1, e2, e3, e4, e5, e6, e7⟩ := idx_facts t
  funext j
  obtain ⟨p, q, rfl⟩ : ∃ (p : Fin 512) (q : Fin 512), j = ix2 p q := ⟨j 0, j 1, eq_ix2 j⟩
  have hp := p.isLt
  have hq := q.isLt
  obtain ⟨iI, hiI⟩ : ∃ iI : Fin 1024, iI.val = win33_3.index t (0 : Fin 2) * 512 + p.val := ⟨⟨_, by omega⟩, rfl⟩
  obtain ⟨jJ, hjJ⟩ : ∃ jJ : Fin 1024, jJ.val = win33_3.index t (1 : Fin 2) * 512 + q.val := ⟨⟨_, by omega⟩, rfl⟩
  have hemb : ((cfg33.win 3).blk t).view.emb (ix2 p q) = ix2 iI jJ := by
    funext a; apply Fin.ext
    match a with
    | ⟨0, _⟩ => show win33_3.index t (0 : Fin 2) * 512 + 1 * p.val = iI.val; omega
    | ⟨1, _⟩ => show win33_3.index t (1 : Fin 2) * 512 + 1 * q.val = jJ.val; omega
  show (dense (iblk33 V c 0 t) (iblk33 V c 1 t) (iblk33 V c 2 t)) (ix2 p q) = G V c (((cfg33.win 3).blk t).view.emb (ix2 p q))
  rw [hemb]
  unfold G
  refine dense_entry_congr (tm := 512) (k := 4096) (tn := 512) (M := 1024) (N := 1024) (iblk33 V c 0 t) (iblk33 V c 1 t) (iblk33 V c 2 t) (V c main_call0_v178) (V c main_call0_v9) (V c main_call0_v181) p q iI jJ (fun cc => ?_) (fun cc => ?_) ?_
  · show V c main_call0_v178 (((cfg33.win 0).blk t).view.emb (ix2 p cc)) = V c main_call0_v178 (ix2 iI cc)
    refine congrArg (V c main_call0_v178) (funext fun a => Fin.ext ?_)
    match a with
    | ⟨0, _⟩ => show win33_0.index t (0 : Fin 2) * 512 + 1 * p.val = iI.val; omega
    | ⟨1, _⟩ => show win33_0.index t (1 : Fin 2) * 4096 + 1 * cc.val = cc.val; omega
  · show V c main_call0_v9 (((cfg33.win 1).blk t).view.emb (ix2 cc q)) = V c main_call0_v9 (ix2 cc jJ)
    refine congrArg (V c main_call0_v9) (funext fun a => Fin.ext ?_)
    match a with
    | ⟨0, _⟩ => show win33_1.index t (0 : Fin 2) * 4096 + 1 * cc.val = cc.val; omega
    | ⟨1, _⟩ => show win33_1.index t (1 : Fin 2) * 512 + 1 * q.val = jJ.val; omega
  · show V c main_call0_v181 (((cfg33.win 2).blk t).view.emb (ix2 (0 : Fin 1) q)) = V c main_call0_v181 (ix2 (0 : Fin 1) jJ)
    refine congrArg (V c main_call0_v181) (funext fun a => Fin.ext ?_)
    match a with
    | ⟨0, _⟩ => show win33_2.index t (0 : Fin 2) * 1 + 1 * 0 = 0; omega
    | ⟨1, _⟩ => show win33_2.index t (1 : Fin 2) * 512 + 1 * q.val = jJ.val; omega

/-- An index of the result array is in point t's block iff each coordinate is in the block's range on its axis. -/
theorem mem_blk (t : Fin cfg33.N) (i : S1024x1024.Idx) :
    i ∈ ((cfg33.win 3).blk t).view.set ↔ ∀ a : Fin 2, win33_3.index t a * S512x512.size a ≤ (i a).val ∧ (i a).val < win33_3.index t a * S512x512.size a + S512x512.size a := by
  show i ∈ ((View.whole main_v0_2).slice (win33_3.rect t)).set ↔ _
  rw [View.set_slice_whole, Rect.mem_set_unit]
  exact Iff.rfl

/-- The blocks tile the result: the point that covers (i, j) is the one at block (i / 512, j / 512). -/
theorem cover (i : S1024x1024.Idx) : ∃ t : Fin cfg33.N, (cfg33.win 3).flush t = true ∧ i ∈ ((cfg33.win 3).blk t).view.set := by
  have hi0 : (i 0).val < 1024 := (i 0).isLt
  have hi1 : (i 1).val < 1024 := (i 1).isLt
  obtain ⟨t, ht⟩ := idx_onto ⟨(i 0).val / 512, by omega⟩ ⟨(i 1).val / 512, by omega⟩
  have q0 : win33_3.index t (0 : Fin 2) = (i 0).val / 512 := congrFun ht 0
  have q1 : win33_3.index t (1 : Fin 2) = (i 1).val / 512 := congrFun ht 1
  refine ⟨t, flush33_3 t, ?_⟩
  rw [mem_blk]
  intro a
  match a with
  | ⟨0, _⟩ => show win33_3.index t (0 : Fin 2) * 512 ≤ (i 0).val ∧ (i 0).val < win33_3.index t (0 : Fin 2) * 512 + 512; omega
  | ⟨1, _⟩ => show win33_3.index t (1 : Fin 2) * 512 ≤ (i 1).val ∧ (i 1).val < win33_3.index t (1 : Fin 2) * 512 + 512; omega

/-- The result array after the region. -/
theorem arr (c : Dev nD) : (dat33 (F := Ideal) V c).arrAt 3 cfg33.N = G V c :=
  (dat33 (F := Ideal) V c).arrAt_eq_of_cover 3 (G V c) (fun t _ => flushed_eq V c t) cover

end Cert.KernelIdeal.Reg33

end
-- ==== Proof.Vals.lean ====
/-
  What every buffer the regions read holds, step by step.

  Along the program's chain of boundaries each buffer is defined once — by a whole-array operation of a stretch or
  as a region's result — and kept by every later step. Read in order, each definition is the cell's chain of array
  functions at the program's operands: the casts to the narrow float format are the identity, the slices and
  reshapes give the operands' matrices and bias rows, each region's result is its whole-array function of the values
  already named, and the two entrywise products between regions are the odd rounds' gated inputs.
-/
import proofs.«113209_j26568667693302_2_alg».proof.Proof.Keeps
import proofs.«113209_j26568667693302_2_alg».proof.Proof.KIn
import proofs.«113209_j26568667693302_2_alg».proof.Proof.Reg0
import proofs.«113209_j26568667693302_2_alg».proof.Proof.Reg1
import proofs.«113209_j26568667693302_2_alg».proof.Proof.Reg2
import proofs.«113209_j26568667693302_2_alg».proof.Proof.Reg3
import proofs.«113209_j26568667693302_2_alg».proof.Proof.Reg4
import proofs.«113209_j26568667693302_2_alg».proof.Proof.Reg5
import proofs.«113209_j26568667693302_2_alg».proof.Proof.Reg6
import proofs.«113209_j26568667693302_2_alg».proof.Proof.Reg7
import proofs.«113209_j26568667693302_2_alg».proof.Proof.Reg8
import proofs.«113209_j26568667693302_2_alg».proof.Proof.Reg9
import proofs.«113209_j26568667693302_2_alg».proof.Proof.Reg10
import proofs.«113209_j26568667693302_2_alg».proof.Proof.Reg11
import proofs.«113209_j26568667693302_2_alg».proof.Proof.Reg12
import proofs.«113209_j26568667693302_2_alg».proof.Proof.Reg13
import proofs.«113209_j26568667693302_2_alg».proof.Proof.Reg14
import proofs.«113209_j26568667693302_2_alg».proof.Proof.Reg15
import proofs.«113209_j26568667693302_2_alg».proof.Proof.Reg16
import proofs.«113209_j26568667693302_2_alg».proof.Proof.Reg17
import proofs.«113209_j26568667693302_2_alg».proof.Proof.Reg18
import proofs.«113209_j26568667693302_2_alg».proof.Proof.Reg19
import proofs.«113209_j26568667693302_2_alg».proof.Proof.Reg20
import proofs.«113209_j26568667693302_2_alg».proof.Proof.Reg21
import proofs.«113209_j26568667693302_2_alg».proof.Proof.Reg22
import proofs.«113209_j26568667693302_2_alg».proof.Proof.Reg23
import proofs.«113209_j26568667693302_2_alg».proof.Proof.Reg24
import proofs.«113209_j26568667693302_2_alg».proof.Proof.Reg25
import proofs.«113209_j26568667693302_2_alg».proof.Proof.Reg26
import proofs.«113209_j26568667693302_2_alg».proof.Proof.Reg27
import proofs.«113209_j26568667693302_2_alg».proof.Proof.Reg28
import proofs.«113209_j26568667693302_2_alg».proof.Proof.Reg29
import proofs.«113209_j26568667693302_2_alg».proof.Proof.Reg30
import proofs.«113209_j26568667693302_2_alg».proof.Proof.Reg31
import proofs.«113209_j26568667693302_2_alg».proof.Proof.Reg32
import proofs.«113209_j26568667693302_2_alg».proof.Proof.Reg33
import Idealize.ShloMosaic.Lib.StableHlo.Run

set_option maxRecDepth 16384

noncomputable section

namespace Cert.KernelIdeal.KVal

open Cert.KernelIdeal Cert.KernelIdeal.Gen Cert.KernelIdeal.Facts₀ Idealize.ShloMosaic Idealize.ShloMosaic.TcCoe Idealize.ShloMosaic.StableHlo
open Idealize.SL.Sem Cert.LibDense Cert.Spec
open Idealize.ShloMosaic.Pipeline (Dat Cfg Window)

variable (m : (ℓ : Loc nD τ sig) → Buf (Elt Ideal) ℓ) (ρ : Dev nD → PrngReg)

theorem d_v0 (c : Dev nD) : W1 m ρ c (Proc.devRef .tc main_call0_v0) = (m ((c : Thread nD τ).loc main_arg1)) := by
  show StableHlo.after hostOps0 (W0 m ρ c) (Proc.devRef .tc main_call0_v0) = _
  dsimp only [hostOps0]
  after_results
  rw [show W0 m ρ c (Proc.devRef .tc main_arg1) = (m ((c : Thread nD τ).loc main_arg1)) from rfl]
  rfl

theorem d_v1 (c : Dev nD) : W1 m ρ c (Proc.devRef .tc main_call0_v1) = (m ((c : Thread nD τ).loc main_arg2)) := by
  show StableHlo.after hostOps0 (W0 m ρ c) (Proc.devRef .tc main_call0_v1) = _
  dsimp only [hostOps0]
  after_results
  rw [show W0 m ρ c (Proc.devRef .tc main_arg2) = (m ((c : Thread nD τ).loc main_arg2)) from rfl]
  rfl

theorem d_v2 (c : Dev nD) : W1 m ρ c (Proc.devRef .tc main_call0_v2) = (m ((c : Thread nD τ).loc main_arg4)) := by
  show StableHlo.after hostOps0 (W0 m ρ c) (Proc.devRef .tc main_call0_v2) = _
  dsimp only [hostOps0]
  after_results
  rw [show W0 m ρ c (Proc.devRef .tc main_arg4) = (m ((c : Thread nD τ).loc main_arg4)) from rfl]
  rfl

theorem d_v3 (c : Dev nD) : W1 m ρ c (Proc.devRef .tc main_call0_v3) = (m ((c : Thread nD τ).loc main_arg6)) := by
  show StableHlo.after hostOps0 (W0 m ρ c) (Proc.devRef .tc main_call0_v3) = _
  dsimp only [hostOps0]
  after_results
  rw [show W0 m ρ c (Proc.devRef .tc main_arg6) = (m ((c : Thread nD τ).loc main_arg6)) from rfl]
  rfl

theorem d_v4 (c : Dev nD) : W1 m ρ c (Proc.devRef .tc main_call0_v4) = (m ((c : Thread nD τ).loc main_arg8)) := by
  show StableHlo.after hostOps0 (W0 m ρ c) (Proc.devRef .tc main_call0_v4) = _
  dsimp only [hostOps0]
  after_results
  rw [show W0 m ρ c (Proc.devRef .tc main_arg8) = (m ((c : Thread nD τ).loc main_arg8)) from rfl]
  rfl

theorem d_v5 (c : Dev nD) : W1 m ρ c (Proc.devRef .tc main_call0_v5) = (m ((c : Thread nD τ).loc main_arg9)) := by
  show StableHlo.after hostOps0 (W0 m ρ c) (Proc.devRef .tc main_call0_v5) = _
  dsimp only [hostOps0]
  after_results
  rw [show W0 m ρ c (Proc.devRef .tc main_arg9) = (m ((c : Thread nD τ).loc main_arg9)) from rfl]
  rfl

theorem d_v6 (c : Dev nD) : W1 m ρ c (Proc.devRef .tc main_call0_v6) = (Ik m c).hcW := by
  show StableHlo.after hostOps0 (W0 m ρ c) (Proc.devRef .tc main_call0_v6) = _
  dsimp only [hostOps0]
  after_results
  rw [show W0 m ρ c (Proc.devRef .tc main_arg11) = (Ik m c).hcW from rfl]
  rfl

theorem d_v7 (c : Dev nD) : W1 m ρ c (Proc.devRef .tc main_call0_v7) = (Ik m c).heW := by
  show StableHlo.after hostOps0 (W0 m ρ c) (Proc.devRef .tc main_call0_v7) = _
  dsimp only [hostOps0]
  after_results
  rw [show W0 m ρ c (Proc.devRef .tc main_arg13) = (Ik m c).heW from rfl]
  rfl

theorem d_v8 (c : Dev nD) : W1 m ρ c (Proc.devRef .tc main_call0_v8) = (Ik m c).ccW := by
  show StableHlo.after hostOps0 (W0 m ρ c) (Proc.devRef .tc main_call0_v8) = _
  dsimp only [hostOps0]
  after_results
  rw [show W0 m ρ c (Proc.devRef .tc main_arg15) = (Ik m c).ccW from rfl]
  rfl

theorem d_v9 (c : Dev nD) : W1 m ρ c (Proc.devRef .tc main_call0_v9) = (Ik m c).ceW := by
  show StableHlo.after hostOps0 (W0 m ρ c) (Proc.devRef .tc main_call0_v9) = _
  dsimp only [hostOps0]
  after_results
  rw [show W0 m ρ c (Proc.devRef .tc main_arg17) = (Ik m c).ceW from rfl]
  rfl

theorem d_v10 (c : Dev nD) : W1 m ρ c (Proc.devRef .tc main_call0_v10) = (Ik m c).x := by
  show StableHlo.after hostOps0 (W0 m ρ c) (Proc.devRef .tc main_call0_v10) = _
  dsimp only [hostOps0]
  after_results
  rw [show W0 m ρ c (Proc.devRef .tc main_arg0) = (Ik m c).x from rfl]
  rfl

theorem d_v11 (c : Dev nD) : W1 m ρ c (Proc.devRef .tc main_call0_v11) = (Ik m c).h0 := by
  show StableHlo.after hostOps0 (W0 m ρ c) (Proc.devRef .tc main_call0_v11) = _
  dsimp only [hostOps0]
  after_results
  rw [show W0 m ρ c (Proc.devRef .tc main_arg19) = (Ik m c).h0 from rfl]
  rfl

theorem d_v12 (c : Dev nD) : W1 m ρ c (Proc.devRef .tc main_call0_v12) = (Ik m c).c0 := by
  show StableHlo.after hostOps0 (W0 m ρ c) (Proc.devRef .tc main_call0_v12) = _
  dsimp only [hostOps0]
  after_results
  rw [show W0 m ρ c (Proc.devRef .tc main_arg20) = (Ik m c).c0 from rfl]
  rfl

theorem d_v13 (c : Dev nD) : W1 m ρ c (Proc.devRef .tc main_call0_v13) = zvec := by
  show StableHlo.after hostOps0 (W0 m ρ c) (Proc.devRef .tc main_call0_v13) = _
  dsimp only [hostOps0]
  after_results

  rfl

theorem d_v15 (c : Dev nD) : W1 m ρ c (Proc.devRef .tc main_call0_v15) = (Ik m c).qk 0 := by
  show StableHlo.after hostOps0 (W0 m ρ c) (Proc.devRef .tc main_call0_v15) = _
  dsimp only [hostOps0]
  after_results
  rw [show W0 m ρ c (Proc.devRef .tc main_arg8) = (m ((c : Thread nD τ).loc main_arg8)) from rfl]
  rfl

theorem d_v17 (c : Dev nD) : W1 m ρ c (Proc.devRef .tc main_call0_v17) = (Ik m c).qkW 0 := by
  show StableHlo.after hostOps0 (W0 m ρ c) (Proc.devRef .tc main_call0_v17) = _
  dsimp only [hostOps0]
  after_results
  rw [show W0 m ρ c (Proc.devRef .tc main_arg9) = (m ((c : Thread nD τ).loc main_arg9)) from rfl]
  rfl

theorem d_v20 (c : Dev nD) : W1 m ρ c (Proc.devRef .tc main_call0_v20) = (Ik m c).qkb 0 := by
  show StableHlo.after hostOps0 (W0 m ρ c) (Proc.devRef .tc main_call0_v20) = _
  dsimp only [hostOps0]
  after_results
  rw [show W0 m ρ c (Proc.devRef .tc main_arg10) = (m ((c : Thread nD τ).loc main_arg10)) from rfl]
  rfl

/-- Region 0's result. -/
theorem d_v21 (c : Dev nD) : W2 m ρ c (Proc.devRef .tc main_call0_v21) = g (Ik m c) 0 := by
  refine (W2_arr m ρ c 3).trans ?_
  rw [Reg0.arr]
  unfold Reg0.G
  rw [show V1 m ρ c main_call0_v15 = (Ik m c).qk 0 from d_v15 m ρ c]
  rw [show V1 m ρ c main_call0_v17 = (Ik m c).qkW 0 from d_v17 m ρ c]
  rw [show V1 m ρ c main_call0_v20 = (Ik m c).qkb 0 from d_v20 m ρ c]
  rfl

theorem d_v22 (c : Dev nD) : W3 m ρ c (Proc.devRef .tc main_call0_v22) = zrow := by
  show StableHlo.after hostOps1 (W2 m ρ c) (Proc.devRef .tc main_call0_v22) = _
  dsimp only [hostOps1]
  after_results
  rw [show W2 m ρ c (Proc.devRef .tc main_call0_v13) = zvec from (Keep.region0 m ρ c main_call0_v13 (by decide)).trans (d_v13 m ρ c)]
  rfl

/-- Region 1's result. -/
theorem d_v23 (c : Dev nD) : W4 m ρ c (Proc.devRef .tc main_call0_v23) = gate2 (Ik m c) 0 (Ik m c).x := by
  refine (W4_arr m ρ c 3).trans ?_
  rw [Reg1.arr]
  unfold Reg1.G
  rw [show V3 m ρ c main_call0_v21 = g (Ik m c) 0 from (Keep.host1 m ρ c main_call0_v21 (by decide)).trans (d_v21 m ρ c)]
  rw [show V3 m ρ c main_call0_v10 = (Ik m c).x from (Keep.host1 m ρ c main_call0_v10 (by decide)).trans ((Keep.region0 m ρ c main_call0_v10 (by decide)).trans (d_v10 m ρ c))]
  rw [show V3 m ρ c main_call0_v22 = zrow from d_v22 m ρ c]
  rw [dense_zero _ _ _ zrow_zero]
  rfl

theorem d_v24 (c : Dev nD) : W5 m ρ c (Proc.devRef .tc main_call0_v24) = (Ik m c).hcb := by
  show StableHlo.after hostOps2 (W4 m ρ c) (Proc.devRef .tc main_call0_v24) = _
  dsimp only [hostOps2]
  after_results
  rw [show W4 m ρ c (Proc.devRef .tc main_arg12) = (m ((c : Thread nD τ).loc main_arg12)) from (Keep.region1 m ρ c main_arg12 (by decide)).trans ((Keep.host1 m ρ c main_arg12 (by decide)).trans ((Keep.region0 m ρ c main_arg12 (by decide)).trans ((Keep.host0 m ρ c main_arg12 (by decide)).trans (rfl))))]
  rfl

/-- Region 2's result. -/
theorem d_v25 (c : Dev nD) : W6 m ρ c (Proc.devRef .tc main_call0_v25) = hc (Ik m c) (Ik m c).h0 := by
  refine (W6_arr m ρ c 3).trans ?_
  rw [Reg2.arr]
  unfold Reg2.G
  rw [show V5 m ρ c main_call0_v11 = (Ik m c).h0 from (Keep.host2 m ρ c main_call0_v11 (by decide)).trans ((Keep.region1 m ρ c main_call0_v11 (by decide)).trans ((Keep.host1 m ρ c main_call0_v11 (by decide)).trans ((Keep.region0 m ρ c main_call0_v11 (by decide)).trans (d_v11 m ρ c))))]
  rw [show V5 m ρ c main_call0_v6 = (Ik m c).hcW from (Keep.host2 m ρ c main_call0_v6 (by decide)).trans ((Keep.region1 m ρ c main_call0_v6 (by decide)).trans ((Keep.host1 m ρ c main_call0_v6 (by decide)).trans ((Keep.region0 m ρ c main_call0_v6 (by decide)).trans (d_v6 m ρ c))))]
  rw [show V5 m ρ c main_call0_v24 = (Ik m c).hcb from d_v24 m ρ c]
  rfl

theorem d_v26 (c : Dev nD) : W7 m ρ c (Proc.devRef .tc main_call0_v26) = (Ik m c).heb := by
  show StableHlo.after hostOps3 (W6 m ρ c) (Proc.devRef .tc main_call0_v26) = _
  dsimp only [hostOps3]
  after_results
  rw [show W6 m ρ c (Proc.devRef .tc main_arg14) = (m ((c : Thread nD τ).loc main_arg14)) from (Keep.region2 m ρ c main_arg14 (by decide)).trans ((Keep.host2 m ρ c main_arg14 (by decide)).trans ((Keep.region1 m ρ c main_arg14 (by decide)).trans ((Keep.host1 m ρ c main_arg14 (by decide)).trans ((Keep.region0 m ρ c main_arg14 (by decide)).trans ((Keep.host0 m ρ c main_arg14 (by decide)).trans (rfl))))))]
  rfl

/-- Region 3's result. -/
theorem d_v27 (c : Dev nD) : W8 m ρ c (Proc.devRef .tc main_call0_v27) = h1 (Ik m c) := by
  refine (W8_arr m ρ c 4).trans ?_
  rw [Reg3.arr]
  unfold Reg3.G
  rw [show V7 m ρ c main_call0_v23 = gate2 (Ik m c) 0 (Ik m c).x from (Keep.host3 m ρ c main_call0_v23 (by decide)).trans ((Keep.region2 m ρ c main_call0_v23 (by decide)).trans ((Keep.host2 m ρ c main_call0_v23 (by decide)).trans (d_v23 m ρ c)))]
  rw [show V7 m ρ c main_call0_v25 = hc (Ik m c) (Ik m c).h0 from (Keep.host3 m ρ c main_call0_v25 (by decide)).trans (d_v25 m ρ c)]
  rw [show V7 m ρ c main_call0_v7 = (Ik m c).heW from (Keep.host3 m ρ c main_call0_v7 (by decide)).trans ((Keep.region2 m ρ c main_call0_v7 (by decide)).trans ((Keep.host2 m ρ c main_call0_v7 (by decide)).trans ((Keep.region1 m ρ c main_call0_v7 (by decide)).trans ((Keep.host1 m ρ c main_call0_v7 (by decide)).trans ((Keep.region0 m ρ c main_call0_v7 (by decide)).trans (d_v7 m ρ c))))))]
  rw [show V7 m ρ c main_call0_v26 = (Ik m c).heb from d_v26 m ρ c]
  rfl

theorem d_v29 (c : Dev nD) : W9 m ρ c (Proc.devRef .tc main_call0_v29) = (Ik m c).qk 1 := by
  show StableHlo.after hostOps4 (W8 m ρ c) (Proc.devRef .tc main_call0_v29) = _
  dsimp only [hostOps4]
  after_results
  rw [show W8 m ρ c (Proc.devRef .tc main_call0_v4) = (m ((c : Thread nD τ).loc main_arg8)) from (Keep.region3 m ρ c main_call0_v4 (by decide)).trans ((Keep.host3 m ρ c main_call0_v4 (by decide)).trans ((Keep.region2 m ρ c main_call0_v4 (by decide)).trans ((Keep.host2 m ρ c main_call0_v4 (by decide)).trans ((Keep.region1 m ρ c main_call0_v4 (by decide)).trans ((Keep.host1 m ρ c main_call0_v4 (by decide)).trans ((Keep.region0 m ρ c main_call0_v4 (by decide)).trans (d_v4 m ρ c)))))))]
  rfl

theorem d_v31 (c : Dev nD) : W9 m ρ c (Proc.devRef .tc main_call0_v31) = (Ik m c).qkW 1 := by
  show StableHlo.after hostOps4 (W8 m ρ c) (Proc.devRef .tc main_call0_v31) = _
  dsimp only [hostOps4]
  after_results
  rw [show W8 m ρ c (Proc.devRef .tc main_call0_v5) = (m ((c : Thread nD τ).loc main_arg9)) from (Keep.region3 m ρ c main_call0_v5 (by decide)).trans ((Keep.host3 m ρ c main_call0_v5 (by decide)).trans ((Keep.region2 m ρ c main_call0_v5 (by decide)).trans ((Keep.host2 m ρ c main_call0_v5 (by decide)).trans ((Keep.region1 m ρ c main_call0_v5 (by decide)).trans ((Keep.host1 m ρ c main_call0_v5 (by decide)).trans ((Keep.region0 m ρ c main_call0_v5 (by decide)).trans (d_v5 m ρ c)))))))]
  rfl

theorem d_v34 (c : Dev nD) : W9 m ρ c (Proc.devRef .tc main_call0_v34) = (Ik m c).qkb 1 := by
  show StableHlo.after hostOps4 (W8 m ρ c) (Proc.devRef .tc main_call0_v34) = _
  dsimp only [hostOps4]
  after_results
  rw [show W8 m ρ c (Proc.devRef .tc main_arg10) = (m ((c : Thread nD τ).loc main_arg10)) from (Keep.region3 m ρ c main_arg10 (by decide)).trans ((Keep.host3 m ρ c main_arg10 (by decide)).trans ((Keep.region2 m ρ c main_arg10 (by decide)).trans ((Keep.host2 m ρ c main_arg10 (by decide)).trans ((Keep.region1 m ρ c main_arg10 (by decide)).trans ((Keep.host1 m ρ c main_arg10 (by decide)).trans ((Keep.region0 m ρ c main_arg10 (by decide)).trans ((Keep.host0 m ρ c main_arg10 (by decide)).trans (rfl))))))))]
  rfl

/-- Region 4's result. -/
theorem d_v35 (c : Dev nD) : W10 m ρ c (Proc.devRef .tc main_call0_v35) = g (Ik m c) 1 := by
  refine (W10_arr m ρ c 3).trans ?_
  rw [Reg4.arr]
  unfold Reg4.G
  rw [show V9 m ρ c main_call0_v29 = (Ik m c).qk 1 from d_v29 m ρ c]
  rw [show V9 m ρ c main_call0_v31 = (Ik m c).qkW 1 from d_v31 m ρ c]
  rw [show V9 m ρ c main_call0_v34 = (Ik m c).qkb 1 from d_v34 m ρ c]
  rfl

theorem d_v36 (c : Dev nD) : W11 m ρ c (Proc.devRef .tc main_call0_v36) = (Ik m c).hcb := by
  show StableHlo.after hostOps5 (W10 m ρ c) (Proc.devRef .tc main_call0_v36) = _
  dsimp only [hostOps5]
  after_results
  rw [show W10 m ρ c (Proc.devRef .tc main_arg12) = (m ((c : Thread nD τ).loc main_arg12)) from (Keep.region4 m ρ c main_arg12 (by decide)).trans ((Keep.host4 m ρ c main_arg12 (by decide)).trans ((Keep.region3 m ρ c main_arg12 (by decide)).trans ((Keep.host3 m ρ c main_arg12 (by decide)).trans ((Keep.region2 m ρ c main_arg12 (by decide)).trans ((Keep.host2 m ρ c main_arg12 (by decide)).trans ((Keep.region1 m ρ c main_arg12 (by decide)).trans ((Keep.host1 m ρ c main_arg12 (by decide)).trans ((Keep.region0 m ρ c main_arg12 (by decide)).trans ((Keep.host0 m ρ c main_arg12 (by decide)).trans (rfl))))))))))]
  rfl

/-- Region 5's result. -/
theorem d_v37 (c : Dev nD) : W12 m ρ c (Proc.devRef .tc main_call0_v37) = hc (Ik m c) (h1 (Ik m c)) := by
  refine (W12_arr m ρ c 3).trans ?_
  rw [Reg5.arr]
  unfold Reg5.G
  rw [show V11 m ρ c main_call0_v27 = h1 (Ik m c) from (Keep.host5 m ρ c main_call0_v27 (by decide)).trans ((Keep.region4 m ρ c main_call0_v27 (by decide)).trans ((Keep.host4 m ρ c main_call0_v27 (by decide)).trans (d_v27 m ρ c)))]
  rw [show V11 m ρ c main_call0_v6 = (Ik m c).hcW from (Keep.host5 m ρ c main_call0_v6 (by decide)).trans ((Keep.region4 m ρ c main_call0_v6 (by decide)).trans ((Keep.host4 m ρ c main_call0_v6 (by decide)).trans ((Keep.region3 m ρ c main_call0_v6 (by decide)).trans ((Keep.host3 m ρ c main_call0_v6 (by decide)).trans ((Keep.region2 m ρ c main_call0_v6 (by decide)).trans ((Keep.host2 m ρ c main_call0_v6 (by decide)).trans ((Keep.region1 m ρ c main_call0_v6 (by decide)).trans ((Keep.host1 m ρ c main_call0_v6 (by decide)).trans ((Keep.region0 m ρ c main_call0_v6 (by decide)).trans (d_v6 m ρ c))))))))))]
  rw [show V11 m ρ c main_call0_v36 = (Ik m c).hcb from d_v36 m ρ c]
  rfl

theorem d_v38 (c : Dev nD) : W13 m ρ c (Proc.devRef .tc main_call0_v38) = zrow := by
  show StableHlo.after hostOps6 (W12 m ρ c) (Proc.devRef .tc main_call0_v38) = _
  dsimp only [hostOps6]
  after_results
  rw [show W12 m ρ c (Proc.devRef .tc main_call0_v13) = zvec from (Keep.region5 m ρ c main_call0_v13 (by decide)).trans ((Keep.host5 m ρ c main_call0_v13 (by decide)).trans ((Keep.region4 m ρ c main_call0_v13 (by decide)).trans ((Keep.host4 m ρ c main_call0_v13 (by decide)).trans ((Keep.region3 m ρ c main_call0_v13 (by decide)).trans ((Keep.host3 m ρ c main_call0_v13 (by decide)).trans ((Keep.region2 m ρ c main_call0_v13 (by decide)).trans ((Keep.host2 m ρ c main_call0_v13 (by decide)).trans ((Keep.region1 m ρ c main_call0_v13 (by decide)).trans ((Keep.host1 m ρ c main_call0_v13 (by decide)).trans ((Keep.region0 m ρ c main_call0_v13 (by decide)).trans (d_v13 m ρ c)))))))))))]
  rfl

/-- Region 6's result. -/
theorem d_v39 (c : Dev nD) : W14 m ρ c (Proc.devRef .tc main_call0_v39) = gate2 (Ik m c) 1 (hc (Ik m c) (h1 (Ik m c))) := by
  refine (W14_arr m ρ c 3).trans ?_
  rw [Reg6.arr]
  unfold Reg6.G
  rw [show V13 m ρ c main_call0_v35 = g (Ik m c) 1 from (Keep.host6 m ρ c main_call0_v35 (by decide)).trans ((Keep.region5 m ρ c main_call0_v35 (by decide)).trans ((Keep.host5 m ρ c main_call0_v35 (by decide)).trans (d_v35 m ρ c)))]
  rw [show V13 m ρ c main_call0_v37 = hc (Ik m c) (h1 (Ik m c)) from (Keep.host6 m ρ c main_call0_v37 (by decide)).trans (d_v37 m ρ c)]
  rw [show V13 m ρ c main_call0_v38 = zrow from d_v38 m ρ c]
  rw [dense_zero _ _ _ zrow_zero]
  rfl

theorem d_v43 (c : Dev nD) : W15 m ρ c (Proc.devRef .tc main_call0_v43) = x1 (Ik m c) := by
  show StableHlo.after hostOps7 (W14 m ρ c) (Proc.devRef .tc main_call0_v43) = _
  dsimp only [hostOps7]
  after_results
  rw [show W14 m ρ c (Proc.devRef .tc main_call0_v39) = gate2 (Ik m c) 1 (hc (Ik m c) (h1 (Ik m c))) from d_v39 m ρ c]
  rw [show W14 m ρ c (Proc.devRef .tc main_call0_v10) = (Ik m c).x from (Keep.region6 m ρ c main_call0_v10 (by decide)).trans ((Keep.host6 m ρ c main_call0_v10 (by decide)).trans ((Keep.region5 m ρ c main_call0_v10 (by decide)).trans ((Keep.host5 m ρ c main_call0_v10 (by decide)).trans ((Keep.region4 m ρ c main_call0_v10 (by decide)).trans ((Keep.host4 m ρ c main_call0_v10 (by decide)).trans ((Keep.region3 m ρ c main_call0_v10 (by decide)).trans ((Keep.host3 m ρ c main_call0_v10 (by decide)).trans ((Keep.region2 m ρ c main_call0_v10 (by decide)).trans ((Keep.host2 m ρ c main_call0_v10 (by decide)).trans ((Keep.region1 m ρ c main_call0_v10 (by decide)).trans ((Keep.host1 m ρ c main_call0_v10 (by decide)).trans ((Keep.region0 m ρ c main_call0_v10 (by decide)).trans (d_v10 m ρ c)))))))))))))]
  rfl

theorem d_v45 (c : Dev nD) : W15 m ρ c (Proc.devRef .tc main_call0_v45) = (Ik m c).qk 2 := by
  show StableHlo.after hostOps7 (W14 m ρ c) (Proc.devRef .tc main_call0_v45) = _
  dsimp only [hostOps7]
  after_results
  rw [show W14 m ρ c (Proc.devRef .tc main_call0_v4) = (m ((c : Thread nD τ).loc main_arg8)) from (Keep.region6 m ρ c main_call0_v4 (by decide)).trans ((Keep.host6 m ρ c main_call0_v4 (by decide)).trans ((Keep.region5 m ρ c main_call0_v4 (by decide)).trans ((Keep.host5 m ρ c main_call0_v4 (by decide)).trans ((Keep.region4 m ρ c main_call0_v4 (by decide)).trans ((Keep.host4 m ρ c main_call0_v4 (by decide)).trans ((Keep.region3 m ρ c main_call0_v4 (by decide)).trans ((Keep.host3 m ρ c main_call0_v4 (by decide)).trans ((Keep.region2 m ρ c main_call0_v4 (by decide)).trans ((Keep.host2 m ρ c main_call0_v4 (by decide)).trans ((Keep.region1 m ρ c main_call0_v4 (by decide)).trans ((Keep.host1 m ρ c main_call0_v4 (by decide)).trans ((Keep.region0 m ρ c main_call0_v4 (by decide)).trans (d_v4 m ρ c)))))))))))))]
  rfl

theorem d_v47 (c : Dev nD) : W15 m ρ c (Proc.devRef .tc main_call0_v47) = (Ik m c).qkW 2 := by
  show StableHlo.after hostOps7 (W14 m ρ c) (Proc.devRef .tc main_call0_v47) = _
  dsimp only [hostOps7]
  after_results
  rw [show W14 m ρ c (Proc.devRef .tc main_call0_v5) = (m ((c : Thread nD τ).loc main_arg9)) from (Keep.region6 m ρ c main_call0_v5 (by decide)).trans ((Keep.host6 m ρ c main_call0_v5 (by decide)).trans ((Keep.region5 m ρ c main_call0_v5 (by decide)).trans ((Keep.host5 m ρ c main_call0_v5 (by decide)).trans ((Keep.region4 m ρ c main_call0_v5 (by decide)).trans ((Keep.host4 m ρ c main_call0_v5 (by decide)).trans ((Keep.region3 m ρ c main_call0_v5 (by decide)).trans ((Keep.host3 m ρ c main_call0_v5 (by decide)).trans ((Keep.region2 m ρ c main_call0_v5 (by decide)).trans ((Keep.host2 m ρ c main_call0_v5 (by decide)).trans ((Keep.region1 m ρ c main_call0_v5 (by decide)).trans ((Keep.host1 m ρ c main_call0_v5 (by decide)).trans ((Keep.region0 m ρ c main_call0_v5 (by decide)).trans (d_v5 m ρ c)))))))))))))]
  rfl

theorem d_v50 (c : Dev nD) : W15 m ρ c (Proc.devRef .tc main_call0_v50) = (Ik m c).qkb 2 := by
  show StableHlo.after hostOps7 (W14 m ρ c) (Proc.devRef .tc main_call0_v50) = _
  dsimp only [hostOps7]
  after_results
  rw [show W14 m ρ c (Proc.devRef .tc main_arg10) = (m ((c : Thread nD τ).loc main_arg10)) from (Keep.region6 m ρ c main_arg10 (by decide)).trans ((Keep.host6 m ρ c main_arg10 (by decide)).trans ((Keep.region5 m ρ c main_arg10 (by decide)).trans ((Keep.host5 m ρ c main_arg10 (by decide)).trans ((Keep.region4 m ρ c main_arg10 (by decide)).trans ((Keep.host4 m ρ c main_arg10 (by decide)).trans ((Keep.region3 m ρ c main_arg10 (by decide)).trans ((Keep.host3 m ρ c main_arg10 (by decide)).trans ((Keep.region2 m ρ c main_arg10 (by decide)).trans ((Keep.host2 m ρ c main_arg10 (by decide)).trans ((Keep.region1 m ρ c main_arg10 (by decide)).trans ((Keep.host1 m ρ c main_arg10 (by decide)).trans ((Keep.region0 m ρ c main_arg10 (by decide)).trans ((Keep.host0 m ρ c main_arg10 (by decide)).trans (rfl))))))))))))))]
  rfl

/-- Region 7's result. -/
theorem d_v51 (c : Dev nD) : W16 m ρ c (Proc.devRef .tc main_call0_v51) = g (Ik m c) 2 := by
  refine (W16_arr m ρ c 3).trans ?_
  rw [Reg7.arr]
  unfold Reg7.G
  rw [show V15 m ρ c main_call0_v45 = (Ik m c).qk 2 from d_v45 m ρ c]
  rw [show V15 m ρ c main_call0_v47 = (Ik m c).qkW 2 from d_v47 m ρ c]
  rw [show V15 m ρ c main_call0_v50 = (Ik m c).qkb 2 from d_v50 m ρ c]
  rfl

theorem d_v52 (c : Dev nD) : W17 m ρ c (Proc.devRef .tc main_call0_v52) = zrow := by
  show StableHlo.after hostOps8 (W16 m ρ c) (Proc.devRef .tc main_call0_v52) = _
  dsimp only [hostOps8]
  after_results
  rw [show W16 m ρ c (Proc.devRef .tc main_call0_v13) = zvec from (Keep.region7 m ρ c main_call0_v13 (by decide)).trans ((Keep.host7 m ρ c main_call0_v13 (by decide)).trans ((Keep.region6 m ρ c main_call0_v13 (by decide)).trans ((Keep.host6 m ρ c main_call0_v13 (by decide)).trans ((Keep.region5 m ρ c main_call0_v13 (by decide)).trans ((Keep.host5 m ρ c main_call0_v13 (by decide)).trans ((Keep.region4 m ρ c main_call0_v13 (by decide)).trans ((Keep.host4 m ρ c main_call0_v13 (by decide)).trans ((Keep.region3 m ρ c main_call0_v13 (by decide)).trans ((Keep.host3 m ρ c main_call0_v13 (by decide)).trans ((Keep.region2 m ρ c main_call0_v13 (by decide)).trans ((Keep.host2 m ρ c main_call0_v13 (by decide)).trans ((Keep.region1 m ρ c main_call0_v13 (by decide)).trans ((Keep.host1 m ρ c main_call0_v13 (by decide)).trans ((Keep.region0 m ρ c main_call0_v13 (by decide)).trans (d_v13 m ρ c)))))))))))))))]
  rfl

/-- Region 8's result. -/
theorem d_v53 (c : Dev nD) : W18 m ρ c (Proc.devRef .tc main_call0_v53) = gate2 (Ik m c) 2 (x1 (Ik m c)) := by
  refine (W18_arr m ρ c 3).trans ?_
  rw [Reg8.arr]
  unfold Reg8.G
  rw [show V17 m ρ c main_call0_v51 = g (Ik m c) 2 from (Keep.host8 m ρ c main_call0_v51 (by decide)).trans (d_v51 m ρ c)]
  rw [show V17 m ρ c main_call0_v43 = x1 (Ik m c) from (Keep.host8 m ρ c main_call0_v43 (by decide)).trans ((Keep.region7 m ρ c main_call0_v43 (by decide)).trans (d_v43 m ρ c))]
  rw [show V17 m ρ c main_call0_v52 = zrow from d_v52 m ρ c]
  rw [dense_zero _ _ _ zrow_zero]
  rfl

theorem d_v54 (c : Dev nD) : W19 m ρ c (Proc.devRef .tc main_call0_v54) = (Ik m c).hcb := by
  show StableHlo.after hostOps9 (W18 m ρ c) (Proc.devRef .tc main_call0_v54) = _
  dsimp only [hostOps9]
  after_results
  rw [show W18 m ρ c (Proc.devRef .tc main_arg12) = (m ((c : Thread nD τ).loc main_arg12)) from (Keep.region8 m ρ c main_arg12 (by decide)).trans ((Keep.host8 m ρ c main_arg12 (by decide)).trans ((Keep.region7 m ρ c main_arg12 (by decide)).trans ((Keep.host7 m ρ c main_arg12 (by decide)).trans ((Keep.region6 m ρ c main_arg12 (by decide)).trans ((Keep.host6 m ρ c main_arg12 (by decide)).trans ((Keep.region5 m ρ c main_arg12 (by decide)).trans ((Keep.host5 m ρ c main_arg12 (by decide)).trans ((Keep.region4 m ρ c main_arg12 (by decide)).trans ((Keep.host4 m ρ c main_arg12 (by decide)).trans ((Keep.region3 m ρ c main_arg12 (by decide)).trans ((Keep.host3 m ρ c main_arg12 (by decide)).trans ((Keep.region2 m ρ c main_arg12 (by decide)).trans ((Keep.host2 m ρ c main_arg12 (by decide)).trans ((Keep.region1 m ρ c main_arg12 (by decide)).trans ((Keep.host1 m ρ c main_arg12 (by decide)).trans ((Keep.region0 m ρ c main_arg12 (by decide)).trans ((Keep.host0 m ρ c main_arg12 (by decide)).trans (rfl))))))))))))))))))]
  rfl

/-- Region 9's result. -/
theorem d_v55 (c : Dev nD) : W20 m ρ c (Proc.devRef .tc main_call0_v55) = hc (Ik m c) (h1 (Ik m c)) := by
  refine (W20_arr m ρ c 3).trans ?_
  rw [Reg9.arr]
  unfold Reg9.G
  rw [show V19 m ρ c main_call0_v27 = h1 (Ik m c) from (Keep.host9 m ρ c main_call0_v27 (by decide)).trans ((Keep.region8 m ρ c main_call0_v27 (by decide)).trans ((Keep.host8 m ρ c main_call0_v27 (by decide)).trans ((Keep.region7 m ρ c main_call0_v27 (by decide)).trans ((Keep.host7 m ρ c main_call0_v27 (by decide)).trans ((Keep.region6 m ρ c main_call0_v27 (by decide)).trans ((Keep.host6 m ρ c main_call0_v27 (by decide)).trans ((Keep.region5 m ρ c main_call0_v27 (by decide)).trans ((Keep.host5 m ρ c main_call0_v27 (by decide)).trans ((Keep.region4 m ρ c main_call0_v27 (by decide)).trans ((Keep.host4 m ρ c main_call0_v27 (by decide)).trans (d_v27 m ρ c)))))))))))]
  rw [show V19 m ρ c main_call0_v6 = (Ik m c).hcW from (Keep.host9 m ρ c main_call0_v6 (by decide)).trans ((Keep.region8 m ρ c main_call0_v6 (by decide)).trans ((Keep.host8 m ρ c main_call0_v6 (by decide)).trans ((Keep.region7 m ρ c main_call0_v6 (by decide)).trans ((Keep.host7 m ρ c main_call0_v6 (by decide)).trans ((Keep.region6 m ρ c main_call0_v6 (by decide)).trans ((Keep.host6 m ρ c main_call0_v6 (by decide)).trans ((Keep.region5 m ρ c main_call0_v6 (by decide)).trans ((Keep.host5 m ρ c main_call0_v6 (by decide)).trans ((Keep.region4 m ρ c main_call0_v6 (by decide)).trans ((Keep.host4 m ρ c main_call0_v6 (by decide)).trans ((Keep.region3 m ρ c main_call0_v6 (by decide)).trans ((Keep.host3 m ρ c main_call0_v6 (by decide)).trans ((Keep.region2 m ρ c main_call0_v6 (by decide)).trans ((Keep.host2 m ρ c main_call0_v6 (by decide)).trans ((Keep.region1 m ρ c main_call0_v6 (by decide)).trans ((Keep.host1 m ρ c main_call0_v6 (by decide)).trans ((Keep.region0 m ρ c main_call0_v6 (by decide)).trans (d_v6 m ρ c))))))))))))))))))]
  rw [show V19 m ρ c main_call0_v54 = (Ik m c).hcb from d_v54 m ρ c]
  rfl

theorem d_v56 (c : Dev nD) : W21 m ρ c (Proc.devRef .tc main_call0_v56) = (Ik m c).heb := by
  show StableHlo.after hostOps10 (W20 m ρ c) (Proc.devRef .tc main_call0_v56) = _
  dsimp only [hostOps10]
  after_results
  rw [show W20 m ρ c (Proc.devRef .tc main_arg14) = (m ((c : Thread nD τ).loc main_arg14)) from (Keep.region9 m ρ c main_arg14 (by decide)).trans ((Keep.host9 m ρ c main_arg14 (by decide)).trans ((Keep.region8 m ρ c main_arg14 (by decide)).trans ((Keep.host8 m ρ c main_arg14 (by decide)).trans ((Keep.region7 m ρ c main_arg14 (by decide)).trans ((Keep.host7 m ρ c main_arg14 (by decide)).trans ((Keep.region6 m ρ c main_arg14 (by decide)).trans ((Keep.host6 m ρ c main_arg14 (by decide)).trans ((Keep.region5 m ρ c main_arg14 (by decide)).trans ((Keep.host5 m ρ c main_arg14 (by decide)).trans ((Keep.region4 m ρ c main_arg14 (by decide)).trans ((Keep.host4 m ρ c main_arg14 (by decide)).trans ((Keep.region3 m ρ c main_arg14 (by decide)).trans ((Keep.host3 m ρ c main_arg14 (by decide)).trans ((Keep.region2 m ρ c main_arg14 (by decide)).trans ((Keep.host2 m ρ c main_arg14 (by decide)).trans ((Keep.region1 m ρ c main_arg14 (by decide)).trans ((Keep.host1 m ρ c main_arg14 (by decide)).trans ((Keep.region0 m ρ c main_arg14 (by decide)).trans ((Keep.host0 m ρ c main_arg14 (by decide)).trans (rfl))))))))))))))))))))]
  rfl

/-- Region 10's result. -/
theorem d_v57 (c : Dev nD) : W22 m ρ c (Proc.devRef .tc main_call0_v57) = h2 (Ik m c) := by
  refine (W22_arr m ρ c 4).trans ?_
  rw [Reg10.arr]
  unfold Reg10.G
  rw [show V21 m ρ c main_call0_v53 = gate2 (Ik m c) 2 (x1 (Ik m c)) from (Keep.host10 m ρ c main_call0_v53 (by decide)).trans ((Keep.region9 m ρ c main_call0_v53 (by decide)).trans ((Keep.host9 m ρ c main_call0_v53 (by decide)).trans (d_v53 m ρ c)))]
  rw [show V21 m ρ c main_call0_v55 = hc (Ik m c) (h1 (Ik m c)) from (Keep.host10 m ρ c main_call0_v55 (by decide)).trans (d_v55 m ρ c)]
  rw [show V21 m ρ c main_call0_v7 = (Ik m c).heW from (Keep.host10 m ρ c main_call0_v7 (by decide)).trans ((Keep.region9 m ρ c main_call0_v7 (by decide)).trans ((Keep.host9 m ρ c main_call0_v7 (by decide)).trans ((Keep.region8 m ρ c main_call0_v7 (by decide)).trans ((Keep.host8 m ρ c main_call0_v7 (by decide)).trans ((Keep.region7 m ρ c main_call0_v7 (by decide)).trans ((Keep.host7 m ρ c main_call0_v7 (by decide)).trans ((Keep.region6 m ρ c main_call0_v7 (by decide)).trans ((Keep.host6 m ρ c main_call0_v7 (by decide)).trans ((Keep.region5 m ρ c main_call0_v7 (by decide)).trans ((Keep.host5 m ρ c main_call0_v7 (by decide)).trans ((Keep.region4 m ρ c main_call0_v7 (by decide)).trans ((Keep.host4 m ρ c main_call0_v7 (by decide)).trans ((Keep.region3 m ρ c main_call0_v7 (by decide)).trans ((Keep.host3 m ρ c main_call0_v7 (by decide)).trans ((Keep.region2 m ρ c main_call0_v7 (by decide)).trans ((Keep.host2 m ρ c main_call0_v7 (by decide)).trans ((Keep.region1 m ρ c main_call0_v7 (by decide)).trans ((Keep.host1 m ρ c main_call0_v7 (by decide)).trans ((Keep.region0 m ρ c main_call0_v7 (by decide)).trans (d_v7 m ρ c))))))))))))))))))))]
  rw [show V21 m ρ c main_call0_v56 = (Ik m c).heb from d_v56 m ρ c]
  rfl

theorem d_v59 (c : Dev nD) : W23 m ρ c (Proc.devRef .tc main_call0_v59) = (Ik m c).qk 3 := by
  show StableHlo.after hostOps11 (W22 m ρ c) (Proc.devRef .tc main_call0_v59) = _
  dsimp only [hostOps11]
  after_results
  rw [show W22 m ρ c (Proc.devRef .tc main_call0_v4) = (m ((c : Thread nD τ).loc main_arg8)) from (Keep.region10 m ρ c main_call0_v4 (by decide)).trans ((Keep.host10 m ρ c main_call0_v4 (by decide)).trans ((Keep.region9 m ρ c main_call0_v4 (by decide)).trans ((Keep.host9 m ρ c main_call0_v4 (by decide)).trans ((Keep.region8 m ρ c main_call0_v4 (by decide)).trans ((Keep.host8 m ρ c main_call0_v4 (by decide)).trans ((Keep.region7 m ρ c main_call0_v4 (by decide)).trans ((Keep.host7 m ρ c main_call0_v4 (by decide)).trans ((Keep.region6 m ρ c main_call0_v4 (by decide)).trans ((Keep.host6 m ρ c main_call0_v4 (by decide)).trans ((Keep.region5 m ρ c main_call0_v4 (by decide)).trans ((Keep.host5 m ρ c main_call0_v4 (by decide)).trans ((Keep.region4 m ρ c main_call0_v4 (by decide)).trans ((Keep.host4 m ρ c main_call0_v4 (by decide)).trans ((Keep.region3 m ρ c main_call0_v4 (by decide)).trans ((Keep.host3 m ρ c main_call0_v4 (by decide)).trans ((Keep.region2 m ρ c main_call0_v4 (by decide)).trans ((Keep.host2 m ρ c main_call0_v4 (by decide)).trans ((Keep.region1 m ρ c main_call0_v4 (by decide)).trans ((Keep.host1 m ρ c main_call0_v4 (by decide)).trans ((Keep.region0 m ρ c main_call0_v4 (by decide)).trans (d_v4 m ρ c)))))))))))))))))))))]
  rfl

theorem d_v61 (c : Dev nD) : W23 m ρ c (Proc.devRef .tc main_call0_v61) = (Ik m c).qkW 3 := by
  show StableHlo.after hostOps11 (W22 m ρ c) (Proc.devRef .tc main_call0_v61) = _
  dsimp only [hostOps11]
  after_results
  rw [show W22 m ρ c (Proc.devRef .tc main_call0_v5) = (m ((c : Thread nD τ).loc main_arg9)) from (Keep.region10 m ρ c main_call0_v5 (by decide)).trans ((Keep.host10 m ρ c main_call0_v5 (by decide)).trans ((Keep.region9 m ρ c main_call0_v5 (by decide)).trans ((Keep.host9 m ρ c main_call0_v5 (by decide)).trans ((Keep.region8 m ρ c main_call0_v5 (by decide)).trans ((Keep.host8 m ρ c main_call0_v5 (by decide)).trans ((Keep.region7 m ρ c main_call0_v5 (by decide)).trans ((Keep.host7 m ρ c main_call0_v5 (by decide)).trans ((Keep.region6 m ρ c main_call0_v5 (by decide)).trans ((Keep.host6 m ρ c main_call0_v5 (by decide)).trans ((Keep.region5 m ρ c main_call0_v5 (by decide)).trans ((Keep.host5 m ρ c main_call0_v5 (by decide)).trans ((Keep.region4 m ρ c main_call0_v5 (by decide)).trans ((Keep.host4 m ρ c main_call0_v5 (by decide)).trans ((Keep.region3 m ρ c main_call0_v5 (by decide)).trans ((Keep.host3 m ρ c main_call0_v5 (by decide)).trans ((Keep.region2 m ρ c main_call0_v5 (by decide)).trans ((Keep.host2 m ρ c main_call0_v5 (by decide)).trans ((Keep.region1 m ρ c main_call0_v5 (by decide)).trans ((Keep.host1 m ρ c main_call0_v5 (by decide)).trans ((Keep.region0 m ρ c main_call0_v5 (by decide)).trans (d_v5 m ρ c)))))))))))))))))))))]
  rfl

theorem d_v64 (c : Dev nD) : W23 m ρ c (Proc.devRef .tc main_call0_v64) = (Ik m c).qkb 3 := by
  show StableHlo.after hostOps11 (W22 m ρ c) (Proc.devRef .tc main_call0_v64) = _
  dsimp only [hostOps11]
  after_results
  rw [show W22 m ρ c (Proc.devRef .tc main_arg10) = (m ((c : Thread nD τ).loc main_arg10)) from (Keep.region10 m ρ c main_arg10 (by decide)).trans ((Keep.host10 m ρ c main_arg10 (by decide)).trans ((Keep.region9 m ρ c main_arg10 (by decide)).trans ((Keep.host9 m ρ c main_arg10 (by decide)).trans ((Keep.region8 m ρ c main_arg10 (by decide)).trans ((Keep.host8 m ρ c main_arg10 (by decide)).trans ((Keep.region7 m ρ c main_arg10 (by decide)).trans ((Keep.host7 m ρ c main_arg10 (by decide)).trans ((Keep.region6 m ρ c main_arg10 (by decide)).trans ((Keep.host6 m ρ c main_arg10 (by decide)).trans ((Keep.region5 m ρ c main_arg10 (by decide)).trans ((Keep.host5 m ρ c main_arg10 (by decide)).trans ((Keep.region4 m ρ c main_arg10 (by decide)).trans ((Keep.host4 m ρ c main_arg10 (by decide)).trans ((Keep.region3 m ρ c main_arg10 (by decide)).trans ((Keep.host3 m ρ c main_arg10 (by decide)).trans ((Keep.region2 m ρ c main_arg10 (by decide)).trans ((Keep.host2 m ρ c main_arg10 (by decide)).trans ((Keep.region1 m ρ c main_arg10 (by decide)).trans ((Keep.host1 m ρ c main_arg10 (by decide)).trans ((Keep.region0 m ρ c main_arg10 (by decide)).trans ((Keep.host0 m ρ c main_arg10 (by decide)).trans (rfl))))))))))))))))))))))]
  rfl

/-- Region 11's result. -/
theorem d_v65 (c : Dev nD) : W24 m ρ c (Proc.devRef .tc main_call0_v65) = g (Ik m c) 3 := by
  refine (W24_arr m ρ c 3).trans ?_
  rw [Reg11.arr]
  unfold Reg11.G
  rw [show V23 m ρ c main_call0_v59 = (Ik m c).qk 3 from d_v59 m ρ c]
  rw [show V23 m ρ c main_call0_v61 = (Ik m c).qkW 3 from d_v61 m ρ c]
  rw [show V23 m ρ c main_call0_v64 = (Ik m c).qkb 3 from d_v64 m ρ c]
  rfl

theorem d_v66 (c : Dev nD) : W25 m ρ c (Proc.devRef .tc main_call0_v66) = (Ik m c).hcb := by
  show StableHlo.after hostOps12 (W24 m ρ c) (Proc.devRef .tc main_call0_v66) = _
  dsimp only [hostOps12]
  after_results
  rw [show W24 m ρ c (Proc.devRef .tc main_arg12) = (m ((c : Thread nD τ).loc main_arg12)) from (Keep.region11 m ρ c main_arg12 (by decide)).trans ((Keep.host11 m ρ c main_arg12 (by decide)).trans ((Keep.region10 m ρ c main_arg12 (by decide)).trans ((Keep.host10 m ρ c main_arg12 (by decide)).trans ((Keep.region9 m ρ c main_arg12 (by decide)).trans ((Keep.host9 m ρ c main_arg12 (by decide)).trans ((Keep.region8 m ρ c main_arg12 (by decide)).trans ((Keep.host8 m ρ c main_arg12 (by decide)).trans ((Keep.region7 m ρ c main_arg12 (by decide)).trans ((Keep.host7 m ρ c main_arg12 (by decide)).trans ((Keep.region6 m ρ c main_arg12 (by decide)).trans ((Keep.host6 m ρ c main_arg12 (by decide)).trans ((Keep.region5 m ρ c main_arg12 (by decide)).trans ((Keep.host5 m ρ c main_arg12 (by decide)).trans ((Keep.region4 m ρ c main_arg12 (by decide)).trans ((Keep.host4 m ρ c main_arg12 (by decide)).trans ((Keep.region3 m ρ c main_arg12 (by decide)).trans ((Keep.host3 m ρ c main_arg12 (by decide)).trans ((Keep.region2 m ρ c main_arg12 (by decide)).trans ((Keep.host2 m ρ c main_arg12 (by decide)).trans ((Keep.region1 m ρ c main_arg12 (by decide)).trans ((Keep.host1 m ρ c main_arg12 (by decide)).trans ((Keep.region0 m ρ c main_arg12 (by decide)).trans ((Keep.host0 m ρ c main_arg12 (by decide)).trans (rfl))))))))))))))))))))))))]
  rfl

/-- Region 12's result. -/
theorem d_v67 (c : Dev nD) : W26 m ρ c (Proc.devRef .tc main_call0_v67) = hc (Ik m c) (h2 (Ik m c)) := by
  refine (W26_arr m ρ c 3).trans ?_
  rw [Reg12.arr]
  unfold Reg12.G
  rw [show V25 m ρ c main_call0_v57 = h2 (Ik m c) from (Keep.host12 m ρ c main_call0_v57 (by decide)).trans ((Keep.region11 m ρ c main_call0_v57 (by decide)).trans ((Keep.host11 m ρ c main_call0_v57 (by decide)).trans (d_v57 m ρ c)))]
  rw [show V25 m ρ c main_call0_v6 = (Ik m c).hcW from (Keep.host12 m ρ c main_call0_v6 (by decide)).trans ((Keep.region11 m ρ c main_call0_v6 (by decide)).trans ((Keep.host11 m ρ c main_call0_v6 (by decide)).trans ((Keep.region10 m ρ c main_call0_v6 (by decide)).trans ((Keep.host10 m ρ c main_call0_v6 (by decide)).trans ((Keep.region9 m ρ c main_call0_v6 (by decide)).trans ((Keep.host9 m ρ c main_call0_v6 (by decide)).trans ((Keep.region8 m ρ c main_call0_v6 (by decide)).trans ((Keep.host8 m ρ c main_call0_v6 (by decide)).trans ((Keep.region7 m ρ c main_call0_v6 (by decide)).trans ((Keep.host7 m ρ c main_call0_v6 (by decide)).trans ((Keep.region6 m ρ c main_call0_v6 (by decide)).trans ((Keep.host6 m ρ c main_call0_v6 (by decide)).trans ((Keep.region5 m ρ c main_call0_v6 (by decide)).trans ((Keep.host5 m ρ c main_call0_v6 (by decide)).trans ((Keep.region4 m ρ c main_call0_v6 (by decide)).trans ((Keep.host4 m ρ c main_call0_v6 (by decide)).trans ((Keep.region3 m ρ c main_call0_v6 (by decide)).trans ((Keep.host3 m ρ c main_call0_v6 (by decide)).trans ((Keep.region2 m ρ c main_call0_v6 (by decide)).trans ((Keep.host2 m ρ c main_call0_v6 (by decide)).trans ((Keep.region1 m ρ c main_call0_v6 (by decide)).trans ((Keep.host1 m ρ c main_call0_v6 (by decide)).trans ((Keep.region0 m ρ c main_call0_v6 (by decide)).trans (d_v6 m ρ c))))))))))))))))))))))))]
  rw [show V25 m ρ c main_call0_v66 = (Ik m c).hcb from d_v66 m ρ c]
  rfl

theorem d_v68 (c : Dev nD) : W27 m ρ c (Proc.devRef .tc main_call0_v68) = zrow := by
  show StableHlo.after hostOps13 (W26 m ρ c) (Proc.devRef .tc main_call0_v68) = _
  dsimp only [hostOps13]
  after_results
  rw [show W26 m ρ c (Proc.devRef .tc main_call0_v13) = zvec from (Keep.region12 m ρ c main_call0_v13 (by decide)).trans ((Keep.host12 m ρ c main_call0_v13 (by decide)).trans ((Keep.region11 m ρ c main_call0_v13 (by decide)).trans ((Keep.host11 m ρ c main_call0_v13 (by decide)).trans ((Keep.region10 m ρ c main_call0_v13 (by decide)).trans ((Keep.host10 m ρ c main_call0_v13 (by decide)).trans ((Keep.region9 m ρ c main_call0_v13 (by decide)).trans ((Keep.host9 m ρ c main_call0_v13 (by decide)).trans ((Keep.region8 m ρ c main_call0_v13 (by decide)).trans ((Keep.host8 m ρ c main_call0_v13 (by decide)).trans ((Keep.region7 m ρ c main_call0_v13 (by decide)).trans ((Keep.host7 m ρ c main_call0_v13 (by decide)).trans ((Keep.region6 m ρ c main_call0_v13 (by decide)).trans ((Keep.host6 m ρ c main_call0_v13 (by decide)).trans ((Keep.region5 m ρ c main_call0_v13 (by decide)).trans ((Keep.host5 m ρ c main_call0_v13 (by decide)).trans ((Keep.region4 m ρ c main_call0_v13 (by decide)).trans ((Keep.host4 m ρ c main_call0_v13 (by decide)).trans ((Keep.region3 m ρ c main_call0_v13 (by decide)).trans ((Keep.host3 m ρ c main_call0_v13 (by decide)).trans ((Keep.region2 m ρ c main_call0_v13 (by decide)).trans ((Keep.host2 m ρ c main_call0_v13 (by decide)).trans ((Keep.region1 m ρ c main_call0_v13 (by decide)).trans ((Keep.host1 m ρ c main_call0_v13 (by decide)).trans ((Keep.region0 m ρ c main_call0_v13 (by decide)).trans (d_v13 m ρ c)))))))))))))))))))))))))]
  rfl

/-- Region 13's result. -/
theorem d_v69 (c : Dev nD) : W28 m ρ c (Proc.devRef .tc main_call0_v69) = gate2 (Ik m c) 3 (hc (Ik m c) (h2 (Ik m c))) := by
  refine (W28_arr m ρ c 3).trans ?_
  rw [Reg13.arr]
  unfold Reg13.G
  rw [show V27 m ρ c main_call0_v65 = g (Ik m c) 3 from (Keep.host13 m ρ c main_call0_v65 (by decide)).trans ((Keep.region12 m ρ c main_call0_v65 (by decide)).trans ((Keep.host12 m ρ c main_call0_v65 (by decide)).trans (d_v65 m ρ c)))]
  rw [show V27 m ρ c main_call0_v67 = hc (Ik m c) (h2 (Ik m c)) from (Keep.host13 m ρ c main_call0_v67 (by decide)).trans (d_v67 m ρ c)]
  rw [show V27 m ρ c main_call0_v68 = zrow from d_v68 m ρ c]
  rw [dense_zero _ _ _ zrow_zero]
  rfl

theorem d_v73 (c : Dev nD) : W29 m ρ c (Proc.devRef .tc main_call0_v73) = x2 (Ik m c) := by
  show StableHlo.after hostOps14 (W28 m ρ c) (Proc.devRef .tc main_call0_v73) = _
  dsimp only [hostOps14]
  after_results
  rw [show W28 m ρ c (Proc.devRef .tc main_call0_v69) = gate2 (Ik m c) 3 (hc (Ik m c) (h2 (Ik m c))) from d_v69 m ρ c]
  rw [show W28 m ρ c (Proc.devRef .tc main_call0_v43) = x1 (Ik m c) from (Keep.region13 m ρ c main_call0_v43 (by decide)).trans ((Keep.host13 m ρ c main_call0_v43 (by decide)).trans ((Keep.region12 m ρ c main_call0_v43 (by decide)).trans ((Keep.host12 m ρ c main_call0_v43 (by decide)).trans ((Keep.region11 m ρ c main_call0_v43 (by decide)).trans ((Keep.host11 m ρ c main_call0_v43 (by decide)).trans ((Keep.region10 m ρ c main_call0_v43 (by decide)).trans ((Keep.host10 m ρ c main_call0_v43 (by decide)).trans ((Keep.region9 m ρ c main_call0_v43 (by decide)).trans ((Keep.host9 m ρ c main_call0_v43 (by decide)).trans ((Keep.region8 m ρ c main_call0_v43 (by decide)).trans ((Keep.host8 m ρ c main_call0_v43 (by decide)).trans ((Keep.region7 m ρ c main_call0_v43 (by decide)).trans (d_v43 m ρ c)))))))))))))]
  rfl

theorem d_v75 (c : Dev nD) : W29 m ρ c (Proc.devRef .tc main_call0_v75) = (Ik m c).qk 4 := by
  show StableHlo.after hostOps14 (W28 m ρ c) (Proc.devRef .tc main_call0_v75) = _
  dsimp only [hostOps14]
  after_results
  rw [show W28 m ρ c (Proc.devRef .tc main_call0_v4) = (m ((c : Thread nD τ).loc main_arg8)) from (Keep.region13 m ρ c main_call0_v4 (by decide)).trans ((Keep.host13 m ρ c main_call0_v4 (by decide)).trans ((Keep.region12 m ρ c main_call0_v4 (by decide)).trans ((Keep.host12 m ρ c main_call0_v4 (by decide)).trans ((Keep.region11 m ρ c main_call0_v4 (by decide)).trans ((Keep.host11 m ρ c main_call0_v4 (by decide)).trans ((Keep.region10 m ρ c main_call0_v4 (by decide)).trans ((Keep.host10 m ρ c main_call0_v4 (by decide)).trans ((Keep.region9 m ρ c main_call0_v4 (by decide)).trans ((Keep.host9 m ρ c main_call0_v4 (by decide)).trans ((Keep.region8 m ρ c main_call0_v4 (by decide)).trans ((Keep.host8 m ρ c main_call0_v4 (by decide)).trans ((Keep.region7 m ρ c main_call0_v4 (by decide)).trans ((Keep.host7 m ρ c main_call0_v4 (by decide)).trans ((Keep.region6 m ρ c main_call0_v4 (by decide)).trans ((Keep.host6 m ρ c main_call0_v4 (by decide)).trans ((Keep.region5 m ρ c main_call0_v4 (by decide)).trans ((Keep.host5 m ρ c main_call0_v4 (by decide)).trans ((Keep.region4 m ρ c main_call0_v4 (by decide)).trans ((Keep.host4 m ρ c main_call0_v4 (by decide)).trans ((Keep.region3 m ρ c main_call0_v4 (by decide)).trans ((Keep.host3 m ρ c main_call0_v4 (by decide)).trans ((Keep.region2 m ρ c main_call0_v4 (by decide)).trans ((Keep.host2 m ρ c main_call0_v4 (by decide)).trans ((Keep.region1 m ρ c main_call0_v4 (by decide)).trans ((Keep.host1 m ρ c main_call0_v4 (by decide)).trans ((Keep.region0 m ρ c main_call0_v4 (by decide)).trans (d_v4 m ρ c)))))))))))))))))))))))))))]
  rfl

theorem d_v77 (c : Dev nD) : W29 m ρ c (Proc.devRef .tc main_call0_v77) = (Ik m c).qkW 4 := by
  show StableHlo.after hostOps14 (W28 m ρ c) (Proc.devRef .tc main_call0_v77) = _
  dsimp only [hostOps14]
  after_results
  rw [show W28 m ρ c (Proc.devRef .tc main_call0_v5) = (m ((c : Thread nD τ).loc main_arg9)) from (Keep.region13 m ρ c main_call0_v5 (by decide)).trans ((Keep.host13 m ρ c main_call0_v5 (by decide)).trans ((Keep.region12 m ρ c main_call0_v5 (by decide)).trans ((Keep.host12 m ρ c main_call0_v5 (by decide)).trans ((Keep.region11 m ρ c main_call0_v5 (by decide)).trans ((Keep.host11 m ρ c main_call0_v5 (by decide)).trans ((Keep.region10 m ρ c main_call0_v5 (by decide)).trans ((Keep.host10 m ρ c main_call0_v5 (by decide)).trans ((Keep.region9 m ρ c main_call0_v5 (by decide)).trans ((Keep.host9 m ρ c main_call0_v5 (by decide)).trans ((Keep.region8 m ρ c main_call0_v5 (by decide)).trans ((Keep.host8 m ρ c main_call0_v5 (by decide)).trans ((Keep.region7 m ρ c main_call0_v5 (by decide)).trans ((Keep.host7 m ρ c main_call0_v5 (by decide)).trans ((Keep.region6 m ρ c main_call0_v5 (by decide)).trans ((Keep.host6 m ρ c main_call0_v5 (by decide)).trans ((Keep.region5 m ρ c main_call0_v5 (by decide)).trans ((Keep.host5 m ρ c main_call0_v5 (by decide)).trans ((Keep.region4 m ρ c main_call0_v5 (by decide)).trans ((Keep.host4 m ρ c main_call0_v5 (by decide)).trans ((Keep.region3 m ρ c main_call0_v5 (by decide)).trans ((Keep.host3 m ρ c main_call0_v5 (by decide)).trans ((Keep.region2 m ρ c main_call0_v5 (by decide)).trans ((Keep.host2 m ρ c main_call0_v5 (by decide)).trans ((Keep.region1 m ρ c main_call0_v5 (by decide)).trans ((Keep.host1 m ρ c main_call0_v5 (by decide)).trans ((Keep.region0 m ρ c main_call0_v5 (by decide)).trans (d_v5 m ρ c)))))))))))))))))))))))))))]
  rfl

theorem d_v80 (c : Dev nD) : W29 m ρ c (Proc.devRef .tc main_call0_v80) = (Ik m c).qkb 4 := by
  show StableHlo.after hostOps14 (W28 m ρ c) (Proc.devRef .tc main_call0_v80) = _
  dsimp only [hostOps14]
  after_results
  rw [show W28 m ρ c (Proc.devRef .tc main_arg10) = (m ((c : Thread nD τ).loc main_arg10)) from (Keep.region13 m ρ c main_arg10 (by decide)).trans ((Keep.host13 m ρ c main_arg10 (by decide)).trans ((Keep.region12 m ρ c main_arg10 (by decide)).trans ((Keep.host12 m ρ c main_arg10 (by decide)).trans ((Keep.region11 m ρ c main_arg10 (by decide)).trans ((Keep.host11 m ρ c main_arg10 (by decide)).trans ((Keep.region10 m ρ c main_arg10 (by decide)).trans ((Keep.host10 m ρ c main_arg10 (by decide)).trans ((Keep.region9 m ρ c main_arg10 (by decide)).trans ((Keep.host9 m ρ c main_arg10 (by decide)).trans ((Keep.region8 m ρ c main_arg10 (by decide)).trans ((Keep.host8 m ρ c main_arg10 (by decide)).trans ((Keep.region7 m ρ c main_arg10 (by decide)).trans ((Keep.host7 m ρ c main_arg10 (by decide)).trans ((Keep.region6 m ρ c main_arg10 (by decide)).trans ((Keep.host6 m ρ c main_arg10 (by decide)).trans ((Keep.region5 m ρ c main_arg10 (by decide)).trans ((Keep.host5 m ρ c main_arg10 (by decide)).trans ((Keep.region4 m ρ c main_arg10 (by decide)).trans ((Keep.host4 m ρ c main_arg10 (by decide)).trans ((Keep.region3 m ρ c main_arg10 (by decide)).trans ((Keep.host3 m ρ c main_arg10 (by decide)).trans ((Keep.region2 m ρ c main_arg10 (by decide)).trans ((Keep.host2 m ρ c main_arg10 (by decide)).trans ((Keep.region1 m ρ c main_arg10 (by decide)).trans ((Keep.host1 m ρ c main_arg10 (by decide)).trans ((Keep.region0 m ρ c main_arg10 (by decide)).trans ((Keep.host0 m ρ c main_arg10 (by decide)).trans (rfl))))))))))))))))))))))))))))]
  rfl

/-- Region 14's result. -/
theorem d_v81 (c : Dev nD) : W30 m ρ c (Proc.devRef .tc main_call0_v81) = g (Ik m c) 4 := by
  refine (W30_arr m ρ c 3).trans ?_
  rw [Reg14.arr]
  unfold Reg14.G
  rw [show V29 m ρ c main_call0_v75 = (Ik m c).qk 4 from d_v75 m ρ c]
  rw [show V29 m ρ c main_call0_v77 = (Ik m c).qkW 4 from d_v77 m ρ c]
  rw [show V29 m ρ c main_call0_v80 = (Ik m c).qkb 4 from d_v80 m ρ c]
  rfl

theorem d_v82 (c : Dev nD) : W31 m ρ c (Proc.devRef .tc main_call0_v82) = zrow := by
  show StableHlo.after hostOps15 (W30 m ρ c) (Proc.devRef .tc main_call0_v82) = _
  dsimp only [hostOps15]
  after_results
  rw [show W30 m ρ c (Proc.devRef .tc main_call0_v13) = zvec from (Keep.region14 m ρ c main_call0_v13 (by decide)).trans ((Keep.host14 m ρ c main_call0_v13 (by decide)).trans ((Keep.region13 m ρ c main_call0_v13 (by decide)).trans ((Keep.host13 m ρ c main_call0_v13 (by decide)).trans ((Keep.region12 m ρ c main_call0_v13 (by decide)).trans ((Keep.host12 m ρ c main_call0_v13 (by decide)).trans ((Keep.region11 m ρ c main_call0_v13 (by decide)).trans ((Keep.host11 m ρ c main_call0_v13 (by decide)).trans ((Keep.region10 m ρ c main_call0_v13 (by decide)).trans ((Keep.host10 m ρ c main_call0_v13 (by decide)).trans ((Keep.region9 m ρ c main_call0_v13 (by decide)).trans ((Keep.host9 m ρ c main_call0_v13 (by decide)).trans ((Keep.region8 m ρ c main_call0_v13 (by decide)).trans ((Keep.host8 m ρ c main_call0_v13 (by decide)).trans ((Keep.region7 m ρ c main_call0_v13 (by decide)).trans ((Keep.host7 m ρ c main_call0_v13 (by decide)).trans ((Keep.region6 m ρ c main_call0_v13 (by decide)).trans ((Keep.host6 m ρ c main_call0_v13 (by decide)).trans ((Keep.region5 m ρ c main_call0_v13 (by decide)).trans ((Keep.host5 m ρ c main_call0_v13 (by decide)).trans ((Keep.region4 m ρ c main_call0_v13 (by decide)).trans ((Keep.host4 m ρ c main_call0_v13 (by decide)).trans ((Keep.region3 m ρ c main_call0_v13 (by decide)).trans ((Keep.host3 m ρ c main_call0_v13 (by decide)).trans ((Keep.region2 m ρ c main_call0_v13 (by decide)).trans ((Keep.host2 m ρ c main_call0_v13 (by decide)).trans ((Keep.region1 m ρ c main_call0_v13 (by decide)).trans ((Keep.host1 m ρ c main_call0_v13 (by decide)).trans ((Keep.region0 m ρ c main_call0_v13 (by decide)).trans (d_v13 m ρ c)))))))))))))))))))))))))))))]
  rfl

/-- Region 15's result. -/
theorem d_v83 (c : Dev nD) : W32 m ρ c (Proc.devRef .tc main_call0_v83) = gate2 (Ik m c) 4 (x2 (Ik m c)) := by
  refine (W32_arr m ρ c 3).trans ?_
  rw [Reg15.arr]
  unfold Reg15.G
  rw [show V31 m ρ c main_call0_v81 = g (Ik m c) 4 from (Keep.host15 m ρ c main_call0_v81 (by decide)).trans (d_v81 m ρ c)]
  rw [show V31 m ρ c main_call0_v73 = x2 (Ik m c) from (Keep.host15 m ρ c main_call0_v73 (by decide)).trans ((Keep.region14 m ρ c main_call0_v73 (by decide)).trans (d_v73 m ρ c))]
  rw [show V31 m ρ c main_call0_v82 = zrow from d_v82 m ρ c]
  rw [dense_zero _ _ _ zrow_zero]
  rfl

theorem d_v84 (c : Dev nD) : W33 m ρ c (Proc.devRef .tc main_call0_v84) = (Ik m c).hcb := by
  show StableHlo.after hostOps16 (W32 m ρ c) (Proc.devRef .tc main_call0_v84) = _
  dsimp only [hostOps16]
  after_results
  rw [show W32 m ρ c (Proc.devRef .tc main_arg12) = (m ((c : Thread nD τ).loc main_arg12)) from (Keep.region15 m ρ c main_arg12 (by decide)).trans ((Keep.host15 m ρ c main_arg12 (by decide)).trans ((Keep.region14 m ρ c main_arg12 (by decide)).trans ((Keep.host14 m ρ c main_arg12 (by decide)).trans ((Keep.region13 m ρ c main_arg12 (by decide)).trans ((Keep.host13 m ρ c main_arg12 (by decide)).trans ((Keep.region12 m ρ c main_arg12 (by decide)).trans ((Keep.host12 m ρ c main_arg12 (by decide)).trans ((Keep.region11 m ρ c main_arg12 (by decide)).trans ((Keep.host11 m ρ c main_arg12 (by decide)).trans ((Keep.region10 m ρ c main_arg12 (by decide)).trans ((Keep.host10 m ρ c main_arg12 (by decide)).trans ((Keep.region9 m ρ c main_arg12 (by decide)).trans ((Keep.host9 m ρ c main_arg12 (by decide)).trans ((Keep.region8 m ρ c main_arg12 (by decide)).trans ((Keep.host8 m ρ c main_arg12 (by decide)).trans ((Keep.region7 m ρ c main_arg12 (by decide)).trans ((Keep.host7 m ρ c main_arg12 (by decide)).trans ((Keep.region6 m ρ c main_arg12 (by decide)).trans ((Keep.host6 m ρ c main_arg12 (by decide)).trans ((Keep.region5 m ρ c main_arg12 (by decide)).trans ((Keep.host5 m ρ c main_arg12 (by decide)).trans ((Keep.region4 m ρ c main_arg12 (by decide)).trans ((Keep.host4 m ρ c main_arg12 (by decide)).trans ((Keep.region3 m ρ c main_arg12 (by decide)).trans ((Keep.host3 m ρ c main_arg12 (by decide)).trans ((Keep.region2 m ρ c main_arg12 (by decide)).trans ((Keep.host2 m ρ c main_arg12 (by decide)).trans ((Keep.region1 m ρ c main_arg12 (by decide)).trans ((Keep.host1 m ρ c main_arg12 (by decide)).trans ((Keep.region0 m ρ c main_arg12 (by decide)).trans ((Keep.host0 m ρ c main_arg12 (by decide)).trans (rfl))))))))))))))))))))))))))))))))]
  rfl

/-- Region 16's result. -/
theorem d_v85 (c : Dev nD) : W34 m ρ c (Proc.devRef .tc main_call0_v85) = hc (Ik m c) (h2 (Ik m c)) := by
  refine (W34_arr m ρ c 3).trans ?_
  rw [Reg16.arr]
  unfold Reg16.G
  rw [show V33 m ρ c main_call0_v57 = h2 (Ik m c) from (Keep.host16 m ρ c main_call0_v57 (by decide)).trans ((Keep.region15 m ρ c main_call0_v57 (by decide)).trans ((Keep.host15 m ρ c main_call0_v57 (by decide)).trans ((Keep.region14 m ρ c main_call0_v57 (by decide)).trans ((Keep.host14 m ρ c main_call0_v57 (by decide)).trans ((Keep.region13 m ρ c main_call0_v57 (by decide)).trans ((Keep.host13 m ρ c main_call0_v57 (by decide)).trans ((Keep.region12 m ρ c main_call0_v57 (by decide)).trans ((Keep.host12 m ρ c main_call0_v57 (by decide)).trans ((Keep.region11 m ρ c main_call0_v57 (by decide)).trans ((Keep.host11 m ρ c main_call0_v57 (by decide)).trans (d_v57 m ρ c)))))))))))]
  rw [show V33 m ρ c main_call0_v6 = (Ik m c).hcW from (Keep.host16 m ρ c main_call0_v6 (by decide)).trans ((Keep.region15 m ρ c main_call0_v6 (by decide)).trans ((Keep.host15 m ρ c main_call0_v6 (by decide)).trans ((Keep.region14 m ρ c main_call0_v6 (by decide)).trans ((Keep.host14 m ρ c main_call0_v6 (by decide)).trans ((Keep.region13 m ρ c main_call0_v6 (by decide)).trans ((Keep.host13 m ρ c main_call0_v6 (by decide)).trans ((Keep.region12 m ρ c main_call0_v6 (by decide)).trans ((Keep.host12 m ρ c main_call0_v6 (by decide)).trans ((Keep.region11 m ρ c main_call0_v6 (by decide)).trans ((Keep.host11 m ρ c main_call0_v6 (by decide)).trans ((Keep.region10 m ρ c main_call0_v6 (by decide)).trans ((Keep.host10 m ρ c main_call0_v6 (by decide)).trans ((Keep.region9 m ρ c main_call0_v6 (by decide)).trans ((Keep.host9 m ρ c main_call0_v6 (by decide)).trans ((Keep.region8 m ρ c main_call0_v6 (by decide)).trans ((Keep.host8 m ρ c main_call0_v6 (by decide)).trans ((Keep.region7 m ρ c main_call0_v6 (by decide)).trans ((Keep.host7 m ρ c main_call0_v6 (by decide)).trans ((Keep.region6 m ρ c main_call0_v6 (by decide)).trans ((Keep.host6 m ρ c main_call0_v6 (by decide)).trans ((Keep.region5 m ρ c main_call0_v6 (by decide)).trans ((Keep.host5 m ρ c main_call0_v6 (by decide)).trans ((Keep.region4 m ρ c main_call0_v6 (by decide)).trans ((Keep.host4 m ρ c main_call0_v6 (by decide)).trans ((Keep.region3 m ρ c main_call0_v6 (by decide)).trans ((Keep.host3 m ρ c main_call0_v6 (by decide)).trans ((Keep.region2 m ρ c main_call0_v6 (by decide)).trans ((Keep.host2 m ρ c main_call0_v6 (by decide)).trans ((Keep.region1 m ρ c main_call0_v6 (by decide)).trans ((Keep.host1 m ρ c main_call0_v6 (by decide)).trans ((Keep.region0 m ρ c main_call0_v6 (by decide)).trans (d_v6 m ρ c))))))))))))))))))))))))))))))))]
  rw [show V33 m ρ c main_call0_v84 = (Ik m c).hcb from d_v84 m ρ c]
  rfl

theorem d_v86 (c : Dev nD) : W35 m ρ c (Proc.devRef .tc main_call0_v86) = (Ik m c).heb := by
  show StableHlo.after hostOps17 (W34 m ρ c) (Proc.devRef .tc main_call0_v86) = _
  dsimp only [hostOps17]
  after_results
  rw [show W34 m ρ c (Proc.devRef .tc main_arg14) = (m ((c : Thread nD τ).loc main_arg14)) from (Keep.region16 m ρ c main_arg14 (by decide)).trans ((Keep.host16 m ρ c main_arg14 (by decide)).trans ((Keep.region15 m ρ c main_arg14 (by decide)).trans ((Keep.host15 m ρ c main_arg14 (by decide)).trans ((Keep.region14 m ρ c main_arg14 (by decide)).trans ((Keep.host14 m ρ c main_arg14 (by decide)).trans ((Keep.region13 m ρ c main_arg14 (by decide)).trans ((Keep.host13 m ρ c main_arg14 (by decide)).trans ((Keep.region12 m ρ c main_arg14 (by decide)).trans ((Keep.host12 m ρ c main_arg14 (by decide)).trans ((Keep.region11 m ρ c main_arg14 (by decide)).trans ((Keep.host11 m ρ c main_arg14 (by decide)).trans ((Keep.region10 m ρ c main_arg14 (by decide)).trans ((Keep.host10 m ρ c main_arg14 (by decide)).trans ((Keep.region9 m ρ c main_arg14 (by decide)).trans ((Keep.host9 m ρ c main_arg14 (by decide)).trans ((Keep.region8 m ρ c main_arg14 (by decide)).trans ((Keep.host8 m ρ c main_arg14 (by decide)).trans ((Keep.region7 m ρ c main_arg14 (by decide)).trans ((Keep.host7 m ρ c main_arg14 (by decide)).trans ((Keep.region6 m ρ c main_arg14 (by decide)).trans ((Keep.host6 m ρ c main_arg14 (by decide)).trans ((Keep.region5 m ρ c main_arg14 (by decide)).trans ((Keep.host5 m ρ c main_arg14 (by decide)).trans ((Keep.region4 m ρ c main_arg14 (by decide)).trans ((Keep.host4 m ρ c main_arg14 (by decide)).trans ((Keep.region3 m ρ c main_arg14 (by decide)).trans ((Keep.host3 m ρ c main_arg14 (by decide)).trans ((Keep.region2 m ρ c main_arg14 (by decide)).trans ((Keep.host2 m ρ c main_arg14 (by decide)).trans ((Keep.region1 m ρ c main_arg14 (by decide)).trans ((Keep.host1 m ρ c main_arg14 (by decide)).trans ((Keep.region0 m ρ c main_arg14 (by decide)).trans ((Keep.host0 m ρ c main_arg14 (by decide)).trans (rfl))))))))))))))))))))))))))))))))))]
  rfl

/-- Region 17's result. -/
theorem d_v87 (c : Dev nD) : W36 m ρ c (Proc.devRef .tc main_call0_v87) = h3 (Ik m c) := by
  refine (W36_arr m ρ c 4).trans ?_
  rw [Reg17.arr]
  unfold Reg17.G
  rw [show V35 m ρ c main_call0_v83 = gate2 (Ik m c) 4 (x2 (Ik m c)) from (Keep.host17 m ρ c main_call0_v83 (by decide)).trans ((Keep.region16 m ρ c main_call0_v83 (by decide)).trans ((Keep.host16 m ρ c main_call0_v83 (by decide)).trans (d_v83 m ρ c)))]
  rw [show V35 m ρ c main_call0_v85 = hc (Ik m c) (h2 (Ik m c)) from (Keep.host17 m ρ c main_call0_v85 (by decide)).trans (d_v85 m ρ c)]
  rw [show V35 m ρ c main_call0_v7 = (Ik m c).heW from (Keep.host17 m ρ c main_call0_v7 (by decide)).trans ((Keep.region16 m ρ c main_call0_v7 (by decide)).trans ((Keep.host16 m ρ c main_call0_v7 (by decide)).trans ((Keep.region15 m ρ c main_call0_v7 (by decide)).trans ((Keep.host15 m ρ c main_call0_v7 (by decide)).trans ((Keep.region14 m ρ c main_call0_v7 (by decide)).trans ((Keep.host14 m ρ c main_call0_v7 (by decide)).trans ((Keep.region13 m ρ c main_call0_v7 (by decide)).trans ((Keep.host13 m ρ c main_call0_v7 (by decide)).trans ((Keep.region12 m ρ c main_call0_v7 (by decide)).trans ((Keep.host12 m ρ c main_call0_v7 (by decide)).trans ((Keep.region11 m ρ c main_call0_v7 (by decide)).trans ((Keep.host11 m ρ c main_call0_v7 (by decide)).trans ((Keep.region10 m ρ c main_call0_v7 (by decide)).trans ((Keep.host10 m ρ c main_call0_v7 (by decide)).trans ((Keep.region9 m ρ c main_call0_v7 (by decide)).trans ((Keep.host9 m ρ c main_call0_v7 (by decide)).trans ((Keep.region8 m ρ c main_call0_v7 (by decide)).trans ((Keep.host8 m ρ c main_call0_v7 (by decide)).trans ((Keep.region7 m ρ c main_call0_v7 (by decide)).trans ((Keep.host7 m ρ c main_call0_v7 (by decide)).trans ((Keep.region6 m ρ c main_call0_v7 (by decide)).trans ((Keep.host6 m ρ c main_call0_v7 (by decide)).trans ((Keep.region5 m ρ c main_call0_v7 (by decide)).trans ((Keep.host5 m ρ c main_call0_v7 (by decide)).trans ((Keep.region4 m ρ c main_call0_v7 (by decide)).trans ((Keep.host4 m ρ c main_call0_v7 (by decide)).trans ((Keep.region3 m ρ c main_call0_v7 (by decide)).trans ((Keep.host3 m ρ c main_call0_v7 (by decide)).trans ((Keep.region2 m ρ c main_call0_v7 (by decide)).trans ((Keep.host2 m ρ c main_call0_v7 (by decide)).trans ((Keep.region1 m ρ c main_call0_v7 (by decide)).trans ((Keep.host1 m ρ c main_call0_v7 (by decide)).trans ((Keep.region0 m ρ c main_call0_v7 (by decide)).trans (d_v7 m ρ c))))))))))))))))))))))))))))))))))]
  rw [show V35 m ρ c main_call0_v86 = (Ik m c).heb from d_v86 m ρ c]
  rfl

theorem d_v88 (c : Dev nD) : W37 m ρ c (Proc.devRef .tc main_call0_v88) = (Ik m c).hcb := by
  show StableHlo.after hostOps18 (W36 m ρ c) (Proc.devRef .tc main_call0_v88) = _
  dsimp only [hostOps18]
  after_results
  rw [show W36 m ρ c (Proc.devRef .tc main_arg12) = (m ((c : Thread nD τ).loc main_arg12)) from (Keep.region17 m ρ c main_arg12 (by decide)).trans ((Keep.host17 m ρ c main_arg12 (by decide)).trans ((Keep.region16 m ρ c main_arg12 (by decide)).trans ((Keep.host16 m ρ c main_arg12 (by decide)).trans ((Keep.region15 m ρ c main_arg12 (by decide)).trans ((Keep.host15 m ρ c main_arg12 (by decide)).trans ((Keep.region14 m ρ c main_arg12 (by decide)).trans ((Keep.host14 m ρ c main_arg12 (by decide)).trans ((Keep.region13 m ρ c main_arg12 (by decide)).trans ((Keep.host13 m ρ c main_arg12 (by decide)).trans ((Keep.region12 m ρ c main_arg12 (by decide)).trans ((Keep.host12 m ρ c main_arg12 (by decide)).trans ((Keep.region11 m ρ c main_arg12 (by decide)).trans ((Keep.host11 m ρ c main_arg12 (by decide)).trans ((Keep.region10 m ρ c main_arg12 (by decide)).trans ((Keep.host10 m ρ c main_arg12 (by decide)).trans ((Keep.region9 m ρ c main_arg12 (by decide)).trans ((Keep.host9 m ρ c main_arg12 (by decide)).trans ((Keep.region8 m ρ c main_arg12 (by decide)).trans ((Keep.host8 m ρ c main_arg12 (by decide)).trans ((Keep.region7 m ρ c main_arg12 (by decide)).trans ((Keep.host7 m ρ c main_arg12 (by decide)).trans ((Keep.region6 m ρ c main_arg12 (by decide)).trans ((Keep.host6 m ρ c main_arg12 (by decide)).trans ((Keep.region5 m ρ c main_arg12 (by decide)).trans ((Keep.host5 m ρ c main_arg12 (by decide)).trans ((Keep.region4 m ρ c main_arg12 (by decide)).trans ((Keep.host4 m ρ c main_arg12 (by decide)).trans ((Keep.region3 m ρ c main_arg12 (by decide)).trans ((Keep.host3 m ρ c main_arg12 (by decide)).trans ((Keep.region2 m ρ c main_arg12 (by decide)).trans ((Keep.host2 m ρ c main_arg12 (by decide)).trans ((Keep.region1 m ρ c main_arg12 (by decide)).trans ((Keep.host1 m ρ c main_arg12 (by decide)).trans ((Keep.region0 m ρ c main_arg12 (by decide)).trans ((Keep.host0 m ρ c main_arg12 (by decide)).trans (rfl))))))))))))))))))))))))))))))))))))]
  rfl

/-- Region 18's result. -/
theorem d_v89 (c : Dev nD) : W38 m ρ c (Proc.devRef .tc main_call0_v89) = hcF (Ik m c) := by
  refine (W38_arr m ρ c 3).trans ?_
  rw [Reg18.arr]
  unfold Reg18.G
  rw [show V37 m ρ c main_call0_v87 = h3 (Ik m c) from (Keep.host18 m ρ c main_call0_v87 (by decide)).trans (d_v87 m ρ c)]
  rw [show V37 m ρ c main_call0_v6 = (Ik m c).hcW from (Keep.host18 m ρ c main_call0_v6 (by decide)).trans ((Keep.region17 m ρ c main_call0_v6 (by decide)).trans ((Keep.host17 m ρ c main_call0_v6 (by decide)).trans ((Keep.region16 m ρ c main_call0_v6 (by decide)).trans ((Keep.host16 m ρ c main_call0_v6 (by decide)).trans ((Keep.region15 m ρ c main_call0_v6 (by decide)).trans ((Keep.host15 m ρ c main_call0_v6 (by decide)).trans ((Keep.region14 m ρ c main_call0_v6 (by decide)).trans ((Keep.host14 m ρ c main_call0_v6 (by decide)).trans ((Keep.region13 m ρ c main_call0_v6 (by decide)).trans ((Keep.host13 m ρ c main_call0_v6 (by decide)).trans ((Keep.region12 m ρ c main_call0_v6 (by decide)).trans ((Keep.host12 m ρ c main_call0_v6 (by decide)).trans ((Keep.region11 m ρ c main_call0_v6 (by decide)).trans ((Keep.host11 m ρ c main_call0_v6 (by decide)).trans ((Keep.region10 m ρ c main_call0_v6 (by decide)).trans ((Keep.host10 m ρ c main_call0_v6 (by decide)).trans ((Keep.region9 m ρ c main_call0_v6 (by decide)).trans ((Keep.host9 m ρ c main_call0_v6 (by decide)).trans ((Keep.region8 m ρ c main_call0_v6 (by decide)).trans ((Keep.host8 m ρ c main_call0_v6 (by decide)).trans ((Keep.region7 m ρ c main_call0_v6 (by decide)).trans ((Keep.host7 m ρ c main_call0_v6 (by decide)).trans ((Keep.region6 m ρ c main_call0_v6 (by decide)).trans ((Keep.host6 m ρ c main_call0_v6 (by decide)).trans ((Keep.region5 m ρ c main_call0_v6 (by decide)).trans ((Keep.host5 m ρ c main_call0_v6 (by decide)).trans ((Keep.region4 m ρ c main_call0_v6 (by decide)).trans ((Keep.host4 m ρ c main_call0_v6 (by decide)).trans ((Keep.region3 m ρ c main_call0_v6 (by decide)).trans ((Keep.host3 m ρ c main_call0_v6 (by decide)).trans ((Keep.region2 m ρ c main_call0_v6 (by decide)).trans ((Keep.host2 m ρ c main_call0_v6 (by decide)).trans ((Keep.region1 m ρ c main_call0_v6 (by decide)).trans ((Keep.host1 m ρ c main_call0_v6 (by decide)).trans ((Keep.region0 m ρ c main_call0_v6 (by decide)).trans (d_v6 m ρ c))))))))))))))))))))))))))))))))))))]
  rw [show V37 m ρ c main_call0_v88 = (Ik m c).hcb from d_v88 m ρ c]
  rfl

theorem d_v91 (c : Dev nD) : W39 m ρ c (Proc.devRef .tc main_call0_v91) = (Ik m c).wx 0 := by
  show StableHlo.after hostOps19 (W38 m ρ c) (Proc.devRef .tc main_call0_v91) = _
  dsimp only [hostOps19]
  after_results
  rw [show W38 m ρ c (Proc.devRef .tc main_call0_v0) = (m ((c : Thread nD τ).loc main_arg1)) from (Keep.region18 m ρ c main_call0_v0 (by decide)).trans ((Keep.host18 m ρ c main_call0_v0 (by decide)).trans ((Keep.region17 m ρ c main_call0_v0 (by decide)).trans ((Keep.host17 m ρ c main_call0_v0 (by decide)).trans ((Keep.region16 m ρ c main_call0_v0 (by decide)).trans ((Keep.host16 m ρ c main_call0_v0 (by decide)).trans ((Keep.region15 m ρ c main_call0_v0 (by decide)).trans ((Keep.host15 m ρ c main_call0_v0 (by decide)).trans ((Keep.region14 m ρ c main_call0_v0 (by decide)).trans ((Keep.host14 m ρ c main_call0_v0 (by decide)).trans ((Keep.region13 m ρ c main_call0_v0 (by decide)).trans ((Keep.host13 m ρ c main_call0_v0 (by decide)).trans ((Keep.region12 m ρ c main_call0_v0 (by decide)).trans ((Keep.host12 m ρ c main_call0_v0 (by decide)).trans ((Keep.region11 m ρ c main_call0_v0 (by decide)).trans ((Keep.host11 m ρ c main_call0_v0 (by decide)).trans ((Keep.region10 m ρ c main_call0_v0 (by decide)).trans ((Keep.host10 m ρ c main_call0_v0 (by decide)).trans ((Keep.region9 m ρ c main_call0_v0 (by decide)).trans ((Keep.host9 m ρ c main_call0_v0 (by decide)).trans ((Keep.region8 m ρ c main_call0_v0 (by decide)).trans ((Keep.host8 m ρ c main_call0_v0 (by decide)).trans ((Keep.region7 m ρ c main_call0_v0 (by decide)).trans ((Keep.host7 m ρ c main_call0_v0 (by decide)).trans ((Keep.region6 m ρ c main_call0_v0 (by decide)).trans ((Keep.host6 m ρ c main_call0_v0 (by decide)).trans ((Keep.region5 m ρ c main_call0_v0 (by decide)).trans ((Keep.host5 m ρ c main_call0_v0 (by decide)).trans ((Keep.region4 m ρ c main_call0_v0 (by decide)).trans ((Keep.host4 m ρ c main_call0_v0 (by decide)).trans ((Keep.region3 m ρ c main_call0_v0 (by decide)).trans ((Keep.host3 m ρ c main_call0_v0 (by decide)).trans ((Keep.region2 m ρ c main_call0_v0 (by decide)).trans ((Keep.host2 m ρ c main_call0_v0 (by decide)).trans ((Keep.region1 m ρ c main_call0_v0 (by decide)).trans ((Keep.host1 m ρ c main_call0_v0 (by decide)).trans ((Keep.region0 m ρ c main_call0_v0 (by decide)).trans (d_v0 m ρ c)))))))))))))))))))))))))))))))))))))]
  rfl

theorem d_v93 (c : Dev nD) : W39 m ρ c (Proc.devRef .tc main_call0_v93) = (Ik m c).dxW 0 := by
  show StableHlo.after hostOps19 (W38 m ρ c) (Proc.devRef .tc main_call0_v93) = _
  dsimp only [hostOps19]
  after_results
  rw [show W38 m ρ c (Proc.devRef .tc main_call0_v2) = (m ((c : Thread nD τ).loc main_arg4)) from (Keep.region18 m ρ c main_call0_v2 (by decide)).trans ((Keep.host18 m ρ c main_call0_v2 (by decide)).trans ((Keep.region17 m ρ c main_call0_v2 (by decide)).trans ((Keep.host17 m ρ c main_call0_v2 (by decide)).trans ((Keep.region16 m ρ c main_call0_v2 (by decide)).trans ((Keep.host16 m ρ c main_call0_v2 (by decide)).trans ((Keep.region15 m ρ c main_call0_v2 (by decide)).trans ((Keep.host15 m ρ c main_call0_v2 (by decide)).trans ((Keep.region14 m ρ c main_call0_v2 (by decide)).trans ((Keep.host14 m ρ c main_call0_v2 (by decide)).trans ((Keep.region13 m ρ c main_call0_v2 (by decide)).trans ((Keep.host13 m ρ c main_call0_v2 (by decide)).trans ((Keep.region12 m ρ c main_call0_v2 (by decide)).trans ((Keep.host12 m ρ c main_call0_v2 (by decide)).trans ((Keep.region11 m ρ c main_call0_v2 (by decide)).trans ((Keep.host11 m ρ c main_call0_v2 (by decide)).trans ((Keep.region10 m ρ c main_call0_v2 (by decide)).trans ((Keep.host10 m ρ c main_call0_v2 (by decide)).trans ((Keep.region9 m ρ c main_call0_v2 (by decide)).trans ((Keep.host9 m ρ c main_call0_v2 (by decide)).trans ((Keep.region8 m ρ c main_call0_v2 (by decide)).trans ((Keep.host8 m ρ c main_call0_v2 (by decide)).trans ((Keep.region7 m ρ c main_call0_v2 (by decide)).trans ((Keep.host7 m ρ c main_call0_v2 (by decide)).trans ((Keep.region6 m ρ c main_call0_v2 (by decide)).trans ((Keep.host6 m ρ c main_call0_v2 (by decide)).trans ((Keep.region5 m ρ c main_call0_v2 (by decide)).trans ((Keep.host5 m ρ c main_call0_v2 (by decide)).trans ((Keep.region4 m ρ c main_call0_v2 (by decide)).trans ((Keep.host4 m ρ c main_call0_v2 (by decide)).trans ((Keep.region3 m ρ c main_call0_v2 (by decide)).trans ((Keep.host3 m ρ c main_call0_v2 (by decide)).trans ((Keep.region2 m ρ c main_call0_v2 (by decide)).trans ((Keep.host2 m ρ c main_call0_v2 (by decide)).trans ((Keep.region1 m ρ c main_call0_v2 (by decide)).trans ((Keep.host1 m ρ c main_call0_v2 (by decide)).trans ((Keep.region0 m ρ c main_call0_v2 (by decide)).trans (d_v2 m ρ c)))))))))))))))))))))))))))))))))))))]
  rfl

theorem d_v96 (c : Dev nD) : W39 m ρ c (Proc.devRef .tc main_call0_v96) = (Ik m c).dxb 0 := by
  show StableHlo.after hostOps19 (W38 m ρ c) (Proc.devRef .tc main_call0_v96) = _
  dsimp only [hostOps19]
  after_results
  rw [show W38 m ρ c (Proc.devRef .tc main_arg5) = (m ((c : Thread nD τ).loc main_arg5)) from (Keep.region18 m ρ c main_arg5 (by decide)).trans ((Keep.host18 m ρ c main_arg5 (by decide)).trans ((Keep.region17 m ρ c main_arg5 (by decide)).trans ((Keep.host17 m ρ c main_arg5 (by decide)).trans ((Keep.region16 m ρ c main_arg5 (by decide)).trans ((Keep.host16 m ρ c main_arg5 (by decide)).trans ((Keep.region15 m ρ c main_arg5 (by decide)).trans ((Keep.host15 m ρ c main_arg5 (by decide)).trans ((Keep.region14 m ρ c main_arg5 (by decide)).trans ((Keep.host14 m ρ c main_arg5 (by decide)).trans ((Keep.region13 m ρ c main_arg5 (by decide)).trans ((Keep.host13 m ρ c main_arg5 (by decide)).trans ((Keep.region12 m ρ c main_arg5 (by decide)).trans ((Keep.host12 m ρ c main_arg5 (by decide)).trans ((Keep.region11 m ρ c main_arg5 (by decide)).trans ((Keep.host11 m ρ c main_arg5 (by decide)).trans ((Keep.region10 m ρ c main_arg5 (by decide)).trans ((Keep.host10 m ρ c main_arg5 (by decide)).trans ((Keep.region9 m ρ c main_arg5 (by decide)).trans ((Keep.host9 m ρ c main_arg5 (by decide)).trans ((Keep.region8 m ρ c main_arg5 (by decide)).trans ((Keep.host8 m ρ c main_arg5 (by decide)).trans ((Keep.region7 m ρ c main_arg5 (by decide)).trans ((Keep.host7 m ρ c main_arg5 (by decide)).trans ((Keep.region6 m ρ c main_arg5 (by decide)).trans ((Keep.host6 m ρ c main_arg5 (by decide)).trans ((Keep.region5 m ρ c main_arg5 (by decide)).trans ((Keep.host5 m ρ c main_arg5 (by decide)).trans ((Keep.region4 m ρ c main_arg5 (by decide)).trans ((Keep.host4 m ρ c main_arg5 (by decide)).trans ((Keep.region3 m ρ c main_arg5 (by decide)).trans ((Keep.host3 m ρ c main_arg5 (by decide)).trans ((Keep.region2 m ρ c main_arg5 (by decide)).trans ((Keep.host2 m ρ c main_arg5 (by decide)).trans ((Keep.region1 m ρ c main_arg5 (by decide)).trans ((Keep.host1 m ρ c main_arg5 (by decide)).trans ((Keep.region0 m ρ c main_arg5 (by decide)).trans ((Keep.host0 m ρ c main_arg5 (by decide)).trans (rfl))))))))))))))))))))))))))))))))))))))]
  rfl

/-- Region 19's result. -/
theorem d_v97 (c : Dev nD) : W40 m ρ c (Proc.devRef .tc main_call0_v97) = dense ((Ik m c).wx 0) ((Ik m c).dxW 0) ((Ik m c).dxb 0) := by
  refine (W40_arr m ρ c 3).trans ?_
  rw [Reg19.arr]
  unfold Reg19.G
  rw [show V39 m ρ c main_call0_v91 = (Ik m c).wx 0 from d_v91 m ρ c]
  rw [show V39 m ρ c main_call0_v93 = (Ik m c).dxW 0 from d_v93 m ρ c]
  rw [show V39 m ρ c main_call0_v96 = (Ik m c).dxb 0 from d_v96 m ρ c]

theorem d_v99 (c : Dev nD) : W41 m ρ c (Proc.devRef .tc main_call0_v99) = (Ik m c).wh 0 := by
  show StableHlo.after hostOps20 (W40 m ρ c) (Proc.devRef .tc main_call0_v99) = _
  dsimp only [hostOps20]
  after_results
  rw [show W40 m ρ c (Proc.devRef .tc main_call0_v1) = (m ((c : Thread nD τ).loc main_arg2)) from (Keep.region19 m ρ c main_call0_v1 (by decide)).trans ((Keep.host19 m ρ c main_call0_v1 (by decide)).trans ((Keep.region18 m ρ c main_call0_v1 (by decide)).trans ((Keep.host18 m ρ c main_call0_v1 (by decide)).trans ((Keep.region17 m ρ c main_call0_v1 (by decide)).trans ((Keep.host17 m ρ c main_call0_v1 (by decide)).trans ((Keep.region16 m ρ c main_call0_v1 (by decide)).trans ((Keep.host16 m ρ c main_call0_v1 (by decide)).trans ((Keep.region15 m ρ c main_call0_v1 (by decide)).trans ((Keep.host15 m ρ c main_call0_v1 (by decide)).trans ((Keep.region14 m ρ c main_call0_v1 (by decide)).trans ((Keep.host14 m ρ c main_call0_v1 (by decide)).trans ((Keep.region13 m ρ c main_call0_v1 (by decide)).trans ((Keep.host13 m ρ c main_call0_v1 (by decide)).trans ((Keep.region12 m ρ c main_call0_v1 (by decide)).trans ((Keep.host12 m ρ c main_call0_v1 (by decide)).trans ((Keep.region11 m ρ c main_call0_v1 (by decide)).trans ((Keep.host11 m ρ c main_call0_v1 (by decide)).trans ((Keep.region10 m ρ c main_call0_v1 (by decide)).trans ((Keep.host10 m ρ c main_call0_v1 (by decide)).trans ((Keep.region9 m ρ c main_call0_v1 (by decide)).trans ((Keep.host9 m ρ c main_call0_v1 (by decide)).trans ((Keep.region8 m ρ c main_call0_v1 (by decide)).trans ((Keep.host8 m ρ c main_call0_v1 (by decide)).trans ((Keep.region7 m ρ c main_call0_v1 (by decide)).trans ((Keep.host7 m ρ c main_call0_v1 (by decide)).trans ((Keep.region6 m ρ c main_call0_v1 (by decide)).trans ((Keep.host6 m ρ c main_call0_v1 (by decide)).trans ((Keep.region5 m ρ c main_call0_v1 (by decide)).trans ((Keep.host5 m ρ c main_call0_v1 (by decide)).trans ((Keep.region4 m ρ c main_call0_v1 (by decide)).trans ((Keep.host4 m ρ c main_call0_v1 (by decide)).trans ((Keep.region3 m ρ c main_call0_v1 (by decide)).trans ((Keep.host3 m ρ c main_call0_v1 (by decide)).trans ((Keep.region2 m ρ c main_call0_v1 (by decide)).trans ((Keep.host2 m ρ c main_call0_v1 (by decide)).trans ((Keep.region1 m ρ c main_call0_v1 (by decide)).trans ((Keep.host1 m ρ c main_call0_v1 (by decide)).trans ((Keep.region0 m ρ c main_call0_v1 (by decide)).trans (d_v1 m ρ c)))))))))))))))))))))))))))))))))))))))]
  rfl

theorem d_v101 (c : Dev nD) : W41 m ρ c (Proc.devRef .tc main_call0_v101) = (Ik m c).dhW 0 := by
  show StableHlo.after hostOps20 (W40 m ρ c) (Proc.devRef .tc main_call0_v101) = _
  dsimp only [hostOps20]
  after_results
  rw [show W40 m ρ c (Proc.devRef .tc main_call0_v3) = (m ((c : Thread nD τ).loc main_arg6)) from (Keep.region19 m ρ c main_call0_v3 (by decide)).trans ((Keep.host19 m ρ c main_call0_v3 (by decide)).trans ((Keep.region18 m ρ c main_call0_v3 (by decide)).trans ((Keep.host18 m ρ c main_call0_v3 (by decide)).trans ((Keep.region17 m ρ c main_call0_v3 (by decide)).trans ((Keep.host17 m ρ c main_call0_v3 (by decide)).trans ((Keep.region16 m ρ c main_call0_v3 (by decide)).trans ((Keep.host16 m ρ c main_call0_v3 (by decide)).trans ((Keep.region15 m ρ c main_call0_v3 (by decide)).trans ((Keep.host15 m ρ c main_call0_v3 (by decide)).trans ((Keep.region14 m ρ c main_call0_v3 (by decide)).trans ((Keep.host14 m ρ c main_call0_v3 (by decide)).trans ((Keep.region13 m ρ c main_call0_v3 (by decide)).trans ((Keep.host13 m ρ c main_call0_v3 (by decide)).trans ((Keep.region12 m ρ c main_call0_v3 (by decide)).trans ((Keep.host12 m ρ c main_call0_v3 (by decide)).trans ((Keep.region11 m ρ c main_call0_v3 (by decide)).trans ((Keep.host11 m ρ c main_call0_v3 (by decide)).trans ((Keep.region10 m ρ c main_call0_v3 (by decide)).trans ((Keep.host10 m ρ c main_call0_v3 (by decide)).trans ((Keep.region9 m ρ c main_call0_v3 (by decide)).trans ((Keep.host9 m ρ c main_call0_v3 (by decide)).trans ((Keep.region8 m ρ c main_call0_v3 (by decide)).trans ((Keep.host8 m ρ c main_call0_v3 (by decide)).trans ((Keep.region7 m ρ c main_call0_v3 (by decide)).trans ((Keep.host7 m ρ c main_call0_v3 (by decide)).trans ((Keep.region6 m ρ c main_call0_v3 (by decide)).trans ((Keep.host6 m ρ c main_call0_v3 (by decide)).trans ((Keep.region5 m ρ c main_call0_v3 (by decide)).trans ((Keep.host5 m ρ c main_call0_v3 (by decide)).trans ((Keep.region4 m ρ c main_call0_v3 (by decide)).trans ((Keep.host4 m ρ c main_call0_v3 (by decide)).trans ((Keep.region3 m ρ c main_call0_v3 (by decide)).trans ((Keep.host3 m ρ c main_call0_v3 (by decide)).trans ((Keep.region2 m ρ c main_call0_v3 (by decide)).trans ((Keep.host2 m ρ c main_call0_v3 (by decide)).trans ((Keep.region1 m ρ c main_call0_v3 (by decide)).trans ((Keep.host1 m ρ c main_call0_v3 (by decide)).trans ((Keep.region0 m ρ c main_call0_v3 (by decide)).trans (d_v3 m ρ c)))))))))))))))))))))))))))))))))))))))]
  rfl

theorem d_v104 (c : Dev nD) : W41 m ρ c (Proc.devRef .tc main_call0_v104) = (Ik m c).dhb 0 := by
  show StableHlo.after hostOps20 (W40 m ρ c) (Proc.devRef .tc main_call0_v104) = _
  dsimp only [hostOps20]
  after_results
  rw [show W40 m ρ c (Proc.devRef .tc main_arg7) = (m ((c : Thread nD τ).loc main_arg7)) from (Keep.region19 m ρ c main_arg7 (by decide)).trans ((Keep.host19 m ρ c main_arg7 (by decide)).trans ((Keep.region18 m ρ c main_arg7 (by decide)).trans ((Keep.host18 m ρ c main_arg7 (by decide)).trans ((Keep.region17 m ρ c main_arg7 (by decide)).trans ((Keep.host17 m ρ c main_arg7 (by decide)).trans ((Keep.region16 m ρ c main_arg7 (by decide)).trans ((Keep.host16 m ρ c main_arg7 (by decide)).trans ((Keep.region15 m ρ c main_arg7 (by decide)).trans ((Keep.host15 m ρ c main_arg7 (by decide)).trans ((Keep.region14 m ρ c main_arg7 (by decide)).trans ((Keep.host14 m ρ c main_arg7 (by decide)).trans ((Keep.region13 m ρ c main_arg7 (by decide)).trans ((Keep.host13 m ρ c main_arg7 (by decide)).trans ((Keep.region12 m ρ c main_arg7 (by decide)).trans ((Keep.host12 m ρ c main_arg7 (by decide)).trans ((Keep.region11 m ρ c main_arg7 (by decide)).trans ((Keep.host11 m ρ c main_arg7 (by decide)).trans ((Keep.region10 m ρ c main_arg7 (by decide)).trans ((Keep.host10 m ρ c main_arg7 (by decide)).trans ((Keep.region9 m ρ c main_arg7 (by decide)).trans ((Keep.host9 m ρ c main_arg7 (by decide)).trans ((Keep.region8 m ρ c main_arg7 (by decide)).trans ((Keep.host8 m ρ c main_arg7 (by decide)).trans ((Keep.region7 m ρ c main_arg7 (by decide)).trans ((Keep.host7 m ρ c main_arg7 (by decide)).trans ((Keep.region6 m ρ c main_arg7 (by decide)).trans ((Keep.host6 m ρ c main_arg7 (by decide)).trans ((Keep.region5 m ρ c main_arg7 (by decide)).trans ((Keep.host5 m ρ c main_arg7 (by decide)).trans ((Keep.region4 m ρ c main_arg7 (by decide)).trans ((Keep.host4 m ρ c main_arg7 (by decide)).trans ((Keep.region3 m ρ c main_arg7 (by decide)).trans ((Keep.host3 m ρ c main_arg7 (by decide)).trans ((Keep.region2 m ρ c main_arg7 (by decide)).trans ((Keep.host2 m ρ c main_arg7 (by decide)).trans ((Keep.region1 m ρ c main_arg7 (by decide)).trans ((Keep.host1 m ρ c main_arg7 (by decide)).trans ((Keep.region0 m ρ c main_arg7 (by decide)).trans ((Keep.host0 m ρ c main_arg7 (by decide)).trans (rfl))))))))))))))))))))))))))))))))))))))))]
  rfl

/-- Region 20's result. -/
theorem d_v105 (c : Dev nD) : W42 m ρ c (Proc.devRef .tc main_call0_v105) = dense ((Ik m c).wh 0) ((Ik m c).dhW 0) ((Ik m c).dhb 0) := by
  refine (W42_arr m ρ c 3).trans ?_
  rw [Reg20.arr]
  unfold Reg20.G
  rw [show V41 m ρ c main_call0_v99 = (Ik m c).wh 0 from d_v99 m ρ c]
  rw [show V41 m ρ c main_call0_v101 = (Ik m c).dhW 0 from d_v101 m ρ c]
  rw [show V41 m ρ c main_call0_v104 = (Ik m c).dhb 0 from d_v104 m ρ c]

theorem d_v108 (c : Dev nD) : W43 m ρ c (Proc.devRef .tc main_call0_v108) = (Ik m c).b 0 := by
  show StableHlo.after hostOps21 (W42 m ρ c) (Proc.devRef .tc main_call0_v108) = _
  dsimp only [hostOps21]
  after_results
  rw [show W42 m ρ c (Proc.devRef .tc main_arg3) = (m ((c : Thread nD τ).loc main_arg3)) from (Keep.region20 m ρ c main_arg3 (by decide)).trans ((Keep.host20 m ρ c main_arg3 (by decide)).trans ((Keep.region19 m ρ c main_arg3 (by decide)).trans ((Keep.host19 m ρ c main_arg3 (by decide)).trans ((Keep.region18 m ρ c main_arg3 (by decide)).trans ((Keep.host18 m ρ c main_arg3 (by decide)).trans ((Keep.region17 m ρ c main_arg3 (by decide)).trans ((Keep.host17 m ρ c main_arg3 (by decide)).trans ((Keep.region16 m ρ c main_arg3 (by decide)).trans ((Keep.host16 m ρ c main_arg3 (by decide)).trans ((Keep.region15 m ρ c main_arg3 (by decide)).trans ((Keep.host15 m ρ c main_arg3 (by decide)).trans ((Keep.region14 m ρ c main_arg3 (by decide)).trans ((Keep.host14 m ρ c main_arg3 (by decide)).trans ((Keep.region13 m ρ c main_arg3 (by decide)).trans ((Keep.host13 m ρ c main_arg3 (by decide)).trans ((Keep.region12 m ρ c main_arg3 (by decide)).trans ((Keep.host12 m ρ c main_arg3 (by decide)).trans ((Keep.region11 m ρ c main_arg3 (by decide)).trans ((Keep.host11 m ρ c main_arg3 (by decide)).trans ((Keep.region10 m ρ c main_arg3 (by decide)).trans ((Keep.host10 m ρ c main_arg3 (by decide)).trans ((Keep.region9 m ρ c main_arg3 (by decide)).trans ((Keep.host9 m ρ c main_arg3 (by decide)).trans ((Keep.region8 m ρ c main_arg3 (by decide)).trans ((Keep.host8 m ρ c main_arg3 (by decide)).trans ((Keep.region7 m ρ c main_arg3 (by decide)).trans ((Keep.host7 m ρ c main_arg3 (by decide)).trans ((Keep.region6 m ρ c main_arg3 (by decide)).trans ((Keep.host6 m ρ c main_arg3 (by decide)).trans ((Keep.region5 m ρ c main_arg3 (by decide)).trans ((Keep.host5 m ρ c main_arg3 (by decide)).trans ((Keep.region4 m ρ c main_arg3 (by decide)).trans ((Keep.host4 m ρ c main_arg3 (by decide)).trans ((Keep.region3 m ρ c main_arg3 (by decide)).trans ((Keep.host3 m ρ c main_arg3 (by decide)).trans ((Keep.region2 m ρ c main_arg3 (by decide)).trans ((Keep.host2 m ρ c main_arg3 (by decide)).trans ((Keep.region1 m ρ c main_arg3 (by decide)).trans ((Keep.host1 m ρ c main_arg3 (by decide)).trans ((Keep.region0 m ρ c main_arg3 (by decide)).trans ((Keep.host0 m ρ c main_arg3 (by decide)).trans (rfl))))))))))))))))))))))))))))))))))))))))))]
  rfl

/-- Region 21's result. -/
theorem d_v109 (c : Dev nD) : W44 m ρ c (Proc.devRef .tc main_call0_v109) = fGate (Ik m c) := by
  refine (W44_arr m ρ c 5).trans ?_
  rw [Reg21.arr]
  unfold Reg21.G
  rw [show V43 m ρ c main_call0_v97 = dense ((Ik m c).wx 0) ((Ik m c).dxW 0) ((Ik m c).dxb 0) from (Keep.host21 m ρ c main_call0_v97 (by decide)).trans ((Keep.region20 m ρ c main_call0_v97 (by decide)).trans ((Keep.host20 m ρ c main_call0_v97 (by decide)).trans (d_v97 m ρ c)))]
  rw [show V43 m ρ c main_call0_v73 = x2 (Ik m c) from (Keep.host21 m ρ c main_call0_v73 (by decide)).trans ((Keep.region20 m ρ c main_call0_v73 (by decide)).trans ((Keep.host20 m ρ c main_call0_v73 (by decide)).trans ((Keep.region19 m ρ c main_call0_v73 (by decide)).trans ((Keep.host19 m ρ c main_call0_v73 (by decide)).trans ((Keep.region18 m ρ c main_call0_v73 (by decide)).trans ((Keep.host18 m ρ c main_call0_v73 (by decide)).trans ((Keep.region17 m ρ c main_call0_v73 (by decide)).trans ((Keep.host17 m ρ c main_call0_v73 (by decide)).trans ((Keep.region16 m ρ c main_call0_v73 (by decide)).trans ((Keep.host16 m ρ c main_call0_v73 (by decide)).trans ((Keep.region15 m ρ c main_call0_v73 (by decide)).trans ((Keep.host15 m ρ c main_call0_v73 (by decide)).trans ((Keep.region14 m ρ c main_call0_v73 (by decide)).trans (d_v73 m ρ c))))))))))))))]
  rw [show V43 m ρ c main_call0_v105 = dense ((Ik m c).wh 0) ((Ik m c).dhW 0) ((Ik m c).dhb 0) from (Keep.host21 m ρ c main_call0_v105 (by decide)).trans (d_v105 m ρ c)]
  rw [show V43 m ρ c main_call0_v89 = hcF (Ik m c) from (Keep.host21 m ρ c main_call0_v89 (by decide)).trans ((Keep.region20 m ρ c main_call0_v89 (by decide)).trans ((Keep.host20 m ρ c main_call0_v89 (by decide)).trans ((Keep.region19 m ρ c main_call0_v89 (by decide)).trans ((Keep.host19 m ρ c main_call0_v89 (by decide)).trans (d_v89 m ρ c)))))]
  rw [show V43 m ρ c main_call0_v108 = (Ik m c).b 0 from d_v108 m ρ c]
  rfl

theorem d_v111 (c : Dev nD) : W45 m ρ c (Proc.devRef .tc main_call0_v111) = (Ik m c).wx 1 := by
  show StableHlo.after hostOps22 (W44 m ρ c) (Proc.devRef .tc main_call0_v111) = _
  dsimp only [hostOps22]
  after_results
  rw [show W44 m ρ c (Proc.devRef .tc main_call0_v0) = (m ((c : Thread nD τ).loc main_arg1)) from (Keep.region21 m ρ c main_call0_v0 (by decide)).trans ((Keep.host21 m ρ c main_call0_v0 (by decide)).trans ((Keep.region20 m ρ c main_call0_v0 (by decide)).trans ((Keep.host20 m ρ c main_call0_v0 (by decide)).trans ((Keep.region19 m ρ c main_call0_v0 (by decide)).trans ((Keep.host19 m ρ c main_call0_v0 (by decide)).trans ((Keep.region18 m ρ c main_call0_v0 (by decide)).trans ((Keep.host18 m ρ c main_call0_v0 (by decide)).trans ((Keep.region17 m ρ c main_call0_v0 (by decide)).trans ((Keep.host17 m ρ c main_call0_v0 (by decide)).trans ((Keep.region16 m ρ c main_call0_v0 (by decide)).trans ((Keep.host16 m ρ c main_call0_v0 (by decide)).trans ((Keep.region15 m ρ c main_call0_v0 (by decide)).trans ((Keep.host15 m ρ c main_call0_v0 (by decide)).trans ((Keep.region14 m ρ c main_call0_v0 (by decide)).trans ((Keep.host14 m ρ c main_call0_v0 (by decide)).trans ((Keep.region13 m ρ c main_call0_v0 (by decide)).trans ((Keep.host13 m ρ c main_call0_v0 (by decide)).trans ((Keep.region12 m ρ c main_call0_v0 (by decide)).trans ((Keep.host12 m ρ c main_call0_v0 (by decide)).trans ((Keep.region11 m ρ c main_call0_v0 (by decide)).trans ((Keep.host11 m ρ c main_call0_v0 (by decide)).trans ((Keep.region10 m ρ c main_call0_v0 (by decide)).trans ((Keep.host10 m ρ c main_call0_v0 (by decide)).trans ((Keep.region9 m ρ c main_call0_v0 (by decide)).trans ((Keep.host9 m ρ c main_call0_v0 (by decide)).trans ((Keep.region8 m ρ c main_call0_v0 (by decide)).trans ((Keep.host8 m ρ c main_call0_v0 (by decide)).trans ((Keep.region7 m ρ c main_call0_v0 (by decide)).trans ((Keep.host7 m ρ c main_call0_v0 (by decide)).trans ((Keep.region6 m ρ c main_call0_v0 (by decide)).trans ((Keep.host6 m ρ c main_call0_v0 (by decide)).trans ((Keep.region5 m ρ c main_call0_v0 (by decide)).trans ((Keep.host5 m ρ c main_call0_v0 (by decide)).trans ((Keep.region4 m ρ c main_call0_v0 (by decide)).trans ((Keep.host4 m ρ c main_call0_v0 (by decide)).trans ((Keep.region3 m ρ c main_call0_v0 (by decide)).trans ((Keep.host3 m ρ c main_call0_v0 (by decide)).trans ((Keep.region2 m ρ c main_call0_v0 (by decide)).trans ((Keep.host2 m ρ c main_call0_v0 (by decide)).trans ((Keep.region1 m ρ c main_call0_v0 (by decide)).trans ((Keep.host1 m ρ c main_call0_v0 (by decide)).trans ((Keep.region0 m ρ c main_call0_v0 (by decide)).trans (d_v0 m ρ c)))))))))))))))))))))))))))))))))))))))))))]
  rfl

theorem d_v113 (c : Dev nD) : W45 m ρ c (Proc.devRef .tc main_call0_v113) = (Ik m c).dxW 1 := by
  show StableHlo.after hostOps22 (W44 m ρ c) (Proc.devRef .tc main_call0_v113) = _
  dsimp only [hostOps22]
  after_results
  rw [show W44 m ρ c (Proc.devRef .tc main_call0_v2) = (m ((c : Thread nD τ).loc main_arg4)) from (Keep.region21 m ρ c main_call0_v2 (by decide)).trans ((Keep.host21 m ρ c main_call0_v2 (by decide)).trans ((Keep.region20 m ρ c main_call0_v2 (by decide)).trans ((Keep.host20 m ρ c main_call0_v2 (by decide)).trans ((Keep.region19 m ρ c main_call0_v2 (by decide)).trans ((Keep.host19 m ρ c main_call0_v2 (by decide)).trans ((Keep.region18 m ρ c main_call0_v2 (by decide)).trans ((Keep.host18 m ρ c main_call0_v2 (by decide)).trans ((Keep.region17 m ρ c main_call0_v2 (by decide)).trans ((Keep.host17 m ρ c main_call0_v2 (by decide)).trans ((Keep.region16 m ρ c main_call0_v2 (by decide)).trans ((Keep.host16 m ρ c main_call0_v2 (by decide)).trans ((Keep.region15 m ρ c main_call0_v2 (by decide)).trans ((Keep.host15 m ρ c main_call0_v2 (by decide)).trans ((Keep.region14 m ρ c main_call0_v2 (by decide)).trans ((Keep.host14 m ρ c main_call0_v2 (by decide)).trans ((Keep.region13 m ρ c main_call0_v2 (by decide)).trans ((Keep.host13 m ρ c main_call0_v2 (by decide)).trans ((Keep.region12 m ρ c main_call0_v2 (by decide)).trans ((Keep.host12 m ρ c main_call0_v2 (by decide)).trans ((Keep.region11 m ρ c main_call0_v2 (by decide)).trans ((Keep.host11 m ρ c main_call0_v2 (by decide)).trans ((Keep.region10 m ρ c main_call0_v2 (by decide)).trans ((Keep.host10 m ρ c main_call0_v2 (by decide)).trans ((Keep.region9 m ρ c main_call0_v2 (by decide)).trans ((Keep.host9 m ρ c main_call0_v2 (by decide)).trans ((Keep.region8 m ρ c main_call0_v2 (by decide)).trans ((Keep.host8 m ρ c main_call0_v2 (by decide)).trans ((Keep.region7 m ρ c main_call0_v2 (by decide)).trans ((Keep.host7 m ρ c main_call0_v2 (by decide)).trans ((Keep.region6 m ρ c main_call0_v2 (by decide)).trans ((Keep.host6 m ρ c main_call0_v2 (by decide)).trans ((Keep.region5 m ρ c main_call0_v2 (by decide)).trans ((Keep.host5 m ρ c main_call0_v2 (by decide)).trans ((Keep.region4 m ρ c main_call0_v2 (by decide)).trans ((Keep.host4 m ρ c main_call0_v2 (by decide)).trans ((Keep.region3 m ρ c main_call0_v2 (by decide)).trans ((Keep.host3 m ρ c main_call0_v2 (by decide)).trans ((Keep.region2 m ρ c main_call0_v2 (by decide)).trans ((Keep.host2 m ρ c main_call0_v2 (by decide)).trans ((Keep.region1 m ρ c main_call0_v2 (by decide)).trans ((Keep.host1 m ρ c main_call0_v2 (by decide)).trans ((Keep.region0 m ρ c main_call0_v2 (by decide)).trans (d_v2 m ρ c)))))))))))))))))))))))))))))))))))))))))))]
  rfl

theorem d_v116 (c : Dev nD) : W45 m ρ c (Proc.devRef .tc main_call0_v116) = (Ik m c).dxb 1 := by
  show StableHlo.after hostOps22 (W44 m ρ c) (Proc.devRef .tc main_call0_v116) = _
  dsimp only [hostOps22]
  after_results
  rw [show W44 m ρ c (Proc.devRef .tc main_arg5) = (m ((c : Thread nD τ).loc main_arg5)) from (Keep.region21 m ρ c main_arg5 (by decide)).trans ((Keep.host21 m ρ c main_arg5 (by decide)).trans ((Keep.region20 m ρ c main_arg5 (by decide)).trans ((Keep.host20 m ρ c main_arg5 (by decide)).trans ((Keep.region19 m ρ c main_arg5 (by decide)).trans ((Keep.host19 m ρ c main_arg5 (by decide)).trans ((Keep.region18 m ρ c main_arg5 (by decide)).trans ((Keep.host18 m ρ c main_arg5 (by decide)).trans ((Keep.region17 m ρ c main_arg5 (by decide)).trans ((Keep.host17 m ρ c main_arg5 (by decide)).trans ((Keep.region16 m ρ c main_arg5 (by decide)).trans ((Keep.host16 m ρ c main_arg5 (by decide)).trans ((Keep.region15 m ρ c main_arg5 (by decide)).trans ((Keep.host15 m ρ c main_arg5 (by decide)).trans ((Keep.region14 m ρ c main_arg5 (by decide)).trans ((Keep.host14 m ρ c main_arg5 (by decide)).trans ((Keep.region13 m ρ c main_arg5 (by decide)).trans ((Keep.host13 m ρ c main_arg5 (by decide)).trans ((Keep.region12 m ρ c main_arg5 (by decide)).trans ((Keep.host12 m ρ c main_arg5 (by decide)).trans ((Keep.region11 m ρ c main_arg5 (by decide)).trans ((Keep.host11 m ρ c main_arg5 (by decide)).trans ((Keep.region10 m ρ c main_arg5 (by decide)).trans ((Keep.host10 m ρ c main_arg5 (by decide)).trans ((Keep.region9 m ρ c main_arg5 (by decide)).trans ((Keep.host9 m ρ c main_arg5 (by decide)).trans ((Keep.region8 m ρ c main_arg5 (by decide)).trans ((Keep.host8 m ρ c main_arg5 (by decide)).trans ((Keep.region7 m ρ c main_arg5 (by decide)).trans ((Keep.host7 m ρ c main_arg5 (by decide)).trans ((Keep.region6 m ρ c main_arg5 (by decide)).trans ((Keep.host6 m ρ c main_arg5 (by decide)).trans ((Keep.region5 m ρ c main_arg5 (by decide)).trans ((Keep.host5 m ρ c main_arg5 (by decide)).trans ((Keep.region4 m ρ c main_arg5 (by decide)).trans ((Keep.host4 m ρ c main_arg5 (by decide)).trans ((Keep.region3 m ρ c main_arg5 (by decide)).trans ((Keep.host3 m ρ c main_arg5 (by decide)).trans ((Keep.region2 m ρ c main_arg5 (by decide)).trans ((Keep.host2 m ρ c main_arg5 (by decide)).trans ((Keep.region1 m ρ c main_arg5 (by decide)).trans ((Keep.host1 m ρ c main_arg5 (by decide)).trans ((Keep.region0 m ρ c main_arg5 (by decide)).trans ((Keep.host0 m ρ c main_arg5 (by decide)).trans (rfl))))))))))))))))))))))))))))))))))))))))))))]
  rfl

/-- Region 22's result. -/
theorem d_v117 (c : Dev nD) : W46 m ρ c (Proc.devRef .tc main_call0_v117) = dense ((Ik m c).wx 1) ((Ik m c).dxW 1) ((Ik m c).dxb 1) := by
  refine (W46_arr m ρ c 3).trans ?_
  rw [Reg22.arr]
  unfold Reg22.G
  rw [show V45 m ρ c main_call0_v111 = (Ik m c).wx 1 from d_v111 m ρ c]
  rw [show V45 m ρ c main_call0_v113 = (Ik m c).dxW 1 from d_v113 m ρ c]
  rw [show V45 m ρ c main_call0_v116 = (Ik m c).dxb 1 from d_v116 m ρ c]

theorem d_v119 (c : Dev nD) : W47 m ρ c (Proc.devRef .tc main_call0_v119) = (Ik m c).wh 1 := by
  show StableHlo.after hostOps23 (W46 m ρ c) (Proc.devRef .tc main_call0_v119) = _
  dsimp only [hostOps23]
  after_results
  rw [show W46 m ρ c (Proc.devRef .tc main_call0_v1) = (m ((c : Thread nD τ).loc main_arg2)) from (Keep.region22 m ρ c main_call0_v1 (by decide)).trans ((Keep.host22 m ρ c main_call0_v1 (by decide)).trans ((Keep.region21 m ρ c main_call0_v1 (by decide)).trans ((Keep.host21 m ρ c main_call0_v1 (by decide)).trans ((Keep.region20 m ρ c main_call0_v1 (by decide)).trans ((Keep.host20 m ρ c main_call0_v1 (by decide)).trans ((Keep.region19 m ρ c main_call0_v1 (by decide)).trans ((Keep.host19 m ρ c main_call0_v1 (by decide)).trans ((Keep.region18 m ρ c main_call0_v1 (by decide)).trans ((Keep.host18 m ρ c main_call0_v1 (by decide)).trans ((Keep.region17 m ρ c main_call0_v1 (by decide)).trans ((Keep.host17 m ρ c main_call0_v1 (by decide)).trans ((Keep.region16 m ρ c main_call0_v1 (by decide)).trans ((Keep.host16 m ρ c main_call0_v1 (by decide)).trans ((Keep.region15 m ρ c main_call0_v1 (by decide)).trans ((Keep.host15 m ρ c main_call0_v1 (by decide)).trans ((Keep.region14 m ρ c main_call0_v1 (by decide)).trans ((Keep.host14 m ρ c main_call0_v1 (by decide)).trans ((Keep.region13 m ρ c main_call0_v1 (by decide)).trans ((Keep.host13 m ρ c main_call0_v1 (by decide)).trans ((Keep.region12 m ρ c main_call0_v1 (by decide)).trans ((Keep.host12 m ρ c main_call0_v1 (by decide)).trans ((Keep.region11 m ρ c main_call0_v1 (by decide)).trans ((Keep.host11 m ρ c main_call0_v1 (by decide)).trans ((Keep.region10 m ρ c main_call0_v1 (by decide)).trans ((Keep.host10 m ρ c main_call0_v1 (by decide)).trans ((Keep.region9 m ρ c main_call0_v1 (by decide)).trans ((Keep.host9 m ρ c main_call0_v1 (by decide)).trans ((Keep.region8 m ρ c main_call0_v1 (by decide)).trans ((Keep.host8 m ρ c main_call0_v1 (by decide)).trans ((Keep.region7 m ρ c main_call0_v1 (by decide)).trans ((Keep.host7 m ρ c main_call0_v1 (by decide)).trans ((Keep.region6 m ρ c main_call0_v1 (by decide)).trans ((Keep.host6 m ρ c main_call0_v1 (by decide)).trans ((Keep.region5 m ρ c main_call0_v1 (by decide)).trans ((Keep.host5 m ρ c main_call0_v1 (by decide)).trans ((Keep.region4 m ρ c main_call0_v1 (by decide)).trans ((Keep.host4 m ρ c main_call0_v1 (by decide)).trans ((Keep.region3 m ρ c main_call0_v1 (by decide)).trans ((Keep.host3 m ρ c main_call0_v1 (by decide)).trans ((Keep.region2 m ρ c main_call0_v1 (by decide)).trans ((Keep.host2 m ρ c main_call0_v1 (by decide)).trans ((Keep.region1 m ρ c main_call0_v1 (by decide)).trans ((Keep.host1 m ρ c main_call0_v1 (by decide)).trans ((Keep.region0 m ρ c main_call0_v1 (by decide)).trans (d_v1 m ρ c)))))))))))))))))))))))))))))))))))))))))))))]
  rfl

theorem d_v121 (c : Dev nD) : W47 m ρ c (Proc.devRef .tc main_call0_v121) = (Ik m c).dhW 1 := by
  show StableHlo.after hostOps23 (W46 m ρ c) (Proc.devRef .tc main_call0_v121) = _
  dsimp only [hostOps23]
  after_results
  rw [show W46 m ρ c (Proc.devRef .tc main_call0_v3) = (m ((c : Thread nD τ).loc main_arg6)) from (Keep.region22 m ρ c main_call0_v3 (by decide)).trans ((Keep.host22 m ρ c main_call0_v3 (by decide)).trans ((Keep.region21 m ρ c main_call0_v3 (by decide)).trans ((Keep.host21 m ρ c main_call0_v3 (by decide)).trans ((Keep.region20 m ρ c main_call0_v3 (by decide)).trans ((Keep.host20 m ρ c main_call0_v3 (by decide)).trans ((Keep.region19 m ρ c main_call0_v3 (by decide)).trans ((Keep.host19 m ρ c main_call0_v3 (by decide)).trans ((Keep.region18 m ρ c main_call0_v3 (by decide)).trans ((Keep.host18 m ρ c main_call0_v3 (by decide)).trans ((Keep.region17 m ρ c main_call0_v3 (by decide)).trans ((Keep.host17 m ρ c main_call0_v3 (by decide)).trans ((Keep.region16 m ρ c main_call0_v3 (by decide)).trans ((Keep.host16 m ρ c main_call0_v3 (by decide)).trans ((Keep.region15 m ρ c main_call0_v3 (by decide)).trans ((Keep.host15 m ρ c main_call0_v3 (by decide)).trans ((Keep.region14 m ρ c main_call0_v3 (by decide)).trans ((Keep.host14 m ρ c main_call0_v3 (by decide)).trans ((Keep.region13 m ρ c main_call0_v3 (by decide)).trans ((Keep.host13 m ρ c main_call0_v3 (by decide)).trans ((Keep.region12 m ρ c main_call0_v3 (by decide)).trans ((Keep.host12 m ρ c main_call0_v3 (by decide)).trans ((Keep.region11 m ρ c main_call0_v3 (by decide)).trans ((Keep.host11 m ρ c main_call0_v3 (by decide)).trans ((Keep.region10 m ρ c main_call0_v3 (by decide)).trans ((Keep.host10 m ρ c main_call0_v3 (by decide)).trans ((Keep.region9 m ρ c main_call0_v3 (by decide)).trans ((Keep.host9 m ρ c main_call0_v3 (by decide)).trans ((Keep.region8 m ρ c main_call0_v3 (by decide)).trans ((Keep.host8 m ρ c main_call0_v3 (by decide)).trans ((Keep.region7 m ρ c main_call0_v3 (by decide)).trans ((Keep.host7 m ρ c main_call0_v3 (by decide)).trans ((Keep.region6 m ρ c main_call0_v3 (by decide)).trans ((Keep.host6 m ρ c main_call0_v3 (by decide)).trans ((Keep.region5 m ρ c main_call0_v3 (by decide)).trans ((Keep.host5 m ρ c main_call0_v3 (by decide)).trans ((Keep.region4 m ρ c main_call0_v3 (by decide)).trans ((Keep.host4 m ρ c main_call0_v3 (by decide)).trans ((Keep.region3 m ρ c main_call0_v3 (by decide)).trans ((Keep.host3 m ρ c main_call0_v3 (by decide)).trans ((Keep.region2 m ρ c main_call0_v3 (by decide)).trans ((Keep.host2 m ρ c main_call0_v3 (by decide)).trans ((Keep.region1 m ρ c main_call0_v3 (by decide)).trans ((Keep.host1 m ρ c main_call0_v3 (by decide)).trans ((Keep.region0 m ρ c main_call0_v3 (by decide)).trans (d_v3 m ρ c)))))))))))))))))))))))))))))))))))))))))))))]
  rfl

theorem d_v124 (c : Dev nD) : W47 m ρ c (Proc.devRef .tc main_call0_v124) = (Ik m c).dhb 1 := by
  show StableHlo.after hostOps23 (W46 m ρ c) (Proc.devRef .tc main_call0_v124) = _
  dsimp only [hostOps23]
  after_results
  rw [show W46 m ρ c (Proc.devRef .tc main_arg7) = (m ((c : Thread nD τ).loc main_arg7)) from (Keep.region22 m ρ c main_arg7 (by decide)).trans ((Keep.host22 m ρ c main_arg7 (by decide)).trans ((Keep.region21 m ρ c main_arg7 (by decide)).trans ((Keep.host21 m ρ c main_arg7 (by decide)).trans ((Keep.region20 m ρ c main_arg7 (by decide)).trans ((Keep.host20 m ρ c main_arg7 (by decide)).trans ((Keep.region19 m ρ c main_arg7 (by decide)).trans ((Keep.host19 m ρ c main_arg7 (by decide)).trans ((Keep.region18 m ρ c main_arg7 (by decide)).trans ((Keep.host18 m ρ c main_arg7 (by decide)).trans ((Keep.region17 m ρ c main_arg7 (by decide)).trans ((Keep.host17 m ρ c main_arg7 (by decide)).trans ((Keep.region16 m ρ c main_arg7 (by decide)).trans ((Keep.host16 m ρ c main_arg7 (by decide)).trans ((Keep.region15 m ρ c main_arg7 (by decide)).trans ((Keep.host15 m ρ c main_arg7 (by decide)).trans ((Keep.region14 m ρ c main_arg7 (by decide)).trans ((Keep.host14 m ρ c main_arg7 (by decide)).trans ((Keep.region13 m ρ c main_arg7 (by decide)).trans ((Keep.host13 m ρ c main_arg7 (by decide)).trans ((Keep.region12 m ρ c main_arg7 (by decide)).trans ((Keep.host12 m ρ c main_arg7 (by decide)).trans ((Keep.region11 m ρ c main_arg7 (by decide)).trans ((Keep.host11 m ρ c main_arg7 (by decide)).trans ((Keep.region10 m ρ c main_arg7 (by decide)).trans ((Keep.host10 m ρ c main_arg7 (by decide)).trans ((Keep.region9 m ρ c main_arg7 (by decide)).trans ((Keep.host9 m ρ c main_arg7 (by decide)).trans ((Keep.region8 m ρ c main_arg7 (by decide)).trans ((Keep.host8 m ρ c main_arg7 (by decide)).trans ((Keep.region7 m ρ c main_arg7 (by decide)).trans ((Keep.host7 m ρ c main_arg7 (by decide)).trans ((Keep.region6 m ρ c main_arg7 (by decide)).trans ((Keep.host6 m ρ c main_arg7 (by decide)).trans ((Keep.region5 m ρ c main_arg7 (by decide)).trans ((Keep.host5 m ρ c main_arg7 (by decide)).trans ((Keep.region4 m ρ c main_arg7 (by decide)).trans ((Keep.host4 m ρ c main_arg7 (by decide)).trans ((Keep.region3 m ρ c main_arg7 (by decide)).trans ((Keep.host3 m ρ c main_arg7 (by decide)).trans ((Keep.region2 m ρ c main_arg7 (by decide)).trans ((Keep.host2 m ρ c main_arg7 (by decide)).trans ((Keep.region1 m ρ c main_arg7 (by decide)).trans ((Keep.host1 m ρ c main_arg7 (by decide)).trans ((Keep.region0 m ρ c main_arg7 (by decide)).trans ((Keep.host0 m ρ c main_arg7 (by decide)).trans (rfl))))))))))))))))))))))))))))))))))))))))))))))]
  rfl

/-- Region 23's result. -/
theorem d_v125 (c : Dev nD) : W48 m ρ c (Proc.devRef .tc main_call0_v125) = dense ((Ik m c).wh 1) ((Ik m c).dhW 1) ((Ik m c).dhb 1) := by
  refine (W48_arr m ρ c 3).trans ?_
  rw [Reg23.arr]
  unfold Reg23.G
  rw [show V47 m ρ c main_call0_v119 = (Ik m c).wh 1 from d_v119 m ρ c]
  rw [show V47 m ρ c main_call0_v121 = (Ik m c).dhW 1 from d_v121 m ρ c]
  rw [show V47 m ρ c main_call0_v124 = (Ik m c).dhb 1 from d_v124 m ρ c]

theorem d_v128 (c : Dev nD) : W49 m ρ c (Proc.devRef .tc main_call0_v128) = (Ik m c).b 1 := by
  show StableHlo.after hostOps24 (W48 m ρ c) (Proc.devRef .tc main_call0_v128) = _
  dsimp only [hostOps24]
  after_results
  rw [show W48 m ρ c (Proc.devRef .tc main_arg3) = (m ((c : Thread nD τ).loc main_arg3)) from (Keep.region23 m ρ c main_arg3 (by decide)).trans ((Keep.host23 m ρ c main_arg3 (by decide)).trans ((Keep.region22 m ρ c main_arg3 (by decide)).trans ((Keep.host22 m ρ c main_arg3 (by decide)).trans ((Keep.region21 m ρ c main_arg3 (by decide)).trans ((Keep.host21 m ρ c main_arg3 (by decide)).trans ((Keep.region20 m ρ c main_arg3 (by decide)).trans ((Keep.host20 m ρ c main_arg3 (by decide)).trans ((Keep.region19 m ρ c main_arg3 (by decide)).trans ((Keep.host19 m ρ c main_arg3 (by decide)).trans ((Keep.region18 m ρ c main_arg3 (by decide)).trans ((Keep.host18 m ρ c main_arg3 (by decide)).trans ((Keep.region17 m ρ c main_arg3 (by decide)).trans ((Keep.host17 m ρ c main_arg3 (by decide)).trans ((Keep.region16 m ρ c main_arg3 (by decide)).trans ((Keep.host16 m ρ c main_arg3 (by decide)).trans ((Keep.region15 m ρ c main_arg3 (by decide)).trans ((Keep.host15 m ρ c main_arg3 (by decide)).trans ((Keep.region14 m ρ c main_arg3 (by decide)).trans ((Keep.host14 m ρ c main_arg3 (by decide)).trans ((Keep.region13 m ρ c main_arg3 (by decide)).trans ((Keep.host13 m ρ c main_arg3 (by decide)).trans ((Keep.region12 m ρ c main_arg3 (by decide)).trans ((Keep.host12 m ρ c main_arg3 (by decide)).trans ((Keep.region11 m ρ c main_arg3 (by decide)).trans ((Keep.host11 m ρ c main_arg3 (by decide)).trans ((Keep.region10 m ρ c main_arg3 (by decide)).trans ((Keep.host10 m ρ c main_arg3 (by decide)).trans ((Keep.region9 m ρ c main_arg3 (by decide)).trans ((Keep.host9 m ρ c main_arg3 (by decide)).trans ((Keep.region8 m ρ c main_arg3 (by decide)).trans ((Keep.host8 m ρ c main_arg3 (by decide)).trans ((Keep.region7 m ρ c main_arg3 (by decide)).trans ((Keep.host7 m ρ c main_arg3 (by decide)).trans ((Keep.region6 m ρ c main_arg3 (by decide)).trans ((Keep.host6 m ρ c main_arg3 (by decide)).trans ((Keep.region5 m ρ c main_arg3 (by decide)).trans ((Keep.host5 m ρ c main_arg3 (by decide)).trans ((Keep.region4 m ρ c main_arg3 (by decide)).trans ((Keep.host4 m ρ c main_arg3 (by decide)).trans ((Keep.region3 m ρ c main_arg3 (by decide)).trans ((Keep.host3 m ρ c main_arg3 (by decide)).trans ((Keep.region2 m ρ c main_arg3 (by decide)).trans ((Keep.host2 m ρ c main_arg3 (by decide)).trans ((Keep.region1 m ρ c main_arg3 (by decide)).trans ((Keep.host1 m ρ c main_arg3 (by decide)).trans ((Keep.region0 m ρ c main_arg3 (by decide)).trans ((Keep.host0 m ρ c main_arg3 (by decide)).trans (rfl))))))))))))))))))))))))))))))))))))))))))))))))]
  rfl

/-- Region 24's result. -/
theorem d_v129 (c : Dev nD) : W50 m ρ c (Proc.devRef .tc main_call0_v129) = iGate (Ik m c) := by
  refine (W50_arr m ρ c 5).trans ?_
  rw [Reg24.arr]
  unfold Reg24.G
  rw [show V49 m ρ c main_call0_v117 = dense ((Ik m c).wx 1) ((Ik m c).dxW 1) ((Ik m c).dxb 1) from (Keep.host24 m ρ c main_call0_v117 (by decide)).trans ((Keep.region23 m ρ c main_call0_v117 (by decide)).trans ((Keep.host23 m ρ c main_call0_v117 (by decide)).trans (d_v117 m ρ c)))]
  rw [show V49 m ρ c main_call0_v73 = x2 (Ik m c) from (Keep.host24 m ρ c main_call0_v73 (by decide)).trans ((Keep.region23 m ρ c main_call0_v73 (by decide)).trans ((Keep.host23 m ρ c main_call0_v73 (by decide)).trans ((Keep.region22 m ρ c main_call0_v73 (by decide)).trans ((Keep.host22 m ρ c main_call0_v73 (by decide)).trans ((Keep.region21 m ρ c main_call0_v73 (by decide)).trans ((Keep.host21 m ρ c main_call0_v73 (by decide)).trans ((Keep.region20 m ρ c main_call0_v73 (by decide)).trans ((Keep.host20 m ρ c main_call0_v73 (by decide)).trans ((Keep.region19 m ρ c main_call0_v73 (by decide)).trans ((Keep.host19 m ρ c main_call0_v73 (by decide)).trans ((Keep.region18 m ρ c main_call0_v73 (by decide)).trans ((Keep.host18 m ρ c main_call0_v73 (by decide)).trans ((Keep.region17 m ρ c main_call0_v73 (by decide)).trans ((Keep.host17 m ρ c main_call0_v73 (by decide)).trans ((Keep.region16 m ρ c main_call0_v73 (by decide)).trans ((Keep.host16 m ρ c main_call0_v73 (by decide)).trans ((Keep.region15 m ρ c main_call0_v73 (by decide)).trans ((Keep.host15 m ρ c main_call0_v73 (by decide)).trans ((Keep.region14 m ρ c main_call0_v73 (by decide)).trans (d_v73 m ρ c))))))))))))))))))))]
  rw [show V49 m ρ c main_call0_v125 = dense ((Ik m c).wh 1) ((Ik m c).dhW 1) ((Ik m c).dhb 1) from (Keep.host24 m ρ c main_call0_v125 (by decide)).trans (d_v125 m ρ c)]
  rw [show V49 m ρ c main_call0_v89 = hcF (Ik m c) from (Keep.host24 m ρ c main_call0_v89 (by decide)).trans ((Keep.region23 m ρ c main_call0_v89 (by decide)).trans ((Keep.host23 m ρ c main_call0_v89 (by decide)).trans ((Keep.region22 m ρ c main_call0_v89 (by decide)).trans ((Keep.host22 m ρ c main_call0_v89 (by decide)).trans ((Keep.region21 m ρ c main_call0_v89 (by decide)).trans ((Keep.host21 m ρ c main_call0_v89 (by decide)).trans ((Keep.region20 m ρ c main_call0_v89 (by decide)).trans ((Keep.host20 m ρ c main_call0_v89 (by decide)).trans ((Keep.region19 m ρ c main_call0_v89 (by decide)).trans ((Keep.host19 m ρ c main_call0_v89 (by decide)).trans (d_v89 m ρ c)))))))))))]
  rw [show V49 m ρ c main_call0_v128 = (Ik m c).b 1 from d_v128 m ρ c]
  rfl

theorem d_v131 (c : Dev nD) : W51 m ρ c (Proc.devRef .tc main_call0_v131) = (Ik m c).wx 2 := by
  show StableHlo.after hostOps25 (W50 m ρ c) (Proc.devRef .tc main_call0_v131) = _
  dsimp only [hostOps25]
  after_results
  rw [show W50 m ρ c (Proc.devRef .tc main_call0_v0) = (m ((c : Thread nD τ).loc main_arg1)) from (Keep.region24 m ρ c main_call0_v0 (by decide)).trans ((Keep.host24 m ρ c main_call0_v0 (by decide)).trans ((Keep.region23 m ρ c main_call0_v0 (by decide)).trans ((Keep.host23 m ρ c main_call0_v0 (by decide)).trans ((Keep.region22 m ρ c main_call0_v0 (by decide)).trans ((Keep.host22 m ρ c main_call0_v0 (by decide)).trans ((Keep.region21 m ρ c main_call0_v0 (by decide)).trans ((Keep.host21 m ρ c main_call0_v0 (by decide)).trans ((Keep.region20 m ρ c main_call0_v0 (by decide)).trans ((Keep.host20 m ρ c main_call0_v0 (by decide)).trans ((Keep.region19 m ρ c main_call0_v0 (by decide)).trans ((Keep.host19 m ρ c main_call0_v0 (by decide)).trans ((Keep.region18 m ρ c main_call0_v0 (by decide)).trans ((Keep.host18 m ρ c main_call0_v0 (by decide)).trans ((Keep.region17 m ρ c main_call0_v0 (by decide)).trans ((Keep.host17 m ρ c main_call0_v0 (by decide)).trans ((Keep.region16 m ρ c main_call0_v0 (by decide)).trans ((Keep.host16 m ρ c main_call0_v0 (by decide)).trans ((Keep.region15 m ρ c main_call0_v0 (by decide)).trans ((Keep.host15 m ρ c main_call0_v0 (by decide)).trans ((Keep.region14 m ρ c main_call0_v0 (by decide)).trans ((Keep.host14 m ρ c main_call0_v0 (by decide)).trans ((Keep.region13 m ρ c main_call0_v0 (by decide)).trans ((Keep.host13 m ρ c main_call0_v0 (by decide)).trans ((Keep.region12 m ρ c main_call0_v0 (by decide)).trans ((Keep.host12 m ρ c main_call0_v0 (by decide)).trans ((Keep.region11 m ρ c main_call0_v0 (by decide)).trans ((Keep.host11 m ρ c main_call0_v0 (by decide)).trans ((Keep.region10 m ρ c main_call0_v0 (by decide)).trans ((Keep.host10 m ρ c main_call0_v0 (by decide)).trans ((Keep.region9 m ρ c main_call0_v0 (by decide)).trans ((Keep.host9 m ρ c main_call0_v0 (by decide)).trans ((Keep.region8 m ρ c main_call0_v0 (by decide)).trans ((Keep.host8 m ρ c main_call0_v0 (by decide)).trans ((Keep.region7 m ρ c main_call0_v0 (by decide)).trans ((Keep.host7 m ρ c main_call0_v0 (by decide)).trans ((Keep.region6 m ρ c main_call0_v0 (by decide)).trans ((Keep.host6 m ρ c main_call0_v0 (by decide)).trans ((Keep.region5 m ρ c main_call0_v0 (by decide)).trans ((Keep.host5 m ρ c main_call0_v0 (by decide)).trans ((Keep.region4 m ρ c main_call0_v0 (by decide)).trans ((Keep.host4 m ρ c main_call0_v0 (by decide)).trans ((Keep.region3 m ρ c main_call0_v0 (by decide)).trans ((Keep.host3 m ρ c main_call0_v0 (by decide)).trans ((Keep.region2 m ρ c main_call0_v0 (by decide)).trans ((Keep.host2 m ρ c main_call0_v0 (by decide)).trans ((Keep.region1 m ρ c main_call0_v0 (by decide)).trans ((Keep.host1 m ρ c main_call0_v0 (by decide)).trans ((Keep.region0 m ρ c main_call0_v0 (by decide)).trans (d_v0 m ρ c)))))))))))))))))))))))))))))))))))))))))))))))))]
  rfl

theorem d_v133 (c : Dev nD) : W51 m ρ c (Proc.devRef .tc main_call0_v133) = (Ik m c).dxW 2 := by
  show StableHlo.after hostOps25 (W50 m ρ c) (Proc.devRef .tc main_call0_v133) = _
  dsimp only [hostOps25]
  after_results
  rw [show W50 m ρ c (Proc.devRef .tc main_call0_v2) = (m ((c : Thread nD τ).loc main_arg4)) from (Keep.region24 m ρ c main_call0_v2 (by decide)).trans ((Keep.host24 m ρ c main_call0_v2 (by decide)).trans ((Keep.region23 m ρ c main_call0_v2 (by decide)).trans ((Keep.host23 m ρ c main_call0_v2 (by decide)).trans ((Keep.region22 m ρ c main_call0_v2 (by decide)).trans ((Keep.host22 m ρ c main_call0_v2 (by decide)).trans ((Keep.region21 m ρ c main_call0_v2 (by decide)).trans ((Keep.host21 m ρ c main_call0_v2 (by decide)).trans ((Keep.region20 m ρ c main_call0_v2 (by decide)).trans ((Keep.host20 m ρ c main_call0_v2 (by decide)).trans ((Keep.region19 m ρ c main_call0_v2 (by decide)).trans ((Keep.host19 m ρ c main_call0_v2 (by decide)).trans ((Keep.region18 m ρ c main_call0_v2 (by decide)).trans ((Keep.host18 m ρ c main_call0_v2 (by decide)).trans ((Keep.region17 m ρ c main_call0_v2 (by decide)).trans ((Keep.host17 m ρ c main_call0_v2 (by decide)).trans ((Keep.region16 m ρ c main_call0_v2 (by decide)).trans ((Keep.host16 m ρ c main_call0_v2 (by decide)).trans ((Keep.region15 m ρ c main_call0_v2 (by decide)).trans ((Keep.host15 m ρ c main_call0_v2 (by decide)).trans ((Keep.region14 m ρ c main_call0_v2 (by decide)).trans ((Keep.host14 m ρ c main_call0_v2 (by decide)).trans ((Keep.region13 m ρ c main_call0_v2 (by decide)).trans ((Keep.host13 m ρ c main_call0_v2 (by decide)).trans ((Keep.region12 m ρ c main_call0_v2 (by decide)).trans ((Keep.host12 m ρ c main_call0_v2 (by decide)).trans ((Keep.region11 m ρ c main_call0_v2 (by decide)).trans ((Keep.host11 m ρ c main_call0_v2 (by decide)).trans ((Keep.region10 m ρ c main_call0_v2 (by decide)).trans ((Keep.host10 m ρ c main_call0_v2 (by decide)).trans ((Keep.region9 m ρ c main_call0_v2 (by decide)).trans ((Keep.host9 m ρ c main_call0_v2 (by decide)).trans ((Keep.region8 m ρ c main_call0_v2 (by decide)).trans ((Keep.host8 m ρ c main_call0_v2 (by decide)).trans ((Keep.region7 m ρ c main_call0_v2 (by decide)).trans ((Keep.host7 m ρ c main_call0_v2 (by decide)).trans ((Keep.region6 m ρ c main_call0_v2 (by decide)).trans ((Keep.host6 m ρ c main_call0_v2 (by decide)).trans ((Keep.region5 m ρ c main_call0_v2 (by decide)).trans ((Keep.host5 m ρ c main_call0_v2 (by decide)).trans ((Keep.region4 m ρ c main_call0_v2 (by decide)).trans ((Keep.host4 m ρ c main_call0_v2 (by decide)).trans ((Keep.region3 m ρ c main_call0_v2 (by decide)).trans ((Keep.host3 m ρ c main_call0_v2 (by decide)).trans ((Keep.region2 m ρ c main_call0_v2 (by decide)).trans ((Keep.host2 m ρ c main_call0_v2 (by decide)).trans ((Keep.region1 m ρ c main_call0_v2 (by decide)).trans ((Keep.host1 m ρ c main_call0_v2 (by decide)).trans ((Keep.region0 m ρ c main_call0_v2 (by decide)).trans (d_v2 m ρ c)))))))))))))))))))))))))))))))))))))))))))))))))]
  rfl

theorem d_v136 (c : Dev nD) : W51 m ρ c (Proc.devRef .tc main_call0_v136) = (Ik m c).dxb 2 := by
  show StableHlo.after hostOps25 (W50 m ρ c) (Proc.devRef .tc main_call0_v136) = _
  dsimp only [hostOps25]
  after_results
  rw [show W50 m ρ c (Proc.devRef .tc main_arg5) = (m ((c : Thread nD τ).loc main_arg5)) from (Keep.region24 m ρ c main_arg5 (by decide)).trans ((Keep.host24 m ρ c main_arg5 (by decide)).trans ((Keep.region23 m ρ c main_arg5 (by decide)).trans ((Keep.host23 m ρ c main_arg5 (by decide)).trans ((Keep.region22 m ρ c main_arg5 (by decide)).trans ((Keep.host22 m ρ c main_arg5 (by decide)).trans ((Keep.region21 m ρ c main_arg5 (by decide)).trans ((Keep.host21 m ρ c main_arg5 (by decide)).trans ((Keep.region20 m ρ c main_arg5 (by decide)).trans ((Keep.host20 m ρ c main_arg5 (by decide)).trans ((Keep.region19 m ρ c main_arg5 (by decide)).trans ((Keep.host19 m ρ c main_arg5 (by decide)).trans ((Keep.region18 m ρ c main_arg5 (by decide)).trans ((Keep.host18 m ρ c main_arg5 (by decide)).trans ((Keep.region17 m ρ c main_arg5 (by decide)).trans ((Keep.host17 m ρ c main_arg5 (by decide)).trans ((Keep.region16 m ρ c main_arg5 (by decide)).trans ((Keep.host16 m ρ c main_arg5 (by decide)).trans ((Keep.region15 m ρ c main_arg5 (by decide)).trans ((Keep.host15 m ρ c main_arg5 (by decide)).trans ((Keep.region14 m ρ c main_arg5 (by decide)).trans ((Keep.host14 m ρ c main_arg5 (by decide)).trans ((Keep.region13 m ρ c main_arg5 (by decide)).trans ((Keep.host13 m ρ c main_arg5 (by decide)).trans ((Keep.region12 m ρ c main_arg5 (by decide)).trans ((Keep.host12 m ρ c main_arg5 (by decide)).trans ((Keep.region11 m ρ c main_arg5 (by decide)).trans ((Keep.host11 m ρ c main_arg5 (by decide)).trans ((Keep.region10 m ρ c main_arg5 (by decide)).trans ((Keep.host10 m ρ c main_arg5 (by decide)).trans ((Keep.region9 m ρ c main_arg5 (by decide)).trans ((Keep.host9 m ρ c main_arg5 (by decide)).trans ((Keep.region8 m ρ c main_arg5 (by decide)).trans ((Keep.host8 m ρ c main_arg5 (by decide)).trans ((Keep.region7 m ρ c main_arg5 (by decide)).trans ((Keep.host7 m ρ c main_arg5 (by decide)).trans ((Keep.region6 m ρ c main_arg5 (by decide)).trans ((Keep.host6 m ρ c main_arg5 (by decide)).trans ((Keep.region5 m ρ c main_arg5 (by decide)).trans ((Keep.host5 m ρ c main_arg5 (by decide)).trans ((Keep.region4 m ρ c main_arg5 (by decide)).trans ((Keep.host4 m ρ c main_arg5 (by decide)).trans ((Keep.region3 m ρ c main_arg5 (by decide)).trans ((Keep.host3 m ρ c main_arg5 (by decide)).trans ((Keep.region2 m ρ c main_arg5 (by decide)).trans ((Keep.host2 m ρ c main_arg5 (by decide)).trans ((Keep.region1 m ρ c main_arg5 (by decide)).trans ((Keep.host1 m ρ c main_arg5 (by decide)).trans ((Keep.region0 m ρ c main_arg5 (by decide)).trans ((Keep.host0 m ρ c main_arg5 (by decide)).trans (rfl))))))))))))))))))))))))))))))))))))))))))))))))))]
  rfl

/-- Region 25's result. -/
theorem d_v137 (c : Dev nD) : W52 m ρ c (Proc.devRef .tc main_call0_v137) = dense ((Ik m c).wx 2) ((Ik m c).dxW 2) ((Ik m c).dxb 2) := by
  refine (W52_arr m ρ c 3).trans ?_
  rw [Reg25.arr]
  unfold Reg25.G
  rw [show V51 m ρ c main_call0_v131 = (Ik m c).wx 2 from d_v131 m ρ c]
  rw [show V51 m ρ c main_call0_v133 = (Ik m c).dxW 2 from d_v133 m ρ c]
  rw [show V51 m ρ c main_call0_v136 = (Ik m c).dxb 2 from d_v136 m ρ c]

theorem d_v139 (c : Dev nD) : W53 m ρ c (Proc.devRef .tc main_call0_v139) = (Ik m c).wh 2 := by
  show StableHlo.after hostOps26 (W52 m ρ c) (Proc.devRef .tc main_call0_v139) = _
  dsimp only [hostOps26]
  after_results
  rw [show W52 m ρ c (Proc.devRef .tc main_call0_v1) = (m ((c : Thread nD τ).loc main_arg2)) from (Keep.region25 m ρ c main_call0_v1 (by decide)).trans ((Keep.host25 m ρ c main_call0_v1 (by decide)).trans ((Keep.region24 m ρ c main_call0_v1 (by decide)).trans ((Keep.host24 m ρ c main_call0_v1 (by decide)).trans ((Keep.region23 m ρ c main_call0_v1 (by decide)).trans ((Keep.host23 m ρ c main_call0_v1 (by decide)).trans ((Keep.region22 m ρ c main_call0_v1 (by decide)).trans ((Keep.host22 m ρ c main_call0_v1 (by decide)).trans ((Keep.region21 m ρ c main_call0_v1 (by decide)).trans ((Keep.host21 m ρ c main_call0_v1 (by decide)).trans ((Keep.region20 m ρ c main_call0_v1 (by decide)).trans ((Keep.host20 m ρ c main_call0_v1 (by decide)).trans ((Keep.region19 m ρ c main_call0_v1 (by decide)).trans ((Keep.host19 m ρ c main_call0_v1 (by decide)).trans ((Keep.region18 m ρ c main_call0_v1 (by decide)).trans ((Keep.host18 m ρ c main_call0_v1 (by decide)).trans ((Keep.region17 m ρ c main_call0_v1 (by decide)).trans ((Keep.host17 m ρ c main_call0_v1 (by decide)).trans ((Keep.region16 m ρ c main_call0_v1 (by decide)).trans ((Keep.host16 m ρ c main_call0_v1 (by decide)).trans ((Keep.region15 m ρ c main_call0_v1 (by decide)).trans ((Keep.host15 m ρ c main_call0_v1 (by decide)).trans ((Keep.region14 m ρ c main_call0_v1 (by decide)).trans ((Keep.host14 m ρ c main_call0_v1 (by decide)).trans ((Keep.region13 m ρ c main_call0_v1 (by decide)).trans ((Keep.host13 m ρ c main_call0_v1 (by decide)).trans ((Keep.region12 m ρ c main_call0_v1 (by decide)).trans ((Keep.host12 m ρ c main_call0_v1 (by decide)).trans ((Keep.region11 m ρ c main_call0_v1 (by decide)).trans ((Keep.host11 m ρ c main_call0_v1 (by decide)).trans ((Keep.region10 m ρ c main_call0_v1 (by decide)).trans ((Keep.host10 m ρ c main_call0_v1 (by decide)).trans ((Keep.region9 m ρ c main_call0_v1 (by decide)).trans ((Keep.host9 m ρ c main_call0_v1 (by decide)).trans ((Keep.region8 m ρ c main_call0_v1 (by decide)).trans ((Keep.host8 m ρ c main_call0_v1 (by decide)).trans ((Keep.region7 m ρ c main_call0_v1 (by decide)).trans ((Keep.host7 m ρ c main_call0_v1 (by decide)).trans ((Keep.region6 m ρ c main_call0_v1 (by decide)).trans ((Keep.host6 m ρ c main_call0_v1 (by decide)).trans ((Keep.region5 m ρ c main_call0_v1 (by decide)).trans ((Keep.host5 m ρ c main_call0_v1 (by decide)).trans ((Keep.region4 m ρ c main_call0_v1 (by decide)).trans ((Keep.host4 m ρ c main_call0_v1 (by decide)).trans ((Keep.region3 m ρ c main_call0_v1 (by decide)).trans ((Keep.host3 m ρ c main_call0_v1 (by decide)).trans ((Keep.region2 m ρ c main_call0_v1 (by decide)).trans ((Keep.host2 m ρ c main_call0_v1 (by decide)).trans ((Keep.region1 m ρ c main_call0_v1 (by decide)).trans ((Keep.host1 m ρ c main_call0_v1 (by decide)).trans ((Keep.region0 m ρ c main_call0_v1 (by decide)).trans (d_v1 m ρ c)))))))))))))))))))))))))))))))))))))))))))))))))))]
  rfl

theorem d_v141 (c : Dev nD) : W53 m ρ c (Proc.devRef .tc main_call0_v141) = (Ik m c).dhW 2 := by
  show StableHlo.after hostOps26 (W52 m ρ c) (Proc.devRef .tc main_call0_v141) = _
  dsimp only [hostOps26]
  after_results
  rw [show W52 m ρ c (Proc.devRef .tc main_call0_v3) = (m ((c : Thread nD τ).loc main_arg6)) from (Keep.region25 m ρ c main_call0_v3 (by decide)).trans ((Keep.host25 m ρ c main_call0_v3 (by decide)).trans ((Keep.region24 m ρ c main_call0_v3 (by decide)).trans ((Keep.host24 m ρ c main_call0_v3 (by decide)).trans ((Keep.region23 m ρ c main_call0_v3 (by decide)).trans ((Keep.host23 m ρ c main_call0_v3 (by decide)).trans ((Keep.region22 m ρ c main_call0_v3 (by decide)).trans ((Keep.host22 m ρ c main_call0_v3 (by decide)).trans ((Keep.region21 m ρ c main_call0_v3 (by decide)).trans ((Keep.host21 m ρ c main_call0_v3 (by decide)).trans ((Keep.region20 m ρ c main_call0_v3 (by decide)).trans ((Keep.host20 m ρ c main_call0_v3 (by decide)).trans ((Keep.region19 m ρ c main_call0_v3 (by decide)).trans ((Keep.host19 m ρ c main_call0_v3 (by decide)).trans ((Keep.region18 m ρ c main_call0_v3 (by decide)).trans ((Keep.host18 m ρ c main_call0_v3 (by decide)).trans ((Keep.region17 m ρ c main_call0_v3 (by decide)).trans ((Keep.host17 m ρ c main_call0_v3 (by decide)).trans ((Keep.region16 m ρ c main_call0_v3 (by decide)).trans ((Keep.host16 m ρ c main_call0_v3 (by decide)).trans ((Keep.region15 m ρ c main_call0_v3 (by decide)).trans ((Keep.host15 m ρ c main_call0_v3 (by decide)).trans ((Keep.region14 m ρ c main_call0_v3 (by decide)).trans ((Keep.host14 m ρ c main_call0_v3 (by decide)).trans ((Keep.region13 m ρ c main_call0_v3 (by decide)).trans ((Keep.host13 m ρ c main_call0_v3 (by decide)).trans ((Keep.region12 m ρ c main_call0_v3 (by decide)).trans ((Keep.host12 m ρ c main_call0_v3 (by decide)).trans ((Keep.region11 m ρ c main_call0_v3 (by decide)).trans ((Keep.host11 m ρ c main_call0_v3 (by decide)).trans ((Keep.region10 m ρ c main_call0_v3 (by decide)).trans ((Keep.host10 m ρ c main_call0_v3 (by decide)).trans ((Keep.region9 m ρ c main_call0_v3 (by decide)).trans ((Keep.host9 m ρ c main_call0_v3 (by decide)).trans ((Keep.region8 m ρ c main_call0_v3 (by decide)).trans ((Keep.host8 m ρ c main_call0_v3 (by decide)).trans ((Keep.region7 m ρ c main_call0_v3 (by decide)).trans ((Keep.host7 m ρ c main_call0_v3 (by decide)).trans ((Keep.region6 m ρ c main_call0_v3 (by decide)).trans ((Keep.host6 m ρ c main_call0_v3 (by decide)).trans ((Keep.region5 m ρ c main_call0_v3 (by decide)).trans ((Keep.host5 m ρ c main_call0_v3 (by decide)).trans ((Keep.region4 m ρ c main_call0_v3 (by decide)).trans ((Keep.host4 m ρ c main_call0_v3 (by decide)).trans ((Keep.region3 m ρ c main_call0_v3 (by decide)).trans ((Keep.host3 m ρ c main_call0_v3 (by decide)).trans ((Keep.region2 m ρ c main_call0_v3 (by decide)).trans ((Keep.host2 m ρ c main_call0_v3 (by decide)).trans ((Keep.region1 m ρ c main_call0_v3 (by decide)).trans ((Keep.host1 m ρ c main_call0_v3 (by decide)).trans ((Keep.region0 m ρ c main_call0_v3 (by decide)).trans (d_v3 m ρ c)))))))))))))))))))))))))))))))))))))))))))))))))))]
  rfl

theorem d_v144 (c : Dev nD) : W53 m ρ c (Proc.devRef .tc main_call0_v144) = (Ik m c).dhb 2 := by
  show StableHlo.after hostOps26 (W52 m ρ c) (Proc.devRef .tc main_call0_v144) = _
  dsimp only [hostOps26]
  after_results
  rw [show W52 m ρ c (Proc.devRef .tc main_arg7) = (m ((c : Thread nD τ).loc main_arg7)) from (Keep.region25 m ρ c main_arg7 (by decide)).trans ((Keep.host25 m ρ c main_arg7 (by decide)).trans ((Keep.region24 m ρ c main_arg7 (by decide)).trans ((Keep.host24 m ρ c main_arg7 (by decide)).trans ((Keep.region23 m ρ c main_arg7 (by decide)).trans ((Keep.host23 m ρ c main_arg7 (by decide)).trans ((Keep.region22 m ρ c main_arg7 (by decide)).trans ((Keep.host22 m ρ c main_arg7 (by decide)).trans ((Keep.region21 m ρ c main_arg7 (by decide)).trans ((Keep.host21 m ρ c main_arg7 (by decide)).trans ((Keep.region20 m ρ c main_arg7 (by decide)).trans ((Keep.host20 m ρ c main_arg7 (by decide)).trans ((Keep.region19 m ρ c main_arg7 (by decide)).trans ((Keep.host19 m ρ c main_arg7 (by decide)).trans ((Keep.region18 m ρ c main_arg7 (by decide)).trans ((Keep.host18 m ρ c main_arg7 (by decide)).trans ((Keep.region17 m ρ c main_arg7 (by decide)).trans ((Keep.host17 m ρ c main_arg7 (by decide)).trans ((Keep.region16 m ρ c main_arg7 (by decide)).trans ((Keep.host16 m ρ c main_arg7 (by decide)).trans ((Keep.region15 m ρ c main_arg7 (by decide)).trans ((Keep.host15 m ρ c main_arg7 (by decide)).trans ((Keep.region14 m ρ c main_arg7 (by decide)).trans ((Keep.host14 m ρ c main_arg7 (by decide)).trans ((Keep.region13 m ρ c main_arg7 (by decide)).trans ((Keep.host13 m ρ c main_arg7 (by decide)).trans ((Keep.region12 m ρ c main_arg7 (by decide)).trans ((Keep.host12 m ρ c main_arg7 (by decide)).trans ((Keep.region11 m ρ c main_arg7 (by decide)).trans ((Keep.host11 m ρ c main_arg7 (by decide)).trans ((Keep.region10 m ρ c main_arg7 (by decide)).trans ((Keep.host10 m ρ c main_arg7 (by decide)).trans ((Keep.region9 m ρ c main_arg7 (by decide)).trans ((Keep.host9 m ρ c main_arg7 (by decide)).trans ((Keep.region8 m ρ c main_arg7 (by decide)).trans ((Keep.host8 m ρ c main_arg7 (by decide)).trans ((Keep.region7 m ρ c main_arg7 (by decide)).trans ((Keep.host7 m ρ c main_arg7 (by decide)).trans ((Keep.region6 m ρ c main_arg7 (by decide)).trans ((Keep.host6 m ρ c main_arg7 (by decide)).trans ((Keep.region5 m ρ c main_arg7 (by decide)).trans ((Keep.host5 m ρ c main_arg7 (by decide)).trans ((Keep.region4 m ρ c main_arg7 (by decide)).trans ((Keep.host4 m ρ c main_arg7 (by decide)).trans ((Keep.region3 m ρ c main_arg7 (by decide)).trans ((Keep.host3 m ρ c main_arg7 (by decide)).trans ((Keep.region2 m ρ c main_arg7 (by decide)).trans ((Keep.host2 m ρ c main_arg7 (by decide)).trans ((Keep.region1 m ρ c main_arg7 (by decide)).trans ((Keep.host1 m ρ c main_arg7 (by decide)).trans ((Keep.region0 m ρ c main_arg7 (by decide)).trans ((Keep.host0 m ρ c main_arg7 (by decide)).trans (rfl))))))))))))))))))))))))))))))))))))))))))))))))))))]
  rfl

/-- Region 26's result. -/
theorem d_v145 (c : Dev nD) : W54 m ρ c (Proc.devRef .tc main_call0_v145) = dense ((Ik m c).wh 2) ((Ik m c).dhW 2) ((Ik m c).dhb 2) := by
  refine (W54_arr m ρ c 3).trans ?_
  rw [Reg26.arr]
  unfold Reg26.G
  rw [show V53 m ρ c main_call0_v139 = (Ik m c).wh 2 from d_v139 m ρ c]
  rw [show V53 m ρ c main_call0_v141 = (Ik m c).dhW 2 from d_v141 m ρ c]
  rw [show V53 m ρ c main_call0_v144 = (Ik m c).dhb 2 from d_v144 m ρ c]

theorem d_v148 (c : Dev nD) : W55 m ρ c (Proc.devRef .tc main_call0_v148) = (Ik m c).b 2 := by
  show StableHlo.after hostOps27 (W54 m ρ c) (Proc.devRef .tc main_call0_v148) = _
  dsimp only [hostOps27]
  after_results
  rw [show W54 m ρ c (Proc.devRef .tc main_arg3) = (m ((c : Thread nD τ).loc main_arg3)) from (Keep.region26 m ρ c main_arg3 (by decide)).trans ((Keep.host26 m ρ c main_arg3 (by decide)).trans ((Keep.region25 m ρ c main_arg3 (by decide)).trans ((Keep.host25 m ρ c main_arg3 (by decide)).trans ((Keep.region24 m ρ c main_arg3 (by decide)).trans ((Keep.host24 m ρ c main_arg3 (by decide)).trans ((Keep.region23 m ρ c main_arg3 (by decide)).trans ((Keep.host23 m ρ c main_arg3 (by decide)).trans ((Keep.region22 m ρ c main_arg3 (by decide)).trans ((Keep.host22 m ρ c main_arg3 (by decide)).trans ((Keep.region21 m ρ c main_arg3 (by decide)).trans ((Keep.host21 m ρ c main_arg3 (by decide)).trans ((Keep.region20 m ρ c main_arg3 (by decide)).trans ((Keep.host20 m ρ c main_arg3 (by decide)).trans ((Keep.region19 m ρ c main_arg3 (by decide)).trans ((Keep.host19 m ρ c main_arg3 (by decide)).trans ((Keep.region18 m ρ c main_arg3 (by decide)).trans ((Keep.host18 m ρ c main_arg3 (by decide)).trans ((Keep.region17 m ρ c main_arg3 (by decide)).trans ((Keep.host17 m ρ c main_arg3 (by decide)).trans ((Keep.region16 m ρ c main_arg3 (by decide)).trans ((Keep.host16 m ρ c main_arg3 (by decide)).trans ((Keep.region15 m ρ c main_arg3 (by decide)).trans ((Keep.host15 m ρ c main_arg3 (by decide)).trans ((Keep.region14 m ρ c main_arg3 (by decide)).trans ((Keep.host14 m ρ c main_arg3 (by decide)).trans ((Keep.region13 m ρ c main_arg3 (by decide)).trans ((Keep.host13 m ρ c main_arg3 (by decide)).trans ((Keep.region12 m ρ c main_arg3 (by decide)).trans ((Keep.host12 m ρ c main_arg3 (by decide)).trans ((Keep.region11 m ρ c main_arg3 (by decide)).trans ((Keep.host11 m ρ c main_arg3 (by decide)).trans ((Keep.region10 m ρ c main_arg3 (by decide)).trans ((Keep.host10 m ρ c main_arg3 (by decide)).trans ((Keep.region9 m ρ c main_arg3 (by decide)).trans ((Keep.host9 m ρ c main_arg3 (by decide)).trans ((Keep.region8 m ρ c main_arg3 (by decide)).trans ((Keep.host8 m ρ c main_arg3 (by decide)).trans ((Keep.region7 m ρ c main_arg3 (by decide)).trans ((Keep.host7 m ρ c main_arg3 (by decide)).trans ((Keep.region6 m ρ c main_arg3 (by decide)).trans ((Keep.host6 m ρ c main_arg3 (by decide)).trans ((Keep.region5 m ρ c main_arg3 (by decide)).trans ((Keep.host5 m ρ c main_arg3 (by decide)).trans ((Keep.region4 m ρ c main_arg3 (by decide)).trans ((Keep.host4 m ρ c main_arg3 (by decide)).trans ((Keep.region3 m ρ c main_arg3 (by decide)).trans ((Keep.host3 m ρ c main_arg3 (by decide)).trans ((Keep.region2 m ρ c main_arg3 (by decide)).trans ((Keep.host2 m ρ c main_arg3 (by decide)).trans ((Keep.region1 m ρ c main_arg3 (by decide)).trans ((Keep.host1 m ρ c main_arg3 (by decide)).trans ((Keep.region0 m ρ c main_arg3 (by decide)).trans ((Keep.host0 m ρ c main_arg3 (by decide)).trans (rfl))))))))))))))))))))))))))))))))))))))))))))))))))))))]
  rfl

/-- Region 27's result. -/
theorem d_v149 (c : Dev nD) : W56 m ρ c (Proc.devRef .tc main_call0_v149) = jGate (Ik m c) := by
  refine (W56_arr m ρ c 5).trans ?_
  rw [Reg27.arr]
  unfold Reg27.G
  rw [show V55 m ρ c main_call0_v137 = dense ((Ik m c).wx 2) ((Ik m c).dxW 2) ((Ik m c).dxb 2) from (Keep.host27 m ρ c main_call0_v137 (by decide)).trans ((Keep.region26 m ρ c main_call0_v137 (by decide)).trans ((Keep.host26 m ρ c main_call0_v137 (by decide)).trans (d_v137 m ρ c)))]
  rw [show V55 m ρ c main_call0_v73 = x2 (Ik m c) from (Keep.host27 m ρ c main_call0_v73 (by decide)).trans ((Keep.region26 m ρ c main_call0_v73 (by decide)).trans ((Keep.host26 m ρ c main_call0_v73 (by decide)).trans ((Keep.region25 m ρ c main_call0_v73 (by decide)).trans ((Keep.host25 m ρ c main_call0_v73 (by decide)).trans ((Keep.region24 m ρ c main_call0_v73 (by decide)).trans ((Keep.host24 m ρ c main_call0_v73 (by decide)).trans ((Keep.region23 m ρ c main_call0_v73 (by decide)).trans ((Keep.host23 m ρ c main_call0_v73 (by decide)).trans ((Keep.region22 m ρ c main_call0_v73 (by decide)).trans ((Keep.host22 m ρ c main_call0_v73 (by decide)).trans ((Keep.region21 m ρ c main_call0_v73 (by decide)).trans ((Keep.host21 m ρ c main_call0_v73 (by decide)).trans ((Keep.region20 m ρ c main_call0_v73 (by decide)).trans ((Keep.host20 m ρ c main_call0_v73 (by decide)).trans ((Keep.region19 m ρ c main_call0_v73 (by decide)).trans ((Keep.host19 m ρ c main_call0_v73 (by decide)).trans ((Keep.region18 m ρ c main_call0_v73 (by decide)).trans ((Keep.host18 m ρ c main_call0_v73 (by decide)).trans ((Keep.region17 m ρ c main_call0_v73 (by decide)).trans ((Keep.host17 m ρ c main_call0_v73 (by decide)).trans ((Keep.region16 m ρ c main_call0_v73 (by decide)).trans ((Keep.host16 m ρ c main_call0_v73 (by decide)).trans ((Keep.region15 m ρ c main_call0_v73 (by decide)).trans ((Keep.host15 m ρ c main_call0_v73 (by decide)).trans ((Keep.region14 m ρ c main_call0_v73 (by decide)).trans (d_v73 m ρ c))))))))))))))))))))))))))]
  rw [show V55 m ρ c main_call0_v145 = dense ((Ik m c).wh 2) ((Ik m c).dhW 2) ((Ik m c).dhb 2) from (Keep.host27 m ρ c main_call0_v145 (by decide)).trans (d_v145 m ρ c)]
  rw [show V55 m ρ c main_call0_v89 = hcF (Ik m c) from (Keep.host27 m ρ c main_call0_v89 (by decide)).trans ((Keep.region26 m ρ c main_call0_v89 (by decide)).trans ((Keep.host26 m ρ c main_call0_v89 (by decide)).trans ((Keep.region25 m ρ c main_call0_v89 (by decide)).trans ((Keep.host25 m ρ c main_call0_v89 (by decide)).trans ((Keep.region24 m ρ c main_call0_v89 (by decide)).trans ((Keep.host24 m ρ c main_call0_v89 (by decide)).trans ((Keep.region23 m ρ c main_call0_v89 (by decide)).trans ((Keep.host23 m ρ c main_call0_v89 (by decide)).trans ((Keep.region22 m ρ c main_call0_v89 (by decide)).trans ((Keep.host22 m ρ c main_call0_v89 (by decide)).trans ((Keep.region21 m ρ c main_call0_v89 (by decide)).trans ((Keep.host21 m ρ c main_call0_v89 (by decide)).trans ((Keep.region20 m ρ c main_call0_v89 (by decide)).trans ((Keep.host20 m ρ c main_call0_v89 (by decide)).trans ((Keep.region19 m ρ c main_call0_v89 (by decide)).trans ((Keep.host19 m ρ c main_call0_v89 (by decide)).trans (d_v89 m ρ c)))))))))))))))))]
  rw [show V55 m ρ c main_call0_v148 = (Ik m c).b 2 from d_v148 m ρ c]
  rfl

theorem d_v151 (c : Dev nD) : W57 m ρ c (Proc.devRef .tc main_call0_v151) = (Ik m c).wx 3 := by
  show StableHlo.after hostOps28 (W56 m ρ c) (Proc.devRef .tc main_call0_v151) = _
  dsimp only [hostOps28]
  after_results
  rw [show W56 m ρ c (Proc.devRef .tc main_call0_v0) = (m ((c : Thread nD τ).loc main_arg1)) from (Keep.region27 m ρ c main_call0_v0 (by decide)).trans ((Keep.host27 m ρ c main_call0_v0 (by decide)).trans ((Keep.region26 m ρ c main_call0_v0 (by decide)).trans ((Keep.host26 m ρ c main_call0_v0 (by decide)).trans ((Keep.region25 m ρ c main_call0_v0 (by decide)).trans ((Keep.host25 m ρ c main_call0_v0 (by decide)).trans ((Keep.region24 m ρ c main_call0_v0 (by decide)).trans ((Keep.host24 m ρ c main_call0_v0 (by decide)).trans ((Keep.region23 m ρ c main_call0_v0 (by decide)).trans ((Keep.host23 m ρ c main_call0_v0 (by decide)).trans ((Keep.region22 m ρ c main_call0_v0 (by decide)).trans ((Keep.host22 m ρ c main_call0_v0 (by decide)).trans ((Keep.region21 m ρ c main_call0_v0 (by decide)).trans ((Keep.host21 m ρ c main_call0_v0 (by decide)).trans ((Keep.region20 m ρ c main_call0_v0 (by decide)).trans ((Keep.host20 m ρ c main_call0_v0 (by decide)).trans ((Keep.region19 m ρ c main_call0_v0 (by decide)).trans ((Keep.host19 m ρ c main_call0_v0 (by decide)).trans ((Keep.region18 m ρ c main_call0_v0 (by decide)).trans ((Keep.host18 m ρ c main_call0_v0 (by decide)).trans ((Keep.region17 m ρ c main_call0_v0 (by decide)).trans ((Keep.host17 m ρ c main_call0_v0 (by decide)).trans ((Keep.region16 m ρ c main_call0_v0 (by decide)).trans ((Keep.host16 m ρ c main_call0_v0 (by decide)).trans ((Keep.region15 m ρ c main_call0_v0 (by decide)).trans ((Keep.host15 m ρ c main_call0_v0 (by decide)).trans ((Keep.region14 m ρ c main_call0_v0 (by decide)).trans ((Keep.host14 m ρ c main_call0_v0 (by decide)).trans ((Keep.region13 m ρ c main_call0_v0 (by decide)).trans ((Keep.host13 m ρ c main_call0_v0 (by decide)).trans ((Keep.region12 m ρ c main_call0_v0 (by decide)).trans ((Keep.host12 m ρ c main_call0_v0 (by decide)).trans ((Keep.region11 m ρ c main_call0_v0 (by decide)).trans ((Keep.host11 m ρ c main_call0_v0 (by decide)).trans ((Keep.region10 m ρ c main_call0_v0 (by decide)).trans ((Keep.host10 m ρ c main_call0_v0 (by decide)).trans ((Keep.region9 m ρ c main_call0_v0 (by decide)).trans ((Keep.host9 m ρ c main_call0_v0 (by decide)).trans ((Keep.region8 m ρ c main_call0_v0 (by decide)).trans ((Keep.host8 m ρ c main_call0_v0 (by decide)).trans ((Keep.region7 m ρ c main_call0_v0 (by decide)).trans ((Keep.host7 m ρ c main_call0_v0 (by decide)).trans ((Keep.region6 m ρ c main_call0_v0 (by decide)).trans ((Keep.host6 m ρ c main_call0_v0 (by decide)).trans ((Keep.region5 m ρ c main_call0_v0 (by decide)).trans ((Keep.host5 m ρ c main_call0_v0 (by decide)).trans ((Keep.region4 m ρ c main_call0_v0 (by decide)).trans ((Keep.host4 m ρ c main_call0_v0 (by decide)).trans ((Keep.region3 m ρ c main_call0_v0 (by decide)).trans ((Keep.host3 m ρ c main_call0_v0 (by decide)).trans ((Keep.region2 m ρ c main_call0_v0 (by decide)).trans ((Keep.host2 m ρ c main_call0_v0 (by decide)).trans ((Keep.region1 m ρ c main_call0_v0 (by decide)).trans ((Keep.host1 m ρ c main_call0_v0 (by decide)).trans ((Keep.region0 m ρ c main_call0_v0 (by decide)).trans (d_v0 m ρ c)))))))))))))))))))))))))))))))))))))))))))))))))))))))]
  rfl

theorem d_v153 (c : Dev nD) : W57 m ρ c (Proc.devRef .tc main_call0_v153) = (Ik m c).dxW 3 := by
  show StableHlo.after hostOps28 (W56 m ρ c) (Proc.devRef .tc main_call0_v153) = _
  dsimp only [hostOps28]
  after_results
  rw [show W56 m ρ c (Proc.devRef .tc main_call0_v2) = (m ((c : Thread nD τ).loc main_arg4)) from (Keep.region27 m ρ c main_call0_v2 (by decide)).trans ((Keep.host27 m ρ c main_call0_v2 (by decide)).trans ((Keep.region26 m ρ c main_call0_v2 (by decide)).trans ((Keep.host26 m ρ c main_call0_v2 (by decide)).trans ((Keep.region25 m ρ c main_call0_v2 (by decide)).trans ((Keep.host25 m ρ c main_call0_v2 (by decide)).trans ((Keep.region24 m ρ c main_call0_v2 (by decide)).trans ((Keep.host24 m ρ c main_call0_v2 (by decide)).trans ((Keep.region23 m ρ c main_call0_v2 (by decide)).trans ((Keep.host23 m ρ c main_call0_v2 (by decide)).trans ((Keep.region22 m ρ c main_call0_v2 (by decide)).trans ((Keep.host22 m ρ c main_call0_v2 (by decide)).trans ((Keep.region21 m ρ c main_call0_v2 (by decide)).trans ((Keep.host21 m ρ c main_call0_v2 (by decide)).trans ((Keep.region20 m ρ c main_call0_v2 (by decide)).trans ((Keep.host20 m ρ c main_call0_v2 (by decide)).trans ((Keep.region19 m ρ c main_call0_v2 (by decide)).trans ((Keep.host19 m ρ c main_call0_v2 (by decide)).trans ((Keep.region18 m ρ c main_call0_v2 (by decide)).trans ((Keep.host18 m ρ c main_call0_v2 (by decide)).trans ((Keep.region17 m ρ c main_call0_v2 (by decide)).trans ((Keep.host17 m ρ c main_call0_v2 (by decide)).trans ((Keep.region16 m ρ c main_call0_v2 (by decide)).trans ((Keep.host16 m ρ c main_call0_v2 (by decide)).trans ((Keep.region15 m ρ c main_call0_v2 (by decide)).trans ((Keep.host15 m ρ c main_call0_v2 (by decide)).trans ((Keep.region14 m ρ c main_call0_v2 (by decide)).trans ((Keep.host14 m ρ c main_call0_v2 (by decide)).trans ((Keep.region13 m ρ c main_call0_v2 (by decide)).trans ((Keep.host13 m ρ c main_call0_v2 (by decide)).trans ((Keep.region12 m ρ c main_call0_v2 (by decide)).trans ((Keep.host12 m ρ c main_call0_v2 (by decide)).trans ((Keep.region11 m ρ c main_call0_v2 (by decide)).trans ((Keep.host11 m ρ c main_call0_v2 (by decide)).trans ((Keep.region10 m ρ c main_call0_v2 (by decide)).trans ((Keep.host10 m ρ c main_call0_v2 (by decide)).trans ((Keep.region9 m ρ c main_call0_v2 (by decide)).trans ((Keep.host9 m ρ c main_call0_v2 (by decide)).trans ((Keep.region8 m ρ c main_call0_v2 (by decide)).trans ((Keep.host8 m ρ c main_call0_v2 (by decide)).trans ((Keep.region7 m ρ c main_call0_v2 (by decide)).trans ((Keep.host7 m ρ c main_call0_v2 (by decide)).trans ((Keep.region6 m ρ c main_call0_v2 (by decide)).trans ((Keep.host6 m ρ c main_call0_v2 (by decide)).trans ((Keep.region5 m ρ c main_call0_v2 (by decide)).trans ((Keep.host5 m ρ c main_call0_v2 (by decide)).trans ((Keep.region4 m ρ c main_call0_v2 (by decide)).trans ((Keep.host4 m ρ c main_call0_v2 (by decide)).trans ((Keep.region3 m ρ c main_call0_v2 (by decide)).trans ((Keep.host3 m ρ c main_call0_v2 (by decide)).trans ((Keep.region2 m ρ c main_call0_v2 (by decide)).trans ((Keep.host2 m ρ c main_call0_v2 (by decide)).trans ((Keep.region1 m ρ c main_call0_v2 (by decide)).trans ((Keep.host1 m ρ c main_call0_v2 (by decide)).trans ((Keep.region0 m ρ c main_call0_v2 (by decide)).trans (d_v2 m ρ c)))))))))))))))))))))))))))))))))))))))))))))))))))))))]
  rfl

theorem d_v156 (c : Dev nD) : W57 m ρ c (Proc.devRef .tc main_call0_v156) = (Ik m c).dxb 3 := by
  show StableHlo.after hostOps28 (W56 m ρ c) (Proc.devRef .tc main_call0_v156) = _
  dsimp only [hostOps28]
  after_results
  rw [show W56 m ρ c (Proc.devRef .tc main_arg5) = (m ((c : Thread nD τ).loc main_arg5)) from (Keep.region27 m ρ c main_arg5 (by decide)).trans ((Keep.host27 m ρ c main_arg5 (by decide)).trans ((Keep.region26 m ρ c main_arg5 (by decide)).trans ((Keep.host26 m ρ c main_arg5 (by decide)).trans ((Keep.region25 m ρ c main_arg5 (by decide)).trans ((Keep.host25 m ρ c main_arg5 (by decide)).trans ((Keep.region24 m ρ c main_arg5 (by decide)).trans ((Keep.host24 m ρ c main_arg5 (by decide)).trans ((Keep.region23 m ρ c main_arg5 (by decide)).trans ((Keep.host23 m ρ c main_arg5 (by decide)).trans ((Keep.region22 m ρ c main_arg5 (by decide)).trans ((Keep.host22 m ρ c main_arg5 (by decide)).trans ((Keep.region21 m ρ c main_arg5 (by decide)).trans ((Keep.host21 m ρ c main_arg5 (by decide)).trans ((Keep.region20 m ρ c main_arg5 (by decide)).trans ((Keep.host20 m ρ c main_arg5 (by decide)).trans ((Keep.region19 m ρ c main_arg5 (by decide)).trans ((Keep.host19 m ρ c main_arg5 (by decide)).trans ((Keep.region18 m ρ c main_arg5 (by decide)).trans ((Keep.host18 m ρ c main_arg5 (by decide)).trans ((Keep.region17 m ρ c main_arg5 (by decide)).trans ((Keep.host17 m ρ c main_arg5 (by decide)).trans ((Keep.region16 m ρ c main_arg5 (by decide)).trans ((Keep.host16 m ρ c main_arg5 (by decide)).trans ((Keep.region15 m ρ c main_arg5 (by decide)).trans ((Keep.host15 m ρ c main_arg5 (by decide)).trans ((Keep.region14 m ρ c main_arg5 (by decide)).trans ((Keep.host14 m ρ c main_arg5 (by decide)).trans ((Keep.region13 m ρ c main_arg5 (by decide)).trans ((Keep.host13 m ρ c main_arg5 (by decide)).trans ((Keep.region12 m ρ c main_arg5 (by decide)).trans ((Keep.host12 m ρ c main_arg5 (by decide)).trans ((Keep.region11 m ρ c main_arg5 (by decide)).trans ((Keep.host11 m ρ c main_arg5 (by decide)).trans ((Keep.region10 m ρ c main_arg5 (by decide)).trans ((Keep.host10 m ρ c main_arg5 (by decide)).trans ((Keep.region9 m ρ c main_arg5 (by decide)).trans ((Keep.host9 m ρ c main_arg5 (by decide)).trans ((Keep.region8 m ρ c main_arg5 (by decide)).trans ((Keep.host8 m ρ c main_arg5 (by decide)).trans ((Keep.region7 m ρ c main_arg5 (by decide)).trans ((Keep.host7 m ρ c main_arg5 (by decide)).trans ((Keep.region6 m ρ c main_arg5 (by decide)).trans ((Keep.host6 m ρ c main_arg5 (by decide)).trans ((Keep.region5 m ρ c main_arg5 (by decide)).trans ((Keep.host5 m ρ c main_arg5 (by decide)).trans ((Keep.region4 m ρ c main_arg5 (by decide)).trans ((Keep.host4 m ρ c main_arg5 (by decide)).trans ((Keep.region3 m ρ c main_arg5 (by decide)).trans ((Keep.host3 m ρ c main_arg5 (by decide)).trans ((Keep.region2 m ρ c main_arg5 (by decide)).trans ((Keep.host2 m ρ c main_arg5 (by decide)).trans ((Keep.region1 m ρ c main_arg5 (by decide)).trans ((Keep.host1 m ρ c main_arg5 (by decide)).trans ((Keep.region0 m ρ c main_arg5 (by decide)).trans ((Keep.host0 m ρ c main_arg5 (by decide)).trans (rfl))))))))))))))))))))))))))))))))))))))))))))))))))))))))]
  rfl

/-- Region 28's result. -/
theorem d_v157 (c : Dev nD) : W58 m ρ c (Proc.devRef .tc main_call0_v157) = dense ((Ik m c).wx 3) ((Ik m c).dxW 3) ((Ik m c).dxb 3) := by
  refine (W58_arr m ρ c 3).trans ?_
  rw [Reg28.arr]
  unfold Reg28.G
  rw [show V57 m ρ c main_call0_v151 = (Ik m c).wx 3 from d_v151 m ρ c]
  rw [show V57 m ρ c main_call0_v153 = (Ik m c).dxW 3 from d_v153 m ρ c]
  rw [show V57 m ρ c main_call0_v156 = (Ik m c).dxb 3 from d_v156 m ρ c]

theorem d_v159 (c : Dev nD) : W59 m ρ c (Proc.devRef .tc main_call0_v159) = (Ik m c).wh 3 := by
  show StableHlo.after hostOps29 (W58 m ρ c) (Proc.devRef .tc main_call0_v159) = _
  dsimp only [hostOps29]
  after_results
  rw [show W58 m ρ c (Proc.devRef .tc main_call0_v1) = (m ((c : Thread nD τ).loc main_arg2)) from (Keep.region28 m ρ c main_call0_v1 (by decide)).trans ((Keep.host28 m ρ c main_call0_v1 (by decide)).trans ((Keep.region27 m ρ c main_call0_v1 (by decide)).trans ((Keep.host27 m ρ c main_call0_v1 (by decide)).trans ((Keep.region26 m ρ c main_call0_v1 (by decide)).trans ((Keep.host26 m ρ c main_call0_v1 (by decide)).trans ((Keep.region25 m ρ c main_call0_v1 (by decide)).trans ((Keep.host25 m ρ c main_call0_v1 (by decide)).trans ((Keep.region24 m ρ c main_call0_v1 (by decide)).trans ((Keep.host24 m ρ c main_call0_v1 (by decide)).trans ((Keep.region23 m ρ c main_call0_v1 (by decide)).trans ((Keep.host23 m ρ c main_call0_v1 (by decide)).trans ((Keep.region22 m ρ c main_call0_v1 (by decide)).trans ((Keep.host22 m ρ c main_call0_v1 (by decide)).trans ((Keep.region21 m ρ c main_call0_v1 (by decide)).trans ((Keep.host21 m ρ c main_call0_v1 (by decide)).trans ((Keep.region20 m ρ c main_call0_v1 (by decide)).trans ((Keep.host20 m ρ c main_call0_v1 (by decide)).trans ((Keep.region19 m ρ c main_call0_v1 (by decide)).trans ((Keep.host19 m ρ c main_call0_v1 (by decide)).trans ((Keep.region18 m ρ c main_call0_v1 (by decide)).trans ((Keep.host18 m ρ c main_call0_v1 (by decide)).trans ((Keep.region17 m ρ c main_call0_v1 (by decide)).trans ((Keep.host17 m ρ c main_call0_v1 (by decide)).trans ((Keep.region16 m ρ c main_call0_v1 (by decide)).trans ((Keep.host16 m ρ c main_call0_v1 (by decide)).trans ((Keep.region15 m ρ c main_call0_v1 (by decide)).trans ((Keep.host15 m ρ c main_call0_v1 (by decide)).trans ((Keep.region14 m ρ c main_call0_v1 (by decide)).trans ((Keep.host14 m ρ c main_call0_v1 (by decide)).trans ((Keep.region13 m ρ c main_call0_v1 (by decide)).trans ((Keep.host13 m ρ c main_call0_v1 (by decide)).trans ((Keep.region12 m ρ c main_call0_v1 (by decide)).trans ((Keep.host12 m ρ c main_call0_v1 (by decide)).trans ((Keep.region11 m ρ c main_call0_v1 (by decide)).trans ((Keep.host11 m ρ c main_call0_v1 (by decide)).trans ((Keep.region10 m ρ c main_call0_v1 (by decide)).trans ((Keep.host10 m ρ c main_call0_v1 (by decide)).trans ((Keep.region9 m ρ c main_call0_v1 (by decide)).trans ((Keep.host9 m ρ c main_call0_v1 (by decide)).trans ((Keep.region8 m ρ c main_call0_v1 (by decide)).trans ((Keep.host8 m ρ c main_call0_v1 (by decide)).trans ((Keep.region7 m ρ c main_call0_v1 (by decide)).trans ((Keep.host7 m ρ c main_call0_v1 (by decide)).trans ((Keep.region6 m ρ c main_call0_v1 (by decide)).trans ((Keep.host6 m ρ c main_call0_v1 (by decide)).trans ((Keep.region5 m ρ c main_call0_v1 (by decide)).trans ((Keep.host5 m ρ c main_call0_v1 (by decide)).trans ((Keep.region4 m ρ c main_call0_v1 (by decide)).trans ((Keep.host4 m ρ c main_call0_v1 (by decide)).trans ((Keep.region3 m ρ c main_call0_v1 (by decide)).trans ((Keep.host3 m ρ c main_call0_v1 (by decide)).trans ((Keep.region2 m ρ c main_call0_v1 (by decide)).trans ((Keep.host2 m ρ c main_call0_v1 (by decide)).trans ((Keep.region1 m ρ c main_call0_v1 (by decide)).trans ((Keep.host1 m ρ c main_call0_v1 (by decide)).trans ((Keep.region0 m ρ c main_call0_v1 (by decide)).trans (d_v1 m ρ c)))))))))))))))))))))))))))))))))))))))))))))))))))))))))]
  rfl

theorem d_v161 (c : Dev nD) : W59 m ρ c (Proc.devRef .tc main_call0_v161) = (Ik m c).dhW 3 := by
  show StableHlo.after hostOps29 (W58 m ρ c) (Proc.devRef .tc main_call0_v161) = _
  dsimp only [hostOps29]
  after_results
  rw [show W58 m ρ c (Proc.devRef .tc main_call0_v3) = (m ((c : Thread nD τ).loc main_arg6)) from (Keep.region28 m ρ c main_call0_v3 (by decide)).trans ((Keep.host28 m ρ c main_call0_v3 (by decide)).trans ((Keep.region27 m ρ c main_call0_v3 (by decide)).trans ((Keep.host27 m ρ c main_call0_v3 (by decide)).trans ((Keep.region26 m ρ c main_call0_v3 (by decide)).trans ((Keep.host26 m ρ c main_call0_v3 (by decide)).trans ((Keep.region25 m ρ c main_call0_v3 (by decide)).trans ((Keep.host25 m ρ c main_call0_v3 (by decide)).trans ((Keep.region24 m ρ c main_call0_v3 (by decide)).trans ((Keep.host24 m ρ c main_call0_v3 (by decide)).trans ((Keep.region23 m ρ c main_call0_v3 (by decide)).trans ((Keep.host23 m ρ c main_call0_v3 (by decide)).trans ((Keep.region22 m ρ c main_call0_v3 (by decide)).trans ((Keep.host22 m ρ c main_call0_v3 (by decide)).trans ((Keep.region21 m ρ c main_call0_v3 (by decide)).trans ((Keep.host21 m ρ c main_call0_v3 (by decide)).trans ((Keep.region20 m ρ c main_call0_v3 (by decide)).trans ((Keep.host20 m ρ c main_call0_v3 (by decide)).trans ((Keep.region19 m ρ c main_call0_v3 (by decide)).trans ((Keep.host19 m ρ c main_call0_v3 (by decide)).trans ((Keep.region18 m ρ c main_call0_v3 (by decide)).trans ((Keep.host18 m ρ c main_call0_v3 (by decide)).trans ((Keep.region17 m ρ c main_call0_v3 (by decide)).trans ((Keep.host17 m ρ c main_call0_v3 (by decide)).trans ((Keep.region16 m ρ c main_call0_v3 (by decide)).trans ((Keep.host16 m ρ c main_call0_v3 (by decide)).trans ((Keep.region15 m ρ c main_call0_v3 (by decide)).trans ((Keep.host15 m ρ c main_call0_v3 (by decide)).trans ((Keep.region14 m ρ c main_call0_v3 (by decide)).trans ((Keep.host14 m ρ c main_call0_v3 (by decide)).trans ((Keep.region13 m ρ c main_call0_v3 (by decide)).trans ((Keep.host13 m ρ c main_call0_v3 (by decide)).trans ((Keep.region12 m ρ c main_call0_v3 (by decide)).trans ((Keep.host12 m ρ c main_call0_v3 (by decide)).trans ((Keep.region11 m ρ c main_call0_v3 (by decide)).trans ((Keep.host11 m ρ c main_call0_v3 (by decide)).trans ((Keep.region10 m ρ c main_call0_v3 (by decide)).trans ((Keep.host10 m ρ c main_call0_v3 (by decide)).trans ((Keep.region9 m ρ c main_call0_v3 (by decide)).trans ((Keep.host9 m ρ c main_call0_v3 (by decide)).trans ((Keep.region8 m ρ c main_call0_v3 (by decide)).trans ((Keep.host8 m ρ c main_call0_v3 (by decide)).trans ((Keep.region7 m ρ c main_call0_v3 (by decide)).trans ((Keep.host7 m ρ c main_call0_v3 (by decide)).trans ((Keep.region6 m ρ c main_call0_v3 (by decide)).trans ((Keep.host6 m ρ c main_call0_v3 (by decide)).trans ((Keep.region5 m ρ c main_call0_v3 (by decide)).trans ((Keep.host5 m ρ c main_call0_v3 (by decide)).trans ((Keep.region4 m ρ c main_call0_v3 (by decide)).trans ((Keep.host4 m ρ c main_call0_v3 (by decide)).trans ((Keep.region3 m ρ c main_call0_v3 (by decide)).trans ((Keep.host3 m ρ c main_call0_v3 (by decide)).trans ((Keep.region2 m ρ c main_call0_v3 (by decide)).trans ((Keep.host2 m ρ c main_call0_v3 (by decide)).trans ((Keep.region1 m ρ c main_call0_v3 (by decide)).trans ((Keep.host1 m ρ c main_call0_v3 (by decide)).trans ((Keep.region0 m ρ c main_call0_v3 (by decide)).trans (d_v3 m ρ c)))))))))))))))))))))))))))))))))))))))))))))))))))))))))]
  rfl

theorem d_v164 (c : Dev nD) : W59 m ρ c (Proc.devRef .tc main_call0_v164) = (Ik m c).dhb 3 := by
  show StableHlo.after hostOps29 (W58 m ρ c) (Proc.devRef .tc main_call0_v164) = _
  dsimp only [hostOps29]
  after_results
  rw [show W58 m ρ c (Proc.devRef .tc main_arg7) = (m ((c : Thread nD τ).loc main_arg7)) from (Keep.region28 m ρ c main_arg7 (by decide)).trans ((Keep.host28 m ρ c main_arg7 (by decide)).trans ((Keep.region27 m ρ c main_arg7 (by decide)).trans ((Keep.host27 m ρ c main_arg7 (by decide)).trans ((Keep.region26 m ρ c main_arg7 (by decide)).trans ((Keep.host26 m ρ c main_arg7 (by decide)).trans ((Keep.region25 m ρ c main_arg7 (by decide)).trans ((Keep.host25 m ρ c main_arg7 (by decide)).trans ((Keep.region24 m ρ c main_arg7 (by decide)).trans ((Keep.host24 m ρ c main_arg7 (by decide)).trans ((Keep.region23 m ρ c main_arg7 (by decide)).trans ((Keep.host23 m ρ c main_arg7 (by decide)).trans ((Keep.region22 m ρ c main_arg7 (by decide)).trans ((Keep.host22 m ρ c main_arg7 (by decide)).trans ((Keep.region21 m ρ c main_arg7 (by decide)).trans ((Keep.host21 m ρ c main_arg7 (by decide)).trans ((Keep.region20 m ρ c main_arg7 (by decide)).trans ((Keep.host20 m ρ c main_arg7 (by decide)).trans ((Keep.region19 m ρ c main_arg7 (by decide)).trans ((Keep.host19 m ρ c main_arg7 (by decide)).trans ((Keep.region18 m ρ c main_arg7 (by decide)).trans ((Keep.host18 m ρ c main_arg7 (by decide)).trans ((Keep.region17 m ρ c main_arg7 (by decide)).trans ((Keep.host17 m ρ c main_arg7 (by decide)).trans ((Keep.region16 m ρ c main_arg7 (by decide)).trans ((Keep.host16 m ρ c main_arg7 (by decide)).trans ((Keep.region15 m ρ c main_arg7 (by decide)).trans ((Keep.host15 m ρ c main_arg7 (by decide)).trans ((Keep.region14 m ρ c main_arg7 (by decide)).trans ((Keep.host14 m ρ c main_arg7 (by decide)).trans ((Keep.region13 m ρ c main_arg7 (by decide)).trans ((Keep.host13 m ρ c main_arg7 (by decide)).trans ((Keep.region12 m ρ c main_arg7 (by decide)).trans ((Keep.host12 m ρ c main_arg7 (by decide)).trans ((Keep.region11 m ρ c main_arg7 (by decide)).trans ((Keep.host11 m ρ c main_arg7 (by decide)).trans ((Keep.region10 m ρ c main_arg7 (by decide)).trans ((Keep.host10 m ρ c main_arg7 (by decide)).trans ((Keep.region9 m ρ c main_arg7 (by decide)).trans ((Keep.host9 m ρ c main_arg7 (by decide)).trans ((Keep.region8 m ρ c main_arg7 (by decide)).trans ((Keep.host8 m ρ c main_arg7 (by decide)).trans ((Keep.region7 m ρ c main_arg7 (by decide)).trans ((Keep.host7 m ρ c main_arg7 (by decide)).trans ((Keep.region6 m ρ c main_arg7 (by decide)).trans ((Keep.host6 m ρ c main_arg7 (by decide)).trans ((Keep.region5 m ρ c main_arg7 (by decide)).trans ((Keep.host5 m ρ c main_arg7 (by decide)).trans ((Keep.region4 m ρ c main_arg7 (by decide)).trans ((Keep.host4 m ρ c main_arg7 (by decide)).trans ((Keep.region3 m ρ c main_arg7 (by decide)).trans ((Keep.host3 m ρ c main_arg7 (by decide)).trans ((Keep.region2 m ρ c main_arg7 (by decide)).trans ((Keep.host2 m ρ c main_arg7 (by decide)).trans ((Keep.region1 m ρ c main_arg7 (by decide)).trans ((Keep.host1 m ρ c main_arg7 (by decide)).trans ((Keep.region0 m ρ c main_arg7 (by decide)).trans ((Keep.host0 m ρ c main_arg7 (by decide)).trans (rfl))))))))))))))))))))))))))))))))))))))))))))))))))))))))))]
  rfl

/-- Region 29's result. -/
theorem d_v165 (c : Dev nD) : W60 m ρ c (Proc.devRef .tc main_call0_v165) = dense ((Ik m c).wh 3) ((Ik m c).dhW 3) ((Ik m c).dhb 3) := by
  refine (W60_arr m ρ c 3).trans ?_
  rw [Reg29.arr]
  unfold Reg29.G
  rw [show V59 m ρ c main_call0_v159 = (Ik m c).wh 3 from d_v159 m ρ c]
  rw [show V59 m ρ c main_call0_v161 = (Ik m c).dhW 3 from d_v161 m ρ c]
  rw [show V59 m ρ c main_call0_v164 = (Ik m c).dhb 3 from d_v164 m ρ c]

theorem d_v168 (c : Dev nD) : W61 m ρ c (Proc.devRef .tc main_call0_v168) = (Ik m c).b 3 := by
  show StableHlo.after hostOps30 (W60 m ρ c) (Proc.devRef .tc main_call0_v168) = _
  dsimp only [hostOps30]
  after_results
  rw [show W60 m ρ c (Proc.devRef .tc main_arg3) = (m ((c : Thread nD τ).loc main_arg3)) from (Keep.region29 m ρ c main_arg3 (by decide)).trans ((Keep.host29 m ρ c main_arg3 (by decide)).trans ((Keep.region28 m ρ c main_arg3 (by decide)).trans ((Keep.host28 m ρ c main_arg3 (by decide)).trans ((Keep.region27 m ρ c main_arg3 (by decide)).trans ((Keep.host27 m ρ c main_arg3 (by decide)).trans ((Keep.region26 m ρ c main_arg3 (by decide)).trans ((Keep.host26 m ρ c main_arg3 (by decide)).trans ((Keep.region25 m ρ c main_arg3 (by decide)).trans ((Keep.host25 m ρ c main_arg3 (by decide)).trans ((Keep.region24 m ρ c main_arg3 (by decide)).trans ((Keep.host24 m ρ c main_arg3 (by decide)).trans ((Keep.region23 m ρ c main_arg3 (by decide)).trans ((Keep.host23 m ρ c main_arg3 (by decide)).trans ((Keep.region22 m ρ c main_arg3 (by decide)).trans ((Keep.host22 m ρ c main_arg3 (by decide)).trans ((Keep.region21 m ρ c main_arg3 (by decide)).trans ((Keep.host21 m ρ c main_arg3 (by decide)).trans ((Keep.region20 m ρ c main_arg3 (by decide)).trans ((Keep.host20 m ρ c main_arg3 (by decide)).trans ((Keep.region19 m ρ c main_arg3 (by decide)).trans ((Keep.host19 m ρ c main_arg3 (by decide)).trans ((Keep.region18 m ρ c main_arg3 (by decide)).trans ((Keep.host18 m ρ c main_arg3 (by decide)).trans ((Keep.region17 m ρ c main_arg3 (by decide)).trans ((Keep.host17 m ρ c main_arg3 (by decide)).trans ((Keep.region16 m ρ c main_arg3 (by decide)).trans ((Keep.host16 m ρ c main_arg3 (by decide)).trans ((Keep.region15 m ρ c main_arg3 (by decide)).trans ((Keep.host15 m ρ c main_arg3 (by decide)).trans ((Keep.region14 m ρ c main_arg3 (by decide)).trans ((Keep.host14 m ρ c main_arg3 (by decide)).trans ((Keep.region13 m ρ c main_arg3 (by decide)).trans ((Keep.host13 m ρ c main_arg3 (by decide)).trans ((Keep.region12 m ρ c main_arg3 (by decide)).trans ((Keep.host12 m ρ c main_arg3 (by decide)).trans ((Keep.region11 m ρ c main_arg3 (by decide)).trans ((Keep.host11 m ρ c main_arg3 (by decide)).trans ((Keep.region10 m ρ c main_arg3 (by decide)).trans ((Keep.host10 m ρ c main_arg3 (by decide)).trans ((Keep.region9 m ρ c main_arg3 (by decide)).trans ((Keep.host9 m ρ c main_arg3 (by decide)).trans ((Keep.region8 m ρ c main_arg3 (by decide)).trans ((Keep.host8 m ρ c main_arg3 (by decide)).trans ((Keep.region7 m ρ c main_arg3 (by decide)).trans ((Keep.host7 m ρ c main_arg3 (by decide)).trans ((Keep.region6 m ρ c main_arg3 (by decide)).trans ((Keep.host6 m ρ c main_arg3 (by decide)).trans ((Keep.region5 m ρ c main_arg3 (by decide)).trans ((Keep.host5 m ρ c main_arg3 (by decide)).trans ((Keep.region4 m ρ c main_arg3 (by decide)).trans ((Keep.host4 m ρ c main_arg3 (by decide)).trans ((Keep.region3 m ρ c main_arg3 (by decide)).trans ((Keep.host3 m ρ c main_arg3 (by decide)).trans ((Keep.region2 m ρ c main_arg3 (by decide)).trans ((Keep.host2 m ρ c main_arg3 (by decide)).trans ((Keep.region1 m ρ c main_arg3 (by decide)).trans ((Keep.host1 m ρ c main_arg3 (by decide)).trans ((Keep.region0 m ρ c main_arg3 (by decide)).trans ((Keep.host0 m ρ c main_arg3 (by decide)).trans (rfl))))))))))))))))))))))))))))))))))))))))))))))))))))))))))))]
  rfl

/-- Region 30's result. -/
theorem d_v0_0 (c : Dev nD) : W62 m ρ c (Proc.devRef .tc main_v0_0) = oGate (Ik m c) := by
  refine (W62_arr m ρ c 5).trans ?_
  rw [Reg30.arr]
  unfold Reg30.G
  rw [show V61 m ρ c main_call0_v157 = dense ((Ik m c).wx 3) ((Ik m c).dxW 3) ((Ik m c).dxb 3) from (Keep.host30 m ρ c main_call0_v157 (by decide)).trans ((Keep.region29 m ρ c main_call0_v157 (by decide)).trans ((Keep.host29 m ρ c main_call0_v157 (by decide)).trans (d_v157 m ρ c)))]
  rw [show V61 m ρ c main_call0_v73 = x2 (Ik m c) from (Keep.host30 m ρ c main_call0_v73 (by decide)).trans ((Keep.region29 m ρ c main_call0_v73 (by decide)).trans ((Keep.host29 m ρ c main_call0_v73 (by decide)).trans ((Keep.region28 m ρ c main_call0_v73 (by decide)).trans ((Keep.host28 m ρ c main_call0_v73 (by decide)).trans ((Keep.region27 m ρ c main_call0_v73 (by decide)).trans ((Keep.host27 m ρ c main_call0_v73 (by decide)).trans ((Keep.region26 m ρ c main_call0_v73 (by decide)).trans ((Keep.host26 m ρ c main_call0_v73 (by decide)).trans ((Keep.region25 m ρ c main_call0_v73 (by decide)).trans ((Keep.host25 m ρ c main_call0_v73 (by decide)).trans ((Keep.region24 m ρ c main_call0_v73 (by decide)).trans ((Keep.host24 m ρ c main_call0_v73 (by decide)).trans ((Keep.region23 m ρ c main_call0_v73 (by decide)).trans ((Keep.host23 m ρ c main_call0_v73 (by decide)).trans ((Keep.region22 m ρ c main_call0_v73 (by decide)).trans ((Keep.host22 m ρ c main_call0_v73 (by decide)).trans ((Keep.region21 m ρ c main_call0_v73 (by decide)).trans ((Keep.host21 m ρ c main_call0_v73 (by decide)).trans ((Keep.region20 m ρ c main_call0_v73 (by decide)).trans ((Keep.host20 m ρ c main_call0_v73 (by decide)).trans ((Keep.region19 m ρ c main_call0_v73 (by decide)).trans ((Keep.host19 m ρ c main_call0_v73 (by decide)).trans ((Keep.region18 m ρ c main_call0_v73 (by decide)).trans ((Keep.host18 m ρ c main_call0_v73 (by decide)).trans ((Keep.region17 m ρ c main_call0_v73 (by decide)).trans ((Keep.host17 m ρ c main_call0_v73 (by decide)).trans ((Keep.region16 m ρ c main_call0_v73 (by decide)).trans ((Keep.host16 m ρ c main_call0_v73 (by decide)).trans ((Keep.region15 m ρ c main_call0_v73 (by decide)).trans ((Keep.host15 m ρ c main_call0_v73 (by decide)).trans ((Keep.region14 m ρ c main_call0_v73 (by decide)).trans (d_v73 m ρ c))))))))))))))))))))))))))))))))]
  rw [show V61 m ρ c main_call0_v165 = dense ((Ik m c).wh 3) ((Ik m c).dhW 3) ((Ik m c).dhb 3) from (Keep.host30 m ρ c main_call0_v165 (by decide)).trans (d_v165 m ρ c)]
  rw [show V61 m ρ c main_call0_v89 = hcF (Ik m c) from (Keep.host30 m ρ c main_call0_v89 (by decide)).trans ((Keep.region29 m ρ c main_call0_v89 (by decide)).trans ((Keep.host29 m ρ c main_call0_v89 (by decide)).trans ((Keep.region28 m ρ c main_call0_v89 (by decide)).trans ((Keep.host28 m ρ c main_call0_v89 (by decide)).trans ((Keep.region27 m ρ c main_call0_v89 (by decide)).trans ((Keep.host27 m ρ c main_call0_v89 (by decide)).trans ((Keep.region26 m ρ c main_call0_v89 (by decide)).trans ((Keep.host26 m ρ c main_call0_v89 (by decide)).trans ((Keep.region25 m ρ c main_call0_v89 (by decide)).trans ((Keep.host25 m ρ c main_call0_v89 (by decide)).trans ((Keep.region24 m ρ c main_call0_v89 (by decide)).trans ((Keep.host24 m ρ c main_call0_v89 (by decide)).trans ((Keep.region23 m ρ c main_call0_v89 (by decide)).trans ((Keep.host23 m ρ c main_call0_v89 (by decide)).trans ((Keep.region22 m ρ c main_call0_v89 (by decide)).trans ((Keep.host22 m ρ c main_call0_v89 (by decide)).trans ((Keep.region21 m ρ c main_call0_v89 (by decide)).trans ((Keep.host21 m ρ c main_call0_v89 (by decide)).trans ((Keep.region20 m ρ c main_call0_v89 (by decide)).trans ((Keep.host20 m ρ c main_call0_v89 (by decide)).trans ((Keep.region19 m ρ c main_call0_v89 (by decide)).trans ((Keep.host19 m ρ c main_call0_v89 (by decide)).trans (d_v89 m ρ c)))))))))))))))))))))))]
  rw [show V61 m ρ c main_call0_v168 = (Ik m c).b 3 from d_v168 m ρ c]
  rfl

theorem d_v170 (c : Dev nD) : W63 m ρ c (Proc.devRef .tc main_call0_v170) = (Ik m c).ccb := by
  show StableHlo.after hostOps31 (W62 m ρ c) (Proc.devRef .tc main_call0_v170) = _
  dsimp only [hostOps31]
  after_results
  rw [show W62 m ρ c (Proc.devRef .tc main_arg16) = (m ((c : Thread nD τ).loc main_arg16)) from (Keep.region30 m ρ c main_arg16 (by decide)).trans ((Keep.host30 m ρ c main_arg16 (by decide)).trans ((Keep.region29 m ρ c main_arg16 (by decide)).trans ((Keep.host29 m ρ c main_arg16 (by decide)).trans ((Keep.region28 m ρ c main_arg16 (by decide)).trans ((Keep.host28 m ρ c main_arg16 (by decide)).trans ((Keep.region27 m ρ c main_arg16 (by decide)).trans ((Keep.host27 m ρ c main_arg16 (by decide)).trans ((Keep.region26 m ρ c main_arg16 (by decide)).trans ((Keep.host26 m ρ c main_arg16 (by decide)).trans ((Keep.region25 m ρ c main_arg16 (by decide)).trans ((Keep.host25 m ρ c main_arg16 (by decide)).trans ((Keep.region24 m ρ c main_arg16 (by decide)).trans ((Keep.host24 m ρ c main_arg16 (by decide)).trans ((Keep.region23 m ρ c main_arg16 (by decide)).trans ((Keep.host23 m ρ c main_arg16 (by decide)).trans ((Keep.region22 m ρ c main_arg16 (by decide)).trans ((Keep.host22 m ρ c main_arg16 (by decide)).trans ((Keep.region21 m ρ c main_arg16 (by decide)).trans ((Keep.host21 m ρ c main_arg16 (by decide)).trans ((Keep.region20 m ρ c main_arg16 (by decide)).trans ((Keep.host20 m ρ c main_arg16 (by decide)).trans ((Keep.region19 m ρ c main_arg16 (by decide)).trans ((Keep.host19 m ρ c main_arg16 (by decide)).trans ((Keep.region18 m ρ c main_arg16 (by decide)).trans ((Keep.host18 m ρ c main_arg16 (by decide)).trans ((Keep.region17 m ρ c main_arg16 (by decide)).trans ((Keep.host17 m ρ c main_arg16 (by decide)).trans ((Keep.region16 m ρ c main_arg16 (by decide)).trans ((Keep.host16 m ρ c main_arg16 (by decide)).trans ((Keep.region15 m ρ c main_arg16 (by decide)).trans ((Keep.host15 m ρ c main_arg16 (by decide)).trans ((Keep.region14 m ρ c main_arg16 (by decide)).trans ((Keep.host14 m ρ c main_arg16 (by decide)).trans ((Keep.region13 m ρ c main_arg16 (by decide)).trans ((Keep.host13 m ρ c main_arg16 (by decide)).trans ((Keep.region12 m ρ c main_arg16 (by decide)).trans ((Keep.host12 m ρ c main_arg16 (by decide)).trans ((Keep.region11 m ρ c main_arg16 (by decide)).trans ((Keep.host11 m ρ c main_arg16 (by decide)).trans ((Keep.region10 m ρ c main_arg16 (by decide)).trans ((Keep.host10 m ρ c main_arg16 (by decide)).trans ((Keep.region9 m ρ c main_arg16 (by decide)).trans ((Keep.host9 m ρ c main_arg16 (by decide)).trans ((Keep.region8 m ρ c main_arg16 (by decide)).trans ((Keep.host8 m ρ c main_arg16 (by decide)).trans ((Keep.region7 m ρ c main_arg16 (by decide)).trans ((Keep.host7 m ρ c main_arg16 (by decide)).trans ((Keep.region6 m ρ c main_arg16 (by decide)).trans ((Keep.host6 m ρ c main_arg16 (by decide)).trans ((Keep.region5 m ρ c main_arg16 (by decide)).trans ((Keep.host5 m ρ c main_arg16 (by decide)).trans ((Keep.region4 m ρ c main_arg16 (by decide)).trans ((Keep.host4 m ρ c main_arg16 (by decide)).trans ((Keep.region3 m ρ c main_arg16 (by decide)).trans ((Keep.host3 m ρ c main_arg16 (by decide)).trans ((Keep.region2 m ρ c main_arg16 (by decide)).trans ((Keep.host2 m ρ c main_arg16 (by decide)).trans ((Keep.region1 m ρ c main_arg16 (by decide)).trans ((Keep.host1 m ρ c main_arg16 (by decide)).trans ((Keep.region0 m ρ c main_arg16 (by decide)).trans ((Keep.host0 m ρ c main_arg16 (by decide)).trans (rfl))))))))))))))))))))))))))))))))))))))))))))))))))))))))))))))]
  rfl

/-- Region 31's result. -/
theorem d_v171 (c : Dev nD) : W64 m ρ c (Proc.devRef .tc main_call0_v171) = c0m (Ik m c) := by
  refine (W64_arr m ρ c 3).trans ?_
  rw [Reg31.arr]
  unfold Reg31.G
  rw [show V63 m ρ c main_call0_v12 = (Ik m c).c0 from (Keep.host31 m ρ c main_call0_v12 (by decide)).trans ((Keep.region30 m ρ c main_call0_v12 (by decide)).trans ((Keep.host30 m ρ c main_call0_v12 (by decide)).trans ((Keep.region29 m ρ c main_call0_v12 (by decide)).trans ((Keep.host29 m ρ c main_call0_v12 (by decide)).trans ((Keep.region28 m ρ c main_call0_v12 (by decide)).trans ((Keep.host28 m ρ c main_call0_v12 (by decide)).trans ((Keep.region27 m ρ c main_call0_v12 (by decide)).trans ((Keep.host27 m ρ c main_call0_v12 (by decide)).trans ((Keep.region26 m ρ c main_call0_v12 (by decide)).trans ((Keep.host26 m ρ c main_call0_v12 (by decide)).trans ((Keep.region25 m ρ c main_call0_v12 (by decide)).trans ((Keep.host25 m ρ c main_call0_v12 (by decide)).trans ((Keep.region24 m ρ c main_call0_v12 (by decide)).trans ((Keep.host24 m ρ c main_call0_v12 (by decide)).trans ((Keep.region23 m ρ c main_call0_v12 (by decide)).trans ((Keep.host23 m ρ c main_call0_v12 (by decide)).trans ((Keep.region22 m ρ c main_call0_v12 (by decide)).trans ((Keep.host22 m ρ c main_call0_v12 (by decide)).trans ((Keep.region21 m ρ c main_call0_v12 (by decide)).trans ((Keep.host21 m ρ c main_call0_v12 (by decide)).trans ((Keep.region20 m ρ c main_call0_v12 (by decide)).trans ((Keep.host20 m ρ c main_call0_v12 (by decide)).trans ((Keep.region19 m ρ c main_call0_v12 (by decide)).trans ((Keep.host19 m ρ c main_call0_v12 (by decide)).trans ((Keep.region18 m ρ c main_call0_v12 (by decide)).trans ((Keep.host18 m ρ c main_call0_v12 (by decide)).trans ((Keep.region17 m ρ c main_call0_v12 (by decide)).trans ((Keep.host17 m ρ c main_call0_v12 (by decide)).trans ((Keep.region16 m ρ c main_call0_v12 (by decide)).trans ((Keep.host16 m ρ c main_call0_v12 (by decide)).trans ((Keep.region15 m ρ c main_call0_v12 (by decide)).trans ((Keep.host15 m ρ c main_call0_v12 (by decide)).trans ((Keep.region14 m ρ c main_call0_v12 (by decide)).trans ((Keep.host14 m ρ c main_call0_v12 (by decide)).trans ((Keep.region13 m ρ c main_call0_v12 (by decide)).trans ((Keep.host13 m ρ c main_call0_v12 (by decide)).trans ((Keep.region12 m ρ c main_call0_v12 (by decide)).trans ((Keep.host12 m ρ c main_call0_v12 (by decide)).trans ((Keep.region11 m ρ c main_call0_v12 (by decide)).trans ((Keep.host11 m ρ c main_call0_v12 (by decide)).trans ((Keep.region10 m ρ c main_call0_v12 (by decide)).trans ((Keep.host10 m ρ c main_call0_v12 (by decide)).trans ((Keep.region9 m ρ c main_call0_v12 (by decide)).trans ((Keep.host9 m ρ c main_call0_v12 (by decide)).trans ((Keep.region8 m ρ c main_call0_v12 (by decide)).trans ((Keep.host8 m ρ c main_call0_v12 (by decide)).trans ((Keep.region7 m ρ c main_call0_v12 (by decide)).trans ((Keep.host7 m ρ c main_call0_v12 (by decide)).trans ((Keep.region6 m ρ c main_call0_v12 (by decide)).trans ((Keep.host6 m ρ c main_call0_v12 (by decide)).trans ((Keep.region5 m ρ c main_call0_v12 (by decide)).trans ((Keep.host5 m ρ c main_call0_v12 (by decide)).trans ((Keep.region4 m ρ c main_call0_v12 (by decide)).trans ((Keep.host4 m ρ c main_call0_v12 (by decide)).trans ((Keep.region3 m ρ c main_call0_v12 (by decide)).trans ((Keep.host3 m ρ c main_call0_v12 (by decide)).trans ((Keep.region2 m ρ c main_call0_v12 (by decide)).trans ((Keep.host2 m ρ c main_call0_v12 (by decide)).trans ((Keep.region1 m ρ c main_call0_v12 (by decide)).trans ((Keep.host1 m ρ c main_call0_v12 (by decide)).trans ((Keep.region0 m ρ c main_call0_v12 (by decide)).trans (d_v12 m ρ c))))))))))))))))))))))))))))))))))))))))))))))))))))))))))))))]
  rw [show V63 m ρ c main_call0_v8 = (Ik m c).ccW from (Keep.host31 m ρ c main_call0_v8 (by decide)).trans ((Keep.region30 m ρ c main_call0_v8 (by decide)).trans ((Keep.host30 m ρ c main_call0_v8 (by decide)).trans ((Keep.region29 m ρ c main_call0_v8 (by decide)).trans ((Keep.host29 m ρ c main_call0_v8 (by decide)).trans ((Keep.region28 m ρ c main_call0_v8 (by decide)).trans ((Keep.host28 m ρ c main_call0_v8 (by decide)).trans ((Keep.region27 m ρ c main_call0_v8 (by decide)).trans ((Keep.host27 m ρ c main_call0_v8 (by decide)).trans ((Keep.region26 m ρ c main_call0_v8 (by decide)).trans ((Keep.host26 m ρ c main_call0_v8 (by decide)).trans ((Keep.region25 m ρ c main_call0_v8 (by decide)).trans ((Keep.host25 m ρ c main_call0_v8 (by decide)).trans ((Keep.region24 m ρ c main_call0_v8 (by decide)).trans ((Keep.host24 m ρ c main_call0_v8 (by decide)).trans ((Keep.region23 m ρ c main_call0_v8 (by decide)).trans ((Keep.host23 m ρ c main_call0_v8 (by decide)).trans ((Keep.region22 m ρ c main_call0_v8 (by decide)).trans ((Keep.host22 m ρ c main_call0_v8 (by decide)).trans ((Keep.region21 m ρ c main_call0_v8 (by decide)).trans ((Keep.host21 m ρ c main_call0_v8 (by decide)).trans ((Keep.region20 m ρ c main_call0_v8 (by decide)).trans ((Keep.host20 m ρ c main_call0_v8 (by decide)).trans ((Keep.region19 m ρ c main_call0_v8 (by decide)).trans ((Keep.host19 m ρ c main_call0_v8 (by decide)).trans ((Keep.region18 m ρ c main_call0_v8 (by decide)).trans ((Keep.host18 m ρ c main_call0_v8 (by decide)).trans ((Keep.region17 m ρ c main_call0_v8 (by decide)).trans ((Keep.host17 m ρ c main_call0_v8 (by decide)).trans ((Keep.region16 m ρ c main_call0_v8 (by decide)).trans ((Keep.host16 m ρ c main_call0_v8 (by decide)).trans ((Keep.region15 m ρ c main_call0_v8 (by decide)).trans ((Keep.host15 m ρ c main_call0_v8 (by decide)).trans ((Keep.region14 m ρ c main_call0_v8 (by decide)).trans ((Keep.host14 m ρ c main_call0_v8 (by decide)).trans ((Keep.region13 m ρ c main_call0_v8 (by decide)).trans ((Keep.host13 m ρ c main_call0_v8 (by decide)).trans ((Keep.region12 m ρ c main_call0_v8 (by decide)).trans ((Keep.host12 m ρ c main_call0_v8 (by decide)).trans ((Keep.region11 m ρ c main_call0_v8 (by decide)).trans ((Keep.host11 m ρ c main_call0_v8 (by decide)).trans ((Keep.region10 m ρ c main_call0_v8 (by decide)).trans ((Keep.host10 m ρ c main_call0_v8 (by decide)).trans ((Keep.region9 m ρ c main_call0_v8 (by decide)).trans ((Keep.host9 m ρ c main_call0_v8 (by decide)).trans ((Keep.region8 m ρ c main_call0_v8 (by decide)).trans ((Keep.host8 m ρ c main_call0_v8 (by decide)).trans ((Keep.region7 m ρ c main_call0_v8 (by decide)).trans ((Keep.host7 m ρ c main_call0_v8 (by decide)).trans ((Keep.region6 m ρ c main_call0_v8 (by decide)).trans ((Keep.host6 m ρ c main_call0_v8 (by decide)).trans ((Keep.region5 m ρ c main_call0_v8 (by decide)).trans ((Keep.host5 m ρ c main_call0_v8 (by decide)).trans ((Keep.region4 m ρ c main_call0_v8 (by decide)).trans ((Keep.host4 m ρ c main_call0_v8 (by decide)).trans ((Keep.region3 m ρ c main_call0_v8 (by decide)).trans ((Keep.host3 m ρ c main_call0_v8 (by decide)).trans ((Keep.region2 m ρ c main_call0_v8 (by decide)).trans ((Keep.host2 m ρ c main_call0_v8 (by decide)).trans ((Keep.region1 m ρ c main_call0_v8 (by decide)).trans ((Keep.host1 m ρ c main_call0_v8 (by decide)).trans ((Keep.region0 m ρ c main_call0_v8 (by decide)).trans (d_v8 m ρ c))))))))))))))))))))))))))))))))))))))))))))))))))))))))))))))]
  rw [show V63 m ρ c main_call0_v170 = (Ik m c).ccb from d_v170 m ρ c]
  rfl

theorem d_v177 (c : Dev nD) : W65 m ρ c (Proc.devRef .tc main_call0_v177) = hcell (Ik m c) := by
  show StableHlo.after hostOps32 (W64 m ρ c) (Proc.devRef .tc main_call0_v177) = _
  dsimp only [hostOps32]
  after_results
  rw [show W64 m ρ c (Proc.devRef .tc main_v0_0) = oGate (Ik m c) from (Keep.region31 m ρ c main_v0_0 (by decide)).trans ((Keep.host31 m ρ c main_v0_0 (by decide)).trans (d_v0_0 m ρ c))]
  rw [show W64 m ρ c (Proc.devRef .tc main_call0_v109) = fGate (Ik m c) from (Keep.region31 m ρ c main_call0_v109 (by decide)).trans ((Keep.host31 m ρ c main_call0_v109 (by decide)).trans ((Keep.region30 m ρ c main_call0_v109 (by decide)).trans ((Keep.host30 m ρ c main_call0_v109 (by decide)).trans ((Keep.region29 m ρ c main_call0_v109 (by decide)).trans ((Keep.host29 m ρ c main_call0_v109 (by decide)).trans ((Keep.region28 m ρ c main_call0_v109 (by decide)).trans ((Keep.host28 m ρ c main_call0_v109 (by decide)).trans ((Keep.region27 m ρ c main_call0_v109 (by decide)).trans ((Keep.host27 m ρ c main_call0_v109 (by decide)).trans ((Keep.region26 m ρ c main_call0_v109 (by decide)).trans ((Keep.host26 m ρ c main_call0_v109 (by decide)).trans ((Keep.region25 m ρ c main_call0_v109 (by decide)).trans ((Keep.host25 m ρ c main_call0_v109 (by decide)).trans ((Keep.region24 m ρ c main_call0_v109 (by decide)).trans ((Keep.host24 m ρ c main_call0_v109 (by decide)).trans ((Keep.region23 m ρ c main_call0_v109 (by decide)).trans ((Keep.host23 m ρ c main_call0_v109 (by decide)).trans ((Keep.region22 m ρ c main_call0_v109 (by decide)).trans ((Keep.host22 m ρ c main_call0_v109 (by decide)).trans (d_v109 m ρ c))))))))))))))))))))]
  rw [show W64 m ρ c (Proc.devRef .tc main_call0_v171) = c0m (Ik m c) from d_v171 m ρ c]
  rw [show W64 m ρ c (Proc.devRef .tc main_call0_v129) = iGate (Ik m c) from (Keep.region31 m ρ c main_call0_v129 (by decide)).trans ((Keep.host31 m ρ c main_call0_v129 (by decide)).trans ((Keep.region30 m ρ c main_call0_v129 (by decide)).trans ((Keep.host30 m ρ c main_call0_v129 (by decide)).trans ((Keep.region29 m ρ c main_call0_v129 (by decide)).trans ((Keep.host29 m ρ c main_call0_v129 (by decide)).trans ((Keep.region28 m ρ c main_call0_v129 (by decide)).trans ((Keep.host28 m ρ c main_call0_v129 (by decide)).trans ((Keep.region27 m ρ c main_call0_v129 (by decide)).trans ((Keep.host27 m ρ c main_call0_v129 (by decide)).trans ((Keep.region26 m ρ c main_call0_v129 (by decide)).trans ((Keep.host26 m ρ c main_call0_v129 (by decide)).trans ((Keep.region25 m ρ c main_call0_v129 (by decide)).trans ((Keep.host25 m ρ c main_call0_v129 (by decide)).trans (d_v129 m ρ c))))))))))))))]
  rw [show W64 m ρ c (Proc.devRef .tc main_call0_v149) = jGate (Ik m c) from (Keep.region31 m ρ c main_call0_v149 (by decide)).trans ((Keep.host31 m ρ c main_call0_v149 (by decide)).trans ((Keep.region30 m ρ c main_call0_v149 (by decide)).trans ((Keep.host30 m ρ c main_call0_v149 (by decide)).trans ((Keep.region29 m ρ c main_call0_v149 (by decide)).trans ((Keep.host29 m ρ c main_call0_v149 (by decide)).trans ((Keep.region28 m ρ c main_call0_v149 (by decide)).trans ((Keep.host28 m ρ c main_call0_v149 (by decide)).trans (d_v149 m ρ c))))))))]
  rfl

theorem d_v178 (c : Dev nD) : W65 m ρ c (Proc.devRef .tc main_call0_v178) = cell (Ik m c) := by
  show StableHlo.after hostOps32 (W64 m ρ c) (Proc.devRef .tc main_call0_v178) = _
  dsimp only [hostOps32]
  after_results
  rw [show W64 m ρ c (Proc.devRef .tc main_call0_v109) = fGate (Ik m c) from (Keep.region31 m ρ c main_call0_v109 (by decide)).trans ((Keep.host31 m ρ c main_call0_v109 (by decide)).trans ((Keep.region30 m ρ c main_call0_v109 (by decide)).trans ((Keep.host30 m ρ c main_call0_v109 (by decide)).trans ((Keep.region29 m ρ c main_call0_v109 (by decide)).trans ((Keep.host29 m ρ c main_call0_v109 (by decide)).trans ((Keep.region28 m ρ c main_call0_v109 (by decide)).trans ((Keep.host28 m ρ c main_call0_v109 (by decide)).trans ((Keep.region27 m ρ c main_call0_v109 (by decide)).trans ((Keep.host27 m ρ c main_call0_v109 (by decide)).trans ((Keep.region26 m ρ c main_call0_v109 (by decide)).trans ((Keep.host26 m ρ c main_call0_v109 (by decide)).trans ((Keep.region25 m ρ c main_call0_v109 (by decide)).trans ((Keep.host25 m ρ c main_call0_v109 (by decide)).trans ((Keep.region24 m ρ c main_call0_v109 (by decide)).trans ((Keep.host24 m ρ c main_call0_v109 (by decide)).trans ((Keep.region23 m ρ c main_call0_v109 (by decide)).trans ((Keep.host23 m ρ c main_call0_v109 (by decide)).trans ((Keep.region22 m ρ c main_call0_v109 (by decide)).trans ((Keep.host22 m ρ c main_call0_v109 (by decide)).trans (d_v109 m ρ c))))))))))))))))))))]
  rw [show W64 m ρ c (Proc.devRef .tc main_call0_v171) = c0m (Ik m c) from d_v171 m ρ c]
  rw [show W64 m ρ c (Proc.devRef .tc main_call0_v129) = iGate (Ik m c) from (Keep.region31 m ρ c main_call0_v129 (by decide)).trans ((Keep.host31 m ρ c main_call0_v129 (by decide)).trans ((Keep.region30 m ρ c main_call0_v129 (by decide)).trans ((Keep.host30 m ρ c main_call0_v129 (by decide)).trans ((Keep.region29 m ρ c main_call0_v129 (by decide)).trans ((Keep.host29 m ρ c main_call0_v129 (by decide)).trans ((Keep.region28 m ρ c main_call0_v129 (by decide)).trans ((Keep.host28 m ρ c main_call0_v129 (by decide)).trans ((Keep.region27 m ρ c main_call0_v129 (by decide)).trans ((Keep.host27 m ρ c main_call0_v129 (by decide)).trans ((Keep.region26 m ρ c main_call0_v129 (by decide)).trans ((Keep.host26 m ρ c main_call0_v129 (by decide)).trans ((Keep.region25 m ρ c main_call0_v129 (by decide)).trans ((Keep.host25 m ρ c main_call0_v129 (by decide)).trans (d_v129 m ρ c))))))))))))))]
  rw [show W64 m ρ c (Proc.devRef .tc main_call0_v149) = jGate (Ik m c) from (Keep.region31 m ρ c main_call0_v149 (by decide)).trans ((Keep.host31 m ρ c main_call0_v149 (by decide)).trans ((Keep.region30 m ρ c main_call0_v149 (by decide)).trans ((Keep.host30 m ρ c main_call0_v149 (by decide)).trans ((Keep.region29 m ρ c main_call0_v149 (by decide)).trans ((Keep.host29 m ρ c main_call0_v149 (by decide)).trans ((Keep.region28 m ρ c main_call0_v149 (by decide)).trans ((Keep.host28 m ρ c main_call0_v149 (by decide)).trans (d_v149 m ρ c))))))))]
  rfl

theorem d_v179 (c : Dev nD) : W65 m ρ c (Proc.devRef .tc main_call0_v179) = (Ik m c).heb := by
  show StableHlo.after hostOps32 (W64 m ρ c) (Proc.devRef .tc main_call0_v179) = _
  dsimp only [hostOps32]
  after_results
  rw [show W64 m ρ c (Proc.devRef .tc main_arg14) = (m ((c : Thread nD τ).loc main_arg14)) from (Keep.region31 m ρ c main_arg14 (by decide)).trans ((Keep.host31 m ρ c main_arg14 (by decide)).trans ((Keep.region30 m ρ c main_arg14 (by decide)).trans ((Keep.host30 m ρ c main_arg14 (by decide)).trans ((Keep.region29 m ρ c main_arg14 (by decide)).trans ((Keep.host29 m ρ c main_arg14 (by decide)).trans ((Keep.region28 m ρ c main_arg14 (by decide)).trans ((Keep.host28 m ρ c main_arg14 (by decide)).trans ((Keep.region27 m ρ c main_arg14 (by decide)).trans ((Keep.host27 m ρ c main_arg14 (by decide)).trans ((Keep.region26 m ρ c main_arg14 (by decide)).trans ((Keep.host26 m ρ c main_arg14 (by decide)).trans ((Keep.region25 m ρ c main_arg14 (by decide)).trans ((Keep.host25 m ρ c main_arg14 (by decide)).trans ((Keep.region24 m ρ c main_arg14 (by decide)).trans ((Keep.host24 m ρ c main_arg14 (by decide)).trans ((Keep.region23 m ρ c main_arg14 (by decide)).trans ((Keep.host23 m ρ c main_arg14 (by decide)).trans ((Keep.region22 m ρ c main_arg14 (by decide)).trans ((Keep.host22 m ρ c main_arg14 (by decide)).trans ((Keep.region21 m ρ c main_arg14 (by decide)).trans ((Keep.host21 m ρ c main_arg14 (by decide)).trans ((Keep.region20 m ρ c main_arg14 (by decide)).trans ((Keep.host20 m ρ c main_arg14 (by decide)).trans ((Keep.region19 m ρ c main_arg14 (by decide)).trans ((Keep.host19 m ρ c main_arg14 (by decide)).trans ((Keep.region18 m ρ c main_arg14 (by decide)).trans ((Keep.host18 m ρ c main_arg14 (by decide)).trans ((Keep.region17 m ρ c main_arg14 (by decide)).trans ((Keep.host17 m ρ c main_arg14 (by decide)).trans ((Keep.region16 m ρ c main_arg14 (by decide)).trans ((Keep.host16 m ρ c main_arg14 (by decide)).trans ((Keep.region15 m ρ c main_arg14 (by decide)).trans ((Keep.host15 m ρ c main_arg14 (by decide)).trans ((Keep.region14 m ρ c main_arg14 (by decide)).trans ((Keep.host14 m ρ c main_arg14 (by decide)).trans ((Keep.region13 m ρ c main_arg14 (by decide)).trans ((Keep.host13 m ρ c main_arg14 (by decide)).trans ((Keep.region12 m ρ c main_arg14 (by decide)).trans ((Keep.host12 m ρ c main_arg14 (by decide)).trans ((Keep.region11 m ρ c main_arg14 (by decide)).trans ((Keep.host11 m ρ c main_arg14 (by decide)).trans ((Keep.region10 m ρ c main_arg14 (by decide)).trans ((Keep.host10 m ρ c main_arg14 (by decide)).trans ((Keep.region9 m ρ c main_arg14 (by decide)).trans ((Keep.host9 m ρ c main_arg14 (by decide)).trans ((Keep.region8 m ρ c main_arg14 (by decide)).trans ((Keep.host8 m ρ c main_arg14 (by decide)).trans ((Keep.region7 m ρ c main_arg14 (by decide)).trans ((Keep.host7 m ρ c main_arg14 (by decide)).trans ((Keep.region6 m ρ c main_arg14 (by decide)).trans ((Keep.host6 m ρ c main_arg14 (by decide)).trans ((Keep.region5 m ρ c main_arg14 (by decide)).trans ((Keep.host5 m ρ c main_arg14 (by decide)).trans ((Keep.region4 m ρ c main_arg14 (by decide)).trans ((Keep.host4 m ρ c main_arg14 (by decide)).trans ((Keep.region3 m ρ c main_arg14 (by decide)).trans ((Keep.host3 m ρ c main_arg14 (by decide)).trans ((Keep.region2 m ρ c main_arg14 (by decide)).trans ((Keep.host2 m ρ c main_arg14 (by decide)).trans ((Keep.region1 m ρ c main_arg14 (by decide)).trans ((Keep.host1 m ρ c main_arg14 (by decide)).trans ((Keep.region0 m ρ c main_arg14 (by decide)).trans ((Keep.host0 m ρ c main_arg14 (by decide)).trans (rfl))))))))))))))))))))))))))))))))))))))))))))))))))))))))))))))))]
  rfl

/-- Region 32's result. -/
theorem d_v0_1 (c : Dev nD) : W66 m ρ c (Proc.devRef .tc main_v0_1) = hNew (Ik m c) := by
  refine (W66_arr m ρ c 3).trans ?_
  rw [Reg32.arr]
  unfold Reg32.G
  rw [show V65 m ρ c main_call0_v177 = hcell (Ik m c) from d_v177 m ρ c]
  rw [show V65 m ρ c main_call0_v7 = (Ik m c).heW from (Keep.host32 m ρ c main_call0_v7 (by decide)).trans ((Keep.region31 m ρ c main_call0_v7 (by decide)).trans ((Keep.host31 m ρ c main_call0_v7 (by decide)).trans ((Keep.region30 m ρ c main_call0_v7 (by decide)).trans ((Keep.host30 m ρ c main_call0_v7 (by decide)).trans ((Keep.region29 m ρ c main_call0_v7 (by decide)).trans ((Keep.host29 m ρ c main_call0_v7 (by decide)).trans ((Keep.region28 m ρ c main_call0_v7 (by decide)).trans ((Keep.host28 m ρ c main_call0_v7 (by decide)).trans ((Keep.region27 m ρ c main_call0_v7 (by decide)).trans ((Keep.host27 m ρ c main_call0_v7 (by decide)).trans ((Keep.region26 m ρ c main_call0_v7 (by decide)).trans ((Keep.host26 m ρ c main_call0_v7 (by decide)).trans ((Keep.region25 m ρ c main_call0_v7 (by decide)).trans ((Keep.host25 m ρ c main_call0_v7 (by decide)).trans ((Keep.region24 m ρ c main_call0_v7 (by decide)).trans ((Keep.host24 m ρ c main_call0_v7 (by decide)).trans ((Keep.region23 m ρ c main_call0_v7 (by decide)).trans ((Keep.host23 m ρ c main_call0_v7 (by decide)).trans ((Keep.region22 m ρ c main_call0_v7 (by decide)).trans ((Keep.host22 m ρ c main_call0_v7 (by decide)).trans ((Keep.region21 m ρ c main_call0_v7 (by decide)).trans ((Keep.host21 m ρ c main_call0_v7 (by decide)).trans ((Keep.region20 m ρ c main_call0_v7 (by decide)).trans ((Keep.host20 m ρ c main_call0_v7 (by decide)).trans ((Keep.region19 m ρ c main_call0_v7 (by decide)).trans ((Keep.host19 m ρ c main_call0_v7 (by decide)).trans ((Keep.region18 m ρ c main_call0_v7 (by decide)).trans ((Keep.host18 m ρ c main_call0_v7 (by decide)).trans ((Keep.region17 m ρ c main_call0_v7 (by decide)).trans ((Keep.host17 m ρ c main_call0_v7 (by decide)).trans ((Keep.region16 m ρ c main_call0_v7 (by decide)).trans ((Keep.host16 m ρ c main_call0_v7 (by decide)).trans ((Keep.region15 m ρ c main_call0_v7 (by decide)).trans ((Keep.host15 m ρ c main_call0_v7 (by decide)).trans ((Keep.region14 m ρ c main_call0_v7 (by decide)).trans ((Keep.host14 m ρ c main_call0_v7 (by decide)).trans ((Keep.region13 m ρ c main_call0_v7 (by decide)).trans ((Keep.host13 m ρ c main_call0_v7 (by decide)).trans ((Keep.region12 m ρ c main_call0_v7 (by decide)).trans ((Keep.host12 m ρ c main_call0_v7 (by decide)).trans ((Keep.region11 m ρ c main_call0_v7 (by decide)).trans ((Keep.host11 m ρ c main_call0_v7 (by decide)).trans ((Keep.region10 m ρ c main_call0_v7 (by decide)).trans ((Keep.host10 m ρ c main_call0_v7 (by decide)).trans ((Keep.region9 m ρ c main_call0_v7 (by decide)).trans ((Keep.host9 m ρ c main_call0_v7 (by decide)).trans ((Keep.region8 m ρ c main_call0_v7 (by decide)).trans ((Keep.host8 m ρ c main_call0_v7 (by decide)).trans ((Keep.region7 m ρ c main_call0_v7 (by decide)).trans ((Keep.host7 m ρ c main_call0_v7 (by decide)).trans ((Keep.region6 m ρ c main_call0_v7 (by decide)).trans ((Keep.host6 m ρ c main_call0_v7 (by decide)).trans ((Keep.region5 m ρ c main_call0_v7 (by decide)).trans ((Keep.host5 m ρ c main_call0_v7 (by decide)).trans ((Keep.region4 m ρ c main_call0_v7 (by decide)).trans ((Keep.host4 m ρ c main_call0_v7 (by decide)).trans ((Keep.region3 m ρ c main_call0_v7 (by decide)).trans ((Keep.host3 m ρ c main_call0_v7 (by decide)).trans ((Keep.region2 m ρ c main_call0_v7 (by decide)).trans ((Keep.host2 m ρ c main_call0_v7 (by decide)).trans ((Keep.region1 m ρ c main_call0_v7 (by decide)).trans ((Keep.host1 m ρ c main_call0_v7 (by decide)).trans ((Keep.region0 m ρ c main_call0_v7 (by decide)).trans (d_v7 m ρ c))))))))))))))))))))))))))))))))))))))))))))))))))))))))))))))))]
  rw [show V65 m ρ c main_call0_v179 = (Ik m c).heb from d_v179 m ρ c]
  rfl

theorem d_v181 (c : Dev nD) : W67 m ρ c (Proc.devRef .tc main_call0_v181) = (Ik m c).ceb := by
  show StableHlo.after hostOps33 (W66 m ρ c) (Proc.devRef .tc main_call0_v181) = _
  dsimp only [hostOps33]
  after_results
  rw [show W66 m ρ c (Proc.devRef .tc main_arg18) = (m ((c : Thread nD τ).loc main_arg18)) from (Keep.region32 m ρ c main_arg18 (by decide)).trans ((Keep.host32 m ρ c main_arg18 (by decide)).trans ((Keep.region31 m ρ c main_arg18 (by decide)).trans ((Keep.host31 m ρ c main_arg18 (by decide)).trans ((Keep.region30 m ρ c main_arg18 (by decide)).trans ((Keep.host30 m ρ c main_arg18 (by decide)).trans ((Keep.region29 m ρ c main_arg18 (by decide)).trans ((Keep.host29 m ρ c main_arg18 (by decide)).trans ((Keep.region28 m ρ c main_arg18 (by decide)).trans ((Keep.host28 m ρ c main_arg18 (by decide)).trans ((Keep.region27 m ρ c main_arg18 (by decide)).trans ((Keep.host27 m ρ c main_arg18 (by decide)).trans ((Keep.region26 m ρ c main_arg18 (by decide)).trans ((Keep.host26 m ρ c main_arg18 (by decide)).trans ((Keep.region25 m ρ c main_arg18 (by decide)).trans ((Keep.host25 m ρ c main_arg18 (by decide)).trans ((Keep.region24 m ρ c main_arg18 (by decide)).trans ((Keep.host24 m ρ c main_arg18 (by decide)).trans ((Keep.region23 m ρ c main_arg18 (by decide)).trans ((Keep.host23 m ρ c main_arg18 (by decide)).trans ((Keep.region22 m ρ c main_arg18 (by decide)).trans ((Keep.host22 m ρ c main_arg18 (by decide)).trans ((Keep.region21 m ρ c main_arg18 (by decide)).trans ((Keep.host21 m ρ c main_arg18 (by decide)).trans ((Keep.region20 m ρ c main_arg18 (by decide)).trans ((Keep.host20 m ρ c main_arg18 (by decide)).trans ((Keep.region19 m ρ c main_arg18 (by decide)).trans ((Keep.host19 m ρ c main_arg18 (by decide)).trans ((Keep.region18 m ρ c main_arg18 (by decide)).trans ((Keep.host18 m ρ c main_arg18 (by decide)).trans ((Keep.region17 m ρ c main_arg18 (by decide)).trans ((Keep.host17 m ρ c main_arg18 (by decide)).trans ((Keep.region16 m ρ c main_arg18 (by decide)).trans ((Keep.host16 m ρ c main_arg18 (by decide)).trans ((Keep.region15 m ρ c main_arg18 (by decide)).trans ((Keep.host15 m ρ c main_arg18 (by decide)).trans ((Keep.region14 m ρ c main_arg18 (by decide)).trans ((Keep.host14 m ρ c main_arg18 (by decide)).trans ((Keep.region13 m ρ c main_arg18 (by decide)).trans ((Keep.host13 m ρ c main_arg18 (by decide)).trans ((Keep.region12 m ρ c main_arg18 (by decide)).trans ((Keep.host12 m ρ c main_arg18 (by decide)).trans ((Keep.region11 m ρ c main_arg18 (by decide)).trans ((Keep.host11 m ρ c main_arg18 (by decide)).trans ((Keep.region10 m ρ c main_arg18 (by decide)).trans ((Keep.host10 m ρ c main_arg18 (by decide)).trans ((Keep.region9 m ρ c main_arg18 (by decide)).trans ((Keep.host9 m ρ c main_arg18 (by decide)).trans ((Keep.region8 m ρ c main_arg18 (by decide)).trans ((Keep.host8 m ρ c main_arg18 (by decide)).trans ((Keep.region7 m ρ c main_arg18 (by decide)).trans ((Keep.host7 m ρ c main_arg18 (by decide)).trans ((Keep.region6 m ρ c main_arg18 (by decide)).trans ((Keep.host6 m ρ c main_arg18 (by decide)).trans ((Keep.region5 m ρ c main_arg18 (by decide)).trans ((Keep.host5 m ρ c main_arg18 (by decide)).trans ((Keep.region4 m ρ c main_arg18 (by decide)).trans ((Keep.host4 m ρ c main_arg18 (by decide)).trans ((Keep.region3 m ρ c main_arg18 (by decide)).trans ((Keep.host3 m ρ c main_arg18 (by decide)).trans ((Keep.region2 m ρ c main_arg18 (by decide)).trans ((Keep.host2 m ρ c main_arg18 (by decide)).trans ((Keep.region1 m ρ c main_arg18 (by decide)).trans ((Keep.host1 m ρ c main_arg18 (by decide)).trans ((Keep.region0 m ρ c main_arg18 (by decide)).trans ((Keep.host0 m ρ c main_arg18 (by decide)).trans (rfl))))))))))))))))))))))))))))))))))))))))))))))))))))))))))))))))))]
  rfl

/-- Region 33's result. -/
theorem d_v0_2 (c : Dev nD) : W68 m ρ c (Proc.devRef .tc main_v0_2) = cNew (Ik m c) := by
  refine (W68_arr m ρ c 3).trans ?_
  rw [Reg33.arr]
  unfold Reg33.G
  rw [show V67 m ρ c main_call0_v178 = cell (Ik m c) from (Keep.host33 m ρ c main_call0_v178 (by decide)).trans ((Keep.region32 m ρ c main_call0_v178 (by decide)).trans (d_v178 m ρ c))]
  rw [show V67 m ρ c main_call0_v9 = (Ik m c).ceW from (Keep.host33 m ρ c main_call0_v9 (by decide)).trans ((Keep.region32 m ρ c main_call0_v9 (by decide)).trans ((Keep.host32 m ρ c main_call0_v9 (by decide)).trans ((Keep.region31 m ρ c main_call0_v9 (by decide)).trans ((Keep.host31 m ρ c main_call0_v9 (by decide)).trans ((Keep.region30 m ρ c main_call0_v9 (by decide)).trans ((Keep.host30 m ρ c main_call0_v9 (by decide)).trans ((Keep.region29 m ρ c main_call0_v9 (by decide)).trans ((Keep.host29 m ρ c main_call0_v9 (by decide)).trans ((Keep.region28 m ρ c main_call0_v9 (by decide)).trans ((Keep.host28 m ρ c main_call0_v9 (by decide)).trans ((Keep.region27 m ρ c main_call0_v9 (by decide)).trans ((Keep.host27 m ρ c main_call0_v9 (by decide)).trans ((Keep.region26 m ρ c main_call0_v9 (by decide)).trans ((Keep.host26 m ρ c main_call0_v9 (by decide)).trans ((Keep.region25 m ρ c main_call0_v9 (by decide)).trans ((Keep.host25 m ρ c main_call0_v9 (by decide)).trans ((Keep.region24 m ρ c main_call0_v9 (by decide)).trans ((Keep.host24 m ρ c main_call0_v9 (by decide)).trans ((Keep.region23 m ρ c main_call0_v9 (by decide)).trans ((Keep.host23 m ρ c main_call0_v9 (by decide)).trans ((Keep.region22 m ρ c main_call0_v9 (by decide)).trans ((Keep.host22 m ρ c main_call0_v9 (by decide)).trans ((Keep.region21 m ρ c main_call0_v9 (by decide)).trans ((Keep.host21 m ρ c main_call0_v9 (by decide)).trans ((Keep.region20 m ρ c main_call0_v9 (by decide)).trans ((Keep.host20 m ρ c main_call0_v9 (by decide)).trans ((Keep.region19 m ρ c main_call0_v9 (by decide)).trans ((Keep.host19 m ρ c main_call0_v9 (by decide)).trans ((Keep.region18 m ρ c main_call0_v9 (by decide)).trans ((Keep.host18 m ρ c main_call0_v9 (by decide)).trans ((Keep.region17 m ρ c main_call0_v9 (by decide)).trans ((Keep.host17 m ρ c main_call0_v9 (by decide)).trans ((Keep.region16 m ρ c main_call0_v9 (by decide)).trans ((Keep.host16 m ρ c main_call0_v9 (by decide)).trans ((Keep.region15 m ρ c main_call0_v9 (by decide)).trans ((Keep.host15 m ρ c main_call0_v9 (by decide)).trans ((Keep.region14 m ρ c main_call0_v9 (by decide)).trans ((Keep.host14 m ρ c main_call0_v9 (by decide)).trans ((Keep.region13 m ρ c main_call0_v9 (by decide)).trans ((Keep.host13 m ρ c main_call0_v9 (by decide)).trans ((Keep.region12 m ρ c main_call0_v9 (by decide)).trans ((Keep.host12 m ρ c main_call0_v9 (by decide)).trans ((Keep.region11 m ρ c main_call0_v9 (by decide)).trans ((Keep.host11 m ρ c main_call0_v9 (by decide)).trans ((Keep.region10 m ρ c main_call0_v9 (by decide)).trans ((Keep.host10 m ρ c main_call0_v9 (by decide)).trans ((Keep.region9 m ρ c main_call0_v9 (by decide)).trans ((Keep.host9 m ρ c main_call0_v9 (by decide)).trans ((Keep.region8 m ρ c main_call0_v9 (by decide)).trans ((Keep.host8 m ρ c main_call0_v9 (by decide)).trans ((Keep.region7 m ρ c main_call0_v9 (by decide)).trans ((Keep.host7 m ρ c main_call0_v9 (by decide)).trans ((Keep.region6 m ρ c main_call0_v9 (by decide)).trans ((Keep.host6 m ρ c main_call0_v9 (by decide)).trans ((Keep.region5 m ρ c main_call0_v9 (by decide)).trans ((Keep.host5 m ρ c main_call0_v9 (by decide)).trans ((Keep.region4 m ρ c main_call0_v9 (by decide)).trans ((Keep.host4 m ρ c main_call0_v9 (by decide)).trans ((Keep.region3 m ρ c main_call0_v9 (by decide)).trans ((Keep.host3 m ρ c main_call0_v9 (by decide)).trans ((Keep.region2 m ρ c main_call0_v9 (by decide)).trans ((Keep.host2 m ρ c main_call0_v9 (by decide)).trans ((Keep.region1 m ρ c main_call0_v9 (by decide)).trans ((Keep.host1 m ρ c main_call0_v9 (by decide)).trans ((Keep.region0 m ρ c main_call0_v9 (by decide)).trans (d_v9 m ρ c))))))))))))))))))))))))))))))))))))))))))))))))))))))))))))))))))]
  rw [show V67 m ρ c main_call0_v181 = (Ik m c).ceb from d_v181 m ρ c]
  rfl

end Cert.KernelIdeal.KVal

end
-- ==== Proof.RefSpec.lean ====
/-
  The reference computes the cell.

  The reference's run states each result as one composed term of whole-array host operations over its argument
  buffers. Reading those terms from the inside out: every dot_general followed by the two bias broadcasts is a dense
  layer, every 1 / (1 + exp (-x)) is the logistic function, twice it the doubled gate, and the sum of two products plus
  a broadcast bias what a gate applies its activation to. Rewritten so, the terms are the cell's chain of array
  functions at the reference's operands, round by round.
-/
import proofs.«113209_j26568667693302_2_alg».proof.Proof.Gen.ReferenceIdeal.Run
import proofs.«113209_j26568667693302_2_alg».proof.Proof.Spec

set_option maxRecDepth 16384

noncomputable section

namespace Cert.ReferenceIdeal.RefValue

open Cert.ReferenceIdeal Cert.ReferenceIdeal.Gen Cert.ReferenceIdeal.Value Idealize.ShloMosaic Idealize.ShloMosaic.TcCoe
open Idealize.ShloMosaic.StableHlo Idealize.SL.Sem Cert.LibDense Cert.Spec

theorem sc1024 : S1024.ShapeCasts S1x1024 := by decide
theorem sc4096 : S4096.ShapeCasts S1x4096 := by decide

/-- Matrix i of a stack of five. -/
def slice5 (A : S5x1024x1024.Idx → EReal) : Fin 5 → Arr 1024 1024
  | ⟨0, _⟩ => shapeCast S1024x1024 (extractStridedSlice S1x1024x1024 ![0, 0, 0] A slices_S5x1024x1024_S1x1024x1024_0_0_0) shapeCasts_S1x1024x1024_S1024x1024
  | ⟨1, _⟩ => shapeCast S1024x1024 (extractStridedSlice S1x1024x1024 ![1, 0, 0] A slices_S5x1024x1024_S1x1024x1024_1_0_0) shapeCasts_S1x1024x1024_S1024x1024
  | ⟨2, _⟩ => shapeCast S1024x1024 (extractStridedSlice S1x1024x1024 ![2, 0, 0] A slices_S5x1024x1024_S1x1024x1024_2_0_0) shapeCasts_S1x1024x1024_S1024x1024
  | ⟨3, _⟩ => shapeCast S1024x1024 (extractStridedSlice S1x1024x1024 ![3, 0, 0] A slices_S5x1024x1024_S1x1024x1024_3_0_0) shapeCasts_S1x1024x1024_S1024x1024
  | ⟨4, _⟩ => shapeCast S1024x1024 (extractStridedSlice S1x1024x1024 ![4, 0, 0] A slices_S5x1024x1024_S1x1024x1024_4_0_0) shapeCasts_S1x1024x1024_S1024x1024
/-- Matrix k of a stack of four. -/
def slice4 (A : S4x1024x1024.Idx → EReal) : Fin 4 → Arr 1024 1024
  | ⟨0, _⟩ => shapeCast S1024x1024 (extractStridedSlice S1x1024x1024 ![0, 0, 0] A slices_S4x1024x1024_S1x1024x1024_0_0_0) shapeCasts_S1x1024x1024_S1024x1024
  | ⟨1, _⟩ => shapeCast S1024x1024 (extractStridedSlice S1x1024x1024 ![1, 0, 0] A slices_S4x1024x1024_S1x1024x1024_1_0_0) shapeCasts_S1x1024x1024_S1024x1024
  | ⟨2, _⟩ => shapeCast S1024x1024 (extractStridedSlice S1x1024x1024 ![2, 0, 0] A slices_S4x1024x1024_S1x1024x1024_2_0_0) shapeCasts_S1x1024x1024_S1024x1024
  | ⟨3, _⟩ => shapeCast S1024x1024 (extractStridedSlice S1x1024x1024 ![3, 0, 0] A slices_S4x1024x1024_S1x1024x1024_3_0_0) shapeCasts_S1x1024x1024_S1024x1024
/-- Row i of a [5, 1024] array, as one row. -/
def row5 (B : S5x1024.Idx → EReal) : Fin 5 → Arr 1 1024
  | ⟨0, _⟩ => shapeCast S1x1024 (shapeCast S1024 (extractStridedSlice S1x1024 ![0, 0] B slices_S5x1024_S1x1024_0_0) shapeCasts_S1x1024_S1024) sc1024
  | ⟨1, _⟩ => shapeCast S1x1024 (shapeCast S1024 (extractStridedSlice S1x1024 ![1, 0] B slices_S5x1024_S1x1024_1_0) shapeCasts_S1x1024_S1024) sc1024
  | ⟨2, _⟩ => shapeCast S1x1024 (shapeCast S1024 (extractStridedSlice S1x1024 ![2, 0] B slices_S5x1024_S1x1024_2_0) shapeCasts_S1x1024_S1024) sc1024
  | ⟨3, _⟩ => shapeCast S1x1024 (shapeCast S1024 (extractStridedSlice S1x1024 ![3, 0] B slices_S5x1024_S1x1024_3_0) shapeCasts_S1x1024_S1024) sc1024
  | ⟨4, _⟩ => shapeCast S1x1024 (shapeCast S1024 (extractStridedSlice S1x1024 ![4, 0] B slices_S5x1024_S1x1024_4_0) shapeCasts_S1x1024_S1024) sc1024
def row4 (B : S4x1024.Idx → EReal) : Fin 4 → Arr 1 1024
  | ⟨0, _⟩ => shapeCast S1x1024 (shapeCast S1024 (extractStridedSlice S1x1024 ![0, 0] B slices_S4x1024_S1x1024_0_0) shapeCasts_S1x1024_S1024) sc1024
  | ⟨1, _⟩ => shapeCast S1x1024 (shapeCast S1024 (extractStridedSlice S1x1024 ![1, 0] B slices_S4x1024_S1x1024_1_0) shapeCasts_S1x1024_S1024) sc1024
  | ⟨2, _⟩ => shapeCast S1x1024 (shapeCast S1024 (extractStridedSlice S1x1024 ![2, 0] B slices_S4x1024_S1x1024_2_0) shapeCasts_S1x1024_S1024) sc1024
  | ⟨3, _⟩ => shapeCast S1x1024 (shapeCast S1024 (extractStridedSlice S1x1024 ![3, 0] B slices_S4x1024_S1x1024_3_0) shapeCasts_S1x1024_S1024) sc1024
def rowb4 (B : S4x4096.Idx → EReal) : Fin 4 → Arr 1 4096
  | ⟨0, _⟩ => shapeCast S1x4096 (shapeCast S4096 (extractStridedSlice S1x4096 ![0, 0] B slices_S4x4096_S1x4096_0_0) shapeCasts_S1x4096_S4096) sc4096
  | ⟨1, _⟩ => shapeCast S1x4096 (shapeCast S4096 (extractStridedSlice S1x4096 ![1, 0] B slices_S4x4096_S1x4096_1_0) shapeCasts_S1x4096_S4096) sc4096
  | ⟨2, _⟩ => shapeCast S1x4096 (shapeCast S4096 (extractStridedSlice S1x4096 ![2, 0] B slices_S4x4096_S1x4096_2_0) shapeCasts_S1x4096_S4096) sc4096
  | ⟨3, _⟩ => shapeCast S1x4096 (shapeCast S4096 (extractStridedSlice S1x4096 ![3, 0] B slices_S4x4096_S1x4096_3_0) shapeCasts_S1x4096_S4096) sc4096

/-- The reference's operands, read off its argument buffers. -/
def Ir (V0 : Valuation τ sig (Elt Ideal)) : Inputs where
  x := V0 (Proc.devRef .tc main_arg0)
  h0 := V0 (Proc.devRef .tc main_arg19)
  c0 := V0 (Proc.devRef .tc main_arg20)
  qk := slice5 (V0 (Proc.devRef .tc main_arg8))
  qkW := slice5 (V0 (Proc.devRef .tc main_arg9))
  qkb := row5 (V0 (Proc.devRef .tc main_arg10))
  hcW := V0 (Proc.devRef .tc main_arg11)
  hcb := shapeCast S1x4096 (V0 (Proc.devRef .tc main_arg12)) sc4096
  heW := V0 (Proc.devRef .tc main_arg13)
  heb := shapeCast S1x1024 (V0 (Proc.devRef .tc main_arg14)) sc1024
  ccW := V0 (Proc.devRef .tc main_arg15)
  ccb := shapeCast S1x4096 (V0 (Proc.devRef .tc main_arg16)) sc4096
  ceW := V0 (Proc.devRef .tc main_arg17)
  ceb := shapeCast S1x1024 (V0 (Proc.devRef .tc main_arg18)) sc1024
  wx := slice4 (V0 (Proc.devRef .tc main_arg1))
  dxW := slice4 (V0 (Proc.devRef .tc main_arg4))
  dxb := row4 (V0 (Proc.devRef .tc main_arg5))
  wh := slice4 (V0 (Proc.devRef .tc main_arg2))
  dhW := slice4 (V0 (Proc.devRef .tc main_arg6))
  dhb := row4 (V0 (Proc.devRef .tc main_arg7))
  b := rowb4 (V0 (Proc.devRef .tc main_arg3))

theorem dotA : dot_S1024x1024_S1024x1024_S1024x1024_1_0_0_1_n_n = DotDims.plain 1024 1024 1024 := rfl
theorem dotB : dot_S1024x1024_S1024x4096_S1024x4096_1_0_0_1_n_n = DotDims.plain 1024 1024 4096 := rfl
theorem dotC : dot_S1024x4096_S4096x1024_S1024x1024_1_0_0_1_n_n = DotDims.plain 1024 4096 1024 := rfl

variable (V0 : Valuation τ sig (Elt Ideal))

/-- Round 0: the reference's hidden state after it. -/
theorem ref_h1 : res_main_v27 (F := Ideal) V0 = h1 (Ir V0) := by
  unfold res_main_v27
  simp only [dotA, dotB, dotC]
  simp only [hostDense (n := 1024) (hs := sc1024), hostDense (n := 4096) (hs := sc4096), hostGatePre (n := 4096) (hs := sc4096)]
  repeat erw [hostSig2]
  repeat erw [hostSigmoid]
  try simp only [hostDot_eq_mm]
  rfl

/-- Round 1: the reference's input after it. -/
theorem ref_x1 : res_main_v51 (F := Ideal) V0 = x1 (Ir V0) := by
  unfold res_main_v51
  simp only [dotA, dotB, dotC]
  simp only [hostDense (n := 1024) (hs := sc1024), hostDense (n := 4096) (hs := sc4096), hostGatePre (n := 4096) (hs := sc4096)]
  repeat erw [hostSig2]
  repeat erw [hostSigmoid]
  try simp only [hostDot_eq_mm]
  simp only [ref_h1]
  rfl

theorem ref_h2 : res_main_v79 (F := Ideal) V0 = h2 (Ir V0) := by
  unfold res_main_v79
  simp only [dotA, dotB, dotC]
  simp only [hostDense (n := 1024) (hs := sc1024), hostDense (n := 4096) (hs := sc4096), hostGatePre (n := 4096) (hs := sc4096)]
  repeat erw [hostSig2]
  repeat erw [hostSigmoid]
  try simp only [hostDot_eq_mm]
  simp only [ref_h1, ref_x1]
  rfl

theorem ref_x2 : res_main_v103 (F := Ideal) V0 = x2 (Ir V0) := by
  unfold res_main_v103
  simp only [dotA, dotB, dotC]
  simp only [hostDense (n := 1024) (hs := sc1024), hostDense (n := 4096) (hs := sc4096), hostGatePre (n := 4096) (hs := sc4096)]
  repeat erw [hostSig2]
  repeat erw [hostSigmoid]
  try simp only [hostDot_eq_mm]
  simp only [ref_h2, ref_x1]
  rfl

/-- The contracted hidden state after the last round. -/
theorem ref_hcF : res_main_v135 (F := Ideal) V0 = hcF (Ir V0) := by
  unfold res_main_v135
  simp only [dotA, dotB, dotC]
  simp only [hostDense (n := 1024) (hs := sc1024), hostDense (n := 4096) (hs := sc4096), hostGatePre (n := 4096) (hs := sc4096)]
  repeat erw [hostSig2]
  repeat erw [hostSigmoid]
  try simp only [hostDot_eq_mm]
  simp only [ref_h2, ref_x2]
  rfl

/-- The cell state. -/
theorem ref_cell : res_main_v273 (F := Ideal) V0 = cell (Ir V0) := by
  unfold res_main_v273
  simp only [dotA, dotB, dotC]
  simp only [hostDense (n := 1024) (hs := sc1024), hostDense (n := 4096) (hs := sc4096), hostGatePre (n := 4096) (hs := sc4096)]
  repeat erw [hostSig2]
  repeat erw [hostSigmoid]
  try simp only [hostDot_eq_mm]
  simp only [ref_x2, ref_hcF]
  rfl

/-- The reference's three results. -/
theorem ref_o : val6 (F := Ideal) V0 (Proc.devRef .tc main_v266) = oGate (Ir V0) := by
  rw [val6_main_v266]
  simp only [dotA, dotB, dotC]
  simp only [hostDense (n := 1024) (hs := sc1024), hostDense (n := 4096) (hs := sc4096), hostGatePre (n := 4096) (hs := sc4096)]
  repeat erw [hostSig2]
  repeat erw [hostSigmoid]
  try simp only [hostDot_eq_mm]
  simp only [ref_x2, ref_hcF]
  rfl

theorem ref_hNew : val6 (F := Ideal) V0 (Proc.devRef .tc main_v279) = hNew (Ir V0) := by
  rw [val6_main_v279]
  simp only [dotA, dotB, dotC]
  simp only [hostDense (n := 1024) (hs := sc1024), hostDense (n := 4096) (hs := sc4096), hostGatePre (n := 4096) (hs := sc4096)]
  repeat erw [hostSig2]
  repeat erw [hostSigmoid]
  try simp only [hostDot_eq_mm]
  simp only [ref_x2, ref_hcF, ref_cell]
  rfl

theorem ref_cNew : val6 (F := Ideal) V0 (Proc.devRef .tc main_v283) = cNew (Ir V0) := by
  rw [val6_main_v283]
  simp only [dotA, dotB, dotC]
  simp only [hostDense (n := 1024) (hs := sc1024), hostDense (n := 4096) (hs := sc4096), hostGatePre (n := 4096) (hs := sc4096)]
  repeat erw [hostSig2]
  repeat erw [hostSigmoid]
  try simp only [hostDot_eq_mm]
  simp only [ref_cell]
  rfl

end Cert.ReferenceIdeal.RefValue

end
-- ==== Proof.lean ====
/-
  The certificate: the tiled cell and the whole-array cell compute the same three arrays.

  Both programs run to completion with their arguments unchanged (the tiled program's frames are the generated
  ones; the reference's is its generated run with the results dropped). The idealization rewrote nothing. Over the
  extended reals the tiled program's thirty-four regions and the stretches between them leave, in its three result
  buffers, the output gate, the new hidden state and the new cell state of the cell's chain of array functions at
  the program's operands; the reference's run leaves the same chain at its own operands; and the operands agree when
  the argument buffers do. No finiteness of the inputs is used: every step is a regrouping of sums and products.
-/
import proofs.«113209_j26568667693302_2_alg».proof.Defs
import proofs.«113209_j26568667693302_2_alg».proof.Proof.Gen.Kernel
import proofs.«113209_j26568667693302_2_alg».proof.Proof.Gen.Kernel.Frame
import proofs.«113209_j26568667693302_2_alg».proof.Proof.Gen.KernelIdeal
import proofs.«113209_j26568667693302_2_alg».proof.Proof.Gen.KernelIdeal.Frame
import proofs.«113209_j26568667693302_2_alg».proof.Proof.Gen.ReferenceIdeal
import proofs.«113209_j26568667693302_2_alg».proof.Proof.Gen.ReferenceIdeal.Run
import proofs.«113209_j26568667693302_2_alg».proof.Proof.Gen.Pre_finite_inputs
import proofs.«113209_j26568667693302_2_alg».proof.Proof.KernelRun
import proofs.«113209_j26568667693302_2_alg».proof.Proof.Vals
import proofs.«113209_j26568667693302_2_alg».proof.Proof.RefSpec
import Idealize.ShloMosaic.Adequacy
import Idealize.ShloMosaic.Init

set_option maxRecDepth 16384

noncomputable section

namespace Cert.Proof

open Idealize.ShloMosaic Idealize.ShloMosaic.TcCoe Idealize.SL.Sem

/-- The two programs cut their stacks into the same matrices and rows. -/
theorem slice5_eq : Cert.ReferenceIdeal.RefValue.slice5 = Cert.KernelIdeal.KVal.slice5 := by
  funext A i; fin_cases i <;> rfl
theorem slice4_eq : Cert.ReferenceIdeal.RefValue.slice4 = Cert.KernelIdeal.KVal.slice4 := by
  funext A i; fin_cases i <;> rfl
theorem row5_eq : Cert.ReferenceIdeal.RefValue.row5 = Cert.KernelIdeal.KVal.row5 := by
  funext A i; fin_cases i <;> rfl
theorem row4_eq : Cert.ReferenceIdeal.RefValue.row4 = Cert.KernelIdeal.KVal.row4 := by
  funext A i; fin_cases i <;> rfl
theorem rowb4_eq : Cert.ReferenceIdeal.RefValue.rowb4 = Cert.KernelIdeal.KVal.rowb4 := by
  funext A i; fin_cases i <;> rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- From memories agreeing on the arguments, both idealized programs end with the cell's three arrays. -/
theorem algebraic : Cert.algebraic_KernelIdeal_ReferenceIdeal := by
  intro m ρ m' ρ' _ hagree
  refine ⟨fun c => Cert.Spec.oGate (Cert.KernelIdeal.KVal.Ik m c), fun c => Cert.Spec.hNew (Cert.KernelIdeal.KVal.Ik m c),
    fun c => Cert.Spec.cNew (Cert.KernelIdeal.KVal.Ik m c), ?_, ?_⟩
  · refine (θ_run Cert.KernelIdeal.defs _ _).mono (fun r h c => ?_) (Cert.KernelIdeal.Gen.run_results (F := Ideal) m ρ)
    obtain ⟨⟨h0, h1, h2⟩, hall⟩ := h c
    exact ⟨h0.trans (Cert.KernelIdeal.KVal.d_v0_0 m ρ c), h1.trans (Cert.KernelIdeal.KVal.d_v0_1 m ρ c),
      h2.trans (Cert.KernelIdeal.KVal.d_v0_2 m ρ c),
      (hall _ (Cert.KernelIdeal.Gen.mem_uc Cert.KernelIdeal.main_arg0 (by decide))).trans (Cert.KernelIdeal.Gen.W68_main_arg0 m ρ c),
      (hall _ (Cert.KernelIdeal.Gen.mem_uc Cert.KernelIdeal.main_arg1 (by decide))).trans (Cert.KernelIdeal.Gen.W68_main_arg1 m ρ c),
      (hall _ (Cert.KernelIdeal.Gen.mem_uc Cert.KernelIdeal.main_arg2 (by decide))).trans (Cert.KernelIdeal.Gen.W68_main_arg2 m ρ c),
      (hall _ (Cert.KernelIdeal.Gen.mem_uc Cert.KernelIdeal.main_arg3 (by decide))).trans (Cert.KernelIdeal.Gen.W68_main_arg3 m ρ c),
      (hall _ (Cert.KernelIdeal.Gen.mem_uc Cert.KernelIdeal.main_arg4 (by decide))).trans (Cert.KernelIdeal.Gen.W68_main_arg4 m ρ c),
      (hall _ (Cert.KernelIdeal.Gen.mem_uc Cert.KernelIdeal.main_arg5 (by decide))).trans (Cert.KernelIdeal.Gen.W68_main_arg5 m ρ c),
      (hall _ (Cert.KernelIdeal.Gen.mem_uc Cert.KernelIdeal.main_arg6 (by decide))).trans (Cert.KernelIdeal.Gen.W68_main_arg6 m ρ c),
      (hall _ (Cert.KernelIdeal.Gen.mem_uc Cert.KernelIdeal.main_arg7 (by decide))).trans (Cert.KernelIdeal.Gen.W68_main_arg7 m ρ c),
      (hall _ (Cert.KernelIdeal.Gen.mem_uc Cert.KernelIdeal.main_arg8 (by decide))).trans (Cert.KernelIdeal.Gen.W68_main_arg8 m ρ c),
      (hall _ (Cert.KernelIdeal.Gen.mem_uc Cert.KernelIdeal.main_arg9 (by decide))).trans (Cert.KernelIdeal.Gen.W68_main_arg9 m ρ c),
      (hall _ (Cert.KernelIdeal.Gen.mem_uc Cert.KernelIdeal.main_arg10 (by decide))).trans (Cert.KernelIdeal.Gen.W68_main_arg10 m ρ c),
      (hall _ (Cert.KernelIdeal.Gen.mem_uc Cert.KernelIdeal.main_arg11 (by decide))).trans (Cert.KernelIdeal.Gen.W68_main_arg11 m ρ c),
      (hall _ (Cert.KernelIdeal.Gen.mem_uc Cert.KernelIdeal.main_arg12 (by decide))).trans (Cert.KernelIdeal.Gen.W68_main_arg12 m ρ c),
      (hall _ (Cert.KernelIdeal.Gen.mem_uc Cert.KernelIdeal.main_arg13 (by decide))).trans (Cert.KernelIdeal.Gen.W68_main_arg13 m ρ c),
      (hall _ (Cert.KernelIdeal.Gen.mem_uc Cert.KernelIdeal.main_arg14 (by decide))).trans (Cert.KernelIdeal.Gen.W68_main_arg14 m ρ c),
      (hall _ (Cert.KernelIdeal.Gen.mem_uc Cert.KernelIdeal.main_arg15 (by decide))).trans (Cert.KernelIdeal.Gen.W68_main_arg15 m ρ c),
      (hall _ (Cert.KernelIdeal.Gen.mem_uc Cert.KernelIdeal.main_arg16 (by decide))).trans (Cert.KernelIdeal.Gen.W68_main_arg16 m ρ c),
      (hall _ (Cert.KernelIdeal.Gen.mem_uc Cert.KernelIdeal.main_arg17 (by decide))).trans (Cert.KernelIdeal.Gen.W68_main_arg17 m ρ c),
      (hall _ (Cert.KernelIdeal.Gen.mem_uc Cert.KernelIdeal.main_arg18 (by decide))).trans (Cert.KernelIdeal.Gen.W68_main_arg18 m ρ c),
      (hall _ (Cert.KernelIdeal.Gen.mem_uc Cert.KernelIdeal.main_arg19 (by decide))).trans (Cert.KernelIdeal.Gen.W68_main_arg19 m ρ c),
      (hall _ (Cert.KernelIdeal.Gen.mem_uc Cert.KernelIdeal.main_arg20 (by decide))).trans (Cert.KernelIdeal.Gen.W68_main_arg20 m ρ c)⟩
  · refine (θ_run Cert.ReferenceIdeal.defs _ _).mono (fun r h c => ?_) (Cert.ReferenceIdeal.Value.run (F := Ideal) m' ρ')
    obtain ⟨h0, h1, h2, hargs⟩ := h c
    obtain ⟨a0, a1, a2, a3, a4, a5, a6, a7, a8, a9, a10, a11, a12, a13, a14, a15, a16, a17, a18, a19, a20⟩ := hagree c
    have hI : Cert.ReferenceIdeal.RefValue.Ir (StableHlo.launchContents m' c) = Cert.KernelIdeal.KVal.Ik m c := by
      unfold Cert.ReferenceIdeal.RefValue.Ir Cert.KernelIdeal.KVal.Ik
      rw [show StableHlo.launchContents m' c (Proc.devRef .tc Cert.ReferenceIdeal.main_arg0) = m ((c : Thread Cert.KernelIdeal.nD Cert.KernelIdeal.τ).loc Cert.KernelIdeal.main_arg0) from a0,
      show StableHlo.launchContents m' c (Proc.devRef .tc Cert.ReferenceIdeal.main_arg1) = m ((c : Thread Cert.KernelIdeal.nD Cert.KernelIdeal.τ).loc Cert.KernelIdeal.main_arg1) from a1,
      show StableHlo.launchContents m' c (Proc.devRef .tc Cert.ReferenceIdeal.main_arg2) = m ((c : Thread Cert.KernelIdeal.nD Cert.KernelIdeal.τ).loc Cert.KernelIdeal.main_arg2) from a2,
      show StableHlo.launchContents m' c (Proc.devRef .tc Cert.ReferenceIdeal.main_arg3) = m ((c : Thread Cert.KernelIdeal.nD Cert.KernelIdeal.τ).loc Cert.KernelIdeal.main_arg3) from a3,
      show StableHlo.launchContents m' c (Proc.devRef .tc Cert.ReferenceIdeal.main_arg4) = m ((c : Thread Cert.KernelIdeal.nD Cert.KernelIdeal.τ).loc Cert.KernelIdeal.main_arg4) from a4,
      show StableHlo.launchContents m' c (Proc.devRef .tc Cert.ReferenceIdeal.main_arg5) = m ((c : Thread Cert.KernelIdeal.nD Cert.KernelIdeal.τ).loc Cert.KernelIdeal.main_arg5) from a5,
      show StableHlo.launchContents m' c (Proc.devRef .tc Cert.ReferenceIdeal.main_arg6) = m ((c : Thread Cert.KernelIdeal.nD Cert.KernelIdeal.τ).loc Cert.KernelIdeal.main_arg6) from a6,
      show StableHlo.launchContents m' c (Proc.devRef .tc Cert.ReferenceIdeal.main_arg7) = m ((c : Thread Cert.KernelIdeal.nD Cert.KernelIdeal.τ).loc Cert.KernelIdeal.main_arg7) from a7,
      show StableHlo.launchContents m' c (Proc.devRef .tc Cert.ReferenceIdeal.main_arg8) = m ((c : Thread Cert.KernelIdeal.nD Cert.KernelIdeal.τ).loc Cert.KernelIdeal.main_arg8) from a8,
      show StableHlo.launchContents m' c (Proc.devRef .tc Cert.ReferenceIdeal.main_arg9) = m ((c : Thread Cert.KernelIdeal.nD Cert.KernelIdeal.τ).loc Cert.KernelIdeal.main_arg9) from a9,
      show StableHlo.launchContents m' c (Proc.devRef .tc Cert.ReferenceIdeal.main_arg10) = m ((c : Thread Cert.KernelIdeal.nD Cert.KernelIdeal.τ).loc Cert.KernelIdeal.main_arg10) from a10,
      show StableHlo.launchContents m' c (Proc.devRef .tc Cert.ReferenceIdeal.main_arg11) = m ((c : Thread Cert.KernelIdeal.nD Cert.KernelIdeal.τ).loc Cert.KernelIdeal.main_arg11) from a11,
      show StableHlo.launchContents m' c (Proc.devRef .tc Cert.ReferenceIdeal.main_arg12) = m ((c : Thread Cert.KernelIdeal.nD Cert.KernelIdeal.τ).loc Cert.KernelIdeal.main_arg12) from a12,
      show StableHlo.launchContents m' c (Proc.devRef .tc Cert.ReferenceIdeal.main_arg13) = m ((c : Thread Cert.KernelIdeal.nD Cert.KernelIdeal.τ).loc Cert.KernelIdeal.main_arg13) from a13,
      show StableHlo.launchContents m' c (Proc.devRef .tc Cert.ReferenceIdeal.main_arg14) = m ((c : Thread Cert.KernelIdeal.nD Cert.KernelIdeal.τ).loc Cert.KernelIdeal.main_arg14) from a14,
      show StableHlo.launchContents m' c (Proc.devRef .tc Cert.ReferenceIdeal.main_arg15) = m ((c : Thread Cert.KernelIdeal.nD Cert.KernelIdeal.τ).loc Cert.KernelIdeal.main_arg15) from a15,
      show StableHlo.launchContents m' c (Proc.devRef .tc Cert.ReferenceIdeal.main_arg16) = m ((c : Thread Cert.KernelIdeal.nD Cert.KernelIdeal.τ).loc Cert.KernelIdeal.main_arg16) from a16,
      show StableHlo.launchContents m' c (Proc.devRef .tc Cert.ReferenceIdeal.main_arg17) = m ((c : Thread Cert.KernelIdeal.nD Cert.KernelIdeal.τ).loc Cert.KernelIdeal.main_arg17) from a17,
      show StableHlo.launchContents m' c (Proc.devRef .tc Cert.ReferenceIdeal.main_arg18) = m ((c : Thread Cert.KernelIdeal.nD Cert.KernelIdeal.τ).loc Cert.KernelIdeal.main_arg18) from a18,
      show StableHlo.launchContents m' c (Proc.devRef .tc Cert.ReferenceIdeal.main_arg19) = m ((c : Thread Cert.KernelIdeal.nD Cert.KernelIdeal.τ).loc Cert.KernelIdeal.main_arg19) from a19,
      show StableHlo.launchContents m' c (Proc.devRef .tc Cert.ReferenceIdeal.main_arg20) = m ((c : Thread Cert.KernelIdeal.nD Cert.KernelIdeal.τ).loc Cert.KernelIdeal.main_arg20) from a20]
      rw [slice5_eq, slice4_eq, row5_eq, row4_eq, rowb4_eq]
    refine ⟨h0.trans ?_, h1.trans ?_, h2.trans ?_, hargs⟩
    · exact ((Cert.ReferenceIdeal.Value.val6_main_v266 (StableHlo.launchContents m' c)).symm.trans
        (Cert.ReferenceIdeal.RefValue.ref_o (StableHlo.launchContents m' c))).trans (congrArg Cert.Spec.oGate hI)
    · exact ((Cert.ReferenceIdeal.Value.val6_main_v279 (StableHlo.launchContents m' c)).symm.trans
        (Cert.ReferenceIdeal.RefValue.ref_hNew (StableHlo.launchContents m' c))).trans (congrArg Cert.Spec.hNew hI)
    · exact ((Cert.ReferenceIdeal.Value.val6_main_v283 (StableHlo.launchContents m' c)).symm.trans
        (Cert.ReferenceIdeal.RefValue.ref_cNew (StableHlo.launchContents m' c))).trans (congrArg Cert.Spec.cNew hI)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
